-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x26 : Shape := ⟨2, ![16384, 26]⟩
abbrev S2600000x1 : Shape := ⟨2, ![2600000, 1]⟩
abbrev S1 : Shape := ⟨1, ![1]⟩
abbrev S_ : Shape := ⟨0, ![]⟩

class Facts : Prop where
  bcast_S_S2600000x1 : S_.BroadcastsInDim S2600000x1 (![] : Fin 0 → Fin S2600000x1.rank)
  reducesTo_S2600000x1_S_d0_1 : S2600000x1.ReducesTo [0, 1] S_
  h_S_ : 0 < S_.numel
  bcast_S_S1 : S_.BroadcastsInDim S1 (![] : Fin 0 → Fin S1.rank)
  reducesTo_S1_S_d0 : S1.ReducesTo [0] S_
  bcast_S_S16384x26 : S_.BroadcastsInDim S16384x26 (![] : Fin 0 → Fin S16384x26.rank)
  reducesTo_S16384x26_S_d0_1 : S16384x26.ReducesTo [0, 1] S_

variable [Facts]

def fn {F : FTy → Type} [FloatOps F] (main_arg0 : IVec S16384x26 32) (main_arg1 : FVec F S2600000x1 .f32) (main_arg2 : FVec F S1 .f32) : IVec S_ 1 :=
  let main_v0 : FVec F S2600000x1 .f32 := Host.absf main_arg1
  let main_cst : FVec F S_ .f32 := constant S_ .f32 0x7F800000#32
  let main_v1 : FVec F S2600000x1 .f32 := broadcastInDim S2600000x1 ![] bcast_S_S2600000x1 main_cst
  let main_v2 : IVec S2600000x1 1 := cmpf .olt main_v0 main_v1
  let main_c : IVec S_ 1 := constantI S_ 1 1#1
  let main_v3 : IVec S_ 1 := (fun x v => Host.reduce IntOp.andi x v reducesTo_S2600000x1_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_c_2 : IVec S_ 32 := constantI S_ 32 0#32
  let main_v9 : IVec S16384x26 32 := broadcastInDim S16384x26 ![] bcast_S_S16384x26 main_c_2
  let main_v10 : IVec S16384x26 1 := cmpi .sge main_arg0 main_v9
  let main_c_3 : IVec S_ 32 := constantI S_ 32 99999#32
  let main_v11 : IVec S16384x26 32 := broadcastInDim S16384x26 ![] bcast_S_S16384x26 main_c_3
  let main_v12 : IVec S16384x26 1 := cmpi .sle main_arg0 main_v11
  let main_v13 : IVec S16384x26 1 := andi main_v10 main_v12
  let main_c_4 : IVec S_ 1 := constantI S_ 1 1#1
  let main_v14 : IVec S_ 1 := (fun x v => Host.reduce IntOp.andi x v reducesTo_S16384x26_S_d0_1 h_S_) main_v13 main_c_4
  let main_v15 : IVec S_ 1 := andi main_v8 main_v14
  main_v15
-- ==== Kernel.lean ====
abbrev S16384x26 : Shape := ⟨2, ![16384, 26]⟩
abbrev S2600000x1 : Shape := ⟨2, ![2600000, 1]⟩
abbrev S1 : Shape := ⟨1, ![1]⟩
abbrev S26x16384 : Shape := ⟨2, ![26, 16384]⟩
abbrev S1300000x1 : Shape := ⟨2, ![1300000, 1]⟩
abbrev S1300000 : Shape := ⟨1, ![1300000]⟩
abbrev S1x128 : Shape := ⟨2, ![1, 128]⟩
abbrev S32768 : Shape := ⟨1, ![32768]⟩
abbrev S100096 : Shape := ⟨1, ![100096]⟩
abbrev S4096 : Shape := ⟨1, ![4096]⟩
abbrev S2048 : Shape := ⟨1, ![2048]⟩
abbrev S3584 : Shape := ⟨1, ![3584]⟩
abbrev S1024 : Shape := ⟨1, ![1024]⟩
abbrev S114688 : Shape := ⟨1, ![114688]⟩
abbrev S_ : Shape := ⟨0, ![]⟩
abbrev S100000 : Shape := ⟨1, ![100000]⟩
abbrev S1x2048 : Shape := ⟨2, ![1, 2048]⟩
abbrev S16 : Shape := ⟨1, ![16]⟩
abbrev S512 : Shape := ⟨1, ![512]⟩
abbrev S2x128x128 : Shape := ⟨3, ![2, 128, 128]⟩
abbrev S128x128 : Shape := ⟨2, ![128, 128]⟩
abbrev S1x128x128 : Shape := ⟨3, ![1, 128, 128]⟩
abbrev S16384x1 : Shape := ⟨2, ![16384, 1]⟩

abbrev nBuf : Table → Nat
  | .hbm => 15
  | .local .tc .vmem => 4
  | .shared => 2
  | .local .scVector .vmem => 10
  | _ => 0

abbrev bufTy : (tb : Table) → Fin (nBuf tb) → BufTy
  | .hbm, ⟨0, _⟩ => ⟨S16384x26, .i32⟩
  | .hbm, ⟨1, _⟩ => ⟨S2600000x1, .f32⟩
  | .hbm, ⟨2, _⟩ => ⟨S1, .f32⟩
  | .hbm, ⟨3, _⟩ => ⟨S26x16384, .i32⟩
  | .hbm, ⟨4, _⟩ => ⟨S1300000x1, .f32⟩
  | .hbm, ⟨5, _⟩ => ⟨S1300000, .f32⟩
  | .hbm, ⟨6, _⟩ => ⟨S1300000x1, .f32⟩
  | .hbm, ⟨7, _⟩ => ⟨S1300000, .f32⟩
  | .hbm, ⟨8, _⟩ => ⟨S1x128, .f32⟩
  | .hbm, ⟨9, _⟩ => ⟨S32768, .f32⟩
  | .hbm, ⟨10, _⟩ => ⟨S32768, .f32⟩
  | .hbm, ⟨11, _⟩ => ⟨S2x128x128, .f32⟩
  | .hbm, ⟨12, _⟩ => ⟨S2x128x128, .f32⟩
  | .hbm, ⟨13, _⟩ => ⟨S128x128, .f32⟩
  | .hbm, ⟨14, _⟩ => ⟨S16384x1, .f32⟩
  | .local .tc .vmem, ⟨0, _⟩ => ⟨S2x128x128, .f32⟩
  | .local .tc .vmem, ⟨1, _⟩ => ⟨S2x128x128, .f32⟩
  | .local .tc .vmem, ⟨2, _⟩ => ⟨S1x128, .f32⟩
  | .local .tc .vmem, ⟨3, _⟩ => ⟨S128x128, .f32⟩
  | .shared, ⟨0, _⟩ => ⟨S114688, .f32⟩
  | .shared, ⟨1, _⟩ => ⟨S114688, .f32⟩
  | .local .scVector .vmem, ⟨0, _⟩ => ⟨S100096, .f32⟩
  | .local .scVector .vmem, ⟨1, _⟩ => ⟨S4096, .i32⟩
  | .local .scVector .vmem, ⟨2, _⟩ => ⟨S2048, .f32⟩
  | .local .scVector .vmem, ⟨3, _⟩ => ⟨S3584, .f32⟩
  | .local .scVector .vmem, ⟨4, _⟩ => ⟨S1024, .f32⟩
  | .local .scVector .vmem, ⟨5, _⟩ => ⟨S100096, .f32⟩
  | .local .scVector .vmem, ⟨6, _⟩ => ⟨S4096, .i32⟩
  | .local .scVector .vmem, ⟨7, _⟩ => ⟨S2048, .f32⟩
  | .local .scVector .vmem, ⟨8, _⟩ => ⟨S3584, .f32⟩
  | .local .scVector .vmem, ⟨9, _⟩ => ⟨S1024, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 46 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => true
  | ⟨43, _⟩ => true
  | ⟨44, _⟩ => true
  | ⟨45, _⟩ => true
  | _ => false

abbrev sig : RefSig :=
  ofTables nBuf rfl bufTy 5 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v0_scv : Ref sig .scVector := ⟨.hbm, 3, rfl⟩
abbrev main_v2_scv : Ref sig .scVector := ⟨.hbm, 5, rfl⟩
abbrev main_v6_scv : Ref sig .scVector := ⟨.hbm, 9, rfl⟩
abbrev main_v4_scv : Ref sig .scVector := ⟨.hbm, 7, rfl⟩
abbrev main_v7_scv : Ref sig .scVector := ⟨.hbm, 10, rfl⟩
abbrev cc2_stg0_0 : Ref sig .tc := ⟨.vmem, 0, rfl⟩
abbrev cc2_stg1_0 : Ref sig .tc := ⟨.vmem, 1, rfl⟩
abbrev cc2_stg2_0 : Ref sig .tc := ⟨.vmem, 2, rfl⟩
abbrev cc2_stg3_0 : Ref sig .tc := ⟨.vmem, 3, rfl⟩
abbrev cc0_scratch5 : Ref sig .scVector := ⟨.shared, 0, rfl⟩
abbrev cc1_scratch5 : Ref sig .scVector := ⟨.shared, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_scratch0 : Ref sig .scVector := ⟨.vmem, 5, rfl⟩
abbrev cc1_scratch1 : Ref sig .scVector := ⟨.vmem, 6, rfl⟩
abbrev cc1_scratch2 : Ref sig .scVector := ⟨.vmem, 7, rfl⟩
abbrev cc1_scratch3 : Ref sig .scVector := ⟨.vmem, 8, rfl⟩
abbrev cc1_scratch4 : Ref sig .scVector := ⟨.vmem, 9, rfl⟩
abbrev cc2_sem0_0 : DmaSem sig := 42
abbrev cc2_sem1_0 : DmaSem sig := 43
abbrev cc2_sem2_0 : DmaSem sig := 44
abbrev cc2_sem3_0 : DmaSem sig := 45
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c7_i32_0 : BitVec 32 := 7#32
  let arg0 : BitVec 32 := BitVec.ofNat 32 (i 0).val
  let v2 : BitVec 32 := Scalar.subi c7_i32_0 arg0
  let v3 : BitVec 1 := Scalar.cmpi .slt arg1 v2
  let v4 : BitVec 32 := Scalar.extui v3
  let c0_i32 : BitVec 32 := 0#32
  let v5 : BitVec 1 := Scalar.cmpi .ne v4 c0_i32
  v5

def k0_off1 (i : grid0.Coords) : Fin 1 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c100000_i32 : BitVec 32 := 100000#32
  let v147 : BitVec 32 := Scalar.muli v1 c100000_i32
  ![v147.toNat]
def k0_off2 (i : grid0.Coords) : Fin 2 → Nat :=
  let c0_i32_73 : BitVec 32 := 0#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let v146 : BitVec 32 := Scalar.addi c0_i32_73 v1
  let c0_i32_77 : BitVec 32 := 0#32
  ![v146.toNat, 0]
def k0_off3 (i : grid0.Coords) : Fin 2 → Nat :=
  let c0_i32_73 : BitVec 32 := 0#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let v146 : BitVec 32 := Scalar.addi c0_i32_73 v1
  let c2048_i32_83 : BitVec 32 := 2048#32
  ![v146.toNat, 2048]
@[reducible] def k0_t1_loop : Scf.Loop 32 :=
  let c0_i32_90 : BitVec 32 := 0#32
  let c128_i32 : BitVec 32 := 128#32
  let v174 : BitVec 32 := Scalar.addi c0_i32_90 c128_i32
  let c1_i32_91 : BitVec 32 := 1#32
  ⟨c0_i32_90, v174, c1_i32_91⟩
def k0_off4 (k0_t1 : Fin k0_t1_loop.trips) : Fin 1 → Nat :=
  let c0_i32_184 : BitVec 32 := 0#32
  let c0_i32_183 : BitVec 32 := 0#32
  let c0_i32_90 : BitVec 32 := 0#32
  let c1_i32_91 : BitVec 32 := 1#32
  let arg15 : BitVec 32 := Scf.iv c0_i32_90 c1_i32_91 k0_t1
  let c16_i32 : BitVec 32 := 16#32
  let v276 : BitVec 32 := Scalar.muli arg15 c16_i32
  let v277 : BitVec 32 := Scalar.addi c0_i32_183 v276
  let v278 : BitVec 32 := Scalar.addi c0_i32_184 v277
  let v279 : Index := Scalar.indexCast v278
  ![v279.toNat]

def k0_chk1 (i : grid0.Coords) (v280 : IVec S16 32) : Prop :=
  (∀ (k0_h1 : k0_cond1 i = 1#1), ∀ a x, ((![v280] : Fin 1 → IVec S16 32) a x).toNat < S100096.size a)
instance k0_chk1.dec : ∀ (i : grid0.Coords) (v280 : IVec S16 32), Decidable (k0_chk1 i v280) := fun i v280 => decidable_of_iff' _ (Iff.of_eq (k0_chk1.eq_1 i v280))
theorem k0_idx1_inb : ∀ (i : grid0.Coords) (v280 : IVec S16 32) (k0_hw1 : k0_chk1 i v280), ∀ (k0_h1 : k0_cond1 i = 1#1), ∀ a x, ((![v280] : Fin 1 → IVec S16 32) a x).toNat < S100096.size a := fun i v280 k0_hw1 k0_h1 => k0_hw1 k0_h1
def k0_off5 (k0_t1 : Fin k0_t1_loop.trips) : Fin 1 → Nat :=
  let c0_i32_183 : BitVec 32 := 0#32
  let c0_i32_90 : BitVec 32 := 0#32
  let c1_i32_91 : BitVec 32 := 1#32
  let arg15 : BitVec 32 := Scf.iv c0_i32_90 c1_i32_91 k0_t1
  let c16_i32 : BitVec 32 := 16#32
  let v276 : BitVec 32 := Scalar.muli arg15 c16_i32
  let v277 : BitVec 32 := Scalar.addi c0_i32_183 v276
  let v282 : Index := Scalar.indexCast v277
  ![v282.toNat]
def k0_off6 (i : grid0.Coords) (c0_i32_94 : BitVec 32) : Fin 1 → Nat :=
  let arg1 : BitVec 32 := BitVec.ofNat 32 (i 1).val
  let c16384_i32_93 : BitVec 32 := 16384#32
  let v175 : BitVec 32 := Scalar.muli arg1 c16384_i32_93
  let v176 : BitVec 32 := Scalar.addi v175 c0_i32_94
  ![v176.toNat]
def k0_off7 (i : grid0.Coords) : Fin 2 → Nat :=
  let c0_i32_73 : BitVec 32 := 0#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let v146 : BitVec 32 := Scalar.addi c0_i32_73 v1
  let c4096_i32 : BitVec 32 := 4096#32
  ![v146.toNat, 4096]
@[reducible] def k0_t2_loop : Scf.Loop 32 :=
  let c0_i32_102 : BitVec 32 := 0#32
  let c128_i32_103 : BitVec 32 := 128#32
  let v189 : BitVec 32 := Scalar.addi c0_i32_102 c128_i32_103
  let c1_i32_104 : BitVec 32 := 1#32
  ⟨c0_i32_102, v189, c1_i32_104⟩
def k0_off8 (k0_t2 : Fin k0_t2_loop.trips) : Fin 1 → Nat :=
  let c2048_i32_184 : BitVec 32 := 2048#32
  let c0_i32_183 : BitVec 32 := 0#32
  let c0_i32_102 : BitVec 32 := 0#32
  let c1_i32_104 : BitVec 32 := 1#32
  let arg15 : BitVec 32 := Scf.iv c0_i32_102 c1_i32_104 k0_t2
  let c16_i32 : BitVec 32 := 16#32
  let v276 : BitVec 32 := Scalar.muli arg15 c16_i32
  let v277 : BitVec 32 := Scalar.addi c0_i32_183 v276
  let v278 : BitVec 32 := Scalar.addi c2048_i32_184 v277
  let v279 : Index := Scalar.indexCast v278
  ![v279.toNat]

def k0_chk2 (i : grid0.Coords) (v280 : IVec S16 32) : Prop :=
  (∀ (k0_h1 : k0_cond1 i = 1#1), ∀ a x, ((![v280] : Fin 1 → IVec S16 32) a x).toNat < S100096.size a)
instance k0_chk2.dec : ∀ (i : grid0.Coords) (v280 : IVec S16 32), Decidable (k0_chk2 i v280) := fun i v280 => decidable_of_iff' _ (Iff.of_eq (k0_chk2.eq_1 i v280))
theorem k0_idx2_inb : ∀ (i : grid0.Coords) (v280 : IVec S16 32) (k0_hw2 : k0_chk2 i v280), ∀ (k0_h1 : k0_cond1 i = 1#1), ∀ a x, ((![v280] : Fin 1 → IVec S16 32) a x).toNat < S100096.size a := fun i v280 k0_hw2 k0_h1 => k0_hw2 k0_h1
def k0_off9 (k0_t2 : Fin k0_t2_loop.trips) : Fin 1 → Nat :=
  let c0_i32_183 : BitVec 32 := 0#32
  let c0_i32_102 : BitVec 32 := 0#32
  let c1_i32_104 : BitVec 32 := 1#32
  let arg15 : BitVec 32 := Scf.iv c0_i32_102 c1_i32_104 k0_t2
  let c16_i32 : BitVec 32 := 16#32
  let v276 : BitVec 32 := Scalar.muli arg15 c16_i32
  let v277 : BitVec 32 := Scalar.addi c0_i32_183 v276
  let v282 : Index := Scalar.indexCast v277
  ![v282.toNat]
def k0_off10 (i : grid0.Coords) : Fin 2 → Nat :=
  let c0_i32_73 : BitVec 32 := 0#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let v146 : BitVec 32 := Scalar.addi c0_i32_73 v1
  let c6144_i32 : BitVec 32 := 6144#32
  ![v146.toNat, 6144]
@[reducible] def k0_t3_loop : Scf.Loop 32 :=
  let c0_i32_115 : BitVec 32 := 0#32
  let c128_i32_116 : BitVec 32 := 128#32
  let v204 : BitVec 32 := Scalar.addi c0_i32_115 c128_i32_116
  let c1_i32_117 : BitVec 32 := 1#32
  ⟨c0_i32_115, v204, c1_i32_117⟩
def k0_off11 (k0_t3 : Fin k0_t3_loop.trips) : Fin 1 → Nat :=
  let c0_i32_184 : BitVec 32 := 0#32
  let c0_i32_183 : BitVec 32 := 0#32
  let c0_i32_115 : BitVec 32 := 0#32
  let c1_i32_117 : BitVec 32 := 1#32
  let arg15 : BitVec 32 := Scf.iv c0_i32_115 c1_i32_117 k0_t3
  let c16_i32 : BitVec 32 := 16#32
  let v276 : BitVec 32 := Scalar.muli arg15 c16_i32
  let v277 : BitVec 32 := Scalar.addi c0_i32_183 v276
  let v278 : BitVec 32 := Scalar.addi c0_i32_184 v277
  let v279 : Index := Scalar.indexCast v278
  ![v279.toNat]

def k0_chk3 (i : grid0.Coords) (v280 : IVec S16 32) : Prop :=
  (∀ (k0_h1 : k0_cond1 i = 1#1), ∀ a x, ((![v280] : Fin 1 → IVec S16 32) a x).toNat < S100096.size a)
instance k0_chk3.dec : ∀ (i : grid0.Coords) (v280 : IVec S16 32), Decidable (k0_chk3 i v280) := fun i v280 => decidable_of_iff' _ (Iff.of_eq (k0_chk3.eq_1 i v280))
theorem k0_idx3_inb : ∀ (i : grid0.Coords) (v280 : IVec S16 32) (k0_hw3 : k0_chk3 i v280), ∀ (k0_h1 : k0_cond1 i = 1#1), ∀ a x, ((![v280] : Fin 1 → IVec S16 32) a x).toNat < S100096.size a := fun i v280 k0_hw3 k0_h1 => k0_hw3 k0_h1
def k0_off12 (k0_t3 : Fin k0_t3_loop.trips) : Fin 1 → Nat :=
  let c0_i32_183 : BitVec 32 := 0#32
  let c0_i32_115 : BitVec 32 := 0#32
  let c1_i32_117 : BitVec 32 := 1#32
  let arg15 : BitVec 32 := Scf.iv c0_i32_115 c1_i32_117 k0_t3
  let c16_i32 : BitVec 32 := 16#32
  let v276 : BitVec 32 := Scalar.muli arg15 c16_i32
  let v277 : BitVec 32 := Scalar.addi c0_i32_183 v276
  let v282 : Index := Scalar.indexCast v277
  ![v282.toNat]
def k0_off13 (i : grid0.Coords) : Fin 2 → Nat :=
  let c0_i32_73 : BitVec 32 := 0#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let v146 : BitVec 32 := Scalar.addi c0_i32_73 v1
  let c8192_i32 : BitVec 32 := 8192#32
  ![v146.toNat, 8192]
@[reducible] def k0_t4_loop : Scf.Loop 32 :=
  let c0_i32_128 : BitVec 32 := 0#32
  let c128_i32_129 : BitVec 32 := 128#32
  let v219 : BitVec 32 := Scalar.addi c0_i32_128 c128_i32_129
  let c1_i32_130 : BitVec 32 := 1#32
  ⟨c0_i32_128, v219, c1_i32_130⟩
def k0_off14 (k0_t4 : Fin k0_t4_loop.trips) : Fin 1 → Nat :=
  let c2048_i32_184 : BitVec 32 := 2048#32
  let c0_i32_183 : BitVec 32 := 0#32
  let c0_i32_128 : BitVec 32 := 0#32
  let c1_i32_130 : BitVec 32 := 1#32
  let arg15 : BitVec 32 := Scf.iv c0_i32_128 c1_i32_130 k0_t4
  let c16_i32 : BitVec 32 := 16#32
  let v276 : BitVec 32 := Scalar.muli arg15 c16_i32
  let v277 : BitVec 32 := Scalar.addi c0_i32_183 v276
  let v278 : BitVec 32 := Scalar.addi c2048_i32_184 v277
  let v279 : Index := Scalar.indexCast v278
  ![v279.toNat]

def k0_chk4 (i : grid0.Coords) (v280 : IVec S16 32) : Prop :=
  (∀ (k0_h1 : k0_cond1 i = 1#1), ∀ a x, ((![v280] : Fin 1 → IVec S16 32) a x).toNat < S100096.size a)
instance k0_chk4.dec : ∀ (i : grid0.Coords) (v280 : IVec S16 32), Decidable (k0_chk4 i v280) := fun i v280 => decidable_of_iff' _ (Iff.of_eq (k0_chk4.eq_1 i v280))
theorem k0_idx4_inb : ∀ (i : grid0.Coords) (v280 : IVec S16 32) (k0_hw4 : k0_chk4 i v280), ∀ (k0_h1 : k0_cond1 i = 1#1), ∀ a x, ((![v280] : Fin 1 → IVec S16 32) a x).toNat < S100096.size a := fun i v280 k0_hw4 k0_h1 => k0_hw4 k0_h1
def k0_off15 (k0_t4 : Fin k0_t4_loop.trips) : Fin 1 → Nat :=
  let c0_i32_183 : BitVec 32 := 0#32
  let c0_i32_128 : BitVec 32 := 0#32
  let c1_i32_130 : BitVec 32 := 1#32
  let arg15 : BitVec 32 := Scf.iv c0_i32_128 c1_i32_130 k0_t4
  let c16_i32 : BitVec 32 := 16#32
  let v276 : BitVec 32 := Scalar.muli arg15 c16_i32
  let v277 : BitVec 32 := Scalar.addi c0_i32_183 v276
  let v282 : Index := Scalar.indexCast v277
  ![v282.toNat]
def k0_off16 (i : grid0.Coords) : Fin 2 → Nat :=
  let c0_i32_73 : BitVec 32 := 0#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let v146 : BitVec 32 := Scalar.addi c0_i32_73 v1
  let c10240_i32 : BitVec 32 := 10240#32
  ![v146.toNat, 10240]
@[reducible] def k0_t5_loop : Scf.Loop 32 :=
  let c0_i32_141 : BitVec 32 := 0#32
  let c128_i32_142 : BitVec 32 := 128#32
  let v234 : BitVec 32 := Scalar.addi c0_i32_141 c128_i32_142
  let c1_i32_143 : BitVec 32 := 1#32
  ⟨c0_i32_141, v234, c1_i32_143⟩
def k0_off17 (k0_t5 : Fin k0_t5_loop.trips) : Fin 1 → Nat :=
  let c0_i32_184 : BitVec 32 := 0#32
  let c0_i32_183 : BitVec 32 := 0#32
  let c0_i32_141 : BitVec 32 := 0#32
  let c1_i32_143 : BitVec 32 := 1#32
  let arg15 : BitVec 32 := Scf.iv c0_i32_141 c1_i32_143 k0_t5
  let c16_i32 : BitVec 32 := 16#32
  let v276 : BitVec 32 := Scalar.muli arg15 c16_i32
  let v277 : BitVec 32 := Scalar.addi c0_i32_183 v276
  let v278 : BitVec 32 := Scalar.addi c0_i32_184 v277
  let v279 : Index := Scalar.indexCast v278
  ![v279.toNat]

def k0_chk5 (i : grid0.Coords) (v280 : IVec S16 32) : Prop :=
  (∀ (k0_h1 : k0_cond1 i = 1#1), ∀ a x, ((![v280] : Fin 1 → IVec S16 32) a x).toNat < S100096.size a)
instance k0_chk5.dec : ∀ (i : grid0.Coords) (v280 : IVec S16 32), Decidable (k0_chk5 i v280) := fun i v280 => decidable_of_iff' _ (Iff.of_eq (k0_chk5.eq_1 i v280))
theorem k0_idx5_inb : ∀ (i : grid0.Coords) (v280 : IVec S16 32) (k0_hw5 : k0_chk5 i v280), ∀ (k0_h1 : k0_cond1 i = 1#1), ∀ a x, ((![v280] : Fin 1 → IVec S16 32) a x).toNat < S100096.size a := fun i v280 k0_hw5 k0_h1 => k0_hw5 k0_h1
def k0_off18 (k0_t5 : Fin k0_t5_loop.trips) : Fin 1 → Nat :=
  let c0_i32_183 : BitVec 32 := 0#32
  let c0_i32_141 : BitVec 32 := 0#32
  let c1_i32_143 : BitVec 32 := 1#32
  let arg15 : BitVec 32 := Scf.iv c0_i32_141 c1_i32_143 k0_t5
  let c16_i32 : BitVec 32 := 16#32
  let v276 : BitVec 32 := Scalar.muli arg15 c16_i32
  let v277 : BitVec 32 := Scalar.addi c0_i32_183 v276
  let v282 : Index := Scalar.indexCast v277
  ![v282.toNat]
def k0_off19 (i : grid0.Coords) : Fin 2 → Nat :=
  let c0_i32_73 : BitVec 32 := 0#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let v146 : BitVec 32 := Scalar.addi c0_i32_73 v1
  let c12288_i32 : BitVec 32 := 12288#32
  ![v146.toNat, 12288]
@[reducible] def k0_t6_loop : Scf.Loop 32 :=
  let c0_i32_154 : BitVec 32 := 0#32
  let c128_i32_155 : BitVec 32 := 128#32
  let v249 : BitVec 32 := Scalar.addi c0_i32_154 c128_i32_155
  let c1_i32_156 : BitVec 32 := 1#32
  ⟨c0_i32_154, v249, c1_i32_156⟩
def k0_off20 (k0_t6 : Fin k0_t6_loop.trips) : Fin 1 → Nat :=
  let c2048_i32_184 : BitVec 32 := 2048#32
  let c0_i32_183 : BitVec 32 := 0#32
  let c0_i32_154 : BitVec 32 := 0#32
  let c1_i32_156 : BitVec 32 := 1#32
  let arg15 : BitVec 32 := Scf.iv c0_i32_154 c1_i32_156 k0_t6
  let c16_i32 : BitVec 32 := 16#32
  let v276 : BitVec 32 := Scalar.muli arg15 c16_i32
  let v277 : BitVec 32 := Scalar.addi c0_i32_183 v276
  let v278 : BitVec 32 := Scalar.addi c2048_i32_184 v277
  let v279 : Index := Scalar.indexCast v278
  ![v279.toNat]

def k0_chk6 (i : grid0.Coords) (v280 : IVec S16 32) : Prop :=
  (∀ (k0_h1 : k0_cond1 i = 1#1), ∀ a x, ((![v280] : Fin 1 → IVec S16 32) a x).toNat < S100096.size a)
instance k0_chk6.dec : ∀ (i : grid0.Coords) (v280 : IVec S16 32), Decidable (k0_chk6 i v280) := fun i v280 => decidable_of_iff' _ (Iff.of_eq (k0_chk6.eq_1 i v280))
theorem k0_idx6_inb : ∀ (i : grid0.Coords) (v280 : IVec S16 32) (k0_hw6 : k0_chk6 i v280), ∀ (k0_h1 : k0_cond1 i = 1#1), ∀ a x, ((![v280] : Fin 1 → IVec S16 32) a x).toNat < S100096.size a := fun i v280 k0_hw6 k0_h1 => k0_hw6 k0_h1
def k0_off21 (k0_t6 : Fin k0_t6_loop.trips) : Fin 1 → Nat :=
  let c0_i32_183 : BitVec 32 := 0#32
  let c0_i32_154 : BitVec 32 := 0#32
  let c1_i32_156 : BitVec 32 := 1#32
  let arg15 : BitVec 32 := Scf.iv c0_i32_154 c1_i32_156 k0_t6
  let c16_i32 : BitVec 32 := 16#32
  let v276 : BitVec 32 := Scalar.muli arg15 c16_i32
  let v277 : BitVec 32 := Scalar.addi c0_i32_183 v276
  let v282 : Index := Scalar.indexCast v277
  ![v282.toNat]
def k0_off22 (i : grid0.Coords) : Fin 2 → Nat :=
  let c0_i32_73 : BitVec 32 := 0#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let v146 : BitVec 32 := Scalar.addi c0_i32_73 v1
  let c14336_i32 : BitVec 32 := 14336#32
  ![v146.toNat, 14336]
@[reducible] def k0_t7_loop : Scf.Loop 32 :=
  let c0_i32_167 : BitVec 32 := 0#32
  let c128_i32_168 : BitVec 32 := 128#32
  let v264 : BitVec 32 := Scalar.addi c0_i32_167 c128_i32_168
  let c1_i32_169 : BitVec 32 := 1#32
  ⟨c0_i32_167, v264, c1_i32_169⟩
def k0_off23 (k0_t7 : Fin k0_t7_loop.trips) : Fin 1 → Nat :=
  let c0_i32_184 : BitVec 32 := 0#32
  let c0_i32_183 : BitVec 32 := 0#32
  let c0_i32_167 : BitVec 32 := 0#32
  let c1_i32_169 : BitVec 32 := 1#32
  let arg15 : BitVec 32 := Scf.iv c0_i32_167 c1_i32_169 k0_t7
  let c16_i32 : BitVec 32 := 16#32
  let v276 : BitVec 32 := Scalar.muli arg15 c16_i32
  let v277 : BitVec 32 := Scalar.addi c0_i32_183 v276
  let v278 : BitVec 32 := Scalar.addi c0_i32_184 v277
  let v279 : Index := Scalar.indexCast v278
  ![v279.toNat]

def k0_chk7 (i : grid0.Coords) (v280 : IVec S16 32) : Prop :=
  (∀ (k0_h1 : k0_cond1 i = 1#1), ∀ a x, ((![v280] : Fin 1 → IVec S16 32) a x).toNat < S100096.size a)
instance k0_chk7.dec : ∀ (i : grid0.Coords) (v280 : IVec S16 32), Decidable (k0_chk7 i v280) := fun i v280 => decidable_of_iff' _ (Iff.of_eq (k0_chk7.eq_1 i v280))
theorem k0_idx7_inb : ∀ (i : grid0.Coords) (v280 : IVec S16 32) (k0_hw7 : k0_chk7 i v280), ∀ (k0_h1 : k0_cond1 i = 1#1), ∀ a x, ((![v280] : Fin 1 → IVec S16 32) a x).toNat < S100096.size a := fun i v280 k0_hw7 k0_h1 => k0_hw7 k0_h1
def k0_off24 (k0_t7 : Fin k0_t7_loop.trips) : Fin 1 → Nat :=
  let c0_i32_183 : BitVec 32 := 0#32
  let c0_i32_167 : BitVec 32 := 0#32
  let c1_i32_169 : BitVec 32 := 1#32
  let arg15 : BitVec 32 := Scf.iv c0_i32_167 c1_i32_169 k0_t7
  let c16_i32 : BitVec 32 := 16#32
  let v276 : BitVec 32 := Scalar.muli arg15 c16_i32
  let v277 : BitVec 32 := Scalar.addi c0_i32_183 v276
  let v282 : Index := Scalar.indexCast v277
  ![v282.toNat]
@[reducible] def k0_t8_loop : Scf.Loop 32 :=
  let c0_i32_177 : BitVec 32 := 0#32
  let c128_i32_178 : BitVec 32 := 128#32
  let v273 : BitVec 32 := Scalar.addi c0_i32_177 c128_i32_178
  let c1_i32_179 : BitVec 32 := 1#32
  ⟨c0_i32_177, v273, c1_i32_179⟩
def k0_off25 (k0_t8 : Fin k0_t8_loop.trips) : Fin 1 → Nat :=
  let c2048_i32_184 : BitVec 32 := 2048#32
  let c0_i32_183 : BitVec 32 := 0#32
  let c0_i32_177 : BitVec 32 := 0#32
  let c1_i32_179 : BitVec 32 := 1#32
  let arg15 : BitVec 32 := Scf.iv c0_i32_177 c1_i32_179 k0_t8
  let c16_i32 : BitVec 32 := 16#32
  let v276 : BitVec 32 := Scalar.muli arg15 c16_i32
  let v277 : BitVec 32 := Scalar.addi c0_i32_183 v276
  let v278 : BitVec 32 := Scalar.addi c2048_i32_184 v277
  let v279 : Index := Scalar.indexCast v278
  ![v279.toNat]

def k0_chk8 (i : grid0.Coords) (v280 : IVec S16 32) : Prop :=
  (∀ (k0_h1 : k0_cond1 i = 1#1), ∀ a x, ((![v280] : Fin 1 → IVec S16 32) a x).toNat < S100096.size a)
instance k0_chk8.dec : ∀ (i : grid0.Coords) (v280 : IVec S16 32), Decidable (k0_chk8 i v280) := fun i v280 => decidable_of_iff' _ (Iff.of_eq (k0_chk8.eq_1 i v280))
theorem k0_idx8_inb : ∀ (i : grid0.Coords) (v280 : IVec S16 32) (k0_hw8 : k0_chk8 i v280), ∀ (k0_h1 : k0_cond1 i = 1#1), ∀ a x, ((![v280] : Fin 1 → IVec S16 32) a x).toNat < S100096.size a := fun i v280 k0_hw8 k0_h1 => k0_hw8 k0_h1
def k0_off26 (k0_t8 : Fin k0_t8_loop.trips) : Fin 1 → Nat :=
  let c0_i32_183 : BitVec 32 := 0#32
  let c0_i32_177 : BitVec 32 := 0#32
  let c1_i32_179 : BitVec 32 := 1#32
  let arg15 : BitVec 32 := Scf.iv c0_i32_177 c1_i32_179 k0_t8
  let c16_i32 : BitVec 32 := 16#32
  let v276 : BitVec 32 := Scalar.muli arg15 c16_i32
  let v277 : BitVec 32 := Scalar.addi c0_i32_183 v276
  let v282 : Index := Scalar.indexCast v277
  ![v282.toNat]
def k0_cond2 (i : grid0.Coords) : BitVec 1 :=
  let arg0 : BitVec 32 := BitVec.ofNat 32 (i 0).val
  let c1_i32 : BitVec 32 := 1#32
  let v6 : BitVec 1 := Scalar.cmpi .eq arg0 c1_i32
  let arg1 : BitVec 32 := BitVec.ofNat 32 (i 1).val
  let c6_i32 : BitVec 32 := 6#32
  let v7 : BitVec 1 := Scalar.cmpi .eq arg1 c6_i32
  let v8 : BitVec 1 := Scalar.andi v6 v7
  let v9 : BitVec 32 := Scalar.extui v8
  let c0_i32_1 : BitVec 32 := 0#32
  let v10 : BitVec 1 := Scalar.cmpi .ne v9 c0_i32_1
  v10

@[reducible] def k0_t9_loop : Scf.Loop 32 :=
  let c0_i32_73 : BitVec 32 := 0#32
  let c128_i32 : BitVec 32 := 128#32
  let v146 : BitVec 32 := Scalar.addi c0_i32_73 c128_i32
  let c1_i32_74 : BitVec 32 := 1#32
  ⟨c0_i32_73, v146, c1_i32_74⟩
def k0_off27 (k0_t9 : Fin k0_t9_loop.trips) : Fin 1 → Nat :=
  let c0_i32_86 : BitVec 32 := 0#32
  let c0_i32_73 : BitVec 32 := 0#32
  let c1_i32_74 : BitVec 32 := 1#32
  let arg15 : BitVec 32 := Scf.iv c0_i32_73 c1_i32_74 k0_t9
  let c16_i32 : BitVec 32 := 16#32
  let v163 : BitVec 32 := Scalar.muli arg15 c16_i32
  let v164 : BitVec 32 := Scalar.addi c0_i32_86 v163
  let v166 : Index := Scalar.indexCast v164
  ![v166.toNat]
def k0_off28 (i : grid0.Coords) (c0_i32_77 : BitVec 32) : Fin 1 → Nat :=
  let arg1 : BitVec 32 := BitVec.ofNat 32 (i 1).val
  let c16384_i32_76 : BitVec 32 := 16384#32
  let v147 : BitVec 32 := Scalar.muli arg1 c16384_i32_76
  let v148 : BitVec 32 := Scalar.addi v147 c0_i32_77
  ![v148.toNat]
def k0_off29 (i : grid0.Coords) (c0_i32_3 : BitVec 32) (c0_i32_2 : BitVec 32) : Fin 1 → Nat :=
  let arg1 : BitVec 32 := BitVec.ofNat 32 (i 1).val
  let c1024_i32 : BitVec 32 := 1024#32
  let v11 : BitVec 32 := Scalar.muli arg1 c1024_i32
  let v12 : BitVec 32 := Scalar.addi v11 c0_i32_2
  let v13 : BitVec 32 := Scalar.addi c0_i32_3 v12
  ![v13.toNat]
@[reducible] def k0_t10_loop : Scf.Loop 32 :=
  let c0_i32_27 : BitVec 32 := 0#32
  let c32_i32 : BitVec 32 := 32#32
  let v76 : BitVec 32 := Scalar.addi c0_i32_27 c32_i32
  let c1_i32_28 : BitVec 32 := 1#32
  ⟨c0_i32_27, v76, c1_i32_28⟩
def k0_off30 (k0_t10 : Fin k0_t10_loop.trips) : Fin 1 → Nat :=
  let c0_i32_73 : BitVec 32 := 0#32
  let c0_i32_27 : BitVec 32 := 0#32
  let c1_i32_28 : BitVec 32 := 1#32
  let arg15 : BitVec 32 := Scf.iv c0_i32_27 c1_i32_28 k0_t10
  let c16_i32 : BitVec 32 := 16#32
  let v146 : BitVec 32 := Scalar.muli arg15 c16_i32
  let v147 : BitVec 32 := Scalar.addi c0_i32_73 v146
  let v148 : Index := Scalar.indexCast v147
  ![v148.toNat]
def k0_off31 (k0_t10 : Fin k0_t10_loop.trips) (c512_i32_74 : BitVec 32) : Fin 1 → Nat :=
  let c0_i32_73 : BitVec 32 := 0#32
  let c0_i32_27 : BitVec 32 := 0#32
  let c1_i32_28 : BitVec 32 := 1#32
  let arg15 : BitVec 32 := Scf.iv c0_i32_27 c1_i32_28 k0_t10
  let c16_i32 : BitVec 32 := 16#32
  let v146 : BitVec 32 := Scalar.muli arg15 c16_i32
  let v147 : BitVec 32 := Scalar.addi c0_i32_73 v146
  let v150 : BitVec 32 := Scalar.addi c512_i32_74 v147
  let v151 : Index := Scalar.indexCast v150
  ![v151.toNat]
def k0_off32 (k0_t10 : Fin k0_t10_loop.trips) : Fin 1 → Nat :=
  let c0_i32_80 : BitVec 32 := 0#32
  let c0_i32_73 : BitVec 32 := 0#32
  let c0_i32_27 : BitVec 32 := 0#32
  let c1_i32_28 : BitVec 32 := 1#32
  let arg15 : BitVec 32 := Scf.iv c0_i32_27 c1_i32_28 k0_t10
  let c16_i32 : BitVec 32 := 16#32
  let v146 : BitVec 32 := Scalar.muli arg15 c16_i32
  let v147 : BitVec 32 := Scalar.addi c0_i32_73 v146
  let v174 : BitVec 32 := Scalar.addi c0_i32_80 v147
  let v175 : Index := Scalar.indexCast v174
  ![v175.toNat]
@[reducible] def k0_t11_loop : Scf.Loop 32 :=
  let c0_i32_67 : BitVec 32 := 0#32
  let c32_i32_68 : BitVec 32 := 32#32
  let v142 : BitVec 32 := Scalar.addi c0_i32_67 c32_i32_68
  let c1_i32_69 : BitVec 32 := 1#32
  ⟨c0_i32_67, v142, c1_i32_69⟩
def k0_off33 (k0_t11 : Fin k0_t11_loop.trips) : Fin 1 → Nat :=
  let c0_i32_73 : BitVec 32 := 0#32
  let c0_i32_67 : BitVec 32 := 0#32
  let c1_i32_69 : BitVec 32 := 1#32
  let arg15 : BitVec 32 := Scf.iv c0_i32_67 c1_i32_69 k0_t11
  let c16_i32 : BitVec 32 := 16#32
  let v146 : BitVec 32 := Scalar.muli arg15 c16_i32
  let v147 : BitVec 32 := Scalar.addi c0_i32_73 v146
  let v148 : Index := Scalar.indexCast v147
  ![v148.toNat]
def k0_off34 (k0_t11 : Fin k0_t11_loop.trips) (c512_i32_74 : BitVec 32) : Fin 1 → Nat :=
  let c0_i32_73 : BitVec 32 := 0#32
  let c0_i32_67 : BitVec 32 := 0#32
  let c1_i32_69 : BitVec 32 := 1#32
  let arg15 : BitVec 32 := Scf.iv c0_i32_67 c1_i32_69 k0_t11
  let c16_i32 : BitVec 32 := 16#32
  let v146 : BitVec 32 := Scalar.muli arg15 c16_i32
  let v147 : BitVec 32 := Scalar.addi c0_i32_73 v146
  let v150 : BitVec 32 := Scalar.addi c512_i32_74 v147
  let v151 : Index := Scalar.indexCast v150
  ![v151.toNat]
def k0_off35 (k0_t11 : Fin k0_t11_loop.trips) : Fin 1 → Nat :=
  let c512_i32_80 : BitVec 32 := 512#32
  let c0_i32_73 : BitVec 32 := 0#32
  let c0_i32_67 : BitVec 32 := 0#32
  let c1_i32_69 : BitVec 32 := 1#32
  let arg15 : BitVec 32 := Scf.iv c0_i32_67 c1_i32_69 k0_t11
  let c16_i32 : BitVec 32 := 16#32
  let v146 : BitVec 32 := Scalar.muli arg15 c16_i32
  let v147 : BitVec 32 := Scalar.addi c0_i32_73 v146
  let v174 : BitVec 32 := Scalar.addi c512_i32_80 v147
  let v175 : Index := Scalar.indexCast v174
  ![v175.toNat]
def k0_off36 (i : grid0.Coords) : Fin 1 → Nat :=
  let arg0 : BitVec 32 := BitVec.ofNat 32 (i 0).val
  let c16384_i32_71 : BitVec 32 := 16384#32
  let v143 : BitVec 32 := Scalar.muli arg0 c16384_i32_71
  let arg1 : BitVec 32 := BitVec.ofNat 32 (i 1).val
  let c1024_i32_72 : BitVec 32 := 1024#32
  let v144 : BitVec 32 := Scalar.muli arg1 c1024_i32_72
  let v145 : BitVec 32 := Scalar.addi v143 v144
  ![v145.toNat]
abbrev grid1 : Pipeline.Grid := ⟨2, ![2, 16], ![false, false]⟩

def k1_cond1 (i : grid1.Coords) : BitVec 1 :=
  let arg1 : BitVec 32 := BitVec.ofNat 32 (i 1).val
  let c7_i32_0 : BitVec 32 := 7#32
  let arg0 : BitVec 32 := BitVec.ofNat 32 (i 0).val
  let v2 : BitVec 32 := Scalar.subi c7_i32_0 arg0
  let v3 : BitVec 1 := Scalar.cmpi .slt arg1 v2
  let v4 : BitVec 32 := Scalar.extui v3
  let c0_i32 : BitVec 32 := 0#32
  let v5 : BitVec 1 := Scalar.cmpi .ne v4 c0_i32
  v5

def k1_off1 (i : grid1.Coords) : Fin 1 → Nat :=
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let c100000_i32 : BitVec 32 := 100000#32
  let v147 : BitVec 32 := Scalar.muli v1 c100000_i32
  ![v147.toNat]
def k1_off2 (i : grid1.Coords) : Fin 2 → Nat :=
  let c13_i32 : BitVec 32 := 13#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let v146 : BitVec 32 := Scalar.addi c13_i32 v1
  let c0_i32_76 : BitVec 32 := 0#32
  ![v146.toNat, 0]
def k1_off3 (i : grid1.Coords) : Fin 2 → Nat :=
  let c13_i32 : BitVec 32 := 13#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let v146 : BitVec 32 := Scalar.addi c13_i32 v1
  let c2048_i32_82 : BitVec 32 := 2048#32
  ![v146.toNat, 2048]
@[reducible] def k1_t1_loop : Scf.Loop 32 :=
  let c0_i32_89 : BitVec 32 := 0#32
  let c128_i32 : BitVec 32 := 128#32
  let v174 : BitVec 32 := Scalar.addi c0_i32_89 c128_i32
  let c1_i32_90 : BitVec 32 := 1#32
  ⟨c0_i32_89, v174, c1_i32_90⟩
def k1_off4 (k1_t1 : Fin k1_t1_loop.trips) : Fin 1 → Nat :=
  let c0_i32_183 : BitVec 32 := 0#32
  let c0_i32_182 : BitVec 32 := 0#32
  let c0_i32_89 : BitVec 32 := 0#32
  let c1_i32_90 : BitVec 32 := 1#32
  let arg15 : BitVec 32 := Scf.iv c0_i32_89 c1_i32_90 k1_t1
  let c16_i32 : BitVec 32 := 16#32
  let v276 : BitVec 32 := Scalar.muli arg15 c16_i32
  let v277 : BitVec 32 := Scalar.addi c0_i32_182 v276
  let v278 : BitVec 32 := Scalar.addi c0_i32_183 v277
  let v279 : Index := Scalar.indexCast v278
  ![v279.toNat]

def k1_chk1 (i : grid1.Coords) (v280 : IVec S16 32) : Prop :=
  (∀ (k1_h1 : k1_cond1 i = 1#1), ∀ a x, ((![v280] : Fin 1 → IVec S16 32) a x).toNat < S100096.size a)
instance k1_chk1.dec : ∀ (i : grid1.Coords) (v280 : IVec S16 32), Decidable (k1_chk1 i v280) := fun i v280 => decidable_of_iff' _ (Iff.of_eq (k1_chk1.eq_1 i v280))
theorem k1_idx1_inb : ∀ (i : grid1.Coords) (v280 : IVec S16 32) (k1_hw1 : k1_chk1 i v280), ∀ (k1_h1 : k1_cond1 i = 1#1), ∀ a x, ((![v280] : Fin 1 → IVec S16 32) a x).toNat < S100096.size a := fun i v280 k1_hw1 k1_h1 => k1_hw1 k1_h1
def k1_off5 (k1_t1 : Fin k1_t1_loop.trips) : Fin 1 → Nat :=
  let c0_i32_182 : BitVec 32 := 0#32
  let c0_i32_89 : BitVec 32 := 0#32
  let c1_i32_90 : BitVec 32 := 1#32
  let arg15 : BitVec 32 := Scf.iv c0_i32_89 c1_i32_90 k1_t1
  let c16_i32 : BitVec 32 := 16#32
  let v276 : BitVec 32 := Scalar.muli arg15 c16_i32
  let v277 : BitVec 32 := Scalar.addi c0_i32_182 v276
  let v282 : Index := Scalar.indexCast v277
  ![v282.toNat]
def k1_off6 (i : grid1.Coords) (c0_i32_93 : BitVec 32) : Fin 1 → Nat :=
  let arg1 : BitVec 32 := BitVec.ofNat 32 (i 1).val
  let c16384_i32_92 : BitVec 32 := 16384#32
  let v175 : BitVec 32 := Scalar.muli arg1 c16384_i32_92
  let v176 : BitVec 32 := Scalar.addi v175 c0_i32_93
  ![v176.toNat]
def k1_off7 (i : grid1.Coords) : Fin 2 → Nat :=
  let c13_i32 : BitVec 32 := 13#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let v146 : BitVec 32 := Scalar.addi c13_i32 v1
  let c4096_i32 : BitVec 32 := 4096#32
  ![v146.toNat, 4096]
@[reducible] def k1_t2_loop : Scf.Loop 32 :=
  let c0_i32_101 : BitVec 32 := 0#32
  let c128_i32_102 : BitVec 32 := 128#32
  let v189 : BitVec 32 := Scalar.addi c0_i32_101 c128_i32_102
  let c1_i32_103 : BitVec 32 := 1#32
  ⟨c0_i32_101, v189, c1_i32_103⟩
def k1_off8 (k1_t2 : Fin k1_t2_loop.trips) : Fin 1 → Nat :=
  let c2048_i32_183 : BitVec 32 := 2048#32
  let c0_i32_182 : BitVec 32 := 0#32
  let c0_i32_101 : BitVec 32 := 0#32
  let c1_i32_103 : BitVec 32 := 1#32
  let arg15 : BitVec 32 := Scf.iv c0_i32_101 c1_i32_103 k1_t2
  let c16_i32 : BitVec 32 := 16#32
  let v276 : BitVec 32 := Scalar.muli arg15 c16_i32
  let v277 : BitVec 32 := Scalar.addi c0_i32_182 v276
  let v278 : BitVec 32 := Scalar.addi c2048_i32_183 v277
  let v279 : Index := Scalar.indexCast v278
  ![v279.toNat]

def k1_chk2 (i : grid1.Coords) (v280 : IVec S16 32) : Prop :=
  (∀ (k1_h1 : k1_cond1 i = 1#1), ∀ a x, ((![v280] : Fin 1 → IVec S16 32) a x).toNat < S100096.size a)
instance k1_chk2.dec : ∀ (i : grid1.Coords) (v280 : IVec S16 32), Decidable (k1_chk2 i v280) := fun i v280 => decidable_of_iff' _ (Iff.of_eq (k1_chk2.eq_1 i v280))
theorem k1_idx2_inb : ∀ (i : grid1.Coords) (v280 : IVec S16 32) (k1_hw2 : k1_chk2 i v280), ∀ (k1_h1 : k1_cond1 i = 1#1), ∀ a x, ((![v280] : Fin 1 → IVec S16 32) a x).toNat < S100096.size a := fun i v280 k1_hw2 k1_h1 => k1_hw2 k1_h1
def k1_off9 (k1_t2 : Fin k1_t2_loop.trips) : Fin 1 → Nat :=
  let c0_i32_182 : BitVec 32 := 0#32
  let c0_i32_101 : BitVec 32 := 0#32
  let c1_i32_103 : BitVec 32 := 1#32
  let arg15 : BitVec 32 := Scf.iv c0_i32_101 c1_i32_103 k1_t2
  let c16_i32 : BitVec 32 := 16#32
  let v276 : BitVec 32 := Scalar.muli arg15 c16_i32
  let v277 : BitVec 32 := Scalar.addi c0_i32_182 v276
  let v282 : Index := Scalar.indexCast v277
  ![v282.toNat]
def k1_off10 (i : grid1.Coords) : Fin 2 → Nat :=
  let c13_i32 : BitVec 32 := 13#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let v146 : BitVec 32 := Scalar.addi c13_i32 v1
  let c6144_i32 : BitVec 32 := 6144#32
  ![v146.toNat, 6144]
@[reducible] def k1_t3_loop : Scf.Loop 32 :=
  let c0_i32_114 : BitVec 32 := 0#32
  let c128_i32_115 : BitVec 32 := 128#32
  let v204 : BitVec 32 := Scalar.addi c0_i32_114 c128_i32_115
  let c1_i32_116 : BitVec 32 := 1#32
  ⟨c0_i32_114, v204, c1_i32_116⟩
def k1_off11 (k1_t3 : Fin k1_t3_loop.trips) : Fin 1 → Nat :=
  let c0_i32_183 : BitVec 32 := 0#32
  let c0_i32_182 : BitVec 32 := 0#32
  let c0_i32_114 : BitVec 32 := 0#32
  let c1_i32_116 : BitVec 32 := 1#32
  let arg15 : BitVec 32 := Scf.iv c0_i32_114 c1_i32_116 k1_t3
  let c16_i32 : BitVec 32 := 16#32
  let v276 : BitVec 32 := Scalar.muli arg15 c16_i32
  let v277 : BitVec 32 := Scalar.addi c0_i32_182 v276
  let v278 : BitVec 32 := Scalar.addi c0_i32_183 v277
  let v279 : Index := Scalar.indexCast v278
  ![v279.toNat]

def k1_chk3 (i : grid1.Coords) (v280 : IVec S16 32) : Prop :=
  (∀ (k1_h1 : k1_cond1 i = 1#1), ∀ a x, ((![v280] : Fin 1 → IVec S16 32) a x).toNat < S100096.size a)
instance k1_chk3.dec : ∀ (i : grid1.Coords) (v280 : IVec S16 32), Decidable (k1_chk3 i v280) := fun i v280 => decidable_of_iff' _ (Iff.of_eq (k1_chk3.eq_1 i v280))
theorem k1_idx3_inb : ∀ (i : grid1.Coords) (v280 : IVec S16 32) (k1_hw3 : k1_chk3 i v280), ∀ (k1_h1 : k1_cond1 i = 1#1), ∀ a x, ((![v280] : Fin 1 → IVec S16 32) a x).toNat < S100096.size a := fun i v280 k1_hw3 k1_h1 => k1_hw3 k1_h1
def k1_off12 (k1_t3 : Fin k1_t3_loop.trips) : Fin 1 → Nat :=
  let c0_i32_182 : BitVec 32 := 0#32
  let c0_i32_114 : BitVec 32 := 0#32
  let c1_i32_116 : BitVec 32 := 1#32
  let arg15 : BitVec 32 := Scf.iv c0_i32_114 c1_i32_116 k1_t3
  let c16_i32 : BitVec 32 := 16#32
  let v276 : BitVec 32 := Scalar.muli arg15 c16_i32
  let v277 : BitVec 32 := Scalar.addi c0_i32_182 v276
  let v282 : Index := Scalar.indexCast v277
  ![v282.toNat]
def k1_off13 (i : grid1.Coords) : Fin 2 → Nat :=
  let c13_i32 : BitVec 32 := 13#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let v146 : BitVec 32 := Scalar.addi c13_i32 v1
  let c8192_i32 : BitVec 32 := 8192#32
  ![v146.toNat, 8192]
@[reducible] def k1_t4_loop : Scf.Loop 32 :=
  let c0_i32_127 : BitVec 32 := 0#32
  let c128_i32_128 : BitVec 32 := 128#32
  let v219 : BitVec 32 := Scalar.addi c0_i32_127 c128_i32_128
  let c1_i32_129 : BitVec 32 := 1#32
  ⟨c0_i32_127, v219, c1_i32_129⟩
def k1_off14 (k1_t4 : Fin k1_t4_loop.trips) : Fin 1 → Nat :=
  let c2048_i32_183 : BitVec 32 := 2048#32
  let c0_i32_182 : BitVec 32 := 0#32
  let c0_i32_127 : BitVec 32 := 0#32
  let c1_i32_129 : BitVec 32 := 1#32
  let arg15 : BitVec 32 := Scf.iv c0_i32_127 c1_i32_129 k1_t4
  let c16_i32 : BitVec 32 := 16#32
  let v276 : BitVec 32 := Scalar.muli arg15 c16_i32
  let v277 : BitVec 32 := Scalar.addi c0_i32_182 v276
  let v278 : BitVec 32 := Scalar.addi c2048_i32_183 v277
  let v279 : Index := Scalar.indexCast v278
  ![v279.toNat]

def k1_chk4 (i : grid1.Coords) (v280 : IVec S16 32) : Prop :=
  (∀ (k1_h1 : k1_cond1 i = 1#1), ∀ a x, ((![v280] : Fin 1 → IVec S16 32) a x).toNat < S100096.size a)
instance k1_chk4.dec : ∀ (i : grid1.Coords) (v280 : IVec S16 32), Decidable (k1_chk4 i v280) := fun i v280 => decidable_of_iff' _ (Iff.of_eq (k1_chk4.eq_1 i v280))
theorem k1_idx4_inb : ∀ (i : grid1.Coords) (v280 : IVec S16 32) (k1_hw4 : k1_chk4 i v280), ∀ (k1_h1 : k1_cond1 i = 1#1), ∀ a x, ((![v280] : Fin 1 → IVec S16 32) a x).toNat < S100096.size a := fun i v280 k1_hw4 k1_h1 => k1_hw4 k1_h1
def k1_off15 (k1_t4 : Fin k1_t4_loop.trips) : Fin 1 → Nat :=
  let c0_i32_182 : BitVec 32 := 0#32
  let c0_i32_127 : BitVec 32 := 0#32
  let c1_i32_129 : BitVec 32 := 1#32
  let arg15 : BitVec 32 := Scf.iv c0_i32_127 c1_i32_129 k1_t4
  let c16_i32 : BitVec 32 := 16#32
  let v276 : BitVec 32 := Scalar.muli arg15 c16_i32
  let v277 : BitVec 32 := Scalar.addi c0_i32_182 v276
  let v282 : Index := Scalar.indexCast v277
  ![v282.toNat]
def k1_off16 (i : grid1.Coords) : Fin 2 → Nat :=
  let c13_i32 : BitVec 32 := 13#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let v146 : BitVec 32 := Scalar.addi c13_i32 v1
  let c10240_i32 : BitVec 32 := 10240#32
  ![v146.toNat, 10240]
@[reducible] def k1_t5_loop : Scf.Loop 32 :=
  let c0_i32_140 : BitVec 32 := 0#32
  let c128_i32_141 : BitVec 32 := 128#32
  let v234 : BitVec 32 := Scalar.addi c0_i32_140 c128_i32_141
  let c1_i32_142 : BitVec 32 := 1#32
  ⟨c0_i32_140, v234, c1_i32_142⟩
def k1_off17 (k1_t5 : Fin k1_t5_loop.trips) : Fin 1 → Nat :=
  let c0_i32_183 : BitVec 32 := 0#32
  let c0_i32_182 : BitVec 32 := 0#32
  let c0_i32_140 : BitVec 32 := 0#32
  let c1_i32_142 : BitVec 32 := 1#32
  let arg15 : BitVec 32 := Scf.iv c0_i32_140 c1_i32_142 k1_t5
  let c16_i32 : BitVec 32 := 16#32
  let v276 : BitVec 32 := Scalar.muli arg15 c16_i32
  let v277 : BitVec 32 := Scalar.addi c0_i32_182 v276
  let v278 : BitVec 32 := Scalar.addi c0_i32_183 v277
  let v279 : Index := Scalar.indexCast v278
  ![v279.toNat]

def k1_chk5 (i : grid1.Coords) (v280 : IVec S16 32) : Prop :=
  (∀ (k1_h1 : k1_cond1 i = 1#1), ∀ a x, ((![v280] : Fin 1 → IVec S16 32) a x).toNat < S100096.size a)
instance k1_chk5.dec : ∀ (i : grid1.Coords) (v280 : IVec S16 32), Decidable (k1_chk5 i v280) := fun i v280 => decidable_of_iff' _ (Iff.of_eq (k1_chk5.eq_1 i v280))
theorem k1_idx5_inb : ∀ (i : grid1.Coords) (v280 : IVec S16 32) (k1_hw5 : k1_chk5 i v280), ∀ (k1_h1 : k1_cond1 i = 1#1), ∀ a x, ((![v280] : Fin 1 → IVec S16 32) a x).toNat < S100096.size a := fun i v280 k1_hw5 k1_h1 => k1_hw5 k1_h1
def k1_off18 (k1_t5 : Fin k1_t5_loop.trips) : Fin 1 → Nat :=
  let c0_i32_182 : BitVec 32 := 0#32
  let c0_i32_140 : BitVec 32 := 0#32
  let c1_i32_142 : BitVec 32 := 1#32
  let arg15 : BitVec 32 := Scf.iv c0_i32_140 c1_i32_142 k1_t5
  let c16_i32 : BitVec 32 := 16#32
  let v276 : BitVec 32 := Scalar.muli arg15 c16_i32
  let v277 : BitVec 32 := Scalar.addi c0_i32_182 v276
  let v282 : Index := Scalar.indexCast v277
  ![v282.toNat]
def k1_off19 (i : grid1.Coords) : Fin 2 → Nat :=
  let c13_i32 : BitVec 32 := 13#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let v146 : BitVec 32 := Scalar.addi c13_i32 v1
  let c12288_i32 : BitVec 32 := 12288#32
  ![v146.toNat, 12288]
@[reducible] def k1_t6_loop : Scf.Loop 32 :=
  let c0_i32_153 : BitVec 32 := 0#32
  let c128_i32_154 : BitVec 32 := 128#32
  let v249 : BitVec 32 := Scalar.addi c0_i32_153 c128_i32_154
  let c1_i32_155 : BitVec 32 := 1#32
  ⟨c0_i32_153, v249, c1_i32_155⟩
def k1_off20 (k1_t6 : Fin k1_t6_loop.trips) : Fin 1 → Nat :=
  let c2048_i32_183 : BitVec 32 := 2048#32
  let c0_i32_182 : BitVec 32 := 0#32
  let c0_i32_153 : BitVec 32 := 0#32
  let c1_i32_155 : BitVec 32 := 1#32
  let arg15 : BitVec 32 := Scf.iv c0_i32_153 c1_i32_155 k1_t6
  let c16_i32 : BitVec 32 := 16#32
  let v276 : BitVec 32 := Scalar.muli arg15 c16_i32
  let v277 : BitVec 32 := Scalar.addi c0_i32_182 v276
  let v278 : BitVec 32 := Scalar.addi c2048_i32_183 v277
  let v279 : Index := Scalar.indexCast v278
  ![v279.toNat]

def k1_chk6 (i : grid1.Coords) (v280 : IVec S16 32) : Prop :=
  (∀ (k1_h1 : k1_cond1 i = 1#1), ∀ a x, ((![v280] : Fin 1 → IVec S16 32) a x).toNat < S100096.size a)
instance k1_chk6.dec : ∀ (i : grid1.Coords) (v280 : IVec S16 32), Decidable (k1_chk6 i v280) := fun i v280 => decidable_of_iff' _ (Iff.of_eq (k1_chk6.eq_1 i v280))
theorem k1_idx6_inb : ∀ (i : grid1.Coords) (v280 : IVec S16 32) (k1_hw6 : k1_chk6 i v280), ∀ (k1_h1 : k1_cond1 i = 1#1), ∀ a x, ((![v280] : Fin 1 → IVec S16 32) a x).toNat < S100096.size a := fun i v280 k1_hw6 k1_h1 => k1_hw6 k1_h1
def k1_off21 (k1_t6 : Fin k1_t6_loop.trips) : Fin 1 → Nat :=
  let c0_i32_182 : BitVec 32 := 0#32
  let c0_i32_153 : BitVec 32 := 0#32
  let c1_i32_155 : BitVec 32 := 1#32
  let arg15 : BitVec 32 := Scf.iv c0_i32_153 c1_i32_155 k1_t6
  let c16_i32 : BitVec 32 := 16#32
  let v276 : BitVec 32 := Scalar.muli arg15 c16_i32
  let v277 : BitVec 32 := Scalar.addi c0_i32_182 v276
  let v282 : Index := Scalar.indexCast v277
  ![v282.toNat]
def k1_off22 (i : grid1.Coords) : Fin 2 → Nat :=
  let c13_i32 : BitVec 32 := 13#32
  let arg0 : BitVec 32 := BitVec.ofNat 32 (i 0).val
  let c7_i32 : BitVec 32 := 7#32
  let v0 : BitVec 32 := Scalar.muli arg0 c7_i32
  let arg1 : BitVec 32 := BitVec.ofNat 32 (i 1).val
  let v1 : BitVec 32 := Scalar.addi v0 arg1
  let v146 : BitVec 32 := Scalar.addi c13_i32 v1
  let c14336_i32 : BitVec 32 := 14336#32
  ![v146.toNat, 14336]
@[reducible] def k1_t7_loop : Scf.Loop 32 :=
  let c0_i32_166 : BitVec 32 := 0#32
  let c128_i32_167 : BitVec 32 := 128#32
  let v264 : BitVec 32 := Scalar.addi c0_i32_166 c128_i32_167
  let c1_i32_168 : BitVec 32 := 1#32
  ⟨c0_i32_166, v264, c1_i32_168⟩
def k1_off23 (k1_t7 : Fin k1_t7_loop.trips) : Fin 1 → Nat :=
  let c0_i32_183 : BitVec 32 := 0#32
  let c0_i32_182 : BitVec 32 := 0#32
  let c0_i32_166 : BitVec 32 := 0#32
  let c1_i32_168 : BitVec 32 := 1#32
  let arg15 : BitVec 32 := Scf.iv c0_i32_166 c1_i32_168 k1_t7
  let c16_i32 : BitVec 32 := 16#32
  let v276 : BitVec 32 := Scalar.muli arg15 c16_i32
  let v277 : BitVec 32 := Scalar.addi c0_i32_182 v276
  let v278 : BitVec 32 := Scalar.addi c0_i32_183 v277
  let v279 : Index := Scalar.indexCast v278
  ![v279.toNat]

def k1_chk7 (i : grid1.Coords) (v280 : IVec S16 32) : Prop :=
  (∀ (k1_h1 : k1_cond1 i = 1#1), ∀ a x, ((![v280] : Fin 1 → IVec S16 32) a x).toNat < S100096.size a)
instance k1_chk7.dec : ∀ (i : grid1.Coords) (v280 : IVec S16 32), Decidable (k1_chk7 i v280) := fun i v280 => decidable_of_iff' _ (Iff.of_eq (k1_chk7.eq_1 i v280))
theorem k1_idx7_inb : ∀ (i : grid1.Coords) (v280 : IVec S16 32) (k1_hw7 : k1_chk7 i v280), ∀ (k1_h1 : k1_cond1 i = 1#1), ∀ a x, ((![v280] : Fin 1 → IVec S16 32) a x).toNat < S100096.size a := fun i v280 k1_hw7 k1_h1 => k1_hw7 k1_h1
def k1_off24 (k1_t7 : Fin k1_t7_loop.trips) : Fin 1 → Nat :=
  let c0_i32_182 : BitVec 32 := 0#32
  let c0_i32_166 : BitVec 32 := 0#32
  let c1_i32_168 : BitVec 32 := 1#32
  let arg15 : BitVec 32 := Scf.iv c0_i32_166 c1_i32_168 k1_t7
  let c16_i32 : BitVec 32 := 16#32
  let v276 : BitVec 32 := Scalar.muli arg15 c16_i32
  let v277 : BitVec 32 := Scalar.addi c0_i32_182 v276
  let v282 : Index := Scalar.indexCast v277
  ![v282.toNat]
@[reducible] def k1_t8_loop : Scf.Loop 32 :=
  let c0_i32_176 : BitVec 32 := 0#32
  let c128_i32_177 : BitVec 32 := 128#32
  let v273 : BitVec 32 := Scalar.addi c0_i32_176 c128_i32_177
  let c1_i32_178 : BitVec 32 := 1#32
  ⟨c0_i32_176, v273, c1_i32_178⟩
def k1_off25 (k1_t8 : Fin k1_t8_loop.trips) : Fin 1 → Nat :=
  let c2048_i32_183 : BitVec 32 := 2048#32
  let c0_i32_182 : BitVec 32 := 0#32
  let c0_i32_176 : BitVec 32 := 0#32
  let c1_i32_178 : BitVec 32 := 1#32
  let arg15 : BitVec 32 := Scf.iv c0_i32_176 c1_i32_178 k1_t8
  let c16_i32 : BitVec 32 := 16#32
  let v276 : BitVec 32 := Scalar.muli arg15 c16_i32
  let v277 : BitVec 32 := Scalar.addi c0_i32_182 v276
  let v278 : BitVec 32 := Scalar.addi c2048_i32_183 v277
  let v279 : Index := Scalar.indexCast v278
  ![v279.toNat]

def k1_chk8 (i : grid1.Coords) (v280 : IVec S16 32) : Prop :=
  (∀ (k1_h1 : k1_cond1 i = 1#1), ∀ a x, ((![v280] : Fin 1 → IVec S16 32) a x).toNat < S100096.size a)
instance k1_chk8.dec : ∀ (i : grid1.Coords) (v280 : IVec S16 32), Decidable (k1_chk8 i v280) := fun i v280 => decidable_of_iff' _ (Iff.of_eq (k1_chk8.eq_1 i v280))
theorem k1_idx8_inb : ∀ (i : grid1.Coords) (v280 : IVec S16 32) (k1_hw8 : k1_chk8 i v280), ∀ (k1_h1 : k1_cond1 i = 1#1), ∀ a x, ((![v280] : Fin 1 → IVec S16 32) a x).toNat < S100096.size a := fun i v280 k1_hw8 k1_h1 => k1_hw8 k1_h1
def k1_off26 (k1_t8 : Fin k1_t8_loop.trips) : Fin 1 → Nat :=
  let c0_i32_182 : BitVec 32 := 0#32
  let c0_i32_176 : BitVec 32 := 0#32
  let c1_i32_178 : BitVec 32 := 1#32
  let arg15 : BitVec 32 := Scf.iv c0_i32_176 c1_i32_178 k1_t8
  let c16_i32 : BitVec 32 := 16#32
  let v276 : BitVec 32 := Scalar.muli arg15 c16_i32
  let v277 : BitVec 32 := Scalar.addi c0_i32_182 v276
  let v282 : Index := Scalar.indexCast v277
  ![v282.toNat]
def k1_cond2 (i : grid1.Coords) : BitVec 1 :=
  let arg0 : BitVec 32 := BitVec.ofNat 32 (i 0).val
  let c1_i32 : BitVec 32 := 1#32
  let v6 : BitVec 1 := Scalar.cmpi .eq arg0 c1_i32
  let arg1 : BitVec 32 := BitVec.ofNat 32 (i 1).val
  let c6_i32 : BitVec 32 := 6#32
  let v7 : BitVec 1 := Scalar.cmpi .eq arg1 c6_i32
  let v8 : BitVec 1 := Scalar.andi v6 v7
  let v9 : BitVec 32 := Scalar.extui v8
  let c0_i32_1 : BitVec 32 := 0#32
  let v10 : BitVec 1 := Scalar.cmpi .ne v9 c0_i32_1
  v10

@[reducible] def k1_t9_loop : Scf.Loop 32 :=
  let c0_i32_73 : BitVec 32 := 0#32
  let c128_i32 : BitVec 32 := 128#32
  let v146 : BitVec 32 := Scalar.addi c0_i32_73 c128_i32
  let c1_i32_74 : BitVec 32 := 1#32
  ⟨c0_i32_73, v146, c1_i32_74⟩
def k1_off27 (k1_t9 : Fin k1_t9_loop.trips) : Fin 1 → Nat :=
  let c0_i32_86 : BitVec 32 := 0#32
  let c0_i32_73 : BitVec 32 := 0#32
  let c1_i32_74 : BitVec 32 := 1#32
  let arg15 : BitVec 32 := Scf.iv c0_i32_73 c1_i32_74 k1_t9
  let c16_i32 : BitVec 32 := 16#32
  let v163 : BitVec 32 := Scalar.muli arg15 c16_i32
  let v164 : BitVec 32 := Scalar.addi c0_i32_86 v163
  let v166 : Index := Scalar.indexCast v164
  ![v166.toNat]
def k1_off28 (i : grid1.Coords) (c0_i32_77 : BitVec 32) : Fin 1 → Nat :=
  let arg1 : BitVec 32 := BitVec.ofNat 32 (i 1).val
  let c16384_i32_76 : BitVec 32 := 16384#32
  let v147 : BitVec 32 := Scalar.muli arg1 c16384_i32_76
  let v148 : BitVec 32 := Scalar.addi v147 c0_i32_77
  ![v148.toNat]
def k1_off29 (i : grid1.Coords) (c0_i32_3 : BitVec 32) (c0_i32_2 : BitVec 32) : Fin 1 → Nat :=
  let arg1 : BitVec 32 := BitVec.ofNat 32 (i 1).val
  let c1024_i32 : BitVec 32 := 1024#32
  let v11 : BitVec 32 := Scalar.muli arg1 c1024_i32
  let v12 : BitVec 32 := Scalar.addi v11 c0_i32_2
  let v13 : BitVec 32 := Scalar.addi c0_i32_3 v12
  ![v13.toNat]
@[reducible] def k1_t10_loop : Scf.Loop 32 :=
  let c0_i32_27 : BitVec 32 := 0#32
  let c32_i32 : BitVec 32 := 32#32
  let v76 : BitVec 32 := Scalar.addi c0_i32_27 c32_i32
  let c1_i32_28 : BitVec 32 := 1#32
  ⟨c0_i32_27, v76, c1_i32_28⟩
def k1_off30 (k1_t10 : Fin k1_t10_loop.trips) : Fin 1 → Nat :=
  let c0_i32_73 : BitVec 32 := 0#32
  let c0_i32_27 : BitVec 32 := 0#32
  let c1_i32_28 : BitVec 32 := 1#32
  let arg15 : BitVec 32 := Scf.iv c0_i32_27 c1_i32_28 k1_t10
  let c16_i32 : BitVec 32 := 16#32
  let v146 : BitVec 32 := Scalar.muli arg15 c16_i32
  let v147 : BitVec 32 := Scalar.addi c0_i32_73 v146
  let v148 : Index := Scalar.indexCast v147
  ![v148.toNat]
def k1_off31 (k1_t10 : Fin k1_t10_loop.trips) (c512_i32_74 : BitVec 32) : Fin 1 → Nat :=
  let c0_i32_73 : BitVec 32 := 0#32
  let c0_i32_27 : BitVec 32 := 0#32
  let c1_i32_28 : BitVec 32 := 1#32
  let arg15 : BitVec 32 := Scf.iv c0_i32_27 c1_i32_28 k1_t10
  let c16_i32 : BitVec 32 := 16#32
  let v146 : BitVec 32 := Scalar.muli arg15 c16_i32
  let v147 : BitVec 32 := Scalar.addi c0_i32_73 v146
  let v150 : BitVec 32 := Scalar.addi c512_i32_74 v147
  let v151 : Index := Scalar.indexCast v150
  ![v151.toNat]
def k1_off32 (k1_t10 : Fin k1_t10_loop.trips) : Fin 1 → Nat :=
  let c0_i32_80 : BitVec 32 := 0#32
  let c0_i32_73 : BitVec 32 := 0#32
  let c0_i32_27 : BitVec 32 := 0#32
  let c1_i32_28 : BitVec 32 := 1#32
  let arg15 : BitVec 32 := Scf.iv c0_i32_27 c1_i32_28 k1_t10
  let c16_i32 : BitVec 32 := 16#32
  let v146 : BitVec 32 := Scalar.muli arg15 c16_i32
  let v147 : BitVec 32 := Scalar.addi c0_i32_73 v146
  let v174 : BitVec 32 := Scalar.addi c0_i32_80 v147
  let v175 : Index := Scalar.indexCast v174
  ![v175.toNat]
@[reducible] def k1_t11_loop : Scf.Loop 32 :=
  let c0_i32_67 : BitVec 32 := 0#32
  let c32_i32_68 : BitVec 32 := 32#32
  let v142 : BitVec 32 := Scalar.addi c0_i32_67 c32_i32_68
  let c1_i32_69 : BitVec 32 := 1#32
  ⟨c0_i32_67, v142, c1_i32_69⟩
def k1_off33 (k1_t11 : Fin k1_t11_loop.trips) : Fin 1 → Nat :=
  let c0_i32_73 : BitVec 32 := 0#32
  let c0_i32_67 : BitVec 32 := 0#32
  let c1_i32_69 : BitVec 32 := 1#32
  let arg15 : BitVec 32 := Scf.iv c0_i32_67 c1_i32_69 k1_t11
  let c16_i32 : BitVec 32 := 16#32
  let v146 : BitVec 32 := Scalar.muli arg15 c16_i32
  let v147 : BitVec 32 := Scalar.addi c0_i32_73 v146
  let v148 : Index := Scalar.indexCast v147
  ![v148.toNat]
def k1_off34 (k1_t11 : Fin k1_t11_loop.trips) (c512_i32_74 : BitVec 32) : Fin 1 → Nat :=
  let c0_i32_73 : BitVec 32 := 0#32
  let c0_i32_67 : BitVec 32 := 0#32
  let c1_i32_69 : BitVec 32 := 1#32
  let arg15 : BitVec 32 := Scf.iv c0_i32_67 c1_i32_69 k1_t11
  let c16_i32 : BitVec 32 := 16#32
  let v146 : BitVec 32 := Scalar.muli arg15 c16_i32
  let v147 : BitVec 32 := Scalar.addi c0_i32_73 v146
  let v150 : BitVec 32 := Scalar.addi c512_i32_74 v147
  let v151 : Index := Scalar.indexCast v150
  ![v151.toNat]
def k1_off35 (k1_t11 : Fin k1_t11_loop.trips) : Fin 1 → Nat :=
  let c512_i32_80 : BitVec 32 := 512#32
  let c0_i32_73 : BitVec 32 := 0#32
  let c0_i32_67 : BitVec 32 := 0#32
  let c1_i32_69 : BitVec 32 := 1#32
  let arg15 : BitVec 32 := Scf.iv c0_i32_67 c1_i32_69 k1_t11
  let c16_i32 : BitVec 32 := 16#32
  let v146 : BitVec 32 := Scalar.muli arg15 c16_i32
  let v147 : BitVec 32 := Scalar.addi c0_i32_73 v146
  let v174 : BitVec 32 := Scalar.addi c512_i32_80 v147
  let v175 : Index := Scalar.indexCast v174
  ![v175.toNat]
def k1_off36 (i : grid1.Coords) : Fin 1 → Nat :=
  let arg0 : BitVec 32 := BitVec.ofNat 32 (i 0).val
  let c16384_i32_71 : BitVec 32 := 16384#32
  let v143 : BitVec 32 := Scalar.muli arg0 c16384_i32_71
  let arg1 : BitVec 32 := BitVec.ofNat 32 (i 1).val
  let c1024_i32_72 : BitVec 32 := 1024#32
  let v144 : BitVec 32 := Scalar.muli arg1 c1024_i32_72
  let v145 : BitVec 32 := Scalar.addi v143 v144
  ![v145.toNat]
abbrev grid2 : Pipeline.Grid := .none

abbrev stage2_0 : Fin 1 → Memref sig .tc .vmem S2x128x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S2x128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  transposes_S16384x26_S26x16384_1_0 : S16384x26.Transposes [1, 0] S26x16384
  slices_S2600000x1_S1300000x1_0_0 : S2600000x1.Slices ![0, 0] S1300000x1
  shapeCasts_S1300000x1_S1300000 : S1300000x1.ShapeCasts S1300000
  slices_S2600000x1_S1300000x1_1300000_0 : S2600000x1.Slices ![1300000, 0] S1300000x1
  bcast_S1_S1x128_1 : S1.BroadcastsInDim S1x128 (![1] : Fin 1 → Fin S1x128.rank)
  inb_S100096_S100000_0 : ∀ a, (![0] : Fin 1 → Nat) a + S100000.size a ≤ S100096.size a
  inb_S4096_S2048_0 : ∀ a, (![0] : Fin 1 → Nat) a + S2048.size a ≤ S4096.size a
  squeezes_S1x2048_S2048 : S1x2048.Squeezes S2048
  inb_S4096_S2048_2048 : ∀ a, (![2048] : Fin 1 → Nat) a + S2048.size a ≤ S4096.size a
  h_S16 : 0 < S16.numel
  h_S100096 : 0 < S100096.numel
  inb_S3584_S512_0 : ∀ a, (![0] : Fin 1 → Nat) a + S512.size a ≤ S3584.size a
  inb_S3584_S512_512 : ∀ a, (![512] : Fin 1 → Nat) a + S512.size a ≤ S3584.size a
  inb_S3584_S512_1024 : ∀ a, (![1024] : Fin 1 → Nat) a + S512.size a ≤ S3584.size a
  inb_S3584_S512_1536 : ∀ a, (![1536] : Fin 1 → Nat) a + S512.size a ≤ S3584.size a
  inb_S3584_S512_2048 : ∀ a, (![2048] : Fin 1 → Nat) a + S512.size a ≤ S3584.size a
  inb_S3584_S512_2560 : ∀ a, (![2560] : Fin 1 → Nat) a + S512.size a ≤ S3584.size a
  inb_S3584_S512_3072 : ∀ a, (![3072] : Fin 1 → Nat) a + S512.size a ≤ S3584.size a
  shapeCasts_S32768_S2x128x128 : S32768.ShapeCasts S2x128x128
  inb_S2x128x128_S1x128x128_0_0_0 : ∀ a, (![0, 0, 0] : Fin 3 → Nat) a + S1x128x128.size a ≤ S2x128x128.size a
  h_S1x128x128 : 0 < S1x128x128.numel
  shapeCasts_S1x128x128_S128x128 : S1x128x128.ShapeCasts S128x128
  inb_S2x128x128_S1x128x128_1_0_0 : ∀ a, (![1, 0, 0] : Fin 3 → Nat) a + S1x128x128.size a ≤ S2x128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  shapeCasts_S128x128_S16384x1 : S128x128.ShapeCasts S16384x1
  hcc0_scratch6 : 0 + S_.numel ≤ 46
  hcc0_scratch7 : 1 + S_.numel ≤ 46
  hcc0_scratch8 : 2 + S_.numel ≤ 46
  hcc0_scratch9 : 3 + S_.numel ≤ 46
  hcc0_scoped0 : 4 + S_.numel ≤ 46
  hcc0_scoped1 : 5 + S_.numel ≤ 46
  hcc0_scoped2 : 6 + S_.numel ≤ 46
  hcc0_scoped3 : 7 + S_.numel ≤ 46
  hcc0_scoped4 : 8 + S_.numel ≤ 46
  hcc0_scoped5 : 9 + S_.numel ≤ 46
  hcc0_scoped6 : 10 + S_.numel ≤ 46
  hcc0_scoped7 : 11 + S_.numel ≤ 46
  hcc0_scoped8 : 12 + S_.numel ≤ 46
  hcc0_scoped9 : 13 + S_.numel ≤ 46
  hcc0_scoped10 : 14 + S_.numel ≤ 46
  hcc0_scoped11 : 15 + S_.numel ≤ 46
  hcc0_scoped12 : 16 + S_.numel ≤ 46
  hcc0_scoped13 : 17 + S_.numel ≤ 46
  hcc0_scoped14 : 18 + S_.numel ≤ 46
  hcc0_scoped15 : 19 + S_.numel ≤ 46
  hcc0_scoped16 : 20 + S_.numel ≤ 46
  hcc1_scratch6 : 21 + S_.numel ≤ 46
  hcc1_scratch7 : 22 + S_.numel ≤ 46
  hcc1_scratch8 : 23 + S_.numel ≤ 46
  hcc1_scratch9 : 24 + S_.numel ≤ 46
  hcc1_scoped0 : 25 + S_.numel ≤ 46
  hcc1_scoped1 : 26 + S_.numel ≤ 46
  hcc1_scoped2 : 27 + S_.numel ≤ 46
  hcc1_scoped3 : 28 + S_.numel ≤ 46
  hcc1_scoped4 : 29 + S_.numel ≤ 46
  hcc1_scoped5 : 30 + S_.numel ≤ 46
  hcc1_scoped6 : 31 + S_.numel ≤ 46
  hcc1_scoped7 : 32 + S_.numel ≤ 46
  hcc1_scoped8 : 33 + S_.numel ≤ 46
  hcc1_scoped9 : 34 + S_.numel ≤ 46
  hcc1_scoped10 : 35 + S_.numel ≤ 46
  hcc1_scoped11 : 36 + S_.numel ≤ 46
  hcc1_scoped12 : 37 + S_.numel ≤ 46
  hcc1_scoped13 : 38 + S_.numel ≤ 46
  hcc1_scoped14 : 39 + S_.numel ≤ 46
  hcc1_scoped15 : 40 + S_.numel ≤ 46
  hcc1_scoped16 : 41 + S_.numel ≤ 46
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S100000.size a ≤ S1300000.size a
  k0_off2_inb : ∀ i : grid0.Coords, ∀ (k0_h1 : k0_cond1 i = 1#1), ∀ a, (k0_off2 i) a + S1x2048.size a ≤ S26x16384.size a
  k0_off3_inb : ∀ i : grid0.Coords, ∀ (k0_h1 : k0_cond1 i = 1#1), ∀ a, (k0_off3 i) a + S1x2048.size a ≤ S26x16384.size a
  k0_t1_ok : ∀ i : grid0.Coords, ∀ (k0_h1 : k0_cond1 i = 1#1), k0_t1_loop.OK
  k0_off4_inb : ∀ (i : grid0.Coords) (k0_t1 : Fin k0_t1_loop.trips), ∀ (k0_h1 : k0_cond1 i = 1#1), ∀ a, (k0_off4 k0_t1) a + S16.size a ≤ S4096.size a
  k0_off5_inb : ∀ (i : grid0.Coords) (k0_t1 : Fin k0_t1_loop.trips), ∀ (k0_h1 : k0_cond1 i = 1#1), ∀ a, (k0_off5 k0_t1) a + S16.size a ≤ S2048.size a
  k0_off6_inb : ∀ i : grid0.Coords, ∀ (k0_h1 : k0_cond1 i = 1#1), ∀ (r : Fin 8), ∀ a, (k0_off6 i (BitVec.ofNat 32 (2048 * r.val))) a + S2048.size a ≤ S114688.size a
  k0_off7_inb : ∀ i : grid0.Coords, ∀ (k0_h1 : k0_cond1 i = 1#1), ∀ a, (k0_off7 i) a + S1x2048.size a ≤ S26x16384.size a
  k0_t2_ok : ∀ i : grid0.Coords, ∀ (k0_h1 : k0_cond1 i = 1#1), k0_t2_loop.OK
  k0_off8_inb : ∀ (i : grid0.Coords) (k0_t2 : Fin k0_t2_loop.trips), ∀ (k0_h1 : k0_cond1 i = 1#1), ∀ a, (k0_off8 k0_t2) a + S16.size a ≤ S4096.size a
  k0_off9_inb : ∀ (i : grid0.Coords) (k0_t2 : Fin k0_t2_loop.trips), ∀ (k0_h1 : k0_cond1 i = 1#1), ∀ a, (k0_off9 k0_t2) a + S16.size a ≤ S2048.size a
  k0_off10_inb : ∀ i : grid0.Coords, ∀ (k0_h1 : k0_cond1 i = 1#1), ∀ a, (k0_off10 i) a + S1x2048.size a ≤ S26x16384.size a
  k0_t3_ok : ∀ i : grid0.Coords, ∀ (k0_h1 : k0_cond1 i = 1#1), k0_t3_loop.OK
  k0_off11_inb : ∀ (i : grid0.Coords) (k0_t3 : Fin k0_t3_loop.trips), ∀ (k0_h1 : k0_cond1 i = 1#1), ∀ a, (k0_off11 k0_t3) a + S16.size a ≤ S4096.size a
  k0_off12_inb : ∀ (i : grid0.Coords) (k0_t3 : Fin k0_t3_loop.trips), ∀ (k0_h1 : k0_cond1 i = 1#1), ∀ a, (k0_off12 k0_t3) a + S16.size a ≤ S2048.size a
  k0_off13_inb : ∀ i : grid0.Coords, ∀ (k0_h1 : k0_cond1 i = 1#1), ∀ a, (k0_off13 i) a + S1x2048.size a ≤ S26x16384.size a
  k0_t4_ok : ∀ i : grid0.Coords, ∀ (k0_h1 : k0_cond1 i = 1#1), k0_t4_loop.OK
  k0_off14_inb : ∀ (i : grid0.Coords) (k0_t4 : Fin k0_t4_loop.trips), ∀ (k0_h1 : k0_cond1 i = 1#1), ∀ a, (k0_off14 k0_t4) a + S16.size a ≤ S4096.size a
  k0_off15_inb : ∀ (i : grid0.Coords) (k0_t4 : Fin k0_t4_loop.trips), ∀ (k0_h1 : k0_cond1 i = 1#1), ∀ a, (k0_off15 k0_t4) a + S16.size a ≤ S2048.size a
  k0_off16_inb : ∀ i : grid0.Coords, ∀ (k0_h1 : k0_cond1 i = 1#1), ∀ a, (k0_off16 i) a + S1x2048.size a ≤ S26x16384.size a
  k0_t5_ok : ∀ i : grid0.Coords, ∀ (k0_h1 : k0_cond1 i = 1#1), k0_t5_loop.OK
  k0_off17_inb : ∀ (i : grid0.Coords) (k0_t5 : Fin k0_t5_loop.trips), ∀ (k0_h1 : k0_cond1 i = 1#1), ∀ a, (k0_off17 k0_t5) a + S16.size a ≤ S4096.size a
  k0_off18_inb : ∀ (i : grid0.Coords) (k0_t5 : Fin k0_t5_loop.trips), ∀ (k0_h1 : k0_cond1 i = 1#1), ∀ a, (k0_off18 k0_t5) a + S16.size a ≤ S2048.size a
  k0_off19_inb : ∀ i : grid0.Coords, ∀ (k0_h1 : k0_cond1 i = 1#1), ∀ a, (k0_off19 i) a + S1x2048.size a ≤ S26x16384.size a
  k0_t6_ok : ∀ i : grid0.Coords, ∀ (k0_h1 : k0_cond1 i = 1#1), k0_t6_loop.OK
  k0_off20_inb : ∀ (i : grid0.Coords) (k0_t6 : Fin k0_t6_loop.trips), ∀ (k0_h1 : k0_cond1 i = 1#1), ∀ a, (k0_off20 k0_t6) a + S16.size a ≤ S4096.size a
  k0_off21_inb : ∀ (i : grid0.Coords) (k0_t6 : Fin k0_t6_loop.trips), ∀ (k0_h1 : k0_cond1 i = 1#1), ∀ a, (k0_off21 k0_t6) a + S16.size a ≤ S2048.size a
  k0_off22_inb : ∀ i : grid0.Coords, ∀ (k0_h1 : k0_cond1 i = 1#1), ∀ a, (k0_off22 i) a + S1x2048.size a ≤ S26x16384.size a
  k0_t7_ok : ∀ i : grid0.Coords, ∀ (k0_h1 : k0_cond1 i = 1#1), k0_t7_loop.OK
  k0_off23_inb : ∀ (i : grid0.Coords) (k0_t7 : Fin k0_t7_loop.trips), ∀ (k0_h1 : k0_cond1 i = 1#1), ∀ a, (k0_off23 k0_t7) a + S16.size a ≤ S4096.size a
  k0_off24_inb : ∀ (i : grid0.Coords) (k0_t7 : Fin k0_t7_loop.trips), ∀ (k0_h1 : k0_cond1 i = 1#1), ∀ a, (k0_off24 k0_t7) a + S16.size a ≤ S2048.size a
  k0_t8_ok : ∀ i : grid0.Coords, ∀ (k0_h1 : k0_cond1 i = 1#1), k0_t8_loop.OK
  k0_off25_inb : ∀ (i : grid0.Coords) (k0_t8 : Fin k0_t8_loop.trips), ∀ (k0_h1 : k0_cond1 i = 1#1), ∀ a, (k0_off25 k0_t8) a + S16.size a ≤ S4096.size a
  k0_off26_inb : ∀ (i : grid0.Coords) (k0_t8 : Fin k0_t8_loop.trips), ∀ (k0_h1 : k0_cond1 i = 1#1), ∀ a, (k0_off26 k0_t8) a + S16.size a ≤ S2048.size a
  k0_t9_ok : ∀ i : grid0.Coords, ∀ (k0_h2 : k0_cond2 i = 1#1), k0_t9_loop.OK
  k0_off27_inb : ∀ (i : grid0.Coords) (k0_t9 : Fin k0_t9_loop.trips), ∀ (k0_h2 : k0_cond2 i = 1#1), ∀ a, (k0_off27 k0_t9) a + S16.size a ≤ S2048.size a
  k0_off28_inb : ∀ i : grid0.Coords, ∀ (k0_h2 : k0_cond2 i = 1#1), ∀ (r : Fin 8), ∀ a, (k0_off28 i (BitVec.ofNat 32 (2048 * r.val))) a + S2048.size a ≤ S114688.size a
  k0_off29_inb : ∀ i : grid0.Coords, ∀ (r₁ : Fin 7) (r₂ : Fin 2), ∀ a, (k0_off29 i (BitVec.ofNat 32 (16384 * r₁.val)) (BitVec.ofNat 32 (512 * r₂.val))) a + S512.size a ≤ S114688.size a
  k0_t10_ok : k0_t10_loop.OK
  k0_off30_inb : ∀ k0_t10 : Fin k0_t10_loop.trips, ∀ a, (k0_off30 k0_t10) a + S16.size a ≤ S3584.size a
  k0_off31_inb : ∀ k0_t10 : Fin k0_t10_loop.trips, ∀ (r : Fin 6), ∀ a, (k0_off31 k0_t10 (BitVec.ofNat 32 (512 + 512 * r.val))) a + S16.size a ≤ S3584.size a
  k0_off32_inb : ∀ k0_t10 : Fin k0_t10_loop.trips, ∀ a, (k0_off32 k0_t10) a + S16.size a ≤ S1024.size a
  k0_t11_ok : k0_t11_loop.OK
  k0_off33_inb : ∀ k0_t11 : Fin k0_t11_loop.trips, ∀ a, (k0_off33 k0_t11) a + S16.size a ≤ S3584.size a
  k0_off34_inb : ∀ k0_t11 : Fin k0_t11_loop.trips, ∀ (r : Fin 6), ∀ a, (k0_off34 k0_t11 (BitVec.ofNat 32 (512 + 512 * r.val))) a + S16.size a ≤ S3584.size a
  k0_off35_inb : ∀ k0_t11 : Fin k0_t11_loop.trips, ∀ a, (k0_off35 k0_t11) a + S16.size a ≤ S1024.size a
  k0_off36_inb : ∀ i : grid0.Coords, ∀ a, (k0_off36 i) a + S1024.size a ≤ S32768.size a
  hcore1 : grid1.bound 0 ≤ τ.nSC
  hsub1 : grid1.bound 1 ≤ τ.nSub
  k1_off1_inb : ∀ i : grid1.Coords, ∀ (k1_h1 : k1_cond1 i = 1#1), ∀ a, (k1_off1 i) a + S100000.size a ≤ S1300000.size a
  k1_off2_inb : ∀ i : grid1.Coords, ∀ (k1_h1 : k1_cond1 i = 1#1), ∀ a, (k1_off2 i) a + S1x2048.size a ≤ S26x16384.size a
  k1_off3_inb : ∀ i : grid1.Coords, ∀ (k1_h1 : k1_cond1 i = 1#1), ∀ a, (k1_off3 i) a + S1x2048.size a ≤ S26x16384.size a
  k1_t1_ok : ∀ i : grid1.Coords, ∀ (k1_h1 : k1_cond1 i = 1#1), k1_t1_loop.OK
  k1_off4_inb : ∀ (i : grid1.Coords) (k1_t1 : Fin k1_t1_loop.trips), ∀ (k1_h1 : k1_cond1 i = 1#1), ∀ a, (k1_off4 k1_t1) a + S16.size a ≤ S4096.size a
  k1_off5_inb : ∀ (i : grid1.Coords) (k1_t1 : Fin k1_t1_loop.trips), ∀ (k1_h1 : k1_cond1 i = 1#1), ∀ a, (k1_off5 k1_t1) a + S16.size a ≤ S2048.size a
  k1_off6_inb : ∀ i : grid1.Coords, ∀ (k1_h1 : k1_cond1 i = 1#1), ∀ (r : Fin 8), ∀ a, (k1_off6 i (BitVec.ofNat 32 (2048 * r.val))) a + S2048.size a ≤ S114688.size a
  k1_off7_inb : ∀ i : grid1.Coords, ∀ (k1_h1 : k1_cond1 i = 1#1), ∀ a, (k1_off7 i) a + S1x2048.size a ≤ S26x16384.size a
  k1_t2_ok : ∀ i : grid1.Coords, ∀ (k1_h1 : k1_cond1 i = 1#1), k1_t2_loop.OK
  k1_off8_inb : ∀ (i : grid1.Coords) (k1_t2 : Fin k1_t2_loop.trips), ∀ (k1_h1 : k1_cond1 i = 1#1), ∀ a, (k1_off8 k1_t2) a + S16.size a ≤ S4096.size a
  k1_off9_inb : ∀ (i : grid1.Coords) (k1_t2 : Fin k1_t2_loop.trips), ∀ (k1_h1 : k1_cond1 i = 1#1), ∀ a, (k1_off9 k1_t2) a + S16.size a ≤ S2048.size a
  k1_off10_inb : ∀ i : grid1.Coords, ∀ (k1_h1 : k1_cond1 i = 1#1), ∀ a, (k1_off10 i) a + S1x2048.size a ≤ S26x16384.size a
  k1_t3_ok : ∀ i : grid1.Coords, ∀ (k1_h1 : k1_cond1 i = 1#1), k1_t3_loop.OK
  k1_off11_inb : ∀ (i : grid1.Coords) (k1_t3 : Fin k1_t3_loop.trips), ∀ (k1_h1 : k1_cond1 i = 1#1), ∀ a, (k1_off11 k1_t3) a + S16.size a ≤ S4096.size a
  k1_off12_inb : ∀ (i : grid1.Coords) (k1_t3 : Fin k1_t3_loop.trips), ∀ (k1_h1 : k1_cond1 i = 1#1), ∀ a, (k1_off12 k1_t3) a + S16.size a ≤ S2048.size a
  k1_off13_inb : ∀ i : grid1.Coords, ∀ (k1_h1 : k1_cond1 i = 1#1), ∀ a, (k1_off13 i) a + S1x2048.size a ≤ S26x16384.size a
  k1_t4_ok : ∀ i : grid1.Coords, ∀ (k1_h1 : k1_cond1 i = 1#1), k1_t4_loop.OK
  k1_off14_inb : ∀ (i : grid1.Coords) (k1_t4 : Fin k1_t4_loop.trips), ∀ (k1_h1 : k1_cond1 i = 1#1), ∀ a, (k1_off14 k1_t4) a + S16.size a ≤ S4096.size a
  k1_off15_inb : ∀ (i : grid1.Coords) (k1_t4 : Fin k1_t4_loop.trips), ∀ (k1_h1 : k1_cond1 i = 1#1), ∀ a, (k1_off15 k1_t4) a + S16.size a ≤ S2048.size a
  k1_off16_inb : ∀ i : grid1.Coords, ∀ (k1_h1 : k1_cond1 i = 1#1), ∀ a, (k1_off16 i) a + S1x2048.size a ≤ S26x16384.size a
  k1_t5_ok : ∀ i : grid1.Coords, ∀ (k1_h1 : k1_cond1 i = 1#1), k1_t5_loop.OK
  k1_off17_inb : ∀ (i : grid1.Coords) (k1_t5 : Fin k1_t5_loop.trips), ∀ (k1_h1 : k1_cond1 i = 1#1), ∀ a, (k1_off17 k1_t5) a + S16.size a ≤ S4096.size a
  k1_off18_inb : ∀ (i : grid1.Coords) (k1_t5 : Fin k1_t5_loop.trips), ∀ (k1_h1 : k1_cond1 i = 1#1), ∀ a, (k1_off18 k1_t5) a + S16.size a ≤ S2048.size a
  k1_off19_inb : ∀ i : grid1.Coords, ∀ (k1_h1 : k1_cond1 i = 1#1), ∀ a, (k1_off19 i) a + S1x2048.size a ≤ S26x16384.size a
  k1_t6_ok : ∀ i : grid1.Coords, ∀ (k1_h1 : k1_cond1 i = 1#1), k1_t6_loop.OK
  k1_off20_inb : ∀ (i : grid1.Coords) (k1_t6 : Fin k1_t6_loop.trips), ∀ (k1_h1 : k1_cond1 i = 1#1), ∀ a, (k1_off20 k1_t6) a + S16.size a ≤ S4096.size a
  k1_off21_inb : ∀ (i : grid1.Coords) (k1_t6 : Fin k1_t6_loop.trips), ∀ (k1_h1 : k1_cond1 i = 1#1), ∀ a, (k1_off21 k1_t6) a + S16.size a ≤ S2048.size a
  k1_off22_inb : ∀ i : grid1.Coords, ∀ (k1_h1 : k1_cond1 i = 1#1), ∀ a, (k1_off22 i) a + S1x2048.size a ≤ S26x16384.size a
  k1_t7_ok : ∀ i : grid1.Coords, ∀ (k1_h1 : k1_cond1 i = 1#1), k1_t7_loop.OK
  k1_off23_inb : ∀ (i : grid1.Coords) (k1_t7 : Fin k1_t7_loop.trips), ∀ (k1_h1 : k1_cond1 i = 1#1), ∀ a, (k1_off23 k1_t7) a + S16.size a ≤ S4096.size a
  k1_off24_inb : ∀ (i : grid1.Coords) (k1_t7 : Fin k1_t7_loop.trips), ∀ (k1_h1 : k1_cond1 i = 1#1), ∀ a, (k1_off24 k1_t7) a + S16.size a ≤ S2048.size a
  k1_t8_ok : ∀ i : grid1.Coords, ∀ (k1_h1 : k1_cond1 i = 1#1), k1_t8_loop.OK
  k1_off25_inb : ∀ (i : grid1.Coords) (k1_t8 : Fin k1_t8_loop.trips), ∀ (k1_h1 : k1_cond1 i = 1#1), ∀ a, (k1_off25 k1_t8) a + S16.size a ≤ S4096.size a
  k1_off26_inb : ∀ (i : grid1.Coords) (k1_t8 : Fin k1_t8_loop.trips), ∀ (k1_h1 : k1_cond1 i = 1#1), ∀ a, (k1_off26 k1_t8) a + S16.size a ≤ S2048.size a
  k1_t9_ok : ∀ i : grid1.Coords, ∀ (k1_h2 : k1_cond2 i = 1#1), k1_t9_loop.OK
  k1_off27_inb : ∀ (i : grid1.Coords) (k1_t9 : Fin k1_t9_loop.trips), ∀ (k1_h2 : k1_cond2 i = 1#1), ∀ a, (k1_off27 k1_t9) a + S16.size a ≤ S2048.size a
  k1_off28_inb : ∀ i : grid1.Coords, ∀ (k1_h2 : k1_cond2 i = 1#1), ∀ (r : Fin 8), ∀ a, (k1_off28 i (BitVec.ofNat 32 (2048 * r.val))) a + S2048.size a ≤ S114688.size a
  k1_off29_inb : ∀ i : grid1.Coords, ∀ (r₁ : Fin 7) (r₂ : Fin 2), ∀ a, (k1_off29 i (BitVec.ofNat 32 (16384 * r₁.val)) (BitVec.ofNat 32 (512 * r₂.val))) a + S512.size a ≤ S114688.size a
  k1_t10_ok : k1_t10_loop.OK
  k1_off30_inb : ∀ k1_t10 : Fin k1_t10_loop.trips, ∀ a, (k1_off30 k1_t10) a + S16.size a ≤ S3584.size a
  k1_off31_inb : ∀ k1_t10 : Fin k1_t10_loop.trips, ∀ (r : Fin 6), ∀ a, (k1_off31 k1_t10 (BitVec.ofNat 32 (512 + 512 * r.val))) a + S16.size a ≤ S3584.size a
  k1_off32_inb : ∀ k1_t10 : Fin k1_t10_loop.trips, ∀ a, (k1_off32 k1_t10) a + S16.size a ≤ S1024.size a
  k1_t11_ok : k1_t11_loop.OK
  k1_off33_inb : ∀ k1_t11 : Fin k1_t11_loop.trips, ∀ a, (k1_off33 k1_t11) a + S16.size a ≤ S3584.size a
  k1_off34_inb : ∀ k1_t11 : Fin k1_t11_loop.trips, ∀ (r : Fin 6), ∀ a, (k1_off34 k1_t11 (BitVec.ofNat 32 (512 + 512 * r.val))) a + S16.size a ≤ S3584.size a
  k1_off35_inb : ∀ k1_t11 : Fin k1_t11_loop.trips, ∀ a, (k1_off35 k1_t11) a + S16.size a ≤ S1024.size a
  k1_off36_inb : ∀ i : grid1.Coords, ∀ a, (k1_off36 i) a + S1024.size a ≤ S32768.size a
  hstage2_0 : ∀ j, (stage2_0 j).IsWhole
  hstage2_1 : ∀ j, (stage2_1 j).IsWhole
  hstage2_2 : ∀ j, (stage2_2 j).IsWhole
  hstage2_3 : ∀ j, (stage2_3 j).IsWhole

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scoped0 : DmaSems sig S_ := SemArray.consecutive 4 S_ hcc0_scoped0
abbrev cc0_scoped1 : DmaSems sig S_ := SemArray.consecutive 5 S_ hcc0_scoped1
abbrev cc0_scoped2 : DmaSems sig S_ := SemArray.consecutive 6 S_ hcc0_scoped2
abbrev cc0_scoped3 : DmaSems sig S_ := SemArray.consecutive 7 S_ hcc0_scoped3
abbrev cc0_scoped4 : DmaSems sig S_ := SemArray.consecutive 8 S_ hcc0_scoped4
abbrev cc0_scoped5 : DmaSems sig S_ := SemArray.consecutive 9 S_ hcc0_scoped5
abbrev cc0_scoped6 : DmaSems sig S_ := SemArray.consecutive 10 S_ hcc0_scoped6
abbrev cc0_scoped7 : DmaSems sig S_ := SemArray.consecutive 11 S_ hcc0_scoped7
abbrev cc0_scoped8 : DmaSems sig S_ := SemArray.consecutive 12 S_ hcc0_scoped8
abbrev cc0_scoped9 : DmaSems sig S_ := SemArray.consecutive 13 S_ hcc0_scoped9
abbrev cc0_scoped10 : DmaSems sig S_ := SemArray.consecutive 14 S_ hcc0_scoped10
abbrev cc0_scoped11 : DmaSems sig S_ := SemArray.consecutive 15 S_ hcc0_scoped11
abbrev cc0_scoped12 : DmaSems sig S_ := SemArray.consecutive 16 S_ hcc0_scoped12
abbrev cc0_scoped13 : DmaSems sig S_ := SemArray.consecutive 17 S_ hcc0_scoped13
abbrev cc0_scoped14 : DmaSems sig S_ := SemArray.consecutive 18 S_ hcc0_scoped14
abbrev cc0_scoped15 : DmaSems sig S_ := SemArray.consecutive 19 S_ hcc0_scoped15
abbrev cc0_scoped16 : DmaSems sig S_ := SemArray.consecutive 20 S_ hcc0_scoped16
abbrev cc1_scratch6 : DmaSems sig S_ := SemArray.consecutive 21 S_ hcc1_scratch6
abbrev cc1_scratch7 : DmaSems sig S_ := SemArray.consecutive 22 S_ hcc1_scratch7
abbrev cc1_scratch8 : DmaSems sig S_ := SemArray.consecutive 23 S_ hcc1_scratch8
abbrev cc1_scratch9 : DmaSems sig S_ := SemArray.consecutive 24 S_ hcc1_scratch9
abbrev cc1_scoped0 : DmaSems sig S_ := SemArray.consecutive 25 S_ hcc1_scoped0
abbrev cc1_scoped1 : DmaSems sig S_ := SemArray.consecutive 26 S_ hcc1_scoped1
abbrev cc1_scoped2 : DmaSems sig S_ := SemArray.consecutive 27 S_ hcc1_scoped2
abbrev cc1_scoped3 : DmaSems sig S_ := SemArray.consecutive 28 S_ hcc1_scoped3
abbrev cc1_scoped4 : DmaSems sig S_ := SemArray.consecutive 29 S_ hcc1_scoped4
abbrev cc1_scoped5 : DmaSems sig S_ := SemArray.consecutive 30 S_ hcc1_scoped5
abbrev cc1_scoped6 : DmaSems sig S_ := SemArray.consecutive 31 S_ hcc1_scoped6
abbrev cc1_scoped7 : DmaSems sig S_ := SemArray.consecutive 32 S_ hcc1_scoped7
abbrev cc1_scoped8 : DmaSems sig S_ := SemArray.consecutive 33 S_ hcc1_scoped8
abbrev cc1_scoped9 : DmaSems sig S_ := SemArray.consecutive 34 S_ hcc1_scoped9
abbrev cc1_scoped10 : DmaSems sig S_ := SemArray.consecutive 35 S_ hcc1_scoped10
abbrev cc1_scoped11 : DmaSems sig S_ := SemArray.consecutive 36 S_ hcc1_scoped11
abbrev cc1_scoped12 : DmaSems sig S_ := SemArray.consecutive 37 S_ hcc1_scoped12
abbrev cc1_scoped13 : DmaSems sig S_ := SemArray.consecutive 38 S_ hcc1_scoped13
abbrev cc1_scoped14 : DmaSems sig S_ := SemArray.consecutive 39 S_ hcc1_scoped14
abbrev cc1_scoped15 : DmaSems sig S_ := SemArray.consecutive 40 S_ hcc1_scoped15
abbrev cc1_scoped16 : DmaSems sig S_ := SemArray.consecutive 41 S_ hcc1_scoped16

abbrev win2_0 : Pipeline.Window sig grid2 :=
  Pipeline.Window.whole (Memref.whole main_v8) false false (stage2_0 0) (sem2_0 0) (Memref.isWhole_whole _) (hstage2_0 0)

abbrev win2_1 : Pipeline.Window sig grid2 :=
  Pipeline.Window.whole (Memref.whole main_v9) false false (stage2_1 0) (sem2_1 0) (Memref.isWhole_whole _) (hstage2_1 0)

abbrev win2_2 : Pipeline.Window sig grid2 :=
  Pipeline.Window.whole (Memref.whole main_v5) false false (stage2_2 0) (sem2_2 0) (Memref.isWhole_whole _) (hstage2_2 0)

abbrev win2_3 : Pipeline.Window sig grid2 :=
  Pipeline.Window.whole (Memref.whole main_v10) true false (stage2_3 0) (sem2_3 0) (Memref.isWhole_whole _) (hstage2_3 0)

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S16384x26 : Shape := ⟨2, ![16384, 26]⟩
abbrev S2600000x1 : Shape := ⟨2, ![2600000, 1]⟩
abbrev S1 : Shape := ⟨1, ![1]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S1x1x1 : Shape := ⟨3, ![1, 1, 1]⟩
abbrev S16384x1 : Shape := ⟨2, ![16384, 1]⟩
abbrev S1x1 : Shape := ⟨2, ![1, 1]⟩

abbrev nBuf : Space → Nat
  | .hbm => 35
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S2600000x1, .f32⟩
  | .hbm, ⟨2, _⟩ => ⟨S1, .f32⟩
  | .hbm, ⟨3, _⟩ => ⟨S26, .i32⟩
  | .hbm, ⟨4, _⟩ => ⟨S1x26, .i32⟩
  | .hbm, ⟨5, _⟩ => ⟨S16384x26, .i32⟩
  | .hbm, ⟨6, _⟩ => ⟨S16384x26, .i32⟩
  | .hbm, ⟨7, _⟩ => ⟨S_, .i32⟩
  | .hbm, ⟨8, _⟩ => ⟨S16384x26, .i32⟩
  | .hbm, ⟨9, _⟩ => ⟨S16384x26, .i1⟩
  | .hbm, ⟨10, _⟩ => ⟨S_, .i32⟩
  | .hbm, ⟨11, _⟩ => ⟨S16384x26, .i32⟩
  | .hbm, ⟨12, _⟩ => ⟨S16384x26, .i32⟩
  | .hbm, ⟨13, _⟩ => ⟨S16384x26, .i32⟩
  | .hbm, ⟨14, _⟩ => ⟨S16384x26x1, .i32⟩
  | .hbm, ⟨15, _⟩ => ⟨S1, .i32⟩
  | .hbm, ⟨16, _⟩ => ⟨S_, .i32⟩
  | .hbm, ⟨17, _⟩ => ⟨S16384x26x1, .i32⟩
  | .hbm, ⟨18, _⟩ => ⟨S16384x26x1, .i1⟩
  | .hbm, ⟨19, _⟩ => ⟨S1x1x1, .i32⟩
  | .hbm, ⟨20, _⟩ => ⟨S16384x26x1, .i32⟩
  | .hbm, ⟨21, _⟩ => ⟨S16384x26x1, .i1⟩
  | .hbm, ⟨22, _⟩ => ⟨S16384x26x1, .i1⟩
  | .hbm, ⟨23, _⟩ => ⟨S_, .i1⟩
  | .hbm, ⟨24, _⟩ => ⟨S16384x26, .i1⟩
  | .hbm, ⟨25, _⟩ => ⟨S16384x26x1, .f32⟩
  | .hbm, ⟨26, _⟩ => ⟨S16384x26x1, .i1⟩
  | .hbm, ⟨27, _⟩ => ⟨S_, .f32⟩
  | .hbm, ⟨28, _⟩ => ⟨S16384x26x1, .f32⟩
  | .hbm, ⟨29, _⟩ => ⟨S16384x26x1, .f32⟩
  | .hbm, ⟨30, _⟩ => ⟨S_, .f32⟩
  | .hbm, ⟨31, _⟩ => ⟨S16384x1, .f32⟩
  | .hbm, ⟨32, _⟩ => ⟨S1x1, .f32⟩
  | .hbm, ⟨33, _⟩ => ⟨S16384x1, .f32⟩
  | .hbm, ⟨34, _⟩ => ⟨S16384x1, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_cst : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩

abbrev nD : Nat := 1
abbrev τ : Topo := Topo.v7x

variable {F : FTy → Type} [FloatOps F]

class Facts₀ : Prop where
  bcast_S26_S1x26_1 : S26.BroadcastsInDim S1x26 (![1] : Fin 1 → Fin S1x26.rank)
  bcast_S1x26_S16384x26_0_1 : S1x26.BroadcastsInDim S16384x26 (![0, 1] : Fin 2 → Fin S16384x26.rank)
  bcast_S_S16384x26 : S_.BroadcastsInDim S16384x26 (![] : Fin 0 → Fin S16384x26.rank)
  bcast_S16384x26_S16384x26x1_0_1 : S16384x26.BroadcastsInDim S16384x26x1 (![0, 1] : Fin 2 → Fin S16384x26x1.rank)
  bcast_S_S16384x26x1 : S_.BroadcastsInDim S16384x26x1 (![] : Fin 0 → Fin S16384x26x1.rank)
  bcast_S1_S1x1x1_2 : S1.BroadcastsInDim S1x1x1 (![2] : Fin 1 → Fin S1x1x1.rank)
  bcast_S1x1x1_S16384x26x1_0_1_2 : S1x1x1.BroadcastsInDim S16384x26x1 (![0, 1, 2] : Fin 3 → Fin S16384x26x1.rank)
  reducesTo_S16384x26x1_S16384x26_d2 : S16384x26x1.ReducesTo [2] S16384x26
  h_S_ : 0 < S_.numel
  reducesTo_S16384x26x1_S16384x1_d1 : S16384x26x1.ReducesTo [1] S16384x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  gather_S2600000x1_S16384x26x1_S16384x26x1_2_0_n_n_0_2_11_wf : GatherDims.WF S2600000x1 S16384x26x1 S16384x26x1 [2] [0] [] [0] [] 2 ![1, 1]

variable [Facts₀]

def gather_S2600000x1_S16384x26x1_S16384x26x1_2_0_n_n_0_2_11 : GatherDims S2600000x1 S16384x26x1 S16384x26x1 where
  offsetDims := [2]
  collapsedSliceDims := [0]
  operandBatchingDims := []
  startIndicesBatchingDims := []
  startIndexMap := [0]
  indexVectorDim := 2
  sliceSizes := ![1, 1]
  wf := gather_S2600000x1_S16384x26x1_S16384x26x1_2_0_n_n_0_2_11_wf

class Facts : Prop extends Facts₀ where

variable [Facts]
-- ==== Proof.RefRun.lean ====
/-
  The reference program as a straight line of host operations, and what it leaves in its result buffer.

  The program adds to each entry of the index array the offset of its field (field f starts at row f * 100000 of the
  table), then looks the table up at those rows. The lookup is an outlined function: it first adds the table's height
  to any negative row number (through a second outlined function, a select), gathers the rows, and replaces by a
  not-a-number literal every entry whose row number lay outside the table. The 26 looked-up numbers of a batch row
  are then summed from zero and the bias is added. Here the two outlined functions are written out at their call
  sites, the run of the whole line is taken from the library's theorem on straight lines, and the contents of the
  result buffer afterwards are named stage by stage as one term of the three argument arrays.
-/
import proofs.«207420_g80582176408339_cont_9to1c4b_743_56_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The stages, as functions of the argument arrays -/

/-- The offset of each field, laid over the batch: entry (b, f) is f * 100000. -/
def offs : IVec S16384x26 32 :=
  broadcastInDim S16384x26 ![0, 1] bcast_S1x26_S16384x26_0_1
    (broadcastInDim S1x26 ![1] bcast_S26_S1x26_1 (fun i : S26.Idx => lit0 (S26.rowMajor i)))

/-- The flat row numbers: each index plus its field's offset. -/
def rows (x : IVec S16384x26 32) : IVec S16384x26 32 := addi x offs

/-- The row numbers with the table's height added to the negative ones. -/
def wrapped (x : IVec S16384x26 32) : IVec S16384x26 32 :=
  select (cmpi .slt (rows x) (broadcastInDim S16384x26 ![] bcast_S_S16384x26 (constantI S_ 32 0#32)))
    (addi (rows x) (broadcastInDim S16384x26 ![] bcast_S_S16384x26 (constantI S_ 32 2600000#32)))
    (rows x)

/-- The same with a trailing unit axis: the gather's start indices. -/
def starts (x : IVec S16384x26 32) : IVec S16384x26x1 32 :=
  broadcastInDim S16384x26x1 ![0, 1] bcast_S16384x26_S16384x26x1_0_1 (wrapped x)

/-- Which start indices name a row of the table: 0 ≤ · and · ≤ 2599999. -/
def inside (x : IVec S16384x26 32) : IVec S16384x26x1 1 :=
  andi
    (cmpi .sge (starts x) (broadcastInDim S16384x26x1 ![] bcast_S_S16384x26x1 (constantI S_ 32 0#32)))
    (cmpi .sle (starts x)
      (broadcastInDim S16384x26x1 ![0, 1, 2] bcast_S1x1x1_S16384x26x1_0_1_2
        (broadcastInDim S1x1x1 ![2] bcast_S1_S1x1x1_2 (constantI S1 32 2599999#32))))

/-- The same, all components of an index vector taken together (there is one), back on the gather's result shape. -/
def mask (x : IVec S16384x26 32) : IVec S16384x26x1 1 :=
  broadcastInDim S16384x26x1 ![0, 1] bcast_S16384x26_S16384x26x1_0_1
    (Host.reduce IntOp.andi (inside x) (constantI S_ 1 1#1) reducesTo_S16384x26x1_S16384x26_d2 h_S_)

/-- The table's rows at the start indices. -/
def gathered (x : IVec S16384x26 32) (w : FVec F S2600000x1 .f32) : FVec F S16384x26x1 .f32 :=
  Host.gather gather_S2600000x1_S16384x26x1_S16384x26x1_2_0_n_n_0_2_11 w (starts x)

/-- The lookup's result: the gathered rows where the start index names a row, a not-a-number literal elsewhere. -/
def taken (x : IVec S16384x26 32) (w : FVec F S2600000x1 .f32) : FVec F S16384x26x1 .f32 :=
  select (mask x) (gathered x w)
    (broadcastInDim S16384x26x1 ![] bcast_S_S16384x26x1 (constant (F := F) S_ .f32 0x7FC00000#32))

/-- What the program returns: per batch row the sum of the 26 looked-up numbers from zero, plus the bias. -/
def out (x : IVec S16384x26 32) (w : FVec F S2600000x1 .f32) (bias : FVec F S1 .f32) : FVec F S16384x1 .f32 :=
  addf
    (Host.reduceAdd (taken x w) (constant (F := F) S_ .f32 0x00000000#32) reducesTo_S16384x26x1_S16384x1_d1 h_S_)
    (broadcastInDim S16384x1 ![0, 1] bcast_S1x1_S16384x1_0_1 (broadcastInDim S1x1 ![1] bcast_S1_S1x1_1 bias))

/-! ## The program as a list of operations -/

/-- The 32 operations in order: four of the main function, the lookup's 23 written out over its buffer record (the
    seventh of them the inner select, over its own record), five more of the main function. -/
abbrev ops : List (HloOp τ sig (Elt F)) :=
  [ nullary main_c (fun i => lit0 (S26.rowMajor i)),
    unary main_c main_v0 (broadcastInDim S1x26 ![1] bcast_S26_S1x26_1 : (⟨S26, .i32⟩ : BufTy).Contents (Elt F) → (⟨S1x26, .i32⟩ : BufTy).Contents (Elt F)),
    unary main_v0 main_v1 (broadcastInDim S16384x26 ![0, 1] bcast_S1x26_S16384x26_0_1 : (⟨S1x26, .i32⟩ : BufTy).Contents (Elt F) → (⟨S16384x26, .i32⟩ : BufTy).Contents (Elt F)),
    binary main_arg0 main_v1 main_v2 (addi : (⟨S16384x26, .i32⟩ : BufTy).Contents (Elt F) → (⟨S16384x26, .i32⟩ : BufTy).Contents (Elt F) → (⟨S16384x26, .i32⟩ : BufTy).Contents (Elt F)),
    TRef.nullary main_call0.c (constantI S_ 32 0#32),
    TRef.unary main_call0.c main_call0.v0 (broadcastInDim S16384x26 ![] bcast_S_S16384x26),
    TRef.binary (.of main_v2) main_call0.v0 main_call0.v1 (cmpi .slt),
    TRef.nullary main_call0.c_0 (constantI S_ 32 2600000#32),
    TRef.unary main_call0.c_0 main_call0.v2 (broadcastInDim S16384x26 ![] bcast_S_S16384x26),
    TRef.binary (.of main_v2) main_call0.v2 main_call0.v3 addi,
    TRef.ternary main_call0.v1 main_call0.v3 (.of main_v2) main_call0.call0.v0 select,
    TRef.unary main_call0.call0.v0 main_call0.v5 (broadcastInDim S16384x26x1 ![0, 1] bcast_S16384x26_S16384x26x1_0_1),
    TRef.nullary main_call0.c_1 (constantI S1 32 2599999#32),
    TRef.nullary main_call0.c_2 (constantI S_ 32 0#32),
    TRef.unary main_call0.c_2 main_call0.v6 (broadcastInDim S16384x26x1 ![] bcast_S_S16384x26x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x26x1 ![0, 1, 2] bcast_S1x1x1_S16384x26x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x26x1_S16384x26_d2 h_S_),
    TRef.binary (.of main_arg1) main_call0.v5 main_call0.v13 (fun x i => Host.gather gather_S2600000x1_S16384x26x1_S16384x26x1_2_0_n_n_0_2_11 x i),
    TRef.unary main_call0.v12 main_call0.v14 (broadcastInDim S16384x26x1 ![0, 1] bcast_S16384x26_S16384x26x1_0_1),
    TRef.nullary main_call0.cst (constant S_ .f32 0x7FC00000#32),
    TRef.unary main_call0.cst main_call0.v15 (broadcastInDim S16384x26x1 ![] bcast_S_S16384x26x1),
    TRef.ternary main_call0.v14 main_call0.v13 main_call0.v15 main_call0.v16 select,
    nullary main_cst (constant S_ .f32 0x00000000#32),
    binary main_v3 main_cst main_v4 ((fun x v => Host.reduceAdd x v reducesTo_S16384x26x1_S16384x1_d1 h_S_) : (⟨S16384x26x1, .f32⟩ : BufTy).Contents (Elt F) → (⟨S_, .f32⟩ : BufTy).Contents (Elt F) → (⟨S16384x1, .f32⟩ : BufTy).Contents (Elt F)),
    unary main_arg2 main_v5 (broadcastInDim S1x1 ![1] bcast_S1_S1x1_1 : (⟨S1, .f32⟩ : BufTy).Contents (Elt F) → (⟨S1x1, .f32⟩ : BufTy).Contents (Elt F)),
    unary main_v5 main_v6 (broadcastInDim S16384x1 ![0, 1] bcast_S1x1_S16384x1_0_1 : (⟨S1x1, .f32⟩ : BufTy).Contents (Elt F) → (⟨S16384x1, .f32⟩ : BufTy).Contents (Elt F)),
    binary main_v4 main_v6 main_v7 (addf : (⟨S16384x1, .f32⟩ : BufTy).Contents (Elt F) → (⟨S16384x1, .f32⟩ : BufTy).Contents (Elt F) → (⟨S16384x1, .f32⟩ : BufTy).Contents (Elt F)) ]

set_option maxRecDepth 4096 in
/-- The main function is that line: the two outlined bodies unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., unary_bufs_sub .., unary_bufs_sub .., binary_bufs_sub ..⟩

/-! ## What the line leaves in the buffers -/

attribute [local irreducible] Host.reduce Host.reduceAdd Host.gather in
set_option maxRecDepth 8192 in
/-- After the line the result buffer holds `out` of the three argument buffers' contents: each operation's result is
    read at the buffer it writes, the moves between a value's type and its buffer's type are identities at these
    buffers, and what is left is `out` with its stages spelt out. -/
theorem out_eq (V : Valuation τ sig (Elt F)) :
    after ops V (main_v7 : DevRef τ sig)
      = out (V (main_arg0 : DevRef τ sig)) (V (main_arg1 : DevRef τ sig)) (V (main_arg2 : DevRef τ sig)) := by
  after_results_simp
  simp only [TRef.toBuf, TRef.ofBuf, cast_eq]
  unfold out taken gathered mask inside starts wrapped rows offs
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

/-- On every device, for any float values, from any memory with zero counters and with no condition on the
    arguments: every weakly fair execution of the program terminates, its result buffer holds `out` of the
    argument arrays, and the argument arrays are unchanged. -/
theorem run0 (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v7).trans (out_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefValue

end
-- ==== Proof.RefWords.lean ====
/-
  Facts about 32-bit words and one-bit conditions used when the reference's stages are read at one index.

  A table row number is an index word in [0, 99999] plus a field offset f * 100000 with f below 26. The sum stays
  below 2^31, so the 32-bit addition does not wrap: read signed, the sum is the sum of the integers. Hence the sum
  is not negative (the lookup's correction of negative row numbers leaves it alone), it lies in [0, 2599999] (the
  lookup's range test passes), and clamping it to the table's last row changes nothing. Last, an and-reduction from
  the bit 1 over an array of bits that are all 1 is 1.
-/
import Idealize.ShloMosaic.Lib.Affine
import Idealize.ShloMosaic.Lib.ValueIdx
import Idealize.ShloMosaic.PureOps.Reduce

namespace Cert.RefWords

open Idealize.ShloMosaic

/-- An integer in the signed 32-bit range is its own balanced remainder modulo 2^32. -/
theorem bmod_self {n : Int} (h₁ : -2 ^ 31 ≤ n) (h₂ : n < 2 ^ 31) : n.bmod (2 ^ 32) = n :=
  Int.bmod_eq_of_le (by omega) (by omega)

/-- A natural number below 2^31, as a 32-bit word read signed, is itself. -/
theorem toInt_ofNat (n : Nat) (h : n < 2 ^ 31) : (BitVec.ofNat 32 n).toInt = n := by
  rw [BitVec.toInt_ofNat']
  exact bmod_self (by omega) (by omega)

/-- A nonnegative word plus a natural number, the sum below 2^31: the addition does not wrap. -/
theorem toInt_addi_ofNat (v : BitVec 32) (n : Nat) (h0 : 0 ≤ v.toInt) (h1 : v.toInt + n < 2 ^ 31) :
    (IntOp.addi v (BitVec.ofNat 32 n)).toInt = v.toInt + n := by
  rw [IntOp.addi, BitVec.toInt_add, toInt_ofNat n (by omega)]
  exact bmod_self (by omega) (by omega)

/-- A word that reads nonnegative signed reads the same unsigned. -/
theorem toNat_toInt (v : BitVec 32) (h0 : 0 ≤ v.toInt) : v.toInt.toNat = v.toNat := by
  have h := BitVec.toInt_eq_toNat_of_lt (BitVec.toInt_pos_iff.1 h0)
  omega

section Row
variable (v : BitVec 32) (f : Fin 26) (h0 : 0 ≤ v.toInt) (h1 : v.toInt ≤ 99999)
include h0 h1

/-- The row number of index word `v` in field `f`, read signed. -/
theorem row_toInt : (IntOp.addi v (BitVec.ofNat 32 (f.val * 100000))).toInt = v.toInt + (f.val * 100000 : Nat) := by
  have hf := f.isLt
  exact toInt_addi_ofNat v _ h0 (by push_cast; omega)

/-- It is not negative, so the lookup's select keeps it. -/
theorem row_select :
    Scalar.select (IntOp.cmpi .slt (IntOp.addi v (BitVec.ofNat 32 (f.val * 100000))) 0#32)
        (IntOp.addi (IntOp.addi v (BitVec.ofNat 32 (f.val * 100000))) 2600000#32)
        (IntOp.addi v (BitVec.ofNat 32 (f.val * 100000)))
      = IntOp.addi v (BitVec.ofNat 32 (f.val * 100000)) := by
  refine if_neg fun hc => ?_
  have h := IntOp.cmpi_slt.1 hc
  rw [row_toInt v f h0 h1, show (0#32 : BitVec 32).toInt = 0 from by decide] at h
  push_cast at h
  omega

/-- It lies inside the table: both range tests pass. -/
theorem row_inside :
    IntOp.andi (IntOp.cmpi .sge (IntOp.addi v (BitVec.ofNat 32 (f.val * 100000))) 0#32)
        (IntOp.cmpi .sle (IntOp.addi v (BitVec.ofNat 32 (f.val * 100000))) 2599999#32) = 1#1 := by
  have hf := f.isLt
  refine IntOp.andi_eq_one.2 ⟨IntOp.cmpi_sge.2 ?_, IntOp.cmpi_sle.2 ?_⟩
  · rw [row_toInt v f h0 h1, show (0#32 : BitVec 32).toInt = 0 from by decide]; push_cast; omega
  · rw [row_toInt v f h0 h1, show (2599999#32 : BitVec 32).toInt = 2599999 from by decide]; push_cast; omega

/-- Clamped to the table's last row it is the field's first row plus the index word read unsigned. -/
theorem row_clamp :
    min (IntOp.addi v (BitVec.ofNat 32 (f.val * 100000))).toInt.toNat (2600000 - 1) = f.val * 100000 + v.toNat := by
  have hf := f.isLt
  have hn := toNat_toInt v h0
  rw [row_toInt v f h0 h1]
  omega

/-- That row is a row of the table. -/
theorem row_lt : f.val * 100000 + v.toNat < 2600000 := by
  have hf := f.isLt
  have hn := toNat_toInt v h0
  omega

end Row

/-- A left fold by `and` from 1 over bits that are all 1 is 1. -/
theorem foldl_andi_one {ι : Type} (y : ι → BitVec 1) (hy : ∀ i, y i = 1#1) :
    ∀ l : List ι, l.foldl (fun r i => IntOp.andi r (y i)) 1#1 = 1#1
  | [] => rfl
  | a :: l => by
    rw [List.foldl_cons, hy a, show IntOp.andi 1#1 1#1 = 1#1 from by decide]
    exact foldl_andi_one y hy l

/-- An and-reduction from the bit 1 of an array of bits that are all 1 is 1 at every index. -/
theorem reduce_andi_of_all {s t u : Shape} {axes : List (Fin s.rank)} (y : s.Idx → BitVec 1) (init : u.Idx → BitVec 1)
    (h : s.ReducesTo axes t) (hu : 0 < u.numel) (j : t.Idx) (hy : ∀ i, y i = 1#1)
    (hi : init (Shape.Idx.first hu) = 1#1) : Host.reduce IntOp.andi y init h hu j = 1#1 := by
  rw [Host.reduce_eq_foldl, hi]
  exact foldl_andi_one y hy _

end Cert.RefWords
-- ==== Proof.RefGather.lean ====
/-
  The lookup's gather read at one index.

  The table has shape [2600000, 1]; the start indices have shape [16384, 26, 1], the last axis holding the one
  component of each index vector (the row number); the result has shape [16384, 26, 1], its last axis running over
  the one column of the slice taken. Result entry (b, f, 0) is therefore the table's entry in column 0 of the row
  named by start index (b, f, 0), that word read signed and clamped into [0, 2599999].
-/
import proofs.«207420_g80582176408339_cont_9to1c4b_743_56_alg».proof.Proof.Gen.ReferenceIdeal
import Idealize.ShloMosaic.Lib.ValueIdx

namespace Cert.ReferenceIdeal.RefValue

open Cert.ReferenceIdeal Cert.ReferenceIdeal.Gen Idealize.ShloMosaic Idealize.ShloMosaic.ValueIdx

/-- The gather at (b, f, 0): the table at the clamped row, column 0. -/
theorem gather_apply {α : Type} (w : S2600000x1.Idx → α) (idx : IVec S16384x26x1 32) (b : Fin 16384) (f : Fin 26) :
    Host.gather gather_S2600000x1_S16384x26x1_S16384x26x1_2_0_n_n_0_2_11 w idx (ix3 b f (0 : Fin 1))
      = w (ix2 (⟨min (idx (ix3 b f (0 : Fin 1))).toInt.toNat (2600000 - 1), by omega⟩ : Fin 2600000) (0 : Fin 1)) := by
  unfold Host.gather
  congr 1
  funext (a : Fin 2)
  refine Fin.ext ?_
  match a with
  | ⟨0, _⟩ =>
    show gather_S2600000x1_S16384x26x1_S16384x26x1_2_0_n_n_0_2_11.start (ix3 b f (0 : Fin 1)) idx 0
        + gather_S2600000x1_S16384x26x1_S16384x26x1_2_0_n_n_0_2_11.batchCoord (ix3 b f (0 : Fin 1)) 0
        + gather_S2600000x1_S16384x26x1_S16384x26x1_2_0_n_n_0_2_11.offCoord (ix3 b f (0 : Fin 1)) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S2600000x1_S16384x26x1_S16384x26x1_2_0_n_n_0_2_11.startIndexMap from
      List.mem_singleton.mpr rfl)]
    have hsi : gather_S2600000x1_S16384x26x1_S16384x26x1_2_0_n_n_0_2_11.siIdx (ix3 b f (0 : Fin 1))
        ⟨List.idxOf (0 : Fin 2) gather_S2600000x1_S16384x26x1_S16384x26x1_2_0_n_n_0_2_11.startIndexMap,
          List.idxOf_lt_length_iff.2 (List.mem_singleton.mpr rfl)⟩ = ix3 b f (0 : Fin 1) := by
      funext c; refine Fin.ext ?_
      match c with
      | ⟨0, _⟩ => rfl
      | ⟨1, _⟩ => rfl
      | ⟨2, _⟩ => rfl
    rw [hsi]
    rfl
  | ⟨1, h1⟩ =>
    have hlt : (gather_S2600000x1_S16384x26x1_S16384x26x1_2_0_n_n_0_2_11.operandIdx (ix3 b f (0 : Fin 1)) idx
        ⟨1, h1⟩).val < 1 := Fin.isLt _
    exact Nat.lt_one_iff.mp hlt

end Cert.ReferenceIdeal.RefValue
-- ==== Proof.Spec.lean ====
/-
  The function both programs compute, as one term of the argument arrays.

  The table `weight` holds 26 fields of 100000 rows each, one number per row. For batch row `b` the result is
  the sum over the fields `f` of the table's entry at row `f * 100000 + x[b, f]`, plus the bias. The sum is a
  finite sum on the extended reals, where addition is commutative and associative, so the order in which a
  program adds the 26 entries (the reference: one reduction; the kernel: 13 per half, 7 + 6 per core, then the
  four partial sums and the bias) does not matter.
-/
import Idealize.ShloMosaic.PureOps.Ideal
import Idealize.ShloMosaic.Lib.ValueIdx

noncomputable section

namespace Cert.Spec

open Idealize.ShloMosaic Idealize.ShloMosaic.ValueIdx

/-- The table's entry at a flat row number; zero for a number that names no row. -/
def wAt (w : FVec Ideal ⟨2, ![2600000, 1]⟩ .f32) (n : Nat) : Ideal .f32 :=
  if h : n < 2600000 then w (ix2 (⟨n, h⟩ : Fin 2600000) (0 : Fin 1)) else 0

/-- The flat row number field `f` of batch row `b` names. -/
def rowOfField (x : IVec ⟨2, ![16384, 26]⟩ 32) (b : Fin 16384) (f : Fin 26) : Nat :=
  f.val * 100000 + (x (ix2 b f)).toNat

/-- The result: per batch row, the 26 looked-up entries summed, plus the bias. -/
def G (x : IVec ⟨2, ![16384, 26]⟩ 32) (w : FVec Ideal ⟨2, ![2600000, 1]⟩ .f32) (bias : FVec Ideal ⟨1, ![1]⟩ .f32) :
    FVec Ideal ⟨2, ![16384, 1]⟩ .f32 :=
  fun i => (∑ f : Fin 26, wAt w (rowOfField x (i 0 : Fin 16384) f)) + bias (ix1 (0 : Fin 1))

end Cert.Spec

end
-- ==== Proof.RefIndex.lean ====
/-
  The lookup's stages read at one index, for index arrays in the stated domain.

  Throughout, `x` is an index array whose entries, read signed, lie in [0, 99999]. At (b, f) the row number is
  x[b, f] + f * 100000 without wrapping; it is not negative, so the correction of negative row numbers leaves it;
  it lies in [0, 2599999], so the range test is 1 at every index, the and-reduction over the index vector's one
  component is 1, and the mask is 1; the gather reads the table at that row, where clamping does nothing. So the
  looked-up entry (b, f, 0) is the table's entry at row f * 100000 + x[b, f], the index word read unsigned.
-/
import proofs.«207420_g80582176408339_cont_9to1c4b_743_56_alg».proof.Proof.RefRun
import proofs.«207420_g80582176408339_cont_9to1c4b_743_56_alg».proof.Proof.RefWords
import proofs.«207420_g80582176408339_cont_9to1c4b_743_56_alg».proof.Proof.RefGather
import proofs.«207420_g80582176408339_cont_9to1c4b_743_56_alg».proof.Proof.Spec

namespace Cert.ReferenceIdeal.RefValue

open Cert.ReferenceIdeal Cert.ReferenceIdeal.Gen Idealize.ShloMosaic Idealize.ShloMosaic.ValueIdx

-- the reductions and the gather are read by their lemmas only: nothing below opens their definitions
attribute [local irreducible] Host.reduce Host.gather Host.reduceAdd

/-- The table of field offsets: entry f is f * 100000. -/
theorem lit0_eq : ∀ f : Fin 26, lit0 f = BitVec.ofNat 32 (f.val * 100000) := by decide

/-- The offset array at (b, f) is field f's offset. -/
theorem offs_apply (b : Fin 16384) (f : Fin 26) : offs (ix2 b f) = BitVec.ofNat 32 (f.val * 100000) := by
  have e : ∀ i : S26.Idx, i = ix1 f → lit0 (S26.rowMajor i) = BitVec.ofNat 32 (f.val * 100000) := by
    rintro _ rfl
    have hr : (S26.rowMajor (ix1 f) : Fin 26) = f := Fin.ext (Shape.rowMajor_val_one _)
    rw [hr]
    exact lit0_eq f
  exact e _ (by funext a; match a with | ⟨0, _⟩ => rfl)

/-- The row number at (b, f): the index word plus the field's offset. -/
theorem rows_apply (x : IVec S16384x26 32) (b : Fin 16384) (f : Fin 26) :
    rows x (ix2 b f) = IntOp.addi (x (ix2 b f)) (BitVec.ofNat 32 (f.val * 100000)) := by
  show IntOp.addi (x (ix2 b f)) (offs (ix2 b f)) = _
  rw [offs_apply]

section InDomain
variable (x : IVec S16384x26 32) (hx : ∀ (b : Fin 16384) (f : Fin 26), 0 ≤ (x (ix2 b f)).toInt ∧ (x (ix2 b f)).toInt ≤ 99999)
include hx

/-- No row number is negative: the corrected row numbers are the row numbers. -/
theorem wrapped_apply (b : Fin 16384) (f : Fin 26) :
    wrapped x (ix2 b f) = IntOp.addi (x (ix2 b f)) (BitVec.ofNat 32 (f.val * 100000)) := by
  show Scalar.select (IntOp.cmpi .slt (rows x (ix2 b f)) 0#32) (IntOp.addi (rows x (ix2 b f)) 2600000#32) (rows x (ix2 b f)) = _
  rw [rows_apply]
  exact Cert.RefWords.row_select _ f (hx b f).1 (hx b f).2

/-- The start index (b, f, 0) is that row number. -/
theorem starts_apply (b : Fin 16384) (f : Fin 26) :
    starts x (ix3 b f (0 : Fin 1)) = IntOp.addi (x (ix2 b f)) (BitVec.ofNat 32 (f.val * 100000)) := by
  refine Eq.trans ?_ (wrapped_apply x hx b f)
  show wrapped x _ = wrapped x (ix2 b f)
  congr 1
  funext a
  match a with
  | ⟨0, _⟩ => rfl
  | ⟨1, _⟩ => rfl

/-- Every start index names a row of the table. -/
theorem inside_all (i : S16384x26x1.Idx) : inside x i = 1#1 := by
  obtain ⟨b, f, z, rfl⟩ : ∃ (b : Fin 16384) (f : Fin 26) (z : Fin 1), i = ix3 b f z := ⟨i 0, i 1, i 2, eq_ix3 i⟩
  obtain rfl : z = 0 := Subsingleton.elim _ _
  show IntOp.andi (IntOp.cmpi .sge (starts x (ix3 b f (0 : Fin 1))) 0#32)
      (IntOp.cmpi .sle (starts x (ix3 b f (0 : Fin 1))) 2599999#32) = 1#1
  rw [starts_apply x hx]
  exact Cert.RefWords.row_inside _ f (hx b f).1 (hx b f).2

/-- So the mask is 1 everywhere. -/
theorem mask_apply (i : S16384x26x1.Idx) : mask x i = 1#1 := by
  unfold mask broadcastInDim
  exact Cert.RefWords.reduce_andi_of_all (inside x) (constantI S_ 1 1#1) reducesTo_S16384x26x1_S16384x26_d2 h_S_ _
    (inside_all x hx) rfl

/-- The looked-up entry (b, f, 0) is the table's entry at row f * 100000 + x[b, f]. -/
theorem taken_apply (w : FVec Ideal S2600000x1 .f32) (b : Fin 16384) (f : Fin 26) :
    taken (F := Ideal) x w (ix3 b f (0 : Fin 1)) = Cert.Spec.wAt w (Cert.Spec.rowOfField x b f) := by
  have hlt : f.val * 100000 + (x (ix2 b f)).toNat < 2600000 :=
    Cert.RefWords.row_lt _ f (hx b f).1 (hx b f).2
  unfold Cert.Spec.wAt Cert.Spec.rowOfField
  rw [dif_pos hlt]
  unfold taken
  rw [select_apply, mask_apply x hx, select_one]
  unfold gathered
  rw [gather_apply]
  refine congrArg (fun n : Fin 2600000 => w (ix2 n (0 : Fin 1))) (Fin.ext ?_)
  show min (starts x (ix3 b f (0 : Fin 1))).toInt.toNat (2600000 - 1) = f.val * 100000 + (x (ix2 b f)).toNat
  rw [starts_apply x hx]
  exact Cert.RefWords.row_clamp _ f (hx b f).1 (hx b f).2

end InDomain

end Cert.ReferenceIdeal.RefValue
-- ==== Proof.RefPre.lean ====
/-
  The precondition, decoded.

  The stated domain of the inputs is one bit: the conjunction of "every table entry is finite", "the bias is
  finite" and "every index entry x[b, f] satisfies 0 ≤ x[b, f] and x[b, f] ≤ 99999, compared as signed 32-bit
  words", each an and-reduction over a whole array. When that bit is 1 the third conjunct is 1, so every element
  of the reduced array is 1, so at each (b, f) both comparisons hold. Only this third conjunct is read here.
-/
import proofs.«207420_g80582176408339_cont_9to1c4b_743_56_alg».proof.Proof.Gen.Pre_input_domain
import Idealize.ShloMosaic.Lib.ReduceAll
import Idealize.ShloMosaic.Lib.ValueIdx

namespace Cert.RefPre

open Idealize.ShloMosaic Idealize.ShloMosaic.ValueIdx Cert.Pre_input_domain Cert.Pre_input_domain.Gen

/-- The scalar shape has one index. -/
instance : Subsingleton S_.Idx := ⟨fun _ _ => funext fun d => d.elim0⟩

/-- Where the domain bit is 1, every index entry read signed lies in [0, 99999]. -/
theorem index_range {F : FTy → Type} [FloatOps F] (x : IVec S16384x26 32) (w : FVec F S2600000x1 .f32)
    (bias : FVec F S1 .f32) (h : Cert.Pre_input_domain.fn x w bias = fun _ => 1#1) (b : Fin 16384) (f : Fin 26) :
    0 ≤ (x (ix2 b f)).toInt ∧ (x (ix2 b f)).toInt ≤ 99999 := by
  have h0 : Cert.Pre_input_domain.fn x w bias ix0 = 1#1 := congrFun h ix0
  dsimp only [Cert.Pre_input_domain.fn] at h0
  have h1 := (IntOp.andi_eq_one.1 h0).2
  have h2 := Host.reduce_andi_all _ _ _ _ ix0 h1 (ix2 b f)
  have h34 := IntOp.andi_eq_one.1 h2
  have h3 : (0#32 : BitVec 32).toInt ≤ (x (ix2 b f)).toInt := IntOp.cmpi_sge.1 h34.1
  have h4 : (x (ix2 b f)).toInt ≤ (99999#32 : BitVec 32).toInt := IntOp.cmpi_sle.1 h34.2
  rw [show (0#32 : BitVec 32).toInt = 0 from by decide] at h3
  rw [show (99999#32 : BitVec 32).toInt = 99999 from by decide] at h4
  exact ⟨h3, h4⟩

/-- The same read unsigned: a word that is nonnegative read signed reads the same unsigned, so every index entry
    is below 100000. -/
theorem x_in_range {F : FTy → Type} [FloatOps F] (x : IVec S16384x26 32) (w : FVec F S2600000x1 .f32)
    (b : FVec F S1 .f32) (h : Cert.Pre_input_domain.fn (F := F) x w b = (fun _ => 1#1)) :
    ∀ (i : Fin 16384) (j : Fin 26), (x (ix2 i j)).toNat < 100000 := by
  intro i j
  obtain ⟨h0, h1⟩ := index_range x w b h i j
  have e := BitVec.toInt_eq_toNat_of_lt (BitVec.toInt_pos_iff.1 h0)
  omega

end Cert.RefPre
-- ==== Proof.RefValue.lean ====
/-
  The reference computes the specified function.

  With the looked-up entries known (each the table's entry at row f * 100000 + x[b, f]), the rest is the sum: the
  reduction over the axis of 26 from the zero word is, on the extended reals, zero plus the sum over the 26 fields,
  and the bias broadcast over the batch is the bias. So entry (b, 0) of the result is the sum over the fields of the
  looked-up entries plus the bias, which is the specification. No finiteness is used: the two sides are the same
  sum, term by term.
-/
import proofs.«207420_g80582176408339_cont_9to1c4b_743_56_alg».proof.Defs
import proofs.«207420_g80582176408339_cont_9to1c4b_743_56_alg».proof.Proof.Gen.Pre_input_domain
import proofs.«207420_g80582176408339_cont_9to1c4b_743_56_alg».proof.Proof.RefIndex
import proofs.«207420_g80582176408339_cont_9to1c4b_743_56_alg».proof.Proof.RefPre
import Idealize.ShloMosaic.PureOps.Ideal.Laws

namespace Cert.ReferenceIdeal.RefValue

open Idealize.ShloMosaic Idealize.SL.Sem Cert.ReferenceIdeal Cert.ReferenceIdeal.Gen Idealize.ShloMosaic.ValueIdx

/-- The reduction over the fields at batch row b: the sum of the 26 looked-up entries. -/
theorem sum_apply (x : IVec S16384x26 32) (w : FVec Ideal S2600000x1 .f32) (b : Fin 16384) :
    Host.reduceAdd (F := Ideal) (taken (F := Ideal) x w) (constant (F := Ideal) S_ .f32 0x00000000#32)
        reducesTo_S16384x26x1_S16384x1_d1 h_S_ (ix2 b (0 : Fin 1))
      = ∑ f : Fin 26, taken (F := Ideal) x w (ix3 b f (0 : Fin 1)) := by
  have hR : S16384x26x1.Reduces [1] S16384x1 := by decide
  refine (Ideal.hostReduceAdd_single reducesTo_S16384x26x1_S16384x1_d1 hR (taken (F := Ideal) x w)
    (Ideal.ofBits .f32 0x00000000#32) (ix2 b (0 : Fin 1))).trans ?_
  rw [Ideal.ofBits_zero_f32, zero_add]
  refine Finset.sum_congr rfl fun k _ => congrArg (taken (F := Ideal) x w) ?_
  funext a
  refine Fin.ext ?_
  match a with
  | ⟨0, _⟩ => rfl
  | ⟨1, _⟩ => rfl
  | ⟨2, _⟩ => rfl

/-- For an index array in the stated domain the program's result is the specified function of the arguments. -/
theorem out_eq_G (x : IVec S16384x26 32) (w : FVec Ideal S2600000x1 .f32) (bias : FVec Ideal S1 .f32)
    (hx : ∀ (b : Fin 16384) (f : Fin 26), 0 ≤ (x (ix2 b f)).toInt ∧ (x (ix2 b f)).toInt ≤ 99999) :
    out (F := Ideal) x w bias = Cert.Spec.G x w bias := by
  funext i
  obtain ⟨b, z, rfl⟩ : ∃ (b : Fin 16384) (z : Fin 1), i = ix2 b z := ⟨i 0, i 1, eq_ix2 i⟩
  obtain rfl : z = 0 := Subsingleton.elim _ _
  have hb : (broadcastInDim S16384x1 ![0, 1] bcast_S1x1_S16384x1_0_1 (broadcastInDim S1x1 ![1] bcast_S1_S1x1_1 bias))
      (ix2 b (0 : Fin 1)) = bias (ix1 (0 : Fin 1)) := by
    show bias _ = bias _
    congr 1
    funext a
    match a with
    | ⟨0, _⟩ => rfl
  show Host.reduceAdd (F := Ideal) (taken (F := Ideal) x w) (constant (F := Ideal) S_ .f32 0x00000000#32)
        reducesTo_S16384x26x1_S16384x1_d1 h_S_ (ix2 b (0 : Fin 1))
      + (broadcastInDim S16384x1 ![0, 1] bcast_S1x1_S16384x1_0_1 (broadcastInDim S1x1 ![1] bcast_S1_S1x1_1 bias))
        (ix2 b (0 : Fin 1))
    = (∑ f : Fin 26, Cert.Spec.wAt w (Cert.Spec.rowOfField x b f)) + bias (ix1 (0 : Fin 1))
  rw [sum_apply, hb]
  exact congrArg (· + bias (ix1 (0 : Fin 1))) (Finset.sum_congr rfl fun f _ => taken_apply x hx w b f)

/-- Under the precondition: every weakly fair execution of the reference terminates, its result is the specified
    function of the argument arrays, and the argument arrays are unchanged. -/
theorem run (m : (ℓ : Loc nD τ sig) → Buf (Elt Ideal) ℓ) (ρ : Dev nD → PrngReg) (hpre : Cert.Pre_ReferenceIdeal m) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v7)
          = Cert.Spec.G (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run (Cert.ReferenceIdeal.defs (F := Ideal)) _ _).mono
    (fun _ h c => ⟨(h c).1.trans (out_eq_G _ _ _ fun b f => Cert.RefPre.index_range _ _ _ (hpre c) b f), (h c).2⟩)
    (run0 (F := Ideal) m ρ)

end Cert.ReferenceIdeal.RefValue
-- ==== Proof.KI.Common.lean ====
/-
  What the parts of the kernel's proof share.

  The program: two lookups on the SparseCores, one after the other, then one addition on the TensorCore.
  Lookup k (k = 0, 1) handles fields 13k … 13k + 12 of the 26. On SparseCore c, tile s with s + c < 7 owns
  field 13k + 7c + s: it copies that field's 100000 table rows into its own memory, then, 2048 batch rows at
  a time, copies the field's index row, looks every index up, and copies the 2048 numbers into row s of its
  SparseCore's shared buffer (7 rows of 16384). On SparseCore 1 tile 6 fills row 6 with zeros (only 6 fields
  are left for it). All sixteen tiles then meet at the barrier; after it tile s owns columns
  1024 s … 1024 s + 1023 of every row, adds the seven rows there, and writes the 1024 sums to the lookup's
  result at 16384 c + 1024 s. The TensorCore adds the four partial sums (two lookups, two SparseCores) and
  the bias.

  Ownership. Nothing is shared for reading: a tile alone reads its field's table rows and its index row
  (handed to it as read shares of the whole arrays, one per tile); row s of the shared buffer is written by
  tile s alone before the barrier, and column block s of every row is read by tile s alone after it. The
  barrier is therefore what moves ownership: arriving, tile a hands each tile j the piece (row a, column
  block j) it has written, at the looked-up values. Each tile's barrier semaphore is used once per lookup:
  round k of it is lookup k's barrier.
-/
import proofs.«207420_g80582176408339_cont_9to1c4b_743_56_alg».proof.Defs
import proofs.«207420_g80582176408339_cont_9to1c4b_743_56_alg».proof.Proof.Gen.KernelIdeal
import proofs.«207420_g80582176408339_cont_9to1c4b_743_56_alg».proof.Proof.Gen.KernelIdeal.Skeleton
import proofs.«207420_g80582176408339_cont_9to1c4b_743_56_alg».proof.Proof.Gen.KernelIdeal.Launch
import proofs.«207420_g80582176408339_cont_9to1c4b_743_56_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 2 := sc (F := F)
theorem nSub_eq (q : Fin 2) : (K (F := F)).nSub q = 16 := by fin_cases q <;> rfl
theorem nCore_eq (q : Fin 2) : (K (F := F)).nCore q = 2 := by fin_cases q <;> rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the TensorCore pipeline's staging
    cells' rounds, and the local transfers' counters -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 2) (Elt F) ℕ UU ℕ

abbrev EH : Emb UH (MT nD τ sig (HIx 2) (Elt F) ℕ UU ℕ) := embL
def EB : Emb UB (MT nD τ sig (HIx 2) (Elt F) ℕ UU ℕ) :=
  ((Emb.inl : Emb UB (UB × (UP × Counters))).trans (Emb.inr : Emb (UB × (UP × Counters)) UU)).trans
    (uEmb (nD := nD) (sig := sig) (Ix := HIx 2) (Val := Elt F) (Name := ℕ) (U := UU) (Lvl := ℕ)).toEmb
def EP : Emb UP (MT nD τ sig (HIx 2) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 2) (Val := Elt F) (Name := ℕ) (U := UU) (Lvl := ℕ)).toEmb
instance EB_landsIn : (EB : Emb UB 𝕄).LandsIn (upEmb : UEmb _ 𝕄) := by unfold EB; infer_instance
instance EP_landsIn : (EP : Emb UP 𝕄).LandsIn (upEmb : UEmb _ 𝕄) := by unfold EP; infer_instance

/-! ## The launch memory, the arrays, and what each holds at each point -/

variable (m : (ℓ : Loc nD τ sig) → Buf (Elt F) ℓ) (ρ : Dev nD → PrngReg)

abbrev xLoc (d : Dev nD) : Loc nD τ sig := (SparseCore.T d).loc main_arg0
abbrev wLoc (d : Dev nD) : Loc nD τ sig := (SparseCore.T d).loc main_arg1
abbrev bLoc (d : Dev nD) : Loc nD τ sig := (SparseCore.T d).loc main_arg2
/-- The index matrix transposed (one row per field), the table's two halves flattened, the bias as a row of 128, the two
    lookups' results (each: SparseCore 0's 16384 partial sums, then SparseCore 1's), and the final result. -/
abbrev xtLoc (d : Dev nD) : Loc nD τ sig := (SparseCore.T d).loc main_v0
abbrev w0Loc (d : Dev nD) : Loc nD τ sig := (SparseCore.T d).loc main_v2
abbrev w1Loc (d : Dev nD) : Loc nD τ sig := (SparseCore.T d).loc main_v4
abbrev brLoc (d : Dev nD) : Loc nD τ sig := (SparseCore.T d).loc main_v5
abbrev p0Loc (d : Dev nD) : Loc nD τ sig := (SparseCore.T d).loc main_v6
abbrev p1Loc (d : Dev nD) : Loc nD τ sig := (SparseCore.T d).loc main_v7
abbrev resLoc (d : Dev nD) : Loc nD τ sig := (SparseCore.T d).loc main_v11
/-- SparseCore `c`'s shared buffer of lookup 0 and of lookup 1: 7 rows of 16384, flat. -/
abbrev acc0Ref (c : Fin τ.nSC) : DevRef τ sig := ⟨.shared, ⟨0, by decide⟩, c⟩
abbrev acc1Ref (c : Fin τ.nSC) : DevRef τ sig := ⟨.shared, ⟨1, by decide⟩, c⟩
abbrev acc0Loc (d : Dev nD) (c : Fin τ.nSC) : Loc nD τ sig := (d, acc0Ref c)
abbrev acc1Loc (d : Dev nD) (c : Fin τ.nSC) : Loc nD τ sig := (d, acc1Ref c)

variable [FloatOps F]

open Idealize.ShloMosaic.ValueIdx in
/-- Entry `n` of a half table; the zero word for a number that names no entry. -/
def whAt (wh : FVec F S1300000 .f32) (n : Nat) : F .f32 :=
  if h : n < 1300000 then wh (ix1 (⟨n, h⟩ : Fin 1300000)) else Scalar.ofBits .f32 0x00000000#32

open Idealize.ShloMosaic.ValueIdx in
/-- The index field `f` holds for batch row `b`, as a number; zero outside the matrix. -/
def xtAt (xt : IVec S26x16384 32) (f b : Nat) : Nat :=
  if h : f < 26 ∧ b < 16384 then (xt (ix2 (⟨f, h.1⟩ : Fin 26) (⟨b, h.2⟩ : Fin 16384))).toNat else 0

/-- What row `r` of SparseCore `c`'s shared buffer holds for batch row `b` when the tiles have passed the barrier, in the
    lookup whose first field is `fb`: the looked-up entry of field `fb + 7c + r` where a tile owns that row's field
    (`r + c < 7`), the zero word in the one row left over. -/
def accAt (xt : IVec S26x16384 32) (wh : FVec F S1300000 .f32) (fb c r b : Nat) : F .f32 :=
  if r + c < 7 then whAt wh ((7 * c + r) * 100000 + xtAt xt (fb + 7 * c + r) b) else Scalar.ofBits .f32 0x00000000#32

/-- The whole shared buffer then, flat: entry `16384 r + b`. -/
def accVal (xt : IVec S26x16384 32) (wh : FVec F S1300000 .f32) (fb c : Nat) : FVec F S114688 .f32 :=
  fun j => accAt xt wh fb c ((j 0).val / 16384) ((j 0).val % 16384)

/-- SparseCore `c`'s partial sum for batch row `b`: its seven rows added, first to last. -/
def partAt (xt : IVec S26x16384 32) (wh : FVec F S1300000 .f32) (fb c b : Nat) : F .f32 :=
  FloatOps.addf (FloatOps.addf (FloatOps.addf (FloatOps.addf (FloatOps.addf (FloatOps.addf
    (accAt xt wh fb c 0 b) (accAt xt wh fb c 1 b)) (accAt xt wh fb c 2 b)) (accAt xt wh fb c 3 b)) (accAt xt wh fb c 4 b))
    (accAt xt wh fb c 5 b)) (accAt xt wh fb c 6 b)

/-- A lookup's result, flat: entry `16384 c + b`. -/
def partVal (xt : IVec S26x16384 32) (wh : FVec F S1300000 .f32) (fb : Nat) : FVec F S32768 .f32 :=
  fun j => partAt xt wh fb ((j 0).val / 16384) ((j 0).val % 16384)

/-- The final result for batch row `b`: the four partial sums added in the order the TensorCore adds them, then the bias. -/
def resAt (xt : IVec S26x16384 32) (w0 w1 : FVec F S1300000 .f32) (bias : F .f32) (b : Nat) : F .f32 :=
  FloatOps.addf (FloatOps.addf (FloatOps.addf (FloatOps.addf (partAt xt w0 0 0 b) (partAt xt w0 0 1 b)) (partAt xt w1 13 0 b))
    (partAt xt w1 13 1 b)) bias

/-- The arrays' contents as functions of the launch memory. -/
def XT (d : Dev nD) : IVec S26x16384 32 := transpose S26x16384 [1, 0] (m (xLoc d)) Gen.transposes_S16384x26_S26x16384_1_0
def WH0 (d : Dev nD) : FVec F S1300000 .f32 :=
  shapeCast S1300000 (extractStridedSlice S1300000x1 ![0, 0] (m (wLoc d)) Gen.slices_S2600000x1_S1300000x1_0_0) Gen.shapeCasts_S1300000x1_S1300000
def WH1 (d : Dev nD) : FVec F S1300000 .f32 :=
  shapeCast S1300000 (extractStridedSlice S1300000x1 ![1300000, 0] (m (wLoc d)) Gen.slices_S2600000x1_S1300000x1_1300000_0) Gen.shapeCasts_S1300000x1_S1300000
def BR (d : Dev nD) : FVec F S1x128 .f32 := broadcastInDim S1x128 ![1] Gen.bcast_S1_S1x128_1 (m (bLoc d))
def PT0 (d : Dev nD) : FVec F S32768 .f32 := partVal (XT m d) (WH0 m d) 0
def PT1 (d : Dev nD) : FVec F S32768 .f32 := partVal (XT m d) (WH1 m d) 13
def ACC0 (d : Dev nD) (c : Fin τ.nSC) : FVec F S114688 .f32 := accVal (XT m d) (WH0 m d) 0 c.val
def ACC1 (d : Dev nD) (c : Fin τ.nSC) : FVec F S114688 .f32 := accVal (XT m d) (WH1 m d) 13 c.val
open Idealize.ShloMosaic.ValueIdx in
def RES (d : Dev nD) : FVec F S16384x1 .f32 :=
  fun i => resAt (XT m d) (WH0 m d) (WH1 m d) (m (bLoc d) (ix1 (0 : Fin 1))) (i 0).val

/-! ## Flat pieces of the one-dimensional arrays -/

/-- The entries `lo ≤ · < lo + len` of a flat array. -/
def seg {N : Nat} (lo len : Nat) : Finset (⟨1, ![N]⟩ : Shape).Idx := Finset.univ.filter fun i => lo ≤ (i 0).val ∧ (i 0).val < lo + len

/-! ## The barrier cells: one per tile, round `k` for lookup `k` -/

/-- Tile `(c, j)`'s barrier semaphore of device `d`. -/
abbrev bcell (d : Dev nD) (c : Fin τ.nSC) (j : Fin τ.nSub) : GSem nD τ sig := (V d c j, .reg sc_bar0)
/-- A tile's number among its SparseCore's sixteen. -/
abbrev jt (j : Fin 16) : Fin τ.nSub := j.castLE (by decide)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What tile `n`'s arrival at lookup `r`'s barrier hands tile `j`: the piece it has written of its row of the shared
    buffer that tile `j` will read — row `n`, columns `1024 j … 1024 j + 1023` —, at the looked-up values. Tiles 7 to 15
    own no row and hand over nothing. -/
def bPay (g : GSem nD τ sig) (r n : ℕ) : sProp 𝕄 :=
  match g with
  | ((d, .scVector c j), _) =>
      if n < 7 then
        (if r = 0 then iprop(acc0Loc d c ↦[seg (N := 114688) (16384 * n + 1024 * j.val) 1024]{fullShare} ACC0 m d c)
         else if r = 1 then iprop(acc1Loc d c ↦[seg (N := 114688) (16384 * n + 1024 * j.val) 1024]{fullShare} ACC1 m d c)
         else iprop(emp))
      else iprop(emp)
  | _ => iprop(emp)

/-- The barrier cells' schedule: two rounds on each (one per lookup), each of one unit duty per tile of the SparseCore
    (named by its number), whose payload is `bPay`. -/
def bRd : Rounds.Schedule (GSem nD τ sig) ℕ 𝕄 where
  duties g r := if isBar g ∧ r < 2 then (Finset.univ : Finset (Fin τ.nSub)).image Fin.val else ∅
  amount _ _ _ := 1
  payload g r n := bPay m g r n
  amount_pos _ _ _ _ := Nat.one_pos

instance bRd_payload_storable (g : GSem nD τ sig) (r n : ℕ) : BI.Storable (upEmb : UEmb _ 𝕄) ((bRd (F := F) m).payload g r n) := by
  show BI.Storable upEmb (bPay m g r n)
  unfold bPay
  rcases g with ⟨⟨d, _ | c | ⟨c, i⟩⟩, sm⟩ <;> dsimp only <;> (repeat' split) <;> infer_instance

theorem bRd_duties (d : Dev nD) (c : Fin τ.nSC) (j : Fin τ.nSub) {r : ℕ} (hr : r < 2) :
    (bRd (F := F) m).duties (bcell d c j) r = (Finset.univ : Finset (Fin τ.nSub)).image Fin.val := by
  show (if isBar (bcell d c j) = true ∧ r < 2 then _ else ∅) = _
  rw [if_pos ⟨isBar_bcell d c j, hr⟩]
theorem bRd_mem (d : Dev nD) (c : Fin τ.nSC) (j i : Fin τ.nSub) {r : ℕ} (hr : r < 2) : i.val ∈ (bRd (F := F) m).duties (bcell d c j) r := by
  rw [bRd_duties m d c j hr]; exact Finset.mem_image_of_mem _ (Finset.mem_univ i)
theorem bRd_expect (d : Dev nD) (c : Fin τ.nSC) (j : Fin τ.nSub) {r : ℕ} (hr : r < 2) : 0 + 16 = (bRd (F := F) m).expect (bcell d c j) r := by
  unfold Rounds.Schedule.expect; rw [bRd_duties m d c j hr]
  show 0 + 16 = ∑ x ∈ (Finset.univ : Finset (Fin 16)).image Fin.val, 1
  rw [Finset.sum_const, Finset.card_image_of_injective _ Fin.val_injective]; rfl

/-- What the launch has a tile owe for lookup `q`'s barrier: a unit on every tile's cell of its SparseCore, at the call's index. -/
def oxV (q : Fin 2) (d : Dev nD) (c : Fin τ.nSC) : CellTallies nD τ sig (HIx 2) := ∑ j : Fin 16, tallyAt (bcell d c (jt j)) (some q) 1

omit [FloatOps F] in
theorem oxV_none (q : Fin 2) (d : Dev nD) (c : Fin τ.nSC) (g : GSem nD τ sig) : oxV q d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {q : Fin 2} {d : Dev nD} {c : Fin τ.nSC} {g : GSem nD τ sig} {ι : HIx 2} (h : 0 < oxV q d c g ι) :
    ∃ j : Fin 16, g = bcell d c (jt j) ∧ ι = some q := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's standing on its own barrier cell once lookup 0's barrier is behind it: at the origin of round 1, that round
    reached. It travels back with the task's results and out again with lookup 1's operands. -/
def bpos (d : Dev nD) (c : Fin τ.nSC) (i : Fin τ.nSub) : sProp 𝕄 := iprop(atPos EB (bcell d c i) 1 ∅ 0 ∗ reached EB (bcell d c i) 1)

/-- Tile `(c, i)`'s barrier kit for lookup `q`, dealt at the launch: every tile's cell invariant of its SparseCore, its
    duty token in every tile's round `q`, the credit for the sixteen units of its own round `q`; and for lookup 0 also
    that every cell has reached round 0 and its own position at the origin. -/
def bkit (q : Fin 2) (d : Dev nD) (c : Fin τ.nSC) (i : Fin τ.nSub) : sProp 𝕄 :=
  iprop((∃ κ : GSem nD τ sig → ℕ, bigSep Finset.univ fun j : Fin 16 => cellInv EB (bRd (F := F) m) (κ (bcell d c (jt j))) (bcell d c (jt j)))
    ∗ (bigSep Finset.univ fun j : Fin 16 => dutyTok EB (bcell d c (jt j)) q.val i.val)
    ∗ cred (tallyAt (bcell d c i) (some q) 16)
    ∗ (if q.val = 0 then iprop((bigSep Finset.univ fun j : Fin 16 => reached EB (bcell d c (jt j)) 0) ∗ atPos EB (bcell d c i) 0 ∅ 0)
       else iprop(emp)))

/-! ## What the handshakes carry -/

open Idealize.ShloMosaic.Transfers (shareTok shareDrop)

/-- The read share of a whole array a SparseCore is handed at a lookup, and the one a tile of it is. -/
abbrev shC (c : Fin 2) : PosShare TreeShare := shareTok fullShare 2 c
abbrev shT (c : Fin 2) (i : Fin 16) : PosShare TreeShare := shareTok (shC c) 16 i
/-- A SparseCore's number as the topology's. -/
abbrev cT (c : Fin 2) : Fin τ.nSC := c.castLE (by decide)
/-- A lookup's grid coordinates as plain numbers. -/
abbrev cN (q : Fin 2) (c : Fin ((K (F := F)).nCore q)) : Fin 2 := Fin.cast (nCore_eq q) c
abbrev iN (q : Fin 2) (i : Fin ((K (F := F)).nSub q)) : Fin 16 := Fin.cast (nSub_eq q) i

/-- Lookup 0, a SparseCore: read shares of the index rows and of the first half table, and its 16384 entries of the result. -/
def st0 (d : Dev nD) (c : Fin 2) : sProp 𝕄 :=
  iprop((xtLoc d ↦{shC c} XT m d) ∗ (w0Loc d ↦{shC c} WH0 m d)
    ∗ (p0Loc d ↦[seg (N := 32768) (16384 * c.val) 16384]{fullShare} m (p0Loc d)))
/-- back: the result entries at the partial sums, and every tile's standing on its barrier cell for lookup 1. -/
def dn0 (d : Dev nD) (c : Fin 2) : sProp 𝕄 :=
  iprop((xtLoc d ↦{shC c} XT m d) ∗ (w0Loc d ↦{shC c} WH0 m d)
    ∗ (p0Loc d ↦[seg (N := 32768) (16384 * c.val) 16384]{fullShare} PT0 m d)
    ∗ bigSep Finset.univ fun i : Fin 16 => bpos d (cT c) (jt i))
/-- Lookup 1 the same over the second half table, the standings going out again. -/
def st1 (d : Dev nD) (c : Fin 2) : sProp 𝕄 :=
  iprop((xtLoc d ↦{shC c} XT m d) ∗ (w1Loc d ↦{shC c} WH1 m d)
    ∗ (p1Loc d ↦[seg (N := 32768) (16384 * c.val) 16384]{fullShare} m (p1Loc d))
    ∗ bigSep Finset.univ fun i : Fin 16 => bpos d (cT c) (jt i))
def dn1 (d : Dev nD) (c : Fin 2) : sProp 𝕄 :=
  iprop((xtLoc d ↦{shC c} XT m d) ∗ (w1Loc d ↦{shC c} WH1 m d)
    ∗ (p1Loc d ↦[seg (N := 32768) (16384 * c.val) 16384]{fullShare} PT1 m d))

/-- Lookup 0, a tile: its read shares, its 1024 entries of the result, and (tiles 0 to 6) its row of the shared buffer. -/
def go0 (d : Dev nD) (c : Fin 2) (i : Fin 16) : sProp 𝕄 :=
  iprop((xtLoc d ↦{shT c i} XT m d) ∗ (w0Loc d ↦{shT c i} WH0 m d)
    ∗ (p0Loc d ↦[seg (N := 32768) (16384 * c.val + 1024 * i.val) 1024]{fullShare} m (p0Loc d))
    ∗ (if i.val < 7 then iprop(∃ f, acc0Loc d (cT c) ↦[seg (N := 114688) (16384 * i.val) 16384]{fullShare} f) else iprop(emp)))
/-- back: the entries at the partial sums, its column block of every row of the shared buffer, its standing for lookup 1. -/
def td0 (d : Dev nD) (c : Fin 2) (i : Fin 16) : sProp 𝕄 :=
  iprop((xtLoc d ↦{shT c i} XT m d) ∗ (w0Loc d ↦{shT c i} WH0 m d)
    ∗ (p0Loc d ↦[seg (N := 32768) (16384 * c.val + 1024 * i.val) 1024]{fullShare} PT0 m d)
    ∗ (bigSep Finset.univ fun n : Fin 7 => iprop(∃ f, acc0Loc d (cT c) ↦[seg (N := 114688) (16384 * n.val + 1024 * i.val) 1024]{fullShare} f))
    ∗ bpos d (cT c) (jt i))
/-- Lookup 1, a tile: the same over the second half table and the second shared buffer, with its position at the origin
    of round 1 of its barrier cell and that every tile of its SparseCore has reached that round. -/
def go1 (d : Dev nD) (c : Fin 2) (i : Fin 16) : sProp 𝕄 :=
  iprop((xtLoc d ↦{shT c i} XT m d) ∗ (w1Loc d ↦{shT c i} WH1 m d)
    ∗ (p1Loc d ↦[seg (N := 32768) (16384 * c.val + 1024 * i.val) 1024]{fullShare} m (p1Loc d))
    ∗ (if i.val < 7 then iprop(∃ f, acc1Loc d (cT c) ↦[seg (N := 114688) (16384 * i.val) 16384]{fullShare} f) else iprop(emp))
    ∗ atPos EB (bcell d (cT c) (jt i)) 1 ∅ 0 ∗ bigSep Finset.univ fun j : Fin 16 => reached EB (bcell d (cT c) (jt j)) 1)
def td1 (d : Dev nD) (c : Fin 2) (i : Fin 16) : sProp 𝕄 :=
  iprop((xtLoc d ↦{shT c i} XT m d) ∗ (w1Loc d ↦{shT c i} WH1 m d)
    ∗ (p1Loc d ↦[seg (N := 32768) (16384 * c.val + 1024 * i.val) 1024]{fullShare} PT1 m d)
    ∗ (bigSep Finset.univ fun n : Fin 7 => iprop(∃ f, acc1Loc d (cT c) ↦[seg (N := 114688) (16384 * n.val + 1024 * i.val) 1024]{fullShare} f)))

instance st0_storable (d : Dev nD) (c : Fin 2) : BI.Storable (upEmb : UEmb _ 𝕄) (st0 m d c) := by unfold st0; infer_instance
instance dn0_storable (d : Dev nD) (c : Fin 2) : BI.Storable (upEmb : UEmb _ 𝕄) (dn0 m d c) := by unfold dn0 bpos; infer_instance
instance st1_storable (d : Dev nD) (c : Fin 2) : BI.Storable (upEmb : UEmb _ 𝕄) (st1 m d c) := by unfold st1 bpos; infer_instance
instance dn1_storable (d : Dev nD) (c : Fin 2) : BI.Storable (upEmb : UEmb _ 𝕄) (dn1 m d c) := by unfold dn1; infer_instance
instance go0_storable (d : Dev nD) (c : Fin 2) (i : Fin 16) : BI.Storable (upEmb : UEmb _ 𝕄) (go0 m d c i) := by
  unfold go0; (repeat' split) <;> infer_instance
instance td0_storable (d : Dev nD) (c : Fin 2) (i : Fin 16) : BI.Storable (upEmb : UEmb _ 𝕄) (td0 m d c i) := by unfold td0 bpos; infer_instance
instance go1_storable (d : Dev nD) (c : Fin 2) (i : Fin 16) : BI.Storable (upEmb : UEmb _ 𝕄) (go1 m d c i) := by
  unfold go1; (repeat' split) <;> infer_instance
instance td1_storable (d : Dev nD) (c : Fin 2) (i : Fin 16) : BI.Storable (upEmb : UEmb _ 𝕄) (td1 m d c i) := by unfold td1; infer_instance

/-- The certificate's payloads: per lookup, what a SparseCore is handed and hands back, what a tile is and does; each tile's
    barrier kit per lookup; each tile owes its sixteen arrivals per lookup. -/
def P : (K (F := F)).Pay (nD := nD) (Val := Elt F) (Name := ℕ) (U := UU) where
  st := fun q d c => match q with | 0 => st0 m d (cN 0 c) | 1 => st1 m d (cN 1 c)
  dn := fun q d c => match q with | 0 => dn0 m d (cN 0 c) | 1 => dn1 m d (cN 1 c)
  go := fun q d c i => match q with | 0 => go0 m d (cN 0 c) (iN 0 i) | 1 => go1 m d (cN 1 c) (iN 1 i)
  td := fun q d c i => match q with | 0 => td0 m d (cN 0 c) (iN 0 i) | 1 => td1 m d (cN 1 c) (iN 1 i)
  x := fun q thr => match thr with
    | (d, .scVector c i) => bkit m q d c i
    | _ => iprop(emp)
  ox := fun q thr => match thr with
    | (d, .scVector c _) => oxV q d c
    | _ => 0
  ox_band := by
    intro q thr g ι h
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (jt j) (show (sc_bar0 : Sem sig) ≠ (K (F := F)).go from sc_bar0_ne_go)]; exact ⟨le_rfl, by omega⟩
  ox_tc := fun _ _ => rfl
  ox_sc := fun _ _ _ h => absurd rfl h
  ox_vc := by
    intro q d c i _
    fin_cases q <;> exact ⟨rfl, c.isLt, i.isLt⟩

instance P_storable : (P (F := F) m).IsStorable where
  st q d c := match q with
    | 0 => (inferInstance : BI.Storable (upEmb : UEmb _ 𝕄) (st0 m d (cN 0 c)))
    | 1 => (inferInstance : BI.Storable (upEmb : UEmb _ 𝕄) (st1 m d (cN 1 c)))
  dn q d c := match q with
    | 0 => (inferInstance : BI.Storable (upEmb : UEmb _ 𝕄) (dn0 m d (cN 0 c)))
    | 1 => (inferInstance : BI.Storable (upEmb : UEmb _ 𝕄) (dn1 m d (cN 1 c)))
  go q d c i := match q with
    | 0 => (inferInstance : BI.Storable (upEmb : UEmb _ 𝕄) (go0 m d (cN 0 c) (iN 0 i)))
    | 1 => (inferInstance : BI.Storable (upEmb : UEmb _ 𝕄) (go1 m d (cN 1 c) (iN 1 i)))
  td q d c i := match q with
    | 0 => (inferInstance : BI.Storable (upEmb : UEmb _ 𝕄) (td0 m d (cN 0 c) (iN 0 i)))
    | 1 => (inferInstance : BI.Storable (upEmb : UEmb _ 𝕄) (td1 m d (cN 1 c) (iN 1 i)))

/-! ## What the proofs of the parts assume and leave -/

open Idealize.ShloMosaic.ValueIdx in
/-- Every index names a row of its field's 100000 (what the precondition says of the index matrix). -/
def InRange : Prop := ∀ (d : Dev nD) (f : Fin 26) (b : Fin 16384), (XT m d (ix2 f b)).toNat < 100000

/-- What the launch deals the TensorCore for its one pipelined call: the staging cells' launch state and the transfers' tokens. -/
abbrev mainG (d : Dev nD) : sProp 𝕄 :=
  iprop((bigSep Finset.univ fun p : Fin 1 => Pipeline.cellsGhost cfgs EP p d) ∗ bigSep Finset.univ fun p : Fin 1 => Pipeline.toksInit cfgs EP p d)

/-- What @main leaves the claim: the three arguments at their launch contents and the result at `RES`. -/
abbrev FIN (d : Dev nD) : sProp 𝕄 :=
  iprop((xLoc d ↦{fullShare} m (xLoc d)) ∗ (wLoc d ↦{fullShare} m (wLoc d)) ∗ (bLoc d ↦{fullShare} m (bLoc d)) ∗ (resLoc d ↦{fullShare} RES m d))

end Cert.Proof.KI

end
-- ==== Proof.KI.Segs.lean ====
/-
  Flat pieces of a one-dimensional array: a segment `seg lo len` is the entries `lo ≤ · < lo + len`.
  Equal consecutive parts of a segment are pairwise disjoint and cover it; the whole array is the segment from 0.
  These are the set facts behind every split of an array among SparseCores, tiles, rows and column blocks.
-/
import proofs.«207420_g80582176408339_cont_9to1c4b_743_56_alg».proof.Proof.KI.Common

noncomputable section

namespace Cert.Proof.KI

open Idealize.ShloMosaic

theorem mem_seg {N lo len : Nat} (i : (⟨1, ![N]⟩ : Shape).Idx) : i ∈ seg (N := N) lo len ↔ lo ≤ (i 0).val ∧ (i 0).val < lo + len := by
  unfold seg; rw [Finset.mem_filter]; exact ⟨fun h => h.2, fun h => ⟨Finset.mem_univ _, h⟩⟩

/-- Segments one of which ends where or before the other begins share no entry. -/
theorem seg_disjoint {N lo len lo' len' : Nat} (h : lo + len ≤ lo' ∨ lo' + len' ≤ lo) : Disjoint (seg (N := N) lo len) (seg (N := N) lo' len') := by
  rw [Finset.disjoint_left]
  intro i hi hi'
  rw [mem_seg] at hi hi'
  omega

/-- The `t`-th of consecutive parts of length `len` from `lo`. -/
theorem seg_parts_disjoint {N lo len k : Nat} :
    ∀ t ∈ (Finset.univ : Finset (Fin k)), ∀ t' ∈ (Finset.univ : Finset (Fin k)), t ≠ t' →
      Disjoint (seg (N := N) (lo + len * t.val) len) (seg (N := N) (lo + len * t'.val) len) := by
  intro t _ t' _ hne
  apply seg_disjoint
  have hv : t.val ≠ t'.val := fun e => hne (Fin.ext e)
  rcases Nat.lt_or_gt_of_ne hv with h | h
  · left
    have : len * t.val + len ≤ len * t'.val := by
      calc len * t.val + len = len * (t.val + 1) := by ring
        _ ≤ len * t'.val := Nat.mul_le_mul_left _ h
    omega
  · right
    have : len * t'.val + len ≤ len * t.val := by
      calc len * t'.val + len = len * (t'.val + 1) := by ring
        _ ≤ len * t.val := Nat.mul_le_mul_left _ h
    omega

/-- The `k` consecutive parts of length `len` from `lo` are the segment of length `len * k` from `lo`. -/
theorem seg_parts {N : Nat} (lo len k : Nat) :
    (Finset.univ : Finset (Fin k)).biUnion (fun t => seg (N := N) (lo + len * t.val) len) = seg (N := N) lo (len * k) := by
  ext i
  rw [Finset.mem_biUnion, mem_seg]
  constructor
  · rintro ⟨t, -, ht⟩
    rw [mem_seg] at ht
    have : len * t.val + len ≤ len * k := by
      calc len * t.val + len = len * (t.val + 1) := by ring
        _ ≤ len * k := Nat.mul_le_mul_left _ t.isLt
    omega
  · rintro ⟨h1, h2⟩
    have hlen : 0 < len := by
      rcases Nat.eq_zero_or_pos len with h0 | h0
      · subst h0; omega
      · exact h0
    have hq : ((i 0).val - lo) / len < k := by
      apply Nat.div_lt_of_lt_mul; omega
    refine ⟨⟨((i 0).val - lo) / len, hq⟩, Finset.mem_univ _, ?_⟩
    rw [mem_seg]
    have h3 := Nat.div_add_mod ((i 0).val - lo) len
    have h4 := Nat.mod_lt ((i 0).val - lo) hlen
    constructor
    · show lo + len * (((i 0).val - lo) / len) ≤ (i 0).val
      omega
    · show (i 0).val < lo + len * (((i 0).val - lo) / len) + len
      omega

/-- The whole flat array is the segment from 0 of its length. -/
theorem seg_univ {N : Nat} : seg (N := N) 0 N = Finset.univ := by
  ext i
  rw [mem_seg]
  exact ⟨fun _ => Finset.mem_univ _, fun _ => ⟨Nat.zero_le _, by have := (i 0).isLt; simpa using this⟩⟩

end Cert.Proof.KI

end
-- ==== Proof.KI.Split.lean ====
/-
  How one SparseCore's operands of a lookup split among its sixteen tiles, and how what the tiles hand back joins.

  Going out: the read shares of the index rows and of the half table halve sixteen times (one share per tile, a
  remainder kept); the SparseCore's 16384 entries of the result are sixteen consecutive pieces of 1024; its shared
  buffer (the sequencer's own, 7 rows of 16384) is seven rows, handed to tiles 0 to 6.
  Coming back: the shares rejoin; the sixteen result pieces, now at the partial sums, are the 16384 entries again;
  each tile returns its column block of every row of the shared buffer (what the barrier gave it), and the
  16 × 7 blocks of 1024 are the whole buffer again, at whatever contents.
-/
import proofs.«207420_g80582176408339_cont_9to1c4b_743_56_alg».proof.Proof.KI.Segs

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type}

local notation "𝕄" => MT nD τ sig (HIx 2) (Elt F) ℕ UU ℕ

variable (m : (ℓ : Loc nD τ sig) → Buf (Elt F) ℓ)

/-! ## Set facts -/

/-- A family over the first `n` of `N` indices is the family over all of them that is empty past `n`. -/
theorem bigSep_fin_le {M : Type} [URA M] {n N : Nat} (h : n ≤ N) (X : Fin N → sProp M) :
    bigSep Finset.univ (fun i : Fin n => X (i.castLE h)) = bigSep Finset.univ fun i : Fin N => if i.val < n then X i else (iprop(emp) : sProp M) := by
  show _ = bigSep Finset.univ fun i : Fin N => if i.val < n then X i else (BI.emp : sProp M)
  rw [← bigSep_filter,
    show (Finset.univ.filter fun i : Fin N => i.val < n) = Finset.univ.map (Fin.castLEEmb h) from by
      ext i; simp only [Finset.mem_filter, Finset.mem_univ, true_and, Finset.mem_map, Fin.castLEEmb_apply]
      exact ⟨fun hi => ⟨⟨i.val, hi⟩, Fin.ext rfl⟩, fun ⟨j, hj⟩ => hj ▸ j.isLt⟩,
    bigSep_map]
  rfl

/-- The 16 × 7 column blocks of 1024 of the shared buffer are pairwise disjoint and cover it. -/
theorem blocks_disjoint : ∀ x ∈ (Finset.univ : Finset (Fin 16 × Fin 7)), ∀ y ∈ (Finset.univ : Finset (Fin 16 × Fin 7)), x ≠ y →
    Disjoint (seg (N := 114688) (16384 * x.2.val + 1024 * x.1.val) 1024) (seg (N := 114688) (16384 * y.2.val + 1024 * y.1.val) 1024) := by
  rintro ⟨i, n⟩ - ⟨i', n'⟩ - hne
  apply seg_disjoint
  have h1 := i.isLt; have h2 := i'.isLt; have h3 := n.isLt; have h4 := n'.isLt
  have hne' : i.val ≠ i'.val ∨ n.val ≠ n'.val := by
    by_cases h5 : i.val = i'.val
    · right; intro h6; exact hne (Prod.ext (Fin.ext h5) (Fin.ext h6))
    · left; exact h5
  dsimp only
  omega

theorem blocks_cover : (Finset.univ : Finset (Fin 16 × Fin 7)).biUnion (fun x => seg (N := 114688) (16384 * x.2.val + 1024 * x.1.val) 1024) = Finset.univ := by
  ext j
  simp only [Finset.mem_biUnion, Finset.mem_univ, true_and, iff_true]
  have hj : (j 0).val < 114688 := by have := (j 0).isLt; simpa using this
  refine ⟨(⟨((j 0).val % 16384) / 1024, by omega⟩, ⟨(j 0).val / 16384, by omega⟩), ?_⟩
  rw [mem_seg]
  dsimp only
  omega

/-! ## The sequencer's shared buffers among its own -/

theorem ownBufs_S0 (d : Dev nD) (c : Fin τ.nSC) :
    (ownBufs (S d c) : sProp 𝕄)
      = iprop((∃ f, acc0Loc d c ↦{fullShare} f) ∗ bigSep ((ownRefs (τ := τ) (.scScalar c)).erase (acc0Ref c)) fun b => iprop(∃ f, ((d, b) : Loc nD τ sig) ↦{fullShare} f)) := by
  unfold SparseCore.Cfg.ownBufs
  have h : acc0Ref c ∈ ownRefs (τ := τ) (sig := sig) (.scScalar c) := (mem_ownRefs (p := Proc.scScalar c) (b := acc0Ref c)).mpr rfl
  exact SparseCore.bigSep_erase' h

theorem ownBufs_S1 (d : Dev nD) (c : Fin τ.nSC) :
    (ownBufs (S d c) : sProp 𝕄)
      = iprop((∃ f, acc1Loc d c ↦{fullShare} f) ∗ bigSep ((ownRefs (τ := τ) (.scScalar c)).erase (acc1Ref c)) fun b => iprop(∃ f, ((d, b) : Loc nD τ sig) ↦{fullShare} f)) := by
  unfold SparseCore.Cfg.ownBufs
  have h : acc1Ref c ∈ ownRefs (τ := τ) (sig := sig) (.scScalar c) := (mem_ownRefs (p := Proc.scScalar c) (b := acc1Ref c)).mpr rfl
  exact SparseCore.bigSep_erase' h

/-! ## Lookup 0: one SparseCore's operands among its tiles -/

variable [FloatOps F]

/-- The result's 16384 entries of SparseCore `c` are its sixteen tiles' pieces of 1024. -/
theorem p0_pieces (d : Dev nD) (c : Fin 2) (f : Buf (Elt F) (p0Loc d)) :
    (p0Loc d ↦[seg (N := 32768) (16384 * c.val) 16384]{fullShare} f : sProp 𝕄)
      = bigSep Finset.univ fun i : Fin 16 => p0Loc d ↦[seg (N := 32768) (16384 * c.val + 1024 * i.val) 1024]{fullShare} f := by
  rw [← pointsTo_biUnion Finset.univ (ℓ := p0Loc d) (fun i : Fin 16 => seg (N := 32768) (16384 * c.val + 1024 * i.val) 1024) seg_parts_disjoint,
    seg_parts (N := 32768) (16384 * c.val) 1024 16]

/-- The shared buffer whole is its seven rows. -/
theorem acc0_rows (d : Dev nD) (c : Fin τ.nSC) (f : Buf (Elt F) (acc0Loc d c)) :
    (acc0Loc d c ↦{fullShare} f : sProp 𝕄) = bigSep Finset.univ fun n : Fin 7 => acc0Loc d c ↦[seg (N := 114688) (16384 * n.val) 16384]{fullShare} f := by
  have hd : ∀ t ∈ (Finset.univ : Finset (Fin 7)), ∀ t' ∈ (Finset.univ : Finset (Fin 7)), t ≠ t' →
      Disjoint (seg (N := 114688) (16384 * t.val) 16384) (seg (N := 114688) (16384 * t'.val) 16384) := by
    have h := seg_parts_disjoint (N := 114688) (lo := 0) (len := 16384) (k := 7)
    simp only [Nat.zero_add] at h; exact h
  have hc : (Finset.univ : Finset (Fin 7)).biUnion (fun n => seg (N := 114688) (16384 * n.val) 16384) = Finset.univ := by
    have h := seg_parts (N := 114688) 0 16384 7
    simp only [Nat.zero_add] at h; rw [h]; exact seg_univ
  rw [← pointsTo_biUnion Finset.univ (ℓ := acc0Loc d c) (fun n : Fin 7 => seg (N := 114688) (16384 * n.val) 16384) hd, hc]; try rfl

/-- The 16 × 7 column blocks, each at contents of its own, are the shared buffer whole at some contents. -/
theorem acc0_blocks_join (d : Dev nD) (c : Fin τ.nSC) :
    (bigSep Finset.univ fun i : Fin 16 => bigSep Finset.univ fun n : Fin 7 =>
        iprop(∃ f, acc0Loc d c ↦[seg (N := 114688) (16384 * n.val + 1024 * i.val) 1024]{fullShare} f))
      ⊢ (iprop(∃ f, acc0Loc d c ↦{fullShare} f) : sProp 𝕄) := by
  rw [← bigSep_univ_prod (fun x : Fin 16 × Fin 7 => iprop(∃ f, acc0Loc d c ↦[seg (N := 114688) (16384 * x.2.val + 1024 * x.1.val) 1024]{fullShare} f))]
  refine (bigSep_exists_pi Finset.univ (fun (x : Fin 16 × Fin 7) (f : Buf (Elt F) (acc0Loc d c)) =>
    (acc0Loc d c ↦[seg (N := 114688) (16384 * x.2.val + 1024 * x.1.val) 1024]{fullShare} f : sProp 𝕄))).trans ?_
  iintro ⟨%fs, H⟩
  ihave H' := (pointsTo_biUnion_join Finset.univ (fun x : Fin 16 × Fin 7 => seg (N := 114688) (16384 * x.2.val + 1024 * x.1.val) 1024) fs (fs (0, 0)) blocks_disjoint) $$ H
  icases H' with ⟨%g, -, Hg⟩
  rw [blocks_cover]
  iexists g; iexact Hg

/-- SparseCore `c` of lookup 0: from its operands and the sequencer's own buffers, every tile's operands; and from what
    every tile hands back, its results and the buffers again. -/
theorem split0 (d : Dev nD) (c : Fin 2) :
    iprop(st0 m d c ∗ ownBufs (S d (cT c))) ⊢ |={Set.univ}=> iprop((bigSep Finset.univ fun i : Fin 16 => go0 m d c i)
      ∗ ((bigSep Finset.univ fun i : Fin 16 => td0 m d c i) -∗ iprop(dn0 m d c ∗ ownBufs (S d (cT c))))) := by
  unfold st0 go0 td0 dn0
  rw [ownBufs_S0, p0_pieces, p0_pieces, bigSep_sep', bigSep_sep', bigSep_sep', bigSep_sep', bigSep_sep', bigSep_sep', bigSep_sep']
  iintro ⟨⟨Hxt, Hw, Hp⟩, ⟨%fa, Hacc⟩, Hrest⟩
  ihave Hxt' := (pointsTo_toks_split (shC c) 16) $$ Hxt
  icases Hxt' with ⟨Hxt0, Hxts⟩
  ihave Hw' := (pointsTo_toks_split (shC c) 16) $$ Hw
  icases Hw' with ⟨Hw0, Hws⟩
  ihave Hrows := (Entails.of_eq (acc0_rows d (cT c) fa)) $$ Hacc
  imodintro
  isplitl [Hxts Hws Hp Hrows]
  · isplitl [Hxts]; · iexact Hxts
    isplitl [Hws]; · iexact Hws
    isplitl [Hp]; · iexact Hp
    rw [← bigSep_fin_le (show 7 ≤ 16 by decide) (fun i : Fin 16 => iprop(∃ f, acc0Loc d (cT c) ↦[seg (N := 114688) (16384 * i.val) 16384]{fullShare} f))]
    iapply (SparseCore.ent (bigSep_mono (Φ := fun n : Fin 7 => (acc0Loc d (cT c) ↦[seg (N := 114688) (16384 * n.val) 16384]{fullShare} fa : sProp 𝕄))
      (Ψ := fun n : Fin 7 => iprop(∃ f, acc0Loc d (cT c) ↦[seg (N := 114688) (16384 * (n.castLE (show 7 ≤ 16 by decide)).val) 16384]{fullShare} f))
      fun n _ => BI.BIClass.exists_intro (Φ := fun f => (acc0Loc d (cT c) ↦[seg (N := 114688) (16384 * n.val) 16384]{fullShare} f : sProp 𝕄)) fa))
    iexact Hrows
  iintro ⟨Hxts, Hws, Hp, Hblocks, Hpos⟩
  isplitr [Hblocks Hrest]
  · isplitl [Hxt0 Hxts]
    · iapply (pointsTo_toks_join (shC c) 16); isplitl [Hxt0] <;> iassumption
    isplitl [Hw0 Hws]
    · iapply (pointsTo_toks_join (shC c) 16); isplitl [Hw0] <;> iassumption
    isplitl [Hp]; · iexact Hp
    iexact Hpos
  isplitl [Hblocks]; · iapply (acc0_blocks_join d (cT c)); iexact Hblocks
  iexact Hrest

/-! ## Lookup 1: the same over the second half table and the second shared buffer; the tiles' standings for round 1 of their
    barrier cells go out with the operands -/

theorem p1_pieces (d : Dev nD) (c : Fin 2) (f : Buf (Elt F) (p1Loc d)) :
    (p1Loc d ↦[seg (N := 32768) (16384 * c.val) 16384]{fullShare} f : sProp 𝕄)
      = bigSep Finset.univ fun i : Fin 16 => p1Loc d ↦[seg (N := 32768) (16384 * c.val + 1024 * i.val) 1024]{fullShare} f := by
  rw [← pointsTo_biUnion Finset.univ (ℓ := p1Loc d) (fun i : Fin 16 => seg (N := 32768) (16384 * c.val + 1024 * i.val) 1024) seg_parts_disjoint,
    seg_parts (N := 32768) (16384 * c.val) 1024 16]

theorem acc1_rows (d : Dev nD) (c : Fin τ.nSC) (f : Buf (Elt F) (acc1Loc d c)) :
    (acc1Loc d c ↦{fullShare} f : sProp 𝕄) = bigSep Finset.univ fun n : Fin 7 => acc1Loc d c ↦[seg (N := 114688) (16384 * n.val) 16384]{fullShare} f := by
  have hd : ∀ t ∈ (Finset.univ : Finset (Fin 7)), ∀ t' ∈ (Finset.univ : Finset (Fin 7)), t ≠ t' →
      Disjoint (seg (N := 114688) (16384 * t.val) 16384) (seg (N := 114688) (16384 * t'.val) 16384) := by
    have h := seg_parts_disjoint (N := 114688) (lo := 0) (len := 16384) (k := 7)
    simp only [Nat.zero_add] at h; exact h
  have hc : (Finset.univ : Finset (Fin 7)).biUnion (fun n => seg (N := 114688) (16384 * n.val) 16384) = Finset.univ := by
    have h := seg_parts (N := 114688) 0 16384 7
    simp only [Nat.zero_add] at h; rw [h]; exact seg_univ
  rw [← pointsTo_biUnion Finset.univ (ℓ := acc1Loc d c) (fun n : Fin 7 => seg (N := 114688) (16384 * n.val) 16384) hd, hc]; try rfl

theorem acc1_blocks_join (d : Dev nD) (c : Fin τ.nSC) :
    (bigSep Finset.univ fun i : Fin 16 => bigSep Finset.univ fun n : Fin 7 =>
        iprop(∃ f, acc1Loc d c ↦[seg (N := 114688) (16384 * n.val + 1024 * i.val) 1024]{fullShare} f))
      ⊢ (iprop(∃ f, acc1Loc d c ↦{fullShare} f) : sProp 𝕄) := by
  rw [← bigSep_univ_prod (fun x : Fin 16 × Fin 7 => iprop(∃ f, acc1Loc d c ↦[seg (N := 114688) (16384 * x.2.val + 1024 * x.1.val) 1024]{fullShare} f))]
  refine (bigSep_exists_pi Finset.univ (fun (x : Fin 16 × Fin 7) (f : Buf (Elt F) (acc1Loc d c)) =>
    (acc1Loc d c ↦[seg (N := 114688) (16384 * x.2.val + 1024 * x.1.val) 1024]{fullShare} f : sProp 𝕄))).trans ?_
  iintro ⟨%fs, H⟩
  ihave H' := (pointsTo_biUnion_join Finset.univ (fun x : Fin 16 × Fin 7 => seg (N := 114688) (16384 * x.2.val + 1024 * x.1.val) 1024) fs (fs (0, 0)) blocks_disjoint) $$ H
  icases H' with ⟨%g, -, Hg⟩
  rw [blocks_cover]
  iexists g; iexact Hg

omit [FloatOps F] in
/-- A persistent fact is had once per member of any family. -/
theorem bigSep_const_persistent {I : Type} [DecidableEq I] {R : sProp 𝕄} [BI.Persistent R] (s : Finset I) :
    R ⊢ bigSep s fun _ => R := by
  induction s using Finset.induction_on with
  | empty => rw [bigSep_empty]; exact fun _ _ => trivial
  | insert a s ha ih =>
    rw [SparseCore.bigSep_insert' ha]
    iintro #HR
    isplitl
    · iexact HR
    · iapply ih; iexact HR

theorem split1 (d : Dev nD) (c : Fin 2) :
    iprop(st1 m d c ∗ ownBufs (S d (cT c))) ⊢ |={Set.univ}=> iprop((bigSep Finset.univ fun i : Fin 16 => go1 m d c i)
      ∗ ((bigSep Finset.univ fun i : Fin 16 => td1 m d c i) -∗ iprop(dn1 m d c ∗ ownBufs (S d (cT c))))) := by
  unfold st1 go1 td1 dn1 bpos
  rw [ownBufs_S1, p1_pieces, p1_pieces]
  simp only [bigSep_sep']
  iintro ⟨⟨Hxt, Hw, Hp, Hat, #Hr⟩, ⟨%fa, Hacc⟩, Hrest⟩
  ihave Hxt' := (pointsTo_toks_split (shC c) 16) $$ Hxt
  icases Hxt' with ⟨Hxt0, Hxts⟩
  ihave Hw' := (pointsTo_toks_split (shC c) 16) $$ Hw
  icases Hw' with ⟨Hw0, Hws⟩
  ihave Hrows := (Entails.of_eq (acc1_rows d (cT c) fa)) $$ Hacc
  imodintro
  isplitl [Hxts Hws Hp Hrows Hat]
  · isplitl [Hxts]; · iexact Hxts
    isplitl [Hws]; · iexact Hws
    isplitl [Hp]; · iexact Hp
    isplitl [Hrows]
    · rw [← bigSep_fin_le (show 7 ≤ 16 by decide) (fun i : Fin 16 => iprop(∃ f, acc1Loc d (cT c) ↦[seg (N := 114688) (16384 * i.val) 16384]{fullShare} f))]
      iapply (SparseCore.ent (bigSep_mono (Φ := fun n : Fin 7 => (acc1Loc d (cT c) ↦[seg (N := 114688) (16384 * n.val) 16384]{fullShare} fa : sProp 𝕄))
        (Ψ := fun n : Fin 7 => iprop(∃ f, acc1Loc d (cT c) ↦[seg (N := 114688) (16384 * (n.castLE (show 7 ≤ 16 by decide)).val) 16384]{fullShare} f))
        fun n _ => BI.BIClass.exists_intro (Φ := fun f => (acc1Loc d (cT c) ↦[seg (N := 114688) (16384 * n.val) 16384]{fullShare} f : sProp 𝕄)) fa))
      iexact Hrows
    isplitl [Hat]; · iexact Hat
    iapply (bigSep_const_persistent (R := bigSep Finset.univ fun j : Fin 16 => reached EB (bcell d (cT c) (jt j)) 1) (Finset.univ : Finset (Fin 16)))
    iexact Hr
  iintro ⟨Hxts, Hws, Hp, Hblocks⟩
  isplitr [Hblocks Hrest]
  · isplitl [Hxt0 Hxts]
    · iapply (pointsTo_toks_join (shC c) 16); isplitl [Hxt0] <;> iassumption
    isplitl [Hw0 Hws]
    · iapply (pointsTo_toks_join (shC c) 16); isplitl [Hw0] <;> iassumption
    iexact Hp
  isplitl [Hblocks]; · iapply (acc1_blocks_join d (cT c)); iexact Hblocks
  iexact Hrest

/-! ## The launch theorem's hypothesis, per lookup -/

omit [FloatOps F] in
theorem bigSep_tasks (q : Fin 2) (Φ : Fin 16 → sProp 𝕄) :
    (bigSep Finset.univ fun i : Fin ((K (F := F)).nSub q) => Φ (iN q i)) = bigSep Finset.univ Φ := by
  fin_cases q <;> exact bigSep_congr fun _ _ => congrArg Φ (Fin.ext rfl)

theorem vecSplit0 : (K (F := F)).VecSplit (P m) 0 := by
  intro d c
  show iprop(st0 m d (cN 0 c) ∗ ownBufs (S d (cT (cN 0 c)))) ⊢ |={Set.univ}=> iprop(
      (bigSep Finset.univ fun i : Fin ((K (F := F)).nSub 0) => go0 m d (cN 0 c) (iN 0 i))
      ∗ ((bigSep Finset.univ fun i : Fin ((K (F := F)).nSub 0) => td0 m d (cN 0 c) (iN 0 i)) -∗ iprop(dn0 m d (cN 0 c) ∗ ownBufs (S d (cT (cN 0 c))))))
  rw [bigSep_tasks (F := F) 0 (fun i => go0 m d (cN 0 c) i), bigSep_tasks (F := F) 0 (fun i => td0 m d (cN 0 c) i)]
  exact split0 m d (cN 0 c)

theorem vecSplit1 : (K (F := F)).VecSplit (P m) 1 := by
  intro d c
  show iprop(st1 m d (cN 1 c) ∗ ownBufs (S d (cT (cN 1 c)))) ⊢ |={Set.univ}=> iprop(
      (bigSep Finset.univ fun i : Fin ((K (F := F)).nSub 1) => go1 m d (cN 1 c) (iN 1 i))
      ∗ ((bigSep Finset.univ fun i : Fin ((K (F := F)).nSub 1) => td1 m d (cN 1 c) (iN 1 i)) -∗ iprop(dn1 m d (cN 1 c) ∗ ownBufs (S d (cT (cN 1 c))))))
  rw [bigSep_tasks (F := F) 1 (fun i => go1 m d (cN 1 c) i), bigSep_tasks (F := F) 1 (fun i => td1 m d (cN 1 c) i)]
  exact split1 m d (cN 1 c)

end Cert.Proof.KI

end
-- ==== Proof.KI.Elem.lean ====
/-
  The launch element of the ghost state, and what the launch deals each thread from it.

  The element is three rounds libraries side by side — the launch handshakes', the barrier cells', the TensorCore
  pipeline's staging cells' — and the local transfers' counters. The barrier cells are one per tile; their tokens one
  per (cell, lookup, arriving tile). From the barrier library the launch allocates every cell's invariant at once
  (a tile may signal a sibling whose task has not begun), and deals each tile, per lookup, its sixteen duty tokens
  and the credit for the sixteen units of its own round; for lookup 0 also its position at the origin of round 0.
  The sixteen units a tile's round expects are the one unit each of the sixteen tiles of its SparseCore owes it:
  regrouping the credit is a sum over the tiles swapped with a sum over the cells.
-/
import proofs.«207420_g80582176408339_cont_9to1c4b_743_56_alg».proof.Proof.KI.Common

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (m : (ℓ : Loc nD τ sig) → Buf (Elt F) ℓ)

/-! ## The barrier cells and tokens as finite sets; the element -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell for lookup `q`, for every pair of tiles of a SparseCore and both lookups. -/
def bToks : Finset (GSem nD τ sig × ℕ × ℕ) :=
  Finset.univ.image fun x : (DCI × Fin 16) × Fin 2 => (bcell x.1.1.1 x.1.1.2.1 (jt x.1.2), x.2.val, x.1.1.2.2.val)

def u₀ : UU :=
  (initOf (K (F := F)).hsCells (K (F := F)).hsToks,
    (initOf bCells bToks, (initOf (Pipeline.cells (nD := nD) (τ := τ) cfgs Gen.cellOf_inj) (Pipeline.launchToks (nD := nD) (τ := τ) cfgs Gen.cellOf_inj), 1)))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- The element is the three libraries' elements side by side. -/
theorem ownU_split (a : UH) (b : UB) (p : UP) :
    (ownU ((a, (b, (p, 1))) : UU) : sProp 𝕄) ⊢ iprop(BI.own (EH a) ∗ BI.own (EB b) ∗ BI.own (EP p)) := by
  have s1 : (ownU ((a, (b, (p, 1))) : UU) : sProp 𝕄) ⊢ iprop(BI.own (EH a) ∗ ownU ((1, (b, (p, 1))) : UU)) :=
    BI.own_op_elim ((uEmb (nD := nD) (sig := sig) (Ix := HIx 2) (Val := Elt F) (Name := ℕ) (U := UU) (Lvl := ℕ)).toEmb.op_of_mem
      (Prod.mk_mem_op (URA.mem_op_one a) (URA.mem_one_op (b, (p, (1 : Counters))))))
  have s2 : (ownU ((1, (b, (p, 1))) : UU) : sProp 𝕄) ⊢ iprop(BI.own (EB b) ∗ BI.own (EP p)) :=
    BI.own_op_elim ((uEmb (nD := nD) (sig := sig) (Ix := HIx 2) (Val := Elt F) (Name := ℕ) (U := UU) (Lvl := ℕ)).toEmb.op_of_mem
      (Prod.mk_mem_op (URA.mem_op_one (1 : UH)) (Prod.mk_mem_op (URA.mem_op_one b) (URA.mem_one_op (p, (1 : Counters))))))
  exact s1.trans (sep_mono .rfl s2)

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

variable [FloatOps F]

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

/-! ## The credit, regrouped: each tile the sixteen units of its own cell, per lookup -/

omit [FloatOps F] in
theorem sum_tallyAt_one (g : GSem nD τ sig) (ι : HIx 2) : ∀ n : ℕ, ∑ _x : Fin n, tallyAt g ι 1 = (tallyAt g ι n : CellTallies nD τ sig (HIx 2))
  | 0 => by rw [Finset.univ_eq_empty, Finset.sum_empty, tallyAt_zero]
  | n + 1 => by rw [Fin.sum_univ_castSucc, sum_tallyAt_one g ι n, tallyAt_add]

omit [FloatOps F] in
/-- A family over a SparseCore's sixteen tile numbers is one over its tiles. -/
theorem bigSep_jt {M : Type} [URA M] (X : Fin τ.nSub → sProp M) : bigSep Finset.univ (fun j : Fin 16 => X (jt j)) = bigSep Finset.univ X :=
  bigSep_congr (s := (Finset.univ : Finset (Fin 16))) fun _ _ => rfl

omit [FloatOps F] in
theorem bigSep_fin2 {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

/-- What a tile owes over the whole program for the kernels' own protocol: its sixteen arrivals at each lookup's barrier. -/
theorem oxFrom_V (d : Dev nD) (c : Fin τ.nSC) (i : Fin τ.nSub) : (P (F := F) m).oxFrom 0 (V d c i) = oxV 0 d c + oxV 1 d c := by
  rw [show (0 : ℕ) = (0 : Fin 2).val from rfl, (P m).oxFrom_step, show (0 : Fin 2).val + 1 = (1 : Fin 2).val from rfl, (P m).oxFrom_step,
    (P m).oxFrom_end _ (n := (1 : Fin 2).val + 1) (by decide), add_zero]
  rfl

omit [FloatOps F] in
/-- One unit from each of the sixteen tiles on each of the sixteen cells is sixteen units on each cell. -/
theorem cred_tiles (q : Fin 2) (d : Dev nD) (c : Fin τ.nSC) :
    (bigSep Finset.univ fun _i : Fin τ.nSub => (cred (oxV q d c) : sProp 𝕄))
      = bigSep Finset.univ fun i : Fin τ.nSub => cred (tallyAt (bcell d c i) (some q) 16) := by
  unfold oxV
  simp only [SparseCore.Cfg.cred_finsum]
  rw [bigSep_univ_comm, ← bigSep_jt (fun i : Fin τ.nSub => (cred (tallyAt (bcell d c i) (some q) 16) : sProp 𝕄))]
  refine bigSep_congr fun j _ => ?_
  rw [← SparseCore.Cfg.cred_finsum]
  exact congrArg _ (sum_tallyAt_one (bcell d c (jt j)) (some q) 16)

theorem creds_b : ((P (F := F) m).oxCred : sProp 𝕄)
    ⊢ bigSep Finset.univ fun dci : DCI => iprop(cred (tallyAt (bcell₃ dci) (some 0) 16) ∗ cred (tallyAt (bcell₃ dci) (some 1) 16)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => iprop(cred (tallyAt (bcell₃ dci) (some 0) 16) ∗ cred (tallyAt (bcell₃ dci) (some 1) 16)))]
  refine bigSep_mono fun d _ => ?_
  rw [bigSep_univ_prod, bigSep_univ_prod (fun ci : Fin τ.nSC × Fin τ.nSub => iprop(cred (tallyAt (bcell₃ (d, ci)) (some 0) 16) ∗ cred (tallyAt (bcell₃ (d, ci)) (some 1) 16)))]
  refine bigSep_mono fun c _ => ?_
  dsimp only
  simp only [oxFrom_V, SparseCore.Cfg.cred_add_eq]
  rw [bigSep_sep', bigSep_sep', cred_tiles 0, cred_tiles 1]
  exact BI.Entails.refl _

/-! ## The tokens as nested families -/

omit [FloatOps F] in
theorem toks_eq : (bigSep bToks fun x => (dutyTok EB x.1 x.2.1 x.2.2 : sProp 𝕄))
    = bigSep Finset.univ fun dci : DCI => bigSep Finset.univ fun j : Fin 16 => bigSep Finset.univ fun q : Fin 2 =>
        dutyTok EB (bcell dci.1 dci.2.1 (jt j)) q.val dci.2.2.val := by
  unfold bToks
  rw [SparseCore.bigSep_image_of_injOn (f := fun x : (DCI × Fin 16) × Fin 2 => (bcell x.1.1.1 x.1.1.2.1 (jt x.1.2), x.2.val, x.1.1.2.2.val)) ?inj
      (fun x => (dutyTok EB x.1 x.2.1 x.2.2 : sProp 𝕄)),
    bigSep_univ_prod (fun x : (DCI × Fin 16) × Fin 2 => (dutyTok EB (bcell x.1.1.1 x.1.1.2.1 (jt x.1.2)) x.2.val x.1.1.2.2.val : sProp 𝕄)),
    bigSep_univ_prod (fun a : DCI × Fin 16 => bigSep Finset.univ fun q : Fin 2 => (dutyTok EB (bcell a.1.1 a.1.2.1 (jt a.2)) q.val a.1.2.2.val : sProp 𝕄))]
  rintro ⟨⟨⟨d, c, i⟩, j⟩, q⟩ - ⟨⟨⟨d', c', i'⟩, j'⟩, q'⟩ - e
  have e1 := (Prod.mk.inj (Prod.mk.inj e).1).1
  have e2 : i.val = i'.val := (Prod.mk.inj (Prod.mk.inj e).2).2
  have e3 : q.val = q'.val := (Prod.mk.inj (Prod.mk.inj e).2).1
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  have hq' : q = q' := Fin.ext e3
  subst hq'
  rfl

/-! ## Each tile its kits -/

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin 16 => bigSep Finset.univ fun q : Fin 2 => dutyTok EB (bcell dci.1 dci.2.1 (jt j)) q.val dci.2.2.val)
    ∗ iprop(cred (tallyAt (bcell₃ dci) (some 0) 16) ∗ cred (tallyAt (bcell₃ dci) (some 1) 16)))

omit [FloatOps F] in
/-- A persistent resource beside a family goes to each member's derivation. -/
theorem bigSep_mono_with {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

/-- One tile's two kits out of those. -/
theorem kit_intro (dci : DCI) : iprop(shared (F := F) m ∗ mine (F := F) dci) ⊢ (iprop(bkit m 0 dci.1 dci.2.1 dci.2.2 ∗ bkit m 1 dci.1 dci.2.1 dci.2.2) : sProp 𝕄) := by
  obtain ⟨d, c, i⟩ := dci
  unfold bkit mine shared
  simp only [bigSep_sep', bigSep_fin2]
  iintro ⟨⟨#Hinv, #Hr⟩, Hat, ⟨Ht0, Ht1⟩, Hc0, Hc1⟩
  icases Hinv with ⟨%κ, Hinv⟩
  ihave #Hinv' := (show (bigSep Finset.univ fun x : DCI => cellInv EB (bRd (F := F) m) (κ (bcell₃ x)) (bcell₃ x))
      ⊢ (bigSep Finset.univ fun j : Fin 16 => cellInv EB (bRd (F := F) m) (κ (bcell d c (jt j))) (bcell d c (jt j)) : sProp 𝕄) from
    BI.bigSep_intro_persistent fun j _ => bigSep_elim (Φ := fun x : DCI => (cellInv EB (bRd (F := F) m) (κ (bcell₃ x)) (bcell₃ x) : sProp 𝕄))
      (i := (d, c, jt j)) (Finset.mem_univ _)) $$ Hinv
  ihave #Hr' := (show (bigSep Finset.univ fun x : DCI => reached EB (bcell₃ x) 0)
      ⊢ (bigSep Finset.univ fun j : Fin 16 => reached EB (bcell d c (jt j)) 0 : sProp 𝕄) from
    BI.bigSep_intro_persistent fun j _ => bigSep_elim (Φ := fun x : DCI => (reached EB (bcell₃ x) 0 : sProp 𝕄))
      (i := (d, c, jt j)) (Finset.mem_univ _)) $$ Hr
  isplitl [Hat Ht0 Hc0]
  · isplitr; · iexists κ; iexact Hinv'
    isplitl [Ht0]; · iexact Ht0
    isplitl [Hc0]; · iexact Hc0
    rw [if_pos (show ((0 : Fin 2).val = 0) from rfl)]
    isplitr; · iexact Hr'
    iexact Hat
  · isplitr; · iexists κ; iexact Hinv'
    isplitl [Ht1]; · iexact Ht1
    isplitl [Hc1]; · iexact Hc1
    rw [if_neg (show ¬ ((1 : Fin 2).val = 0) by decide)]
    iempintro

omit [FloatOps F] in
/-- The three families side by side are the family of each tile's own. -/
theorem mine_intro :
    iprop((bigSep Finset.univ fun x : DCI => atPos EB (bcell₃ x) 0 ∅ 0)
        ∗ (bigSep Finset.univ fun dci : DCI => bigSep Finset.univ fun j : Fin 16 => bigSep Finset.univ fun q : Fin 2 =>
            dutyTok EB (bcell dci.1 dci.2.1 (jt j)) q.val dci.2.2.val)
        ∗ (bigSep Finset.univ fun dci : DCI => iprop(cred (tallyAt (bcell₃ dci) (some 0) 16) ∗ cred (tallyAt (bcell₃ dci) (some 1) 16))))
      ⊢ (bigSep Finset.univ fun dci : DCI => mine (F := F) dci : sProp 𝕄) := by
  have e : (bigSep Finset.univ fun dci : DCI => mine (F := F) dci : sProp 𝕄)
      = iprop((bigSep Finset.univ fun x : DCI => atPos EB (bcell₃ x) 0 ∅ 0)
        ∗ (bigSep Finset.univ fun dci : DCI => bigSep Finset.univ fun j : Fin 16 => bigSep Finset.univ fun q : Fin 2 =>
            dutyTok EB (bcell dci.1 dci.2.1 (jt j)) q.val dci.2.2.val)
        ∗ (bigSep Finset.univ fun dci : DCI => iprop(cred (tallyAt (bcell₃ dci) (some 0) 16) ∗ cred (tallyAt (bcell₃ dci) (some 1) 16)))) := by
    unfold mine
    rw [bigSep_sep', bigSep_sep']
  rw [e]

/-- Each tile its two kits; the TensorCore and the sequencers are dealt nothing. -/
theorem kits_deal :
    iprop(shared (F := F) m ∗ (bigSep Finset.univ fun x : DCI => atPos EB (bcell₃ x) 0 ∅ 0)
        ∗ (bigSep Finset.univ fun dci : DCI => bigSep Finset.univ fun j : Fin 16 => bigSep Finset.univ fun q : Fin 2 =>
            dutyTok EB (bcell dci.1 dci.2.1 (jt j)) q.val dci.2.2.val)
        ∗ (bigSep Finset.univ fun dci : DCI => iprop(cred (tallyAt (bcell₃ dci) (some 0) 16) ∗ cred (tallyAt (bcell₃ dci) (some 1) 16))))
      ⊢ (bigSep Finset.univ fun thr : Thread nD τ => bigSep Finset.univ fun q : Fin 2 => (P (F := F) m).x q thr : sProp 𝕄) := by
  rw [SparseCore.Cfg.bigSep_threads (fun thr : Thread nD τ => bigSep Finset.univ fun q : Fin 2 => (P (F := F) m).x q thr)]
  have hT : (bigSep Finset.univ fun d : Dev nD => bigSep Finset.univ fun q : Fin 2 => (P (F := F) m).x q (SparseCore.T d)) = (iprop(emp) : sProp 𝕄) :=
    (bigSep_congr fun d _ => (bigSep_emp_const (Finset.univ : Finset (Fin 2)))).trans (bigSep_emp_const _)
  have hS : (bigSep Finset.univ fun dc : Dev nD × Fin τ.nSC => bigSep Finset.univ fun q : Fin 2 => (P (F := F) m).x q (S dc.1 dc.2)) = (iprop(emp) : sProp 𝕄) :=
    (bigSep_congr fun dc _ => (bigSep_emp_const (Finset.univ : Finset (Fin 2)))).trans (bigSep_emp_const _)
  have hV : ∀ dci : DCI, (bigSep Finset.univ fun q : Fin 2 => (P (F := F) m).x q (V dci.1 dci.2.1 dci.2.2))
      = (iprop(bkit m 0 dci.1 dci.2.1 dci.2.2 ∗ bkit m 1 dci.1 dci.2.1 dci.2.2) : sProp 𝕄) := fun dci => bigSep_fin2 _
  rw [hT, hS]
  simp only [hV]
  iintro ⟨#Hsh, Hat, Htok, Hcred⟩
  isplitr; · iempintro
  isplitr; · iempintro
  iapply (bigSep_mono_with (R := shared (F := F) m) (Φ := mine (F := F)) fun dci _ => kit_intro (F := F) m dci)
  isplitr; · iexact Hsh
  iapply (mine_intro (F := F))
  isplitl [Hat]; · iexact Hat
  isplitl [Htok]; · iexact Htok
  iexact Hcred

/-! ## The launch element -/

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun d : Dev nD => mainG (F := F) d)
        ∗ (bigSep Finset.univ fun thr : Thread nD τ => bigSep Finset.univ fun q : Fin 2 => (P (F := F) m).x q thr) : sProp 𝕄) := by
  unfold u₀
  iintro ⟨Hu, Hcred, Hfree⟩
  ihave H := (ownU_split _ _ _) $$ Hu
  icases H with ⟨HH, HB, HP⟩
  imod (Rounds.fund EB (bRd (F := F) m) bCells bToks) $$ HB with ⟨Hst, #Hr, Hat, Htok⟩
  imod (Pipeline.fund_ghost (nD := nD) (τ := τ) cfgs EP Gen.cellOf_inj) $$ HP with ⟨Hg, Ht⟩
  ihave Hsems := (sems_b (F := F)) $$ Hfree
  imod (invs_b m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hg Ht]
  · rw [bigSep_sep']
    isplitl [Hg] <;> iassumption
  iapply (kits_deal m)
  isplitr
  · isplitl; · iexists κ; iexact Hinv'
    iexact Hr'
  isplitl [Hat']; · iexact Hat'
  isplitl [Htok']; · iexact Htok'
  iexact Hcred'

end Cert.Proof.KI

end
-- ==== Proof.KI.Run.lean ====
/-
  The program's run: every weakly fair execution of the TensorCore's @main beside the SparseCores' threads terminates,
  nothing faulting, with the result array at `RES` — one term of the launch memory's three arguments — and the
  arguments unchanged. It is the launch theorem applied to the parts: the two lookups' tile obligations, how each
  SparseCore's operands split among its tiles, the launch element, and @main on the TensorCore. What @main leaves
  (`FIN`) is read off the final memory by agreement of each held array with the machine's state.
-/
import proofs.«207420_g80582176408339_cont_9to1c4b_743_56_alg».proof.Proof.KI.Split
import proofs.«207420_g80582176408339_cont_9to1c4b_743_56_alg».proof.Proof.KI.Elem

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (ρ : Dev nD → PrngReg)

/-- What the final memory holds on device `d`. -/
def fq (d : Dev nD) (s' : Phys nD τ sig (Elt F)) : Prop :=
  s'.mem.mem (resLoc d) = RES m d ∧ s'.mem.mem (xLoc d) = m (xLoc d) ∧ s'.mem.mem (wLoc d) = m (wLoc d) ∧ s'.mem.mem (bLoc d) = m (bLoc d)

theorem hfin (d : Dev nD) (s' : Phys nD τ sig (Elt F)) : iprop(FIN m d ∗ SI s') ⊢ (⌜fq m d s'⌝ : sProp 𝕄) := by
  iintro ⟨⟨Hx, Hw, Hb, Hr⟩, HSI⟩
  icombine HSI Hx gives %hx
  icombine HSI Hw gives %hw
  icombine HSI Hb gives %hb
  icombine HSI Hr gives %hr
  ipureintro
  exact ⟨funext fun i => hr i (Finset.mem_univ i), funext fun i => hx i (Finset.mem_univ i), funext fun i => hw i (Finset.mem_univ i),
    funext fun i => hb i (Finset.mem_univ i)⟩

/-- The run's post: on every device the result at `RES`, the arguments at their launch contents. -/
def QC : PUnit × MemSt nD τ sig (Elt F) → Prop := fun r => ∀ c : Dev nD,
  r.2.mem (resLoc c) = RES m c ∧ r.2.mem (xLoc c) = m (xLoc c) ∧ r.2.mem (wLoc c) = m (wLoc c) ∧ r.2.mem (bLoc c) = m (bLoc c)

/-- What is owed of @main on the TensorCore (the launch theorem's hypothesis about it). -/
def MainObl : Prop := ∀ (κ : GSem nD τ sig → ℕ) (d : Dev nD),
  iprop((K (F := F)).ctx EH (P m) κ ∗ (K (F := F)).tcSt EH d 0 ∗ (K (F := F)).tcRes m ρ d ∗ mainG (F := F) d)
    ⊢ wp frame (wpE ((K (F := F)).defs (D (F := F))) 𝒱 (SparseCore.T d) none) Set.univ (main d)
        fun _ => iprop((K (F := F)).tcSt EH d 2 ∗ FIN m d)

/-- The launch theorem applied. -/
theorem run_of_parts [∀ e, Nonempty (Elt F e)]
    (ht0 : (K (F := F)).TileObl (D (F := F)) 𝒱 (P m) v₀ 0) (ht1 : (K (F := F)).TileObl (D (F := F)) 𝒱 (P m) v₀ 1)
    (hm : MainObl m ρ) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => ht0 | 1 => ht1)
    (fun q _ => match q with | 0 => vecSplit0 m | 1 => vecSplit1 m)
    m ρ main (fun d => mainG (F := F) d) (FIN m) (u₀ (F := F)) (hu₀ m) hm (fq m) (hfin m) (QC m) (fun _ h => h)

end Cert.Proof.KI

end
-- ==== Proof.KI.Value.lean ====
/-
  The value the kernel's parts leave, read as the specification.

  Two facts about the arrays the lookups read. The index matrix they read is the transpose of the index argument, so
  its entry (f, b) is x[b, f]; with the stated domain of the inputs every such entry, read unsigned, is below 100000.
  The two half tables are rows 0 … 1299999 and rows 1300000 … 2599999 of the table, flattened, so entry n of half q
  is the table's row 1300000 q + n.

  Then the sum. Lookup q on SparseCore c puts in row r of its shared buffer the looked-up entry of field
  13 q + 7 c + r (r + c < 7), whose row in its half table is (7 c + r) * 100000 + x[b, 13 q + 7 c + r]: that is the
  table's row (13 q + 7 c + r) * 100000 + x[b, 13 q + 7 c + r], the specification's row for that field. The one row
  left over (c = 1, r = 6) holds the zero word, which is 0. The fields 13 q + 7 c + r are 0 … 6, 7 … 12, 13 … 19,
  20 … 25: each of the 26 once. Addition on the extended reals is commutative and associative with unit 0, so the
  28 numbers added seven at a time, then four partial sums, then the bias, are the sum over the 26 fields plus the
  bias.
-/
import proofs.«207420_g80582176408339_cont_9to1c4b_743_56_alg».proof.Proof.KI.Common
import proofs.«207420_g80582176408339_cont_9to1c4b_743_56_alg».proof.Proof.RefPre
import proofs.«207420_g80582176408339_cont_9to1c4b_743_56_alg».proof.Proof.Spec
import Idealize.ShloMosaic.Lib.Pipeline.Value
import Idealize.ShloMosaic.PureOps.Ideal.Laws

noncomputable section

namespace Cert.Proof.KI

open Cert.KernelIdeal Cert.KernelIdeal.Gen

open Idealize.ShloMosaic Idealize.ShloMosaic.ValueIdx

/-! ## For every float instance: the arrays the lookups read, and the domain of the indices -/

section AnyInstance
variable {F : FTy → Type} [FloatOps F]

/-- The index matrix the lookups read is the index argument transposed. -/
theorem XT_apply (m : (ℓ : Loc nD τ sig) → Buf (Elt F) ℓ) (d : Dev nD) (f : Fin 26) (b : Fin 16384) :
    XT m d (ix2 f b) = m (xLoc d) (ix2 b f) := by
  unfold XT
  exact transpose_apply _ _ _ _ _ (fun a => by
    match a with
    | ⟨0, _⟩ => rfl
    | ⟨1, _⟩ => rfl)

/-- every index names a row of its field, from the precondition on the index matrix (XT is the transpose: xtAt XT f b is x[b, f]) -/
theorem inRange_of_pre {F : FTy → Type} [FloatOps F] (m : (ℓ : Loc nD τ sig) → Buf (Elt F) ℓ)
    (h : ∀ d : Dev nD, Cert.Pre_input_domain.fn (F := F) (m (xLoc d)) (m (wLoc d)) (m (bLoc d)) = (fun _ => 1#1)) : InRange m := by
  intro d f b
  rw [XT_apply]
  exact Cert.RefPre.x_in_range _ _ _ (h d) b f

/-- The number the index matrix holds for field f and batch row b is x[b, f] read unsigned. -/
theorem xtAt_XT (m : (ℓ : Loc nD τ sig) → Buf (Elt F) ℓ) (d : Dev nD) (f : Fin 26) (b : Fin 16384) :
    xtAt (XT m d) f.val b.val = (m (xLoc d) (ix2 b f)).toNat := by
  unfold xtAt
  rw [dif_pos ⟨f.isLt, b.isLt⟩]
  exact congrArg BitVec.toNat (XT_apply m d f b)

/-- Entry n of the first half table is the table's row n. -/
theorem WH0_apply (m : (ℓ : Loc nD τ sig) → Buf (Elt F) ℓ) (d : Dev nD) (n : Fin 1300000) :
    WH0 m d (ix1 n) = m (wLoc d) (ix2 (⟨n.val, by omega⟩ : Fin 2600000) (0 : Fin 1)) := by
  unfold WH0
  refine (shapeCast_apply _ _ (ix1 n) (ix2 n (0 : Fin 1)) ?_).trans ?_
  · rw [Shape.rowMajor_val_two, Shape.rowMajor_val_one]
    show n.val * 1 + 0 = n.val
    omega
  · exact extractStridedSlice_apply _ _ _ _ _ (fun a => by
      match a with
      | ⟨0, _⟩ => exact (Nat.zero_add _).symm
      | ⟨1, _⟩ => rfl)

/-- Entry n of the second half table is the table's row 1300000 + n. -/
theorem WH1_apply (m : (ℓ : Loc nD τ sig) → Buf (Elt F) ℓ) (d : Dev nD) (n : Fin 1300000) :
    WH1 m d (ix1 n) = m (wLoc d) (ix2 (⟨1300000 + n.val, by omega⟩ : Fin 2600000) (0 : Fin 1)) := by
  unfold WH1
  refine (shapeCast_apply _ _ (ix1 n) (ix2 n (0 : Fin 1)) ?_).trans ?_
  · rw [Shape.rowMajor_val_two, Shape.rowMajor_val_one]
    show n.val * 1 + 0 = n.val
    omega
  · exact extractStridedSlice_apply _ _ _ _ _ (fun a => by
      match a with
      | ⟨0, _⟩ => rfl
      | ⟨1, _⟩ => rfl)

theorem whAt_WH0 (m : (ℓ : Loc nD τ sig) → Buf (Elt F) ℓ) (d : Dev nD) (n : Nat) (h : n < 1300000) :
    whAt (WH0 m d) n = m (wLoc d) (ix2 (⟨n, by omega⟩ : Fin 2600000) (0 : Fin 1)) := by
  unfold whAt
  rw [dif_pos h]
  exact WH0_apply m d ⟨n, h⟩

theorem whAt_WH1 (m : (ℓ : Loc nD τ sig) → Buf (Elt F) ℓ) (d : Dev nD) (n : Nat) (h : n < 1300000) :
    whAt (WH1 m d) n = m (wLoc d) (ix2 (⟨1300000 + n, by omega⟩ : Fin 2600000) (0 : Fin 1)) := by
  unfold whAt
  rw [dif_pos h]
  exact WH1_apply m d ⟨n, h⟩

/-- The row of a SparseCore's shared buffer that no tile fills with looked-up numbers holds the zero word. -/
theorem acc_left_over (xt : IVec S26x16384 32) (wh : FVec F S1300000 .f32) (fb b : Nat) :
    accAt xt wh fb 1 6 b = Scalar.ofBits .f32 0x00000000#32 := if_neg (by decide)

end AnyInstance

/-! ## At the ideal instance: the rows are the specification's, and the sums agree -/

/-- The specification's looked-up number of field n for batch row b; zero for a number that names no field. -/
def fieldAt (x : IVec ⟨2, ![16384, 26]⟩ 32) (w : FVec Ideal ⟨2, ![2600000, 1]⟩ .f32) (b : Fin 16384) (n : Nat) : Ideal .f32 :=
  if h : n < 26 then Cert.Spec.wAt w (Cert.Spec.rowOfField x b ⟨n, h⟩) else 0

/-- For an index below 100000 it is the table's entry at row n * 100000 + x[b, n]. -/
theorem fieldAt_eq (x : IVec ⟨2, ![16384, 26]⟩ 32) (w : FVec Ideal ⟨2, ![2600000, 1]⟩ .f32) (b : Fin 16384) (n : Nat)
    (hn : n < 26) (hx : (x (ix2 b (⟨n, hn⟩ : Fin 26))).toNat < 100000) :
    fieldAt x w b n
      = w (ix2 (⟨n * 100000 + (x (ix2 b (⟨n, hn⟩ : Fin 26))).toNat, by omega⟩ : Fin 2600000) (0 : Fin 1)) := by
  unfold fieldAt
  rw [dif_pos hn]
  unfold Cert.Spec.wAt Cert.Spec.rowOfField
  exact dif_pos _

section AtIdeal
variable (m : (ℓ : Loc nD τ sig) → Buf (Elt Ideal) ℓ) (hx : InRange m) (d : Dev nD) (b : Fin 16384)
include hx

/-- Row r of SparseCore c's shared buffer in the first lookup holds the specification's number of field 7 c + r. -/
theorem acc0_eq (c r n : Nat) (hn : n = 0 + 7 * c + r) (hrc : r + c < 7) (hc : c < 2) :
    accAt (XT m d) (WH0 m d) 0 c r b.val = fieldAt (m (xLoc d)) (m (wLoc d)) b n := by
  subst hn
  have hf : 0 + 7 * c + r < 26 := by omega
  have hxv : (m (xLoc d) (ix2 b (⟨0 + 7 * c + r, hf⟩ : Fin 26))).toNat < 100000 := by
    have := hx d ⟨0 + 7 * c + r, hf⟩ b
    rwa [XT_apply] at this
  have hlt : (7 * c + r) * 100000 + (m (xLoc d) (ix2 b (⟨0 + 7 * c + r, hf⟩ : Fin 26))).toNat < 1300000 := by omega
  unfold accAt
  rw [if_pos hrc, xtAt_XT m d ⟨0 + 7 * c + r, hf⟩ b, whAt_WH0 m d _ hlt, fieldAt_eq _ _ b _ hf hxv]
  exact congrArg (fun k : Fin 2600000 => m (wLoc d) (ix2 k (0 : Fin 1))) (Fin.ext (by simp only []; omega))

/-- The same in the second lookup, over the second half table: field 13 + 7 c + r. -/
theorem acc1_eq (c r n : Nat) (hn : n = 13 + 7 * c + r) (hrc : r + c < 7) (hc : c < 2) :
    accAt (XT m d) (WH1 m d) 13 c r b.val = fieldAt (m (xLoc d)) (m (wLoc d)) b n := by
  subst hn
  have hf : 13 + 7 * c + r < 26 := by omega
  have hxv : (m (xLoc d) (ix2 b (⟨13 + 7 * c + r, hf⟩ : Fin 26))).toNat < 100000 := by
    have := hx d ⟨13 + 7 * c + r, hf⟩ b
    rwa [XT_apply] at this
  have hlt : (7 * c + r) * 100000 + (m (xLoc d) (ix2 b (⟨13 + 7 * c + r, hf⟩ : Fin 26))).toNat < 1300000 := by omega
  unfold accAt
  rw [if_pos hrc, xtAt_XT m d ⟨13 + 7 * c + r, hf⟩ b, whAt_WH1 m d _ hlt, fieldAt_eq _ _ b _ hf hxv]
  exact congrArg (fun k : Fin 2600000 => m (wLoc d) (ix2 k (0 : Fin 1))) (Fin.ext (by simp only []; omega))

end AtIdeal

/-- at the ideal instance the kernel's result is the specification -/
theorem RES_eq_G (m : (ℓ : Loc nD τ sig) → Buf (Elt Ideal) ℓ) (hx : InRange m) (d : Dev nD) :
    RES m d = Cert.Spec.G (m (xLoc d)) (m (wLoc d)) (m (bLoc d)) := by
  funext i
  obtain ⟨b, z, rfl⟩ : ∃ (b : Fin 16384) (z : Fin 1), i = ix2 b z := ⟨i 0, i 1, eq_ix2 i⟩
  have hsum : (∑ f : Fin 26, Cert.Spec.wAt (m (wLoc d)) (Cert.Spec.rowOfField (m (xLoc d)) b f))
      = ∑ n ∈ Finset.range 26, fieldAt (m (xLoc d)) (m (wLoc d)) b n := by
    rw [← Fin.sum_univ_eq_sum_range]
    exact Finset.sum_congr rfl fun f _ => by unfold fieldAt; rw [dif_pos f.isLt]
  have hz : (Scalar.ofBits .f32 0x00000000#32 : Ideal .f32) = 0 := Ideal.ofBits_zero_f32
  show resAt (XT m d) (WH0 m d) (WH1 m d) (m (bLoc d) (ix1 (0 : Fin 1))) b.val
    = (∑ f : Fin 26, Cert.Spec.wAt (m (wLoc d)) (Cert.Spec.rowOfField (m (xLoc d)) b f)) + m (bLoc d) (ix1 (0 : Fin 1))
  rw [hsum]
  unfold resAt partAt
  rw [acc_left_over, acc_left_over, hz,
    acc0_eq m hx d b 0 0 0 rfl (by decide) (by decide),
    acc0_eq m hx d b 0 1 1 rfl (by decide) (by decide),
    acc0_eq m hx d b 0 2 2 rfl (by decide) (by decide),
    acc0_eq m hx d b 0 3 3 rfl (by decide) (by decide),
    acc0_eq m hx d b 0 4 4 rfl (by decide) (by decide),
    acc0_eq m hx d b 0 5 5 rfl (by decide) (by decide),
    acc0_eq m hx d b 0 6 6 rfl (by decide) (by decide),
    acc0_eq m hx d b 1 0 7 rfl (by decide) (by decide),
    acc0_eq m hx d b 1 1 8 rfl (by decide) (by decide),
    acc0_eq m hx d b 1 2 9 rfl (by decide) (by decide),
    acc0_eq m hx d b 1 3 10 rfl (by decide) (by decide),
    acc0_eq m hx d b 1 4 11 rfl (by decide) (by decide),
    acc0_eq m hx d b 1 5 12 rfl (by decide) (by decide),
    acc1_eq m hx d b 0 0 13 rfl (by decide) (by decide),
    acc1_eq m hx d b 0 1 14 rfl (by decide) (by decide),
    acc1_eq m hx d b 0 2 15 rfl (by decide) (by decide),
    acc1_eq m hx d b 0 3 16 rfl (by decide) (by decide),
    acc1_eq m hx d b 0 4 17 rfl (by decide) (by decide),
    acc1_eq m hx d b 0 5 18 rfl (by decide) (by decide),
    acc1_eq m hx d b 0 6 19 rfl (by decide) (by decide),
    acc1_eq m hx d b 1 0 20 rfl (by decide) (by decide),
    acc1_eq m hx d b 1 1 21 rfl (by decide) (by decide),
    acc1_eq m hx d b 1 2 22 rfl (by decide) (by decide),
    acc1_eq m hx d b 1 3 23 rfl (by decide) (by decide),
    acc1_eq m hx d b 1 4 24 rfl (by decide) (by decide),
    acc1_eq m hx d b 1 5 25 rfl (by decide) (by decide)]
  simp only [Finset.sum_range_succ, Finset.sum_range_zero, Ideal.addf_def, add_zero, zero_add]
  ac_rfl

end Cert.Proof.KI

end
-- ==== Proof.KI.Tile0Pieces.lean ====
/-
  Lookup 0, one tile: the pieces its task's proof is assembled from.
  A tile's coordinates; the slice of a flat array at a unit rectangle as a segment; the tile's own twenty-one DMA
  semaphores and five scratch buffers taken out of its own cells and references one by one; and the barrier's
  payloads: a tile that owns no row (tiles 7 to 15) hands nothing over, and every tile's own round collects its
  column block of each of the seven rows of the shared buffer at the looked-up values.
-/
import proofs.«207420_g80582176408339_cont_9to1c4b_743_56_alg».proof.Proof.KI.Segs

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T0

/-! ## A tile's coordinates -/

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

/-! ## The slice of a flat array at a unit rectangle is a segment -/

omit [FloatOps F] in
theorem unit_set_seg {N : Nat} (off size : Fin 1 → Nat) (inb : ∀ a, off a + size a ≤ (⟨1, ![N]⟩ : Shape).size a) :
    (Rect.unit (s := (⟨1, ![N]⟩ : Shape)) off size inb).set = seg (N := N) (off 0) (size 0) := by
  ext i
  rw [Rect.mem_set_unit, mem_seg]
  constructor
  · intro h; exact h 0
  · intro h a
    obtain rfl : a = 0 := Subsingleton.elim _ _
    exact h

/-! ## The tile's own semaphores and buffers, one by one -/

/-- The tile's twenty-one DMA semaphores: the kernel's four and the seventeen of its scoped regions. -/
def semLocs : List (SemLoc sig) :=
  [.dma cc0_scratch6.sem, .dma cc0_scratch7.sem, .dma cc0_scratch8.sem, .dma cc0_scratch9.sem,
   .dma cc0_scoped0.sem, .dma cc0_scoped1.sem, .dma cc0_scoped2.sem, .dma cc0_scoped3.sem, .dma cc0_scoped4.sem, .dma cc0_scoped5.sem,
   .dma cc0_scoped6.sem, .dma cc0_scoped7.sem, .dma cc0_scoped8.sem, .dma cc0_scoped9.sem, .dma cc0_scoped10.sem, .dma cc0_scoped11.sem,
   .dma cc0_scoped12.sem, .dma cc0_scoped13.sem, .dma cc0_scoped14.sem, .dma cc0_scoped15.sem, .dma cc0_scoped16.sem]

omit [FloatOps F] in
theorem semLocs_nodup : semLocs.Nodup := by decide
omit [FloatOps F] in
theorem semLocs_scoped : ∀ sm ∈ semLocs, (sm : SemLoc sig).isScoped .scVector = true := by decide

abbrev semCells (thr : Thread nD τ) : List (GSem nD τ sig) := semLocs.map fun sm => (thr, sm)

omit [FloatOps F] in
theorem semCells_nodup (thr : Thread nD τ) : (semCells thr).Nodup :=
  semLocs_nodup.map fun _ _ e => (Prod.mk.inj e).2

omit [FloatOps F] in
theorem semCells_sub (d : Dev nD) (c : Fin τ.nSC) (i : Fin τ.nSub) : (semCells (V d c i)).toFinset ⊆ ownCells (V d c i) := by
  intro g hg
  rw [List.mem_toFinset, List.mem_map] at hg
  obtain ⟨sm, hsm, rfl⟩ := hg
  exact mem_ownCells.mpr ⟨rfl, semLocs_scoped sm hsm⟩

omit [FloatOps F] in
theorem ownSems0_V (d : Dev nD) (c : Fin τ.nSC) (i : Fin τ.nSub) :
    (ownSems0 (V d c i) : sProp 𝕄)
      = iprop((semVal ((V d c i, SemLoc.dma cc0_scratch6.sem) : GSem nD τ sig) 0
          ∗ semVal ((V d c i, SemLoc.dma cc0_scratch7.sem) : GSem nD τ sig) 0
          ∗ semVal ((V d c i, SemLoc.dma cc0_scratch8.sem) : GSem nD τ sig) 0
          ∗ semVal ((V d c i, SemLoc.dma cc0_scratch9.sem) : GSem nD τ sig) 0
          ∗ semVal ((V d c i, SemLoc.dma cc0_scoped0.sem) : GSem nD τ sig) 0
          ∗ semVal ((V d c i, SemLoc.dma cc0_scoped1.sem) : GSem nD τ sig) 0
          ∗ semVal ((V d c i, SemLoc.dma cc0_scoped2.sem) : GSem nD τ sig) 0
          ∗ semVal ((V d c i, SemLoc.dma cc0_scoped3.sem) : GSem nD τ sig) 0
          ∗ semVal ((V d c i, SemLoc.dma cc0_scoped4.sem) : GSem nD τ sig) 0
          ∗ semVal ((V d c i, SemLoc.dma cc0_scoped5.sem) : GSem nD τ sig) 0
          ∗ semVal ((V d c i, SemLoc.dma cc0_scoped6.sem) : GSem nD τ sig) 0
          ∗ semVal ((V d c i, SemLoc.dma cc0_scoped7.sem) : GSem nD τ sig) 0
          ∗ semVal ((V d c i, SemLoc.dma cc0_scoped8.sem) : GSem nD τ sig) 0
          ∗ semVal ((V d c i, SemLoc.dma cc0_scoped9.sem) : GSem nD τ sig) 0
          ∗ semVal ((V d c i, SemLoc.dma cc0_scoped10.sem) : GSem nD τ sig) 0
          ∗ semVal ((V d c i, SemLoc.dma cc0_scoped11.sem) : GSem nD τ sig) 0
          ∗ semVal ((V d c i, SemLoc.dma cc0_scoped12.sem) : GSem nD τ sig) 0
          ∗ semVal ((V d c i, SemLoc.dma cc0_scoped13.sem) : GSem nD τ sig) 0
          ∗ semVal ((V d c i, SemLoc.dma cc0_scoped14.sem) : GSem nD τ sig) 0
          ∗ semVal ((V d c i, SemLoc.dma cc0_scoped15.sem) : GSem nD τ sig) 0
          ∗ semVal ((V d c i, SemLoc.dma cc0_scoped16.sem) : GSem nD τ sig) 0)
          ∗ bigSep (ownCells (V d c i) \ (semCells (V d c i)).toFinset) fun g => semVal g 0) := by
  unfold SparseCore.Cfg.ownSems0
  rw [SparseCore.bigSep_sdiff_split' (semCells_sub d c i), bigSep_eq_bigSepL_of_eq (semCells (V d c i)) rfl (semCells_nodup _)]
  simp only [semCells, semLocs, List.map_cons, List.map_nil, bigSepL_cons_cons, bigSepL_singleton]
  rfl

end T0

namespace T0

/-! ## The tile's own scratch buffers, one by one -/

def bufRefs : List (Ref sig .scVector) := [cc0_scratch0, cc0_scratch1, cc0_scratch2, cc0_scratch3, cc0_scratch4]
omit [FloatOps F] in
theorem bufRefs_nodup : bufRefs.Nodup := by decide
abbrev bufCells (c : Fin τ.nSC) (i : Fin τ.nSub) : List (DevRef τ sig) := bufRefs.map (Proc.scVector c i).devRef
omit [FloatOps F] in
theorem bufCells_nodup (c : Fin τ.nSC) (i : Fin τ.nSub) : (bufCells c i).Nodup := bufRefs_nodup.map (Proc.devRef_injective _)
omit [FloatOps F] in
theorem bufCells_sub (c : Fin τ.nSC) (i : Fin τ.nSub) : (bufCells c i).toFinset ⊆ ownRefs (τ := τ) (.scVector c i) := by
  intro b hb
  rw [List.mem_toFinset, List.mem_map] at hb
  obtain ⟨r, hr, rfl⟩ := hb
  simp only [bufRefs, List.mem_cons, List.not_mem_nil, or_false] at hr
  rcases hr with rfl | rfl | rfl | rfl | rfl <;> exact SparseCore.Cfg.mem_ownRefs_of_owner rfl

omit [FloatOps F] in
theorem ownBufs_V (d : Dev nD) (c : Fin τ.nSC) (i : Fin τ.nSub) :
    (ownBufs (V d c i) : sProp 𝕄)
      = iprop(((∃ f, (V d c i).loc cc0_scratch0 ↦{fullShare} f)
          ∗ (∃ f, (V d c i).loc cc0_scratch1 ↦{fullShare} f)
          ∗ (∃ f, (V d c i).loc cc0_scratch2 ↦{fullShare} f)
          ∗ (∃ f, (V d c i).loc cc0_scratch3 ↦{fullShare} f)
          ∗ (∃ f, (V d c i).loc cc0_scratch4 ↦{fullShare} f))
          ∗ bigSep (ownRefs (τ := τ) (.scVector c i) \ (bufCells c i).toFinset) fun b => iprop(∃ f, ((d, b) : Loc nD τ sig) ↦{fullShare} f)) := by
  unfold SparseCore.Cfg.ownBufs
  rw [SparseCore.bigSep_sdiff_split' (bufCells_sub c i), bigSep_eq_bigSepL_of_eq (bufCells c i) rfl (bufCells_nodup _ _)]
  simp only [bufCells, bufRefs, List.map_cons, List.map_nil, bigSepL_cons_cons, bigSepL_singleton]
  rfl

omit [FloatOps F] in
theorem bigSep_emp' {I : Type} (s : Finset I) : (bigSep s fun _ => iprop(emp)) = (iprop(emp) : sProp 𝕄) := bigSep_emp_const s

end T0

namespace T0
section Bar
variable (d : Dev nD)

/-- A tile that owns no row hands nothing over at the barrier. -/
theorem pays_none (c : Fin τ.nSC) (s : ℕ) (hs : 7 ≤ s) :
    (bigSep Finset.univ fun j : Fin (grid0.bound 1) => (bRd (F := F) m).payload (bcell d c (j.castLE hsub0)) 0 s : sProp 𝕄) = iprop(emp) := by
  rw [show (bigSep Finset.univ fun j : Fin (grid0.bound 1) => (bRd (F := F) m).payload (bcell d c (j.castLE hsub0)) 0 s)
      = bigSep Finset.univ fun _ : Fin (grid0.bound 1) => (iprop(emp) : sProp 𝕄) from bigSep_congr fun j _ => by
        show bPay m (bcell d c (j.castLE hsub0)) 0 s = _
        unfold bPay; dsimp only; rw [if_neg (by omega)], bigSep_emp']

theorem bPay_lt (c : Fin τ.nSC) (i : Fin τ.nSub) (n : ℕ) (hn : n < 7) :
    bPay m (bcell d c i) 0 n = iprop(acc0Loc d c ↦[seg (N := 114688) (16384 * n + 1024 * i.val) 1024]{fullShare} ACC0 m d c) := by
  unfold bPay; dsimp only; rw [if_pos hn, if_pos rfl]
theorem bPay_ge (c : Fin τ.nSC) (i : Fin τ.nSub) (n : ℕ) (hn : 7 ≤ n) : bPay m (bcell d c i) 0 n = iprop(emp) := by
  unfold bPay; dsimp only; rw [if_neg (by omega)]

omit [FloatOps F] in
theorem duties_list : (Finset.univ : Finset (Fin τ.nSub)).image Fin.val = [0, 1, 2, 3, 4, 5, 6, 7, 8, 9, 10, 11, 12, 13, 14, 15].toFinset := by decide

/-- What a tile's own round of the barrier collected: its column block of each of the seven rows, at the looked-up values. -/
theorem pays_got (c : Fin τ.nSC) (i : Fin τ.nSub) :
    (bigSep ((bRd (F := F) m).duties (bcell d c i) 0 \ ∅) fun n => (bRd (F := F) m).payload (bcell d c i) 0 n : sProp 𝕄)
      ⊢ iprop((acc0Loc d c ↦[seg (N := 114688) (16384 * 0 + 1024 * i.val) 1024]{fullShare} ACC0 m d c)
          ∗ (acc0Loc d c ↦[seg (N := 114688) (16384 * 1 + 1024 * i.val) 1024]{fullShare} ACC0 m d c)
          ∗ (acc0Loc d c ↦[seg (N := 114688) (16384 * 2 + 1024 * i.val) 1024]{fullShare} ACC0 m d c)
          ∗ (acc0Loc d c ↦[seg (N := 114688) (16384 * 3 + 1024 * i.val) 1024]{fullShare} ACC0 m d c)
          ∗ (acc0Loc d c ↦[seg (N := 114688) (16384 * 4 + 1024 * i.val) 1024]{fullShare} ACC0 m d c)
          ∗ (acc0Loc d c ↦[seg (N := 114688) (16384 * 5 + 1024 * i.val) 1024]{fullShare} ACC0 m d c)
          ∗ (acc0Loc d c ↦[seg (N := 114688) (16384 * 6 + 1024 * i.val) 1024]{fullShare} ACC0 m d c)) := by
  rw [Finset.sdiff_empty, bRd_duties m d c i (by decide), bigSep_eq_bigSepL_of_eq _ duties_list (by decide)]
  show iprop(bPay m (bcell d c i) 0 0 ∗ bPay m (bcell d c i) 0 1 ∗ bPay m (bcell d c i) 0 2 ∗ bPay m (bcell d c i) 0 3 ∗ bPay m (bcell d c i) 0 4 ∗ bPay m (bcell d c i) 0 5 ∗ bPay m (bcell d c i) 0 6 ∗ bPay m (bcell d c i) 0 7 ∗ bPay m (bcell d c i) 0 8 ∗ bPay m (bcell d c i) 0 9 ∗ bPay m (bcell d c i) 0 10 ∗ bPay m (bcell d c i) 0 11 ∗ bPay m (bcell d c i) 0 12 ∗ bPay m (bcell d c i) 0 13 ∗ bPay m (bcell d c i) 0 14 ∗ bPay m (bcell d c i) 0 15) ⊢ _
  rw [bPay_lt m d c i 0 (by decide), bPay_lt m d c i 1 (by decide), bPay_lt m d c i 2 (by decide), bPay_lt m d c i 3 (by decide), bPay_lt m d c i 4 (by decide), bPay_lt m d c i 5 (by decide), bPay_lt m d c i 6 (by decide),
    bPay_ge m d c i 7 (by decide), bPay_ge m d c i 8 (by decide), bPay_ge m d c i 9 (by decide), bPay_ge m d c i 10 (by decide), bPay_ge m d c i 11 (by decide), bPay_ge m d c i 12 (by decide), bPay_ge m d c i 13 (by decide), bPay_ge m d c i 14 (by decide), bPay_ge m d c i 15 (by decide)]
  iintro ⟨H0, H1, H2, H3, H4, H5, H6, -⟩
  isplitl [H0]; · iexact H0
  isplitl [H1]; · iexact H1
  isplitl [H2]; · iexact H2
  isplitl [H3]; · iexact H3
  isplitl [H4]; · iexact H4
  isplitl [H5]; · iexact H5
  iexact H6

end Bar
end T0

end Cert.Proof.KI

end
-- ==== Proof.KI.Tile0Trip.lean ====
/-
  Lookup 0, one tile, the gather phase's pieces.
  One trip of a gather loop as a program over the offsets of its two boxes and its check (every printed loop's trip is
  an instance, by unfolding), and what it does: sixteen indices read from a slot of the index scratch, in range, the
  sixteen table entries they name read from the table scratch and written at the trip's box of the value scratch.
  The buffers as the task addresses them: the two slots of the index scratch, the eight pieces of the tile's row of the
  shared buffer, the tile's entries of the result; the row as its eight pieces. A gather loop's invariant. And what the
  scratches hold, as statements about their entries: a slot a chunk of the field's index row, the table scratch the
  field's entries of the half table, the value scratch the looked-up entries below the trip's box.
-/
import proofs.«207420_g80582176408339_cont_9to1c4b_743_56_alg».proof.Proof.KI.Tile0Pieces

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T0
section Trip
variable (d : Dev nD) (c : Fin τ.nSC) (i : Fin τ.nSub)

abbrev subM : Memref sig .scVector .vmem S100096 .f32 := Memref.whole cc0_scratch0
abbrev xM : Memref sig .scVector .vmem S4096 .i32 := Memref.whole cc0_scratch1
abbrev valM : Memref sig .scVector .vmem S2048 .f32 := Memref.whole cc0_scratch2

/-- One trip of a gather loop, over the offsets of its two boxes and its check: sixteen indices loaded, assumed in
    range, the sixteen table entries they name loaded, and stored. -/
def gTrip (offX offV : Fin 1 → Nat) (inbX : ∀ a, offX a + S16.size a ≤ S4096.size a) (inbV : ∀ a, offV a + S16.size a ≤ S2048.size a)
    (P : IVec S16 32 → Prop) (dec : ∀ v, Decidable (P v)) (hidx : ∀ v, P v → ∀ a x, ((![v] : Fin 1 → IVec S16 32) a x).toNat < S100096.size a) :
    Prog (TpuEff nD τ sig (Elt F) Λ₀ (.scVector c i)) Unit := do
  let v280 : Vec F S16 .i32 ← Prog.lift (.load xM (Rect.unit (s := S4096) offX S16.size inbX).toLoadRect (View.loadsAt_vmem h_S16))
  have hw : P v280 := (← Prog.lift (TpuEff.assume (P v280) (dec v280))).down
  let v281 : Vec F S16 .f32 ← SparseCore.vectorLoadIdx subM ![v280] (hidx v280 hw) (View.loads_vmem h_S100096)
  let v283 : Vec F S16 .f32 ← Prog.lift (.load valM (Rect.unit (s := S2048) offV S16.size inbV).toLoadRect (View.loadsAt_vmem h_S16))
  Prog.lift (.store valM (Rect.unit (s := S2048) offV S16.size inbV) v281 Finset.univ (View.stores_vmem_bits_univ h_S16 rfl) (.inl rfl))
  pure ⟨⟩

theorem k0_t1_body_eq (L : grid0.Coords) (arg1 v1 : BitVec 32) (h1 : k0_cond1 L = 1#1) (k : Fin k0_t1_loop.trips) (u : Unit) :
    k0_t1_body (F := F) L (Memref.whole main_v0_scv) (Memref.isWhole_whole _) (Memref.whole main_v2_scv) (Memref.isWhole_whole _) (Memref.whole main_v6_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 arg1 v1 h1 k u
      = gTrip (F := F) (cV L) (jV L) (k0_off4 k) (k0_off5 k) (k0_off4_inb L k h1) (k0_off5_inb L k h1) (k0_chk1 L) (k0_chk1.dec L) (fun v hw => k0_idx1_inb L v hw h1) := rfl

/-- The sixteen indices a trip loads. -/
abbrev gIdx (offX : Fin 1 → Nat) (inbX : ∀ a, offX a + S16.size a ≤ S4096.size a) (fx : Buf (Elt F) ((xM).view.loc (V d c i))) : IVec S16 32 :=
  (xM).view.readAt (Elt F) (Rect.unit (s := S4096) offX S16.size inbX).toLoadRect fx

/-- What the trip leaves in the value scratch: the looked-up entries written at its box. -/
abbrev gOut (offX offV : Fin 1 → Nat) (inbX : ∀ a, offX a + S16.size a ≤ S4096.size a) (inbV : ∀ a, offV a + S16.size a ≤ S2048.size a)
    (fx : Buf (Elt F) ((xM).view.loc (V d c i))) (fsub : Buf (Elt F) ((subM).view.loc (V d c i))) (fval : Buf (Elt F) ((valM).view.loc (V d c i)))
    (hin : ∀ a x, ((![gIdx (F := F) d c i offX inbX fx] : Fin 1 → IVec S16 32) a x).toNat < S100096.size a) :
    Buf (Elt F) ((valM).view.loc (V d c i)) :=
  ((valM).access (Rect.unit (s := S2048) offV S16.size inbV)).write (Elt F) fval
    (loadIdx (((subM).access (.whole S100096)).read (Elt F) fsub) ![gIdx (F := F) d c i offX inbX fx] hin) Finset.univ

set_option maxHeartbeats 1000000 in
theorem wp_gTrip (offX offV : Fin 1 → Nat) (inbX : ∀ a, offX a + S16.size a ≤ S4096.size a) (inbV : ∀ a, offV a + S16.size a ≤ S2048.size a)
    (P : IVec S16 32 → Prop) (dec : ∀ v, Decidable (P v)) (hidx : ∀ v, P v → ∀ a x, ((![v] : Fin 1 → IVec S16 32) a x).toNat < S100096.size a)
    (S6 : Finset (Idx ((xM).view.loc (V d c i)))) (fx : Buf (Elt F) ((xM).view.loc (V d c i))) (fsub : Buf (Elt F) ((subM).view.loc (V d c i)))
    (fval : Buf (Elt F) ((valM).view.loc (V d c i)))
    (hS6 : (xM).view.setOn (Rect.unit (s := S4096) offX S16.size inbX).toLoadRect.set ⊆ S6)
    (hP : P (gIdx (F := F) d c i offX inbX fx)) :
    (iprop(((xM).view.loc (V d c i) ↦[S6]{fullShare} fx) ∗ ((subM).view.loc (V d c i) ↦{fullShare} fsub) ∗ ((valM).view.loc (V d c i) ↦{fullShare} fval)) : sProp 𝕄)
      ⊢ wp frame (wpE (defs₀ (F := F)) 𝒱₀ (V d c i) none) Set.univ (gTrip (F := F) c i offX offV inbX inbV P dec hidx)
          fun _ => iprop(((xM).view.loc (V d c i) ↦[S6]{fullShare} fx) ∗ ((subM).view.loc (V d c i) ↦{fullShare} fsub)
            ∗ ((valM).view.loc (V d c i) ↦{fullShare} gOut d c i offX offV inbX inbV fx fsub fval (hidx _ hP))) := by
  unfold gTrip
  simp only [Prog.lift, Prog.bind_op, Prog.bind_ret, Prog.pure_eq_ret]
  iintro ⟨H6, H5, H7⟩
  iapply (wp_load 𝒱₀ (V d c i) none Set.univ (m := xM) (S := S6) hS6) $$ H6; iintro H6
  rw [wp_assume_of _ _ _ _ hP]
  iapply (SparseCore.wp_vectorLoadIdx 𝒱₀ (V d c i) none Set.univ (base := subM) (S := Finset.univ) (q := fullShare) (Finset.subset_univ _)) $$ H5; iintro H5
  iapply (wp_load 𝒱₀ (V d c i) none Set.univ (m := valM) (S := Finset.univ) (Finset.subset_univ _)) $$ H7; iintro H7
  iapply (wp_store 𝒱₀ (V d c i) none Set.univ (m := valM) (r := Rect.unit (s := S2048) offV S16.size inbV) (Mk := Finset.univ) (S := Finset.univ) (Finset.subset_univ _)) $$ H7; iintro H7
  rw [wp_ret]; imodintro
  isplitl [H6]; · iexact H6
  isplitl [H5]; · iexact H5
  iexact H7

end Trip
end T0

namespace T0
section PhaseViews
variable (d : Dev nD) (L : grid0.Coords)

abbrev accM : Memref sig .scVector .shared S114688 .f32 := Memref.whole cc0_scratch5

omit [FloatOps F] in
theorem conds_A : ∀ L : grid0.Coords, k0_cond1 L = 1#1 → (L 1).val < 7 ∧ (L 0).val + (L 1).val < 7 ∧ ¬ k0_cond2 L = 1#1 := by decide +kernel

/-- Piece `h` of the tile's row of the shared buffer, as the task slices it. -/
abbrev rowPiece (h1 : k0_cond1 L = 1#1) (h : Fin 8) : Memref sig .scVector .shared S2048 .f32 :=
  (accM).slice (Rect.unit (s := S114688) (k0_off6 L (BitVec.ofNat 32 (2048 * h.val))) S2048.size (k0_off6_inb L h1 h)) (fun _ => rfl)

omit [FloatOps F] in
theorem set_rowPiece (h1 : k0_cond1 L = 1#1) (h : Fin 8) :
    (rowPiece L h1 h).view.set = seg (N := 114688) (16384 * (L 1).val + 2048 * h.val) 2048 := by
  refine (View.set_slice_whole cc0_scratch5 _).trans ?_
  rw [unit_set_seg, k0_off6_eq]; rfl

/-- Slot `p` of the index scratch, as the task slices it. -/
abbrev xSlot0 : Memref sig .scVector .vmem S2048 .i32 := (xM).slice (Rect.unit (s := S4096) ![0] S2048.size inb_S4096_S2048_0) (fun _ => rfl)
abbrev xSlot1 : Memref sig .scVector .vmem S2048 .i32 := (xM).slice (Rect.unit (s := S4096) ![2048] S2048.size inb_S4096_S2048_2048) (fun _ => rfl)

omit [FloatOps F] in
theorem set_xSlot0 : (xSlot0).view.set = seg (N := 4096) 0 2048 := by
  refine (View.set_slice_whole cc0_scratch1 _).trans ?_
  rw [unit_set_seg]; rfl
omit [FloatOps F] in
theorem set_xSlot1 : (xSlot1).view.set = seg (N := 4096) 2048 2048 := by
  refine (View.set_slice_whole cc0_scratch1 _).trans ?_
  rw [unit_set_seg]; rfl

omit [FloatOps F] in
/-- The index scratch is its two slots. -/
theorem x_split (c : Fin τ.nSC) (i : Fin τ.nSub) (f : Buf (Elt F) ((V d c i).loc cc0_scratch1)) :
    ((V d c i).loc cc0_scratch1 ↦{fullShare} f : sProp 𝕄)
      ⊣⊢ iprop(((xSlot0).view.loc (V d c i) ↦[(xSlot0).view.set]{fullShare} f) ∗ ((xSlot1).view.loc (V d c i) ↦[(xSlot1).view.set]{fullShare} f)) := by
  rw [set_xSlot0, set_xSlot1]
  have hu : (Finset.univ : Finset (Idx ((V d c i).loc cc0_scratch1))) = seg (N := 4096) 0 2048 ∪ seg (N := 4096) 2048 2048 := by
    ext j; rw [Finset.mem_union, mem_seg, mem_seg]
    have : (j 0).val < 4096 := (j 0).isLt
    constructor
    · intro _; omega
    · intro _; exact Finset.mem_univ _
  show ((V d c i).loc cc0_scratch1 ↦[Finset.univ]{fullShare} f : sProp 𝕄) ⊣⊢ _
  rw [hu]
  exact pointsTo_union (seg_disjoint (Or.inl (by omega)))

/-- The tile's row of the shared buffer is its eight pieces of 2048. -/
theorem row_split (c : Fin τ.nSC) (s : ℕ) (f : Buf (Elt F) (acc0Loc d c)) :
    (acc0Loc d c ↦[seg (N := 114688) (16384 * s) 16384]{fullShare} f : sProp 𝕄)
      = iprop((acc0Loc d c ↦[seg (N := 114688) (16384 * s + 2048 * 0) 2048]{fullShare} f)
          ∗ (acc0Loc d c ↦[seg (N := 114688) (16384 * s + 2048 * 1) 2048]{fullShare} f)
          ∗ (acc0Loc d c ↦[seg (N := 114688) (16384 * s + 2048 * 2) 2048]{fullShare} f)
          ∗ (acc0Loc d c ↦[seg (N := 114688) (16384 * s + 2048 * 3) 2048]{fullShare} f)
          ∗ (acc0Loc d c ↦[seg (N := 114688) (16384 * s + 2048 * 4) 2048]{fullShare} f)
          ∗ (acc0Loc d c ↦[seg (N := 114688) (16384 * s + 2048 * 5) 2048]{fullShare} f)
          ∗ (acc0Loc d c ↦[seg (N := 114688) (16384 * s + 2048 * 6) 2048]{fullShare} f)
          ∗ (acc0Loc d c ↦[seg (N := 114688) (16384 * s + 2048 * 7) 2048]{fullShare} f)) := by
  rw [show seg (N := 114688) (16384 * s) 16384 = seg (N := 114688) (16384 * s) (2048 * 8) from rfl, ← seg_parts,
    pointsTo_biUnion _ _ seg_parts_disjoint, bigSep_univ_eq_bigSepL [0, 1, 2, 3, 4, 5, 6, 7] (by decide) (by decide)]
  rfl

theorem pts_rowPiece (h1 : k0_cond1 L = 1#1) (h : Fin 8) (f : Buf (Elt F) (acc0Loc d (cT (cL L)))) :
    ((rowPiece L h1 h).view.loc (V d (cV L) (jV L)) ↦[(rowPiece L h1 h).view.set]{fullShare} f : sProp 𝕄)
      = (acc0Loc d (cT (cL L)) ↦[seg (N := 114688) (16384 * (L 1).val + 2048 * h.val) 2048]{fullShare} f) := by
  rw [set_rowPiece]; rfl

end PhaseViews
end T0

namespace T0
section Respell
variable (d : Dev nD) (L : grid0.Coords)

abbrev xtM : Memref sig .scVector .hbm S26x16384 .i32 := Memref.whole main_v0_scv
abbrev whM : Memref sig .scVector .hbm S1300000 .f32 := Memref.whole main_v2_scv
abbrev poM : Memref sig .scVector .hbm S32768 .f32 := Memref.whole main_v6_scv
abbrev redM : Memref sig .scVector .vmem S3584 .f32 := Memref.whole cc0_scratch3
abbrev outM : Memref sig .scVector .vmem S1024 .f32 := Memref.whole cc0_scratch4

omit [FloatOps F] in
theorem pts_xt (c : Fin τ.nSC) (i : Fin τ.nSub) (q : PosShare TreeShare) (f : Buf (Elt F) (xtLoc d)) :
    ((xtM).view.loc (V d c i) ↦{q} f : sProp 𝕄) = (xtLoc d ↦{q} f) := rfl
omit [FloatOps F] in
theorem pts_wh (c : Fin τ.nSC) (i : Fin τ.nSub) (q : PosShare TreeShare) (f : Buf (Elt F) (w0Loc d)) :
    ((whM).view.loc (V d c i) ↦{q} f : sProp 𝕄) = (w0Loc d ↦{q} f) := rfl
omit [FloatOps F] in
theorem pts_sub (c : Fin τ.nSC) (i : Fin τ.nSub) (f : Buf (Elt F) ((V d c i).loc cc0_scratch0)) :
    ((subM).view.loc (V d c i) ↦{fullShare} f : sProp 𝕄) = ((V d c i).loc cc0_scratch0 ↦{fullShare} f) := rfl
omit [FloatOps F] in
theorem pts_val (c : Fin τ.nSC) (i : Fin τ.nSub) (f : Buf (Elt F) ((V d c i).loc cc0_scratch2)) :
    ((valM).view.loc (V d c i) ↦{fullShare} f : sProp 𝕄) = ((V d c i).loc cc0_scratch2 ↦{fullShare} f) := rfl
omit [FloatOps F] in
theorem pts_red (c : Fin τ.nSC) (i : Fin τ.nSub) (f : Buf (Elt F) ((V d c i).loc cc0_scratch3)) :
    ((redM).view.loc (V d c i) ↦{fullShare} f : sProp 𝕄) = ((V d c i).loc cc0_scratch3 ↦{fullShare} f) := rfl
omit [FloatOps F] in
theorem pts_out (c : Fin τ.nSC) (i : Fin τ.nSub) (f : Buf (Elt F) ((V d c i).loc cc0_scratch4)) :
    ((outM).view.loc (V d c i) ↦{fullShare} f : sProp 𝕄) = ((V d c i).loc cc0_scratch4 ↦{fullShare} f) := rfl

/-- The tile's 1024 entries of the result, as the task slices them. -/
abbrev poK : Memref sig .scVector .hbm S1024 .f32 := (poM).slice (Rect.unit (s := S32768) (k0_off36 L) S1024.size (k0_off36_inb L)) (fun _ => rfl)
omit [FloatOps F] in
theorem set_poK : (poK L).view.set = seg (N := 32768) (16384 * (L 0).val + 1024 * (L 1).val) 1024 := by
  refine (View.set_slice_whole main_v6_scv _).trans ?_
  rw [unit_set_seg, k0_off36_eq]; rfl
omit [FloatOps F] in
theorem pts_poK (f : Buf (Elt F) (p0Loc d)) :
    ((poK L).view.loc (V d (cV L) (jV L)) ↦[(poK L).view.set]{fullShare} f : sProp 𝕄)
      = (p0Loc d ↦[seg (N := 32768) (16384 * (cL L).val + 1024 * (jL L).val) 1024]{fullShare} f) := by
  rw [set_poK]; rfl

end Respell
end T0

namespace T0
section Loop
variable (d : Dev nD) (c : Fin τ.nSC) (i : Fin τ.nSub)

/-- A gather loop's invariant: the index slot and the table as they stand, the value scratch at some contents of which
    the entries below the trip's box are as `G` says. -/
def gInv (S6 : Finset (Idx ((xM).view.loc (V d c i)))) (fx : Buf (Elt F) ((xM).view.loc (V d c i))) (fsub : Buf (Elt F) ((subM).view.loc (V d c i)))
    (G : ℕ → Buf (Elt F) ((valM).view.loc (V d c i)) → Prop) (k : ℕ) (_ : PUnit) : sProp 𝕄 :=
  iprop(((xM).view.loc (V d c i) ↦[S6]{fullShare} fx) ∗ ((subM).view.loc (V d c i) ↦{fullShare} fsub)
    ∗ ∃ f, ((valM).view.loc (V d c i) ↦{fullShare} f) ∗ ⌜G k f⌝)

end Loop
end T0

namespace T0
section ValueFacts
variable (d : Dev nD) (c : Fin τ.nSC) (i : Fin τ.nSub)

open Idealize.ShloMosaic.ValueIdx in
/-- Slot `p` of the index scratch holds chunk `h` (2048 batch rows) of field `j`'s index row. -/
def XHolds (p h j : ℕ) (fx : Buf (Elt F) ((xM).view.loc (V d c i))) : Prop :=
  ∀ (y : Fin 2048) (hy : 2048 * p + y.val < 4096),
    (show BitVec 32 from fx (ix1 (⟨2048 * p + y.val, hy⟩ : Fin 4096))).toNat = xtAt (XT m d) j (2048 * h + y.val)

open Idealize.ShloMosaic.ValueIdx in
/-- The table scratch holds field `j`'s 100000 entries of the half table. -/
def SubHolds (j : ℕ) (fsub : Buf (Elt F) ((subM).view.loc (V d c i))) : Prop :=
  ∀ n : Fin 100096, n.val < 100000 → (show F .f32 from fsub (ix1 n)) = whAt (WH0 m d) (100000 * j + n.val)

open Idealize.ShloMosaic.ValueIdx in
/-- The value scratch's first `16 k` entries are chunk `h`'s looked-up entries of row `s` on SparseCore `cc`. -/
def Good (cc s h k : ℕ) (f : Buf (Elt F) ((valM).view.loc (V d c i))) : Prop :=
  ∀ t : Fin 2048, t.val < 16 * k → (show F .f32 from f (ix1 t)) = accAt (XT m d) (WH0 m d) 0 cc s (2048 * h + t.val)

end ValueFacts
end T0

end Cert.Proof.KI

end
-- ==== Proof.KI.Tile0Val.lean ====
/-
  Lookup 0, a gather trip's values. The sixteen indices a trip loads are sixteen consecutive entries of a slot of the
  index scratch; when the slot holds a chunk of the field's index row they are entries of the index matrix, so each is a
  row number of the field (below 100000, hence inside the table scratch). The sixteen entries the trip then reads out of
  the table scratch are the field's table entries at those rows: exactly what the shared buffer's row is to hold for the
  sixteen batch rows of the trip, so the value scratch's done part grows by the trip's box.
-/
import proofs.«207420_g80582176408339_cont_9to1c4b_743_56_alg».proof.Proof.KI.Tile0Trip

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

variable (m : (ℓ : Loc nD τ sig) → Buf (Elt F) ℓ)

namespace T0

variable (d : Dev nD) (c : Fin τ.nSC) (i : Fin τ.nSub)

/-- Lane `x` of the sixteen indices a trip loads at offset `o` is entry `o + x` of the index scratch. -/
theorem gIdx_lane (o : ℕ) (offX : Fin 1 → Nat) (inbX : ∀ a, offX a + S16.size a ≤ S4096.size a) (hoff : offX = ![o])
    (fx : Buf (Elt F) ((xM).view.loc (V d c i))) (x : S16.Idx) (hlt : o + (x 0).val < 4096) :
    gIdx (F := F) d c i offX inbX fx x = (show BitVec 32 from fx (ix1 (⟨o + (x 0).val, hlt⟩ : Fin 4096))) := by
  subst hoff
  unfold gIdx
  rw [View.readAt_apply]
  show fx _ = fx _
  congr 1
  funext a
  apply Fin.ext
  simp only [View.emb_whole, Function.Embedding.refl_apply, LoadRect.idx_apply]
  match a with
  | ⟨0, _⟩ => show o + 1 * (x 0).val = o + (x 0).val; omega

/-- A slot holding a chunk of the field's index row, the sixteen indices a trip loads from it are row numbers of the field. -/
theorem gIdx_val (p h j k : ℕ) (hp : p < 2) (hh : h < 8) (hj : j < 26) (hk : k < 128)
    (offX : Fin 1 → Nat) (inbX : ∀ a, offX a + S16.size a ≤ S4096.size a) (hoff : offX = ![2048 * p + 16 * k])
    (fx : Buf (Elt F) ((xM).view.loc (V d c i))) (hX : XHolds m d c i p h j fx) (x : S16.Idx) :
    (gIdx (F := F) d c i offX inbX fx x).toNat = xtAt (XT m d) j (2048 * h + (16 * k + (x 0).val)) := by
  have hx0 : (x 0).val < 16 := (x 0).isLt
  have hlt : 2048 * p + 16 * k + (x 0).val < 4096 := by omega
  rw [gIdx_lane d c i (2048 * p + 16 * k) offX inbX hoff fx x hlt]
  have h1 := hX ⟨16 * k + (x 0).val, by omega⟩ (by show 2048 * p + (16 * k + (x 0).val) < 4096; omega)
  have e : (⟨2048 * p + 16 * k + (x 0).val, hlt⟩ : Fin 4096) = ⟨2048 * p + (16 * k + (x 0).val), by omega⟩ :=
    Fin.ext (show 2048 * p + 16 * k + (x 0).val = 2048 * p + (16 * k + (x 0).val) by omega)
  rw [e]
  exact h1

theorem xtAt_lt (hx : InRange m) (j b : ℕ) (hj : j < 26) (hb : b < 16384) : xtAt (XT m d) j b < 100000 := by
  unfold xtAt
  rw [dif_pos ⟨hj, hb⟩]
  exact hx d ⟨j, hj⟩ ⟨b, hb⟩

theorem chk_of_holds (p h j k : ℕ) (hp : p < 2) (hh : h < 8) (hj : j < 26) (hk : k < 128) (hx : InRange m)
    (offX : Fin 1 → Nat) (inbX : ∀ a, offX a + S16.size a ≤ S4096.size a) (hoff : offX = ![2048 * p + 16 * k])
    (fx : Buf (Elt F) ((xM).view.loc (V d c i))) (hX : XHolds m d c i p h j fx) :
    ∀ a x, ((![gIdx (F := F) d c i offX inbX fx] : Fin 1 → IVec S16 32) a x).toNat < S100096.size a := by
  intro a x
  match a with
  | ⟨0, _⟩ =>
    show (gIdx (F := F) d c i offX inbX fx x).toNat < 100096
    have hx0 : (x 0).val < 16 := (x 0).isLt
    rw [gIdx_val m d c i p h j k hp hh hj hk offX inbX hoff fx hX x]
    have := xtAt_lt m d hx j (2048 * h + (16 * k + (x 0).val)) hj (by omega)
    omega

/-- A trip extends the done part of the value scratch by its box. -/
theorem good_step (cc s h p k : ℕ) (hcc : cc < 2) (hcs : s + cc < 7) (hp : p < 2) (hh : h < 8) (hk : k < 128) (hx : InRange m)
    (offX offV : Fin 1 → Nat) (inbX : ∀ a, offX a + S16.size a ≤ S4096.size a) (inbV : ∀ a, offV a + S16.size a ≤ S2048.size a)
    (hoffX : offX = ![2048 * p + 16 * k]) (hoffV : offV = ![16 * k])
    (fx : Buf (Elt F) ((xM).view.loc (V d c i))) (fsub : Buf (Elt F) ((subM).view.loc (V d c i))) (f : Buf (Elt F) ((valM).view.loc (V d c i)))
    (hX : XHolds m d c i p h (7 * cc + s) fx) (hS : SubHolds m d c i (7 * cc + s) fsub) (hG : Good m d c i cc s h k f)
    (hin : ∀ a x, ((![gIdx (F := F) d c i offX inbX fx] : Fin 1 → IVec S16 32) a x).toNat < S100096.size a) :
    Good m d c i cc s h (k + 1) (gOut (F := F) d c i offX offV inbX inbV fx fsub f hin) := by
  have hj : 7 * cc + s < 26 := by omega
  subst hoffV
  intro t ht
  have ht2 : t.val < 2048 := t.isLt
  by_cases hlo : t.val < 16 * k
  · have hnot : (ix1 t : S2048.Idx) ∉ ((valM).access (Rect.unit (s := S2048) ![16 * k] S16.size inbV)).setOn Finset.univ := by
      rw [View.setOn_univ, View.set_slice_whole, Rect.mem_set_unit]
      intro hall
      have h0 := (hall 0).1
      have : 16 * k ≤ t.val := h0
      omega
    show (gOut (F := F) d c i offX ![16 * k] inbX inbV fx fsub f hin) (ix1 t) = _
    unfold gOut
    rw [View.write_of_not_mem _ _ _ hnot]
    exact hG t hlo
  · have hx' : t.val - 16 * k < 16 := by omega
    have he : (ix1 t : S2048.Idx) = ((valM).access (Rect.unit (s := S2048) ![16 * k] S16.size inbV)).emb (ix1 (⟨t.val - 16 * k, hx'⟩ : Fin 16)) := by
      funext a
      apply Fin.ext
      match a with
      | ⟨0, _⟩ => show t.val = 16 * k + 1 * (t.val - 16 * k); omega
    show (gOut (F := F) d c i offX ![16 * k] inbX inbV fx fsub f hin) (ix1 t) = _
    unfold gOut
    rw [he, View.write_emb_of_mem _ _ (Finset.mem_univ _)]
    show loadIdx (((subM).access (.whole S100096)).read (Elt F) fsub) ![gIdx (F := F) d c i offX inbX fx] hin (ix1 (⟨t.val - 16 * k, hx'⟩ : Fin 16)) = _
    have hr : View.read (Elt F) ((subM).access (Rect.whole S100096)) fsub = fsub := Memref.read_access_whole (Elt F) cc0_scratch0 fsub
    rw [hr]
    unfold loadIdx
    have hval : (gIdx (F := F) d c i offX inbX fx (ix1 (⟨t.val - 16 * k, hx'⟩ : Fin 16))).toNat
        = xtAt (XT m d) (7 * cc + s) (2048 * h + (16 * k + (t.val - 16 * k))) :=
      gIdx_val m d c i p h (7 * cc + s) k hp hh hj hk offX inbX hoffX fx hX (ix1 (⟨t.val - 16 * k, hx'⟩ : Fin 16))
    have hb : 2048 * h + (16 * k + (t.val - 16 * k)) = 2048 * h + t.val := by omega
    have hlt : (gIdx (F := F) d c i offX inbX fx (ix1 (⟨t.val - 16 * k, hx'⟩ : Fin 16))).toNat < 100000 := by
      rw [hval]; exact xtAt_lt m d hx _ _ hj (by omega)
    have hidx : idxAt ![gIdx (F := F) d c i offX inbX fx] hin (ix1 (⟨t.val - 16 * k, hx'⟩ : Fin 16))
        = (ix1 (⟨(gIdx (F := F) d c i offX inbX fx (ix1 (⟨t.val - 16 * k, hx'⟩ : Fin 16))).toNat, by omega⟩ : Fin 100096) : S100096.Idx) := by
      funext a
      apply Fin.ext
      match a with
      | ⟨0, _⟩ => rfl
    rw [hidx]
    refine (hS ⟨(gIdx (F := F) d c i offX inbX fx (ix1 (⟨t.val - 16 * k, hx'⟩ : Fin 16))).toNat, by omega⟩ hlt).trans ?_
    unfold accAt
    rw [if_pos hcs]
    show whAt (WH0 m d) (100000 * (7 * cc + s) + (gIdx (F := F) d c i offX inbX fx (ix1 (⟨t.val - 16 * k, hx'⟩ : Fin 16))).toNat)
      = whAt (WH0 m d) ((7 * cc + s) * 100000 + xtAt (XT m d) (0 + 7 * cc + s) (2048 * h + t.val))
    rw [hval, hb, Nat.zero_add, Nat.mul_comm 100000]

end T0

end Cert.Proof.KI

end
-- ==== Proof.KI.Landed.lean ====
/-
  What a write through a view leaves, read back at an entry. Through the view of a whole buffer a read is the contents
  themselves; a write of a rectangle leaves its payload at the rectangle's entries and the old contents elsewhere; a
  write of the whole of a slice leaves its payload's entry x at the slice's entry x of the buffer, and a read through
  the slice at x is the contents at that entry.
-/
import Idealize.ShloMosaic.Lib.Writes

noncomputable section

namespace Cert.Proof.KI.Landed

open Idealize.ShloMosaic

variable {sig : RefSig} {κ : Kind} {Val : EltTy → Type}

theorem read_whole (b : Ref sig κ) (f : b.ty.Contents Val) (y : b.ty.shape.Idx) : (View.whole b).read Val f y = f y := rfl

theorem read_slice (b : Ref sig κ) (r0 : Rect b.ty.shape) (f : b.ty.Contents Val) (x : r0.shape.Idx) :
    ((View.whole b).slice r0).read Val f x = f (r0.emb x) := rfl

/-- Through a slice recast to another shape of as many entries: the contents at the slice's entry the recast names. -/
theorem read_slice_reshape (b : Ref sig κ) (r0 : Rect b.ty.shape) (s' : Shape) (hn : s'.numel = r0.shape.numel) (f : b.ty.Contents Val) (x : s'.Idx) :
    (((View.whole b).slice r0).reshape s' hn).read Val f x = f (r0.emb (Shape.reshapeEquiv hn x)) := rfl

/-- Under the write: the payload. -/
theorem whole_writes_hit (b : Ref sig κ) (base : b.ty.Contents Val) (r : Rect b.ty.shape) (w : r.shape.Idx → Val b.ty.elt) (x : r.shape.Idx) :
    (View.whole b).writes Val base [⟨r, w⟩] (r.emb x) = w x :=
  (read_whole b _ _).symm.trans (View.read_writes_cons_emb (View.whole b) base r w [] x)

/-- Off the write: the old contents. -/
theorem whole_writes_miss (b : Ref sig κ) (base : b.ty.Contents Val) (r : Rect b.ty.shape) (w : r.shape.Idx → Val b.ty.elt)
    (y : b.ty.shape.Idx) (hy : y ∉ r.set) : (View.whole b).writes Val base [⟨r, w⟩] y = base y :=
  (read_whole b _ _).symm.trans ((View.read_writes_apply_of_forall_not_mem (View.whole b) base y [⟨r, w⟩]
    (fun p hp => by rw [List.mem_singleton] at hp; subst hp; exact hy)).trans (read_whole b base y))

/-- A slice written whole: the payload's entry x at the slice's entry x. -/
theorem slice_writes_hit (b : Ref sig κ) (base : b.ty.Contents Val) (r0 : Rect b.ty.shape) (w : r0.shape.Idx → Val b.ty.elt) (x : r0.shape.Idx) :
    ((View.whole b).slice r0).writes Val base [⟨Rect.whole r0.shape, w⟩] (r0.emb x) = w x := by
  have h := View.read_writes_cons_emb ((View.whole b).slice r0) base (Rect.whole r0.shape) w [] x
  rw [Rect.emb_whole_apply] at h
  exact (read_slice b r0 _ x).symm.trans h

end Cert.Proof.KI.Landed

end
-- ==== Proof.KI.Tile0Landed.lean ====
/-
  Lookup 0, what a landed copy leaves. A copy writes its destination slice, whole, with what it read of its source slice:
  entry k of the destination slice is entry k of the source slice. Read through the slices' offsets: the table scratch's
  entry n is the half table's entry 100000 j + n; slot p's entry y is the index row's entry 2048 h + y of field j; and the
  piece of the shared buffer's row the whole value scratch was copied into holds the value scratch's entries, which a
  finished gather loop has made the looked-up entries of the chunk.
-/
import proofs.«207420_g80582176408339_cont_9to1c4b_743_56_alg».proof.Proof.KI.Tile0Val
import proofs.«207420_g80582176408339_cont_9to1c4b_743_56_alg».proof.Proof.KI.Landed

noncomputable section

namespace Cert.Proof.KI

open Cert.KernelIdeal Cert.KernelIdeal.Gen

open Idealize.ShloMosaic
open Idealize.ShloMosaic.SparseCore (S V)
open Idealize.ShloMosaic.ValueIdx

variable {F : FTy → Type} [FloatOps F]

variable (m : (ℓ : Loc nD τ sig) → Buf (Elt F) ℓ)

namespace T0

variable (d : Dev nD) (c : Fin τ.nSC) (i : Fin τ.nSub)

/-- The table scratch the copy of a field's entries has landed in holds them. -/
theorem subholds_landed (j : ℕ) (off : Fin 1 → Nat) (inb : ∀ a, off a + S100000.size a ≤ S1300000.size a) (hoff : off = ![100000 * j])
    (base : Buf (Elt F) ((subM).view.loc (V d c i))) :
    SubHolds m d c i j ((subM).view.writes (Elt F) base
      [⟨Rect.unit (s := S100096) ![0] S100000.size inb_S100096_S100000_0, ReadAs.same.apply (View.read (Elt F) ((whM).slice (Rect.unit (s := S1300000) off S100000.size inb) (fun _ => rfl)).view (WH0 m d))⟩]) := by
  subst hoff
  intro n hn
  have hj : 100000 * j + 100000 ≤ 1300000 := by have := inb 0; simpa using this
  have hi : (ix1 n : S100096.Idx) = (Rect.unit (s := S100096) ![0] S100000.size inb_S100096_S100000_0).emb (ix1 (⟨n.val, hn⟩ : Fin 100000)) := by
    funext a
    apply Fin.ext
    match a with
    | ⟨0, _⟩ => show n.val = 0 + 1 * n.val; omega
  rw [hi]
  refine (Landed.whole_writes_hit (Val := Elt F) cc0_scratch0 base _ _ _).trans ?_
  refine (Landed.read_slice (Val := Elt F) main_v2_scv (Rect.unit (s := S1300000) ![100000 * j] S100000.size inb) (WH0 m d) _).trans ?_
  unfold whAt
  rw [dif_pos (show 100000 * j + n.val < 1300000 by omega)]
  congr 1
  funext a
  apply Fin.ext
  match a with
  | ⟨0, _⟩ => show 100000 * j + 1 * n.val = 100000 * j + n.val; omega

/-- A slot the copy of a chunk of a field's index row has landed in holds that chunk. -/
theorem xholds_landed (p h j : ℕ) (offS : Fin 1 → Nat) (inbS : ∀ a, offS a + S2048.size a ≤ S4096.size a) (hoffS : offS = ![2048 * p])
    (off : Fin 2 → Nat) (inb : ∀ a, off a + S1x2048.size a ≤ S26x16384.size a) (hoff : off = ![j, 2048 * h])
    (base : Buf (Elt F) ((xM).view.loc (V d c i))) :
    XHolds m d c i p h j (((xM).slice (Rect.unit (s := S4096) offS S2048.size inbS) (fun _ => rfl)).view.writes (Elt F) base
      [⟨Rect.whole S2048, ReadAs.same.apply (View.read (Elt F) (((xtM).slice (Rect.unit (s := S26x16384) off S1x2048.size inb) (fun _ => rfl)).squeeze S2048 squeezes_S1x2048_S2048).view (XT m d))⟩]) := by
  subst hoffS
  subst hoff
  intro y hy
  have hj : j + 1 ≤ 26 := by have := inb 0; simpa using this
  have hh : 2048 * h + 2048 ≤ 16384 := by have := inb 1; simpa using this
  have hi : (ix1 (⟨2048 * p + y.val, hy⟩ : Fin 4096) : S4096.Idx) = (Rect.unit (s := S4096) ![2048 * p] S2048.size inbS).emb (ix1 y) := by
    funext a
    apply Fin.ext
    match a with
    | ⟨0, _⟩ => show 2048 * p + y.val = 2048 * p + 1 * y.val; omega
  rw [hi]
  refine (congrArg BitVec.toNat (Landed.slice_writes_hit (Val := Elt F) cc0_scratch1 base (Rect.unit (s := S4096) ![2048 * p] S2048.size inbS) _ (ix1 y))).trans ?_
  refine (congrArg BitVec.toNat (Landed.read_slice_reshape (Val := Elt F) main_v0_scv (Rect.unit (s := S26x16384) ![j, 2048 * h] S1x2048.size inb) S2048
    squeezes_S1x2048_S2048.numel_eq (XT m d) (ix1 y))).trans ?_
  have hre : Shape.reshapeEquiv (s := (Rect.unit (s := S26x16384) ![j, 2048 * h] S1x2048.size inb).shape) (s' := S2048) squeezes_S1x2048_S2048.numel_eq (ix1 y)
      = (ix2 (0 : Fin 1) y) := by
    apply Shape.reshapeEquiv_eq_of_rowMajor
    rw [Shape.rowMajor_val_two, Shape.rowMajor_val_one]
    show 0 * 2048 + y.val = y.val
    omega
  rw [hre]
  unfold xtAt
  rw [dif_pos ⟨by omega, by have := y.isLt; omega⟩]
  congr 2
  funext a
  apply Fin.ext
  match a with
  | ⟨0, _⟩ => show j + 1 * 0 = j; omega
  | ⟨1, _⟩ => show 2048 * h + 1 * y.val = 2048 * h + y.val; omega

/-- A piece of the row the whole value scratch has been copied into holds the looked-up entries of its chunk. -/
theorem piece_landed (cT' : Fin τ.nSC) (cc s h : ℕ) (hcc : cT'.val = cc) (hcs : s + cc < 7) (hh : h < 8) (off : Fin 1 → Nat) (inb : ∀ a, off a + S2048.size a ≤ S114688.size a) (hoff : off = ![16384 * s + 2048 * h])
    (base : Buf (Elt F) (acc0Loc d cT')) (fv : Buf (Elt F) ((valM).view.loc (V d c i))) (hG : Good m d c i cc s h 128 fv) :
    ∀ idx ∈ seg (N := 114688) (16384 * s + 2048 * h) 2048,
      (((accM).slice (Rect.unit (s := S114688) off S2048.size inb) (fun _ => rfl)).view.writes (Elt F) base
        [⟨Rect.whole S2048, ReadAs.same.apply (View.read (Elt F) (valM).view fv)⟩]) idx = ACC0 m d cT' idx := by
  subst hoff
  subst hcc
  intro idx hidx
  rw [mem_seg] at hidx
  have ht : (idx 0).val - (16384 * s + 2048 * h) < 2048 := by omega
  have hi : idx = (Rect.unit (s := S114688) ![16384 * s + 2048 * h] S2048.size inb).emb (ix1 (⟨(idx 0).val - (16384 * s + 2048 * h), ht⟩ : Fin 2048)) := by
    funext a
    apply Fin.ext
    match a with
    | ⟨0, _⟩ => show (idx 0).val = 16384 * s + 2048 * h + 1 * ((idx 0).val - (16384 * s + 2048 * h)); omega
  rw [hi]
  refine (Landed.slice_writes_hit (Val := Elt F) cc0_scratch5 base (Rect.unit (s := S114688) ![16384 * s + 2048 * h] S2048.size inb) _
    (ix1 (⟨(idx 0).val - (16384 * s + 2048 * h), ht⟩ : Fin 2048))).trans ?_
  refine (Landed.read_whole (Val := Elt F) cc0_scratch2 fv (ix1 (⟨(idx 0).val - (16384 * s + 2048 * h), ht⟩ : Fin 2048))).trans ?_
  refine (hG ⟨(idx 0).val - (16384 * s + 2048 * h), ht⟩ (by show (idx 0).val - (16384 * s + 2048 * h) < 16 * 128; omega)).trans ?_
  unfold ACC0 accVal
  show accAt (XT m d) (WH0 m d) 0 cT'.val s (2048 * h + ((idx 0).val - (16384 * s + 2048 * h)))
    = accAt (XT m d) (WH0 m d) 0 cT'.val ((16384 * s + 2048 * h + 1 * ((idx 0).val - (16384 * s + 2048 * h))) / 16384)
        ((16384 * s + 2048 * h + 1 * ((idx 0).val - (16384 * s + 2048 * h))) % 16384)
  have hs : s < 7 := by omega
  congr 1 <;> omega

end T0

end Cert.Proof.KI

end
-- ==== Proof.KI.Tile0Row.lean ====
/-
  Lookup 0, one tile: the set facts of the gather phase and of the row owner's barrier step.
  A trip's box of sixteen indices lies in its slot of the index scratch; the two slots cover the scratch and rejoin it;
  and the tile's row of the shared buffer at the looked-up values is exactly the sixteen payloads of its duties at the
  barrier: its sixteen column blocks of 1024.
-/
import proofs.«207420_g80582176408339_cont_9to1c4b_743_56_alg».proof.Proof.KI.Tile0Landed

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T0
section Mine
variable (d : Dev nD) (c : Fin τ.nSC) (i : Fin τ.nSub)

omit [FloatOps F] in
/-- A trip's box of sixteen indices lies in its slot. -/
theorem box_sub_slot (p k : ℕ) (offX : Fin 1 → Nat) (inbX : ∀ a, offX a + S16.size a ≤ S4096.size a) (hoff : offX = ![2048 * p + 16 * k]) (hk : k < 128) :
    (xM).view.setOn (Rect.unit (s := S4096) offX S16.size inbX).toLoadRect.set ⊆ seg (N := 4096) (2048 * p) 2048 := by
  intro j hj
  rw [View.setOn, Finset.mem_map] at hj
  obtain ⟨y, hy, rfl⟩ := hj
  have h0 := (Rect.mem_set_unit.mp hy) 0
  subst hoff
  rw [mem_seg]
  have e16 : S16.size 0 = 16 := rfl
  have e0 : (![2048 * p + 16 * k] : Fin 1 → Nat) 0 = 2048 * p + 16 * k := rfl
  rw [e16, e0] at h0
  show 2048 * p ≤ (y 0).val ∧ (y 0).val < 2048 * p + 2048
  omega

omit [FloatOps F] in
theorem x_cover : seg (N := 4096) 0 2048 ∪ seg (N := 4096) 2048 2048 = Finset.univ := by
  ext j; rw [Finset.mem_union, mem_seg, mem_seg]
  have : (j 0).val < 4096 := (j 0).isLt
  constructor
  · intro _; exact Finset.mem_univ _
  · intro _; omega

omit [FloatOps F] in
/-- The two slots, at whatever they hold, are the index scratch at some contents. -/
theorem x_join (f g : Buf (Elt F) ((V d c i).loc cc0_scratch1)) :
    iprop(((xSlot0).view.loc (V d c i) ↦[(xSlot0).view.set]{fullShare} f) ∗ ((xSlot1).view.loc (V d c i) ↦[(xSlot1).view.set]{fullShare} g))
      ⊢ (iprop(∃ f', (V d c i).loc cc0_scratch1 ↦{fullShare} f') : sProp 𝕄) := by
  rw [set_xSlot0, set_xSlot1]
  refine (pointsTo_join (seg_disjoint (Or.inl (by omega)))).trans ?_
  rw [x_cover]
  iintro H; iexists _; iexact H

/-- A tile that owns a row hands every tile its column block of it: the row at the looked-up values is the sixteen
    payloads of its duties. -/
theorem pays_row (s : ℕ) (hs : s < 7) :
    (acc0Loc d c ↦[seg (N := 114688) (16384 * s) 16384]{fullShare} ACC0 m d c : sProp 𝕄)
      = bigSep Finset.univ fun j : Fin (grid0.bound 1) => (bRd (F := F) m).payload (bcell d c (j.castLE hsub0)) 0 s := by
  rw [show seg (N := 114688) (16384 * s) 16384 = seg (N := 114688) (16384 * s) (1024 * 16) from rfl, ← seg_parts,
    pointsTo_biUnion _ _ seg_parts_disjoint]
  exact bigSep_congr fun j _ => (bPay_lt m d c (j.castLE hsub0) s hs).symm

end Mine
end T0

end Cert.Proof.KI

end
-- ==== Proof.KI.Tile0Post.lean ====
/-
  Lookup 0, one tile: the end of the task.
  From what the tile holds after its write-out — its two read shares, its 1024 entries of the result at the partial
  sums, its column block of each of the seven rows of the shared buffer at whatever they hold, its standing on its own
  barrier cell for the next lookup, its five scratches and twenty-one semaphores back, the waits it recorded — to the
  form the launch expects of a finished task.
-/
import proofs.«207420_g80582176408339_cont_9to1c4b_743_56_alg».proof.Proof.KI.Tile0Row

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T0
section Post
variable (d : Dev nD) (L : grid0.Coords)

/-- The end of the task: what the tile hands back, its scratches and semaphores, the waits it recorded. -/
theorem post_intro (hF : (K (F := F)).Facts) (O : CellTallies nD τ sig (HIx 2)) (W W' : Waits sig (HIx 2))
    (hW' : ∀ p ∈ W', p ∈ W ∨ p.2 = none ∨ p.2 = some (0 : Fin 2)) :
    (iprop((xtLoc d ↦{shT (cL L) (jL L)} XT m d) ∗ (w0Loc d ↦{shT (cL L) (jL L)} WH0 m d)
        ∗ (p0Loc d ↦[seg (N := 32768) (16384 * (cL L).val + 1024 * (jL L).val) 1024]{fullShare} PT0 m d)
        ∗ ((∃ f, acc0Loc d (cV L) ↦[seg (N := 114688) (16384 * 0 + 1024 * (jV L).val) 1024]{fullShare} f)
            ∗ (∃ f, acc0Loc d (cV L) ↦[seg (N := 114688) (16384 * 1 + 1024 * (jV L).val) 1024]{fullShare} f)
            ∗ (∃ f, acc0Loc d (cV L) ↦[seg (N := 114688) (16384 * 2 + 1024 * (jV L).val) 1024]{fullShare} f)
            ∗ (∃ f, acc0Loc d (cV L) ↦[seg (N := 114688) (16384 * 3 + 1024 * (jV L).val) 1024]{fullShare} f)
            ∗ (∃ f, acc0Loc d (cV L) ↦[seg (N := 114688) (16384 * 4 + 1024 * (jV L).val) 1024]{fullShare} f)
            ∗ (∃ f, acc0Loc d (cV L) ↦[seg (N := 114688) (16384 * 5 + 1024 * (jV L).val) 1024]{fullShare} f)
            ∗ (∃ f, acc0Loc d (cV L) ↦[seg (N := 114688) (16384 * 6 + 1024 * (jV L).val) 1024]{fullShare} f))
        ∗ atPos EB (bcell d (cV L) (jV L)) (0 + 1) ∅ 0 ∗ reached EB (bcell d (cV L) (jV L)) (0 + 1)
        ∗ ((∃ f, (V d (cV L) (jV L)).loc cc0_scratch0 ↦{fullShare} f)
            ∗ (∃ f, (V d (cV L) (jV L)).loc cc0_scratch1 ↦{fullShare} f)
            ∗ (∃ f, (V d (cV L) (jV L)).loc cc0_scratch2 ↦{fullShare} f)
            ∗ (∃ f, (V d (cV L) (jV L)).loc cc0_scratch3 ↦{fullShare} f)
            ∗ (∃ f, (V d (cV L) (jV L)).loc cc0_scratch4 ↦{fullShare} f))
        ∗ (bigSep (ownRefs (τ := τ) (.scVector (cV L) (jV L)) \ (bufCells (cV L) (jV L)).toFinset) fun b => iprop(∃ f, ((d, b) : Loc nD τ sig) ↦{fullShare} f))
        ∗ (semVal ((V d (cV L) (jV L), SemLoc.dma cc0_scratch6.sem) : GSem nD τ sig) 0
            ∗ semVal ((V d (cV L) (jV L), SemLoc.dma cc0_scratch7.sem) : GSem nD τ sig) 0
            ∗ semVal ((V d (cV L) (jV L), SemLoc.dma cc0_scratch8.sem) : GSem nD τ sig) 0
            ∗ semVal ((V d (cV L) (jV L), SemLoc.dma cc0_scratch9.sem) : GSem nD τ sig) 0
            ∗ semVal ((V d (cV L) (jV L), SemLoc.dma cc0_scoped0.sem) : GSem nD τ sig) 0
            ∗ semVal ((V d (cV L) (jV L), SemLoc.dma cc0_scoped1.sem) : GSem nD τ sig) 0
            ∗ semVal ((V d (cV L) (jV L), SemLoc.dma cc0_scoped2.sem) : GSem nD τ sig) 0
            ∗ semVal ((V d (cV L) (jV L), SemLoc.dma cc0_scoped3.sem) : GSem nD τ sig) 0
            ∗ semVal ((V d (cV L) (jV L), SemLoc.dma cc0_scoped4.sem) : GSem nD τ sig) 0
            ∗ semVal ((V d (cV L) (jV L), SemLoc.dma cc0_scoped5.sem) : GSem nD τ sig) 0
            ∗ semVal ((V d (cV L) (jV L), SemLoc.dma cc0_scoped6.sem) : GSem nD τ sig) 0
            ∗ semVal ((V d (cV L) (jV L), SemLoc.dma cc0_scoped7.sem) : GSem nD τ sig) 0
            ∗ semVal ((V d (cV L) (jV L), SemLoc.dma cc0_scoped8.sem) : GSem nD τ sig) 0
            ∗ semVal ((V d (cV L) (jV L), SemLoc.dma cc0_scoped9.sem) : GSem nD τ sig) 0
            ∗ semVal ((V d (cV L) (jV L), SemLoc.dma cc0_scoped10.sem) : GSem nD τ sig) 0
            ∗ semVal ((V d (cV L) (jV L), SemLoc.dma cc0_scoped11.sem) : GSem nD τ sig) 0
            ∗ semVal ((V d (cV L) (jV L), SemLoc.dma cc0_scoped12.sem) : GSem nD τ sig) 0
            ∗ semVal ((V d (cV L) (jV L), SemLoc.dma cc0_scoped13.sem) : GSem nD τ sig) 0
            ∗ semVal ((V d (cV L) (jV L), SemLoc.dma cc0_scoped14.sem) : GSem nD τ sig) 0
            ∗ semVal ((V d (cV L) (jV L), SemLoc.dma cc0_scoped15.sem) : GSem nD τ sig) 0
            ∗ semVal ((V d (cV L) (jV L), SemLoc.dma cc0_scoped16.sem) : GSem nD τ sig) 0)
        ∗ (bigSep (ownCells (V d (cV L) (jV L)) \ (semCells (V d (cV L) (jV L))).toFinset) fun g => semVal g 0)
        ∗ owes (V d (cV L) (jV L)) O W') : sProp 𝕄)
      ⊢ iprop(td0 m d (cL L) (jL L) ∗ scopedBufs (V d (cV L) (jV L)) ∗ scopedSems0 (V d (cV L) (jV L))
          ∗ ∃ W', ⌜∀ p ∈ W', p ∈ W ∨ p.2 = none ∨ p.2 = some (0 : Fin 2)⌝ ∗ owes (V d (cV L) (jV L)) O W') := by
  rw [(K (F := F)).scopedBufs_V hF d (cV L) (jV L), SparseCore.Cfg.scopedSems0_V (Val := Elt F) d (cV L) (jV L), ownSems0_V, ownBufs_V]
  unfold td0 bpos
  rw [bigSep_univ_eq_bigSepL [0, 1, 2, 3, 4, 5, 6] (by decide) (by decide),
    show bigSepL [0, 1, 2, 3, 4, 5, 6] (fun n : Fin 7 => iprop(∃ f, acc0Loc d (cT (cL L)) ↦[seg (N := 114688) (16384 * n.val + 1024 * (jL L).val) 1024]{fullShare} f))
      = (iprop((∃ f, acc0Loc d (cT (cL L)) ↦[seg (N := 114688) (16384 * (0 : Fin 7).val + 1024 * (jL L).val) 1024]{fullShare} f) ∗ (∃ f, acc0Loc d (cT (cL L)) ↦[seg (N := 114688) (16384 * (1 : Fin 7).val + 1024 * (jL L).val) 1024]{fullShare} f) ∗ (∃ f, acc0Loc d (cT (cL L)) ↦[seg (N := 114688) (16384 * (2 : Fin 7).val + 1024 * (jL L).val) 1024]{fullShare} f) ∗ (∃ f, acc0Loc d (cT (cL L)) ↦[seg (N := 114688) (16384 * (3 : Fin 7).val + 1024 * (jL L).val) 1024]{fullShare} f) ∗ (∃ f, acc0Loc d (cT (cL L)) ↦[seg (N := 114688) (16384 * (4 : Fin 7).val + 1024 * (jL L).val) 1024]{fullShare} f) ∗ (∃ f, acc0Loc d (cT (cL L)) ↦[seg (N := 114688) (16384 * (5 : Fin 7).val + 1024 * (jL L).val) 1024]{fullShare} f) ∗ (∃ f, acc0Loc d (cT (cL L)) ↦[seg (N := 114688) (16384 * (6 : Fin 7).val + 1024 * (jL L).val) 1024]{fullShare} f)) : sProp 𝕄) from rfl]
  iintro ⟨Hxt, Hwh, Hp0, ⟨G0, G1, G2, G3, G4, G5, G6⟩, Hat, Hrch1, ⟨B0, B1, B2, B3, B4⟩, Hbufs,
    ⟨Hs6, Hs7, Hs8, Hs9, Hc0, Hc1, Hc2, Hc3, Hc4, Hc5, Hc6, Hc7, Hc8, Hc9, Hc10, Hc11, Hc12, Hc13, Hc14, Hc15, Hc16⟩, Hsems, HO⟩
  isplitl [Hxt Hwh Hp0 G0 G1 G2 G3 G4 G5 G6 Hat Hrch1]
  · isplitl [Hxt]; · iexact Hxt
    isplitl [Hwh]; · iexact Hwh
    isplitl [Hp0]; · iexact Hp0
    isplitl [G0 G1 G2 G3 G4 G5 G6]
    · isplitl [G0]; · iexact G0
      isplitl [G1]; · iexact G1
      isplitl [G2]; · iexact G2
      isplitl [G3]; · iexact G3
      isplitl [G4]; · iexact G4
      isplitl [G5]; · iexact G5
      iexact G6
    isplitl [Hat]; · iexact Hat
    iexact Hrch1
  isplitl [B0 B1 B2 B3 B4 Hbufs]
  · isplitl [B0 B1 B2 B3 B4]
    · isplitl [B0]; · iexact B0
      isplitl [B1]; · iexact B1
      isplitl [B2]; · iexact B2
      isplitl [B3]; · iexact B3
      iexact B4
    iexact Hbufs
  isplitl [Hs6 Hs7 Hs8 Hs9 Hc0 Hc1 Hc2 Hc3 Hc4 Hc5 Hc6 Hc7 Hc8 Hc9 Hc10 Hc11 Hc12 Hc13 Hc14 Hc15 Hc16 Hsems]
  · isplitl [Hs6 Hs7 Hs8 Hs9 Hc0 Hc1 Hc2 Hc3 Hc4 Hc5 Hc6 Hc7 Hc8 Hc9 Hc10 Hc11 Hc12 Hc13 Hc14 Hc15 Hc16]
    · isplitl [Hs6]; · iexact Hs6
      isplitl [Hs7]; · iexact Hs7
      isplitl [Hs8]; · iexact Hs8
      isplitl [Hs9]; · iexact Hs9
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      iexact Hc16
    iexact Hsems
  iexists W'; isplitr
  · ipureintro; exact hW'
  · iexact HO

end Post
end T0

end Cert.Proof.KI

end
-- ==== Proof.KI.Tile0Out.lean ====
/-
  Lookup 0, one tile: what the write-out leaves. The tile's 1024 entries of the result, once the whole output scratch
  has been copied into them, are SparseCore c's partial sums for batch rows 1024 s … 1024 s + 1023.
-/
import proofs.«207420_g80582176408339_cont_9to1c4b_743_56_alg».proof.Proof.KI.Tile0Post

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T0
section Out
variable (d : Dev nD) (c : Fin τ.nSC) (i : Fin τ.nSub)

open Idealize.ShloMosaic.ValueIdx in
/-- The tile's 1024 entries of the result, once the output scratch has been copied into them, are the partial sums. -/
theorem out_landed (cc s : ℕ) (hcc : cc < 2) (hs : s < 16) (off : Fin 1 → Nat) (inb : ∀ a, off a + S1024.size a ≤ S32768.size a) (hoff : off = ![16384 * cc + 1024 * s])
    (base : Buf (Elt F) (p0Loc d)) (h : Buf (Elt F) ((outM).view.loc (V d c i)))
    (hh : ∀ k : Fin 1024, (show F .f32 from h (ix1 k)) = partAt (XT m d) (WH0 m d) 0 cc (1024 * s + k.val)) :
    ∀ idx ∈ seg (N := 32768) (16384 * cc + 1024 * s) 1024,
      (((poM).slice (Rect.unit (s := S32768) off S1024.size inb) (fun _ => rfl)).view.writes (Elt F) base
        [⟨Rect.whole S1024, ReadAs.same.apply (View.read (Elt F) (outM).view h)⟩]) idx = PT0 m d idx := by
  subst hoff
  intro idx hidx
  rw [mem_seg] at hidx
  have ht : (idx 0).val - (16384 * cc + 1024 * s) < 1024 := by omega
  have hi : idx = (Rect.unit (s := S32768) ![16384 * cc + 1024 * s] S1024.size inb).emb (ix1 (⟨(idx 0).val - (16384 * cc + 1024 * s), ht⟩ : Fin 1024)) := by
    funext a
    apply Fin.ext
    match a with
    | ⟨0, _⟩ => show (idx 0).val = 16384 * cc + 1024 * s + 1 * ((idx 0).val - (16384 * cc + 1024 * s)); omega
  rw [hi]
  refine (Landed.slice_writes_hit (Val := Elt F) main_v6_scv base (Rect.unit (s := S32768) ![16384 * cc + 1024 * s] S1024.size inb) _
    (ix1 (⟨(idx 0).val - (16384 * cc + 1024 * s), ht⟩ : Fin 1024))).trans ?_
  refine (Landed.read_whole (Val := Elt F) cc0_scratch4 h (ix1 (⟨(idx 0).val - (16384 * cc + 1024 * s), ht⟩ : Fin 1024))).trans ?_
  refine (hh ⟨(idx 0).val - (16384 * cc + 1024 * s), ht⟩).trans ?_
  unfold PT0 partVal
  show partAt (XT m d) (WH0 m d) 0 cc (1024 * s + ((idx 0).val - (16384 * cc + 1024 * s)))
    = partAt (XT m d) (WH0 m d) 0 ((16384 * cc + 1024 * s + 1 * ((idx 0).val - (16384 * cc + 1024 * s))) / 16384)
        ((16384 * cc + 1024 * s + 1 * ((idx 0).val - (16384 * cc + 1024 * s))) % 16384)
  congr 1 <;> omega

end Out
end T0

end Cert.Proof.KI

end
-- ==== Proof.KI.ReduceIdx.lean ====
/-
  The reduction's entries, read back. A store of sixteen lanes into the output scratch leaves those lanes at its box and
  the old contents elsewhere; a load of sixteen lanes from the reduction scratch reads sixteen consecutive entries; a
  window of 512 of the reduction scratch that a copy out of the shared buffer has landed in holds, entry by entry, the
  512 entries of the shared buffer the copy read.
-/
import proofs.«207420_g80582176408339_cont_9to1c4b_743_56_alg».proof.Proof.KI.Common
import proofs.«207420_g80582176408339_cont_9to1c4b_743_56_alg».proof.Proof.KI.Landed

noncomputable section

namespace Cert.Proof.KI

open Cert.KernelIdeal Cert.KernelIdeal.Gen
open Idealize.ShloMosaic Idealize.ShloMosaic.ValueIdx
open Idealize.ShloMosaic.SparseCore (S V)

variable {F : FTy → Type} [FloatOps F]

variable (d : Dev nD) (c : Fin τ.nSC) (i : Fin τ.nSub)

/-- A store of sixteen lanes into the output scratch of lookup 0: the lanes where it lands, -/
theorem writes16_hit_0 (h : Buf (Elt F) ((Memref.whole cc0_scratch4).view.loc (V d c i))) (off : Fin 1 → Nat)
    (inb : ∀ a, off a + S16.size a ≤ S1024.size a) (w : FVec F S16 .f32) (l : Fin 16) (hlt : off 0 + l.val < 1024) :
    ((Memref.whole cc0_scratch4).view.writes (Elt F) h [⟨Rect.unit (s := S1024) off S16.size inb, w⟩]) (ix1 (⟨off 0 + l.val, hlt⟩ : Fin 1024)) = w (ix1 l) := by
  have hi : (ix1 (⟨off 0 + l.val, hlt⟩ : Fin 1024) : S1024.Idx) = (Rect.unit (s := S1024) off S16.size inb).emb (ix1 l) := by
    funext a
    apply Fin.ext
    match a with
    | ⟨0, _⟩ => show off 0 + l.val = off 0 + 1 * l.val; omega
  rw [hi]
  exact Landed.whole_writes_hit (Val := Elt F) cc0_scratch4 h (Rect.unit (s := S1024) off S16.size inb) w (ix1 l)

/-- and the old contents elsewhere. -/
theorem writes16_miss_0 (h : Buf (Elt F) ((Memref.whole cc0_scratch4).view.loc (V d c i))) (off : Fin 1 → Nat)
    (inb : ∀ a, off a + S16.size a ≤ S1024.size a) (w : FVec F S16 .f32) (k : Fin 1024) (hk : k.val < off 0 ∨ off 0 + 16 ≤ k.val) :
    ((Memref.whole cc0_scratch4).view.writes (Elt F) h [⟨Rect.unit (s := S1024) off S16.size inb, w⟩]) (ix1 k) = h (ix1 k) := by
  refine Landed.whole_writes_miss (Val := Elt F) cc0_scratch4 h (Rect.unit (s := S1024) off S16.size inb) w (ix1 k) ?_
  rw [Rect.mem_set_unit]
  intro hall
  have h0 := hall 0
  have h1 : off 0 ≤ k.val := h0.1
  have h2 : k.val < off 0 + 16 := h0.2
  omega

/-- Sixteen lanes loaded from the reduction scratch of lookup 0 are its sixteen consecutive entries. -/
theorem readAt16_0 (g : Buf (Elt F) ((Memref.whole cc0_scratch3).view.loc (V d c i))) (off : Fin 1 → Nat)
    (inb : ∀ a, off a + S16.size a ≤ S3584.size a) (l : Fin 16) (hlt : off 0 + l.val < 3584) :
    View.readAt (Elt F) (Memref.whole cc0_scratch3).view (Rect.unit (s := S3584) off S16.size inb).toLoadRect g (ix1 l)
      = g (ix1 (⟨off 0 + l.val, hlt⟩ : Fin 3584)) := by
  rw [View.readAt_apply]
  refine (Landed.read_whole (Val := Elt F) cc0_scratch3 g _).trans ?_
  congr 1
  funext a
  apply Fin.ext
  match a with
  | ⟨0, _⟩ => show off 0 + 1 * l.val = off 0 + l.val; omega

/-- A window of 512 of the reduction scratch a copy out of the shared buffer of lookup 0 has landed in holds the 512
    entries copied. -/
theorem landed512_0 (cT' : Fin τ.nSC) (offd : Fin 1 → Nat) (inbd : ∀ a, offd a + S512.size a ≤ S3584.size a) (offs : Fin 1 → Nat)
    (inbs : ∀ a, offs a + S512.size a ≤ S114688.size a) (fd : Buf (Elt F) ((Memref.whole cc0_scratch3).view.loc (V d c i)))
    (fs : Buf (Elt F) (acc0Loc d cT')) (k : Fin 512) (hd : offd 0 + k.val < 3584) (hs : offs 0 + k.val < 114688) :
    ((((Memref.whole cc0_scratch3).slice (Rect.unit (s := S3584) offd S512.size inbd) (fun _ => rfl)).view.writes (Elt F) fd
      [⟨Rect.whole S512, ReadAs.same.apply (View.read (Elt F)
        ((Memref.whole cc0_scratch5).slice (Rect.unit (s := S114688) offs S512.size inbs) (fun _ => rfl)).view fs)⟩]) (ix1 (⟨offd 0 + k.val, hd⟩ : Fin 3584)))
      = fs (ix1 (⟨offs 0 + k.val, hs⟩ : Fin 114688)) := by
  have hi : (ix1 (⟨offd 0 + k.val, hd⟩ : Fin 3584) : S3584.Idx) = (Rect.unit (s := S3584) offd S512.size inbd).emb (ix1 k) := by
    funext a
    apply Fin.ext
    match a with
    | ⟨0, _⟩ => show offd 0 + k.val = offd 0 + 1 * k.val; omega
  rw [hi]
  refine (Landed.slice_writes_hit (Val := Elt F) cc0_scratch3 fd (Rect.unit (s := S3584) offd S512.size inbd) _ (ix1 k)).trans ?_
  refine (Landed.read_slice (Val := Elt F) cc0_scratch5 (Rect.unit (s := S114688) offs S512.size inbs) fs (ix1 k)).trans ?_
  congr 1
  funext a
  apply Fin.ext
  match a with
  | ⟨0, _⟩ => show offs 0 + 1 * k.val = offs 0 + k.val; omega

/-- A store of sixteen lanes into the output scratch of lookup 1: the lanes where it lands, -/
theorem writes16_hit_1 (h : Buf (Elt F) ((Memref.whole cc1_scratch4).view.loc (V d c i))) (off : Fin 1 → Nat)
    (inb : ∀ a, off a + S16.size a ≤ S1024.size a) (w : FVec F S16 .f32) (l : Fin 16) (hlt : off 0 + l.val < 1024) :
    ((Memref.whole cc1_scratch4).view.writes (Elt F) h [⟨Rect.unit (s := S1024) off S16.size inb, w⟩]) (ix1 (⟨off 0 + l.val, hlt⟩ : Fin 1024)) = w (ix1 l) := by
  have hi : (ix1 (⟨off 0 + l.val, hlt⟩ : Fin 1024) : S1024.Idx) = (Rect.unit (s := S1024) off S16.size inb).emb (ix1 l) := by
    funext a
    apply Fin.ext
    match a with
    | ⟨0, _⟩ => show off 0 + l.val = off 0 + 1 * l.val; omega
  rw [hi]
  exact Landed.whole_writes_hit (Val := Elt F) cc1_scratch4 h (Rect.unit (s := S1024) off S16.size inb) w (ix1 l)

/-- and the old contents elsewhere. -/
theorem writes16_miss_1 (h : Buf (Elt F) ((Memref.whole cc1_scratch4).view.loc (V d c i))) (off : Fin 1 → Nat)
    (inb : ∀ a, off a + S16.size a ≤ S1024.size a) (w : FVec F S16 .f32) (k : Fin 1024) (hk : k.val < off 0 ∨ off 0 + 16 ≤ k.val) :
    ((Memref.whole cc1_scratch4).view.writes (Elt F) h [⟨Rect.unit (s := S1024) off S16.size inb, w⟩]) (ix1 k) = h (ix1 k) := by
  refine Landed.whole_writes_miss (Val := Elt F) cc1_scratch4 h (Rect.unit (s := S1024) off S16.size inb) w (ix1 k) ?_
  rw [Rect.mem_set_unit]
  intro hall
  have h0 := hall 0
  have h1 : off 0 ≤ k.val := h0.1
  have h2 : k.val < off 0 + 16 := h0.2
  omega

/-- Sixteen lanes loaded from the reduction scratch of lookup 1 are its sixteen consecutive entries. -/
theorem readAt16_1 (g : Buf (Elt F) ((Memref.whole cc1_scratch3).view.loc (V d c i))) (off : Fin 1 → Nat)
    (inb : ∀ a, off a + S16.size a ≤ S3584.size a) (l : Fin 16) (hlt : off 0 + l.val < 3584) :
    View.readAt (Elt F) (Memref.whole cc1_scratch3).view (Rect.unit (s := S3584) off S16.size inb).toLoadRect g (ix1 l)
      = g (ix1 (⟨off 0 + l.val, hlt⟩ : Fin 3584)) := by
  rw [View.readAt_apply]
  refine (Landed.read_whole (Val := Elt F) cc1_scratch3 g _).trans ?_
  congr 1
  funext a
  apply Fin.ext
  match a with
  | ⟨0, _⟩ => show off 0 + 1 * l.val = off 0 + l.val; omega

/-- A window of 512 of the reduction scratch a copy out of the shared buffer of lookup 1 has landed in holds the 512
    entries copied. -/
theorem landed512_1 (cT' : Fin τ.nSC) (offd : Fin 1 → Nat) (inbd : ∀ a, offd a + S512.size a ≤ S3584.size a) (offs : Fin 1 → Nat)
    (inbs : ∀ a, offs a + S512.size a ≤ S114688.size a) (fd : Buf (Elt F) ((Memref.whole cc1_scratch3).view.loc (V d c i)))
    (fs : Buf (Elt F) (acc1Loc d cT')) (k : Fin 512) (hd : offd 0 + k.val < 3584) (hs : offs 0 + k.val < 114688) :
    ((((Memref.whole cc1_scratch3).slice (Rect.unit (s := S3584) offd S512.size inbd) (fun _ => rfl)).view.writes (Elt F) fd
      [⟨Rect.whole S512, ReadAs.same.apply (View.read (Elt F)
        ((Memref.whole cc1_scratch5).slice (Rect.unit (s := S114688) offs S512.size inbs) (fun _ => rfl)).view fs)⟩]) (ix1 (⟨offd 0 + k.val, hd⟩ : Fin 3584)))
      = fs (ix1 (⟨offs 0 + k.val, hs⟩ : Fin 114688)) := by
  have hi : (ix1 (⟨offd 0 + k.val, hd⟩ : Fin 3584) : S3584.Idx) = (Rect.unit (s := S3584) offd S512.size inbd).emb (ix1 k) := by
    funext a
    apply Fin.ext
    match a with
    | ⟨0, _⟩ => show offd 0 + k.val = offd 0 + 1 * k.val; omega
  rw [hi]
  refine (Landed.slice_writes_hit (Val := Elt F) cc1_scratch3 fd (Rect.unit (s := S3584) offd S512.size inbd) _ (ix1 k)).trans ?_
  refine (Landed.read_slice (Val := Elt F) cc1_scratch5 (Rect.unit (s := S114688) offs S512.size inbs) fs (ix1 k)).trans ?_
  congr 1
  funext a
  apply Fin.ext
  match a with
  | ⟨0, _⟩ => show offs 0 + 1 * k.val = offs 0 + k.val; omega

end Cert.Proof.KI

end
-- ==== Proof.KI.ReduceValue.lean ====
/-
  Two value facts for the reduction after the barrier. The shared buffer's entry 16384 n + b is row n's entry for batch
  row b. And the sum a reduction trip stores — seven loaded rows added lane by lane, first to last — is, in a lane that
  holds the seven rows' entries for batch row b, the SparseCore's partial sum for b.
-/
import proofs.«207420_g80582176408339_cont_9to1c4b_743_56_alg».proof.Proof.KI.Common

noncomputable section

namespace Cert.Proof.KI

open Cert.KernelIdeal Cert.KernelIdeal.Gen
open Idealize.ShloMosaic Idealize.ShloMosaic.ValueIdx

variable {F : FTy → Type} [FloatOps F]

theorem accVal_apply (xt : IVec S26x16384 32) (wh : FVec F S1300000 .f32) (fb c n b : Nat) (hn : n < 7) (hb : b < 16384) :
    accVal xt wh fb c (ix1 (⟨16384 * n + b, by omega⟩ : Fin 114688)) = accAt xt wh fb c n b := by
  unfold accVal
  show accAt xt wh fb c ((16384 * n + b) / 16384) ((16384 * n + b) % 16384) = _
  rw [show (16384 * n + b) / 16384 = n by omega, show (16384 * n + b) % 16384 = b by omega]

theorem pay1_partAt_k0 (xt : IVec S26x16384 32) (wh : FVec F S1300000 .f32) (fb c b : Nat)
    (v0 v1 v2 v3 v4 v5 v6 : Vec F S16 .f32) (l : Fin 16)
    (h0 : v0 (ix1 l) = accAt xt wh fb c 0 b) (h1 : v1 (ix1 l) = accAt xt wh fb c 1 b) (h2 : v2 (ix1 l) = accAt xt wh fb c 2 b)
    (h3 : v3 (ix1 l) = accAt xt wh fb c 3 b) (h4 : v4 (ix1 l) = accAt xt wh fb c 4 b) (h5 : v5 (ix1 l) = accAt xt wh fb c 5 b)
    (h6 : v6 (ix1 l) = accAt xt wh fb c 6 b) :
    k0_pay1 v0 v1 v2 v3 v4 v5 v6 (ix1 l) = partAt xt wh fb c b := by
  unfold k0_pay1 partAt
  simp only [addf]
  rw [h0, h1, h2, h3, h4, h5, h6]

theorem pay3_partAt_k0 (xt : IVec S26x16384 32) (wh : FVec F S1300000 .f32) (fb c b : Nat)
    (v0 v1 v2 v3 v4 v5 v6 : Vec F S16 .f32) (l : Fin 16)
    (h0 : v0 (ix1 l) = accAt xt wh fb c 0 b) (h1 : v1 (ix1 l) = accAt xt wh fb c 1 b) (h2 : v2 (ix1 l) = accAt xt wh fb c 2 b)
    (h3 : v3 (ix1 l) = accAt xt wh fb c 3 b) (h4 : v4 (ix1 l) = accAt xt wh fb c 4 b) (h5 : v5 (ix1 l) = accAt xt wh fb c 5 b)
    (h6 : v6 (ix1 l) = accAt xt wh fb c 6 b) :
    k0_pay3 v0 v1 v2 v3 v4 v5 v6 (ix1 l) = partAt xt wh fb c b := by
  unfold k0_pay3 partAt
  simp only [addf]
  rw [h0, h1, h2, h3, h4, h5, h6]

theorem pay1_partAt_k1 (xt : IVec S26x16384 32) (wh : FVec F S1300000 .f32) (fb c b : Nat)
    (v0 v1 v2 v3 v4 v5 v6 : Vec F S16 .f32) (l : Fin 16)
    (h0 : v0 (ix1 l) = accAt xt wh fb c 0 b) (h1 : v1 (ix1 l) = accAt xt wh fb c 1 b) (h2 : v2 (ix1 l) = accAt xt wh fb c 2 b)
    (h3 : v3 (ix1 l) = accAt xt wh fb c 3 b) (h4 : v4 (ix1 l) = accAt xt wh fb c 4 b) (h5 : v5 (ix1 l) = accAt xt wh fb c 5 b)
    (h6 : v6 (ix1 l) = accAt xt wh fb c 6 b) :
    k1_pay1 v0 v1 v2 v3 v4 v5 v6 (ix1 l) = partAt xt wh fb c b := by
  unfold k1_pay1 partAt
  simp only [addf]
  rw [h0, h1, h2, h3, h4, h5, h6]

theorem pay3_partAt_k1 (xt : IVec S26x16384 32) (wh : FVec F S1300000 .f32) (fb c b : Nat)
    (v0 v1 v2 v3 v4 v5 v6 : Vec F S16 .f32) (l : Fin 16)
    (h0 : v0 (ix1 l) = accAt xt wh fb c 0 b) (h1 : v1 (ix1 l) = accAt xt wh fb c 1 b) (h2 : v2 (ix1 l) = accAt xt wh fb c 2 b)
    (h3 : v3 (ix1 l) = accAt xt wh fb c 3 b) (h4 : v4 (ix1 l) = accAt xt wh fb c 4 b) (h5 : v5 (ix1 l) = accAt xt wh fb c 5 b)
    (h6 : v6 (ix1 l) = accAt xt wh fb c 6 b) :
    k1_pay3 v0 v1 v2 v3 v4 v5 v6 (ix1 l) = partAt xt wh fb c b := by
  unfold k1_pay3 partAt
  simp only [addf]
  rw [h0, h1, h2, h3, h4, h5, h6]

end Cert.Proof.KI

end
-- ==== Proof.KI.ReduceStep.lean ====
/-
  The reduction, one window and one trip at a time. A window of the reduction scratch a copy has landed in, the shared
  buffer standing at the looked-up values, holds a row's entries for 512 consecutive batch rows of the tile. A trip of
  the adding loop reads sixteen lanes of each of the seven windows, adds them first to last, and stores the sixteen sums:
  they are the partial sums of sixteen consecutive batch rows, and what the earlier trips stored stays.
-/
import proofs.«207420_g80582176408339_cont_9to1c4b_743_56_alg».proof.Proof.KI.ReduceIdx
import proofs.«207420_g80582176408339_cont_9to1c4b_743_56_alg».proof.Proof.KI.ReduceValue

noncomputable section

namespace Cert.Proof.KI

open Cert.KernelIdeal Cert.KernelIdeal.Gen
open Idealize.ShloMosaic Idealize.ShloMosaic.ValueIdx
open Idealize.ShloMosaic.SparseCore (S V)

variable {F : FTy → Type} [FloatOps F]

variable (m : (ℓ : Loc nD τ sig) → Buf (Elt F) ℓ)

variable (d : Dev nD) (c : Fin τ.nSC) (i : Fin τ.nSub)

/-- A tile's window `n` of the reduction scratch of lookup 0, landed from the shared buffer (at `ACC0`) at the
    source the task slices for round `r`: entry `512 n + k` is row `n`'s entry for batch row `1024 s + 512 r + k`. -/
theorem landed_acc_aux_0 (cT' : Fin τ.nSC) (s rr : Nat) (hs : s < 16) (hr : rr < 2) (n : Fin 7) (k : Nat) (hk : k < 512)
    (offd : Fin 1 → Nat) (hoffd : offd = ![512 * n.val]) (inbd : ∀ a, offd a + S512.size a ≤ S3584.size a)
    (offs : Fin 1 → Nat) (hoffs : offs = ![16384 * n.val + 1024 * s + 512 * rr]) (inbs : ∀ a, offs a + S512.size a ≤ S114688.size a)
    (fd : Buf (Elt F) ((Memref.whole cc0_scratch3).view.loc (V d c i))) :
    ((((Memref.whole cc0_scratch3).slice (Rect.unit (s := S3584) offd S512.size inbd) (fun _ => rfl)).view.writes (Elt F) fd
      [⟨Rect.whole S512, ReadAs.same.apply (View.read (Elt F)
        ((Memref.whole cc0_scratch5).slice (Rect.unit (s := S114688) offs S512.size inbs) (fun _ => rfl)).view (ACC0 m d cT'))⟩])
        (ix1 (⟨512 * n.val + k, by have := n.isLt; omega⟩ : Fin 3584)))
      = accAt (XT m d) (WH0 m d) 0 cT'.val n.val (1024 * s + 512 * rr + k) := by
  subst hoffd
  subst hoffs
  have hn := n.isLt
  have hd : (![512 * n.val] : Fin 1 → Nat) 0 + k < 3584 := by show 512 * n.val + k < 3584; omega
  have hs' : (![16384 * n.val + 1024 * s + 512 * rr] : Fin 1 → Nat) 0 + k < 114688 := by show 16384 * n.val + 1024 * s + 512 * rr + k < 114688; omega
  refine (landed512_0 d c i cT' _ inbd _ inbs fd (ACC0 m d cT') ⟨k, hk⟩ hd hs').trans ?_
  have hb : 1024 * s + 512 * rr + k < 16384 := by omega
  refine Eq.trans ?_ (accVal_apply (XT m d) (WH0 m d) 0 cT'.val n.val (1024 * s + 512 * rr + k) hn hb)
  show accVal _ _ _ _ _ = accVal _ _ _ _ _
  congr 1
  funext a
  apply Fin.ext
  match a with
  | ⟨0, _⟩ => show 16384 * n.val + 1024 * s + 512 * rr + k = 16384 * n.val + (1024 * s + 512 * rr + k); omega

/-- The same at the task's own offsets. -/
theorem landed_acc_0 (cT' : Fin τ.nSC) (L : grid0.Coords) (r : Fin 2) (n : Fin 7) (k : Nat) (hk : k < 512)
    (inbd : ∀ a, (![512 * n.val] : Fin 1 → Nat) a + S512.size a ≤ S3584.size a)
    (fd : Buf (Elt F) ((Memref.whole cc0_scratch3).view.loc (V d c i))) :
    ((((Memref.whole cc0_scratch3).slice (Rect.unit (s := S3584) ![512 * n.val] S512.size inbd) (fun _ => rfl)).view.writes (Elt F) fd
      [⟨Rect.whole S512, ReadAs.same.apply (View.read (Elt F)
        ((Memref.whole cc0_scratch5).slice (Rect.unit (s := S114688) (k0_off29 L (BitVec.ofNat 32 (16384 * n.val)) (BitVec.ofNat 32 (512 * r.val))) S512.size
          (Gen.k0_off29_inb L n r)) (fun _ => rfl)).view (ACC0 m d cT'))⟩])
        (ix1 (⟨512 * n.val + k, by have := n.isLt; omega⟩ : Fin 3584)))
      = accAt (XT m d) (WH0 m d) 0 cT'.val n.val (1024 * (L 1).val + 512 * r.val + k) :=
  landed_acc_aux_0 m d c i cT' (L 1).val r.val (L 1).isLt r.isLt n k hk _ rfl inbd _ (Gen.k0_off29_eq L n r) (Gen.k0_off29_inb L n r) fd

/-- One trip of a reduction loop of lookup 0, over abstract offsets and an abstract seven-row sum: the sixteen lanes it
    stores at `lo + 16 t` of the output scratch are the partial sums of batch rows `1024 s + lo + 16 t + l`, and the done part
    below stays. -/
theorem step_gen_0 (xt : IVec S26x16384 32) (wh : FVec F S1300000 .f32) (fb cn s lo t : Nat) (ht : t < 32) (hlo : lo + 512 ≤ 1024)
    (pay : Vec F S16 .f32 → Vec F S16 .f32 → Vec F S16 .f32 → Vec F S16 .f32 → Vec F S16 .f32 → Vec F S16 .f32 → Vec F S16 .f32 → FVec F S16 .f32)
    (hpay : ∀ (v0 v1 v2 v3 v4 v5 v6 : Vec F S16 .f32) (l : Fin 16) (b : Nat),
      v0 (ix1 l) = accAt xt wh fb cn 0 b → v1 (ix1 l) = accAt xt wh fb cn 1 b → v2 (ix1 l) = accAt xt wh fb cn 2 b → v3 (ix1 l) = accAt xt wh fb cn 3 b →
      v4 (ix1 l) = accAt xt wh fb cn 4 b → v5 (ix1 l) = accAt xt wh fb cn 5 b → v6 (ix1 l) = accAt xt wh fb cn 6 b →
      pay v0 v1 v2 v3 v4 v5 v6 (ix1 l) = partAt xt wh fb cn b)
    (g : Buf (Elt F) ((Memref.whole cc0_scratch3).view.loc (V d c i))) (h : Buf (Elt F) ((Memref.whole cc0_scratch4).view.loc (V d c i)))
    (ow : Fin 1 → Nat) (inbw : ∀ a, ow a + S16.size a ≤ S1024.size a) (how : ow = ![lo + 16 * t])
    (o0 : Fin 1 → Nat) (inb0 : ∀ a, o0 a + S16.size a ≤ S3584.size a) (ho0 : o0 = ![512 * 0 + 16 * t])
    (o1 : Fin 1 → Nat) (inb1 : ∀ a, o1 a + S16.size a ≤ S3584.size a) (ho1 : o1 = ![512 * 1 + 16 * t])
    (o2 : Fin 1 → Nat) (inb2 : ∀ a, o2 a + S16.size a ≤ S3584.size a) (ho2 : o2 = ![512 * 2 + 16 * t])
    (o3 : Fin 1 → Nat) (inb3 : ∀ a, o3 a + S16.size a ≤ S3584.size a) (ho3 : o3 = ![512 * 3 + 16 * t])
    (o4 : Fin 1 → Nat) (inb4 : ∀ a, o4 a + S16.size a ≤ S3584.size a) (ho4 : o4 = ![512 * 4 + 16 * t])
    (o5 : Fin 1 → Nat) (inb5 : ∀ a, o5 a + S16.size a ≤ S3584.size a) (ho5 : o5 = ![512 * 5 + 16 * t])
    (o6 : Fin 1 → Nat) (inb6 : ∀ a, o6 a + S16.size a ≤ S3584.size a) (ho6 : o6 = ![512 * 6 + 16 * t])
    (hgv : ∀ (n : Fin 7) (j : Nat) (hj : j < 512), g (ix1 (⟨512 * n.val + j, by have := n.isLt; omega⟩ : Fin 3584)) = accAt xt wh fb cn n.val (1024 * s + lo + j))
    (hh : ∀ q : Fin 1024, q.val < lo + 16 * t → h (ix1 q) = partAt xt wh fb cn (1024 * s + q.val)) :
    ∀ q : Fin 1024, q.val < lo + 16 * (t + 1) →
      ((Memref.whole cc0_scratch4).view.writes (Elt F) h [⟨Rect.unit (s := S1024) ow S16.size inbw,
        pay (View.readAt (Elt F) (Memref.whole cc0_scratch3).view (Rect.unit (s := S3584) o0 S16.size inb0).toLoadRect g) (View.readAt (Elt F) (Memref.whole cc0_scratch3).view (Rect.unit (s := S3584) o1 S16.size inb1).toLoadRect g) (View.readAt (Elt F) (Memref.whole cc0_scratch3).view (Rect.unit (s := S3584) o2 S16.size inb2).toLoadRect g) (View.readAt (Elt F) (Memref.whole cc0_scratch3).view (Rect.unit (s := S3584) o3 S16.size inb3).toLoadRect g) (View.readAt (Elt F) (Memref.whole cc0_scratch3).view (Rect.unit (s := S3584) o4 S16.size inb4).toLoadRect g) (View.readAt (Elt F) (Memref.whole cc0_scratch3).view (Rect.unit (s := S3584) o5 S16.size inb5).toLoadRect g) (View.readAt (Elt F) (Memref.whole cc0_scratch3).view (Rect.unit (s := S3584) o6 S16.size inb6).toLoadRect g)⟩]) (ix1 q) = partAt xt wh fb cn (1024 * s + q.val) := by
  intro q hq
  have how0 : ow 0 = lo + 16 * t := by rw [how]; rfl
  by_cases hlt : q.val < lo + 16 * t
  · rw [writes16_miss_0 d c i h ow inbw _ q (Or.inl (by rw [how0]; exact hlt))]
    exact hh q hlt
  · have hl : q.val - (lo + 16 * t) < 16 := by omega
    have hql : ow 0 + (q.val - (lo + 16 * t)) < 1024 := by rw [how0]; have := q.isLt; omega
    have hq' : q = (⟨ow 0 + (q.val - (lo + 16 * t)), hql⟩ : Fin 1024) := Fin.ext (by show q.val = ow 0 + (q.val - (lo + 16 * t)); rw [how0]; omega)
    rw [hq', writes16_hit_0 d c i h ow inbw _ ⟨q.val - (lo + 16 * t), hl⟩ hql]
    have hb : 1024 * s + (ow 0 + (q.val - (lo + 16 * t))) = 1024 * s + lo + (16 * t + (q.val - (lo + 16 * t))) := by rw [how0]; omega
    show pay _ _ _ _ _ _ _ (ix1 (⟨q.val - (lo + 16 * t), hl⟩ : Fin 16)) = partAt xt wh fb cn (1024 * s + (ow 0 + (q.val - (lo + 16 * t))))
    rw [hb]
    have lane : ∀ (n : Fin 7) (o : Fin 1 → Nat) (inb : ∀ a, o a + S16.size a ≤ S3584.size a) (ho : o = ![512 * n.val + 16 * t]),
        View.readAt (Elt F) (Memref.whole cc0_scratch3).view (Rect.unit (s := S3584) o S16.size inb).toLoadRect g (ix1 (⟨q.val - (lo + 16 * t), hl⟩ : Fin 16))
          = accAt xt wh fb cn n.val (1024 * s + lo + (16 * t + (q.val - (lo + 16 * t)))) := by
      intro n o inb ho
      have hn := n.isLt
      have ho0 : o 0 = 512 * n.val + 16 * t := by rw [ho]; rfl
      have hlt3 : o 0 + (q.val - (lo + 16 * t)) < 3584 := by rw [ho0]; omega
      rw [readAt16_0 d c i g o inb ⟨q.val - (lo + 16 * t), hl⟩ hlt3]
      have := hgv n (16 * t + (q.val - (lo + 16 * t))) (by omega)
      refine Eq.trans ?_ this
      congr 2
      apply Fin.ext
      show o 0 + (q.val - (lo + 16 * t)) = 512 * n.val + (16 * t + (q.val - (lo + 16 * t)))
      rw [ho0]; omega
    exact hpay _ _ _ _ _ _ _ _ _ (lane ⟨0, by decide⟩ o0 inb0 ho0) (lane ⟨1, by decide⟩ o1 inb1 ho1) (lane ⟨2, by decide⟩ o2 inb2 ho2) (lane ⟨3, by decide⟩ o3 inb3 ho3) (lane ⟨4, by decide⟩ o4 inb4 ho4) (lane ⟨5, by decide⟩ o5 inb5 ho5) (lane ⟨6, by decide⟩ o6 inb6 ho6)

/-- A tile's window `n` of the reduction scratch of lookup 1, landed from the shared buffer (at `ACC1`) at the
    source the task slices for round `r`: entry `512 n + k` is row `n`'s entry for batch row `1024 s + 512 r + k`. -/
theorem landed_acc_aux_1 (cT' : Fin τ.nSC) (s rr : Nat) (hs : s < 16) (hr : rr < 2) (n : Fin 7) (k : Nat) (hk : k < 512)
    (offd : Fin 1 → Nat) (hoffd : offd = ![512 * n.val]) (inbd : ∀ a, offd a + S512.size a ≤ S3584.size a)
    (offs : Fin 1 → Nat) (hoffs : offs = ![16384 * n.val + 1024 * s + 512 * rr]) (inbs : ∀ a, offs a + S512.size a ≤ S114688.size a)
    (fd : Buf (Elt F) ((Memref.whole cc1_scratch3).view.loc (V d c i))) :
    ((((Memref.whole cc1_scratch3).slice (Rect.unit (s := S3584) offd S512.size inbd) (fun _ => rfl)).view.writes (Elt F) fd
      [⟨Rect.whole S512, ReadAs.same.apply (View.read (Elt F)
        ((Memref.whole cc1_scratch5).slice (Rect.unit (s := S114688) offs S512.size inbs) (fun _ => rfl)).view (ACC1 m d cT'))⟩])
        (ix1 (⟨512 * n.val + k, by have := n.isLt; omega⟩ : Fin 3584)))
      = accAt (XT m d) (WH1 m d) 13 cT'.val n.val (1024 * s + 512 * rr + k) := by
  subst hoffd
  subst hoffs
  have hn := n.isLt
  have hd : (![512 * n.val] : Fin 1 → Nat) 0 + k < 3584 := by show 512 * n.val + k < 3584; omega
  have hs' : (![16384 * n.val + 1024 * s + 512 * rr] : Fin 1 → Nat) 0 + k < 114688 := by show 16384 * n.val + 1024 * s + 512 * rr + k < 114688; omega
  refine (landed512_1 d c i cT' _ inbd _ inbs fd (ACC1 m d cT') ⟨k, hk⟩ hd hs').trans ?_
  have hb : 1024 * s + 512 * rr + k < 16384 := by omega
  refine Eq.trans ?_ (accVal_apply (XT m d) (WH1 m d) 13 cT'.val n.val (1024 * s + 512 * rr + k) hn hb)
  show accVal _ _ _ _ _ = accVal _ _ _ _ _
  congr 1
  funext a
  apply Fin.ext
  match a with
  | ⟨0, _⟩ => show 16384 * n.val + 1024 * s + 512 * rr + k = 16384 * n.val + (1024 * s + 512 * rr + k); omega

/-- The same at the task's own offsets. -/
theorem landed_acc_1 (cT' : Fin τ.nSC) (L : grid1.Coords) (r : Fin 2) (n : Fin 7) (k : Nat) (hk : k < 512)
    (inbd : ∀ a, (![512 * n.val] : Fin 1 → Nat) a + S512.size a ≤ S3584.size a)
    (fd : Buf (Elt F) ((Memref.whole cc1_scratch3).view.loc (V d c i))) :
    ((((Memref.whole cc1_scratch3).slice (Rect.unit (s := S3584) ![512 * n.val] S512.size inbd) (fun _ => rfl)).view.writes (Elt F) fd
      [⟨Rect.whole S512, ReadAs.same.apply (View.read (Elt F)
        ((Memref.whole cc1_scratch5).slice (Rect.unit (s := S114688) (k1_off29 L (BitVec.ofNat 32 (16384 * n.val)) (BitVec.ofNat 32 (512 * r.val))) S512.size
          (Gen.k1_off29_inb L n r)) (fun _ => rfl)).view (ACC1 m d cT'))⟩])
        (ix1 (⟨512 * n.val + k, by have := n.isLt; omega⟩ : Fin 3584)))
      = accAt (XT m d) (WH1 m d) 13 cT'.val n.val (1024 * (L 1).val + 512 * r.val + k) :=
  landed_acc_aux_1 m d c i cT' (L 1).val r.val (L 1).isLt r.isLt n k hk _ rfl inbd _ (Gen.k1_off29_eq L n r) (Gen.k1_off29_inb L n r) fd

/-- One trip of a reduction loop of lookup 1, over abstract offsets and an abstract seven-row sum: the sixteen lanes it
    stores at `lo + 16 t` of the output scratch are the partial sums of batch rows `1024 s + lo + 16 t + l`, and the done part
    below stays. -/
theorem step_gen_1 (xt : IVec S26x16384 32) (wh : FVec F S1300000 .f32) (fb cn s lo t : Nat) (ht : t < 32) (hlo : lo + 512 ≤ 1024)
    (pay : Vec F S16 .f32 → Vec F S16 .f32 → Vec F S16 .f32 → Vec F S16 .f32 → Vec F S16 .f32 → Vec F S16 .f32 → Vec F S16 .f32 → FVec F S16 .f32)
    (hpay : ∀ (v0 v1 v2 v3 v4 v5 v6 : Vec F S16 .f32) (l : Fin 16) (b : Nat),
      v0 (ix1 l) = accAt xt wh fb cn 0 b → v1 (ix1 l) = accAt xt wh fb cn 1 b → v2 (ix1 l) = accAt xt wh fb cn 2 b → v3 (ix1 l) = accAt xt wh fb cn 3 b →
      v4 (ix1 l) = accAt xt wh fb cn 4 b → v5 (ix1 l) = accAt xt wh fb cn 5 b → v6 (ix1 l) = accAt xt wh fb cn 6 b →
      pay v0 v1 v2 v3 v4 v5 v6 (ix1 l) = partAt xt wh fb cn b)
    (g : Buf (Elt F) ((Memref.whole cc1_scratch3).view.loc (V d c i))) (h : Buf (Elt F) ((Memref.whole cc1_scratch4).view.loc (V d c i)))
    (ow : Fin 1 → Nat) (inbw : ∀ a, ow a + S16.size a ≤ S1024.size a) (how : ow = ![lo + 16 * t])
    (o0 : Fin 1 → Nat) (inb0 : ∀ a, o0 a + S16.size a ≤ S3584.size a) (ho0 : o0 = ![512 * 0 + 16 * t])
    (o1 : Fin 1 → Nat) (inb1 : ∀ a, o1 a + S16.size a ≤ S3584.size a) (ho1 : o1 = ![512 * 1 + 16 * t])
    (o2 : Fin 1 → Nat) (inb2 : ∀ a, o2 a + S16.size a ≤ S3584.size a) (ho2 : o2 = ![512 * 2 + 16 * t])
    (o3 : Fin 1 → Nat) (inb3 : ∀ a, o3 a + S16.size a ≤ S3584.size a) (ho3 : o3 = ![512 * 3 + 16 * t])
    (o4 : Fin 1 → Nat) (inb4 : ∀ a, o4 a + S16.size a ≤ S3584.size a) (ho4 : o4 = ![512 * 4 + 16 * t])
    (o5 : Fin 1 → Nat) (inb5 : ∀ a, o5 a + S16.size a ≤ S3584.size a) (ho5 : o5 = ![512 * 5 + 16 * t])
    (o6 : Fin 1 → Nat) (inb6 : ∀ a, o6 a + S16.size a ≤ S3584.size a) (ho6 : o6 = ![512 * 6 + 16 * t])
    (hgv : ∀ (n : Fin 7) (j : Nat) (hj : j < 512), g (ix1 (⟨512 * n.val + j, by have := n.isLt; omega⟩ : Fin 3584)) = accAt xt wh fb cn n.val (1024 * s + lo + j))
    (hh : ∀ q : Fin 1024, q.val < lo + 16 * t → h (ix1 q) = partAt xt wh fb cn (1024 * s + q.val)) :
    ∀ q : Fin 1024, q.val < lo + 16 * (t + 1) →
      ((Memref.whole cc1_scratch4).view.writes (Elt F) h [⟨Rect.unit (s := S1024) ow S16.size inbw,
        pay (View.readAt (Elt F) (Memref.whole cc1_scratch3).view (Rect.unit (s := S3584) o0 S16.size inb0).toLoadRect g) (View.readAt (Elt F) (Memref.whole cc1_scratch3).view (Rect.unit (s := S3584) o1 S16.size inb1).toLoadRect g) (View.readAt (Elt F) (Memref.whole cc1_scratch3).view (Rect.unit (s := S3584) o2 S16.size inb2).toLoadRect g) (View.readAt (Elt F) (Memref.whole cc1_scratch3).view (Rect.unit (s := S3584) o3 S16.size inb3).toLoadRect g) (View.readAt (Elt F) (Memref.whole cc1_scratch3).view (Rect.unit (s := S3584) o4 S16.size inb4).toLoadRect g) (View.readAt (Elt F) (Memref.whole cc1_scratch3).view (Rect.unit (s := S3584) o5 S16.size inb5).toLoadRect g) (View.readAt (Elt F) (Memref.whole cc1_scratch3).view (Rect.unit (s := S3584) o6 S16.size inb6).toLoadRect g)⟩]) (ix1 q) = partAt xt wh fb cn (1024 * s + q.val) := by
  intro q hq
  have how0 : ow 0 = lo + 16 * t := by rw [how]; rfl
  by_cases hlt : q.val < lo + 16 * t
  · rw [writes16_miss_1 d c i h ow inbw _ q (Or.inl (by rw [how0]; exact hlt))]
    exact hh q hlt
  · have hl : q.val - (lo + 16 * t) < 16 := by omega
    have hql : ow 0 + (q.val - (lo + 16 * t)) < 1024 := by rw [how0]; have := q.isLt; omega
    have hq' : q = (⟨ow 0 + (q.val - (lo + 16 * t)), hql⟩ : Fin 1024) := Fin.ext (by show q.val = ow 0 + (q.val - (lo + 16 * t)); rw [how0]; omega)
    rw [hq', writes16_hit_1 d c i h ow inbw _ ⟨q.val - (lo + 16 * t), hl⟩ hql]
    have hb : 1024 * s + (ow 0 + (q.val - (lo + 16 * t))) = 1024 * s + lo + (16 * t + (q.val - (lo + 16 * t))) := by rw [how0]; omega
    show pay _ _ _ _ _ _ _ (ix1 (⟨q.val - (lo + 16 * t), hl⟩ : Fin 16)) = partAt xt wh fb cn (1024 * s + (ow 0 + (q.val - (lo + 16 * t))))
    rw [hb]
    have lane : ∀ (n : Fin 7) (o : Fin 1 → Nat) (inb : ∀ a, o a + S16.size a ≤ S3584.size a) (ho : o = ![512 * n.val + 16 * t]),
        View.readAt (Elt F) (Memref.whole cc1_scratch3).view (Rect.unit (s := S3584) o S16.size inb).toLoadRect g (ix1 (⟨q.val - (lo + 16 * t), hl⟩ : Fin 16))
          = accAt xt wh fb cn n.val (1024 * s + lo + (16 * t + (q.val - (lo + 16 * t)))) := by
      intro n o inb ho
      have hn := n.isLt
      have ho0 : o 0 = 512 * n.val + 16 * t := by rw [ho]; rfl
      have hlt3 : o 0 + (q.val - (lo + 16 * t)) < 3584 := by rw [ho0]; omega
      rw [readAt16_1 d c i g o inb ⟨q.val - (lo + 16 * t), hl⟩ hlt3]
      have := hgv n (16 * t + (q.val - (lo + 16 * t))) (by omega)
      refine Eq.trans ?_ this
      congr 2
      apply Fin.ext
      show o 0 + (q.val - (lo + 16 * t)) = 512 * n.val + (16 * t + (q.val - (lo + 16 * t)))
      rw [ho0]; omega
    exact hpay _ _ _ _ _ _ _ _ _ (lane ⟨0, by decide⟩ o0 inb0 ho0) (lane ⟨1, by decide⟩ o1 inb1 ho1) (lane ⟨2, by decide⟩ o2 inb2 ho2) (lane ⟨3, by decide⟩ o3 inb3 ho3) (lane ⟨4, by decide⟩ o4 inb4 ho4) (lane ⟨5, by decide⟩ o5 inb5 ho5) (lane ⟨6, by decide⟩ o6 inb6 ho6)

end Cert.Proof.KI

end
-- ==== Proof.KI.Tile0Reduce.lean ====
/-
  Lookup 0, after the barrier: the reduction of the seven rows of the shared buffer over the tile's 1024 columns.

  The tile owns column block (L 1) of each of the seven rows: entries 16384 n + 1024 (L 1) + k, k < 1024. It reduces
  them in two halves of 512 columns. For half r it copies, for each row n, the 512 entries from 16384 n + 1024 (L 1)
  + 512 r into window n (entries 512 n … 512 n + 511) of a scratch of 3584, all seven copies on one semaphore, and
  waits for all seven before it reads any of them; then, sixteen lanes at a time, adds the seven windows entrywise and
  stores the sums at 512 r + 16 t of an output scratch of 1024. Entry k of the output scratch is then the sum over
  the rows of the shared buffer's entries in column 1024 (L 1) + k: the tile's partial sum for that batch row.

  Here: the halves of a column block and the windows of the scratch as sets of entries; the split of a block into its
  halves and of the scratch into its windows and back; what the seven copies of a half deliver; the windows joined
  into one function that agrees with each; that function in terms of the shared buffer's entries; and the loops'
  invariant — the first entries of the output scratch are the partial sums.
-/
import proofs.«207420_g80582176408339_cont_9to1c4b_743_56_alg».proof.Proof.KI.Tile0Out
import proofs.«207420_g80582176408339_cont_9to1c4b_743_56_alg».proof.Proof.KI.ReduceStep

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T0
section Reduce
variable (d : Dev nD) (L : grid0.Coords)

/-! ## The windows of the two batches -/

omit [FloatOps F] in
theorem bigSep_fin2' {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

omit [FloatOps F] in
theorem bigSep_fin7 {M : Type} [URA M] (Φ : Fin 7 → sProp M) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide, SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- Half r of column block (L 1) of row n of the shared buffer, as the copies name it. -/
def srcW (L : grid0.Coords) (r : Fin 2) (n : Fin 7) : Memref sig .scVector .shared S512 .f32 :=
  (Memref.whole cc0_scratch5).slice (Rect.unit (s := S114688) (k0_off29 L (BitVec.ofNat 32 (16384 * n.val)) (BitVec.ofNat 32 (512 * r.val))) S512.size (Gen.k0_off29_inb L n r)) (fun _ => rfl)

omit [FloatOps F] in
theorem inb3 (n : Fin 7) : ∀ a, (![512 * n.val] : Fin 1 → Nat) a + S512.size a ≤ S3584.size a := by
  have := n.isLt; intro a; fin_cases a; show 512 * n.val + 512 ≤ 3584; omega
/-- Window n of the reduce scratch. -/
def dstW (n : Fin 7) : Memref sig .scVector .vmem S512 .f32 :=
  (Memref.whole cc0_scratch3).slice (Rect.unit (s := S3584) ![512 * n.val] S512.size (inb3 n)) (fun _ => rfl)

omit [FloatOps F] in
theorem set_srcW (r : Fin 2) (n : Fin 7) :
    (srcW L r n).view.set = seg (N := 114688) (16384 * n.val + 1024 * (L 1).val + 512 * r.val) 512 := by
  show ((View.whole (cc0_scratch5 : Ref sig .scVector)).slice (Rect.unit (s := S114688) _ S512.size _)).set = _
  rw [View.set_slice]
  refine Finset.map_refl.trans ?_
  rw [unit_set_seg, Gen.k0_off29_eq]
  rfl

omit [FloatOps F] in
theorem set_dstW (n : Fin 7) : (dstW n).view.set = seg (N := 3584) (512 * n.val) 512 := by
  show ((View.whole (cc0_scratch3 : Ref sig .scVector)).slice (Rect.unit (s := S3584) _ S512.size _)).set = _
  rw [View.set_slice]
  refine Finset.map_refl.trans ?_
  rw [unit_set_seg]
  rfl

abbrev heldOwn {sp : Space} {S : Shape} (M : Memref sig .scVector sp S .f32) (f : Buf (Elt F) (M.view.loc (V d (cV L) (jV L)))) : sProp 𝕄 :=
  M.view.loc (V d (cV L) (jV L)) ↦[M.view.set]{fullShare} f

theorem acc_halves (n : Nat) (hn : n < 7) (f : Buf (Elt F) (acc0Loc d (cV L))) :
    (acc0Loc d (cV L) ↦[seg (N := 114688) (16384 * n + 1024 * (jV L).val) 1024]{fullShare} f : sProp 𝕄)
      = iprop(heldOwn d L (srcW L 0 ⟨n, hn⟩) f ∗ heldOwn d L (srcW L 1 ⟨n, hn⟩) f) := by
  unfold heldOwn
  rw [set_srcW, set_srcW]
  show _ = iprop((acc0Loc d (cV L) ↦[seg (N := 114688) (16384 * n + 1024 * (L 1).val + 512 * (0 : Fin 2).val) 512]{fullShare} f)
    ∗ (acc0Loc d (cV L) ↦[seg (N := 114688) (16384 * n + 1024 * (L 1).val + 512 * (1 : Fin 2).val) 512]{fullShare} f))
  rw [← bigSep_fin2' (fun r : Fin 2 => (acc0Loc d (cV L) ↦[seg (N := 114688) (16384 * n + 1024 * (L 1).val + 512 * r.val) 512]{fullShare} f : sProp 𝕄)),
    ← pointsTo_biUnion Finset.univ (ℓ := acc0Loc d (cV L)) (fun r : Fin 2 => seg (N := 114688) (16384 * n + 1024 * (L 1).val + 512 * r.val) 512) seg_parts_disjoint,
    seg_parts (N := 114688) (16384 * n + 1024 * (L 1).val) 512 2]
  rfl

theorem scr3_windows (f : Buf (Elt F) ((V d (cV L) (jV L)).loc cc0_scratch3)) :
    ((V d (cV L) (jV L)).loc cc0_scratch3 ↦{fullShare} f : sProp 𝕄)
      = iprop(heldOwn d L (dstW 0) f ∗ heldOwn d L (dstW 1) f ∗ heldOwn d L (dstW 2) f ∗ heldOwn d L (dstW 3) f
          ∗ heldOwn d L (dstW 4) f ∗ heldOwn d L (dstW 5) f ∗ heldOwn d L (dstW 6) f) := by
  unfold heldOwn
  rw [set_dstW, set_dstW, set_dstW, set_dstW, set_dstW, set_dstW, set_dstW]
  show _ = iprop(((V d (cV L) (jV L)).loc cc0_scratch3 ↦[seg (N := 3584) (512 * (0 : Fin 7).val) 512]{fullShare} f)
    ∗ ((V d (cV L) (jV L)).loc cc0_scratch3 ↦[seg (N := 3584) (512 * (1 : Fin 7).val) 512]{fullShare} f)
    ∗ ((V d (cV L) (jV L)).loc cc0_scratch3 ↦[seg (N := 3584) (512 * (2 : Fin 7).val) 512]{fullShare} f)
    ∗ ((V d (cV L) (jV L)).loc cc0_scratch3 ↦[seg (N := 3584) (512 * (3 : Fin 7).val) 512]{fullShare} f)
    ∗ ((V d (cV L) (jV L)).loc cc0_scratch3 ↦[seg (N := 3584) (512 * (4 : Fin 7).val) 512]{fullShare} f)
    ∗ ((V d (cV L) (jV L)).loc cc0_scratch3 ↦[seg (N := 3584) (512 * (5 : Fin 7).val) 512]{fullShare} f)
    ∗ ((V d (cV L) (jV L)).loc cc0_scratch3 ↦[seg (N := 3584) (512 * (6 : Fin 7).val) 512]{fullShare} f))
  rw [← bigSep_fin7 (fun n : Fin 7 => ((V d (cV L) (jV L)).loc cc0_scratch3 ↦[seg (N := 3584) (512 * n.val) 512]{fullShare} f : sProp 𝕄))]
  have hd : ∀ t ∈ (Finset.univ : Finset (Fin 7)), ∀ t' ∈ (Finset.univ : Finset (Fin 7)), t ≠ t' →
      Disjoint (seg (N := 3584) (512 * t.val) 512) (seg (N := 3584) (512 * t'.val) 512) := by
    have h := seg_parts_disjoint (N := 3584) (lo := 0) (len := 512) (k := 7)
    simp only [Nat.zero_add] at h; exact h
  have hc : (Finset.univ : Finset (Fin 7)).biUnion (fun n => seg (N := 3584) (512 * n.val) 512) = Finset.univ := by
    have h := seg_parts (N := 3584) 0 512 7
    simp only [Nat.zero_add] at h; rw [h]; exact seg_univ
  rw [← pointsTo_biUnion Finset.univ (ℓ := (V d (cV L) (jV L)).loc cc0_scratch3) (fun n : Fin 7 => seg (N := 3584) (512 * n.val) 512) hd, hc]; try rfl

/-- What copy n of batch r leaves in window n of the reduce scratch. -/
abbrev landed (r : Fin 2) (n : Fin 7) (fs : Buf (Elt F) ((srcW L r n).view.loc (V d (cV L) (jV L)))) (fd : Buf (Elt F) ((dstW n).view.loc (V d (cV L) (jV L)))) :
    Buf (Elt F) ((dstW n).view.loc (V d (cV L) (jV L))) :=
  (dstW n).view.writes (Elt F) fd [⟨Rect.whole S512, ReadAs.same.apply ((srcW L r n).view.read (Elt F) fs)⟩]

/-- The seven deliveries of batch r. -/
abbrev deliv (r : Fin 2) (fs : (n : Fin 7) → Buf (Elt F) ((srcW L r n).view.loc (V d (cV L) (jV L))))
    (fd : (n : Fin 7) → Buf (Elt F) ((dstW n).view.loc (V d (cV L) (jV L)))) (n : Fin 7) : sProp 𝕄 :=
  iprop(heldOwn d L (dstW n) (landed d L r n (fs n) (fd n)) ∗ heldOwn d L (srcW L r n) (fs n))

instance deliv_storable (r : Fin 2) (fs : (n : Fin 7) → Buf (Elt F) ((srcW L r n).view.loc (V d (cV L) (jV L))))
    (fd : (n : Fin 7) → Buf (Elt F) ((dstW n).view.loc (V d (cV L) (jV L)))) (n : Fin 7) :
    BI.Storable (upEmb : UEmb _ 𝕄) (deliv (F := F) d L r fs fd n) := by
  unfold deliv heldOwn; infer_instance

/-- One window's credit. -/
abbrev NW : ℕ := (dstW 0).view.amount (SemLoc.dma (sig := sig) cc0_scratch6.sem)

/-- What copy n of batch r leaves in window n, over whatever was there. -/
abbrev landedJ (r : Fin 2) (n : Fin 7) (fs : Buf (Elt F) ((srcW L r n).view.loc (V d (cV L) (jV L)))) :
    Buf (Elt F) ((dstW n).view.loc (V d (cV L) (jV L))) :=
  (dstW n).view.writes (Elt F) (dstW n).view.junk [⟨Rect.whole S512, ReadAs.same.apply ((srcW L r n).view.read (Elt F) fs)⟩]

/-- The seven windows, each at contents of its own, are the reduce scratch whole at one function that agrees with each. -/
theorem windows_join (C : Fin 7 → Buf (Elt F) ((V d (cV L) (jV L)).loc cc0_scratch3)) :
    (iprop(heldOwn d L (dstW 0) (C 0) ∗ heldOwn d L (dstW 1) (C 1) ∗ heldOwn d L (dstW 2) (C 2)
        ∗ heldOwn d L (dstW 3) (C 3) ∗ heldOwn d L (dstW 4) (C 4) ∗ heldOwn d L (dstW 5) (C 5)
        ∗ heldOwn d L (dstW 6) (C 6)) : sProp 𝕄)
      ⊢ iprop(∃ g : Buf (Elt F) ((V d (cV L) (jV L)).loc cc0_scratch3), ⌜∀ n : Fin 7, ∀ i ∈ seg (N := 3584) (512 * n.val) 512, g i = C n i⌝
          ∗ (Memref.whole cc0_scratch3).view.loc (V d (cV L) (jV L)) ↦{fullShare} g) := by
  unfold heldOwn
  rw [set_dstW, set_dstW, set_dstW, set_dstW, set_dstW, set_dstW, set_dstW]
  show (iprop(((V d (cV L) (jV L)).loc cc0_scratch3 ↦[seg (N := 3584) (512 * (0 : Fin 7).val) 512]{fullShare} C 0)
    ∗ ((V d (cV L) (jV L)).loc cc0_scratch3 ↦[seg (N := 3584) (512 * (1 : Fin 7).val) 512]{fullShare} C 1)
    ∗ ((V d (cV L) (jV L)).loc cc0_scratch3 ↦[seg (N := 3584) (512 * (2 : Fin 7).val) 512]{fullShare} C 2)
    ∗ ((V d (cV L) (jV L)).loc cc0_scratch3 ↦[seg (N := 3584) (512 * (3 : Fin 7).val) 512]{fullShare} C 3)
    ∗ ((V d (cV L) (jV L)).loc cc0_scratch3 ↦[seg (N := 3584) (512 * (4 : Fin 7).val) 512]{fullShare} C 4)
    ∗ ((V d (cV L) (jV L)).loc cc0_scratch3 ↦[seg (N := 3584) (512 * (5 : Fin 7).val) 512]{fullShare} C 5)
    ∗ ((V d (cV L) (jV L)).loc cc0_scratch3 ↦[seg (N := 3584) (512 * (6 : Fin 7).val) 512]{fullShare} C 6)) : sProp 𝕄) ⊢ _
  rw [← bigSep_fin7 (fun n : Fin 7 => ((V d (cV L) (jV L)).loc cc0_scratch3 ↦[seg (N := 3584) (512 * n.val) 512]{fullShare} C n : sProp 𝕄))]
  have hd : ∀ t ∈ (Finset.univ : Finset (Fin 7)), ∀ t' ∈ (Finset.univ : Finset (Fin 7)), t ≠ t' →
      Disjoint (seg (N := 3584) (512 * t.val) 512) (seg (N := 3584) (512 * t'.val) 512) := by
    have h := seg_parts_disjoint (N := 3584) (lo := 0) (len := 512) (k := 7)
    simp only [Nat.zero_add] at h; exact h
  have hc : (Finset.univ : Finset (Fin 7)).biUnion (fun n => seg (N := 3584) (512 * n.val) 512) = Finset.univ := by
    have h := seg_parts (N := 3584) 0 512 7
    simp only [Nat.zero_add] at h; rw [h]; exact seg_univ
  refine (pointsTo_biUnion_join (ℓ := (V d (cV L) (jV L)).loc cc0_scratch3) (q := fullShare) Finset.univ (fun n : Fin 7 => seg (N := 3584) (512 * n.val) 512) C (C 0) hd).trans ?_
  rw [hc]
  iintro ⟨%g, %hg, Hg⟩
  iexists g
  isplitr
  · ipureintro; exact fun n i hi => hg n (Finset.mem_univ n) i hi
  · iexact Hg

/-- The partial sum the tile owes at entry k of its 1024. -/
def oAt (k : Nat) : F .f32 := partAt (XT m d) (WH0 m d) 0 (cV L).val (1024 * (L 1).val + k)

/-- A reduce loop's invariant: the reduce scratch fixed, the first entries of the output scratch done. -/
def invR (base : Nat) (g : Buf (Elt F) ((V d (cV L) (jV L)).loc cc0_scratch3)) (t : Nat) (_ : PUnit) : sProp 𝕄 :=
  iprop(((Memref.whole cc0_scratch3).view.loc (V d (cV L) (jV L)) ↦{fullShare} g)
    ∗ ∃ h : Buf (Elt F) ((V d (cV L) (jV L)).loc cc0_scratch4), ((Memref.whole cc0_scratch4).view.loc (V d (cV L) (jV L)) ↦{fullShare} h)
      ∗ ⌜∀ k : Fin 1024, k.val < base + 16 * t → h (ValueIdx.ix1 k) = oAt m d L k.val⌝)

/-- The landed windows hold the shared buffer's entries. -/
theorem hgv_of (r : Fin 2) (g : Buf (Elt F) ((V d (cV L) (jV L)).loc cc0_scratch3))
    (hg : ∀ n : Fin 7, ∀ i ∈ seg (N := 3584) (512 * n.val) 512, g i = landedJ (F := F) d L r n (ACC0 m d (cV L)) i) :
    ∀ (n : Fin 7) (j : Nat) (hj : j < 512), g (ValueIdx.ix1 (⟨512 * n.val + j, by have := n.isLt; omega⟩ : Fin 3584))
      = accAt (XT m d) (WH0 m d) 0 (cV L).val n.val (1024 * (L 1).val + 512 * r.val + j) := by
  intro n j hj
  have hn := n.isLt
  rw [hg n _ (by rw [mem_seg]; exact ⟨Nat.le_add_right _ _, by show 512 * n.val + j < 512 * n.val + 512; omega⟩)]
  exact landed_acc_0 m d (cV L) (jV L) (cV L) L r n j hj (inb3 n) _

omit [FloatOps F] in
theorem vec1 (a b : Nat) (h : a = b) : (![a] : Fin 1 → Nat) = ![b] := by rw [h]

end Reduce
end T0

end Cert.Proof.KI

end
-- ==== Proof.KI.Tile0Zero.lean ====
/-
  Lookup 0, the one tile that owns the row no field is left for (SparseCore 1, tile 6): the pieces of its zero phase.
  The tile fills its value scratch with the zero word, sixteen entries a trip for 128 trips, and copies the scratch into
  each of the eight pieces of 2048 of row 6 of its SparseCore's shared buffer. The row's pieces as the task slices them;
  the loop's trip and invariant (the entries below the trip's box are the zero word; a trip extends them by sixteen;
  128 trips fill the scratch); and the value: a piece a copy of zero words landed in holds what the shared buffer holds
  there once every tile has passed the barrier, since 6 + 1 < 7 fails and that row is the zero word throughout.
-/
import proofs.«207420_g80582176408339_cont_9to1c4b_743_56_alg».proof.Proof.KI.Tile0Trip
import Idealize.ShloMosaic.Lib.Affine

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T0
section Zero
variable (d : Dev nD) (L : grid0.Coords)

omit [FloatOps F] in
theorem conds_B : ∀ L : grid0.Coords, ¬ k0_cond1 L = 1#1 → k0_cond2 L = 1#1 → (L 0).val = 1 ∧ (L 1).val = 6 := by decide +kernel

/-- Piece `r` of the zero row of the shared buffer, as the task slices it. -/
abbrev zPiece (h2 : k0_cond2 L = 1#1) (r : Fin 8) : Memref sig .scVector .shared S2048 .f32 :=
  (accM).slice (Rect.unit (s := S114688) (k0_off28 L (BitVec.ofNat 32 (2048 * r.val))) S2048.size (k0_off28_inb L h2 r)) (fun _ => rfl)

omit [FloatOps F] in
theorem set_zPiece (h2 : k0_cond2 L = 1#1) (r : Fin 8) :
    (zPiece L h2 r).view.set = seg (N := 114688) (16384 * (L 1).val + 2048 * r.val) 2048 := by
  refine (View.set_slice_whole cc0_scratch5 _).trans ?_
  rw [unit_set_seg, k0_off28_eq]; rfl

theorem pts_zPiece (h2 : k0_cond2 L = 1#1) (r : Fin 8) (f : Buf (Elt F) (acc0Loc d (cT (cL L)))) :
    ((zPiece L h2 r).view.loc (V d (cV L) (jV L)) ↦[(zPiece L h2 r).view.set]{fullShare} f : sProp 𝕄)
      = (acc0Loc d (cT (cL L)) ↦[seg (N := 114688) (16384 * (L 1).val + 2048 * r.val) 2048]{fullShare} f) := by
  rw [set_zPiece]; rfl

end Zero
end T0

namespace T0
section ZeroLoop
variable (d : Dev nD) (c : Fin τ.nSC) (i : Fin τ.nSub)

open Idealize.ShloMosaic.ValueIdx in
/-- The value scratch's first `16 k` entries are the zero word. -/
def ZeroTo (k : ℕ) (f : Buf (Elt F) ((valM).view.loc (V d c i))) : Prop :=
  ∀ t : Fin 2048, t.val < 16 * k → (show F .f32 from f (ix1 t)) = Scalar.ofBits .f32 0x00000000#32

/-- The zero loop's invariant: the value scratch at some contents whose entries below the trip's box are the zero word. -/
def zInv (k : ℕ) (_ : PUnit) : sProp 𝕄 :=
  iprop(∃ f, ((valM).view.loc (V d c i) ↦{fullShare} f) ∗ ⌜ZeroTo (F := F) d c i k f⌝)

/-- One trip of the zero loop, over the offset of its box: sixteen entries loaded (and not used), sixteen zero words stored. -/
def zTrip (off : Fin 1 → Nat) (inb : ∀ a, off a + S16.size a ≤ S2048.size a) :
    Prog (TpuEff nD τ sig (Elt F) Λ₀ (.scVector c i)) Unit := do
  let v167 : Vec F S16 .f32 ← Prog.lift (.load valM (Rect.unit (s := S2048) off S16.size inb).toLoadRect (View.loadsAt_vmem h_S16))
  Prog.lift (.store valM (Rect.unit (s := S2048) off S16.size inb) (k0_pay2 (F := F)) Finset.univ (View.stores_vmem_bits_univ h_S16 rfl) (.inl rfl))
  pure ⟨⟩

theorem k0_t9_body_eq (L : grid0.Coords) (arg1 : BitVec 32) (h2 : k0_cond2 L = 1#1) (k : Fin k0_t9_loop.trips) (u : Unit) :
    k0_t9_body (F := F) L (Memref.whole main_v0_scv) (Memref.isWhole_whole _) (Memref.whole main_v2_scv) (Memref.isWhole_whole _) (Memref.whole main_v6_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 arg1 h2 k u
      = zTrip (F := F) (cV L) (jV L) (k0_off27 k) (k0_off27_inb L k h2) := rfl

theorem wp_zTrip (off : Fin 1 → Nat) (inb : ∀ a, off a + S16.size a ≤ S2048.size a) (f : Buf (Elt F) ((valM).view.loc (V d c i))) :
    (((valM).view.loc (V d c i) ↦{fullShare} f) : sProp 𝕄)
      ⊢ wp frame (wpE (defs₀ (F := F)) 𝒱₀ (V d c i) none) Set.univ (zTrip (F := F) c i off inb)
          fun _ => ((valM).view.loc (V d c i) ↦{fullShare}
            ((valM).access (Rect.unit (s := S2048) off S16.size inb)).write (Elt F) f (k0_pay2 (F := F)) Finset.univ) := by
  unfold zTrip
  simp only [Prog.lift, Prog.bind_op, Prog.bind_ret, Prog.pure_eq_ret]
  iintro H7
  iapply (wp_load 𝒱₀ (V d c i) none Set.univ (m := valM) (S := Finset.univ) (Finset.subset_univ _)) $$ H7; iintro H7
  iapply (wp_store 𝒱₀ (V d c i) none Set.univ (m := valM) (r := Rect.unit (s := S2048) off S16.size inb) (Mk := Finset.univ) (S := Finset.univ) (Finset.subset_univ _)) $$ H7; iintro H7
  rw [wp_ret]; imodintro
  iexact H7

open Idealize.ShloMosaic.ValueIdx in
/-- A trip at box `16 k` extends the zeros by sixteen. -/
theorem ZeroTo_step (k : ℕ) (off : Fin 1 → Nat) (hoff : off = ![16 * k]) (inb : ∀ a, off a + S16.size a ≤ S2048.size a)
    (f : Buf (Elt F) ((valM).view.loc (V d c i))) (h : ZeroTo (F := F) d c i k f) :
    ZeroTo (F := F) d c i (k + 1) (((valM).access (Rect.unit (s := S2048) off S16.size inb)).write (Elt F) f (k0_pay2 (F := F)) Finset.univ) := by
  subst hoff
  intro t ht
  by_cases hlt : t.val < 16 * k
  · have hn : (ix1 t : S2048.Idx) ∉ ((valM).access (Rect.unit (s := S2048) ![16 * k] S16.size inb)).setOn Finset.univ := by
      rw [View.setOn_univ]
      show (ix1 t : S2048.Idx) ∉ ((View.whole cc0_scratch2).slice (Rect.unit (s := S2048) ![16 * k] S16.size inb)).set
      rw [View.set_slice_whole, unit_set_seg, mem_seg]
      show ¬ (16 * k ≤ t.val ∧ t.val < 16 * k + 16)
      omega
    exact (View.write_of_not_mem _ _ _ hn).trans (h t hlt)
  · have hx : t.val - 16 * k < 16 := by omega
    have he : (ix1 t : S2048.Idx) = ((valM).access (Rect.unit (s := S2048) ![16 * k] S16.size inb)).emb (ix1 (⟨t.val - 16 * k, hx⟩ : Fin 16)) := by
      funext a
      obtain rfl : a = 0 := Subsingleton.elim _ _
      apply Fin.ext
      show t.val = 16 * k + 1 * (t.val - 16 * k)
      omega
    show (show F .f32 from (((valM).access (Rect.unit (s := S2048) ![16 * k] S16.size inb)).write (Elt F) f (k0_pay2 (F := F)) Finset.univ) (ix1 t)) = _
    rw [he, View.write_emb_of_mem _ _ (Finset.mem_univ _)]
    rfl

end ZeroLoop
end T0

namespace T0
section ZeroValue
variable (d : Dev nD) (L : grid0.Coords)

omit [FloatOps F] in
/-- The zero loop makes 128 trips: the whole value scratch. -/
theorem trips_t9 : Scf.trips k0_t9_loop.lb k0_t9_loop.ub k0_t9_loop.st = 128 := by
  have h0 : Affine.IsInt (0#32 : BitVec 32) (0) := Affine.ofNat _ (by omega)
  have h128 : Affine.IsInt (128#32 : BitVec 32) (128) := Affine.ofNat _ (by omega)
  have hub : Affine.IsInt (Scalar.addi (0#32 : BitVec 32) 128#32) (128) := Affine.addi h0 h128 (by omega)
  have h1 : Affine.IsInt (1#32 : BitVec 32) (1) := Affine.ofNat _ (by omega)
  unfold Affine.IsInt at h0 hub h1
  show ((k0_t9_loop.ub.toInt - k0_t9_loop.lb.toInt + k0_t9_loop.st.toInt - 1) / k0_t9_loop.st.toInt).toNat = 128
  rw [show k0_t9_loop.ub.toInt = 128 from hub, show k0_t9_loop.lb.toInt = 0 from h0, show k0_t9_loop.st.toInt = 1 from h1]
  omega

set_option maxRecDepth 65536 in
/-- A piece of the zero row after a copy of zero words landed in it holds what the shared buffer holds there once the
    tiles have passed the barrier: row 6 of SparseCore 1 is the row no field is left for, the zero word throughout. -/
theorem piece_zero (h2 : k0_cond2 L = 1#1) (r : Fin 8) (frow : Buf (Elt F) (acc0Loc d (cT (cL L)))) (P : S2048.Idx → Elt F .f32)
    (hP : ∀ x, P x = Scalar.ofBits .f32 0x00000000#32) (hc1 : (L 0).val = 1) (hs6 : (L 1).val = 6) :
    ((zPiece L h2 r).view.loc (V d (cV L) (jV L)) ↦[(zPiece L h2 r).view.set]{fullShare}
        (zPiece L h2 r).view.writes (Elt F) frow [⟨Rect.whole S2048, P⟩] : sProp 𝕄)
      = (acc0Loc d (cT (cL L)) ↦[seg (N := 114688) (16384 * (L 1).val + 2048 * r.val) 2048]{fullShare} ACC0 m d (cT (cL L))) := by
  rw [← pts_zPiece (F := F) d L h2 r (ACC0 m d (cT (cL L)))]
  apply pointsTo_congr
  intro i hi
  obtain ⟨y, -, rfl⟩ := Finset.mem_map.mp hi
  have hl : (zPiece L h2 r).view.writes (Elt F) frow [⟨Rect.whole S2048, P⟩] ((zPiece L h2 r).view.emb y) = P y := by
    have he : (zPiece L h2 r).view.emb y = ((zPiece L h2 r).view.slice (Rect.whole S2048)).emb y := by
      show _ = (zPiece L h2 r).view.emb ((Rect.whole S2048).emb y)
      rw [Rect.emb_whole_apply]
    rw [View.writes_singleton, he, View.write_emb_of_mem _ _ (Finset.mem_univ _)]
    rfl
  rw [hl, hP]
  have hoff : (k0_off28 L (BitVec.ofNat 32 (2048 * r.val))) 0 = 16384 * (L 1).val + 2048 * r.val := congrFun (k0_off28_eq L r) 0
  have hv : (((zPiece L h2 r).view.emb y) 0).val = (k0_off28 L (BitVec.ofNat 32 (2048 * r.val))) 0 + 1 * (y 0).val := rfl
  have hy : (y 0).val < 2048 := (y 0).isLt
  have hr := r.isLt
  have hq : (((zPiece L h2 r).view.emb y) 0).val / 16384 = 6 := by rw [hv, hoff]; omega
  have hcc : (cT (cL L)).val = 1 := hc1
  show _ = accAt (XT m d) (WH0 m d) 0 (cT (cL L)).val ((((zPiece L h2 r).view.emb y) 0).val / 16384) ((((zPiece L h2 r).view.emb y) 0).val % 16384)
  unfold accAt
  rw [hq, hcc, if_neg (by decide)]

end ZeroValue
end T0

end Cert.Proof.KI

end
-- ==== Proof.KI.Tile0.lean ====
/-
  Lookup 0's task obligation: one tile's task of the first SparseCore call, at a symbolic tile.

  A tile (c, s) is of one of three kinds. If s + c < 7 it owns field 7c + s: it copies the field's 100000 table entries
  into its table scratch and, 2048 batch rows at a time through the two slots of its index scratch (one copy in flight
  while the other slot is read), looks every index up — the indices are entries of the field's index row, so below
  100000 — and copies the 2048 entries into its row of its SparseCore's shared buffer: after the eight chunks the row
  holds the looked-up entries. If c = 1 and s = 6 it fills its row with the zero word. Otherwise it owns no row. The
  three kinds meet at the barrier: a row owner hands every tile its column block of its row (the row is exactly the
  sixteen payloads of its duties), the others hand over nothing; every tile receives its own column block of each of
  the seven rows at the looked-up values. It then twice copies seven half blocks into its reduce scratch — seven copies
  on one semaphore, all started, all waited for, then read —, adds the seven rows sixteen lanes at a time, and writes
  its 1024 sums into the lookup's result: SparseCore c's partial sums for batch rows 1024 s … 1024 s + 1023. What it
  hands back is its read shares, those 1024 entries at the partial sums, its seven column blocks, and its standing on
  its own barrier cell for the next lookup.
-/
import proofs.«207420_g80582176408339_cont_9to1c4b_743_56_alg».proof.Proof.KI.Tile0Reduce
import proofs.«207420_g80582176408339_cont_9to1c4b_743_56_alg».proof.Proof.KI.Tile0Zero

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T0
section Post
variable (d : Dev nD) (L : grid0.Coords)

/-- The same, towards the form in which the task's own buffers and semaphores stand one by one. -/
theorem post_intro' (hF : (K (F := F)).Facts) (O : CellTallies nD τ sig (HIx 2)) (W W' : Waits sig (HIx 2))
    (hW' : ∀ p ∈ W', p ∈ W ∨ p.2 = none ∨ p.2 = some (0 : Fin 2)) :
    (iprop((xtLoc d ↦{shT (cL L) (jL L)} XT m d) ∗ (w0Loc d ↦{shT (cL L) (jL L)} WH0 m d)
        ∗ (p0Loc d ↦[seg (N := 32768) (16384 * (cL L).val + 1024 * (jL L).val) 1024]{fullShare} PT0 m d)
        ∗ ((∃ f, acc0Loc d (cV L) ↦[seg (N := 114688) (16384 * 0 + 1024 * (jV L).val) 1024]{fullShare} f)
            ∗ (∃ f, acc0Loc d (cV L) ↦[seg (N := 114688) (16384 * 1 + 1024 * (jV L).val) 1024]{fullShare} f)
            ∗ (∃ f, acc0Loc d (cV L) ↦[seg (N := 114688) (16384 * 2 + 1024 * (jV L).val) 1024]{fullShare} f)
            ∗ (∃ f, acc0Loc d (cV L) ↦[seg (N := 114688) (16384 * 3 + 1024 * (jV L).val) 1024]{fullShare} f)
            ∗ (∃ f, acc0Loc d (cV L) ↦[seg (N := 114688) (16384 * 4 + 1024 * (jV L).val) 1024]{fullShare} f)
            ∗ (∃ f, acc0Loc d (cV L) ↦[seg (N := 114688) (16384 * 5 + 1024 * (jV L).val) 1024]{fullShare} f)
            ∗ (∃ f, acc0Loc d (cV L) ↦[seg (N := 114688) (16384 * 6 + 1024 * (jV L).val) 1024]{fullShare} f))
        ∗ atPos EB (bcell d (cV L) (jV L)) (0 + 1) ∅ 0 ∗ reached EB (bcell d (cV L) (jV L)) (0 + 1)
        ∗ ((∃ f, (V d (cV L) (jV L)).loc cc0_scratch0 ↦{fullShare} f)
            ∗ (∃ f, (V d (cV L) (jV L)).loc cc0_scratch1 ↦{fullShare} f)
            ∗ (∃ f, (V d (cV L) (jV L)).loc cc0_scratch2 ↦{fullShare} f)
            ∗ (∃ f, (V d (cV L) (jV L)).loc cc0_scratch3 ↦{fullShare} f)
            ∗ (∃ f, (V d (cV L) (jV L)).loc cc0_scratch4 ↦{fullShare} f))
        ∗ (bigSep (ownRefs (τ := τ) (.scVector (cV L) (jV L)) \ (bufCells (cV L) (jV L)).toFinset) fun b => iprop(∃ f, ((d, b) : Loc nD τ sig) ↦{fullShare} f))
        ∗ (semVal ((V d (cV L) (jV L), SemLoc.dma cc0_scratch6.sem) : GSem nD τ sig) 0
            ∗ semVal ((V d (cV L) (jV L), SemLoc.dma cc0_scratch7.sem) : GSem nD τ sig) 0
            ∗ semVal ((V d (cV L) (jV L), SemLoc.dma cc0_scratch8.sem) : GSem nD τ sig) 0
            ∗ semVal ((V d (cV L) (jV L), SemLoc.dma cc0_scratch9.sem) : GSem nD τ sig) 0
            ∗ semVal ((V d (cV L) (jV L), SemLoc.dma cc0_scoped0.sem) : GSem nD τ sig) 0
            ∗ semVal ((V d (cV L) (jV L), SemLoc.dma cc0_scoped1.sem) : GSem nD τ sig) 0
            ∗ semVal ((V d (cV L) (jV L), SemLoc.dma cc0_scoped2.sem) : GSem nD τ sig) 0
            ∗ semVal ((V d (cV L) (jV L), SemLoc.dma cc0_scoped3.sem) : GSem nD τ sig) 0
            ∗ semVal ((V d (cV L) (jV L), SemLoc.dma cc0_scoped4.sem) : GSem nD τ sig) 0
            ∗ semVal ((V d (cV L) (jV L), SemLoc.dma cc0_scoped5.sem) : GSem nD τ sig) 0
            ∗ semVal ((V d (cV L) (jV L), SemLoc.dma cc0_scoped6.sem) : GSem nD τ sig) 0
            ∗ semVal ((V d (cV L) (jV L), SemLoc.dma cc0_scoped7.sem) : GSem nD τ sig) 0
            ∗ semVal ((V d (cV L) (jV L), SemLoc.dma cc0_scoped8.sem) : GSem nD τ sig) 0
            ∗ semVal ((V d (cV L) (jV L), SemLoc.dma cc0_scoped9.sem) : GSem nD τ sig) 0
            ∗ semVal ((V d (cV L) (jV L), SemLoc.dma cc0_scoped10.sem) : GSem nD τ sig) 0
            ∗ semVal ((V d (cV L) (jV L), SemLoc.dma cc0_scoped11.sem) : GSem nD τ sig) 0
            ∗ semVal ((V d (cV L) (jV L), SemLoc.dma cc0_scoped12.sem) : GSem nD τ sig) 0
            ∗ semVal ((V d (cV L) (jV L), SemLoc.dma cc0_scoped13.sem) : GSem nD τ sig) 0
            ∗ semVal ((V d (cV L) (jV L), SemLoc.dma cc0_scoped14.sem) : GSem nD τ sig) 0
            ∗ semVal ((V d (cV L) (jV L), SemLoc.dma cc0_scoped15.sem) : GSem nD τ sig) 0
            ∗ semVal ((V d (cV L) (jV L), SemLoc.dma cc0_scoped16.sem) : GSem nD τ sig) 0)
        ∗ (bigSep (ownCells (V d (cV L) (jV L)) \ (semCells (V d (cV L) (jV L))).toFinset) fun g => semVal g 0)
        ∗ owes (V d (cV L) (jV L)) O W') : sProp 𝕄)
      ⊢ iprop(td0 m d (cL L) (jL L)
          ∗ (((∃ f, (V d (cV L) (jV L)).loc cc0_scratch0 ↦{fullShare} f)
            ∗ (∃ f, (V d (cV L) (jV L)).loc cc0_scratch1 ↦{fullShare} f)
            ∗ (∃ f, (V d (cV L) (jV L)).loc cc0_scratch2 ↦{fullShare} f)
            ∗ (∃ f, (V d (cV L) (jV L)).loc cc0_scratch3 ↦{fullShare} f)
            ∗ (∃ f, (V d (cV L) (jV L)).loc cc0_scratch4 ↦{fullShare} f))
              ∗ bigSep (ownRefs (τ := τ) (.scVector (cV L) (jV L)) \ (bufCells (cV L) (jV L)).toFinset) fun b => iprop(∃ f, ((d, b) : Loc nD τ sig) ↦{fullShare} f))
          ∗ ((semVal ((V d (cV L) (jV L), SemLoc.dma cc0_scratch6.sem) : GSem nD τ sig) 0
            ∗ semVal ((V d (cV L) (jV L), SemLoc.dma cc0_scratch7.sem) : GSem nD τ sig) 0
            ∗ semVal ((V d (cV L) (jV L), SemLoc.dma cc0_scratch8.sem) : GSem nD τ sig) 0
            ∗ semVal ((V d (cV L) (jV L), SemLoc.dma cc0_scratch9.sem) : GSem nD τ sig) 0
            ∗ semVal ((V d (cV L) (jV L), SemLoc.dma cc0_scoped0.sem) : GSem nD τ sig) 0
            ∗ semVal ((V d (cV L) (jV L), SemLoc.dma cc0_scoped1.sem) : GSem nD τ sig) 0
            ∗ semVal ((V d (cV L) (jV L), SemLoc.dma cc0_scoped2.sem) : GSem nD τ sig) 0
            ∗ semVal ((V d (cV L) (jV L), SemLoc.dma cc0_scoped3.sem) : GSem nD τ sig) 0
            ∗ semVal ((V d (cV L) (jV L), SemLoc.dma cc0_scoped4.sem) : GSem nD τ sig) 0
            ∗ semVal ((V d (cV L) (jV L), SemLoc.dma cc0_scoped5.sem) : GSem nD τ sig) 0
            ∗ semVal ((V d (cV L) (jV L), SemLoc.dma cc0_scoped6.sem) : GSem nD τ sig) 0
            ∗ semVal ((V d (cV L) (jV L), SemLoc.dma cc0_scoped7.sem) : GSem nD τ sig) 0
            ∗ semVal ((V d (cV L) (jV L), SemLoc.dma cc0_scoped8.sem) : GSem nD τ sig) 0
            ∗ semVal ((V d (cV L) (jV L), SemLoc.dma cc0_scoped9.sem) : GSem nD τ sig) 0
            ∗ semVal ((V d (cV L) (jV L), SemLoc.dma cc0_scoped10.sem) : GSem nD τ sig) 0
            ∗ semVal ((V d (cV L) (jV L), SemLoc.dma cc0_scoped11.sem) : GSem nD τ sig) 0
            ∗ semVal ((V d (cV L) (jV L), SemLoc.dma cc0_scoped12.sem) : GSem nD τ sig) 0
            ∗ semVal ((V d (cV L) (jV L), SemLoc.dma cc0_scoped13.sem) : GSem nD τ sig) 0
            ∗ semVal ((V d (cV L) (jV L), SemLoc.dma cc0_scoped14.sem) : GSem nD τ sig) 0
            ∗ semVal ((V d (cV L) (jV L), SemLoc.dma cc0_scoped15.sem) : GSem nD τ sig) 0
            ∗ semVal ((V d (cV L) (jV L), SemLoc.dma cc0_scoped16.sem) : GSem nD τ sig) 0)
              ∗ bigSep (ownCells (V d (cV L) (jV L)) \ (semCells (V d (cV L) (jV L))).toFinset) fun g => semVal g 0)
          ∗ ∃ W', ⌜∀ p ∈ W', p ∈ W ∨ p.2 = none ∨ p.2 = some (0 : Fin 2)⌝ ∗ owes (V d (cV L) (jV L)) O W') := by
  unfold td0 bpos
  rw [bigSep_univ_eq_bigSepL [0, 1, 2, 3, 4, 5, 6] (by decide) (by decide),
    show bigSepL [0, 1, 2, 3, 4, 5, 6] (fun n : Fin 7 => iprop(∃ f, acc0Loc d (cT (cL L)) ↦[seg (N := 114688) (16384 * n.val + 1024 * (jL L).val) 1024]{fullShare} f))
      = (iprop((∃ f, acc0Loc d (cT (cL L)) ↦[seg (N := 114688) (16384 * (0 : Fin 7).val + 1024 * (jL L).val) 1024]{fullShare} f) ∗ (∃ f, acc0Loc d (cT (cL L)) ↦[seg (N := 114688) (16384 * (1 : Fin 7).val + 1024 * (jL L).val) 1024]{fullShare} f) ∗ (∃ f, acc0Loc d (cT (cL L)) ↦[seg (N := 114688) (16384 * (2 : Fin 7).val + 1024 * (jL L).val) 1024]{fullShare} f) ∗ (∃ f, acc0Loc d (cT (cL L)) ↦[seg (N := 114688) (16384 * (3 : Fin 7).val + 1024 * (jL L).val) 1024]{fullShare} f) ∗ (∃ f, acc0Loc d (cT (cL L)) ↦[seg (N := 114688) (16384 * (4 : Fin 7).val + 1024 * (jL L).val) 1024]{fullShare} f) ∗ (∃ f, acc0Loc d (cT (cL L)) ↦[seg (N := 114688) (16384 * (5 : Fin 7).val + 1024 * (jL L).val) 1024]{fullShare} f) ∗ (∃ f, acc0Loc d (cT (cL L)) ↦[seg (N := 114688) (16384 * (6 : Fin 7).val + 1024 * (jL L).val) 1024]{fullShare} f)) : sProp 𝕄) from rfl]
  iintro ⟨Hxt, Hwh, Hp0, ⟨G0, G1, G2, G3, G4, G5, G6⟩, Hat, Hrch1, ⟨B0, B1, B2, B3, B4⟩, Hbufs,
    ⟨Hs6, Hs7, Hs8, Hs9, Hc0, Hc1, Hc2, Hc3, Hc4, Hc5, Hc6, Hc7, Hc8, Hc9, Hc10, Hc11, Hc12, Hc13, Hc14, Hc15, Hc16⟩, Hsems, HO⟩
  isplitl [Hxt Hwh Hp0 G0 G1 G2 G3 G4 G5 G6 Hat Hrch1]
  · isplitl [Hxt]; · iexact Hxt
    isplitl [Hwh]; · iexact Hwh
    isplitl [Hp0]; · iexact Hp0
    isplitl [G0 G1 G2 G3 G4 G5 G6]
    · isplitl [G0]; · iexact G0
      isplitl [G1]; · iexact G1
      isplitl [G2]; · iexact G2
      isplitl [G3]; · iexact G3
      isplitl [G4]; · iexact G4
      isplitl [G5]; · iexact G5
      iexact G6
    isplitl [Hat]; · iexact Hat
    iexact Hrch1
  isplitl [B0 B1 B2 B3 B4 Hbufs]
  · isplitl [B0 B1 B2 B3 B4]
    · isplitl [B0]; · iexact B0
      isplitl [B1]; · iexact B1
      isplitl [B2]; · iexact B2
      isplitl [B3]; · iexact B3
      iexact B4
    iexact Hbufs
  isplitl [Hs6 Hs7 Hs8 Hs9 Hc0 Hc1 Hc2 Hc3 Hc4 Hc5 Hc6 Hc7 Hc8 Hc9 Hc10 Hc11 Hc12 Hc13 Hc14 Hc15 Hc16 Hsems]
  · isplitl [Hs6 Hs7 Hs8 Hs9 Hc0 Hc1 Hc2 Hc3 Hc4 Hc5 Hc6 Hc7 Hc8 Hc9 Hc10 Hc11 Hc12 Hc13 Hc14 Hc15 Hc16]
    · isplitl [Hs6]; · iexact Hs6
      isplitl [Hs7]; · iexact Hs7
      isplitl [Hs8]; · iexact Hs8
      isplitl [Hs9]; · iexact Hs9
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      iexact Hc16
    iexact Hsems
  iexists W'; isplitr
  · ipureintro; exact hW'
  · iexact HO

end Post
end T0

namespace T0

omit [FloatOps F] in
/-- The recorded waits as a variable. -/
theorem gen_waits (thr : Thread nD τ) (X : CellTallies nD τ sig (HIx 2)) (W₀ : Waits sig (HIx 2)) :
    owes thr X W₀ ⊢ (iprop(∃ W₁, ⌜W₁ = W₀⌝ ∗ owes thr X W₁) : sProp 𝕄) := by
  iintro H; iexists W₀; isplitr
  · ipureintro; rfl
  · iexact H

omit [FloatOps F] in
theorem conds_C : ∀ L : grid0.Coords, ¬ k0_cond1 L = 1#1 → ¬ k0_cond2 L = 1#1 → 7 ≤ (L 1).val := by decide +kernel

section Tile
variable (d : Dev nD) (L : grid0.Coords)

abbrev prog0 (L : grid0.Coords) : Prog (TpuEff nD τ sig (Elt F) Λ₀ (.scVector ((L 0).castLE hcore0) ((L 1).castLE hsub0))) PUnit :=
  cc0_sc_fields_0 L (Memref.whole main_v0_scv) (Memref.isWhole_whole _) (Memref.whole main_v2_scv) (Memref.isWhole_whole _) (Memref.whole main_v6_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16

set_option maxHeartbeats 4000000 in
theorem tile_body_C (h1 : ¬ k0_cond1 L = 1#1) (h2 : ¬ k0_cond2 L = 1#1) (hx : InRange m) (hF : (K (F := F)).Facts) (O : CellTallies nD τ sig (HIx 2)) (W : Waits sig (HIx 2)) (hO : ∀ g, O g none = 0)
    (hOlev : ∀ g ι, 0 < O g ι → 8 * (0 : Fin 2).val + 6 ≤ (K (F := F)).lev g ι) :
    iprop(levAts (K (F := F)).L (K (F := F)).lev ∗ bkit m 0 d (cV L) (jV L) ∗ go0 m d (cL L) (jL L)
        ∗ scopedBufs (V d (cV L) (jV L)) ∗ scopedSems0 (V d (cV L) (jV L)) ∗ owes (V d (cV L) (jV L)) (O + oxV 0 d (cV L)) W)
      ⊢ wp frame (wpE (defs₀ (F := F)) 𝒱₀ (V d (cV L) (jV L)) none) Set.univ (prog0 (F := F) L)
          fun _ => iprop(td0 m d (cL L) (jL L) ∗ scopedBufs (V d (cV L) (jV L)) ∗ scopedSems0 (V d (cV L) (jV L))
            ∗ ∃ W', ⌜∀ p ∈ W', p ∈ W ∨ p.2 = none ∨ p.2 = some (0 : Fin 2)⌝ ∗ owes (V d (cV L) (jV L)) O W') := by
  have hs : 7 ≤ (L 1).val := conds_C L h1 h2
  unfold prog0
  simp only [cc0_sc_fields_0_eq_skeleton]; unfold cc0_sc_fields_0_skel
  rw [(K (F := F)).scopedBufs_V hF d (cV L) (jV L), SparseCore.Cfg.scopedSems0_V (Val := Elt F) d (cV L) (jV L), ownSems0_V, ownBufs_V]
  unfold bkit go0
  rw [if_pos (show (0 : Fin 2).val = 0 from rfl), if_neg (show ¬ (jL L).val < 7 from by show ¬ (L 1).val < 7; omega)]
  iintro ⟨#Hlv, ⟨⟨%κ, #Hinv⟩, Htoks, Hcred, #Hrch, Hat⟩, ⟨Hxt, Hwh, Hp0, -⟩,
    ⟨⟨⟨%f0, Hb0⟩, ⟨%f1, Hb1⟩, ⟨%f2, Hb2⟩, ⟨%f3, Hb3⟩, ⟨%f4, Hb4⟩⟩, Hbufs⟩,
    ⟨⟨Hs6, Hs7, Hs8, Hs9, Hc0, Hc1, Hc2, Hc3, Hc4, Hc5, Hc6, Hc7, Hc8, Hc9, Hc10, Hc11, Hc12, Hc13, Hc14, Hc15, Hc16⟩, Hsems⟩, HO⟩
  have hO' : ∀ g, (O + oxV 0 d (cV L)) g none = 0 := fun g => by rw [Pi.add_apply, Finsupp.add_apply, hO g, oxV_none]
  ihave Hmw1 := (show levAts (K (F := F)).L (K (F := F)).lev ⊢ Transfers.MayWaits (V d (cV L) (jV L)) (default : HIx 2) (O + oxV 0 d (cV L)) from
    (K (F := F)).mayWaits_none (thr := V d (cV L) (jV L)) hO') $$ Hlv
  ihave Hmw2 := (show levAts (K (F := F)).L (K (F := F)).lev ⊢ Transfers.MayWaits (V d (cV L) (jV L)) (default : HIx 2) O from
    (K (F := F)).mayWaits_none (thr := V d (cV L) (jV L)) hO) $$ Hlv
  sl_exec
  ihave Hpay := (show (iprop(emp) : sProp 𝕄) ⊢ _ from Entails.of_eq (pays_none (F := F) m d (cV L) (jV L).val hs).symm) $$ []
  · iempintro
  -- the waits recorded so far: all at index none
  ihave HOg := (gen_waits (F := F) _ _ _) $$ HO
  icases HOg with ⟨%W₁, %hW₁e, HO⟩
  have hW₁ : ∀ p ∈ W₁, p ∈ W ∨ p.2 = none := by
    subst hW₁e; intro p hp
    repeat (first | exact .inl hp | (rcases Finset.mem_insert.mp hp with e | hp; · exact .inr (by rw [e]; rfl)))
  clear hW₁e
  -- the barrier: the sixteen payloads handed over; its own round's seven column blocks received
  iapply (SparseCore.wp_subcoreBarrier 𝒱₀ none EB (bRd (F := F) m) d (sc := cV L) (i := jV L) sc_bar0 (grid0.bound 1) hsub0 (L 1) rfl κ (fun _ => 0) (jV L).val
      (fun j => bRd_mem m d _ _ _ (by decide)) (fun _ => rfl) (bRd_expect m d _ _ (by decide)) (some 0) O _) $$ [HO Htoks Hpay Hcred Hat]
  · isplitr; · iexact Hinv
    isplitl [HO]; · iexact HO
    isplitl [Htoks Hpay]
    · rw [bigSep_sep', bigSep_sep']
      isplitl [Htoks]; · iexact Htoks
      isplitl [Hpay]; · iexact Hpay
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, Hrch1, Hgot⟩
  ihave Hcols := (pays_got m d (cV L) (jV L)) $$ Hgot
  icases Hcols with ⟨Hq0, Hq1, Hq2, Hq3, Hq4, Hq5, Hq6⟩
  -- each column block in two halves, the reduce scratch in seven windows, as the copies name them
  have l0 : 0 < 7 := by decide
  have l1 : 1 < 7 := by decide
  have l2 : 2 < 7 := by decide
  have l3 : 3 < 7 := by decide
  have l4 : 4 < 7 := by decide
  have l5 : 5 < 7 := by decide
  have l6 : 6 < 7 := by decide
  ihave Hh0 := (Entails.of_eq (acc_halves (F := F) d L 0 l0 _)) $$ Hq0
  icases Hh0 with ⟨Ha0, Hz0⟩
  ihave Hh1 := (Entails.of_eq (acc_halves (F := F) d L 1 l1 _)) $$ Hq1
  icases Hh1 with ⟨Ha1, Hz1⟩
  ihave Hh2 := (Entails.of_eq (acc_halves (F := F) d L 2 l2 _)) $$ Hq2
  icases Hh2 with ⟨Ha2, Hz2⟩
  ihave Hh3 := (Entails.of_eq (acc_halves (F := F) d L 3 l3 _)) $$ Hq3
  icases Hh3 with ⟨Ha3, Hz3⟩
  ihave Hh4 := (Entails.of_eq (acc_halves (F := F) d L 4 l4 _)) $$ Hq4
  icases Hh4 with ⟨Ha4, Hz4⟩
  ihave Hh5 := (Entails.of_eq (acc_halves (F := F) d L 5 l5 _)) $$ Hq5
  icases Hh5 with ⟨Ha5, Hz5⟩
  ihave Hh6 := (Entails.of_eq (acc_halves (F := F) d L 6 l6 _)) $$ Hq6
  icases Hh6 with ⟨Ha6, Hz6⟩
  ihave Hw := (Entails.of_eq (scr3_windows (F := F) d L f3)) $$ Hb3
  icases Hw with ⟨Hd0, Hd1, Hd2, Hd3, Hd4, Hd5, Hd6⟩
  haveI hst0 : ∀ t : Fin 7, BI.Storable (upEmb : UEmb _ 𝕄) (deliv (F := F) d L 0 (fun _ => ACC0 m d (cV L)) (fun _ => f3) t) :=
    fun t => deliv_storable (F := F) d L 0 _ _ t
  imod (Transfers.batch_alloc' (Lvl := ℕ) countersEmb (V d (cV L) (jV L)) (default : HIx 2) NW (deliv (F := F) d L 0 (fun _ => ACC0 m d (cV L)) (fun _ => f3))
    (sm := .dma cc0_scratch6.sem) (E := Set.univ)) $$ Hs6 with HB
  sl_exec
  -- the seven windows landed: the reduce scratch whole again, at one function
  ihave Hg := (windows_join (F := F) d L (fun n => landedJ (F := F) d L 0 n (ACC0 m d (cV L))) ) $$ [HB_dst0 HB_dst1 HB_dst2 HB_dst3 HB_dst4 HB_dst5 HB_dst6]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    iexact HB_dst6
  icases Hg with ⟨%g, %hg, Hg⟩
  ihave Hb4' := (Entails.of_eq (show ((V d (cV L) (jV L)).loc cc0_scratch4 ↦{fullShare} f4 : sProp 𝕄) = ((Memref.whole cc0_scratch4).view.loc (V d (cV L) (jV L)) ↦{fullShare} f4) from rfl)) $$ Hb4
  sl_for (invR (F := F) m d L 0 g) $$ [Hg Hb4']
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g (ValueIdx.ix1 (⟨512 * n.val + j, by have := n.isLt; omega⟩ : Fin 3584))
        = accAt (XT m d) (WH0 m d) 0 (cV L).val n.val (1024 * (L 1).val + 0 + j) := fun n j hj => hgv_of (F := F) m d L 0 g hg n j hj
    exact step_gen_0 d (cV L) (jV L) (XT m d) (WH0 m d) 0 (cV L).val (L 1).val 0 k.val hkt (by omega) k0_pay3
      (fun v0 v1 v2 v3 v4 v5 v6 l b h0 h1 h2 h3 h4 h5 h6 => pay3_partAt_k0 (XT m d) (WH0 m d) 0 (cV L).val b v0 v1 v2 v3 v4 v5 v6 l h0 h1 h2 h3 h4 h5 h6)
      g h _ _ ((Gen.k0_off32_eq k).trans (vec1 _ _ (by omega)))
      _ _ ((Gen.k0_off30_eq k).trans (vec1 _ _ (by omega)))
      _ _ ((Gen.k0_off31_eq k ⟨0, by decide⟩).trans (vec1 _ _ (by show 512 * 0 + 16 * k.val + 512 = 512 * 1 + 16 * k.val; omega)))
      _ _ ((Gen.k0_off31_eq k ⟨1, by decide⟩).trans (vec1 _ _ (by show 512 * 1 + 16 * k.val + 512 = 512 * 2 + 16 * k.val; omega)))
      _ _ ((Gen.k0_off31_eq k ⟨2, by decide⟩).trans (vec1 _ _ (by show 512 * 2 + 16 * k.val + 512 = 512 * 3 + 16 * k.val; omega)))
      _ _ ((Gen.k0_off31_eq k ⟨3, by decide⟩).trans (vec1 _ _ (by show 512 * 3 + 16 * k.val + 512 = 512 * 4 + 16 * k.val; omega)))
      _ _ ((Gen.k0_off31_eq k ⟨4, by decide⟩).trans (vec1 _ _ (by show 512 * 4 + 16 * k.val + 512 = 512 * 5 + 16 * k.val; omega)))
      _ _ ((Gen.k0_off31_eq k ⟨5, by decide⟩).trans (vec1 _ _ (by show 512 * 5 + 16 * k.val + 512 = 512 * 6 + 16 * k.val; omega)))
      hgv' hh
  · unfold invR
    isplitl [Hg]; · iexact Hg
    iexists f4
    isplitl [Hb4']; · iexact Hb4'
    ipureintro; intro k hk; exact absurd hk (by omega)
  iintro %_ HI
  unfold invR
  icases HI with ⟨Hg, ⟨%h1, Hh, %hh1⟩⟩
  -- the second batch: the other halves into the same seven windows
  ihave Hg' := (Entails.of_eq (show ((Memref.whole cc0_scratch3).view.loc (V d (cV L) (jV L)) ↦{fullShare} g : sProp 𝕄) = ((V d (cV L) (jV L)).loc cc0_scratch3 ↦{fullShare} g) from rfl)) $$ Hg
  ihave Hw2 := (Entails.of_eq (scr3_windows (F := F) d L g)) $$ Hg'
  icases Hw2 with ⟨He0, He1, He2, He3, He4, He5, He6⟩
  ihave HB' := (show (semVal ((V d (cV L) (jV L), SemLoc.dma cc0_scratch6.sem) : GSem nD τ sig) 0 : sProp 𝕄) ⊢ semVal ((V d (cV L) (jV L), SemLoc.dma cc0_scratch6.sem) : GSem nD τ sig) 0 from BI.Entails.refl _) $$ [HB]
  · iexact HB
  haveI hst1 : ∀ t : Fin 7, BI.Storable (upEmb : UEmb _ 𝕄) (deliv (F := F) d L 1 (fun _ => ACC0 m d (cV L)) (fun _ => g) t) :=
    fun t => deliv_storable (F := F) d L 1 _ _ t
  imod (Transfers.batch_alloc' (Lvl := ℕ) countersEmb (V d (cV L) (jV L)) (default : HIx 2) NW (deliv (F := F) d L 1 (fun _ => ACC0 m d (cV L)) (fun _ => g))
    (sm := .dma cc0_scratch6.sem) (E := Set.univ)) $$ HB' with HC
  sl_exec
  ihave Hg2J := (windows_join (F := F) d L (fun n => landedJ (F := F) d L 1 n (ACC0 m d (cV L)))) $$ [HC_dst0 HC_dst1 HC_dst2 HC_dst3 HC_dst4 HC_dst5 HC_dst6]
  · isplitl [HC_dst0]; · iexact HC_dst0
    isplitl [HC_dst1]; · iexact HC_dst1
    isplitl [HC_dst2]; · iexact HC_dst2
    isplitl [HC_dst3]; · iexact HC_dst3
    isplitl [HC_dst4]; · iexact HC_dst4
    isplitl [HC_dst5]; · iexact HC_dst5
    iexact HC_dst6
  icases Hg2J with ⟨%g2, %hg2, Hg2⟩
  sl_for (invR (F := F) m d L 512 g2) $$ [Hg2 Hh]
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g2 (ValueIdx.ix1 (⟨512 * n.val + j, by have := n.isLt; omega⟩ : Fin 3584))
        = accAt (XT m d) (WH0 m d) 0 (cV L).val n.val (1024 * (L 1).val + 512 + j) := fun n j hj => hgv_of (F := F) m d L 1 g2 hg2 n j hj
    exact step_gen_0 d (cV L) (jV L) (XT m d) (WH0 m d) 0 (cV L).val (L 1).val 512 k.val hkt (by omega) k0_pay1
      (fun v0 v1 v2 v3 v4 v5 v6 l b h0 h1 h2 h3 h4 h5 h6 => pay1_partAt_k0 (XT m d) (WH0 m d) 0 (cV L).val b v0 v1 v2 v3 v4 v5 v6 l h0 h1 h2 h3 h4 h5 h6)
      g2 h _ _ ((Gen.k0_off35_eq k).trans (vec1 _ _ (by omega)))
      _ _ ((Gen.k0_off33_eq k).trans (vec1 _ _ (by omega)))
      _ _ ((Gen.k0_off34_eq k ⟨0, by decide⟩).trans (vec1 _ _ (by show 512 * 0 + 16 * k.val + 512 = 512 * 1 + 16 * k.val; omega)))
      _ _ ((Gen.k0_off34_eq k ⟨1, by decide⟩).trans (vec1 _ _ (by show 512 * 1 + 16 * k.val + 512 = 512 * 2 + 16 * k.val; omega)))
      _ _ ((Gen.k0_off34_eq k ⟨2, by decide⟩).trans (vec1 _ _ (by show 512 * 2 + 16 * k.val + 512 = 512 * 3 + 16 * k.val; omega)))
      _ _ ((Gen.k0_off34_eq k ⟨3, by decide⟩).trans (vec1 _ _ (by show 512 * 3 + 16 * k.val + 512 = 512 * 4 + 16 * k.val; omega)))
      _ _ ((Gen.k0_off34_eq k ⟨4, by decide⟩).trans (vec1 _ _ (by show 512 * 4 + 16 * k.val + 512 = 512 * 5 + 16 * k.val; omega)))
      _ _ ((Gen.k0_off34_eq k ⟨5, by decide⟩).trans (vec1 _ _ (by show 512 * 5 + 16 * k.val + 512 = 512 * 6 + 16 * k.val; omega)))
      hgv' hh
  · unfold invR
    isplitl [Hg2]; · iexact Hg2
    iexists h1
    isplitl [Hh]; · iexact Hh
    ipureintro; intro k hk; exact hh1 k (by show k.val < 0 + 16 * 32; omega)
  iintro %_ HI2
  unfold invR
  icases HI2 with ⟨Hg2, ⟨%h2, Hh, %hh2⟩⟩
  -- the write-out: the output scratch into the tile's 1024 entries of the result
  ihave Hp0' := (Entails.of_eq (pts_poK (F := F) d L _).symm) $$ Hp0
  sl_exec
  have hfull : ∀ k : Fin 1024, (show F .f32 from h2 (ValueIdx.ix1 k)) = partAt (XT m d) (WH0 m d) 0 (L 0).val (1024 * (L 1).val + k.val) :=
    fun k => hh2 k (by have := k.isLt; show k.val < 512 + 16 * 32; omega)
  ihave Hp0 := (Entails.of_eq (show (_ : sProp 𝕄) = (p0Loc d ↦[seg (N := 32768) (16384 * (cL L).val + 1024 * (jL L).val) 1024]{fullShare} PT0 m d) from
    (pts_poK (F := F) d L _).trans (pointsTo_congr (by exact out_landed (F := F) m d (cV L) (jV L) (L 0).val (L 1).val (L 0).isLt (L 1).isLt _ _ (k0_off36_eq L) _ h2 hfull)))) $$ Hp0'
  -- the column blocks whole again, the scratches as the launch names them
  ihave Hq0 := (Entails.of_eq (acc_halves (F := F) d L 0 l0 (ACC0 m d (cV L))).symm) $$ [HB_src0 HC_src0]
  · isplitl [HB_src0]; · iexact HB_src0
    iexact HC_src0
  ihave Hq1 := (Entails.of_eq (acc_halves (F := F) d L 1 l1 (ACC0 m d (cV L))).symm) $$ [HB_src1 HC_src1]
  · isplitl [HB_src1]; · iexact HB_src1
    iexact HC_src1
  ihave Hq2 := (Entails.of_eq (acc_halves (F := F) d L 2 l2 (ACC0 m d (cV L))).symm) $$ [HB_src2 HC_src2]
  · isplitl [HB_src2]; · iexact HB_src2
    iexact HC_src2
  ihave Hq3 := (Entails.of_eq (acc_halves (F := F) d L 3 l3 (ACC0 m d (cV L))).symm) $$ [HB_src3 HC_src3]
  · isplitl [HB_src3]; · iexact HB_src3
    iexact HC_src3
  ihave Hq4 := (Entails.of_eq (acc_halves (F := F) d L 4 l4 (ACC0 m d (cV L))).symm) $$ [HB_src4 HC_src4]
  · isplitl [HB_src4]; · iexact HB_src4
    iexact HC_src4
  ihave Hq5 := (Entails.of_eq (acc_halves (F := F) d L 5 l5 (ACC0 m d (cV L))).symm) $$ [HB_src5 HC_src5]
  · isplitl [HB_src5]; · iexact HB_src5
    iexact HC_src5
  ihave Hq6 := (Entails.of_eq (acc_halves (F := F) d L 6 l6 (ACC0 m d (cV L))).symm) $$ [HB_src6 HC_src6]
  · isplitl [HB_src6]; · iexact HB_src6
    iexact HC_src6
  ihave Hb3 := (Entails.of_eq (show ((Memref.whole cc0_scratch3).view.loc (V d (cV L) (jV L)) ↦{fullShare} g2 : sProp 𝕄) = ((V d (cV L) (jV L)).loc cc0_scratch3 ↦{fullShare} g2) from rfl)) $$ Hg2
  ihave Hb4 := (Entails.of_eq (show ((Memref.whole cc0_scratch4).view.loc (V d (cV L) (jV L)) ↦{fullShare} h2 : sProp 𝕄) = ((V d (cV L) (jV L)).loc cc0_scratch4 ↦{fullShare} h2) from rfl)) $$ Hh
  -- the waits recorded: all at index none, or the barrier's
  ihave HOg := (gen_waits (F := F) _ _ _) $$ HO
  icases HOg with ⟨%W₂, %hW₂e, HO⟩
  have hW₂ : ∀ p ∈ W₂, p ∈ W ∨ p.2 = none ∨ p.2 = some (0 : Fin 2) := by
    subst hW₂e; intro p hp
    repeat (first | exact (hW₁ p hp).imp_right Or.inl | (rcases Finset.mem_insert.mp hp with e | hp; · first | exact .inr (.inl (by rw [e]; rfl)) | exact .inr (.inr (by rw [e]))))
  sl_step
  iapply (post_intro' (F := F) m d L hF O W W₂ hW₂) $$ [Hxt Hwh Hp0 Hq0 Hq1 Hq2 Hq3 Hq4 Hq5 Hq6 Hat Hrch1 Hb0 Hb1 Hb2 Hb3 Hb4 Hbufs HC Hs7 Hs8 Hs9 Hc0 Hc1 Hc2 Hc3 Hc4 Hc5 Hc6 Hc7 Hc8 Hc9 Hc10 Hc11 Hc12 Hc13 Hc14 Hc15 Hc16 Hsems HO]
  isplitl [Hxt]; · iexact Hxt
  isplitl [Hwh]; · iexact Hwh
  isplitl [Hp0]; · iexact Hp0
  isplitl [Hq0 Hq1 Hq2 Hq3 Hq4 Hq5 Hq6]
  · isplitl [Hq0]; · iexists _; iexact Hq0
    isplitl [Hq1]; · iexists _; iexact Hq1
    isplitl [Hq2]; · iexists _; iexact Hq2
    isplitl [Hq3]; · iexists _; iexact Hq3
    isplitl [Hq4]; · iexists _; iexact Hq4
    isplitl [Hq5]; · iexists _; iexact Hq5
    iexists _; iexact Hq6
  isplitl [Hat]; · iexact Hat
  isplitl [Hrch1]; · iexact Hrch1
  isplitl [Hb0 Hb1 Hb2 Hb3 Hb4]
  · isplitl [Hb0]; · iexists _; iexact Hb0
    isplitl [Hb1]; · iexists _; iexact Hb1
    isplitl [Hb2]; · iexists _; iexact Hb2
    isplitl [Hb3]; · iexists _; iexact Hb3
    iexists _; iexact Hb4
  isplitl [Hbufs]; · iexact Hbufs
  isplitl [HC Hs7 Hs8 Hs9 Hc0 Hc1 Hc2 Hc3 Hc4 Hc5 Hc6 Hc7 Hc8 Hc9 Hc10 Hc11 Hc12 Hc13 Hc14 Hc15 Hc16]
  · isplitl [HC]; · iexact HC
    isplitl [Hs7]; · iexact Hs7
    isplitl [Hs8]; · iexact Hs8
    isplitl [Hs9]; · iexact Hs9
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    iexact Hc16
  isplitl [Hsems]; · iexact Hsems
  iexact HO

set_option maxHeartbeats 4000000 in
theorem tile_body_B (h1 : ¬ k0_cond1 L = 1#1) (h2 : k0_cond2 L = 1#1) (hx : InRange m) (hF : (K (F := F)).Facts) (O : CellTallies nD τ sig (HIx 2)) (W : Waits sig (HIx 2)) (hO : ∀ g, O g none = 0)
    (hOlev : ∀ g ι, 0 < O g ι → 8 * (0 : Fin 2).val + 6 ≤ (K (F := F)).lev g ι) :
    iprop(levAts (K (F := F)).L (K (F := F)).lev ∗ bkit m 0 d (cV L) (jV L) ∗ go0 m d (cL L) (jL L)
        ∗ scopedBufs (V d (cV L) (jV L)) ∗ scopedSems0 (V d (cV L) (jV L)) ∗ owes (V d (cV L) (jV L)) (O + oxV 0 d (cV L)) W)
      ⊢ wp frame (wpE (defs₀ (F := F)) 𝒱₀ (V d (cV L) (jV L)) none) Set.univ (prog0 (F := F) L)
          fun _ => iprop(td0 m d (cL L) (jL L) ∗ scopedBufs (V d (cV L) (jV L)) ∗ scopedSems0 (V d (cV L) (jV L))
            ∗ ∃ W', ⌜∀ p ∈ W', p ∈ W ∨ p.2 = none ∨ p.2 = some (0 : Fin 2)⌝ ∗ owes (V d (cV L) (jV L)) O W') := by
  obtain ⟨hc1, hs6⟩ := conds_B L h1 h2
  unfold prog0
  simp only [cc0_sc_fields_0_eq_skeleton]; unfold cc0_sc_fields_0_skel
  rw [(K (F := F)).scopedBufs_V hF d (cV L) (jV L), SparseCore.Cfg.scopedSems0_V (Val := Elt F) d (cV L) (jV L), ownSems0_V, ownBufs_V]
  unfold bkit go0
  rw [if_pos (show (0 : Fin 2).val = 0 from rfl), if_pos (show (jL L).val < 7 from by show (L 1).val < 7; omega)]
  iintro ⟨#Hlv, ⟨⟨%κ, #Hinv⟩, Htoks, Hcred, #Hrch, Hat⟩, ⟨Hxt, Hwh, Hp0, %frow, Hrow⟩,
    ⟨⟨⟨%f0, Hb0⟩, ⟨%f1, Hb1⟩, ⟨%f2, Hb2⟩, ⟨%f3, Hb3⟩, ⟨%f4, Hb4⟩⟩, Hbufs⟩,
    ⟨⟨Hs6, Hs7, Hs8, Hs9, Hc0, Hc1, Hc2, Hc3, Hc4, Hc5, Hc6, Hc7, Hc8, Hc9, Hc10, Hc11, Hc12, Hc13, Hc14, Hc15, Hc16⟩, Hsems⟩, HO⟩
  have hO' : ∀ g, (O + oxV 0 d (cV L)) g none = 0 := fun g => by rw [Pi.add_apply, Finsupp.add_apply, hO g, oxV_none]
  ihave Hmw1 := (show levAts (K (F := F)).L (K (F := F)).lev ⊢ Transfers.MayWaits (V d (cV L) (jV L)) (default : HIx 2) (O + oxV 0 d (cV L)) from
    (K (F := F)).mayWaits_none (thr := V d (cV L) (jV L)) hO') $$ Hlv
  ihave Hmw2 := (show levAts (K (F := F)).L (K (F := F)).lev ⊢ Transfers.MayWaits (V d (cV L) (jV L)) (default : HIx 2) O from
    (K (F := F)).mayWaits_none (thr := V d (cV L) (jV L)) hO) $$ Hlv
  -- the row as the eight pieces the task copies the zeros into
  ihave Hrow' := (Entails.of_eq (row_split (F := F) d (cT (cL L)) (jL L).val frow)) $$ Hrow
  icases Hrow' with ⟨Hr0, Hr1, Hr2, Hr3, Hr4, Hr5, Hr6, Hr7⟩
  ihave Hr0 := (Entails.of_eq (show (acc0Loc d (cT (cL L)) ↦[seg (N := 114688) (16384 * (jL L).val + 2048 * 0) 2048]{fullShare} frow : sProp 𝕄) = _ from (pts_zPiece (F := F) d L h2 0 frow).symm)) $$ Hr0
  ihave Hr1 := (Entails.of_eq (show (acc0Loc d (cT (cL L)) ↦[seg (N := 114688) (16384 * (jL L).val + 2048 * 1) 2048]{fullShare} frow : sProp 𝕄) = _ from (pts_zPiece (F := F) d L h2 1 frow).symm)) $$ Hr1
  ihave Hr2 := (Entails.of_eq (show (acc0Loc d (cT (cL L)) ↦[seg (N := 114688) (16384 * (jL L).val + 2048 * 2) 2048]{fullShare} frow : sProp 𝕄) = _ from (pts_zPiece (F := F) d L h2 2 frow).symm)) $$ Hr2
  ihave Hr3 := (Entails.of_eq (show (acc0Loc d (cT (cL L)) ↦[seg (N := 114688) (16384 * (jL L).val + 2048 * 3) 2048]{fullShare} frow : sProp 𝕄) = _ from (pts_zPiece (F := F) d L h2 3 frow).symm)) $$ Hr3
  ihave Hr4 := (Entails.of_eq (show (acc0Loc d (cT (cL L)) ↦[seg (N := 114688) (16384 * (jL L).val + 2048 * 4) 2048]{fullShare} frow : sProp 𝕄) = _ from (pts_zPiece (F := F) d L h2 4 frow).symm)) $$ Hr4
  ihave Hr5 := (Entails.of_eq (show (acc0Loc d (cT (cL L)) ↦[seg (N := 114688) (16384 * (jL L).val + 2048 * 5) 2048]{fullShare} frow : sProp 𝕄) = _ from (pts_zPiece (F := F) d L h2 5 frow).symm)) $$ Hr5
  ihave Hr6 := (Entails.of_eq (show (acc0Loc d (cT (cL L)) ↦[seg (N := 114688) (16384 * (jL L).val + 2048 * 6) 2048]{fullShare} frow : sProp 𝕄) = _ from (pts_zPiece (F := F) d L h2 6 frow).symm)) $$ Hr6
  ihave Hr7 := (Entails.of_eq (show (acc0Loc d (cT (cL L)) ↦[seg (N := 114688) (16384 * (jL L).val + 2048 * 7) 2048]{fullShare} frow : sProp 𝕄) = _ from (pts_zPiece (F := F) d L h2 7 frow).symm)) $$ Hr7
  ihave Hb2 := (Entails.of_eq (pts_val (F := F) d (cV L) (jV L) _).symm) $$ Hb2
  sl_exec
  -- the zero loop: the value scratch filled sixteen entries a trip
  sl_for (zInv (F := F) d (cV L) (jV L)) $$ [Hb2]
  case region =>
    intro k u
    unfold zInv
    iintro ⟨%f, H7, %hZ⟩
    ihave Hw := (wp_zTrip (F := F) d (cV L) (jV L) (k0_off27 k) (k0_off27_inb L k h2) f) $$ H7
    iapply (wp_mono frame _ _ (fun _ => ?post)) $$ Hw
    case post =>
      iintro H7
      iexists _; isplitl [H7]; · iexact H7
      ipureintro
      exact ZeroTo_step (F := F) d (cV L) (jV L) k.val (k0_off27 k) (k0_off27_eq k) (k0_off27_inb L k h2) f hZ
  · unfold zInv
    iexists _; isplitl [Hb2]; · iexact Hb2
    ipureintro; intro t ht; omega
  iintro %_ HI
  unfold zInv
  icases HI with ⟨%fz, Hb2, %hZ⟩
  sl_exec
  -- every entry of the value scratch is the zero word, so each landed piece is the row's own zeros
  have hP : ∀ x : S2048.Idx, tile_body_B.sl.dma0 d L fz x = Scalar.ofBits .f32 0x00000000#32 := fun x => by
    obtain ⟨t, rfl⟩ : ∃ t : Fin 2048, x = Idealize.ShloMosaic.ValueIdx.ix1 t := ⟨x 0, Idealize.ShloMosaic.ValueIdx.eq_ix1 x⟩
    exact hZ t (by have := t.isLt; rw [trips_t9]; omega)
  ihave Hr0 := (Entails.of_eq (show _ = (acc0Loc d (cT (cL L)) ↦[seg (N := 114688) (16384 * (jL L).val + 2048 * 0) 2048]{fullShare} ACC0 m d (cT (cL L)) : sProp 𝕄) from piece_zero (F := F) m d L h2 0 frow _ hP hc1 hs6)) $$ Hr0
  ihave Hr1 := (Entails.of_eq (show _ = (acc0Loc d (cT (cL L)) ↦[seg (N := 114688) (16384 * (jL L).val + 2048 * 1) 2048]{fullShare} ACC0 m d (cT (cL L)) : sProp 𝕄) from piece_zero (F := F) m d L h2 1 frow _ hP hc1 hs6)) $$ Hr1
  ihave Hr2 := (Entails.of_eq (show _ = (acc0Loc d (cT (cL L)) ↦[seg (N := 114688) (16384 * (jL L).val + 2048 * 2) 2048]{fullShare} ACC0 m d (cT (cL L)) : sProp 𝕄) from piece_zero (F := F) m d L h2 2 frow _ hP hc1 hs6)) $$ Hr2
  ihave Hr3 := (Entails.of_eq (show _ = (acc0Loc d (cT (cL L)) ↦[seg (N := 114688) (16384 * (jL L).val + 2048 * 3) 2048]{fullShare} ACC0 m d (cT (cL L)) : sProp 𝕄) from piece_zero (F := F) m d L h2 3 frow _ hP hc1 hs6)) $$ Hr3
  ihave Hr4 := (Entails.of_eq (show _ = (acc0Loc d (cT (cL L)) ↦[seg (N := 114688) (16384 * (jL L).val + 2048 * 4) 2048]{fullShare} ACC0 m d (cT (cL L)) : sProp 𝕄) from piece_zero (F := F) m d L h2 4 frow _ hP hc1 hs6)) $$ Hr4
  ihave Hr5 := (Entails.of_eq (show _ = (acc0Loc d (cT (cL L)) ↦[seg (N := 114688) (16384 * (jL L).val + 2048 * 5) 2048]{fullShare} ACC0 m d (cT (cL L)) : sProp 𝕄) from piece_zero (F := F) m d L h2 5 frow _ hP hc1 hs6)) $$ Hr5
  ihave Hr6 := (Entails.of_eq (show _ = (acc0Loc d (cT (cL L)) ↦[seg (N := 114688) (16384 * (jL L).val + 2048 * 6) 2048]{fullShare} ACC0 m d (cT (cL L)) : sProp 𝕄) from piece_zero (F := F) m d L h2 6 frow _ hP hc1 hs6)) $$ Hr6
  ihave Hr7 := (Entails.of_eq (show _ = (acc0Loc d (cT (cL L)) ↦[seg (N := 114688) (16384 * (jL L).val + 2048 * 7) 2048]{fullShare} ACC0 m d (cT (cL L)) : sProp 𝕄) from piece_zero (F := F) m d L h2 7 frow _ hP hc1 hs6)) $$ Hr7
  ihave Hrow := (Entails.of_eq (row_split (F := F) d (cT (cL L)) (jL L).val (ACC0 m d (cT (cL L)))).symm) $$ [Hr0 Hr1 Hr2 Hr3 Hr4 Hr5 Hr6 Hr7]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  ihave Hb2 := (Entails.of_eq (pts_val (F := F) d (cV L) (jV L) fz)) $$ Hb2
  have hs7 : (L 1).val < 7 := by omega
  ihave Hpay := (Entails.of_eq (show (acc0Loc d (cT (cL L)) ↦[seg (N := 114688) (16384 * (jL L).val) 16384]{fullShare} ACC0 m d (cT (cL L)) : sProp 𝕄) = _ from
      pays_row (F := F) m d (cV L) (jV L).val hs7)) $$ Hrow
  -- the waits recorded so far: all at index none
  ihave HOg := (gen_waits (F := F) _ _ _) $$ HO
  icases HOg with ⟨%W₁, %hW₁e, HO⟩
  have hW₁ : ∀ p ∈ W₁, p ∈ W ∨ p.2 = none := by
    subst hW₁e; intro p hp
    repeat (first | exact .inl hp | (rcases Finset.mem_insert.mp hp with e | hp; · exact .inr (by rw [e]; rfl)))
  clear hW₁e
  -- the barrier: the sixteen payloads handed over; its own round's seven column blocks received
  iapply (SparseCore.wp_subcoreBarrier 𝒱₀ none EB (bRd (F := F) m) d (sc := cV L) (i := jV L) sc_bar0 (grid0.bound 1) hsub0 (L 1) rfl κ (fun _ => 0) (jV L).val
      (fun j => bRd_mem m d _ _ _ (by decide)) (fun _ => rfl) (bRd_expect m d _ _ (by decide)) (some 0) O _) $$ [HO Htoks Hpay Hcred Hat]
  · isplitr; · iexact Hinv
    isplitl [HO]; · iexact HO
    isplitl [Htoks Hpay]
    · rw [bigSep_sep', bigSep_sep']
      isplitl [Htoks]; · iexact Htoks
      isplitl [Hpay]; · iexact Hpay
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, Hrch1, Hgot⟩
  ihave Hcols := (pays_got m d (cV L) (jV L)) $$ Hgot
  icases Hcols with ⟨Hq0, Hq1, Hq2, Hq3, Hq4, Hq5, Hq6⟩
  -- each column block in two halves, the reduce scratch in seven windows, as the copies name them
  have l0 : 0 < 7 := by decide
  have l1 : 1 < 7 := by decide
  have l2 : 2 < 7 := by decide
  have l3 : 3 < 7 := by decide
  have l4 : 4 < 7 := by decide
  have l5 : 5 < 7 := by decide
  have l6 : 6 < 7 := by decide
  ihave Hh0 := (Entails.of_eq (acc_halves (F := F) d L 0 l0 _)) $$ Hq0
  icases Hh0 with ⟨Ha0, Hz0⟩
  ihave Hh1 := (Entails.of_eq (acc_halves (F := F) d L 1 l1 _)) $$ Hq1
  icases Hh1 with ⟨Ha1, Hz1⟩
  ihave Hh2 := (Entails.of_eq (acc_halves (F := F) d L 2 l2 _)) $$ Hq2
  icases Hh2 with ⟨Ha2, Hz2⟩
  ihave Hh3 := (Entails.of_eq (acc_halves (F := F) d L 3 l3 _)) $$ Hq3
  icases Hh3 with ⟨Ha3, Hz3⟩
  ihave Hh4 := (Entails.of_eq (acc_halves (F := F) d L 4 l4 _)) $$ Hq4
  icases Hh4 with ⟨Ha4, Hz4⟩
  ihave Hh5 := (Entails.of_eq (acc_halves (F := F) d L 5 l5 _)) $$ Hq5
  icases Hh5 with ⟨Ha5, Hz5⟩
  ihave Hh6 := (Entails.of_eq (acc_halves (F := F) d L 6 l6 _)) $$ Hq6
  icases Hh6 with ⟨Ha6, Hz6⟩
  ihave Hw := (Entails.of_eq (scr3_windows (F := F) d L f3)) $$ Hb3
  icases Hw with ⟨Hd0, Hd1, Hd2, Hd3, Hd4, Hd5, Hd6⟩
  haveI hst0 : ∀ t : Fin 7, BI.Storable (upEmb : UEmb _ 𝕄) (deliv (F := F) d L 0 (fun _ => ACC0 m d (cV L)) (fun _ => f3) t) :=
    fun t => deliv_storable (F := F) d L 0 _ _ t
  imod (Transfers.batch_alloc' (Lvl := ℕ) countersEmb (V d (cV L) (jV L)) (default : HIx 2) NW (deliv (F := F) d L 0 (fun _ => ACC0 m d (cV L)) (fun _ => f3))
    (sm := .dma cc0_scratch6.sem) (E := Set.univ)) $$ Hs6 with HB
  sl_exec
  -- the seven windows landed: the reduce scratch whole again, at one function
  ihave Hg := (windows_join (F := F) d L (fun n => landedJ (F := F) d L 0 n (ACC0 m d (cV L))) ) $$ [HB_dst0 HB_dst1 HB_dst2 HB_dst3 HB_dst4 HB_dst5 HB_dst6]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    iexact HB_dst6
  icases Hg with ⟨%g, %hg, Hg⟩
  ihave Hb4' := (Entails.of_eq (show ((V d (cV L) (jV L)).loc cc0_scratch4 ↦{fullShare} f4 : sProp 𝕄) = ((Memref.whole cc0_scratch4).view.loc (V d (cV L) (jV L)) ↦{fullShare} f4) from rfl)) $$ Hb4
  sl_for (invR (F := F) m d L 0 g) $$ [Hg Hb4']
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g (ValueIdx.ix1 (⟨512 * n.val + j, by have := n.isLt; omega⟩ : Fin 3584))
        = accAt (XT m d) (WH0 m d) 0 (cV L).val n.val (1024 * (L 1).val + 0 + j) := fun n j hj => hgv_of (F := F) m d L 0 g hg n j hj
    exact step_gen_0 d (cV L) (jV L) (XT m d) (WH0 m d) 0 (cV L).val (L 1).val 0 k.val hkt (by omega) k0_pay3
      (fun v0 v1 v2 v3 v4 v5 v6 l b h0 h1 h2 h3 h4 h5 h6 => pay3_partAt_k0 (XT m d) (WH0 m d) 0 (cV L).val b v0 v1 v2 v3 v4 v5 v6 l h0 h1 h2 h3 h4 h5 h6)
      g h _ _ ((Gen.k0_off32_eq k).trans (vec1 _ _ (by omega)))
      _ _ ((Gen.k0_off30_eq k).trans (vec1 _ _ (by omega)))
      _ _ ((Gen.k0_off31_eq k ⟨0, by decide⟩).trans (vec1 _ _ (by show 512 * 0 + 16 * k.val + 512 = 512 * 1 + 16 * k.val; omega)))
      _ _ ((Gen.k0_off31_eq k ⟨1, by decide⟩).trans (vec1 _ _ (by show 512 * 1 + 16 * k.val + 512 = 512 * 2 + 16 * k.val; omega)))
      _ _ ((Gen.k0_off31_eq k ⟨2, by decide⟩).trans (vec1 _ _ (by show 512 * 2 + 16 * k.val + 512 = 512 * 3 + 16 * k.val; omega)))
      _ _ ((Gen.k0_off31_eq k ⟨3, by decide⟩).trans (vec1 _ _ (by show 512 * 3 + 16 * k.val + 512 = 512 * 4 + 16 * k.val; omega)))
      _ _ ((Gen.k0_off31_eq k ⟨4, by decide⟩).trans (vec1 _ _ (by show 512 * 4 + 16 * k.val + 512 = 512 * 5 + 16 * k.val; omega)))
      _ _ ((Gen.k0_off31_eq k ⟨5, by decide⟩).trans (vec1 _ _ (by show 512 * 5 + 16 * k.val + 512 = 512 * 6 + 16 * k.val; omega)))
      hgv' hh
  · unfold invR
    isplitl [Hg]; · iexact Hg
    iexists f4
    isplitl [Hb4']; · iexact Hb4'
    ipureintro; intro k hk; exact absurd hk (by omega)
  iintro %_ HI
  unfold invR
  icases HI with ⟨Hg, ⟨%h1, Hh, %hh1⟩⟩
  -- the second batch: the other halves into the same seven windows
  ihave Hg' := (Entails.of_eq (show ((Memref.whole cc0_scratch3).view.loc (V d (cV L) (jV L)) ↦{fullShare} g : sProp 𝕄) = ((V d (cV L) (jV L)).loc cc0_scratch3 ↦{fullShare} g) from rfl)) $$ Hg
  ihave Hw2 := (Entails.of_eq (scr3_windows (F := F) d L g)) $$ Hg'
  icases Hw2 with ⟨He0, He1, He2, He3, He4, He5, He6⟩
  ihave HB' := (show (semVal ((V d (cV L) (jV L), SemLoc.dma cc0_scratch6.sem) : GSem nD τ sig) 0 : sProp 𝕄) ⊢ semVal ((V d (cV L) (jV L), SemLoc.dma cc0_scratch6.sem) : GSem nD τ sig) 0 from BI.Entails.refl _) $$ [HB]
  · iexact HB
  haveI hst1 : ∀ t : Fin 7, BI.Storable (upEmb : UEmb _ 𝕄) (deliv (F := F) d L 1 (fun _ => ACC0 m d (cV L)) (fun _ => g) t) :=
    fun t => deliv_storable (F := F) d L 1 _ _ t
  imod (Transfers.batch_alloc' (Lvl := ℕ) countersEmb (V d (cV L) (jV L)) (default : HIx 2) NW (deliv (F := F) d L 1 (fun _ => ACC0 m d (cV L)) (fun _ => g))
    (sm := .dma cc0_scratch6.sem) (E := Set.univ)) $$ HB' with HC
  sl_exec
  ihave Hg2J := (windows_join (F := F) d L (fun n => landedJ (F := F) d L 1 n (ACC0 m d (cV L)))) $$ [HC_dst0 HC_dst1 HC_dst2 HC_dst3 HC_dst4 HC_dst5 HC_dst6]
  · isplitl [HC_dst0]; · iexact HC_dst0
    isplitl [HC_dst1]; · iexact HC_dst1
    isplitl [HC_dst2]; · iexact HC_dst2
    isplitl [HC_dst3]; · iexact HC_dst3
    isplitl [HC_dst4]; · iexact HC_dst4
    isplitl [HC_dst5]; · iexact HC_dst5
    iexact HC_dst6
  icases Hg2J with ⟨%g2, %hg2, Hg2⟩
  sl_for (invR (F := F) m d L 512 g2) $$ [Hg2 Hh]
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g2 (ValueIdx.ix1 (⟨512 * n.val + j, by have := n.isLt; omega⟩ : Fin 3584))
        = accAt (XT m d) (WH0 m d) 0 (cV L).val n.val (1024 * (L 1).val + 512 + j) := fun n j hj => hgv_of (F := F) m d L 1 g2 hg2 n j hj
    exact step_gen_0 d (cV L) (jV L) (XT m d) (WH0 m d) 0 (cV L).val (L 1).val 512 k.val hkt (by omega) k0_pay1
      (fun v0 v1 v2 v3 v4 v5 v6 l b h0 h1 h2 h3 h4 h5 h6 => pay1_partAt_k0 (XT m d) (WH0 m d) 0 (cV L).val b v0 v1 v2 v3 v4 v5 v6 l h0 h1 h2 h3 h4 h5 h6)
      g2 h _ _ ((Gen.k0_off35_eq k).trans (vec1 _ _ (by omega)))
      _ _ ((Gen.k0_off33_eq k).trans (vec1 _ _ (by omega)))
      _ _ ((Gen.k0_off34_eq k ⟨0, by decide⟩).trans (vec1 _ _ (by show 512 * 0 + 16 * k.val + 512 = 512 * 1 + 16 * k.val; omega)))
      _ _ ((Gen.k0_off34_eq k ⟨1, by decide⟩).trans (vec1 _ _ (by show 512 * 1 + 16 * k.val + 512 = 512 * 2 + 16 * k.val; omega)))
      _ _ ((Gen.k0_off34_eq k ⟨2, by decide⟩).trans (vec1 _ _ (by show 512 * 2 + 16 * k.val + 512 = 512 * 3 + 16 * k.val; omega)))
      _ _ ((Gen.k0_off34_eq k ⟨3, by decide⟩).trans (vec1 _ _ (by show 512 * 3 + 16 * k.val + 512 = 512 * 4 + 16 * k.val; omega)))
      _ _ ((Gen.k0_off34_eq k ⟨4, by decide⟩).trans (vec1 _ _ (by show 512 * 4 + 16 * k.val + 512 = 512 * 5 + 16 * k.val; omega)))
      _ _ ((Gen.k0_off34_eq k ⟨5, by decide⟩).trans (vec1 _ _ (by show 512 * 5 + 16 * k.val + 512 = 512 * 6 + 16 * k.val; omega)))
      hgv' hh
  · unfold invR
    isplitl [Hg2]; · iexact Hg2
    iexists h1
    isplitl [Hh]; · iexact Hh
    ipureintro; intro k hk; exact hh1 k (by show k.val < 0 + 16 * 32; omega)
  iintro %_ HI2
  unfold invR
  icases HI2 with ⟨Hg2, ⟨%h2, Hh, %hh2⟩⟩
  -- the write-out: the output scratch into the tile's 1024 entries of the result
  ihave Hp0' := (Entails.of_eq (pts_poK (F := F) d L _).symm) $$ Hp0
  sl_exec
  have hfull : ∀ k : Fin 1024, (show F .f32 from h2 (ValueIdx.ix1 k)) = partAt (XT m d) (WH0 m d) 0 (L 0).val (1024 * (L 1).val + k.val) :=
    fun k => hh2 k (by have := k.isLt; show k.val < 512 + 16 * 32; omega)
  ihave Hp0 := (Entails.of_eq (show (_ : sProp 𝕄) = (p0Loc d ↦[seg (N := 32768) (16384 * (cL L).val + 1024 * (jL L).val) 1024]{fullShare} PT0 m d) from
    (pts_poK (F := F) d L _).trans (pointsTo_congr (by exact out_landed (F := F) m d (cV L) (jV L) (L 0).val (L 1).val (L 0).isLt (L 1).isLt _ _ (k0_off36_eq L) _ h2 hfull)))) $$ Hp0'
  -- the column blocks whole again, the scratches as the launch names them
  ihave Hq0 := (Entails.of_eq (acc_halves (F := F) d L 0 l0 (ACC0 m d (cV L))).symm) $$ [HB_src0 HC_src0]
  · isplitl [HB_src0]; · iexact HB_src0
    iexact HC_src0
  ihave Hq1 := (Entails.of_eq (acc_halves (F := F) d L 1 l1 (ACC0 m d (cV L))).symm) $$ [HB_src1 HC_src1]
  · isplitl [HB_src1]; · iexact HB_src1
    iexact HC_src1
  ihave Hq2 := (Entails.of_eq (acc_halves (F := F) d L 2 l2 (ACC0 m d (cV L))).symm) $$ [HB_src2 HC_src2]
  · isplitl [HB_src2]; · iexact HB_src2
    iexact HC_src2
  ihave Hq3 := (Entails.of_eq (acc_halves (F := F) d L 3 l3 (ACC0 m d (cV L))).symm) $$ [HB_src3 HC_src3]
  · isplitl [HB_src3]; · iexact HB_src3
    iexact HC_src3
  ihave Hq4 := (Entails.of_eq (acc_halves (F := F) d L 4 l4 (ACC0 m d (cV L))).symm) $$ [HB_src4 HC_src4]
  · isplitl [HB_src4]; · iexact HB_src4
    iexact HC_src4
  ihave Hq5 := (Entails.of_eq (acc_halves (F := F) d L 5 l5 (ACC0 m d (cV L))).symm) $$ [HB_src5 HC_src5]
  · isplitl [HB_src5]; · iexact HB_src5
    iexact HC_src5
  ihave Hq6 := (Entails.of_eq (acc_halves (F := F) d L 6 l6 (ACC0 m d (cV L))).symm) $$ [HB_src6 HC_src6]
  · isplitl [HB_src6]; · iexact HB_src6
    iexact HC_src6
  ihave Hb3 := (Entails.of_eq (show ((Memref.whole cc0_scratch3).view.loc (V d (cV L) (jV L)) ↦{fullShare} g2 : sProp 𝕄) = ((V d (cV L) (jV L)).loc cc0_scratch3 ↦{fullShare} g2) from rfl)) $$ Hg2
  ihave Hb4 := (Entails.of_eq (show ((Memref.whole cc0_scratch4).view.loc (V d (cV L) (jV L)) ↦{fullShare} h2 : sProp 𝕄) = ((V d (cV L) (jV L)).loc cc0_scratch4 ↦{fullShare} h2) from rfl)) $$ Hh
  -- the waits recorded: all at index none, or the barrier's
  ihave HOg := (gen_waits (F := F) _ _ _) $$ HO
  icases HOg with ⟨%W₂, %hW₂e, HO⟩
  have hW₂ : ∀ p ∈ W₂, p ∈ W ∨ p.2 = none ∨ p.2 = some (0 : Fin 2) := by
    subst hW₂e; intro p hp
    repeat (first | exact (hW₁ p hp).imp_right Or.inl | (rcases Finset.mem_insert.mp hp with e | hp; · first | exact .inr (.inl (by rw [e]; rfl)) | exact .inr (.inr (by rw [e]))))
  sl_step
  iapply (post_intro' (F := F) m d L hF O W W₂ hW₂) $$ [Hxt Hwh Hp0 Hq0 Hq1 Hq2 Hq3 Hq4 Hq5 Hq6 Hat Hrch1 Hb0 Hb1 Hb2 Hb3 Hb4 Hbufs HC Hs7 Hs8 Hs9 Hc0 Hc1 Hc2 Hc3 Hc4 Hc5 Hc6 Hc7 Hc8 Hc9 Hc10 Hc11 Hc12 Hc13 Hc14 Hc15 Hc16 Hsems HO]
  isplitl [Hxt]; · iexact Hxt
  isplitl [Hwh]; · iexact Hwh
  isplitl [Hp0]; · iexact Hp0
  isplitl [Hq0 Hq1 Hq2 Hq3 Hq4 Hq5 Hq6]
  · isplitl [Hq0]; · iexists _; iexact Hq0
    isplitl [Hq1]; · iexists _; iexact Hq1
    isplitl [Hq2]; · iexists _; iexact Hq2
    isplitl [Hq3]; · iexists _; iexact Hq3
    isplitl [Hq4]; · iexists _; iexact Hq4
    isplitl [Hq5]; · iexists _; iexact Hq5
    iexists _; iexact Hq6
  isplitl [Hat]; · iexact Hat
  isplitl [Hrch1]; · iexact Hrch1
  isplitl [Hb0 Hb1 Hb2 Hb3 Hb4]
  · isplitl [Hb0]; · iexists _; iexact Hb0
    isplitl [Hb1]; · iexists _; iexact Hb1
    isplitl [Hb2]; · iexists _; iexact Hb2
    isplitl [Hb3]; · iexists _; iexact Hb3
    iexists _; iexact Hb4
  isplitl [Hbufs]; · iexact Hbufs
  isplitl [HC Hs7 Hs8 Hs9 Hc0 Hc1 Hc2 Hc3 Hc4 Hc5 Hc6 Hc7 Hc8 Hc9 Hc10 Hc11 Hc12 Hc13 Hc14 Hc15 Hc16]
  · isplitl [HC]; · iexact HC
    isplitl [Hs7]; · iexact Hs7
    isplitl [Hs8]; · iexact Hs8
    isplitl [Hs9]; · iexact Hs9
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    iexact Hc16
  isplitl [Hsems]; · iexact Hsems
  iexact HO

set_option maxHeartbeats 4000000 in
theorem tile_body_A (h1 : k0_cond1 L = 1#1) (hx : InRange m) (hF : (K (F := F)).Facts) (O : CellTallies nD τ sig (HIx 2)) (W : Waits sig (HIx 2)) (hO : ∀ g, O g none = 0)
    (hOlev : ∀ g ι, 0 < O g ι → 8 * (0 : Fin 2).val + 6 ≤ (K (F := F)).lev g ι) :
    iprop(levAts (K (F := F)).L (K (F := F)).lev ∗ bkit m 0 d (cV L) (jV L) ∗ go0 m d (cL L) (jL L)
        ∗ scopedBufs (V d (cV L) (jV L)) ∗ scopedSems0 (V d (cV L) (jV L)) ∗ owes (V d (cV L) (jV L)) (O + oxV 0 d (cV L)) W)
      ⊢ wp frame (wpE (defs₀ (F := F)) 𝒱₀ (V d (cV L) (jV L)) none) Set.univ (prog0 (F := F) L)
          fun _ => iprop(td0 m d (cL L) (jL L) ∗ scopedBufs (V d (cV L) (jV L)) ∗ scopedSems0 (V d (cV L) (jV L))
            ∗ ∃ W', ⌜∀ p ∈ W', p ∈ W ∨ p.2 = none ∨ p.2 = some (0 : Fin 2)⌝ ∗ owes (V d (cV L) (jV L)) O W') := by
  obtain ⟨hs7, hcs, h2⟩ := conds_A L h1
  have hc2 : (L 0).val < 2 := (L 0).isLt
  unfold prog0
  simp only [cc0_sc_fields_0_eq_skeleton]; unfold cc0_sc_fields_0_skel
  rw [(K (F := F)).scopedBufs_V hF d (cV L) (jV L), SparseCore.Cfg.scopedSems0_V (Val := Elt F) d (cV L) (jV L), ownSems0_V, ownBufs_V]
  unfold bkit go0
  rw [if_pos (show (0 : Fin 2).val = 0 from rfl), if_pos (show (jL L).val < 7 from hs7)]
  iintro ⟨#Hlv, ⟨⟨%κ, #Hinv⟩, Htoks, Hcred, #Hrch, Hat⟩, ⟨Hxt, Hwh, Hp0, %frow, Hrow⟩,
    ⟨⟨⟨%f0, Hb0⟩, ⟨%f1, Hb1⟩, ⟨%f2, Hb2⟩, ⟨%f3, Hb3⟩, ⟨%f4, Hb4⟩⟩, Hbufs⟩,
    ⟨⟨Hs6, Hs7, Hs8, Hs9, Hc0, Hc1, Hc2, Hc3, Hc4, Hc5, Hc6, Hc7, Hc8, Hc9, Hc10, Hc11, Hc12, Hc13, Hc14, Hc15, Hc16⟩, Hsems⟩, HO⟩
  have hO' : ∀ g, (O + oxV 0 d (cV L)) g none = 0 := fun g => by rw [Pi.add_apply, Finsupp.add_apply, hO g, oxV_none]
  ihave Hmw1 := (show levAts (K (F := F)).L (K (F := F)).lev ⊢ Transfers.MayWaits (V d (cV L) (jV L)) (default : HIx 2) (O + oxV 0 d (cV L)) from
    (K (F := F)).mayWaits_none (thr := V d (cV L) (jV L)) hO') $$ Hlv
  ihave Hmw2 := (show levAts (K (F := F)).L (K (F := F)).lev ⊢ Transfers.MayWaits (V d (cV L) (jV L)) (default : HIx 2) O from
    (K (F := F)).mayWaits_none (thr := V d (cV L) (jV L)) hO) $$ Hlv
  -- the row as the eight pieces the task copies into, the index scratch as its two slots
  ihave Hrow' := (Entails.of_eq (row_split (F := F) d (cT (cL L)) (jL L).val frow)) $$ Hrow
  icases Hrow' with ⟨Hr0, Hr1, Hr2, Hr3, Hr4, Hr5, Hr6, Hr7⟩
  ihave Hr0 := (Entails.of_eq (show (acc0Loc d (cT (cL L)) ↦[seg (N := 114688) (16384 * (jL L).val + 2048 * 0) 2048]{fullShare} frow : sProp 𝕄) = _ from (pts_rowPiece (F := F) d L h1 0 frow).symm)) $$ Hr0
  ihave Hr1 := (Entails.of_eq (show (acc0Loc d (cT (cL L)) ↦[seg (N := 114688) (16384 * (jL L).val + 2048 * 1) 2048]{fullShare} frow : sProp 𝕄) = _ from (pts_rowPiece (F := F) d L h1 1 frow).symm)) $$ Hr1
  ihave Hr2 := (Entails.of_eq (show (acc0Loc d (cT (cL L)) ↦[seg (N := 114688) (16384 * (jL L).val + 2048 * 2) 2048]{fullShare} frow : sProp 𝕄) = _ from (pts_rowPiece (F := F) d L h1 2 frow).symm)) $$ Hr2
  ihave Hr3 := (Entails.of_eq (show (acc0Loc d (cT (cL L)) ↦[seg (N := 114688) (16384 * (jL L).val + 2048 * 3) 2048]{fullShare} frow : sProp 𝕄) = _ from (pts_rowPiece (F := F) d L h1 3 frow).symm)) $$ Hr3
  ihave Hr4 := (Entails.of_eq (show (acc0Loc d (cT (cL L)) ↦[seg (N := 114688) (16384 * (jL L).val + 2048 * 4) 2048]{fullShare} frow : sProp 𝕄) = _ from (pts_rowPiece (F := F) d L h1 4 frow).symm)) $$ Hr4
  ihave Hr5 := (Entails.of_eq (show (acc0Loc d (cT (cL L)) ↦[seg (N := 114688) (16384 * (jL L).val + 2048 * 5) 2048]{fullShare} frow : sProp 𝕄) = _ from (pts_rowPiece (F := F) d L h1 5 frow).symm)) $$ Hr5
  ihave Hr6 := (Entails.of_eq (show (acc0Loc d (cT (cL L)) ↦[seg (N := 114688) (16384 * (jL L).val + 2048 * 6) 2048]{fullShare} frow : sProp 𝕄) = _ from (pts_rowPiece (F := F) d L h1 6 frow).symm)) $$ Hr6
  ihave Hr7 := (Entails.of_eq (show (acc0Loc d (cT (cL L)) ↦[seg (N := 114688) (16384 * (jL L).val + 2048 * 7) 2048]{fullShare} frow : sProp 𝕄) = _ from (pts_rowPiece (F := F) d L h1 7 frow).symm)) $$ Hr7
  ihave Hx := (x_split (F := F) d (cV L) (jV L) f1).1 $$ Hb1
  icases Hx with ⟨Hx0, Hx1⟩
  ihave Hxt := (Entails.of_eq (pts_xt (F := F) d (cV L) (jV L) _ _).symm) $$ Hxt
  ihave Hwh := (Entails.of_eq (pts_wh (F := F) d (cV L) (jV L) _ _).symm) $$ Hwh
  ihave Hp0 := (Entails.of_eq (pts_poK (F := F) d L _).symm) $$ Hp0
  ihave Hb0 := (Entails.of_eq (pts_sub (F := F) d (cV L) (jV L) _).symm) $$ Hb0
  ihave Hb2 := (Entails.of_eq (pts_val (F := F) d (cV L) (jV L) _).symm) $$ Hb2
  ihave Hb3 := (Entails.of_eq (pts_red (F := F) d (cV L) (jV L) _).symm) $$ Hb3
  ihave Hb4 := (Entails.of_eq (pts_out (F := F) d (cV L) (jV L) _).symm) $$ Hb4
  sl_exec
  -- the table scratch holds the field's 100000 entries
  have hfsub : SubHolds m d (cV L) (jV L) (7 * (L 0).val + (L 1).val) ((subM).view.writes (Elt F) f0 [⟨Rect.unit (s := S100096) ![0] S100000.size inb_S100096_S100000_0, tile_body_A.sl.dma0 m d L h1⟩]) := by
    unfold tile_body_A.sl.dma0
    exact subholds_landed (F := F) m d (cV L) (jV L) (7 * (L 0).val + (L 1).val) _ _ (by rw [k0_off1_eq]; congr 1; omega) _
  generalize ((subM).view.writes (Elt F) f0 [⟨Rect.unit (s := S100096) ![0] S100000.size inb_S100096_S100000_0, tile_body_A.sl.dma0 m d L h1⟩]) = fsub at hfsub ⊢
  -- chunk 0: slot 0 of the index scratch has it; the loop looks its 2048 indices up
  have hfx0 : XHolds m d (cV L) (jV L) 0 0 (7 * (L 0).val + (L 1).val) ((xSlot0).view.writes (Elt F) (xSlot0).view.junk [⟨Rect.whole S2048, tile_body_A.sl.dma0_1 m d L h1⟩]) := by
    unfold tile_body_A.sl.dma0_1
    exact xholds_landed (F := F) m d (cV L) (jV L) 0 0 (7 * (L 0).val + (L 1).val) _ _ rfl _ _ (k0_off2_eq L) _
  generalize ((xSlot0).view.writes (Elt F) (xSlot0).view.junk [⟨Rect.whole S2048, tile_body_A.sl.dma0_1 m d L h1⟩]) = fx0 at hfx0 ⊢
  sl_for (gInv (F := F) d (cV L) (jV L) (xSlot0).view.set fx0 fsub (Good m d (cV L) (jV L) (L 0).val (L 1).val 0)) $$ [Hx0 Hb0 Hb2]
  case region =>
    intro k u
    unfold gInv
    iintro ⟨H6, H5, %f, H7, %hG⟩
    have hk : k.val < 128 := lt_of_lt_of_le k.isLt k0_t1_abs.2.1
    have hoffX : k0_off4 k = ![2048 * 0 + 16 * k.val] := by rw [k0_off4_eq, show 2048 * 0 + 16 * k.val = 16 * k.val by omega]
    have hoffV : k0_off5 k = ![16 * k.val] := k0_off5_eq k
    have hS6 : (xM).view.setOn (Rect.unit (s := S4096) (k0_off4 k) S16.size (k0_off4_inb L k h1)).toLoadRect.set ⊆ (xSlot0).view.set := by
      rw [set_xSlot0]; exact box_sub_slot 0 k.val _ _ hoffX hk
    have hin := chk_of_holds (F := F) m d (cV L) (jV L) 0 0 (7 * (L 0).val + (L 1).val) k.val (by decide) (by decide) (by omega) hk hx _ (k0_off4_inb L k h1) hoffX fx0 hfx0
    have hP : k0_chk1 L (gIdx (F := F) d (cV L) (jV L) (k0_off4 k) (k0_off4_inb L k h1) fx0) := fun _ => hin
    ihave Hw := (wp_gTrip (F := F) d (cV L) (jV L) (k0_off4 k) (k0_off5 k) (k0_off4_inb L k h1) (k0_off5_inb L k h1) (k0_chk1 L) (k0_chk1.dec L)
        (fun v hw => k0_idx1_inb L v hw h1) (xSlot0).view.set fx0 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 0 0 k.val hc2 (by omega) (by decide) (by decide) hk hx _ _ _ _ hoffX hoffV fx0 fsub f hfx0 hfsub hG _
  · unfold gInv
    isplitl [Hx0]; · iexact Hx0
    isplitl [Hb0]; · iexact Hb0
    iexists _; isplitl [Hb2]; · iexact Hb2
    ipureintro; intro t ht; exact absurd ht (by omega)
  iintro %_ HI
  unfold gInv
  icases HI with ⟨Hx0, Hb0, %fv1, Hb2, %hG1⟩
  ihave Hx0 := (Entails.of_eq (show ((xM).view.loc (V d (cV L) (jV L)) ↦[(xSlot0).view.set]{fullShare} fx0 : sProp 𝕄)
      = ((xSlot0).view.loc (V d (cV L) (jV L)) ↦[(xSlot0).view.set]{fullShare} fx0) from rfl)) $$ Hx0
  sl_exec
  -- chunk 1: slot 1 of the index scratch has it; the loop looks its 2048 indices up
  have hfx1 : XHolds m d (cV L) (jV L) 1 1 (7 * (L 0).val + (L 1).val) ((xSlot1).view.writes (Elt F) (xSlot1).view.junk [⟨Rect.whole S2048, tile_body_A.sl.dma0_2 m d L h1⟩]) := by
    unfold tile_body_A.sl.dma0_2
    exact xholds_landed (F := F) m d (cV L) (jV L) 1 1 (7 * (L 0).val + (L 1).val) _ _ rfl _ _ (k0_off3_eq L) _
  generalize ((xSlot1).view.writes (Elt F) (xSlot1).view.junk [⟨Rect.whole S2048, tile_body_A.sl.dma0_2 m d L h1⟩]) = fx1 at hfx1 ⊢
  sl_for (gInv (F := F) d (cV L) (jV L) (xSlot1).view.set fx1 fsub (Good m d (cV L) (jV L) (L 0).val (L 1).val 1)) $$ [Hx1 Hb0 Hb2]
  case region =>
    intro k u
    unfold gInv
    iintro ⟨H6, H5, %f, H7, %hG⟩
    have hk : k.val < 128 := lt_of_lt_of_le k.isLt k0_t2_abs.2.1
    have hoffX : k0_off8 k = ![2048 * 1 + 16 * k.val] := by rw [k0_off8_eq, show 2048 * 1 + 16 * k.val = 16 * k.val + 2048 by omega]
    have hoffV : k0_off9 k = ![16 * k.val] := k0_off9_eq k
    have hS6 : (xM).view.setOn (Rect.unit (s := S4096) (k0_off8 k) S16.size (k0_off8_inb L k h1)).toLoadRect.set ⊆ (xSlot1).view.set := by
      rw [set_xSlot1]; exact box_sub_slot 1 k.val _ _ hoffX hk
    have hin := chk_of_holds (F := F) m d (cV L) (jV L) 1 1 (7 * (L 0).val + (L 1).val) k.val (by decide) (by decide) (by omega) hk hx _ (k0_off8_inb L k h1) hoffX fx1 hfx1
    have hP : k0_chk2 L (gIdx (F := F) d (cV L) (jV L) (k0_off8 k) (k0_off8_inb L k h1) fx1) := fun _ => hin
    ihave Hw := (wp_gTrip (F := F) d (cV L) (jV L) (k0_off8 k) (k0_off9 k) (k0_off8_inb L k h1) (k0_off9_inb L k h1) (k0_chk2 L) (k0_chk2.dec L)
        (fun v hw => k0_idx2_inb L v hw h1) (xSlot1).view.set fx1 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 1 1 k.val hc2 (by omega) (by decide) (by decide) hk hx _ _ _ _ hoffX hoffV fx1 fsub f hfx1 hfsub hG _
  · unfold gInv
    isplitl [Hx1]; · iexact Hx1
    isplitl [Hb0]; · iexact Hb0
    iexists _; isplitl [Hb2]; · iexact Hb2
    ipureintro; intro t ht; exact absurd ht (by omega)
  iintro %_ HI
  unfold gInv
  icases HI with ⟨Hx1, Hb0, %fv2, Hb2, %hG2⟩
  ihave Hx1 := (Entails.of_eq (show ((xM).view.loc (V d (cV L) (jV L)) ↦[(xSlot1).view.set]{fullShare} fx1 : sProp 𝕄)
      = ((xSlot1).view.loc (V d (cV L) (jV L)) ↦[(xSlot1).view.set]{fullShare} fx1) from rfl)) $$ Hx1
  sl_exec
  -- chunk 2: slot 0 of the index scratch has it; the loop looks its 2048 indices up
  have hfx2 : XHolds m d (cV L) (jV L) 0 2 (7 * (L 0).val + (L 1).val) ((xSlot0).view.writes (Elt F) (xSlot0).view.junk [⟨Rect.whole S2048, tile_body_A.sl.dma0_4 m d L h1⟩]) := by
    unfold tile_body_A.sl.dma0_4
    exact xholds_landed (F := F) m d (cV L) (jV L) 0 2 (7 * (L 0).val + (L 1).val) _ _ rfl _ _ (k0_off7_eq L) _
  generalize ((xSlot0).view.writes (Elt F) (xSlot0).view.junk [⟨Rect.whole S2048, tile_body_A.sl.dma0_4 m d L h1⟩]) = fx2 at hfx2 ⊢
  sl_for (gInv (F := F) d (cV L) (jV L) (xSlot0).view.set fx2 fsub (Good m d (cV L) (jV L) (L 0).val (L 1).val 2)) $$ [Hx0 Hb0 Hb2]
  case region =>
    intro k u
    unfold gInv
    iintro ⟨H6, H5, %f, H7, %hG⟩
    have hk : k.val < 128 := lt_of_lt_of_le k.isLt k0_t3_abs.2.1
    have hoffX : k0_off11 k = ![2048 * 0 + 16 * k.val] := by rw [k0_off11_eq, show 2048 * 0 + 16 * k.val = 16 * k.val by omega]
    have hoffV : k0_off12 k = ![16 * k.val] := k0_off12_eq k
    have hS6 : (xM).view.setOn (Rect.unit (s := S4096) (k0_off11 k) S16.size (k0_off11_inb L k h1)).toLoadRect.set ⊆ (xSlot0).view.set := by
      rw [set_xSlot0]; exact box_sub_slot 0 k.val _ _ hoffX hk
    have hin := chk_of_holds (F := F) m d (cV L) (jV L) 0 2 (7 * (L 0).val + (L 1).val) k.val (by decide) (by decide) (by omega) hk hx _ (k0_off11_inb L k h1) hoffX fx2 hfx2
    have hP : k0_chk3 L (gIdx (F := F) d (cV L) (jV L) (k0_off11 k) (k0_off11_inb L k h1) fx2) := fun _ => hin
    ihave Hw := (wp_gTrip (F := F) d (cV L) (jV L) (k0_off11 k) (k0_off12 k) (k0_off11_inb L k h1) (k0_off12_inb L k h1) (k0_chk3 L) (k0_chk3.dec L)
        (fun v hw => k0_idx3_inb L v hw h1) (xSlot0).view.set fx2 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 2 0 k.val hc2 (by omega) (by decide) (by decide) hk hx _ _ _ _ hoffX hoffV fx2 fsub f hfx2 hfsub hG _
  · unfold gInv
    isplitl [Hx0]; · iexact Hx0
    isplitl [Hb0]; · iexact Hb0
    iexists _; isplitl [Hb2]; · iexact Hb2
    ipureintro; intro t ht; exact absurd ht (by omega)
  iintro %_ HI
  unfold gInv
  icases HI with ⟨Hx0, Hb0, %fv3, Hb2, %hG3⟩
  ihave Hx0 := (Entails.of_eq (show ((xM).view.loc (V d (cV L) (jV L)) ↦[(xSlot0).view.set]{fullShare} fx2 : sProp 𝕄)
      = ((xSlot0).view.loc (V d (cV L) (jV L)) ↦[(xSlot0).view.set]{fullShare} fx2) from rfl)) $$ Hx0
  sl_exec
  -- chunk 3: slot 1 of the index scratch has it; the loop looks its 2048 indices up
  have hfx3 : XHolds m d (cV L) (jV L) 1 3 (7 * (L 0).val + (L 1).val) ((xSlot1).view.writes (Elt F) (xSlot1).view.junk [⟨Rect.whole S2048, tile_body_A.sl.dma0_6 m d L h1⟩]) := by
    unfold tile_body_A.sl.dma0_6
    exact xholds_landed (F := F) m d (cV L) (jV L) 1 3 (7 * (L 0).val + (L 1).val) _ _ rfl _ _ (k0_off10_eq L) _
  generalize ((xSlot1).view.writes (Elt F) (xSlot1).view.junk [⟨Rect.whole S2048, tile_body_A.sl.dma0_6 m d L h1⟩]) = fx3 at hfx3 ⊢
  sl_for (gInv (F := F) d (cV L) (jV L) (xSlot1).view.set fx3 fsub (Good m d (cV L) (jV L) (L 0).val (L 1).val 3)) $$ [Hx1 Hb0 Hb2]
  case region =>
    intro k u
    unfold gInv
    iintro ⟨H6, H5, %f, H7, %hG⟩
    have hk : k.val < 128 := lt_of_lt_of_le k.isLt k0_t4_abs.2.1
    have hoffX : k0_off14 k = ![2048 * 1 + 16 * k.val] := by rw [k0_off14_eq, show 2048 * 1 + 16 * k.val = 16 * k.val + 2048 by omega]
    have hoffV : k0_off15 k = ![16 * k.val] := k0_off15_eq k
    have hS6 : (xM).view.setOn (Rect.unit (s := S4096) (k0_off14 k) S16.size (k0_off14_inb L k h1)).toLoadRect.set ⊆ (xSlot1).view.set := by
      rw [set_xSlot1]; exact box_sub_slot 1 k.val _ _ hoffX hk
    have hin := chk_of_holds (F := F) m d (cV L) (jV L) 1 3 (7 * (L 0).val + (L 1).val) k.val (by decide) (by decide) (by omega) hk hx _ (k0_off14_inb L k h1) hoffX fx3 hfx3
    have hP : k0_chk4 L (gIdx (F := F) d (cV L) (jV L) (k0_off14 k) (k0_off14_inb L k h1) fx3) := fun _ => hin
    ihave Hw := (wp_gTrip (F := F) d (cV L) (jV L) (k0_off14 k) (k0_off15 k) (k0_off14_inb L k h1) (k0_off15_inb L k h1) (k0_chk4 L) (k0_chk4.dec L)
        (fun v hw => k0_idx4_inb L v hw h1) (xSlot1).view.set fx3 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 3 1 k.val hc2 (by omega) (by decide) (by decide) hk hx _ _ _ _ hoffX hoffV fx3 fsub f hfx3 hfsub hG _
  · unfold gInv
    isplitl [Hx1]; · iexact Hx1
    isplitl [Hb0]; · iexact Hb0
    iexists _; isplitl [Hb2]; · iexact Hb2
    ipureintro; intro t ht; exact absurd ht (by omega)
  iintro %_ HI
  unfold gInv
  icases HI with ⟨Hx1, Hb0, %fv4, Hb2, %hG4⟩
  ihave Hx1 := (Entails.of_eq (show ((xM).view.loc (V d (cV L) (jV L)) ↦[(xSlot1).view.set]{fullShare} fx3 : sProp 𝕄)
      = ((xSlot1).view.loc (V d (cV L) (jV L)) ↦[(xSlot1).view.set]{fullShare} fx3) from rfl)) $$ Hx1
  sl_exec
  -- chunk 4: slot 0 of the index scratch has it; the loop looks its 2048 indices up
  have hfx4 : XHolds m d (cV L) (jV L) 0 4 (7 * (L 0).val + (L 1).val) ((xSlot0).view.writes (Elt F) (xSlot0).view.junk [⟨Rect.whole S2048, tile_body_A.sl.dma0_8 m d L h1⟩]) := by
    unfold tile_body_A.sl.dma0_8
    exact xholds_landed (F := F) m d (cV L) (jV L) 0 4 (7 * (L 0).val + (L 1).val) _ _ rfl _ _ (k0_off13_eq L) _
  generalize ((xSlot0).view.writes (Elt F) (xSlot0).view.junk [⟨Rect.whole S2048, tile_body_A.sl.dma0_8 m d L h1⟩]) = fx4 at hfx4 ⊢
  sl_for (gInv (F := F) d (cV L) (jV L) (xSlot0).view.set fx4 fsub (Good m d (cV L) (jV L) (L 0).val (L 1).val 4)) $$ [Hx0 Hb0 Hb2]
  case region =>
    intro k u
    unfold gInv
    iintro ⟨H6, H5, %f, H7, %hG⟩
    have hk : k.val < 128 := lt_of_lt_of_le k.isLt k0_t5_abs.2.1
    have hoffX : k0_off17 k = ![2048 * 0 + 16 * k.val] := by rw [k0_off17_eq, show 2048 * 0 + 16 * k.val = 16 * k.val by omega]
    have hoffV : k0_off18 k = ![16 * k.val] := k0_off18_eq k
    have hS6 : (xM).view.setOn (Rect.unit (s := S4096) (k0_off17 k) S16.size (k0_off17_inb L k h1)).toLoadRect.set ⊆ (xSlot0).view.set := by
      rw [set_xSlot0]; exact box_sub_slot 0 k.val _ _ hoffX hk
    have hin := chk_of_holds (F := F) m d (cV L) (jV L) 0 4 (7 * (L 0).val + (L 1).val) k.val (by decide) (by decide) (by omega) hk hx _ (k0_off17_inb L k h1) hoffX fx4 hfx4
    have hP : k0_chk5 L (gIdx (F := F) d (cV L) (jV L) (k0_off17 k) (k0_off17_inb L k h1) fx4) := fun _ => hin
    ihave Hw := (wp_gTrip (F := F) d (cV L) (jV L) (k0_off17 k) (k0_off18 k) (k0_off17_inb L k h1) (k0_off18_inb L k h1) (k0_chk5 L) (k0_chk5.dec L)
        (fun v hw => k0_idx5_inb L v hw h1) (xSlot0).view.set fx4 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 4 0 k.val hc2 (by omega) (by decide) (by decide) hk hx _ _ _ _ hoffX hoffV fx4 fsub f hfx4 hfsub hG _
  · unfold gInv
    isplitl [Hx0]; · iexact Hx0
    isplitl [Hb0]; · iexact Hb0
    iexists _; isplitl [Hb2]; · iexact Hb2
    ipureintro; intro t ht; exact absurd ht (by omega)
  iintro %_ HI
  unfold gInv
  icases HI with ⟨Hx0, Hb0, %fv5, Hb2, %hG5⟩
  ihave Hx0 := (Entails.of_eq (show ((xM).view.loc (V d (cV L) (jV L)) ↦[(xSlot0).view.set]{fullShare} fx4 : sProp 𝕄)
      = ((xSlot0).view.loc (V d (cV L) (jV L)) ↦[(xSlot0).view.set]{fullShare} fx4) from rfl)) $$ Hx0
  sl_exec
  -- chunk 5: slot 1 of the index scratch has it; the loop looks its 2048 indices up
  have hfx5 : XHolds m d (cV L) (jV L) 1 5 (7 * (L 0).val + (L 1).val) ((xSlot1).view.writes (Elt F) (xSlot1).view.junk [⟨Rect.whole S2048, tile_body_A.sl.dma0_10 m d L h1⟩]) := by
    unfold tile_body_A.sl.dma0_10
    exact xholds_landed (F := F) m d (cV L) (jV L) 1 5 (7 * (L 0).val + (L 1).val) _ _ rfl _ _ (k0_off16_eq L) _
  generalize ((xSlot1).view.writes (Elt F) (xSlot1).view.junk [⟨Rect.whole S2048, tile_body_A.sl.dma0_10 m d L h1⟩]) = fx5 at hfx5 ⊢
  sl_for (gInv (F := F) d (cV L) (jV L) (xSlot1).view.set fx5 fsub (Good m d (cV L) (jV L) (L 0).val (L 1).val 5)) $$ [Hx1 Hb0 Hb2]
  case region =>
    intro k u
    unfold gInv
    iintro ⟨H6, H5, %f, H7, %hG⟩
    have hk : k.val < 128 := lt_of_lt_of_le k.isLt k0_t6_abs.2.1
    have hoffX : k0_off20 k = ![2048 * 1 + 16 * k.val] := by rw [k0_off20_eq, show 2048 * 1 + 16 * k.val = 16 * k.val + 2048 by omega]
    have hoffV : k0_off21 k = ![16 * k.val] := k0_off21_eq k
    have hS6 : (xM).view.setOn (Rect.unit (s := S4096) (k0_off20 k) S16.size (k0_off20_inb L k h1)).toLoadRect.set ⊆ (xSlot1).view.set := by
      rw [set_xSlot1]; exact box_sub_slot 1 k.val _ _ hoffX hk
    have hin := chk_of_holds (F := F) m d (cV L) (jV L) 1 5 (7 * (L 0).val + (L 1).val) k.val (by decide) (by decide) (by omega) hk hx _ (k0_off20_inb L k h1) hoffX fx5 hfx5
    have hP : k0_chk6 L (gIdx (F := F) d (cV L) (jV L) (k0_off20 k) (k0_off20_inb L k h1) fx5) := fun _ => hin
    ihave Hw := (wp_gTrip (F := F) d (cV L) (jV L) (k0_off20 k) (k0_off21 k) (k0_off20_inb L k h1) (k0_off21_inb L k h1) (k0_chk6 L) (k0_chk6.dec L)
        (fun v hw => k0_idx6_inb L v hw h1) (xSlot1).view.set fx5 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 5 1 k.val hc2 (by omega) (by decide) (by decide) hk hx _ _ _ _ hoffX hoffV fx5 fsub f hfx5 hfsub hG _
  · unfold gInv
    isplitl [Hx1]; · iexact Hx1
    isplitl [Hb0]; · iexact Hb0
    iexists _; isplitl [Hb2]; · iexact Hb2
    ipureintro; intro t ht; exact absurd ht (by omega)
  iintro %_ HI
  unfold gInv
  icases HI with ⟨Hx1, Hb0, %fv6, Hb2, %hG6⟩
  ihave Hx1 := (Entails.of_eq (show ((xM).view.loc (V d (cV L) (jV L)) ↦[(xSlot1).view.set]{fullShare} fx5 : sProp 𝕄)
      = ((xSlot1).view.loc (V d (cV L) (jV L)) ↦[(xSlot1).view.set]{fullShare} fx5) from rfl)) $$ Hx1
  sl_exec
  -- chunk 6: slot 0 of the index scratch has it; the loop looks its 2048 indices up
  have hfx6 : XHolds m d (cV L) (jV L) 0 6 (7 * (L 0).val + (L 1).val) ((xSlot0).view.writes (Elt F) (xSlot0).view.junk [⟨Rect.whole S2048, tile_body_A.sl.dma0_12 m d L h1⟩]) := by
    unfold tile_body_A.sl.dma0_12
    exact xholds_landed (F := F) m d (cV L) (jV L) 0 6 (7 * (L 0).val + (L 1).val) _ _ rfl _ _ (k0_off19_eq L) _
  generalize ((xSlot0).view.writes (Elt F) (xSlot0).view.junk [⟨Rect.whole S2048, tile_body_A.sl.dma0_12 m d L h1⟩]) = fx6 at hfx6 ⊢
  sl_for (gInv (F := F) d (cV L) (jV L) (xSlot0).view.set fx6 fsub (Good m d (cV L) (jV L) (L 0).val (L 1).val 6)) $$ [Hx0 Hb0 Hb2]
  case region =>
    intro k u
    unfold gInv
    iintro ⟨H6, H5, %f, H7, %hG⟩
    have hk : k.val < 128 := lt_of_lt_of_le k.isLt k0_t7_abs.2.1
    have hoffX : k0_off23 k = ![2048 * 0 + 16 * k.val] := by rw [k0_off23_eq, show 2048 * 0 + 16 * k.val = 16 * k.val by omega]
    have hoffV : k0_off24 k = ![16 * k.val] := k0_off24_eq k
    have hS6 : (xM).view.setOn (Rect.unit (s := S4096) (k0_off23 k) S16.size (k0_off23_inb L k h1)).toLoadRect.set ⊆ (xSlot0).view.set := by
      rw [set_xSlot0]; exact box_sub_slot 0 k.val _ _ hoffX hk
    have hin := chk_of_holds (F := F) m d (cV L) (jV L) 0 6 (7 * (L 0).val + (L 1).val) k.val (by decide) (by decide) (by omega) hk hx _ (k0_off23_inb L k h1) hoffX fx6 hfx6
    have hP : k0_chk7 L (gIdx (F := F) d (cV L) (jV L) (k0_off23 k) (k0_off23_inb L k h1) fx6) := fun _ => hin
    ihave Hw := (wp_gTrip (F := F) d (cV L) (jV L) (k0_off23 k) (k0_off24 k) (k0_off23_inb L k h1) (k0_off24_inb L k h1) (k0_chk7 L) (k0_chk7.dec L)
        (fun v hw => k0_idx7_inb L v hw h1) (xSlot0).view.set fx6 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 6 0 k.val hc2 (by omega) (by decide) (by decide) hk hx _ _ _ _ hoffX hoffV fx6 fsub f hfx6 hfsub hG _
  · unfold gInv
    isplitl [Hx0]; · iexact Hx0
    isplitl [Hb0]; · iexact Hb0
    iexists _; isplitl [Hb2]; · iexact Hb2
    ipureintro; intro t ht; exact absurd ht (by omega)
  iintro %_ HI
  unfold gInv
  icases HI with ⟨Hx0, Hb0, %fv7, Hb2, %hG7⟩
  ihave Hx0 := (Entails.of_eq (show ((xM).view.loc (V d (cV L) (jV L)) ↦[(xSlot0).view.set]{fullShare} fx6 : sProp 𝕄)
      = ((xSlot0).view.loc (V d (cV L) (jV L)) ↦[(xSlot0).view.set]{fullShare} fx6) from rfl)) $$ Hx0
  sl_exec
  -- chunk 7: slot 1 of the index scratch has it; the loop looks its 2048 indices up
  have hfx7 : XHolds m d (cV L) (jV L) 1 7 (7 * (L 0).val + (L 1).val) ((xSlot1).view.writes (Elt F) (xSlot1).view.junk [⟨Rect.whole S2048, tile_body_A.sl.dma0_14 m d L h1⟩]) := by
    unfold tile_body_A.sl.dma0_14
    exact xholds_landed (F := F) m d (cV L) (jV L) 1 7 (7 * (L 0).val + (L 1).val) _ _ rfl _ _ (k0_off22_eq L) _
  generalize ((xSlot1).view.writes (Elt F) (xSlot1).view.junk [⟨Rect.whole S2048, tile_body_A.sl.dma0_14 m d L h1⟩]) = fx7 at hfx7 ⊢
  sl_for (gInv (F := F) d (cV L) (jV L) (xSlot1).view.set fx7 fsub (Good m d (cV L) (jV L) (L 0).val (L 1).val 7)) $$ [Hx1 Hb0 Hb2]
  case region =>
    intro k u
    unfold gInv
    iintro ⟨H6, H5, %f, H7, %hG⟩
    have hk : k.val < 128 := lt_of_lt_of_le k.isLt k0_t8_abs.2.1
    have hoffX : k0_off25 k = ![2048 * 1 + 16 * k.val] := by rw [k0_off25_eq, show 2048 * 1 + 16 * k.val = 16 * k.val + 2048 by omega]
    have hoffV : k0_off26 k = ![16 * k.val] := k0_off26_eq k
    have hS6 : (xM).view.setOn (Rect.unit (s := S4096) (k0_off25 k) S16.size (k0_off25_inb L k h1)).toLoadRect.set ⊆ (xSlot1).view.set := by
      rw [set_xSlot1]; exact box_sub_slot 1 k.val _ _ hoffX hk
    have hin := chk_of_holds (F := F) m d (cV L) (jV L) 1 7 (7 * (L 0).val + (L 1).val) k.val (by decide) (by decide) (by omega) hk hx _ (k0_off25_inb L k h1) hoffX fx7 hfx7
    have hP : k0_chk8 L (gIdx (F := F) d (cV L) (jV L) (k0_off25 k) (k0_off25_inb L k h1) fx7) := fun _ => hin
    ihave Hw := (wp_gTrip (F := F) d (cV L) (jV L) (k0_off25 k) (k0_off26 k) (k0_off25_inb L k h1) (k0_off26_inb L k h1) (k0_chk8 L) (k0_chk8.dec L)
        (fun v hw => k0_idx8_inb L v hw h1) (xSlot1).view.set fx7 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 7 1 k.val hc2 (by omega) (by decide) (by decide) hk hx _ _ _ _ hoffX hoffV fx7 fsub f hfx7 hfsub hG _
  · unfold gInv
    isplitl [Hx1]; · iexact Hx1
    isplitl [Hb0]; · iexact Hb0
    iexists _; isplitl [Hb2]; · iexact Hb2
    ipureintro; intro t ht; exact absurd ht (by omega)
  iintro %_ HI
  unfold gInv
  icases HI with ⟨Hx1, Hb0, %fv8, Hb2, %hG8⟩
  ihave Hx1 := (Entails.of_eq (show ((xM).view.loc (V d (cV L) (jV L)) ↦[(xSlot1).view.set]{fullShare} fx7 : sProp 𝕄)
      = ((xSlot1).view.loc (V d (cV L) (jV L)) ↦[(xSlot1).view.set]{fullShare} fx7) from rfl)) $$ Hx1
  sl_exec
  have hG1' : Good m d (cV L) (jV L) (L 0).val (L 1).val 0 128 fv1 := by
    have e : Scf.trips k0_t1_loop.lb k0_t1_loop.ub k0_t1_loop.st = 128 := by decide
    rw [e] at hG1; exact hG1
  have hG2' : Good m d (cV L) (jV L) (L 0).val (L 1).val 1 128 fv2 := by
    have e : Scf.trips k0_t2_loop.lb k0_t2_loop.ub k0_t2_loop.st = 128 := by decide
    rw [e] at hG2; exact hG2
  have hG3' : Good m d (cV L) (jV L) (L 0).val (L 1).val 2 128 fv3 := by
    have e : Scf.trips k0_t3_loop.lb k0_t3_loop.ub k0_t3_loop.st = 128 := by decide
    rw [e] at hG3; exact hG3
  have hG4' : Good m d (cV L) (jV L) (L 0).val (L 1).val 3 128 fv4 := by
    have e : Scf.trips k0_t4_loop.lb k0_t4_loop.ub k0_t4_loop.st = 128 := by decide
    rw [e] at hG4; exact hG4
  have hG5' : Good m d (cV L) (jV L) (L 0).val (L 1).val 4 128 fv5 := by
    have e : Scf.trips k0_t5_loop.lb k0_t5_loop.ub k0_t5_loop.st = 128 := by decide
    rw [e] at hG5; exact hG5
  have hG6' : Good m d (cV L) (jV L) (L 0).val (L 1).val 5 128 fv6 := by
    have e : Scf.trips k0_t6_loop.lb k0_t6_loop.ub k0_t6_loop.st = 128 := by decide
    rw [e] at hG6; exact hG6
  have hG7' : Good m d (cV L) (jV L) (L 0).val (L 1).val 6 128 fv7 := by
    have e : Scf.trips k0_t7_loop.lb k0_t7_loop.ub k0_t7_loop.st = 128 := by decide
    rw [e] at hG7; exact hG7
  have hG8' : Good m d (cV L) (jV L) (L 0).val (L 1).val 7 128 fv8 := by
    have e : Scf.trips k0_t8_loop.lb k0_t8_loop.ub k0_t8_loop.st = 128 := by decide
    rw [e] at hG8; exact hG8
  ihave Hr0 := (Entails.of_eq (show (_ : sProp 𝕄) = (acc0Loc d (cT (cL L)) ↦[seg (N := 114688) (16384 * (jL L).val + 2048 * 0) 2048]{fullShare} ACC0 m d (cT (cL L))) from
      (pts_rowPiece (F := F) d L h1 0 _).trans (pointsTo_congr (by
        unfold tile_body_A.sl.dma0_3
        exact piece_landed (F := F) m d (cV L) (jV L) (cT (cL L)) (L 0).val (L 1).val 0 rfl (by omega) (by decide) _ _ (k0_off6_eq L 0) _ fv1 hG1')))) $$ Hr0
  ihave Hr1 := (Entails.of_eq (show (_ : sProp 𝕄) = (acc0Loc d (cT (cL L)) ↦[seg (N := 114688) (16384 * (jL L).val + 2048 * 1) 2048]{fullShare} ACC0 m d (cT (cL L))) from
      (pts_rowPiece (F := F) d L h1 1 _).trans (pointsTo_congr (by
        unfold tile_body_A.sl.dma0_5
        exact piece_landed (F := F) m d (cV L) (jV L) (cT (cL L)) (L 0).val (L 1).val 1 rfl (by omega) (by decide) _ _ (k0_off6_eq L 1) _ fv2 hG2')))) $$ Hr1
  ihave Hr2 := (Entails.of_eq (show (_ : sProp 𝕄) = (acc0Loc d (cT (cL L)) ↦[seg (N := 114688) (16384 * (jL L).val + 2048 * 2) 2048]{fullShare} ACC0 m d (cT (cL L))) from
      (pts_rowPiece (F := F) d L h1 2 _).trans (pointsTo_congr (by
        unfold tile_body_A.sl.dma0_7
        exact piece_landed (F := F) m d (cV L) (jV L) (cT (cL L)) (L 0).val (L 1).val 2 rfl (by omega) (by decide) _ _ (k0_off6_eq L 2) _ fv3 hG3')))) $$ Hr2
  ihave Hr3 := (Entails.of_eq (show (_ : sProp 𝕄) = (acc0Loc d (cT (cL L)) ↦[seg (N := 114688) (16384 * (jL L).val + 2048 * 3) 2048]{fullShare} ACC0 m d (cT (cL L))) from
      (pts_rowPiece (F := F) d L h1 3 _).trans (pointsTo_congr (by
        unfold tile_body_A.sl.dma0_9
        exact piece_landed (F := F) m d (cV L) (jV L) (cT (cL L)) (L 0).val (L 1).val 3 rfl (by omega) (by decide) _ _ (k0_off6_eq L 3) _ fv4 hG4')))) $$ Hr3
  ihave Hr4 := (Entails.of_eq (show (_ : sProp 𝕄) = (acc0Loc d (cT (cL L)) ↦[seg (N := 114688) (16384 * (jL L).val + 2048 * 4) 2048]{fullShare} ACC0 m d (cT (cL L))) from
      (pts_rowPiece (F := F) d L h1 4 _).trans (pointsTo_congr (by
        unfold tile_body_A.sl.dma0_11
        exact piece_landed (F := F) m d (cV L) (jV L) (cT (cL L)) (L 0).val (L 1).val 4 rfl (by omega) (by decide) _ _ (k0_off6_eq L 4) _ fv5 hG5')))) $$ Hr4
  ihave Hr5 := (Entails.of_eq (show (_ : sProp 𝕄) = (acc0Loc d (cT (cL L)) ↦[seg (N := 114688) (16384 * (jL L).val + 2048 * 5) 2048]{fullShare} ACC0 m d (cT (cL L))) from
      (pts_rowPiece (F := F) d L h1 5 _).trans (pointsTo_congr (by
        unfold tile_body_A.sl.dma0_13
        exact piece_landed (F := F) m d (cV L) (jV L) (cT (cL L)) (L 0).val (L 1).val 5 rfl (by omega) (by decide) _ _ (k0_off6_eq L 5) _ fv6 hG6')))) $$ Hr5
  ihave Hr6 := (Entails.of_eq (show (_ : sProp 𝕄) = (acc0Loc d (cT (cL L)) ↦[seg (N := 114688) (16384 * (jL L).val + 2048 * 6) 2048]{fullShare} ACC0 m d (cT (cL L))) from
      (pts_rowPiece (F := F) d L h1 6 _).trans (pointsTo_congr (by
        unfold tile_body_A.sl.dma0_15
        exact piece_landed (F := F) m d (cV L) (jV L) (cT (cL L)) (L 0).val (L 1).val 6 rfl (by omega) (by decide) _ _ (k0_off6_eq L 6) _ fv7 hG7')))) $$ Hr6
  ihave Hr7 := (Entails.of_eq (show (_ : sProp 𝕄) = (acc0Loc d (cT (cL L)) ↦[seg (N := 114688) (16384 * (jL L).val + 2048 * 7) 2048]{fullShare} ACC0 m d (cT (cL L))) from
      (pts_rowPiece (F := F) d L h1 7 _).trans (pointsTo_congr (by
        unfold tile_body_A.sl.dma0_16
        exact piece_landed (F := F) m d (cV L) (jV L) (cT (cL L)) (L 0).val (L 1).val 7 rfl (by omega) (by decide) _ _ (k0_off6_eq L 7) _ fv8 hG8')))) $$ Hr7
  -- the row at the looked-up values; the scratches and shares in the launch's spelling again
  ihave Hrow := (Entails.of_eq (row_split (F := F) d (cT (cL L)) (jL L).val (ACC0 m d (cT (cL L)))).symm) $$ [Hr0 Hr1 Hr2 Hr3 Hr4 Hr5 Hr6 Hr7]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  ihave Hb1 := (x_join (F := F) d (cV L) (jV L) _ _) $$ [Hx0 Hx1]
  · isplitl [Hx0]; · iexact Hx0
    iexact Hx1
  icases Hb1 with ⟨%f1', Hb1⟩
  ihave Hxt := (Entails.of_eq (pts_xt (F := F) d (cV L) (jV L) _ _)) $$ Hxt
  ihave Hwh := (Entails.of_eq (pts_wh (F := F) d (cV L) (jV L) _ _)) $$ Hwh
  ihave Hp0 := (Entails.of_eq (pts_poK (F := F) d L _)) $$ Hp0
  ihave Hb0 := (Entails.of_eq (pts_sub (F := F) d (cV L) (jV L) _)) $$ Hb0
  ihave Hb2 := (Entails.of_eq (pts_val (F := F) d (cV L) (jV L) _)) $$ Hb2
  ihave Hb3 := (Entails.of_eq (pts_red (F := F) d (cV L) (jV L) _)) $$ Hb3
  ihave Hb4 := (Entails.of_eq (pts_out (F := F) d (cV L) (jV L) _)) $$ Hb4
  ihave Hpay := (Entails.of_eq (show (acc0Loc d (cT (cL L)) ↦[seg (N := 114688) (16384 * (jL L).val) 16384]{fullShare} ACC0 m d (cT (cL L)) : sProp 𝕄) = _ from
      pays_row (F := F) m d (cV L) (jV L).val hs7)) $$ Hrow
  -- the waits recorded so far: all at index none
  ihave HOg := (gen_waits (F := F) _ _ _) $$ HO
  icases HOg with ⟨%W₁, %hW₁e, HO⟩
  have hW₁ : ∀ p ∈ W₁, p ∈ W ∨ p.2 = none := by
    subst hW₁e; intro p hp
    repeat (first | exact .inl hp | (rcases Finset.mem_insert.mp hp with e | hp; · exact .inr (by rw [e]; rfl)))
  clear hW₁e
  -- the barrier: the sixteen payloads handed over; its own round's seven column blocks received
  iapply (SparseCore.wp_subcoreBarrier 𝒱₀ none EB (bRd (F := F) m) d (sc := cV L) (i := jV L) sc_bar0 (grid0.bound 1) hsub0 (L 1) rfl κ (fun _ => 0) (jV L).val
      (fun j => bRd_mem m d _ _ _ (by decide)) (fun _ => rfl) (bRd_expect m d _ _ (by decide)) (some 0) O _) $$ [HO Htoks Hpay Hcred Hat]
  · isplitr; · iexact Hinv
    isplitl [HO]; · iexact HO
    isplitl [Htoks Hpay]
    · rw [bigSep_sep', bigSep_sep']
      isplitl [Htoks]; · iexact Htoks
      isplitl [Hpay]; · iexact Hpay
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, Hrch1, Hgot⟩
  ihave Hcols := (pays_got m d (cV L) (jV L)) $$ Hgot
  icases Hcols with ⟨Hq0, Hq1, Hq2, Hq3, Hq4, Hq5, Hq6⟩
  -- each column block in two halves, the reduce scratch in seven windows, as the copies name them
  have l0 : 0 < 7 := by decide
  have l1 : 1 < 7 := by decide
  have l2 : 2 < 7 := by decide
  have l3 : 3 < 7 := by decide
  have l4 : 4 < 7 := by decide
  have l5 : 5 < 7 := by decide
  have l6 : 6 < 7 := by decide
  ihave Hh0 := (Entails.of_eq (acc_halves (F := F) d L 0 l0 _)) $$ Hq0
  icases Hh0 with ⟨Ha0, Hz0⟩
  ihave Hh1 := (Entails.of_eq (acc_halves (F := F) d L 1 l1 _)) $$ Hq1
  icases Hh1 with ⟨Ha1, Hz1⟩
  ihave Hh2 := (Entails.of_eq (acc_halves (F := F) d L 2 l2 _)) $$ Hq2
  icases Hh2 with ⟨Ha2, Hz2⟩
  ihave Hh3 := (Entails.of_eq (acc_halves (F := F) d L 3 l3 _)) $$ Hq3
  icases Hh3 with ⟨Ha3, Hz3⟩
  ihave Hh4 := (Entails.of_eq (acc_halves (F := F) d L 4 l4 _)) $$ Hq4
  icases Hh4 with ⟨Ha4, Hz4⟩
  ihave Hh5 := (Entails.of_eq (acc_halves (F := F) d L 5 l5 _)) $$ Hq5
  icases Hh5 with ⟨Ha5, Hz5⟩
  ihave Hh6 := (Entails.of_eq (acc_halves (F := F) d L 6 l6 _)) $$ Hq6
  icases Hh6 with ⟨Ha6, Hz6⟩
  ihave Hw := (Entails.of_eq (scr3_windows (F := F) d L f3)) $$ Hb3
  icases Hw with ⟨Hd0, Hd1, Hd2, Hd3, Hd4, Hd5, Hd6⟩
  haveI hst0 : ∀ t : Fin 7, BI.Storable (upEmb : UEmb _ 𝕄) (deliv (F := F) d L 0 (fun _ => ACC0 m d (cV L)) (fun _ => f3) t) :=
    fun t => deliv_storable (F := F) d L 0 _ _ t
  imod (Transfers.batch_alloc' (Lvl := ℕ) countersEmb (V d (cV L) (jV L)) (default : HIx 2) NW (deliv (F := F) d L 0 (fun _ => ACC0 m d (cV L)) (fun _ => f3))
    (sm := .dma cc0_scratch6.sem) (E := Set.univ)) $$ Hs6 with HB
  sl_exec
  -- the seven windows landed: the reduce scratch whole again, at one function
  ihave Hg := (windows_join (F := F) d L (fun n => landedJ (F := F) d L 0 n (ACC0 m d (cV L))) ) $$ [HB_dst0 HB_dst1 HB_dst2 HB_dst3 HB_dst4 HB_dst5 HB_dst6]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    iexact HB_dst6
  icases Hg with ⟨%g, %hg, Hg⟩
  ihave Hb4' := (Entails.of_eq (show ((V d (cV L) (jV L)).loc cc0_scratch4 ↦{fullShare} f4 : sProp 𝕄) = ((Memref.whole cc0_scratch4).view.loc (V d (cV L) (jV L)) ↦{fullShare} f4) from rfl)) $$ Hb4
  sl_for (invR (F := F) m d L 0 g) $$ [Hg Hb4']
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g (ValueIdx.ix1 (⟨512 * n.val + j, by have := n.isLt; omega⟩ : Fin 3584))
        = accAt (XT m d) (WH0 m d) 0 (cV L).val n.val (1024 * (L 1).val + 0 + j) := fun n j hj => hgv_of (F := F) m d L 0 g hg n j hj
    exact step_gen_0 d (cV L) (jV L) (XT m d) (WH0 m d) 0 (cV L).val (L 1).val 0 k.val hkt (by omega) k0_pay3
      (fun v0 v1 v2 v3 v4 v5 v6 l b h0 h1 h2 h3 h4 h5 h6 => pay3_partAt_k0 (XT m d) (WH0 m d) 0 (cV L).val b v0 v1 v2 v3 v4 v5 v6 l h0 h1 h2 h3 h4 h5 h6)
      g h _ _ ((Gen.k0_off32_eq k).trans (vec1 _ _ (by omega)))
      _ _ ((Gen.k0_off30_eq k).trans (vec1 _ _ (by omega)))
      _ _ ((Gen.k0_off31_eq k ⟨0, by decide⟩).trans (vec1 _ _ (by show 512 * 0 + 16 * k.val + 512 = 512 * 1 + 16 * k.val; omega)))
      _ _ ((Gen.k0_off31_eq k ⟨1, by decide⟩).trans (vec1 _ _ (by show 512 * 1 + 16 * k.val + 512 = 512 * 2 + 16 * k.val; omega)))
      _ _ ((Gen.k0_off31_eq k ⟨2, by decide⟩).trans (vec1 _ _ (by show 512 * 2 + 16 * k.val + 512 = 512 * 3 + 16 * k.val; omega)))
      _ _ ((Gen.k0_off31_eq k ⟨3, by decide⟩).trans (vec1 _ _ (by show 512 * 3 + 16 * k.val + 512 = 512 * 4 + 16 * k.val; omega)))
      _ _ ((Gen.k0_off31_eq k ⟨4, by decide⟩).trans (vec1 _ _ (by show 512 * 4 + 16 * k.val + 512 = 512 * 5 + 16 * k.val; omega)))
      _ _ ((Gen.k0_off31_eq k ⟨5, by decide⟩).trans (vec1 _ _ (by show 512 * 5 + 16 * k.val + 512 = 512 * 6 + 16 * k.val; omega)))
      hgv' hh
  · unfold invR
    isplitl [Hg]; · iexact Hg
    iexists f4
    isplitl [Hb4']; · iexact Hb4'
    ipureintro; intro k hk; exact absurd hk (by omega)
  iintro %_ HI
  unfold invR
  icases HI with ⟨Hg, ⟨%h1, Hh, %hh1⟩⟩
  -- the second batch: the other halves into the same seven windows
  ihave Hg' := (Entails.of_eq (show ((Memref.whole cc0_scratch3).view.loc (V d (cV L) (jV L)) ↦{fullShare} g : sProp 𝕄) = ((V d (cV L) (jV L)).loc cc0_scratch3 ↦{fullShare} g) from rfl)) $$ Hg
  ihave Hw2 := (Entails.of_eq (scr3_windows (F := F) d L g)) $$ Hg'
  icases Hw2 with ⟨He0, He1, He2, He3, He4, He5, He6⟩
  ihave HB' := (show (semVal ((V d (cV L) (jV L), SemLoc.dma cc0_scratch6.sem) : GSem nD τ sig) 0 : sProp 𝕄) ⊢ semVal ((V d (cV L) (jV L), SemLoc.dma cc0_scratch6.sem) : GSem nD τ sig) 0 from BI.Entails.refl _) $$ [HB]
  · iexact HB
  haveI hst1 : ∀ t : Fin 7, BI.Storable (upEmb : UEmb _ 𝕄) (deliv (F := F) d L 1 (fun _ => ACC0 m d (cV L)) (fun _ => g) t) :=
    fun t => deliv_storable (F := F) d L 1 _ _ t
  imod (Transfers.batch_alloc' (Lvl := ℕ) countersEmb (V d (cV L) (jV L)) (default : HIx 2) NW (deliv (F := F) d L 1 (fun _ => ACC0 m d (cV L)) (fun _ => g))
    (sm := .dma cc0_scratch6.sem) (E := Set.univ)) $$ HB' with HC
  sl_exec
  ihave Hg2J := (windows_join (F := F) d L (fun n => landedJ (F := F) d L 1 n (ACC0 m d (cV L)))) $$ [HC_dst0 HC_dst1 HC_dst2 HC_dst3 HC_dst4 HC_dst5 HC_dst6]
  · isplitl [HC_dst0]; · iexact HC_dst0
    isplitl [HC_dst1]; · iexact HC_dst1
    isplitl [HC_dst2]; · iexact HC_dst2
    isplitl [HC_dst3]; · iexact HC_dst3
    isplitl [HC_dst4]; · iexact HC_dst4
    isplitl [HC_dst5]; · iexact HC_dst5
    iexact HC_dst6
  icases Hg2J with ⟨%g2, %hg2, Hg2⟩
  sl_for (invR (F := F) m d L 512 g2) $$ [Hg2 Hh]
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g2 (ValueIdx.ix1 (⟨512 * n.val + j, by have := n.isLt; omega⟩ : Fin 3584))
        = accAt (XT m d) (WH0 m d) 0 (cV L).val n.val (1024 * (L 1).val + 512 + j) := fun n j hj => hgv_of (F := F) m d L 1 g2 hg2 n j hj
    exact step_gen_0 d (cV L) (jV L) (XT m d) (WH0 m d) 0 (cV L).val (L 1).val 512 k.val hkt (by omega) k0_pay1
      (fun v0 v1 v2 v3 v4 v5 v6 l b h0 h1 h2 h3 h4 h5 h6 => pay1_partAt_k0 (XT m d) (WH0 m d) 0 (cV L).val b v0 v1 v2 v3 v4 v5 v6 l h0 h1 h2 h3 h4 h5 h6)
      g2 h _ _ ((Gen.k0_off35_eq k).trans (vec1 _ _ (by omega)))
      _ _ ((Gen.k0_off33_eq k).trans (vec1 _ _ (by omega)))
      _ _ ((Gen.k0_off34_eq k ⟨0, by decide⟩).trans (vec1 _ _ (by show 512 * 0 + 16 * k.val + 512 = 512 * 1 + 16 * k.val; omega)))
      _ _ ((Gen.k0_off34_eq k ⟨1, by decide⟩).trans (vec1 _ _ (by show 512 * 1 + 16 * k.val + 512 = 512 * 2 + 16 * k.val; omega)))
      _ _ ((Gen.k0_off34_eq k ⟨2, by decide⟩).trans (vec1 _ _ (by show 512 * 2 + 16 * k.val + 512 = 512 * 3 + 16 * k.val; omega)))
      _ _ ((Gen.k0_off34_eq k ⟨3, by decide⟩).trans (vec1 _ _ (by show 512 * 3 + 16 * k.val + 512 = 512 * 4 + 16 * k.val; omega)))
      _ _ ((Gen.k0_off34_eq k ⟨4, by decide⟩).trans (vec1 _ _ (by show 512 * 4 + 16 * k.val + 512 = 512 * 5 + 16 * k.val; omega)))
      _ _ ((Gen.k0_off34_eq k ⟨5, by decide⟩).trans (vec1 _ _ (by show 512 * 5 + 16 * k.val + 512 = 512 * 6 + 16 * k.val; omega)))
      hgv' hh
  · unfold invR
    isplitl [Hg2]; · iexact Hg2
    iexists h1
    isplitl [Hh]; · iexact Hh
    ipureintro; intro k hk; exact hh1 k (by show k.val < 0 + 16 * 32; omega)
  iintro %_ HI2
  unfold invR
  icases HI2 with ⟨Hg2, ⟨%h2, Hh, %hh2⟩⟩
  -- the write-out: the output scratch into the tile's 1024 entries of the result
  ihave Hp0' := (Entails.of_eq (pts_poK (F := F) d L _).symm) $$ Hp0
  sl_exec
  have hfull : ∀ k : Fin 1024, (show F .f32 from h2 (ValueIdx.ix1 k)) = partAt (XT m d) (WH0 m d) 0 (L 0).val (1024 * (L 1).val + k.val) :=
    fun k => hh2 k (by have := k.isLt; show k.val < 512 + 16 * 32; omega)
  ihave Hp0 := (Entails.of_eq (show (_ : sProp 𝕄) = (p0Loc d ↦[seg (N := 32768) (16384 * (cL L).val + 1024 * (jL L).val) 1024]{fullShare} PT0 m d) from
    (pts_poK (F := F) d L _).trans (pointsTo_congr (by exact out_landed (F := F) m d (cV L) (jV L) (L 0).val (L 1).val (L 0).isLt (L 1).isLt _ _ (k0_off36_eq L) _ h2 hfull)))) $$ Hp0'
  -- the column blocks whole again, the scratches as the launch names them
  ihave Hq0 := (Entails.of_eq (acc_halves (F := F) d L 0 l0 (ACC0 m d (cV L))).symm) $$ [HB_src0 HC_src0]
  · isplitl [HB_src0]; · iexact HB_src0
    iexact HC_src0
  ihave Hq1 := (Entails.of_eq (acc_halves (F := F) d L 1 l1 (ACC0 m d (cV L))).symm) $$ [HB_src1 HC_src1]
  · isplitl [HB_src1]; · iexact HB_src1
    iexact HC_src1
  ihave Hq2 := (Entails.of_eq (acc_halves (F := F) d L 2 l2 (ACC0 m d (cV L))).symm) $$ [HB_src2 HC_src2]
  · isplitl [HB_src2]; · iexact HB_src2
    iexact HC_src2
  ihave Hq3 := (Entails.of_eq (acc_halves (F := F) d L 3 l3 (ACC0 m d (cV L))).symm) $$ [HB_src3 HC_src3]
  · isplitl [HB_src3]; · iexact HB_src3
    iexact HC_src3
  ihave Hq4 := (Entails.of_eq (acc_halves (F := F) d L 4 l4 (ACC0 m d (cV L))).symm) $$ [HB_src4 HC_src4]
  · isplitl [HB_src4]; · iexact HB_src4
    iexact HC_src4
  ihave Hq5 := (Entails.of_eq (acc_halves (F := F) d L 5 l5 (ACC0 m d (cV L))).symm) $$ [HB_src5 HC_src5]
  · isplitl [HB_src5]; · iexact HB_src5
    iexact HC_src5
  ihave Hq6 := (Entails.of_eq (acc_halves (F := F) d L 6 l6 (ACC0 m d (cV L))).symm) $$ [HB_src6 HC_src6]
  · isplitl [HB_src6]; · iexact HB_src6
    iexact HC_src6
  ihave Hb3 := (Entails.of_eq (show ((Memref.whole cc0_scratch3).view.loc (V d (cV L) (jV L)) ↦{fullShare} g2 : sProp 𝕄) = ((V d (cV L) (jV L)).loc cc0_scratch3 ↦{fullShare} g2) from rfl)) $$ Hg2
  ihave Hb4 := (Entails.of_eq (show ((Memref.whole cc0_scratch4).view.loc (V d (cV L) (jV L)) ↦{fullShare} h2 : sProp 𝕄) = ((V d (cV L) (jV L)).loc cc0_scratch4 ↦{fullShare} h2) from rfl)) $$ Hh
  -- the waits recorded: all at index none, or the barrier's
  ihave HOg := (gen_waits (F := F) _ _ _) $$ HO
  icases HOg with ⟨%W₂, %hW₂e, HO⟩
  have hW₂ : ∀ p ∈ W₂, p ∈ W ∨ p.2 = none ∨ p.2 = some (0 : Fin 2) := by
    subst hW₂e; intro p hp
    repeat (first | exact (hW₁ p hp).imp_right Or.inl | (rcases Finset.mem_insert.mp hp with e | hp; · first | exact .inr (.inl (by rw [e]; rfl)) | exact .inr (.inr (by rw [e]))))
  sl_step
  iapply (post_intro' (F := F) m d L hF O W W₂ hW₂) $$ [Hxt Hwh Hp0 Hq0 Hq1 Hq2 Hq3 Hq4 Hq5 Hq6 Hat Hrch1 Hb0 Hb1 Hb2 Hb3 Hb4 Hbufs HC Hs7 Hs8 Hs9 Hc0 Hc1 Hc2 Hc3 Hc4 Hc5 Hc6 Hc7 Hc8 Hc9 Hc10 Hc11 Hc12 Hc13 Hc14 Hc15 Hc16 Hsems HO]
  isplitl [Hxt]; · iexact Hxt
  isplitl [Hwh]; · iexact Hwh
  isplitl [Hp0]; · iexact Hp0
  isplitl [Hq0 Hq1 Hq2 Hq3 Hq4 Hq5 Hq6]
  · isplitl [Hq0]; · iexists _; iexact Hq0
    isplitl [Hq1]; · iexists _; iexact Hq1
    isplitl [Hq2]; · iexists _; iexact Hq2
    isplitl [Hq3]; · iexists _; iexact Hq3
    isplitl [Hq4]; · iexists _; iexact Hq4
    isplitl [Hq5]; · iexists _; iexact Hq5
    iexists _; iexact Hq6
  isplitl [Hat]; · iexact Hat
  isplitl [Hrch1]; · iexact Hrch1
  isplitl [Hb0 Hb1 Hb2 Hb3 Hb4]
  · isplitl [Hb0]; · iexists _; iexact Hb0
    isplitl [Hb1]; · iexists _; iexact Hb1
    isplitl [Hb2]; · iexists _; iexact Hb2
    isplitl [Hb3]; · iexists _; iexact Hb3
    iexists _; iexact Hb4
  isplitl [Hbufs]; · iexact Hbufs
  isplitl [HC Hs7 Hs8 Hs9 Hc0 Hc1 Hc2 Hc3 Hc4 Hc5 Hc6 Hc7 Hc8 Hc9 Hc10 Hc11 Hc12 Hc13 Hc14 Hc15 Hc16]
  · isplitl [HC]; · iexact HC
    isplitl [Hs7]; · iexact Hs7
    isplitl [Hs8]; · iexact Hs8
    isplitl [Hs9]; · iexact Hs9
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    iexact Hc16
  isplitl [Hsems]; · iexact Hsems
  iexact HO

/-- The task on tile `(L 0, L 1)`: whichever of the three kinds of tile it is. -/
theorem tile_body (hx : InRange m) (hF : (K (F := F)).Facts) (O : CellTallies nD τ sig (HIx 2)) (W : Waits sig (HIx 2)) (hO : ∀ g, O g none = 0)
    (hOlev : ∀ g ι, 0 < O g ι → 8 * (0 : Fin 2).val + 6 ≤ (K (F := F)).lev g ι) :
    iprop(levAts (K (F := F)).L (K (F := F)).lev ∗ bkit m 0 d (cV L) (jV L) ∗ go0 m d (cL L) (jL L)
        ∗ scopedBufs (V d (cV L) (jV L)) ∗ scopedSems0 (V d (cV L) (jV L)) ∗ owes (V d (cV L) (jV L)) (O + oxV 0 d (cV L)) W)
      ⊢ wp frame (wpE (defs₀ (F := F)) 𝒱₀ (V d (cV L) (jV L)) none) Set.univ (prog0 (F := F) L)
          fun _ => iprop(td0 m d (cL L) (jL L) ∗ scopedBufs (V d (cV L) (jV L)) ∗ scopedSems0 (V d (cV L) (jV L))
            ∗ ∃ W', ⌜∀ p ∈ W', p ∈ W ∨ p.2 = none ∨ p.2 = some (0 : Fin 2)⌝ ∗ owes (V d (cV L) (jV L)) O W') := by
  by_cases h1 : k0_cond1 L = 1#1
  · exact tile_body_A m d L h1 hx hF O W hO hOlev
  · by_cases h2 : k0_cond2 L = 1#1
    · exact tile_body_B m d L h1 h2 hx hF O W hO hOlev
    · exact tile_body_C m d L h1 h2 hx hF O W hO hOlev

end Tile

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => prog0 (F := F) (coordsV c s)) ⟨⟩ c s := rfl

end T0

set_option maxRecDepth 16384 in
/-- Lookup 0's task obligation: every tile's task, from what the launch deals it to what it hands back. -/
theorem tileObl0 (hx : InRange m) (hF : (K (F := F)).Facts) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change iprop(levAts _ _ ∗ bkit m 0 d ((K (F := F)).core 0 c) ((K (F := F)).sub 0 i) ∗ go0 m d (cN 0 c) (iN 0 i) ∗ _ ∗ _
      ∗ owes _ (O + oxV 0 d ((K (F := F)).core 0 c)) W) ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [T0.defs₀_vector]; simp only [SparseCore.onTile, hci, and_self, ↓reduceDIte]
  exact T0.tile_body m d (T0.coordsV ⟨_, hci.1⟩ ⟨_, hci.2⟩) hx hF O W hO hOlev

end Cert.Proof.KI

end
-- ==== Proof.KI.Tile1Pieces.lean ====
/-
  Lookup 1, one tile: the pieces its task's proof is assembled from.
  A tile's coordinates; the slice of a flat array at a unit rectangle as a segment; the tile's own twenty-one DMA
  semaphores and five scratch buffers taken out of its own cells and references one by one; and the barrier's
  payloads: a tile that owns no row (tiles 7 to 15) hands nothing over, and every tile's own round collects its
  column block of each of the seven rows of the shared buffer at the looked-up values.
-/
import proofs.«207420_g80582176408339_cont_9to1c4b_743_56_alg».proof.Proof.KI.Segs

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T1

/-! ## A tile's coordinates -/

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev cL (L : grid1.Coords) : Fin 2 := Fin.cast bound_zero (L 0)
abbrev jL (L : grid1.Coords) : Fin 16 := Fin.cast bound_one (L 1)

/-! ## The slice of a flat array at a unit rectangle is a segment -/

omit [FloatOps F] in
theorem unit_set_seg {N : Nat} (off size : Fin 1 → Nat) (inb : ∀ a, off a + size a ≤ (⟨1, ![N]⟩ : Shape).size a) :
    (Rect.unit (s := (⟨1, ![N]⟩ : Shape)) off size inb).set = seg (N := N) (off 0) (size 0) := by
  ext i
  rw [Rect.mem_set_unit, mem_seg]
  constructor
  · intro h; exact h 0
  · intro h a
    obtain rfl : a = 0 := Subsingleton.elim _ _
    exact h

/-! ## The tile's own semaphores and buffers, one by one -/

/-- The tile's twenty-one DMA semaphores: the kernel's four and the seventeen of its scoped regions. -/
def semLocs : List (SemLoc sig) :=
  [.dma cc1_scratch6.sem, .dma cc1_scratch7.sem, .dma cc1_scratch8.sem, .dma cc1_scratch9.sem,
   .dma cc1_scoped0.sem, .dma cc1_scoped1.sem, .dma cc1_scoped2.sem, .dma cc1_scoped3.sem, .dma cc1_scoped4.sem, .dma cc1_scoped5.sem,
   .dma cc1_scoped6.sem, .dma cc1_scoped7.sem, .dma cc1_scoped8.sem, .dma cc1_scoped9.sem, .dma cc1_scoped10.sem, .dma cc1_scoped11.sem,
   .dma cc1_scoped12.sem, .dma cc1_scoped13.sem, .dma cc1_scoped14.sem, .dma cc1_scoped15.sem, .dma cc1_scoped16.sem]

omit [FloatOps F] in
theorem semLocs_nodup : semLocs.Nodup := by decide
omit [FloatOps F] in
theorem semLocs_scoped : ∀ sm ∈ semLocs, (sm : SemLoc sig).isScoped .scVector = true := by decide

abbrev semCells (thr : Thread nD τ) : List (GSem nD τ sig) := semLocs.map fun sm => (thr, sm)

omit [FloatOps F] in
theorem semCells_nodup (thr : Thread nD τ) : (semCells thr).Nodup :=
  semLocs_nodup.map fun _ _ e => (Prod.mk.inj e).2

omit [FloatOps F] in
theorem semCells_sub (d : Dev nD) (c : Fin τ.nSC) (i : Fin τ.nSub) : (semCells (V d c i)).toFinset ⊆ ownCells (V d c i) := by
  intro g hg
  rw [List.mem_toFinset, List.mem_map] at hg
  obtain ⟨sm, hsm, rfl⟩ := hg
  exact mem_ownCells.mpr ⟨rfl, semLocs_scoped sm hsm⟩

omit [FloatOps F] in
theorem ownSems0_V (d : Dev nD) (c : Fin τ.nSC) (i : Fin τ.nSub) :
    (ownSems0 (V d c i) : sProp 𝕄)
      = iprop((semVal ((V d c i, SemLoc.dma cc1_scratch6.sem) : GSem nD τ sig) 0
          ∗ semVal ((V d c i, SemLoc.dma cc1_scratch7.sem) : GSem nD τ sig) 0
          ∗ semVal ((V d c i, SemLoc.dma cc1_scratch8.sem) : GSem nD τ sig) 0
          ∗ semVal ((V d c i, SemLoc.dma cc1_scratch9.sem) : GSem nD τ sig) 0
          ∗ semVal ((V d c i, SemLoc.dma cc1_scoped0.sem) : GSem nD τ sig) 0
          ∗ semVal ((V d c i, SemLoc.dma cc1_scoped1.sem) : GSem nD τ sig) 0
          ∗ semVal ((V d c i, SemLoc.dma cc1_scoped2.sem) : GSem nD τ sig) 0
          ∗ semVal ((V d c i, SemLoc.dma cc1_scoped3.sem) : GSem nD τ sig) 0
          ∗ semVal ((V d c i, SemLoc.dma cc1_scoped4.sem) : GSem nD τ sig) 0
          ∗ semVal ((V d c i, SemLoc.dma cc1_scoped5.sem) : GSem nD τ sig) 0
          ∗ semVal ((V d c i, SemLoc.dma cc1_scoped6.sem) : GSem nD τ sig) 0
          ∗ semVal ((V d c i, SemLoc.dma cc1_scoped7.sem) : GSem nD τ sig) 0
          ∗ semVal ((V d c i, SemLoc.dma cc1_scoped8.sem) : GSem nD τ sig) 0
          ∗ semVal ((V d c i, SemLoc.dma cc1_scoped9.sem) : GSem nD τ sig) 0
          ∗ semVal ((V d c i, SemLoc.dma cc1_scoped10.sem) : GSem nD τ sig) 0
          ∗ semVal ((V d c i, SemLoc.dma cc1_scoped11.sem) : GSem nD τ sig) 0
          ∗ semVal ((V d c i, SemLoc.dma cc1_scoped12.sem) : GSem nD τ sig) 0
          ∗ semVal ((V d c i, SemLoc.dma cc1_scoped13.sem) : GSem nD τ sig) 0
          ∗ semVal ((V d c i, SemLoc.dma cc1_scoped14.sem) : GSem nD τ sig) 0
          ∗ semVal ((V d c i, SemLoc.dma cc1_scoped15.sem) : GSem nD τ sig) 0
          ∗ semVal ((V d c i, SemLoc.dma cc1_scoped16.sem) : GSem nD τ sig) 0)
          ∗ bigSep (ownCells (V d c i) \ (semCells (V d c i)).toFinset) fun g => semVal g 0) := by
  unfold SparseCore.Cfg.ownSems0
  rw [SparseCore.bigSep_sdiff_split' (semCells_sub d c i), bigSep_eq_bigSepL_of_eq (semCells (V d c i)) rfl (semCells_nodup _)]
  simp only [semCells, semLocs, List.map_cons, List.map_nil, bigSepL_cons_cons, bigSepL_singleton]
  rfl

end T1

namespace T1

/-! ## The tile's own scratch buffers, one by one -/

def bufRefs : List (Ref sig .scVector) := [cc1_scratch0, cc1_scratch1, cc1_scratch2, cc1_scratch3, cc1_scratch4]
omit [FloatOps F] in
theorem bufRefs_nodup : bufRefs.Nodup := by decide
abbrev bufCells (c : Fin τ.nSC) (i : Fin τ.nSub) : List (DevRef τ sig) := bufRefs.map (Proc.scVector c i).devRef
omit [FloatOps F] in
theorem bufCells_nodup (c : Fin τ.nSC) (i : Fin τ.nSub) : (bufCells c i).Nodup := bufRefs_nodup.map (Proc.devRef_injective _)
omit [FloatOps F] in
theorem bufCells_sub (c : Fin τ.nSC) (i : Fin τ.nSub) : (bufCells c i).toFinset ⊆ ownRefs (τ := τ) (.scVector c i) := by
  intro b hb
  rw [List.mem_toFinset, List.mem_map] at hb
  obtain ⟨r, hr, rfl⟩ := hb
  simp only [bufRefs, List.mem_cons, List.not_mem_nil, or_false] at hr
  rcases hr with rfl | rfl | rfl | rfl | rfl <;> exact SparseCore.Cfg.mem_ownRefs_of_owner rfl

omit [FloatOps F] in
theorem ownBufs_V (d : Dev nD) (c : Fin τ.nSC) (i : Fin τ.nSub) :
    (ownBufs (V d c i) : sProp 𝕄)
      = iprop(((∃ f, (V d c i).loc cc1_scratch0 ↦{fullShare} f)
          ∗ (∃ f, (V d c i).loc cc1_scratch1 ↦{fullShare} f)
          ∗ (∃ f, (V d c i).loc cc1_scratch2 ↦{fullShare} f)
          ∗ (∃ f, (V d c i).loc cc1_scratch3 ↦{fullShare} f)
          ∗ (∃ f, (V d c i).loc cc1_scratch4 ↦{fullShare} f))
          ∗ bigSep (ownRefs (τ := τ) (.scVector c i) \ (bufCells c i).toFinset) fun b => iprop(∃ f, ((d, b) : Loc nD τ sig) ↦{fullShare} f)) := by
  unfold SparseCore.Cfg.ownBufs
  rw [SparseCore.bigSep_sdiff_split' (bufCells_sub c i), bigSep_eq_bigSepL_of_eq (bufCells c i) rfl (bufCells_nodup _ _)]
  simp only [bufCells, bufRefs, List.map_cons, List.map_nil, bigSepL_cons_cons, bigSepL_singleton]
  rfl

omit [FloatOps F] in
theorem bigSep_emp' {I : Type} (s : Finset I) : (bigSep s fun _ => iprop(emp)) = (iprop(emp) : sProp 𝕄) := bigSep_emp_const s

end T1

namespace T1
section Bar
variable (d : Dev nD)

/-- A tile that owns no row hands nothing over at the barrier. -/
theorem pays_none (c : Fin τ.nSC) (s : ℕ) (hs : 7 ≤ s) :
    (bigSep Finset.univ fun j : Fin (grid1.bound 1) => (bRd (F := F) m).payload (bcell d c (j.castLE hsub1)) 1 s : sProp 𝕄) = iprop(emp) := by
  rw [show (bigSep Finset.univ fun j : Fin (grid1.bound 1) => (bRd (F := F) m).payload (bcell d c (j.castLE hsub1)) 1 s)
      = bigSep Finset.univ fun _ : Fin (grid1.bound 1) => (iprop(emp) : sProp 𝕄) from bigSep_congr fun j _ => by
        show bPay m (bcell d c (j.castLE hsub1)) 1 s = _
        unfold bPay; dsimp only; rw [if_neg (by omega)], bigSep_emp']

theorem bPay_lt (c : Fin τ.nSC) (i : Fin τ.nSub) (n : ℕ) (hn : n < 7) :
    bPay m (bcell d c i) 1 n = iprop(acc1Loc d c ↦[seg (N := 114688) (16384 * n + 1024 * i.val) 1024]{fullShare} ACC1 m d c) := by
  unfold bPay; dsimp only; rw [if_pos hn, if_neg (by decide), if_pos rfl]
theorem bPay_ge (c : Fin τ.nSC) (i : Fin τ.nSub) (n : ℕ) (hn : 7 ≤ n) : bPay m (bcell d c i) 1 n = iprop(emp) := by
  unfold bPay; dsimp only; rw [if_neg (by omega)]

omit [FloatOps F] in
theorem duties_list : (Finset.univ : Finset (Fin τ.nSub)).image Fin.val = [0, 1, 2, 3, 4, 5, 6, 7, 8, 9, 10, 11, 12, 13, 14, 15].toFinset := by decide

/-- What a tile's own round of the barrier collected: its column block of each of the seven rows, at the looked-up values. -/
theorem pays_got (c : Fin τ.nSC) (i : Fin τ.nSub) :
    (bigSep ((bRd (F := F) m).duties (bcell d c i) 1 \ ∅) fun n => (bRd (F := F) m).payload (bcell d c i) 1 n : sProp 𝕄)
      ⊢ iprop((acc1Loc d c ↦[seg (N := 114688) (16384 * 0 + 1024 * i.val) 1024]{fullShare} ACC1 m d c)
          ∗ (acc1Loc d c ↦[seg (N := 114688) (16384 * 1 + 1024 * i.val) 1024]{fullShare} ACC1 m d c)
          ∗ (acc1Loc d c ↦[seg (N := 114688) (16384 * 2 + 1024 * i.val) 1024]{fullShare} ACC1 m d c)
          ∗ (acc1Loc d c ↦[seg (N := 114688) (16384 * 3 + 1024 * i.val) 1024]{fullShare} ACC1 m d c)
          ∗ (acc1Loc d c ↦[seg (N := 114688) (16384 * 4 + 1024 * i.val) 1024]{fullShare} ACC1 m d c)
          ∗ (acc1Loc d c ↦[seg (N := 114688) (16384 * 5 + 1024 * i.val) 1024]{fullShare} ACC1 m d c)
          ∗ (acc1Loc d c ↦[seg (N := 114688) (16384 * 6 + 1024 * i.val) 1024]{fullShare} ACC1 m d c)) := by
  rw [Finset.sdiff_empty, bRd_duties m d c i (by decide), bigSep_eq_bigSepL_of_eq _ duties_list (by decide)]
  show iprop(bPay m (bcell d c i) 1 0 ∗ bPay m (bcell d c i) 1 1 ∗ bPay m (bcell d c i) 1 2 ∗ bPay m (bcell d c i) 1 3 ∗ bPay m (bcell d c i) 1 4 ∗ bPay m (bcell d c i) 1 5 ∗ bPay m (bcell d c i) 1 6 ∗ bPay m (bcell d c i) 1 7 ∗ bPay m (bcell d c i) 1 8 ∗ bPay m (bcell d c i) 1 9 ∗ bPay m (bcell d c i) 1 10 ∗ bPay m (bcell d c i) 1 11 ∗ bPay m (bcell d c i) 1 12 ∗ bPay m (bcell d c i) 1 13 ∗ bPay m (bcell d c i) 1 14 ∗ bPay m (bcell d c i) 1 15) ⊢ _
  rw [bPay_lt m d c i 0 (by decide), bPay_lt m d c i 1 (by decide), bPay_lt m d c i 2 (by decide), bPay_lt m d c i 3 (by decide), bPay_lt m d c i 4 (by decide), bPay_lt m d c i 5 (by decide), bPay_lt m d c i 6 (by decide),
    bPay_ge m d c i 7 (by decide), bPay_ge m d c i 8 (by decide), bPay_ge m d c i 9 (by decide), bPay_ge m d c i 10 (by decide), bPay_ge m d c i 11 (by decide), bPay_ge m d c i 12 (by decide), bPay_ge m d c i 13 (by decide), bPay_ge m d c i 14 (by decide), bPay_ge m d c i 15 (by decide)]
  iintro ⟨H0, H1, H2, H3, H4, H5, H6, -⟩
  isplitl [H0]; · iexact H0
  isplitl [H1]; · iexact H1
  isplitl [H2]; · iexact H2
  isplitl [H3]; · iexact H3
  isplitl [H4]; · iexact H4
  isplitl [H5]; · iexact H5
  iexact H6

end Bar
end T1

end Cert.Proof.KI

end
-- ==== Proof.KI.Tile1Trip.lean ====
/-
  Lookup 1, one tile, the gather phase's pieces.
  One trip of a gather loop as a program over the offsets of its two boxes and its check (every printed loop's trip is
  an instance, by unfolding), and what it does: sixteen indices read from a slot of the index scratch, in range, the
  sixteen table entries they name read from the table scratch and written at the trip's box of the value scratch.
  The buffers as the task addresses them: the two slots of the index scratch, the eight pieces of the tile's row of the
  shared buffer, the tile's entries of the result; the row as its eight pieces. A gather loop's invariant. And what the
  scratches hold, as statements about their entries: a slot a chunk of the field's index row, the table scratch the
  field's entries of the half table, the value scratch the looked-up entries below the trip's box.
-/
import proofs.«207420_g80582176408339_cont_9to1c4b_743_56_alg».proof.Proof.KI.Tile1Pieces

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T1
section Trip
variable (d : Dev nD) (c : Fin τ.nSC) (i : Fin τ.nSub)

abbrev subM : Memref sig .scVector .vmem S100096 .f32 := Memref.whole cc1_scratch0
abbrev xM : Memref sig .scVector .vmem S4096 .i32 := Memref.whole cc1_scratch1
abbrev valM : Memref sig .scVector .vmem S2048 .f32 := Memref.whole cc1_scratch2

/-- One trip of a gather loop, over the offsets of its two boxes and its check: sixteen indices loaded, assumed in
    range, the sixteen table entries they name loaded, and stored. -/
def gTrip (offX offV : Fin 1 → Nat) (inbX : ∀ a, offX a + S16.size a ≤ S4096.size a) (inbV : ∀ a, offV a + S16.size a ≤ S2048.size a)
    (P : IVec S16 32 → Prop) (dec : ∀ v, Decidable (P v)) (hidx : ∀ v, P v → ∀ a x, ((![v] : Fin 1 → IVec S16 32) a x).toNat < S100096.size a) :
    Prog (TpuEff nD τ sig (Elt F) Λ₀ (.scVector c i)) Unit := do
  let v280 : Vec F S16 .i32 ← Prog.lift (.load xM (Rect.unit (s := S4096) offX S16.size inbX).toLoadRect (View.loadsAt_vmem h_S16))
  have hw : P v280 := (← Prog.lift (TpuEff.assume (P v280) (dec v280))).down
  let v281 : Vec F S16 .f32 ← SparseCore.vectorLoadIdx subM ![v280] (hidx v280 hw) (View.loads_vmem h_S100096)
  let v283 : Vec F S16 .f32 ← Prog.lift (.load valM (Rect.unit (s := S2048) offV S16.size inbV).toLoadRect (View.loadsAt_vmem h_S16))
  Prog.lift (.store valM (Rect.unit (s := S2048) offV S16.size inbV) v281 Finset.univ (View.stores_vmem_bits_univ h_S16 rfl) (.inl rfl))
  pure ⟨⟩

theorem k1_t1_body_eq (L : grid1.Coords) (arg1 v1 : BitVec 32) (h1 : k1_cond1 L = 1#1) (k : Fin k1_t1_loop.trips) (u : Unit) :
    k1_t1_body (F := F) L (Memref.whole main_v0_scv) (Memref.isWhole_whole _) (Memref.whole main_v4_scv) (Memref.isWhole_whole _) (Memref.whole main_v7_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 arg1 v1 h1 k u
      = gTrip (F := F) (cV L) (jV L) (k1_off4 k) (k1_off5 k) (k1_off4_inb L k h1) (k1_off5_inb L k h1) (k1_chk1 L) (k1_chk1.dec L) (fun v hw => k1_idx1_inb L v hw h1) := rfl

/-- The sixteen indices a trip loads. -/
abbrev gIdx (offX : Fin 1 → Nat) (inbX : ∀ a, offX a + S16.size a ≤ S4096.size a) (fx : Buf (Elt F) ((xM).view.loc (V d c i))) : IVec S16 32 :=
  (xM).view.readAt (Elt F) (Rect.unit (s := S4096) offX S16.size inbX).toLoadRect fx

/-- What the trip leaves in the value scratch: the looked-up entries written at its box. -/
abbrev gOut (offX offV : Fin 1 → Nat) (inbX : ∀ a, offX a + S16.size a ≤ S4096.size a) (inbV : ∀ a, offV a + S16.size a ≤ S2048.size a)
    (fx : Buf (Elt F) ((xM).view.loc (V d c i))) (fsub : Buf (Elt F) ((subM).view.loc (V d c i))) (fval : Buf (Elt F) ((valM).view.loc (V d c i)))
    (hin : ∀ a x, ((![gIdx (F := F) d c i offX inbX fx] : Fin 1 → IVec S16 32) a x).toNat < S100096.size a) :
    Buf (Elt F) ((valM).view.loc (V d c i)) :=
  ((valM).access (Rect.unit (s := S2048) offV S16.size inbV)).write (Elt F) fval
    (loadIdx (((subM).access (.whole S100096)).read (Elt F) fsub) ![gIdx (F := F) d c i offX inbX fx] hin) Finset.univ

set_option maxHeartbeats 1000000 in
theorem wp_gTrip (offX offV : Fin 1 → Nat) (inbX : ∀ a, offX a + S16.size a ≤ S4096.size a) (inbV : ∀ a, offV a + S16.size a ≤ S2048.size a)
    (P : IVec S16 32 → Prop) (dec : ∀ v, Decidable (P v)) (hidx : ∀ v, P v → ∀ a x, ((![v] : Fin 1 → IVec S16 32) a x).toNat < S100096.size a)
    (S6 : Finset (Idx ((xM).view.loc (V d c i)))) (fx : Buf (Elt F) ((xM).view.loc (V d c i))) (fsub : Buf (Elt F) ((subM).view.loc (V d c i)))
    (fval : Buf (Elt F) ((valM).view.loc (V d c i)))
    (hS6 : (xM).view.setOn (Rect.unit (s := S4096) offX S16.size inbX).toLoadRect.set ⊆ S6)
    (hP : P (gIdx (F := F) d c i offX inbX fx)) :
    (iprop(((xM).view.loc (V d c i) ↦[S6]{fullShare} fx) ∗ ((subM).view.loc (V d c i) ↦{fullShare} fsub) ∗ ((valM).view.loc (V d c i) ↦{fullShare} fval)) : sProp 𝕄)
      ⊢ wp frame (wpE (defs₀ (F := F)) 𝒱₀ (V d c i) none) Set.univ (gTrip (F := F) c i offX offV inbX inbV P dec hidx)
          fun _ => iprop(((xM).view.loc (V d c i) ↦[S6]{fullShare} fx) ∗ ((subM).view.loc (V d c i) ↦{fullShare} fsub)
            ∗ ((valM).view.loc (V d c i) ↦{fullShare} gOut d c i offX offV inbX inbV fx fsub fval (hidx _ hP))) := by
  unfold gTrip
  simp only [Prog.lift, Prog.bind_op, Prog.bind_ret, Prog.pure_eq_ret]
  iintro ⟨H6, H5, H7⟩
  iapply (wp_load 𝒱₀ (V d c i) none Set.univ (m := xM) (S := S6) hS6) $$ H6; iintro H6
  rw [wp_assume_of _ _ _ _ hP]
  iapply (SparseCore.wp_vectorLoadIdx 𝒱₀ (V d c i) none Set.univ (base := subM) (S := Finset.univ) (q := fullShare) (Finset.subset_univ _)) $$ H5; iintro H5
  iapply (wp_load 𝒱₀ (V d c i) none Set.univ (m := valM) (S := Finset.univ) (Finset.subset_univ _)) $$ H7; iintro H7
  iapply (wp_store 𝒱₀ (V d c i) none Set.univ (m := valM) (r := Rect.unit (s := S2048) offV S16.size inbV) (Mk := Finset.univ) (S := Finset.univ) (Finset.subset_univ _)) $$ H7; iintro H7
  rw [wp_ret]; imodintro
  isplitl [H6]; · iexact H6
  isplitl [H5]; · iexact H5
  iexact H7

end Trip
end T1

namespace T1
section PhaseViews
variable (d : Dev nD) (L : grid1.Coords)

abbrev accM : Memref sig .scVector .shared S114688 .f32 := Memref.whole cc1_scratch5

omit [FloatOps F] in
theorem conds_A : ∀ L : grid1.Coords, k1_cond1 L = 1#1 → (L 1).val < 7 ∧ (L 0).val + (L 1).val < 7 ∧ ¬ k1_cond2 L = 1#1 := by decide +kernel

/-- Piece `h` of the tile's row of the shared buffer, as the task slices it. -/
abbrev rowPiece (h1 : k1_cond1 L = 1#1) (h : Fin 8) : Memref sig .scVector .shared S2048 .f32 :=
  (accM).slice (Rect.unit (s := S114688) (k1_off6 L (BitVec.ofNat 32 (2048 * h.val))) S2048.size (k1_off6_inb L h1 h)) (fun _ => rfl)

omit [FloatOps F] in
theorem set_rowPiece (h1 : k1_cond1 L = 1#1) (h : Fin 8) :
    (rowPiece L h1 h).view.set = seg (N := 114688) (16384 * (L 1).val + 2048 * h.val) 2048 := by
  refine (View.set_slice_whole cc1_scratch5 _).trans ?_
  rw [unit_set_seg, k1_off6_eq]; rfl

/-- Slot `p` of the index scratch, as the task slices it. -/
abbrev xSlot0 : Memref sig .scVector .vmem S2048 .i32 := (xM).slice (Rect.unit (s := S4096) ![0] S2048.size inb_S4096_S2048_0) (fun _ => rfl)
abbrev xSlot1 : Memref sig .scVector .vmem S2048 .i32 := (xM).slice (Rect.unit (s := S4096) ![2048] S2048.size inb_S4096_S2048_2048) (fun _ => rfl)

omit [FloatOps F] in
theorem set_xSlot0 : (xSlot0).view.set = seg (N := 4096) 0 2048 := by
  refine (View.set_slice_whole cc1_scratch1 _).trans ?_
  rw [unit_set_seg]; rfl
omit [FloatOps F] in
theorem set_xSlot1 : (xSlot1).view.set = seg (N := 4096) 2048 2048 := by
  refine (View.set_slice_whole cc1_scratch1 _).trans ?_
  rw [unit_set_seg]; rfl

omit [FloatOps F] in
/-- The index scratch is its two slots. -/
theorem x_split (c : Fin τ.nSC) (i : Fin τ.nSub) (f : Buf (Elt F) ((V d c i).loc cc1_scratch1)) :
    ((V d c i).loc cc1_scratch1 ↦{fullShare} f : sProp 𝕄)
      ⊣⊢ iprop(((xSlot0).view.loc (V d c i) ↦[(xSlot0).view.set]{fullShare} f) ∗ ((xSlot1).view.loc (V d c i) ↦[(xSlot1).view.set]{fullShare} f)) := by
  rw [set_xSlot0, set_xSlot1]
  have hu : (Finset.univ : Finset (Idx ((V d c i).loc cc1_scratch1))) = seg (N := 4096) 0 2048 ∪ seg (N := 4096) 2048 2048 := by
    ext j; rw [Finset.mem_union, mem_seg, mem_seg]
    have : (j 0).val < 4096 := (j 0).isLt
    constructor
    · intro _; omega
    · intro _; exact Finset.mem_univ _
  show ((V d c i).loc cc1_scratch1 ↦[Finset.univ]{fullShare} f : sProp 𝕄) ⊣⊢ _
  rw [hu]
  exact pointsTo_union (seg_disjoint (Or.inl (by omega)))

/-- The tile's row of the shared buffer is its eight pieces of 2048. -/
theorem row_split (c : Fin τ.nSC) (s : ℕ) (f : Buf (Elt F) (acc1Loc d c)) :
    (acc1Loc d c ↦[seg (N := 114688) (16384 * s) 16384]{fullShare} f : sProp 𝕄)
      = iprop((acc1Loc d c ↦[seg (N := 114688) (16384 * s + 2048 * 0) 2048]{fullShare} f)
          ∗ (acc1Loc d c ↦[seg (N := 114688) (16384 * s + 2048 * 1) 2048]{fullShare} f)
          ∗ (acc1Loc d c ↦[seg (N := 114688) (16384 * s + 2048 * 2) 2048]{fullShare} f)
          ∗ (acc1Loc d c ↦[seg (N := 114688) (16384 * s + 2048 * 3) 2048]{fullShare} f)
          ∗ (acc1Loc d c ↦[seg (N := 114688) (16384 * s + 2048 * 4) 2048]{fullShare} f)
          ∗ (acc1Loc d c ↦[seg (N := 114688) (16384 * s + 2048 * 5) 2048]{fullShare} f)
          ∗ (acc1Loc d c ↦[seg (N := 114688) (16384 * s + 2048 * 6) 2048]{fullShare} f)
          ∗ (acc1Loc d c ↦[seg (N := 114688) (16384 * s + 2048 * 7) 2048]{fullShare} f)) := by
  rw [show seg (N := 114688) (16384 * s) 16384 = seg (N := 114688) (16384 * s) (2048 * 8) from rfl, ← seg_parts,
    pointsTo_biUnion _ _ seg_parts_disjoint, bigSep_univ_eq_bigSepL [0, 1, 2, 3, 4, 5, 6, 7] (by decide) (by decide)]
  rfl

theorem pts_rowPiece (h1 : k1_cond1 L = 1#1) (h : Fin 8) (f : Buf (Elt F) (acc1Loc d (cT (cL L)))) :
    ((rowPiece L h1 h).view.loc (V d (cV L) (jV L)) ↦[(rowPiece L h1 h).view.set]{fullShare} f : sProp 𝕄)
      = (acc1Loc d (cT (cL L)) ↦[seg (N := 114688) (16384 * (L 1).val + 2048 * h.val) 2048]{fullShare} f) := by
  rw [set_rowPiece]; rfl

end PhaseViews
end T1

namespace T1
section Respell
variable (d : Dev nD) (L : grid1.Coords)

abbrev xtM : Memref sig .scVector .hbm S26x16384 .i32 := Memref.whole main_v0_scv
abbrev whM : Memref sig .scVector .hbm S1300000 .f32 := Memref.whole main_v4_scv
abbrev poM : Memref sig .scVector .hbm S32768 .f32 := Memref.whole main_v7_scv
abbrev redM : Memref sig .scVector .vmem S3584 .f32 := Memref.whole cc1_scratch3
abbrev outM : Memref sig .scVector .vmem S1024 .f32 := Memref.whole cc1_scratch4

omit [FloatOps F] in
theorem pts_xt (c : Fin τ.nSC) (i : Fin τ.nSub) (q : PosShare TreeShare) (f : Buf (Elt F) (xtLoc d)) :
    ((xtM).view.loc (V d c i) ↦{q} f : sProp 𝕄) = (xtLoc d ↦{q} f) := rfl
omit [FloatOps F] in
theorem pts_wh (c : Fin τ.nSC) (i : Fin τ.nSub) (q : PosShare TreeShare) (f : Buf (Elt F) (w1Loc d)) :
    ((whM).view.loc (V d c i) ↦{q} f : sProp 𝕄) = (w1Loc d ↦{q} f) := rfl
omit [FloatOps F] in
theorem pts_sub (c : Fin τ.nSC) (i : Fin τ.nSub) (f : Buf (Elt F) ((V d c i).loc cc1_scratch0)) :
    ((subM).view.loc (V d c i) ↦{fullShare} f : sProp 𝕄) = ((V d c i).loc cc1_scratch0 ↦{fullShare} f) := rfl
omit [FloatOps F] in
theorem pts_val (c : Fin τ.nSC) (i : Fin τ.nSub) (f : Buf (Elt F) ((V d c i).loc cc1_scratch2)) :
    ((valM).view.loc (V d c i) ↦{fullShare} f : sProp 𝕄) = ((V d c i).loc cc1_scratch2 ↦{fullShare} f) := rfl
omit [FloatOps F] in
theorem pts_red (c : Fin τ.nSC) (i : Fin τ.nSub) (f : Buf (Elt F) ((V d c i).loc cc1_scratch3)) :
    ((redM).view.loc (V d c i) ↦{fullShare} f : sProp 𝕄) = ((V d c i).loc cc1_scratch3 ↦{fullShare} f) := rfl
omit [FloatOps F] in
theorem pts_out (c : Fin τ.nSC) (i : Fin τ.nSub) (f : Buf (Elt F) ((V d c i).loc cc1_scratch4)) :
    ((outM).view.loc (V d c i) ↦{fullShare} f : sProp 𝕄) = ((V d c i).loc cc1_scratch4 ↦{fullShare} f) := rfl

/-- The tile's 1024 entries of the result, as the task slices them. -/
abbrev poK : Memref sig .scVector .hbm S1024 .f32 := (poM).slice (Rect.unit (s := S32768) (k1_off36 L) S1024.size (k1_off36_inb L)) (fun _ => rfl)
omit [FloatOps F] in
theorem set_poK : (poK L).view.set = seg (N := 32768) (16384 * (L 0).val + 1024 * (L 1).val) 1024 := by
  refine (View.set_slice_whole main_v7_scv _).trans ?_
  rw [unit_set_seg, k1_off36_eq]; rfl
omit [FloatOps F] in
theorem pts_poK (f : Buf (Elt F) (p1Loc d)) :
    ((poK L).view.loc (V d (cV L) (jV L)) ↦[(poK L).view.set]{fullShare} f : sProp 𝕄)
      = (p1Loc d ↦[seg (N := 32768) (16384 * (cL L).val + 1024 * (jL L).val) 1024]{fullShare} f) := by
  rw [set_poK]; rfl

end Respell
end T1

namespace T1
section Loop
variable (d : Dev nD) (c : Fin τ.nSC) (i : Fin τ.nSub)

/-- A gather loop's invariant: the index slot and the table as they stand, the value scratch at some contents of which
    the entries below the trip's box are as `G` says. -/
def gInv (S6 : Finset (Idx ((xM).view.loc (V d c i)))) (fx : Buf (Elt F) ((xM).view.loc (V d c i))) (fsub : Buf (Elt F) ((subM).view.loc (V d c i)))
    (G : ℕ → Buf (Elt F) ((valM).view.loc (V d c i)) → Prop) (k : ℕ) (_ : PUnit) : sProp 𝕄 :=
  iprop(((xM).view.loc (V d c i) ↦[S6]{fullShare} fx) ∗ ((subM).view.loc (V d c i) ↦{fullShare} fsub)
    ∗ ∃ f, ((valM).view.loc (V d c i) ↦{fullShare} f) ∗ ⌜G k f⌝)

end Loop
end T1

namespace T1
section ValueFacts
variable (d : Dev nD) (c : Fin τ.nSC) (i : Fin τ.nSub)

open Idealize.ShloMosaic.ValueIdx in
/-- Slot `p` of the index scratch holds chunk `h` (2048 batch rows) of field `j`'s index row. -/
def XHolds (p h j : ℕ) (fx : Buf (Elt F) ((xM).view.loc (V d c i))) : Prop :=
  ∀ (y : Fin 2048) (hy : 2048 * p + y.val < 4096),
    (show BitVec 32 from fx (ix1 (⟨2048 * p + y.val, hy⟩ : Fin 4096))).toNat = xtAt (XT m d) j (2048 * h + y.val)

open Idealize.ShloMosaic.ValueIdx in
/-- The table scratch holds field `j`'s 100000 entries of the half table. -/
def SubHolds (j : ℕ) (fsub : Buf (Elt F) ((subM).view.loc (V d c i))) : Prop :=
  ∀ n : Fin 100096, n.val < 100000 → (show F .f32 from fsub (ix1 n)) = whAt (WH1 m d) (100000 * j + n.val)

open Idealize.ShloMosaic.ValueIdx in
/-- The value scratch's first `16 k` entries are chunk `h`'s looked-up entries of row `s` on SparseCore `cc`. -/
def Good (cc s h k : ℕ) (f : Buf (Elt F) ((valM).view.loc (V d c i))) : Prop :=
  ∀ t : Fin 2048, t.val < 16 * k → (show F .f32 from f (ix1 t)) = accAt (XT m d) (WH1 m d) 13 cc s (2048 * h + t.val)

end ValueFacts
end T1

end Cert.Proof.KI

end
-- ==== Proof.KI.Tile1Val.lean ====
/-
  Lookup 1, a gather trip's values. The sixteen indices a trip loads are sixteen consecutive entries of a slot of the
  index scratch; when the slot holds a chunk of the field's index row they are entries of the index matrix, so each is a
  row number of the field (below 100000, hence inside the table scratch). The sixteen entries the trip then reads out of
  the table scratch are the field's table entries at those rows: exactly what the shared buffer's row is to hold for the
  sixteen batch rows of the trip, so the value scratch's done part grows by the trip's box.
-/
import proofs.«207420_g80582176408339_cont_9to1c4b_743_56_alg».proof.Proof.KI.Tile1Trip

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

variable (m : (ℓ : Loc nD τ sig) → Buf (Elt F) ℓ)

namespace T1

variable (d : Dev nD) (c : Fin τ.nSC) (i : Fin τ.nSub)

/-- Lane `x` of the sixteen indices a trip loads at offset `o` is entry `o + x` of the index scratch. -/
theorem gIdx_lane (o : ℕ) (offX : Fin 1 → Nat) (inbX : ∀ a, offX a + S16.size a ≤ S4096.size a) (hoff : offX = ![o])
    (fx : Buf (Elt F) ((xM).view.loc (V d c i))) (x : S16.Idx) (hlt : o + (x 0).val < 4096) :
    gIdx (F := F) d c i offX inbX fx x = (show BitVec 32 from fx (ix1 (⟨o + (x 0).val, hlt⟩ : Fin 4096))) := by
  subst hoff
  unfold gIdx
  rw [View.readAt_apply]
  show fx _ = fx _
  congr 1
  funext a
  apply Fin.ext
  simp only [View.emb_whole, Function.Embedding.refl_apply, LoadRect.idx_apply]
  match a with
  | ⟨0, _⟩ => show o + 1 * (x 0).val = o + (x 0).val; omega

/-- A slot holding a chunk of the field's index row, the sixteen indices a trip loads from it are row numbers of the field. -/
theorem gIdx_val (p h j k : ℕ) (hp : p < 2) (hh : h < 8) (hj : j < 26) (hk : k < 128)
    (offX : Fin 1 → Nat) (inbX : ∀ a, offX a + S16.size a ≤ S4096.size a) (hoff : offX = ![2048 * p + 16 * k])
    (fx : Buf (Elt F) ((xM).view.loc (V d c i))) (hX : XHolds m d c i p h j fx) (x : S16.Idx) :
    (gIdx (F := F) d c i offX inbX fx x).toNat = xtAt (XT m d) j (2048 * h + (16 * k + (x 0).val)) := by
  have hx0 : (x 0).val < 16 := (x 0).isLt
  have hlt : 2048 * p + 16 * k + (x 0).val < 4096 := by omega
  rw [gIdx_lane d c i (2048 * p + 16 * k) offX inbX hoff fx x hlt]
  have h1 := hX ⟨16 * k + (x 0).val, by omega⟩ (by show 2048 * p + (16 * k + (x 0).val) < 4096; omega)
  have e : (⟨2048 * p + 16 * k + (x 0).val, hlt⟩ : Fin 4096) = ⟨2048 * p + (16 * k + (x 0).val), by omega⟩ :=
    Fin.ext (show 2048 * p + 16 * k + (x 0).val = 2048 * p + (16 * k + (x 0).val) by omega)
  rw [e]
  exact h1

theorem xtAt_lt (hx : InRange m) (j b : ℕ) (hj : j < 26) (hb : b < 16384) : xtAt (XT m d) j b < 100000 := by
  unfold xtAt
  rw [dif_pos ⟨hj, hb⟩]
  exact hx d ⟨j, hj⟩ ⟨b, hb⟩

theorem chk_of_holds (p h j k : ℕ) (hp : p < 2) (hh : h < 8) (hj : j < 26) (hk : k < 128) (hx : InRange m)
    (offX : Fin 1 → Nat) (inbX : ∀ a, offX a + S16.size a ≤ S4096.size a) (hoff : offX = ![2048 * p + 16 * k])
    (fx : Buf (Elt F) ((xM).view.loc (V d c i))) (hX : XHolds m d c i p h j fx) :
    ∀ a x, ((![gIdx (F := F) d c i offX inbX fx] : Fin 1 → IVec S16 32) a x).toNat < S100096.size a := by
  intro a x
  match a with
  | ⟨0, _⟩ =>
    show (gIdx (F := F) d c i offX inbX fx x).toNat < 100096
    have hx0 : (x 0).val < 16 := (x 0).isLt
    rw [gIdx_val m d c i p h j k hp hh hj hk offX inbX hoff fx hX x]
    have := xtAt_lt m d hx j (2048 * h + (16 * k + (x 0).val)) hj (by omega)
    omega

/-- A trip extends the done part of the value scratch by its box. -/
theorem good_step (cc s h p k : ℕ) (hcc : cc < 2) (hcs : s + cc < 7) (hp : p < 2) (hh : h < 8) (hk : k < 128) (hx : InRange m)
    (offX offV : Fin 1 → Nat) (inbX : ∀ a, offX a + S16.size a ≤ S4096.size a) (inbV : ∀ a, offV a + S16.size a ≤ S2048.size a)
    (hoffX : offX = ![2048 * p + 16 * k]) (hoffV : offV = ![16 * k])
    (fx : Buf (Elt F) ((xM).view.loc (V d c i))) (fsub : Buf (Elt F) ((subM).view.loc (V d c i))) (f : Buf (Elt F) ((valM).view.loc (V d c i)))
    (hX : XHolds m d c i p h (13 + 7 * cc + s) fx) (hS : SubHolds m d c i (7 * cc + s) fsub) (hG : Good m d c i cc s h k f)
    (hin : ∀ a x, ((![gIdx (F := F) d c i offX inbX fx] : Fin 1 → IVec S16 32) a x).toNat < S100096.size a) :
    Good m d c i cc s h (k + 1) (gOut (F := F) d c i offX offV inbX inbV fx fsub f hin) := by
  have hj : 13 + 7 * cc + s < 26 := by omega
  subst hoffV
  intro t ht
  have ht2 : t.val < 2048 := t.isLt
  by_cases hlo : t.val < 16 * k
  · have hnot : (ix1 t : S2048.Idx) ∉ ((valM).access (Rect.unit (s := S2048) ![16 * k] S16.size inbV)).setOn Finset.univ := by
      rw [View.setOn_univ, View.set_slice_whole, Rect.mem_set_unit]
      intro hall
      have h0 := (hall 0).1
      have : 16 * k ≤ t.val := h0
      omega
    show (gOut (F := F) d c i offX ![16 * k] inbX inbV fx fsub f hin) (ix1 t) = _
    unfold gOut
    rw [View.write_of_not_mem _ _ _ hnot]
    exact hG t hlo
  · have hx' : t.val - 16 * k < 16 := by omega
    have he : (ix1 t : S2048.Idx) = ((valM).access (Rect.unit (s := S2048) ![16 * k] S16.size inbV)).emb (ix1 (⟨t.val - 16 * k, hx'⟩ : Fin 16)) := by
      funext a
      apply Fin.ext
      match a with
      | ⟨0, _⟩ => show t.val = 16 * k + 1 * (t.val - 16 * k); omega
    show (gOut (F := F) d c i offX ![16 * k] inbX inbV fx fsub f hin) (ix1 t) = _
    unfold gOut
    rw [he, View.write_emb_of_mem _ _ (Finset.mem_univ _)]
    show loadIdx (((subM).access (.whole S100096)).read (Elt F) fsub) ![gIdx (F := F) d c i offX inbX fx] hin (ix1 (⟨t.val - 16 * k, hx'⟩ : Fin 16)) = _
    have hr : View.read (Elt F) ((subM).access (Rect.whole S100096)) fsub = fsub := Memref.read_access_whole (Elt F) cc1_scratch0 fsub
    rw [hr]
    unfold loadIdx
    have hval : (gIdx (F := F) d c i offX inbX fx (ix1 (⟨t.val - 16 * k, hx'⟩ : Fin 16))).toNat
        = xtAt (XT m d) (13 + 7 * cc + s) (2048 * h + (16 * k + (t.val - 16 * k))) :=
      gIdx_val m d c i p h (13 + 7 * cc + s) k hp hh hj hk offX inbX hoffX fx hX (ix1 (⟨t.val - 16 * k, hx'⟩ : Fin 16))
    have hb : 2048 * h + (16 * k + (t.val - 16 * k)) = 2048 * h + t.val := by omega
    have hlt : (gIdx (F := F) d c i offX inbX fx (ix1 (⟨t.val - 16 * k, hx'⟩ : Fin 16))).toNat < 100000 := by
      rw [hval]; exact xtAt_lt m d hx _ _ hj (by omega)
    have hidx : idxAt ![gIdx (F := F) d c i offX inbX fx] hin (ix1 (⟨t.val - 16 * k, hx'⟩ : Fin 16))
        = (ix1 (⟨(gIdx (F := F) d c i offX inbX fx (ix1 (⟨t.val - 16 * k, hx'⟩ : Fin 16))).toNat, by omega⟩ : Fin 100096) : S100096.Idx) := by
      funext a
      apply Fin.ext
      match a with
      | ⟨0, _⟩ => rfl
    rw [hidx]
    refine (hS ⟨(gIdx (F := F) d c i offX inbX fx (ix1 (⟨t.val - 16 * k, hx'⟩ : Fin 16))).toNat, by omega⟩ hlt).trans ?_
    unfold accAt
    rw [if_pos hcs]
    show whAt (WH1 m d) (100000 * (7 * cc + s) + (gIdx (F := F) d c i offX inbX fx (ix1 (⟨t.val - 16 * k, hx'⟩ : Fin 16))).toNat)
      = whAt (WH1 m d) ((7 * cc + s) * 100000 + xtAt (XT m d) (13 + 7 * cc + s) (2048 * h + t.val))
    rw [hval, hb, Nat.mul_comm 100000]

end T1

end Cert.Proof.KI

end
-- ==== Proof.KI.Tile1Landed.lean ====
/-
  Lookup 1, what a landed copy leaves. A copy writes its destination slice, whole, with what it read of its source slice:
  entry k of the destination slice is entry k of the source slice. Read through the slices' offsets: the table scratch's
  entry n is the half table's entry 100000 j + n; slot p's entry y is the index row's entry 2048 h + y of field j; and the
  piece of the shared buffer's row the whole value scratch was copied into holds the value scratch's entries, which a
  finished gather loop has made the looked-up entries of the chunk.
-/
import proofs.«207420_g80582176408339_cont_9to1c4b_743_56_alg».proof.Proof.KI.Tile1Val
import proofs.«207420_g80582176408339_cont_9to1c4b_743_56_alg».proof.Proof.KI.Landed

noncomputable section

namespace Cert.Proof.KI

open Cert.KernelIdeal Cert.KernelIdeal.Gen

open Idealize.ShloMosaic
open Idealize.ShloMosaic.SparseCore (S V)
open Idealize.ShloMosaic.ValueIdx

variable {F : FTy → Type} [FloatOps F]

variable (m : (ℓ : Loc nD τ sig) → Buf (Elt F) ℓ)

namespace T1

variable (d : Dev nD) (c : Fin τ.nSC) (i : Fin τ.nSub)

/-- The table scratch the copy of a field's entries has landed in holds them. -/
theorem subholds_landed (j : ℕ) (off : Fin 1 → Nat) (inb : ∀ a, off a + S100000.size a ≤ S1300000.size a) (hoff : off = ![100000 * j])
    (base : Buf (Elt F) ((subM).view.loc (V d c i))) :
    SubHolds m d c i j ((subM).view.writes (Elt F) base
      [⟨Rect.unit (s := S100096) ![0] S100000.size inb_S100096_S100000_0, ReadAs.same.apply (View.read (Elt F) ((whM).slice (Rect.unit (s := S1300000) off S100000.size inb) (fun _ => rfl)).view (WH1 m d))⟩]) := by
  subst hoff
  intro n hn
  have hj : 100000 * j + 100000 ≤ 1300000 := by have := inb 0; simpa using this
  have hi : (ix1 n : S100096.Idx) = (Rect.unit (s := S100096) ![0] S100000.size inb_S100096_S100000_0).emb (ix1 (⟨n.val, hn⟩ : Fin 100000)) := by
    funext a
    apply Fin.ext
    match a with
    | ⟨0, _⟩ => show n.val = 0 + 1 * n.val; omega
  rw [hi]
  refine (Landed.whole_writes_hit (Val := Elt F) cc1_scratch0 base _ _ _).trans ?_
  refine (Landed.read_slice (Val := Elt F) main_v4_scv (Rect.unit (s := S1300000) ![100000 * j] S100000.size inb) (WH1 m d) _).trans ?_
  unfold whAt
  rw [dif_pos (show 100000 * j + n.val < 1300000 by omega)]
  congr 1
  funext a
  apply Fin.ext
  match a with
  | ⟨0, _⟩ => show 100000 * j + 1 * n.val = 100000 * j + n.val; omega

/-- A slot the copy of a chunk of a field's index row has landed in holds that chunk. -/
theorem xholds_landed (p h j : ℕ) (offS : Fin 1 → Nat) (inbS : ∀ a, offS a + S2048.size a ≤ S4096.size a) (hoffS : offS = ![2048 * p])
    (off : Fin 2 → Nat) (inb : ∀ a, off a + S1x2048.size a ≤ S26x16384.size a) (hoff : off = ![j, 2048 * h])
    (base : Buf (Elt F) ((xM).view.loc (V d c i))) :
    XHolds m d c i p h j (((xM).slice (Rect.unit (s := S4096) offS S2048.size inbS) (fun _ => rfl)).view.writes (Elt F) base
      [⟨Rect.whole S2048, ReadAs.same.apply (View.read (Elt F) (((xtM).slice (Rect.unit (s := S26x16384) off S1x2048.size inb) (fun _ => rfl)).squeeze S2048 squeezes_S1x2048_S2048).view (XT m d))⟩]) := by
  subst hoffS
  subst hoff
  intro y hy
  have hj : j + 1 ≤ 26 := by have := inb 0; simpa using this
  have hh : 2048 * h + 2048 ≤ 16384 := by have := inb 1; simpa using this
  have hi : (ix1 (⟨2048 * p + y.val, hy⟩ : Fin 4096) : S4096.Idx) = (Rect.unit (s := S4096) ![2048 * p] S2048.size inbS).emb (ix1 y) := by
    funext a
    apply Fin.ext
    match a with
    | ⟨0, _⟩ => show 2048 * p + y.val = 2048 * p + 1 * y.val; omega
  rw [hi]
  refine (congrArg BitVec.toNat (Landed.slice_writes_hit (Val := Elt F) cc1_scratch1 base (Rect.unit (s := S4096) ![2048 * p] S2048.size inbS) _ (ix1 y))).trans ?_
  refine (congrArg BitVec.toNat (Landed.read_slice_reshape (Val := Elt F) main_v0_scv (Rect.unit (s := S26x16384) ![j, 2048 * h] S1x2048.size inb) S2048
    squeezes_S1x2048_S2048.numel_eq (XT m d) (ix1 y))).trans ?_
  have hre : Shape.reshapeEquiv (s := (Rect.unit (s := S26x16384) ![j, 2048 * h] S1x2048.size inb).shape) (s' := S2048) squeezes_S1x2048_S2048.numel_eq (ix1 y)
      = (ix2 (0 : Fin 1) y) := by
    apply Shape.reshapeEquiv_eq_of_rowMajor
    rw [Shape.rowMajor_val_two, Shape.rowMajor_val_one]
    show 0 * 2048 + y.val = y.val
    omega
  rw [hre]
  unfold xtAt
  rw [dif_pos ⟨by omega, by have := y.isLt; omega⟩]
  congr 2
  funext a
  apply Fin.ext
  match a with
  | ⟨0, _⟩ => show j + 1 * 0 = j; omega
  | ⟨1, _⟩ => show 2048 * h + 1 * y.val = 2048 * h + y.val; omega

/-- A piece of the row the whole value scratch has been copied into holds the looked-up entries of its chunk. -/
theorem piece_landed (cT' : Fin τ.nSC) (cc s h : ℕ) (hcc : cT'.val = cc) (hcs : s + cc < 7) (hh : h < 8) (off : Fin 1 → Nat) (inb : ∀ a, off a + S2048.size a ≤ S114688.size a) (hoff : off = ![16384 * s + 2048 * h])
    (base : Buf (Elt F) (acc1Loc d cT')) (fv : Buf (Elt F) ((valM).view.loc (V d c i))) (hG : Good m d c i cc s h 128 fv) :
    ∀ idx ∈ seg (N := 114688) (16384 * s + 2048 * h) 2048,
      (((accM).slice (Rect.unit (s := S114688) off S2048.size inb) (fun _ => rfl)).view.writes (Elt F) base
        [⟨Rect.whole S2048, ReadAs.same.apply (View.read (Elt F) (valM).view fv)⟩]) idx = ACC1 m d cT' idx := by
  subst hoff
  subst hcc
  intro idx hidx
  rw [mem_seg] at hidx
  have ht : (idx 0).val - (16384 * s + 2048 * h) < 2048 := by omega
  have hi : idx = (Rect.unit (s := S114688) ![16384 * s + 2048 * h] S2048.size inb).emb (ix1 (⟨(idx 0).val - (16384 * s + 2048 * h), ht⟩ : Fin 2048)) := by
    funext a
    apply Fin.ext
    match a with
    | ⟨0, _⟩ => show (idx 0).val = 16384 * s + 2048 * h + 1 * ((idx 0).val - (16384 * s + 2048 * h)); omega
  rw [hi]
  refine (Landed.slice_writes_hit (Val := Elt F) cc1_scratch5 base (Rect.unit (s := S114688) ![16384 * s + 2048 * h] S2048.size inb) _
    (ix1 (⟨(idx 0).val - (16384 * s + 2048 * h), ht⟩ : Fin 2048))).trans ?_
  refine (Landed.read_whole (Val := Elt F) cc1_scratch2 fv (ix1 (⟨(idx 0).val - (16384 * s + 2048 * h), ht⟩ : Fin 2048))).trans ?_
  refine (hG ⟨(idx 0).val - (16384 * s + 2048 * h), ht⟩ (by show (idx 0).val - (16384 * s + 2048 * h) < 16 * 128; omega)).trans ?_
  unfold ACC1 accVal
  show accAt (XT m d) (WH1 m d) 13 cT'.val s (2048 * h + ((idx 0).val - (16384 * s + 2048 * h)))
    = accAt (XT m d) (WH1 m d) 13 cT'.val ((16384 * s + 2048 * h + 1 * ((idx 0).val - (16384 * s + 2048 * h))) / 16384)
        ((16384 * s + 2048 * h + 1 * ((idx 0).val - (16384 * s + 2048 * h))) % 16384)
  have hs : s < 7 := by omega
  congr 1 <;> omega

end T1

end Cert.Proof.KI

end
-- ==== Proof.KI.Tile1Row.lean ====
/-
  Lookup 1, one tile: the set facts of the gather phase and of the row owner's barrier step.
  A trip's box of sixteen indices lies in its slot of the index scratch; the two slots cover the scratch and rejoin it;
  and the tile's row of the shared buffer at the looked-up values is exactly the sixteen payloads of its duties at the
  barrier: its sixteen column blocks of 1024.
-/
import proofs.«207420_g80582176408339_cont_9to1c4b_743_56_alg».proof.Proof.KI.Tile1Landed

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T1
section Mine
variable (d : Dev nD) (c : Fin τ.nSC) (i : Fin τ.nSub)

omit [FloatOps F] in
/-- A trip's box of sixteen indices lies in its slot. -/
theorem box_sub_slot (p k : ℕ) (offX : Fin 1 → Nat) (inbX : ∀ a, offX a + S16.size a ≤ S4096.size a) (hoff : offX = ![2048 * p + 16 * k]) (hk : k < 128) :
    (xM).view.setOn (Rect.unit (s := S4096) offX S16.size inbX).toLoadRect.set ⊆ seg (N := 4096) (2048 * p) 2048 := by
  intro j hj
  rw [View.setOn, Finset.mem_map] at hj
  obtain ⟨y, hy, rfl⟩ := hj
  have h0 := (Rect.mem_set_unit.mp hy) 0
  subst hoff
  rw [mem_seg]
  have e16 : S16.size 0 = 16 := rfl
  have e0 : (![2048 * p + 16 * k] : Fin 1 → Nat) 0 = 2048 * p + 16 * k := rfl
  rw [e16, e0] at h0
  show 2048 * p ≤ (y 0).val ∧ (y 0).val < 2048 * p + 2048
  omega

omit [FloatOps F] in
theorem x_cover : seg (N := 4096) 0 2048 ∪ seg (N := 4096) 2048 2048 = Finset.univ := by
  ext j; rw [Finset.mem_union, mem_seg, mem_seg]
  have : (j 0).val < 4096 := (j 0).isLt
  constructor
  · intro _; exact Finset.mem_univ _
  · intro _; omega

omit [FloatOps F] in
/-- The two slots, at whatever they hold, are the index scratch at some contents. -/
theorem x_join (f g : Buf (Elt F) ((V d c i).loc cc1_scratch1)) :
    iprop(((xSlot0).view.loc (V d c i) ↦[(xSlot0).view.set]{fullShare} f) ∗ ((xSlot1).view.loc (V d c i) ↦[(xSlot1).view.set]{fullShare} g))
      ⊢ (iprop(∃ f', (V d c i).loc cc1_scratch1 ↦{fullShare} f') : sProp 𝕄) := by
  rw [set_xSlot0, set_xSlot1]
  refine (pointsTo_join (seg_disjoint (Or.inl (by omega)))).trans ?_
  rw [x_cover]
  iintro H; iexists _; iexact H

/-- A tile that owns a row hands every tile its column block of it: the row at the looked-up values is the sixteen
    payloads of its duties. -/
theorem pays_row (s : ℕ) (hs : s < 7) :
    (acc1Loc d c ↦[seg (N := 114688) (16384 * s) 16384]{fullShare} ACC1 m d c : sProp 𝕄)
      = bigSep Finset.univ fun j : Fin (grid1.bound 1) => (bRd (F := F) m).payload (bcell d c (j.castLE hsub1)) 1 s := by
  rw [show seg (N := 114688) (16384 * s) 16384 = seg (N := 114688) (16384 * s) (1024 * 16) from rfl, ← seg_parts,
    pointsTo_biUnion _ _ seg_parts_disjoint]
  exact bigSep_congr fun j _ => (bPay_lt m d c (j.castLE hsub1) s hs).symm

end Mine
end T1

end Cert.Proof.KI

end
-- ==== Proof.KI.Tile1Post.lean ====
/-
  Lookup 1, one tile: the end of the task.
  From what the tile holds after its write-out — its two read shares, its 1024 entries of the result at the partial
  sums, its column block of each of the seven rows of the shared buffer at whatever they hold, its standing on its own
  barrier cell (no longer needed: this is the last lookup), its five scratches and twenty-one semaphores back, the waits it recorded — to the
  form the launch expects of a finished task.
-/
import proofs.«207420_g80582176408339_cont_9to1c4b_743_56_alg».proof.Proof.KI.Tile1Row

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T1
section Post
variable (d : Dev nD) (L : grid1.Coords)

/-- The end of the task: what the tile hands back, its scratches and semaphores, the waits it recorded. -/
theorem post_intro (hF : (K (F := F)).Facts) (O : CellTallies nD τ sig (HIx 2)) (W W' : Waits sig (HIx 2))
    (hW' : ∀ p ∈ W', p ∈ W ∨ p.2 = none ∨ p.2 = some (1 : Fin 2)) :
    (iprop((xtLoc d ↦{shT (cL L) (jL L)} XT m d) ∗ (w1Loc d ↦{shT (cL L) (jL L)} WH1 m d)
        ∗ (p1Loc d ↦[seg (N := 32768) (16384 * (cL L).val + 1024 * (jL L).val) 1024]{fullShare} PT1 m d)
        ∗ ((∃ f, acc1Loc d (cV L) ↦[seg (N := 114688) (16384 * 0 + 1024 * (jV L).val) 1024]{fullShare} f)
            ∗ (∃ f, acc1Loc d (cV L) ↦[seg (N := 114688) (16384 * 1 + 1024 * (jV L).val) 1024]{fullShare} f)
            ∗ (∃ f, acc1Loc d (cV L) ↦[seg (N := 114688) (16384 * 2 + 1024 * (jV L).val) 1024]{fullShare} f)
            ∗ (∃ f, acc1Loc d (cV L) ↦[seg (N := 114688) (16384 * 3 + 1024 * (jV L).val) 1024]{fullShare} f)
            ∗ (∃ f, acc1Loc d (cV L) ↦[seg (N := 114688) (16384 * 4 + 1024 * (jV L).val) 1024]{fullShare} f)
            ∗ (∃ f, acc1Loc d (cV L) ↦[seg (N := 114688) (16384 * 5 + 1024 * (jV L).val) 1024]{fullShare} f)
            ∗ (∃ f, acc1Loc d (cV L) ↦[seg (N := 114688) (16384 * 6 + 1024 * (jV L).val) 1024]{fullShare} f))
        ∗ atPos EB (bcell d (cV L) (jV L)) (1 + 1) ∅ 0 ∗ reached EB (bcell d (cV L) (jV L)) (1 + 1)
        ∗ ((∃ f, (V d (cV L) (jV L)).loc cc1_scratch0 ↦{fullShare} f)
            ∗ (∃ f, (V d (cV L) (jV L)).loc cc1_scratch1 ↦{fullShare} f)
            ∗ (∃ f, (V d (cV L) (jV L)).loc cc1_scratch2 ↦{fullShare} f)
            ∗ (∃ f, (V d (cV L) (jV L)).loc cc1_scratch3 ↦{fullShare} f)
            ∗ (∃ f, (V d (cV L) (jV L)).loc cc1_scratch4 ↦{fullShare} f))
        ∗ (bigSep (ownRefs (τ := τ) (.scVector (cV L) (jV L)) \ (bufCells (cV L) (jV L)).toFinset) fun b => iprop(∃ f, ((d, b) : Loc nD τ sig) ↦{fullShare} f))
        ∗ (semVal ((V d (cV L) (jV L), SemLoc.dma cc1_scratch6.sem) : GSem nD τ sig) 0
            ∗ semVal ((V d (cV L) (jV L), SemLoc.dma cc1_scratch7.sem) : GSem nD τ sig) 0
            ∗ semVal ((V d (cV L) (jV L), SemLoc.dma cc1_scratch8.sem) : GSem nD τ sig) 0
            ∗ semVal ((V d (cV L) (jV L), SemLoc.dma cc1_scratch9.sem) : GSem nD τ sig) 0
            ∗ semVal ((V d (cV L) (jV L), SemLoc.dma cc1_scoped0.sem) : GSem nD τ sig) 0
            ∗ semVal ((V d (cV L) (jV L), SemLoc.dma cc1_scoped1.sem) : GSem nD τ sig) 0
            ∗ semVal ((V d (cV L) (jV L), SemLoc.dma cc1_scoped2.sem) : GSem nD τ sig) 0
            ∗ semVal ((V d (cV L) (jV L), SemLoc.dma cc1_scoped3.sem) : GSem nD τ sig) 0
            ∗ semVal ((V d (cV L) (jV L), SemLoc.dma cc1_scoped4.sem) : GSem nD τ sig) 0
            ∗ semVal ((V d (cV L) (jV L), SemLoc.dma cc1_scoped5.sem) : GSem nD τ sig) 0
            ∗ semVal ((V d (cV L) (jV L), SemLoc.dma cc1_scoped6.sem) : GSem nD τ sig) 0
            ∗ semVal ((V d (cV L) (jV L), SemLoc.dma cc1_scoped7.sem) : GSem nD τ sig) 0
            ∗ semVal ((V d (cV L) (jV L), SemLoc.dma cc1_scoped8.sem) : GSem nD τ sig) 0
            ∗ semVal ((V d (cV L) (jV L), SemLoc.dma cc1_scoped9.sem) : GSem nD τ sig) 0
            ∗ semVal ((V d (cV L) (jV L), SemLoc.dma cc1_scoped10.sem) : GSem nD τ sig) 0
            ∗ semVal ((V d (cV L) (jV L), SemLoc.dma cc1_scoped11.sem) : GSem nD τ sig) 0
            ∗ semVal ((V d (cV L) (jV L), SemLoc.dma cc1_scoped12.sem) : GSem nD τ sig) 0
            ∗ semVal ((V d (cV L) (jV L), SemLoc.dma cc1_scoped13.sem) : GSem nD τ sig) 0
            ∗ semVal ((V d (cV L) (jV L), SemLoc.dma cc1_scoped14.sem) : GSem nD τ sig) 0
            ∗ semVal ((V d (cV L) (jV L), SemLoc.dma cc1_scoped15.sem) : GSem nD τ sig) 0
            ∗ semVal ((V d (cV L) (jV L), SemLoc.dma cc1_scoped16.sem) : GSem nD τ sig) 0)
        ∗ (bigSep (ownCells (V d (cV L) (jV L)) \ (semCells (V d (cV L) (jV L))).toFinset) fun g => semVal g 0)
        ∗ owes (V d (cV L) (jV L)) O W') : sProp 𝕄)
      ⊢ iprop(td1 m d (cL L) (jL L) ∗ scopedBufs (V d (cV L) (jV L)) ∗ scopedSems0 (V d (cV L) (jV L))
          ∗ ∃ W', ⌜∀ p ∈ W', p ∈ W ∨ p.2 = none ∨ p.2 = some (1 : Fin 2)⌝ ∗ owes (V d (cV L) (jV L)) O W') := by
  rw [(K (F := F)).scopedBufs_V hF d (cV L) (jV L), SparseCore.Cfg.scopedSems0_V (Val := Elt F) d (cV L) (jV L), ownSems0_V, ownBufs_V]
  unfold td1
  rw [bigSep_univ_eq_bigSepL [0, 1, 2, 3, 4, 5, 6] (by decide) (by decide),
    show bigSepL [0, 1, 2, 3, 4, 5, 6] (fun n : Fin 7 => iprop(∃ f, acc1Loc d (cT (cL L)) ↦[seg (N := 114688) (16384 * n.val + 1024 * (jL L).val) 1024]{fullShare} f))
      = (iprop((∃ f, acc1Loc d (cT (cL L)) ↦[seg (N := 114688) (16384 * (0 : Fin 7).val + 1024 * (jL L).val) 1024]{fullShare} f) ∗ (∃ f, acc1Loc d (cT (cL L)) ↦[seg (N := 114688) (16384 * (1 : Fin 7).val + 1024 * (jL L).val) 1024]{fullShare} f) ∗ (∃ f, acc1Loc d (cT (cL L)) ↦[seg (N := 114688) (16384 * (2 : Fin 7).val + 1024 * (jL L).val) 1024]{fullShare} f) ∗ (∃ f, acc1Loc d (cT (cL L)) ↦[seg (N := 114688) (16384 * (3 : Fin 7).val + 1024 * (jL L).val) 1024]{fullShare} f) ∗ (∃ f, acc1Loc d (cT (cL L)) ↦[seg (N := 114688) (16384 * (4 : Fin 7).val + 1024 * (jL L).val) 1024]{fullShare} f) ∗ (∃ f, acc1Loc d (cT (cL L)) ↦[seg (N := 114688) (16384 * (5 : Fin 7).val + 1024 * (jL L).val) 1024]{fullShare} f) ∗ (∃ f, acc1Loc d (cT (cL L)) ↦[seg (N := 114688) (16384 * (6 : Fin 7).val + 1024 * (jL L).val) 1024]{fullShare} f)) : sProp 𝕄) from rfl]
  iintro ⟨Hxt, Hwh, Hp0, ⟨G0, G1, G2, G3, G4, G5, G6⟩, -, -, ⟨B0, B1, B2, B3, B4⟩, Hbufs,
    ⟨Hs6, Hs7, Hs8, Hs9, Hc0, Hc1, Hc2, Hc3, Hc4, Hc5, Hc6, Hc7, Hc8, Hc9, Hc10, Hc11, Hc12, Hc13, Hc14, Hc15, Hc16⟩, Hsems, HO⟩
  isplitl [Hxt Hwh Hp0 G0 G1 G2 G3 G4 G5 G6]
  · isplitl [Hxt]; · iexact Hxt
    isplitl [Hwh]; · iexact Hwh
    isplitl [Hp0]; · iexact Hp0
    isplitl [G0]; · iexact G0
    isplitl [G1]; · iexact G1
    isplitl [G2]; · iexact G2
    isplitl [G3]; · iexact G3
    isplitl [G4]; · iexact G4
    isplitl [G5]; · iexact G5
    iexact G6
  isplitl [B0 B1 B2 B3 B4 Hbufs]
  · isplitl [B0 B1 B2 B3 B4]
    · isplitl [B0]; · iexact B0
      isplitl [B1]; · iexact B1
      isplitl [B2]; · iexact B2
      isplitl [B3]; · iexact B3
      iexact B4
    iexact Hbufs
  isplitl [Hs6 Hs7 Hs8 Hs9 Hc0 Hc1 Hc2 Hc3 Hc4 Hc5 Hc6 Hc7 Hc8 Hc9 Hc10 Hc11 Hc12 Hc13 Hc14 Hc15 Hc16 Hsems]
  · isplitl [Hs6 Hs7 Hs8 Hs9 Hc0 Hc1 Hc2 Hc3 Hc4 Hc5 Hc6 Hc7 Hc8 Hc9 Hc10 Hc11 Hc12 Hc13 Hc14 Hc15 Hc16]
    · isplitl [Hs6]; · iexact Hs6
      isplitl [Hs7]; · iexact Hs7
      isplitl [Hs8]; · iexact Hs8
      isplitl [Hs9]; · iexact Hs9
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      iexact Hc16
    iexact Hsems
  iexists W'; isplitr
  · ipureintro; exact hW'
  · iexact HO

/-- The same, towards the form in which the task's own buffers and semaphores stand one by one. -/
theorem post_intro' (hF : (K (F := F)).Facts) (O : CellTallies nD τ sig (HIx 2)) (W W' : Waits sig (HIx 2))
    (hW' : ∀ p ∈ W', p ∈ W ∨ p.2 = none ∨ p.2 = some (1 : Fin 2)) :
    (iprop((xtLoc d ↦{shT (cL L) (jL L)} XT m d) ∗ (w1Loc d ↦{shT (cL L) (jL L)} WH1 m d)
        ∗ (p1Loc d ↦[seg (N := 32768) (16384 * (cL L).val + 1024 * (jL L).val) 1024]{fullShare} PT1 m d)
        ∗ ((∃ f, acc1Loc d (cV L) ↦[seg (N := 114688) (16384 * 0 + 1024 * (jV L).val) 1024]{fullShare} f)
            ∗ (∃ f, acc1Loc d (cV L) ↦[seg (N := 114688) (16384 * 1 + 1024 * (jV L).val) 1024]{fullShare} f)
            ∗ (∃ f, acc1Loc d (cV L) ↦[seg (N := 114688) (16384 * 2 + 1024 * (jV L).val) 1024]{fullShare} f)
            ∗ (∃ f, acc1Loc d (cV L) ↦[seg (N := 114688) (16384 * 3 + 1024 * (jV L).val) 1024]{fullShare} f)
            ∗ (∃ f, acc1Loc d (cV L) ↦[seg (N := 114688) (16384 * 4 + 1024 * (jV L).val) 1024]{fullShare} f)
            ∗ (∃ f, acc1Loc d (cV L) ↦[seg (N := 114688) (16384 * 5 + 1024 * (jV L).val) 1024]{fullShare} f)
            ∗ (∃ f, acc1Loc d (cV L) ↦[seg (N := 114688) (16384 * 6 + 1024 * (jV L).val) 1024]{fullShare} f))
        ∗ atPos EB (bcell d (cV L) (jV L)) (1 + 1) ∅ 0 ∗ reached EB (bcell d (cV L) (jV L)) (1 + 1)
        ∗ ((∃ f, (V d (cV L) (jV L)).loc cc1_scratch0 ↦{fullShare} f)
            ∗ (∃ f, (V d (cV L) (jV L)).loc cc1_scratch1 ↦{fullShare} f)
            ∗ (∃ f, (V d (cV L) (jV L)).loc cc1_scratch2 ↦{fullShare} f)
            ∗ (∃ f, (V d (cV L) (jV L)).loc cc1_scratch3 ↦{fullShare} f)
            ∗ (∃ f, (V d (cV L) (jV L)).loc cc1_scratch4 ↦{fullShare} f))
        ∗ (bigSep (ownRefs (τ := τ) (.scVector (cV L) (jV L)) \ (bufCells (cV L) (jV L)).toFinset) fun b => iprop(∃ f, ((d, b) : Loc nD τ sig) ↦{fullShare} f))
        ∗ (semVal ((V d (cV L) (jV L), SemLoc.dma cc1_scratch6.sem) : GSem nD τ sig) 0
            ∗ semVal ((V d (cV L) (jV L), SemLoc.dma cc1_scratch7.sem) : GSem nD τ sig) 0
            ∗ semVal ((V d (cV L) (jV L), SemLoc.dma cc1_scratch8.sem) : GSem nD τ sig) 0
            ∗ semVal ((V d (cV L) (jV L), SemLoc.dma cc1_scratch9.sem) : GSem nD τ sig) 0
            ∗ semVal ((V d (cV L) (jV L), SemLoc.dma cc1_scoped0.sem) : GSem nD τ sig) 0
            ∗ semVal ((V d (cV L) (jV L), SemLoc.dma cc1_scoped1.sem) : GSem nD τ sig) 0
            ∗ semVal ((V d (cV L) (jV L), SemLoc.dma cc1_scoped2.sem) : GSem nD τ sig) 0
            ∗ semVal ((V d (cV L) (jV L), SemLoc.dma cc1_scoped3.sem) : GSem nD τ sig) 0
            ∗ semVal ((V d (cV L) (jV L), SemLoc.dma cc1_scoped4.sem) : GSem nD τ sig) 0
            ∗ semVal ((V d (cV L) (jV L), SemLoc.dma cc1_scoped5.sem) : GSem nD τ sig) 0
            ∗ semVal ((V d (cV L) (jV L), SemLoc.dma cc1_scoped6.sem) : GSem nD τ sig) 0
            ∗ semVal ((V d (cV L) (jV L), SemLoc.dma cc1_scoped7.sem) : GSem nD τ sig) 0
            ∗ semVal ((V d (cV L) (jV L), SemLoc.dma cc1_scoped8.sem) : GSem nD τ sig) 0
            ∗ semVal ((V d (cV L) (jV L), SemLoc.dma cc1_scoped9.sem) : GSem nD τ sig) 0
            ∗ semVal ((V d (cV L) (jV L), SemLoc.dma cc1_scoped10.sem) : GSem nD τ sig) 0
            ∗ semVal ((V d (cV L) (jV L), SemLoc.dma cc1_scoped11.sem) : GSem nD τ sig) 0
            ∗ semVal ((V d (cV L) (jV L), SemLoc.dma cc1_scoped12.sem) : GSem nD τ sig) 0
            ∗ semVal ((V d (cV L) (jV L), SemLoc.dma cc1_scoped13.sem) : GSem nD τ sig) 0
            ∗ semVal ((V d (cV L) (jV L), SemLoc.dma cc1_scoped14.sem) : GSem nD τ sig) 0
            ∗ semVal ((V d (cV L) (jV L), SemLoc.dma cc1_scoped15.sem) : GSem nD τ sig) 0
            ∗ semVal ((V d (cV L) (jV L), SemLoc.dma cc1_scoped16.sem) : GSem nD τ sig) 0)
        ∗ (bigSep (ownCells (V d (cV L) (jV L)) \ (semCells (V d (cV L) (jV L))).toFinset) fun g => semVal g 0)
        ∗ owes (V d (cV L) (jV L)) O W') : sProp 𝕄)
      ⊢ iprop(td1 m d (cL L) (jL L)
          ∗ (((∃ f, (V d (cV L) (jV L)).loc cc1_scratch0 ↦{fullShare} f)
            ∗ (∃ f, (V d (cV L) (jV L)).loc cc1_scratch1 ↦{fullShare} f)
            ∗ (∃ f, (V d (cV L) (jV L)).loc cc1_scratch2 ↦{fullShare} f)
            ∗ (∃ f, (V d (cV L) (jV L)).loc cc1_scratch3 ↦{fullShare} f)
            ∗ (∃ f, (V d (cV L) (jV L)).loc cc1_scratch4 ↦{fullShare} f))
              ∗ bigSep (ownRefs (τ := τ) (.scVector (cV L) (jV L)) \ (bufCells (cV L) (jV L)).toFinset) fun b => iprop(∃ f, ((d, b) : Loc nD τ sig) ↦{fullShare} f))
          ∗ ((semVal ((V d (cV L) (jV L), SemLoc.dma cc1_scratch6.sem) : GSem nD τ sig) 0
            ∗ semVal ((V d (cV L) (jV L), SemLoc.dma cc1_scratch7.sem) : GSem nD τ sig) 0
            ∗ semVal ((V d (cV L) (jV L), SemLoc.dma cc1_scratch8.sem) : GSem nD τ sig) 0
            ∗ semVal ((V d (cV L) (jV L), SemLoc.dma cc1_scratch9.sem) : GSem nD τ sig) 0
            ∗ semVal ((V d (cV L) (jV L), SemLoc.dma cc1_scoped0.sem) : GSem nD τ sig) 0
            ∗ semVal ((V d (cV L) (jV L), SemLoc.dma cc1_scoped1.sem) : GSem nD τ sig) 0
            ∗ semVal ((V d (cV L) (jV L), SemLoc.dma cc1_scoped2.sem) : GSem nD τ sig) 0
            ∗ semVal ((V d (cV L) (jV L), SemLoc.dma cc1_scoped3.sem) : GSem nD τ sig) 0
            ∗ semVal ((V d (cV L) (jV L), SemLoc.dma cc1_scoped4.sem) : GSem nD τ sig) 0
            ∗ semVal ((V d (cV L) (jV L), SemLoc.dma cc1_scoped5.sem) : GSem nD τ sig) 0
            ∗ semVal ((V d (cV L) (jV L), SemLoc.dma cc1_scoped6.sem) : GSem nD τ sig) 0
            ∗ semVal ((V d (cV L) (jV L), SemLoc.dma cc1_scoped7.sem) : GSem nD τ sig) 0
            ∗ semVal ((V d (cV L) (jV L), SemLoc.dma cc1_scoped8.sem) : GSem nD τ sig) 0
            ∗ semVal ((V d (cV L) (jV L), SemLoc.dma cc1_scoped9.sem) : GSem nD τ sig) 0
            ∗ semVal ((V d (cV L) (jV L), SemLoc.dma cc1_scoped10.sem) : GSem nD τ sig) 0
            ∗ semVal ((V d (cV L) (jV L), SemLoc.dma cc1_scoped11.sem) : GSem nD τ sig) 0
            ∗ semVal ((V d (cV L) (jV L), SemLoc.dma cc1_scoped12.sem) : GSem nD τ sig) 0
            ∗ semVal ((V d (cV L) (jV L), SemLoc.dma cc1_scoped13.sem) : GSem nD τ sig) 0
            ∗ semVal ((V d (cV L) (jV L), SemLoc.dma cc1_scoped14.sem) : GSem nD τ sig) 0
            ∗ semVal ((V d (cV L) (jV L), SemLoc.dma cc1_scoped15.sem) : GSem nD τ sig) 0
            ∗ semVal ((V d (cV L) (jV L), SemLoc.dma cc1_scoped16.sem) : GSem nD τ sig) 0)
              ∗ bigSep (ownCells (V d (cV L) (jV L)) \ (semCells (V d (cV L) (jV L))).toFinset) fun g => semVal g 0)
          ∗ ∃ W', ⌜∀ p ∈ W', p ∈ W ∨ p.2 = none ∨ p.2 = some (1 : Fin 2)⌝ ∗ owes (V d (cV L) (jV L)) O W') := by
  unfold td1
  rw [bigSep_univ_eq_bigSepL [0, 1, 2, 3, 4, 5, 6] (by decide) (by decide),
    show bigSepL [0, 1, 2, 3, 4, 5, 6] (fun n : Fin 7 => iprop(∃ f, acc1Loc d (cT (cL L)) ↦[seg (N := 114688) (16384 * n.val + 1024 * (jL L).val) 1024]{fullShare} f))
      = (iprop((∃ f, acc1Loc d (cT (cL L)) ↦[seg (N := 114688) (16384 * (0 : Fin 7).val + 1024 * (jL L).val) 1024]{fullShare} f) ∗ (∃ f, acc1Loc d (cT (cL L)) ↦[seg (N := 114688) (16384 * (1 : Fin 7).val + 1024 * (jL L).val) 1024]{fullShare} f) ∗ (∃ f, acc1Loc d (cT (cL L)) ↦[seg (N := 114688) (16384 * (2 : Fin 7).val + 1024 * (jL L).val) 1024]{fullShare} f) ∗ (∃ f, acc1Loc d (cT (cL L)) ↦[seg (N := 114688) (16384 * (3 : Fin 7).val + 1024 * (jL L).val) 1024]{fullShare} f) ∗ (∃ f, acc1Loc d (cT (cL L)) ↦[seg (N := 114688) (16384 * (4 : Fin 7).val + 1024 * (jL L).val) 1024]{fullShare} f) ∗ (∃ f, acc1Loc d (cT (cL L)) ↦[seg (N := 114688) (16384 * (5 : Fin 7).val + 1024 * (jL L).val) 1024]{fullShare} f) ∗ (∃ f, acc1Loc d (cT (cL L)) ↦[seg (N := 114688) (16384 * (6 : Fin 7).val + 1024 * (jL L).val) 1024]{fullShare} f)) : sProp 𝕄) from rfl]
  iintro ⟨Hxt, Hwh, Hp0, ⟨G0, G1, G2, G3, G4, G5, G6⟩, -, -, ⟨B0, B1, B2, B3, B4⟩, Hbufs,
    ⟨Hs6, Hs7, Hs8, Hs9, Hc0, Hc1, Hc2, Hc3, Hc4, Hc5, Hc6, Hc7, Hc8, Hc9, Hc10, Hc11, Hc12, Hc13, Hc14, Hc15, Hc16⟩, Hsems, HO⟩
  isplitl [Hxt Hwh Hp0 G0 G1 G2 G3 G4 G5 G6]
  · isplitl [Hxt]; · iexact Hxt
    isplitl [Hwh]; · iexact Hwh
    isplitl [Hp0]; · iexact Hp0
    isplitl [G0]; · iexact G0
    isplitl [G1]; · iexact G1
    isplitl [G2]; · iexact G2
    isplitl [G3]; · iexact G3
    isplitl [G4]; · iexact G4
    isplitl [G5]; · iexact G5
    iexact G6
  isplitl [B0 B1 B2 B3 B4 Hbufs]
  · isplitl [B0 B1 B2 B3 B4]
    · isplitl [B0]; · iexact B0
      isplitl [B1]; · iexact B1
      isplitl [B2]; · iexact B2
      isplitl [B3]; · iexact B3
      iexact B4
    iexact Hbufs
  isplitl [Hs6 Hs7 Hs8 Hs9 Hc0 Hc1 Hc2 Hc3 Hc4 Hc5 Hc6 Hc7 Hc8 Hc9 Hc10 Hc11 Hc12 Hc13 Hc14 Hc15 Hc16 Hsems]
  · isplitl [Hs6 Hs7 Hs8 Hs9 Hc0 Hc1 Hc2 Hc3 Hc4 Hc5 Hc6 Hc7 Hc8 Hc9 Hc10 Hc11 Hc12 Hc13 Hc14 Hc15 Hc16]
    · isplitl [Hs6]; · iexact Hs6
      isplitl [Hs7]; · iexact Hs7
      isplitl [Hs8]; · iexact Hs8
      isplitl [Hs9]; · iexact Hs9
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      iexact Hc16
    iexact Hsems
  iexists W'; isplitr
  · ipureintro; exact hW'
  · iexact HO

end Post
end T1

end Cert.Proof.KI

end
-- ==== Proof.KI.Tile1Out.lean ====
/-
  Lookup 1, one tile: what the write-out leaves. The tile's 1024 entries of the result, once the whole output scratch
  has been copied into them, are SparseCore c's partial sums for batch rows 1024 s … 1024 s + 1023.
-/
import proofs.«207420_g80582176408339_cont_9to1c4b_743_56_alg».proof.Proof.KI.Tile1Post

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T1
section Out
variable (d : Dev nD) (c : Fin τ.nSC) (i : Fin τ.nSub)

open Idealize.ShloMosaic.ValueIdx in
/-- The tile's 1024 entries of the result, once the output scratch has been copied into them, are the partial sums. -/
theorem out_landed (cc s : ℕ) (hcc : cc < 2) (hs : s < 16) (off : Fin 1 → Nat) (inb : ∀ a, off a + S1024.size a ≤ S32768.size a) (hoff : off = ![16384 * cc + 1024 * s])
    (base : Buf (Elt F) (p1Loc d)) (h : Buf (Elt F) ((outM).view.loc (V d c i)))
    (hh : ∀ k : Fin 1024, (show F .f32 from h (ix1 k)) = partAt (XT m d) (WH1 m d) 13 cc (1024 * s + k.val)) :
    ∀ idx ∈ seg (N := 32768) (16384 * cc + 1024 * s) 1024,
      (((poM).slice (Rect.unit (s := S32768) off S1024.size inb) (fun _ => rfl)).view.writes (Elt F) base
        [⟨Rect.whole S1024, ReadAs.same.apply (View.read (Elt F) (outM).view h)⟩]) idx = PT1 m d idx := by
  subst hoff
  intro idx hidx
  rw [mem_seg] at hidx
  have ht : (idx 0).val - (16384 * cc + 1024 * s) < 1024 := by omega
  have hi : idx = (Rect.unit (s := S32768) ![16384 * cc + 1024 * s] S1024.size inb).emb (ix1 (⟨(idx 0).val - (16384 * cc + 1024 * s), ht⟩ : Fin 1024)) := by
    funext a
    apply Fin.ext
    match a with
    | ⟨0, _⟩ => show (idx 0).val = 16384 * cc + 1024 * s + 1 * ((idx 0).val - (16384 * cc + 1024 * s)); omega
  rw [hi]
  refine (Landed.slice_writes_hit (Val := Elt F) main_v7_scv base (Rect.unit (s := S32768) ![16384 * cc + 1024 * s] S1024.size inb) _
    (ix1 (⟨(idx 0).val - (16384 * cc + 1024 * s), ht⟩ : Fin 1024))).trans ?_
  refine (Landed.read_whole (Val := Elt F) cc1_scratch4 h (ix1 (⟨(idx 0).val - (16384 * cc + 1024 * s), ht⟩ : Fin 1024))).trans ?_
  refine (hh ⟨(idx 0).val - (16384 * cc + 1024 * s), ht⟩).trans ?_
  unfold PT1 partVal
  show partAt (XT m d) (WH1 m d) 13 cc (1024 * s + ((idx 0).val - (16384 * cc + 1024 * s)))
    = partAt (XT m d) (WH1 m d) 13 ((16384 * cc + 1024 * s + 1 * ((idx 0).val - (16384 * cc + 1024 * s))) / 16384)
        ((16384 * cc + 1024 * s + 1 * ((idx 0).val - (16384 * cc + 1024 * s))) % 16384)
  congr 1 <;> omega

end Out
end T1

end Cert.Proof.KI

end
-- ==== Proof.KI.Tile1Reduce.lean ====
/-
  Lookup 1, after the barrier: the reduction of the seven rows of the shared buffer over the tile's 1024 columns.

  The tile owns column block (L 1) of each of the seven rows: entries 16384 n + 1024 (L 1) + k, k < 1024. It reduces
  them in two halves of 512 columns. For half r it copies, for each row n, the 512 entries from 16384 n + 1024 (L 1)
  + 512 r into window n (entries 512 n … 512 n + 511) of a scratch of 3584, all seven copies on one semaphore, and
  waits for all seven before it reads any of them; then, sixteen lanes at a time, adds the seven windows entrywise and
  stores the sums at 512 r + 16 t of an output scratch of 1024. Entry k of the output scratch is then the sum over
  the rows of the shared buffer's entries in column 1024 (L 1) + k: the tile's partial sum for that batch row.

  Here: the halves of a column block and the windows of the scratch as sets of entries; the split of a block into its
  halves and of the scratch into its windows and back; what the seven copies of a half deliver; the windows joined
  into one function that agrees with each; that function in terms of the shared buffer's entries; and the loops'
  invariant — the first entries of the output scratch are the partial sums.
-/
import proofs.«207420_g80582176408339_cont_9to1c4b_743_56_alg».proof.Proof.KI.Tile1Pieces
import proofs.«207420_g80582176408339_cont_9to1c4b_743_56_alg».proof.Proof.KI.ReduceStep

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T1
section Reduce
variable (d : Dev nD) (L : grid1.Coords)

/-! ## The windows of the two batches -/

omit [FloatOps F] in
theorem bigSep_fin2' {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

omit [FloatOps F] in
theorem bigSep_fin7 {M : Type} [URA M] (Φ : Fin 7 → sProp M) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide, SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- Half r of column block (L 1) of row n of the shared buffer, as the copies name it. -/
def srcW (L : grid1.Coords) (r : Fin 2) (n : Fin 7) : Memref sig .scVector .shared S512 .f32 :=
  (Memref.whole cc1_scratch5).slice (Rect.unit (s := S114688) (k1_off29 L (BitVec.ofNat 32 (16384 * n.val)) (BitVec.ofNat 32 (512 * r.val))) S512.size (Gen.k1_off29_inb L n r)) (fun _ => rfl)

omit [FloatOps F] in
theorem inb3 (n : Fin 7) : ∀ a, (![512 * n.val] : Fin 1 → Nat) a + S512.size a ≤ S3584.size a := by
  have := n.isLt; intro a; fin_cases a; show 512 * n.val + 512 ≤ 3584; omega
/-- Window n of the reduce scratch. -/
def dstW (n : Fin 7) : Memref sig .scVector .vmem S512 .f32 :=
  (Memref.whole cc1_scratch3).slice (Rect.unit (s := S3584) ![512 * n.val] S512.size (inb3 n)) (fun _ => rfl)

omit [FloatOps F] in
theorem set_srcW (r : Fin 2) (n : Fin 7) :
    (srcW L r n).view.set = seg (N := 114688) (16384 * n.val + 1024 * (L 1).val + 512 * r.val) 512 := by
  show ((View.whole (cc1_scratch5 : Ref sig .scVector)).slice (Rect.unit (s := S114688) _ S512.size _)).set = _
  rw [View.set_slice]
  refine Finset.map_refl.trans ?_
  rw [unit_set_seg, Gen.k1_off29_eq]
  rfl

omit [FloatOps F] in
theorem set_dstW (n : Fin 7) : (dstW n).view.set = seg (N := 3584) (512 * n.val) 512 := by
  show ((View.whole (cc1_scratch3 : Ref sig .scVector)).slice (Rect.unit (s := S3584) _ S512.size _)).set = _
  rw [View.set_slice]
  refine Finset.map_refl.trans ?_
  rw [unit_set_seg]
  rfl

abbrev heldOwn {sp : Space} {S : Shape} (M : Memref sig .scVector sp S .f32) (f : Buf (Elt F) (M.view.loc (V d (cV L) (jV L)))) : sProp 𝕄 :=
  M.view.loc (V d (cV L) (jV L)) ↦[M.view.set]{fullShare} f

theorem acc_halves (n : Nat) (hn : n < 7) (f : Buf (Elt F) (acc1Loc d (cV L))) :
    (acc1Loc d (cV L) ↦[seg (N := 114688) (16384 * n + 1024 * (jV L).val) 1024]{fullShare} f : sProp 𝕄)
      = iprop(heldOwn d L (srcW L 0 ⟨n, hn⟩) f ∗ heldOwn d L (srcW L 1 ⟨n, hn⟩) f) := by
  unfold heldOwn
  rw [set_srcW, set_srcW]
  show _ = iprop((acc1Loc d (cV L) ↦[seg (N := 114688) (16384 * n + 1024 * (L 1).val + 512 * (0 : Fin 2).val) 512]{fullShare} f)
    ∗ (acc1Loc d (cV L) ↦[seg (N := 114688) (16384 * n + 1024 * (L 1).val + 512 * (1 : Fin 2).val) 512]{fullShare} f))
  rw [← bigSep_fin2' (fun r : Fin 2 => (acc1Loc d (cV L) ↦[seg (N := 114688) (16384 * n + 1024 * (L 1).val + 512 * r.val) 512]{fullShare} f : sProp 𝕄)),
    ← pointsTo_biUnion Finset.univ (ℓ := acc1Loc d (cV L)) (fun r : Fin 2 => seg (N := 114688) (16384 * n + 1024 * (L 1).val + 512 * r.val) 512) seg_parts_disjoint,
    seg_parts (N := 114688) (16384 * n + 1024 * (L 1).val) 512 2]
  rfl

theorem scr3_windows (f : Buf (Elt F) ((V d (cV L) (jV L)).loc cc1_scratch3)) :
    ((V d (cV L) (jV L)).loc cc1_scratch3 ↦{fullShare} f : sProp 𝕄)
      = iprop(heldOwn d L (dstW 0) f ∗ heldOwn d L (dstW 1) f ∗ heldOwn d L (dstW 2) f ∗ heldOwn d L (dstW 3) f
          ∗ heldOwn d L (dstW 4) f ∗ heldOwn d L (dstW 5) f ∗ heldOwn d L (dstW 6) f) := by
  unfold heldOwn
  rw [set_dstW, set_dstW, set_dstW, set_dstW, set_dstW, set_dstW, set_dstW]
  show _ = iprop(((V d (cV L) (jV L)).loc cc1_scratch3 ↦[seg (N := 3584) (512 * (0 : Fin 7).val) 512]{fullShare} f)
    ∗ ((V d (cV L) (jV L)).loc cc1_scratch3 ↦[seg (N := 3584) (512 * (1 : Fin 7).val) 512]{fullShare} f)
    ∗ ((V d (cV L) (jV L)).loc cc1_scratch3 ↦[seg (N := 3584) (512 * (2 : Fin 7).val) 512]{fullShare} f)
    ∗ ((V d (cV L) (jV L)).loc cc1_scratch3 ↦[seg (N := 3584) (512 * (3 : Fin 7).val) 512]{fullShare} f)
    ∗ ((V d (cV L) (jV L)).loc cc1_scratch3 ↦[seg (N := 3584) (512 * (4 : Fin 7).val) 512]{fullShare} f)
    ∗ ((V d (cV L) (jV L)).loc cc1_scratch3 ↦[seg (N := 3584) (512 * (5 : Fin 7).val) 512]{fullShare} f)
    ∗ ((V d (cV L) (jV L)).loc cc1_scratch3 ↦[seg (N := 3584) (512 * (6 : Fin 7).val) 512]{fullShare} f))
  rw [← bigSep_fin7 (fun n : Fin 7 => ((V d (cV L) (jV L)).loc cc1_scratch3 ↦[seg (N := 3584) (512 * n.val) 512]{fullShare} f : sProp 𝕄))]
  have hd : ∀ t ∈ (Finset.univ : Finset (Fin 7)), ∀ t' ∈ (Finset.univ : Finset (Fin 7)), t ≠ t' →
      Disjoint (seg (N := 3584) (512 * t.val) 512) (seg (N := 3584) (512 * t'.val) 512) := by
    have h := seg_parts_disjoint (N := 3584) (lo := 0) (len := 512) (k := 7)
    simp only [Nat.zero_add] at h; exact h
  have hc : (Finset.univ : Finset (Fin 7)).biUnion (fun n => seg (N := 3584) (512 * n.val) 512) = Finset.univ := by
    have h := seg_parts (N := 3584) 0 512 7
    simp only [Nat.zero_add] at h; rw [h]; exact seg_univ
  rw [← pointsTo_biUnion Finset.univ (ℓ := (V d (cV L) (jV L)).loc cc1_scratch3) (fun n : Fin 7 => seg (N := 3584) (512 * n.val) 512) hd, hc]; try rfl

/-- What copy n of batch r leaves in window n of the reduce scratch. -/
abbrev landed (r : Fin 2) (n : Fin 7) (fs : Buf (Elt F) ((srcW L r n).view.loc (V d (cV L) (jV L)))) (fd : Buf (Elt F) ((dstW n).view.loc (V d (cV L) (jV L)))) :
    Buf (Elt F) ((dstW n).view.loc (V d (cV L) (jV L))) :=
  (dstW n).view.writes (Elt F) fd [⟨Rect.whole S512, ReadAs.same.apply ((srcW L r n).view.read (Elt F) fs)⟩]

/-- The seven deliveries of batch r. -/
abbrev deliv (r : Fin 2) (fs : (n : Fin 7) → Buf (Elt F) ((srcW L r n).view.loc (V d (cV L) (jV L))))
    (fd : (n : Fin 7) → Buf (Elt F) ((dstW n).view.loc (V d (cV L) (jV L)))) (n : Fin 7) : sProp 𝕄 :=
  iprop(heldOwn d L (dstW n) (landed d L r n (fs n) (fd n)) ∗ heldOwn d L (srcW L r n) (fs n))

instance deliv_storable (r : Fin 2) (fs : (n : Fin 7) → Buf (Elt F) ((srcW L r n).view.loc (V d (cV L) (jV L))))
    (fd : (n : Fin 7) → Buf (Elt F) ((dstW n).view.loc (V d (cV L) (jV L)))) (n : Fin 7) :
    BI.Storable (upEmb : UEmb _ 𝕄) (deliv (F := F) d L r fs fd n) := by
  unfold deliv heldOwn; infer_instance

/-- One window's credit. -/
abbrev NW : ℕ := (dstW 0).view.amount (SemLoc.dma (sig := sig) cc1_scratch6.sem)

/-- What copy n of batch r leaves in window n, over whatever was there. -/
abbrev landedJ (r : Fin 2) (n : Fin 7) (fs : Buf (Elt F) ((srcW L r n).view.loc (V d (cV L) (jV L)))) :
    Buf (Elt F) ((dstW n).view.loc (V d (cV L) (jV L))) :=
  (dstW n).view.writes (Elt F) (dstW n).view.junk [⟨Rect.whole S512, ReadAs.same.apply ((srcW L r n).view.read (Elt F) fs)⟩]

/-- The seven windows, each at contents of its own, are the reduce scratch whole at one function that agrees with each. -/
theorem windows_join (C : Fin 7 → Buf (Elt F) ((V d (cV L) (jV L)).loc cc1_scratch3)) :
    (iprop(heldOwn d L (dstW 0) (C 0) ∗ heldOwn d L (dstW 1) (C 1) ∗ heldOwn d L (dstW 2) (C 2)
        ∗ heldOwn d L (dstW 3) (C 3) ∗ heldOwn d L (dstW 4) (C 4) ∗ heldOwn d L (dstW 5) (C 5)
        ∗ heldOwn d L (dstW 6) (C 6)) : sProp 𝕄)
      ⊢ iprop(∃ g : Buf (Elt F) ((V d (cV L) (jV L)).loc cc1_scratch3), ⌜∀ n : Fin 7, ∀ i ∈ seg (N := 3584) (512 * n.val) 512, g i = C n i⌝
          ∗ (Memref.whole cc1_scratch3).view.loc (V d (cV L) (jV L)) ↦{fullShare} g) := by
  unfold heldOwn
  rw [set_dstW, set_dstW, set_dstW, set_dstW, set_dstW, set_dstW, set_dstW]
  show (iprop(((V d (cV L) (jV L)).loc cc1_scratch3 ↦[seg (N := 3584) (512 * (0 : Fin 7).val) 512]{fullShare} C 0)
    ∗ ((V d (cV L) (jV L)).loc cc1_scratch3 ↦[seg (N := 3584) (512 * (1 : Fin 7).val) 512]{fullShare} C 1)
    ∗ ((V d (cV L) (jV L)).loc cc1_scratch3 ↦[seg (N := 3584) (512 * (2 : Fin 7).val) 512]{fullShare} C 2)
    ∗ ((V d (cV L) (jV L)).loc cc1_scratch3 ↦[seg (N := 3584) (512 * (3 : Fin 7).val) 512]{fullShare} C 3)
    ∗ ((V d (cV L) (jV L)).loc cc1_scratch3 ↦[seg (N := 3584) (512 * (4 : Fin 7).val) 512]{fullShare} C 4)
    ∗ ((V d (cV L) (jV L)).loc cc1_scratch3 ↦[seg (N := 3584) (512 * (5 : Fin 7).val) 512]{fullShare} C 5)
    ∗ ((V d (cV L) (jV L)).loc cc1_scratch3 ↦[seg (N := 3584) (512 * (6 : Fin 7).val) 512]{fullShare} C 6)) : sProp 𝕄) ⊢ _
  rw [← bigSep_fin7 (fun n : Fin 7 => ((V d (cV L) (jV L)).loc cc1_scratch3 ↦[seg (N := 3584) (512 * n.val) 512]{fullShare} C n : sProp 𝕄))]
  have hd : ∀ t ∈ (Finset.univ : Finset (Fin 7)), ∀ t' ∈ (Finset.univ : Finset (Fin 7)), t ≠ t' →
      Disjoint (seg (N := 3584) (512 * t.val) 512) (seg (N := 3584) (512 * t'.val) 512) := by
    have h := seg_parts_disjoint (N := 3584) (lo := 0) (len := 512) (k := 7)
    simp only [Nat.zero_add] at h; exact h
  have hc : (Finset.univ : Finset (Fin 7)).biUnion (fun n => seg (N := 3584) (512 * n.val) 512) = Finset.univ := by
    have h := seg_parts (N := 3584) 0 512 7
    simp only [Nat.zero_add] at h; rw [h]; exact seg_univ
  refine (pointsTo_biUnion_join (ℓ := (V d (cV L) (jV L)).loc cc1_scratch3) (q := fullShare) Finset.univ (fun n : Fin 7 => seg (N := 3584) (512 * n.val) 512) C (C 0) hd).trans ?_
  rw [hc]
  iintro ⟨%g, %hg, Hg⟩
  iexists g
  isplitr
  · ipureintro; exact fun n i hi => hg n (Finset.mem_univ n) i hi
  · iexact Hg

/-- The partial sum the tile owes at entry k of its 1024. -/
def oAt (k : Nat) : F .f32 := partAt (XT m d) (WH1 m d) 13 (cV L).val (1024 * (L 1).val + k)

/-- A reduce loop's invariant: the reduce scratch fixed, the first entries of the output scratch done. -/
def invR (base : Nat) (g : Buf (Elt F) ((V d (cV L) (jV L)).loc cc1_scratch3)) (t : Nat) (_ : PUnit) : sProp 𝕄 :=
  iprop(((Memref.whole cc1_scratch3).view.loc (V d (cV L) (jV L)) ↦{fullShare} g)
    ∗ ∃ h : Buf (Elt F) ((V d (cV L) (jV L)).loc cc1_scratch4), ((Memref.whole cc1_scratch4).view.loc (V d (cV L) (jV L)) ↦{fullShare} h)
      ∗ ⌜∀ k : Fin 1024, k.val < base + 16 * t → h (ValueIdx.ix1 k) = oAt m d L k.val⌝)

/-- The landed windows hold the shared buffer's entries. -/
theorem hgv_of (r : Fin 2) (g : Buf (Elt F) ((V d (cV L) (jV L)).loc cc1_scratch3))
    (hg : ∀ n : Fin 7, ∀ i ∈ seg (N := 3584) (512 * n.val) 512, g i = landedJ (F := F) d L r n (ACC1 m d (cV L)) i) :
    ∀ (n : Fin 7) (j : Nat) (hj : j < 512), g (ValueIdx.ix1 (⟨512 * n.val + j, by have := n.isLt; omega⟩ : Fin 3584))
      = accAt (XT m d) (WH1 m d) 13 (cV L).val n.val (1024 * (L 1).val + 512 * r.val + j) := by
  intro n j hj
  have hn := n.isLt
  rw [hg n _ (by rw [mem_seg]; exact ⟨Nat.le_add_right _ _, by show 512 * n.val + j < 512 * n.val + 512; omega⟩)]
  exact landed_acc_1 m d (cV L) (jV L) (cV L) L r n j hj (inb3 n) _

omit [FloatOps F] in
theorem vec1 (a b : Nat) (h : a = b) : (![a] : Fin 1 → Nat) = ![b] := by rw [h]

end Reduce
end T1

end Cert.Proof.KI

end
-- ==== Proof.KI.Tile1Zero.lean ====
/-
  Lookup 1, the one tile that owns the row no field is left for (SparseCore 1, tile 6): the pieces of its zero phase.
  The tile fills its value scratch with the zero word, sixteen entries a trip for 128 trips, and copies the scratch into
  each of the eight pieces of 2048 of row 6 of its SparseCore's shared buffer. The row's pieces as the task slices them;
  the loop's trip and invariant (the entries below the trip's box are the zero word; a trip extends them by sixteen;
  128 trips fill the scratch); and the value: a piece a copy of zero words landed in holds what the shared buffer holds
  there once every tile has passed the barrier, since 6 + 1 < 7 fails and that row is the zero word throughout.
-/
import proofs.«207420_g80582176408339_cont_9to1c4b_743_56_alg».proof.Proof.KI.Tile1Trip
import Idealize.ShloMosaic.Lib.Affine

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T1
section Zero
variable (d : Dev nD) (L : grid1.Coords)

omit [FloatOps F] in
theorem conds_B : ∀ L : grid1.Coords, ¬ k1_cond1 L = 1#1 → k1_cond2 L = 1#1 → (L 0).val = 1 ∧ (L 1).val = 6 := by decide +kernel

/-- Piece `r` of the zero row of the shared buffer, as the task slices it. -/
abbrev zPiece (h2 : k1_cond2 L = 1#1) (r : Fin 8) : Memref sig .scVector .shared S2048 .f32 :=
  (accM).slice (Rect.unit (s := S114688) (k1_off28 L (BitVec.ofNat 32 (2048 * r.val))) S2048.size (k1_off28_inb L h2 r)) (fun _ => rfl)

omit [FloatOps F] in
theorem set_zPiece (h2 : k1_cond2 L = 1#1) (r : Fin 8) :
    (zPiece L h2 r).view.set = seg (N := 114688) (16384 * (L 1).val + 2048 * r.val) 2048 := by
  refine (View.set_slice_whole cc1_scratch5 _).trans ?_
  rw [unit_set_seg, k1_off28_eq]; rfl

theorem pts_zPiece (h2 : k1_cond2 L = 1#1) (r : Fin 8) (f : Buf (Elt F) (acc1Loc d (cT (cL L)))) :
    ((zPiece L h2 r).view.loc (V d (cV L) (jV L)) ↦[(zPiece L h2 r).view.set]{fullShare} f : sProp 𝕄)
      = (acc1Loc d (cT (cL L)) ↦[seg (N := 114688) (16384 * (L 1).val + 2048 * r.val) 2048]{fullShare} f) := by
  rw [set_zPiece]; rfl

end Zero
end T1

namespace T1
section ZeroLoop
variable (d : Dev nD) (c : Fin τ.nSC) (i : Fin τ.nSub)

open Idealize.ShloMosaic.ValueIdx in
/-- The value scratch's first `16 k` entries are the zero word. -/
def ZeroTo (k : ℕ) (f : Buf (Elt F) ((valM).view.loc (V d c i))) : Prop :=
  ∀ t : Fin 2048, t.val < 16 * k → (show F .f32 from f (ix1 t)) = Scalar.ofBits .f32 0x00000000#32

/-- The zero loop's invariant: the value scratch at some contents whose entries below the trip's box are the zero word. -/
def zInv (k : ℕ) (_ : PUnit) : sProp 𝕄 :=
  iprop(∃ f, ((valM).view.loc (V d c i) ↦{fullShare} f) ∗ ⌜ZeroTo (F := F) d c i k f⌝)

/-- One trip of the zero loop, over the offset of its box: sixteen entries loaded (and not used), sixteen zero words stored. -/
def zTrip (off : Fin 1 → Nat) (inb : ∀ a, off a + S16.size a ≤ S2048.size a) :
    Prog (TpuEff nD τ sig (Elt F) Λ₀ (.scVector c i)) Unit := do
  let v167 : Vec F S16 .f32 ← Prog.lift (.load valM (Rect.unit (s := S2048) off S16.size inb).toLoadRect (View.loadsAt_vmem h_S16))
  Prog.lift (.store valM (Rect.unit (s := S2048) off S16.size inb) (k1_pay2 (F := F)) Finset.univ (View.stores_vmem_bits_univ h_S16 rfl) (.inl rfl))
  pure ⟨⟩

theorem k1_t9_body_eq (L : grid1.Coords) (arg1 : BitVec 32) (h2 : k1_cond2 L = 1#1) (k : Fin k1_t9_loop.trips) (u : Unit) :
    k1_t9_body (F := F) L (Memref.whole main_v0_scv) (Memref.isWhole_whole _) (Memref.whole main_v4_scv) (Memref.isWhole_whole _) (Memref.whole main_v7_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 arg1 h2 k u
      = zTrip (F := F) (cV L) (jV L) (k1_off27 k) (k1_off27_inb L k h2) := rfl

theorem wp_zTrip (off : Fin 1 → Nat) (inb : ∀ a, off a + S16.size a ≤ S2048.size a) (f : Buf (Elt F) ((valM).view.loc (V d c i))) :
    (((valM).view.loc (V d c i) ↦{fullShare} f) : sProp 𝕄)
      ⊢ wp frame (wpE (defs₀ (F := F)) 𝒱₀ (V d c i) none) Set.univ (zTrip (F := F) c i off inb)
          fun _ => ((valM).view.loc (V d c i) ↦{fullShare}
            ((valM).access (Rect.unit (s := S2048) off S16.size inb)).write (Elt F) f (k1_pay2 (F := F)) Finset.univ) := by
  unfold zTrip
  simp only [Prog.lift, Prog.bind_op, Prog.bind_ret, Prog.pure_eq_ret]
  iintro H7
  iapply (wp_load 𝒱₀ (V d c i) none Set.univ (m := valM) (S := Finset.univ) (Finset.subset_univ _)) $$ H7; iintro H7
  iapply (wp_store 𝒱₀ (V d c i) none Set.univ (m := valM) (r := Rect.unit (s := S2048) off S16.size inb) (Mk := Finset.univ) (S := Finset.univ) (Finset.subset_univ _)) $$ H7; iintro H7
  rw [wp_ret]; imodintro
  iexact H7

open Idealize.ShloMosaic.ValueIdx in
/-- A trip at box `16 k` extends the zeros by sixteen. -/
theorem ZeroTo_step (k : ℕ) (off : Fin 1 → Nat) (hoff : off = ![16 * k]) (inb : ∀ a, off a + S16.size a ≤ S2048.size a)
    (f : Buf (Elt F) ((valM).view.loc (V d c i))) (h : ZeroTo (F := F) d c i k f) :
    ZeroTo (F := F) d c i (k + 1) (((valM).access (Rect.unit (s := S2048) off S16.size inb)).write (Elt F) f (k1_pay2 (F := F)) Finset.univ) := by
  subst hoff
  intro t ht
  by_cases hlt : t.val < 16 * k
  · have hn : (ix1 t : S2048.Idx) ∉ ((valM).access (Rect.unit (s := S2048) ![16 * k] S16.size inb)).setOn Finset.univ := by
      rw [View.setOn_univ]
      show (ix1 t : S2048.Idx) ∉ ((View.whole cc1_scratch2).slice (Rect.unit (s := S2048) ![16 * k] S16.size inb)).set
      rw [View.set_slice_whole, unit_set_seg, mem_seg]
      show ¬ (16 * k ≤ t.val ∧ t.val < 16 * k + 16)
      omega
    exact (View.write_of_not_mem _ _ _ hn).trans (h t hlt)
  · have hx : t.val - 16 * k < 16 := by omega
    have he : (ix1 t : S2048.Idx) = ((valM).access (Rect.unit (s := S2048) ![16 * k] S16.size inb)).emb (ix1 (⟨t.val - 16 * k, hx⟩ : Fin 16)) := by
      funext a
      obtain rfl : a = 0 := Subsingleton.elim _ _
      apply Fin.ext
      show t.val = 16 * k + 1 * (t.val - 16 * k)
      omega
    show (show F .f32 from (((valM).access (Rect.unit (s := S2048) ![16 * k] S16.size inb)).write (Elt F) f (k1_pay2 (F := F)) Finset.univ) (ix1 t)) = _
    rw [he, View.write_emb_of_mem _ _ (Finset.mem_univ _)]
    rfl

end ZeroLoop
end T1

namespace T1
section ZeroValue
variable (d : Dev nD) (L : grid1.Coords)

omit [FloatOps F] in
/-- The zero loop makes 128 trips: the whole value scratch. -/
theorem trips_t9 : Scf.trips k1_t9_loop.lb k1_t9_loop.ub k1_t9_loop.st = 128 := by
  have h0 : Affine.IsInt (0#32 : BitVec 32) (0) := Affine.ofNat _ (by omega)
  have h128 : Affine.IsInt (128#32 : BitVec 32) (128) := Affine.ofNat _ (by omega)
  have hub : Affine.IsInt (Scalar.addi (0#32 : BitVec 32) 128#32) (128) := Affine.addi h0 h128 (by omega)
  have h1 : Affine.IsInt (1#32 : BitVec 32) (1) := Affine.ofNat _ (by omega)
  unfold Affine.IsInt at h0 hub h1
  show ((k1_t9_loop.ub.toInt - k1_t9_loop.lb.toInt + k1_t9_loop.st.toInt - 1) / k1_t9_loop.st.toInt).toNat = 128
  rw [show k1_t9_loop.ub.toInt = 128 from hub, show k1_t9_loop.lb.toInt = 0 from h0, show k1_t9_loop.st.toInt = 1 from h1]
  omega

set_option maxRecDepth 65536 in
/-- A piece of the zero row after a copy of zero words landed in it holds what the shared buffer holds there once the
    tiles have passed the barrier: row 6 of SparseCore 1 is the row no field is left for, the zero word throughout. -/
theorem piece_zero (h2 : k1_cond2 L = 1#1) (r : Fin 8) (frow : Buf (Elt F) (acc1Loc d (cT (cL L)))) (P : S2048.Idx → Elt F .f32)
    (hP : ∀ x, P x = Scalar.ofBits .f32 0x00000000#32) (hc1 : (L 0).val = 1) (hs6 : (L 1).val = 6) :
    ((zPiece L h2 r).view.loc (V d (cV L) (jV L)) ↦[(zPiece L h2 r).view.set]{fullShare}
        (zPiece L h2 r).view.writes (Elt F) frow [⟨Rect.whole S2048, P⟩] : sProp 𝕄)
      = (acc1Loc d (cT (cL L)) ↦[seg (N := 114688) (16384 * (L 1).val + 2048 * r.val) 2048]{fullShare} ACC1 m d (cT (cL L))) := by
  rw [← pts_zPiece (F := F) d L h2 r (ACC1 m d (cT (cL L)))]
  apply pointsTo_congr
  intro i hi
  obtain ⟨y, -, rfl⟩ := Finset.mem_map.mp hi
  have hl : (zPiece L h2 r).view.writes (Elt F) frow [⟨Rect.whole S2048, P⟩] ((zPiece L h2 r).view.emb y) = P y := by
    have he : (zPiece L h2 r).view.emb y = ((zPiece L h2 r).view.slice (Rect.whole S2048)).emb y := by
      show _ = (zPiece L h2 r).view.emb ((Rect.whole S2048).emb y)
      rw [Rect.emb_whole_apply]
    rw [View.writes_singleton, he, View.write_emb_of_mem _ _ (Finset.mem_univ _)]
    rfl
  rw [hl, hP]
  have hoff : (k1_off28 L (BitVec.ofNat 32 (2048 * r.val))) 0 = 16384 * (L 1).val + 2048 * r.val := congrFun (k1_off28_eq L r) 0
  have hv : (((zPiece L h2 r).view.emb y) 0).val = (k1_off28 L (BitVec.ofNat 32 (2048 * r.val))) 0 + 1 * (y 0).val := rfl
  have hy : (y 0).val < 2048 := (y 0).isLt
  have hr := r.isLt
  have hq : (((zPiece L h2 r).view.emb y) 0).val / 16384 = 6 := by rw [hv, hoff]; omega
  have hcc : (cT (cL L)).val = 1 := hc1
  show _ = accAt (XT m d) (WH1 m d) 13 (cT (cL L)).val ((((zPiece L h2 r).view.emb y) 0).val / 16384) ((((zPiece L h2 r).view.emb y) 0).val % 16384)
  unfold accAt
  rw [hq, hcc, if_neg (by decide)]

end ZeroValue
end T1

end Cert.Proof.KI

end
-- ==== Proof.KI.Tile1.lean ====
/-
  Lookup 1's task obligation: one tile's task of the second SparseCore call, at a symbolic tile.

  A tile (c, s) is of one of three kinds. If s + c < 7 it owns field 13 + 7c + s: it copies the field's 100000 table entries
  into its table scratch and, 2048 batch rows at a time through the two slots of its index scratch (one copy in flight
  while the other slot is read), looks every index up — the indices are entries of the field's index row, so below
  100000 — and copies the 2048 entries into its row of its SparseCore's shared buffer: after the eight chunks the row
  holds the looked-up entries. If c = 1 and s = 6 it fills its row with the zero word. Otherwise it owns no row. The
  three kinds meet at the barrier: a row owner hands every tile its column block of its row (the row is exactly the
  sixteen payloads of its duties), the others hand over nothing; every tile receives its own column block of each of
  the seven rows at the looked-up values. It then twice copies seven half blocks into its reduce scratch — seven copies
  on one semaphore, all started, all waited for, then read —, adds the seven rows sixteen lanes at a time, and writes
  its 1024 sums into the lookup's result: SparseCore c's partial sums for batch rows 1024 s … 1024 s + 1023. What it
  hands back is its read shares, those 1024 entries at the partial sums and its seven column blocks.
-/
import proofs.«207420_g80582176408339_cont_9to1c4b_743_56_alg».proof.Proof.KI.Tile1Out
import proofs.«207420_g80582176408339_cont_9to1c4b_743_56_alg».proof.Proof.KI.Tile1Reduce
import proofs.«207420_g80582176408339_cont_9to1c4b_743_56_alg».proof.Proof.KI.Tile1Zero

noncomputable section

namespace Cert.Proof.KI

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T1

omit [FloatOps F] in
/-- The recorded waits as a variable. -/
theorem gen_waits (thr : Thread nD τ) (X : CellTallies nD τ sig (HIx 2)) (W₀ : Waits sig (HIx 2)) :
    owes thr X W₀ ⊢ (iprop(∃ W₁, ⌜W₁ = W₀⌝ ∗ owes thr X W₁) : sProp 𝕄) := by
  iintro H; iexists W₀; isplitr
  · ipureintro; rfl
  · iexact H

omit [FloatOps F] in
theorem conds_C : ∀ L : grid1.Coords, ¬ k1_cond1 L = 1#1 → ¬ k1_cond2 L = 1#1 → 7 ≤ (L 1).val := by decide +kernel

section Tile
variable (d : Dev nD) (L : grid1.Coords)

abbrev prog1 (L : grid1.Coords) : Prog (TpuEff nD τ sig (Elt F) Λ₀ (.scVector ((L 0).castLE hcore1) ((L 1).castLE hsub1))) PUnit :=
  cc1_sc_fields_1 L (Memref.whole main_v0_scv) (Memref.isWhole_whole _) (Memref.whole main_v4_scv) (Memref.isWhole_whole _) (Memref.whole main_v7_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16

set_option maxHeartbeats 4000000 in
theorem tile_body_C (h1 : ¬ k1_cond1 L = 1#1) (h2 : ¬ k1_cond2 L = 1#1) (hx : InRange m) (hF : (K (F := F)).Facts) (O : CellTallies nD τ sig (HIx 2)) (W : Waits sig (HIx 2)) (hO : ∀ g, O g none = 0)
    (hOlev : ∀ g ι, 0 < O g ι → 8 * (1 : Fin 2).val + 6 ≤ (K (F := F)).lev g ι) :
    iprop(levAts (K (F := F)).L (K (F := F)).lev ∗ bkit m 1 d (cV L) (jV L) ∗ go1 m d (cL L) (jL L)
        ∗ scopedBufs (V d (cV L) (jV L)) ∗ scopedSems0 (V d (cV L) (jV L)) ∗ owes (V d (cV L) (jV L)) (O + oxV 1 d (cV L)) W)
      ⊢ wp frame (wpE (defs₀ (F := F)) 𝒱₀ (V d (cV L) (jV L)) none) Set.univ (prog1 (F := F) L)
          fun _ => iprop(td1 m d (cL L) (jL L) ∗ scopedBufs (V d (cV L) (jV L)) ∗ scopedSems0 (V d (cV L) (jV L))
            ∗ ∃ W', ⌜∀ p ∈ W', p ∈ W ∨ p.2 = none ∨ p.2 = some (1 : Fin 2)⌝ ∗ owes (V d (cV L) (jV L)) O W') := by
  have hs : 7 ≤ (L 1).val := conds_C L h1 h2
  unfold prog1
  simp only [cc1_sc_fields_1_eq_skeleton]; unfold cc1_sc_fields_1_skel
  rw [(K (F := F)).scopedBufs_V hF d (cV L) (jV L), SparseCore.Cfg.scopedSems0_V (Val := Elt F) d (cV L) (jV L), ownSems0_V, ownBufs_V]
  unfold bkit go1
  rw [if_neg (show ¬ (1 : Fin 2).val = 0 from by decide), if_neg (show ¬ (jL L).val < 7 from by show ¬ (L 1).val < 7; omega)]
  iintro ⟨#Hlv, ⟨⟨%κ, #Hinv⟩, Htoks, Hcred, -⟩, ⟨Hxt, Hwh, Hp0, -, Hat, #Hrch⟩,
    ⟨⟨⟨%f0, Hb0⟩, ⟨%f1, Hb1⟩, ⟨%f2, Hb2⟩, ⟨%f3, Hb3⟩, ⟨%f4, Hb4⟩⟩, Hbufs⟩,
    ⟨⟨Hs6, Hs7, Hs8, Hs9, Hc0, Hc1, Hc2, Hc3, Hc4, Hc5, Hc6, Hc7, Hc8, Hc9, Hc10, Hc11, Hc12, Hc13, Hc14, Hc15, Hc16⟩, Hsems⟩, HO⟩
  have hO' : ∀ g, (O + oxV 1 d (cV L)) g none = 0 := fun g => by rw [Pi.add_apply, Finsupp.add_apply, hO g, oxV_none]
  ihave Hmw1 := (show levAts (K (F := F)).L (K (F := F)).lev ⊢ Transfers.MayWaits (V d (cV L) (jV L)) (default : HIx 2) (O + oxV 1 d (cV L)) from
    (K (F := F)).mayWaits_none (thr := V d (cV L) (jV L)) hO') $$ Hlv
  ihave Hmw2 := (show levAts (K (F := F)).L (K (F := F)).lev ⊢ Transfers.MayWaits (V d (cV L) (jV L)) (default : HIx 2) O from
    (K (F := F)).mayWaits_none (thr := V d (cV L) (jV L)) hO) $$ Hlv
  sl_exec
  ihave Hpay := (show (iprop(emp) : sProp 𝕄) ⊢ _ from Entails.of_eq (pays_none (F := F) m d (cV L) (jV L).val hs).symm) $$ []
  · iempintro
  -- the waits recorded so far: all at index none
  ihave HOg := (gen_waits (F := F) _ _ _) $$ HO
  icases HOg with ⟨%W₁, %hW₁e, HO⟩
  have hW₁ : ∀ p ∈ W₁, p ∈ W ∨ p.2 = none := by
    subst hW₁e; intro p hp
    repeat (first | exact .inl hp | (rcases Finset.mem_insert.mp hp with e | hp; · exact .inr (by rw [e]; rfl)))
  clear hW₁e
  -- the barrier: the sixteen payloads handed over; its own round's seven column blocks received
  iapply (SparseCore.wp_subcoreBarrier 𝒱₀ none EB (bRd (F := F) m) d (sc := cV L) (i := jV L) sc_bar0 (grid1.bound 1) hsub1 (L 1) rfl κ (fun _ => 1) (jV L).val
      (fun j => bRd_mem m d _ _ _ (by decide)) (fun _ => rfl) (bRd_expect m d _ _ (by decide)) (some 1) O _) $$ [HO Htoks Hpay Hcred Hat]
  · isplitr; · iexact Hinv
    isplitl [HO]; · iexact HO
    isplitl [Htoks Hpay]
    · rw [bigSep_sep', bigSep_sep']
      isplitl [Htoks]; · iexact Htoks
      isplitl [Hpay]; · iexact Hpay
      iexact Hrch
    isplitl [Hcred]; · iexact Hcred
    isplitl [Hat]; · iexact Hat
    iapply ((K (F := F)).mayOwe_of_bound (thr := V d (cV L) (jV L)) 11 (fun p hp => by
        rw [Finset.mem_singleton] at hp; subst hp
        show (K (F := F)).lev (bcell d (cV L) (jV L)) (some 1) ≤ 11
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, Hrch1, Hgot⟩
  ihave Hcols := (pays_got m d (cV L) (jV L)) $$ Hgot
  icases Hcols with ⟨Hq0, Hq1, Hq2, Hq3, Hq4, Hq5, Hq6⟩
  -- each column block in two halves, the reduce scratch in seven windows, as the copies name them
  have l0 : 0 < 7 := by decide
  have l1 : 1 < 7 := by decide
  have l2 : 2 < 7 := by decide
  have l3 : 3 < 7 := by decide
  have l4 : 4 < 7 := by decide
  have l5 : 5 < 7 := by decide
  have l6 : 6 < 7 := by decide
  ihave Hh0 := (Entails.of_eq (acc_halves (F := F) d L 0 l0 _)) $$ Hq0
  icases Hh0 with ⟨Ha0, Hz0⟩
  ihave Hh1 := (Entails.of_eq (acc_halves (F := F) d L 1 l1 _)) $$ Hq1
  icases Hh1 with ⟨Ha1, Hz1⟩
  ihave Hh2 := (Entails.of_eq (acc_halves (F := F) d L 2 l2 _)) $$ Hq2
  icases Hh2 with ⟨Ha2, Hz2⟩
  ihave Hh3 := (Entails.of_eq (acc_halves (F := F) d L 3 l3 _)) $$ Hq3
  icases Hh3 with ⟨Ha3, Hz3⟩
  ihave Hh4 := (Entails.of_eq (acc_halves (F := F) d L 4 l4 _)) $$ Hq4
  icases Hh4 with ⟨Ha4, Hz4⟩
  ihave Hh5 := (Entails.of_eq (acc_halves (F := F) d L 5 l5 _)) $$ Hq5
  icases Hh5 with ⟨Ha5, Hz5⟩
  ihave Hh6 := (Entails.of_eq (acc_halves (F := F) d L 6 l6 _)) $$ Hq6
  icases Hh6 with ⟨Ha6, Hz6⟩
  ihave Hw := (Entails.of_eq (scr3_windows (F := F) d L f3)) $$ Hb3
  icases Hw with ⟨Hd0, Hd1, Hd2, Hd3, Hd4, Hd5, Hd6⟩
  haveI hst0 : ∀ t : Fin 7, BI.Storable (upEmb : UEmb _ 𝕄) (deliv (F := F) d L 0 (fun _ => ACC1 m d (cV L)) (fun _ => f3) t) :=
    fun t => deliv_storable (F := F) d L 0 _ _ t
  imod (Transfers.batch_alloc' (Lvl := ℕ) countersEmb (V d (cV L) (jV L)) (default : HIx 2) NW (deliv (F := F) d L 0 (fun _ => ACC1 m d (cV L)) (fun _ => f3))
    (sm := .dma cc1_scratch6.sem) (E := Set.univ)) $$ Hs6 with HB
  sl_exec
  -- the seven windows landed: the reduce scratch whole again, at one function
  ihave Hg := (windows_join (F := F) d L (fun n => landedJ (F := F) d L 0 n (ACC1 m d (cV L))) ) $$ [HB_dst0 HB_dst1 HB_dst2 HB_dst3 HB_dst4 HB_dst5 HB_dst6]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    iexact HB_dst6
  icases Hg with ⟨%g, %hg, Hg⟩
  ihave Hb4' := (Entails.of_eq (show ((V d (cV L) (jV L)).loc cc1_scratch4 ↦{fullShare} f4 : sProp 𝕄) = ((Memref.whole cc1_scratch4).view.loc (V d (cV L) (jV L)) ↦{fullShare} f4) from rfl)) $$ Hb4
  sl_for (invR (F := F) m d L 0 g) $$ [Hg Hb4']
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g (ValueIdx.ix1 (⟨512 * n.val + j, by have := n.isLt; omega⟩ : Fin 3584))
        = accAt (XT m d) (WH1 m d) 13 (cV L).val n.val (1024 * (L 1).val + 0 + j) := fun n j hj => hgv_of (F := F) m d L 0 g hg n j hj
    exact step_gen_1 d (cV L) (jV L) (XT m d) (WH1 m d) 13 (cV L).val (L 1).val 0 k.val hkt (by omega) k1_pay3
      (fun v0 v1 v2 v3 v4 v5 v6 l b h0 h1 h2 h3 h4 h5 h6 => pay3_partAt_k1 (XT m d) (WH1 m d) 13 (cV L).val b v0 v1 v2 v3 v4 v5 v6 l h0 h1 h2 h3 h4 h5 h6)
      g h _ _ ((Gen.k1_off32_eq k).trans (vec1 _ _ (by omega)))
      _ _ ((Gen.k1_off30_eq k).trans (vec1 _ _ (by omega)))
      _ _ ((Gen.k1_off31_eq k ⟨0, by decide⟩).trans (vec1 _ _ (by show 512 * 0 + 16 * k.val + 512 = 512 * 1 + 16 * k.val; omega)))
      _ _ ((Gen.k1_off31_eq k ⟨1, by decide⟩).trans (vec1 _ _ (by show 512 * 1 + 16 * k.val + 512 = 512 * 2 + 16 * k.val; omega)))
      _ _ ((Gen.k1_off31_eq k ⟨2, by decide⟩).trans (vec1 _ _ (by show 512 * 2 + 16 * k.val + 512 = 512 * 3 + 16 * k.val; omega)))
      _ _ ((Gen.k1_off31_eq k ⟨3, by decide⟩).trans (vec1 _ _ (by show 512 * 3 + 16 * k.val + 512 = 512 * 4 + 16 * k.val; omega)))
      _ _ ((Gen.k1_off31_eq k ⟨4, by decide⟩).trans (vec1 _ _ (by show 512 * 4 + 16 * k.val + 512 = 512 * 5 + 16 * k.val; omega)))
      _ _ ((Gen.k1_off31_eq k ⟨5, by decide⟩).trans (vec1 _ _ (by show 512 * 5 + 16 * k.val + 512 = 512 * 6 + 16 * k.val; omega)))
      hgv' hh
  · unfold invR
    isplitl [Hg]; · iexact Hg
    iexists f4
    isplitl [Hb4']; · iexact Hb4'
    ipureintro; intro k hk; exact absurd hk (by omega)
  iintro %_ HI
  unfold invR
  icases HI with ⟨Hg, ⟨%h1, Hh, %hh1⟩⟩
  -- the second batch: the other halves into the same seven windows
  ihave Hg' := (Entails.of_eq (show ((Memref.whole cc1_scratch3).view.loc (V d (cV L) (jV L)) ↦{fullShare} g : sProp 𝕄) = ((V d (cV L) (jV L)).loc cc1_scratch3 ↦{fullShare} g) from rfl)) $$ Hg
  ihave Hw2 := (Entails.of_eq (scr3_windows (F := F) d L g)) $$ Hg'
  icases Hw2 with ⟨He0, He1, He2, He3, He4, He5, He6⟩
  ihave HB' := (show (semVal ((V d (cV L) (jV L), SemLoc.dma cc1_scratch6.sem) : GSem nD τ sig) 0 : sProp 𝕄) ⊢ semVal ((V d (cV L) (jV L), SemLoc.dma cc1_scratch6.sem) : GSem nD τ sig) 0 from BI.Entails.refl _) $$ [HB]
  · iexact HB
  haveI hst1 : ∀ t : Fin 7, BI.Storable (upEmb : UEmb _ 𝕄) (deliv (F := F) d L 1 (fun _ => ACC1 m d (cV L)) (fun _ => g) t) :=
    fun t => deliv_storable (F := F) d L 1 _ _ t
  imod (Transfers.batch_alloc' (Lvl := ℕ) countersEmb (V d (cV L) (jV L)) (default : HIx 2) NW (deliv (F := F) d L 1 (fun _ => ACC1 m d (cV L)) (fun _ => g))
    (sm := .dma cc1_scratch6.sem) (E := Set.univ)) $$ HB' with HC
  sl_exec
  ihave Hg2J := (windows_join (F := F) d L (fun n => landedJ (F := F) d L 1 n (ACC1 m d (cV L)))) $$ [HC_dst0 HC_dst1 HC_dst2 HC_dst3 HC_dst4 HC_dst5 HC_dst6]
  · isplitl [HC_dst0]; · iexact HC_dst0
    isplitl [HC_dst1]; · iexact HC_dst1
    isplitl [HC_dst2]; · iexact HC_dst2
    isplitl [HC_dst3]; · iexact HC_dst3
    isplitl [HC_dst4]; · iexact HC_dst4
    isplitl [HC_dst5]; · iexact HC_dst5
    iexact HC_dst6
  icases Hg2J with ⟨%g2, %hg2, Hg2⟩
  sl_for (invR (F := F) m d L 512 g2) $$ [Hg2 Hh]
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g2 (ValueIdx.ix1 (⟨512 * n.val + j, by have := n.isLt; omega⟩ : Fin 3584))
        = accAt (XT m d) (WH1 m d) 13 (cV L).val n.val (1024 * (L 1).val + 512 + j) := fun n j hj => hgv_of (F := F) m d L 1 g2 hg2 n j hj
    exact step_gen_1 d (cV L) (jV L) (XT m d) (WH1 m d) 13 (cV L).val (L 1).val 512 k.val hkt (by omega) k1_pay1
      (fun v0 v1 v2 v3 v4 v5 v6 l b h0 h1 h2 h3 h4 h5 h6 => pay1_partAt_k1 (XT m d) (WH1 m d) 13 (cV L).val b v0 v1 v2 v3 v4 v5 v6 l h0 h1 h2 h3 h4 h5 h6)
      g2 h _ _ ((Gen.k1_off35_eq k).trans (vec1 _ _ (by omega)))
      _ _ ((Gen.k1_off33_eq k).trans (vec1 _ _ (by omega)))
      _ _ ((Gen.k1_off34_eq k ⟨0, by decide⟩).trans (vec1 _ _ (by show 512 * 0 + 16 * k.val + 512 = 512 * 1 + 16 * k.val; omega)))
      _ _ ((Gen.k1_off34_eq k ⟨1, by decide⟩).trans (vec1 _ _ (by show 512 * 1 + 16 * k.val + 512 = 512 * 2 + 16 * k.val; omega)))
      _ _ ((Gen.k1_off34_eq k ⟨2, by decide⟩).trans (vec1 _ _ (by show 512 * 2 + 16 * k.val + 512 = 512 * 3 + 16 * k.val; omega)))
      _ _ ((Gen.k1_off34_eq k ⟨3, by decide⟩).trans (vec1 _ _ (by show 512 * 3 + 16 * k.val + 512 = 512 * 4 + 16 * k.val; omega)))
      _ _ ((Gen.k1_off34_eq k ⟨4, by decide⟩).trans (vec1 _ _ (by show 512 * 4 + 16 * k.val + 512 = 512 * 5 + 16 * k.val; omega)))
      _ _ ((Gen.k1_off34_eq k ⟨5, by decide⟩).trans (vec1 _ _ (by show 512 * 5 + 16 * k.val + 512 = 512 * 6 + 16 * k.val; omega)))
      hgv' hh
  · unfold invR
    isplitl [Hg2]; · iexact Hg2
    iexists h1
    isplitl [Hh]; · iexact Hh
    ipureintro; intro k hk; exact hh1 k (by show k.val < 0 + 16 * 32; omega)
  iintro %_ HI2
  unfold invR
  icases HI2 with ⟨Hg2, ⟨%h2, Hh, %hh2⟩⟩
  -- the write-out: the output scratch into the tile's 1024 entries of the result
  ihave Hp0' := (Entails.of_eq (pts_poK (F := F) d L _).symm) $$ Hp0
  sl_exec
  have hfull : ∀ k : Fin 1024, (show F .f32 from h2 (ValueIdx.ix1 k)) = partAt (XT m d) (WH1 m d) 13 (L 0).val (1024 * (L 1).val + k.val) :=
    fun k => hh2 k (by have := k.isLt; show k.val < 512 + 16 * 32; omega)
  ihave Hp0 := (Entails.of_eq (show (_ : sProp 𝕄) = (p1Loc d ↦[seg (N := 32768) (16384 * (cL L).val + 1024 * (jL L).val) 1024]{fullShare} PT1 m d) from
    (pts_poK (F := F) d L _).trans (pointsTo_congr (by exact out_landed (F := F) m d (cV L) (jV L) (L 0).val (L 1).val (L 0).isLt (L 1).isLt _ _ (k1_off36_eq L) _ h2 hfull)))) $$ Hp0'
  -- the column blocks whole again, the scratches as the launch names them
  ihave Hq0 := (Entails.of_eq (acc_halves (F := F) d L 0 l0 (ACC1 m d (cV L))).symm) $$ [HB_src0 HC_src0]
  · isplitl [HB_src0]; · iexact HB_src0
    iexact HC_src0
  ihave Hq1 := (Entails.of_eq (acc_halves (F := F) d L 1 l1 (ACC1 m d (cV L))).symm) $$ [HB_src1 HC_src1]
  · isplitl [HB_src1]; · iexact HB_src1
    iexact HC_src1
  ihave Hq2 := (Entails.of_eq (acc_halves (F := F) d L 2 l2 (ACC1 m d (cV L))).symm) $$ [HB_src2 HC_src2]
  · isplitl [HB_src2]; · iexact HB_src2
    iexact HC_src2
  ihave Hq3 := (Entails.of_eq (acc_halves (F := F) d L 3 l3 (ACC1 m d (cV L))).symm) $$ [HB_src3 HC_src3]
  · isplitl [HB_src3]; · iexact HB_src3
    iexact HC_src3
  ihave Hq4 := (Entails.of_eq (acc_halves (F := F) d L 4 l4 (ACC1 m d (cV L))).symm) $$ [HB_src4 HC_src4]
  · isplitl [HB_src4]; · iexact HB_src4
    iexact HC_src4
  ihave Hq5 := (Entails.of_eq (acc_halves (F := F) d L 5 l5 (ACC1 m d (cV L))).symm) $$ [HB_src5 HC_src5]
  · isplitl [HB_src5]; · iexact HB_src5
    iexact HC_src5
  ihave Hq6 := (Entails.of_eq (acc_halves (F := F) d L 6 l6 (ACC1 m d (cV L))).symm) $$ [HB_src6 HC_src6]
  · isplitl [HB_src6]; · iexact HB_src6
    iexact HC_src6
  ihave Hb3 := (Entails.of_eq (show ((Memref.whole cc1_scratch3).view.loc (V d (cV L) (jV L)) ↦{fullShare} g2 : sProp 𝕄) = ((V d (cV L) (jV L)).loc cc1_scratch3 ↦{fullShare} g2) from rfl)) $$ Hg2
  ihave Hb4 := (Entails.of_eq (show ((Memref.whole cc1_scratch4).view.loc (V d (cV L) (jV L)) ↦{fullShare} h2 : sProp 𝕄) = ((V d (cV L) (jV L)).loc cc1_scratch4 ↦{fullShare} h2) from rfl)) $$ Hh
  -- the waits recorded: all at index none, or the barrier's
  ihave HOg := (gen_waits (F := F) _ _ _) $$ HO
  icases HOg with ⟨%W₂, %hW₂e, HO⟩
  have hW₂ : ∀ p ∈ W₂, p ∈ W ∨ p.2 = none ∨ p.2 = some (1 : Fin 2) := by
    subst hW₂e; intro p hp
    repeat (first | exact (hW₁ p hp).imp_right Or.inl | (rcases Finset.mem_insert.mp hp with e | hp; · first | exact .inr (.inl (by rw [e]; rfl)) | exact .inr (.inr (by rw [e]))))
  sl_step
  iapply (post_intro' (F := F) m d L hF O W W₂ hW₂) $$ [Hxt Hwh Hp0 Hq0 Hq1 Hq2 Hq3 Hq4 Hq5 Hq6 Hat Hrch1 Hb0 Hb1 Hb2 Hb3 Hb4 Hbufs HC Hs7 Hs8 Hs9 Hc0 Hc1 Hc2 Hc3 Hc4 Hc5 Hc6 Hc7 Hc8 Hc9 Hc10 Hc11 Hc12 Hc13 Hc14 Hc15 Hc16 Hsems HO]
  isplitl [Hxt]; · iexact Hxt
  isplitl [Hwh]; · iexact Hwh
  isplitl [Hp0]; · iexact Hp0
  isplitl [Hq0 Hq1 Hq2 Hq3 Hq4 Hq5 Hq6]
  · isplitl [Hq0]; · iexists _; iexact Hq0
    isplitl [Hq1]; · iexists _; iexact Hq1
    isplitl [Hq2]; · iexists _; iexact Hq2
    isplitl [Hq3]; · iexists _; iexact Hq3
    isplitl [Hq4]; · iexists _; iexact Hq4
    isplitl [Hq5]; · iexists _; iexact Hq5
    iexists _; iexact Hq6
  isplitl [Hat]; · iexact Hat
  isplitl [Hrch1]; · iexact Hrch1
  isplitl [Hb0 Hb1 Hb2 Hb3 Hb4]
  · isplitl [Hb0]; · iexists _; iexact Hb0
    isplitl [Hb1]; · iexists _; iexact Hb1
    isplitl [Hb2]; · iexists _; iexact Hb2
    isplitl [Hb3]; · iexists _; iexact Hb3
    iexists _; iexact Hb4
  isplitl [Hbufs]; · iexact Hbufs
  isplitl [HC Hs7 Hs8 Hs9 Hc0 Hc1 Hc2 Hc3 Hc4 Hc5 Hc6 Hc7 Hc8 Hc9 Hc10 Hc11 Hc12 Hc13 Hc14 Hc15 Hc16]
  · isplitl [HC]; · iexact HC
    isplitl [Hs7]; · iexact Hs7
    isplitl [Hs8]; · iexact Hs8
    isplitl [Hs9]; · iexact Hs9
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    iexact Hc16
  isplitl [Hsems]; · iexact Hsems
  iexact HO

set_option maxHeartbeats 4000000 in
theorem tile_body_B (h1 : ¬ k1_cond1 L = 1#1) (h2 : k1_cond2 L = 1#1) (hx : InRange m) (hF : (K (F := F)).Facts) (O : CellTallies nD τ sig (HIx 2)) (W : Waits sig (HIx 2)) (hO : ∀ g, O g none = 0)
    (hOlev : ∀ g ι, 0 < O g ι → 8 * (1 : Fin 2).val + 6 ≤ (K (F := F)).lev g ι) :
    iprop(levAts (K (F := F)).L (K (F := F)).lev ∗ bkit m 1 d (cV L) (jV L) ∗ go1 m d (cL L) (jL L)
        ∗ scopedBufs (V d (cV L) (jV L)) ∗ scopedSems0 (V d (cV L) (jV L)) ∗ owes (V d (cV L) (jV L)) (O + oxV 1 d (cV L)) W)
      ⊢ wp frame (wpE (defs₀ (F := F)) 𝒱₀ (V d (cV L) (jV L)) none) Set.univ (prog1 (F := F) L)
          fun _ => iprop(td1 m d (cL L) (jL L) ∗ scopedBufs (V d (cV L) (jV L)) ∗ scopedSems0 (V d (cV L) (jV L))
            ∗ ∃ W', ⌜∀ p ∈ W', p ∈ W ∨ p.2 = none ∨ p.2 = some (1 : Fin 2)⌝ ∗ owes (V d (cV L) (jV L)) O W') := by
  obtain ⟨hc1, hs6⟩ := conds_B L h1 h2
  unfold prog1
  simp only [cc1_sc_fields_1_eq_skeleton]; unfold cc1_sc_fields_1_skel
  rw [(K (F := F)).scopedBufs_V hF d (cV L) (jV L), SparseCore.Cfg.scopedSems0_V (Val := Elt F) d (cV L) (jV L), ownSems0_V, ownBufs_V]
  unfold bkit go1
  rw [if_neg (show ¬ (1 : Fin 2).val = 0 from by decide), if_pos (show (jL L).val < 7 from by show (L 1).val < 7; omega)]
  iintro ⟨#Hlv, ⟨⟨%κ, #Hinv⟩, Htoks, Hcred, -⟩, ⟨Hxt, Hwh, Hp0, ⟨%frow, Hrow⟩, Hat, #Hrch⟩,
    ⟨⟨⟨%f0, Hb0⟩, ⟨%f1, Hb1⟩, ⟨%f2, Hb2⟩, ⟨%f3, Hb3⟩, ⟨%f4, Hb4⟩⟩, Hbufs⟩,
    ⟨⟨Hs6, Hs7, Hs8, Hs9, Hc0, Hc1, Hc2, Hc3, Hc4, Hc5, Hc6, Hc7, Hc8, Hc9, Hc10, Hc11, Hc12, Hc13, Hc14, Hc15, Hc16⟩, Hsems⟩, HO⟩
  have hO' : ∀ g, (O + oxV 1 d (cV L)) g none = 0 := fun g => by rw [Pi.add_apply, Finsupp.add_apply, hO g, oxV_none]
  ihave Hmw1 := (show levAts (K (F := F)).L (K (F := F)).lev ⊢ Transfers.MayWaits (V d (cV L) (jV L)) (default : HIx 2) (O + oxV 1 d (cV L)) from
    (K (F := F)).mayWaits_none (thr := V d (cV L) (jV L)) hO') $$ Hlv
  ihave Hmw2 := (show levAts (K (F := F)).L (K (F := F)).lev ⊢ Transfers.MayWaits (V d (cV L) (jV L)) (default : HIx 2) O from
    (K (F := F)).mayWaits_none (thr := V d (cV L) (jV L)) hO) $$ Hlv
  -- the row as the eight pieces the task copies the zeros into
  ihave Hrow' := (Entails.of_eq (row_split (F := F) d (cT (cL L)) (jL L).val frow)) $$ Hrow
  icases Hrow' with ⟨Hr0, Hr1, Hr2, Hr3, Hr4, Hr5, Hr6, Hr7⟩
  ihave Hr0 := (Entails.of_eq (show (acc1Loc d (cT (cL L)) ↦[seg (N := 114688) (16384 * (jL L).val + 2048 * 0) 2048]{fullShare} frow : sProp 𝕄) = _ from (pts_zPiece (F := F) d L h2 0 frow).symm)) $$ Hr0
  ihave Hr1 := (Entails.of_eq (show (acc1Loc d (cT (cL L)) ↦[seg (N := 114688) (16384 * (jL L).val + 2048 * 1) 2048]{fullShare} frow : sProp 𝕄) = _ from (pts_zPiece (F := F) d L h2 1 frow).symm)) $$ Hr1
  ihave Hr2 := (Entails.of_eq (show (acc1Loc d (cT (cL L)) ↦[seg (N := 114688) (16384 * (jL L).val + 2048 * 2) 2048]{fullShare} frow : sProp 𝕄) = _ from (pts_zPiece (F := F) d L h2 2 frow).symm)) $$ Hr2
  ihave Hr3 := (Entails.of_eq (show (acc1Loc d (cT (cL L)) ↦[seg (N := 114688) (16384 * (jL L).val + 2048 * 3) 2048]{fullShare} frow : sProp 𝕄) = _ from (pts_zPiece (F := F) d L h2 3 frow).symm)) $$ Hr3
  ihave Hr4 := (Entails.of_eq (show (acc1Loc d (cT (cL L)) ↦[seg (N := 114688) (16384 * (jL L).val + 2048 * 4) 2048]{fullShare} frow : sProp 𝕄) = _ from (pts_zPiece (F := F) d L h2 4 frow).symm)) $$ Hr4
  ihave Hr5 := (Entails.of_eq (show (acc1Loc d (cT (cL L)) ↦[seg (N := 114688) (16384 * (jL L).val + 2048 * 5) 2048]{fullShare} frow : sProp 𝕄) = _ from (pts_zPiece (F := F) d L h2 5 frow).symm)) $$ Hr5
  ihave Hr6 := (Entails.of_eq (show (acc1Loc d (cT (cL L)) ↦[seg (N := 114688) (16384 * (jL L).val + 2048 * 6) 2048]{fullShare} frow : sProp 𝕄) = _ from (pts_zPiece (F := F) d L h2 6 frow).symm)) $$ Hr6
  ihave Hr7 := (Entails.of_eq (show (acc1Loc d (cT (cL L)) ↦[seg (N := 114688) (16384 * (jL L).val + 2048 * 7) 2048]{fullShare} frow : sProp 𝕄) = _ from (pts_zPiece (F := F) d L h2 7 frow).symm)) $$ Hr7
  ihave Hb2 := (Entails.of_eq (pts_val (F := F) d (cV L) (jV L) _).symm) $$ Hb2
  sl_exec
  -- the zero loop: the value scratch filled sixteen entries a trip
  sl_for (zInv (F := F) d (cV L) (jV L)) $$ [Hb2]
  case region =>
    intro k u
    unfold zInv
    iintro ⟨%f, H7, %hZ⟩
    ihave Hw := (wp_zTrip (F := F) d (cV L) (jV L) (k1_off27 k) (k1_off27_inb L k h2) f) $$ H7
    iapply (wp_mono frame _ _ (fun _ => ?post)) $$ Hw
    case post =>
      iintro H7
      iexists _; isplitl [H7]; · iexact H7
      ipureintro
      exact ZeroTo_step (F := F) d (cV L) (jV L) k.val (k1_off27 k) (k1_off27_eq k) (k1_off27_inb L k h2) f hZ
  · unfold zInv
    iexists _; isplitl [Hb2]; · iexact Hb2
    ipureintro; intro t ht; omega
  iintro %_ HI
  unfold zInv
  icases HI with ⟨%fz, Hb2, %hZ⟩
  sl_exec
  -- every entry of the value scratch is the zero word, so each landed piece is the row's own zeros
  have hP : ∀ x : S2048.Idx, tile_body_B.sl.dma0 d L fz x = Scalar.ofBits .f32 0x00000000#32 := fun x => by
    obtain ⟨t, rfl⟩ : ∃ t : Fin 2048, x = Idealize.ShloMosaic.ValueIdx.ix1 t := ⟨x 0, Idealize.ShloMosaic.ValueIdx.eq_ix1 x⟩
    exact hZ t (by have := t.isLt; rw [trips_t9]; omega)
  ihave Hr0 := (Entails.of_eq (show _ = (acc1Loc d (cT (cL L)) ↦[seg (N := 114688) (16384 * (jL L).val + 2048 * 0) 2048]{fullShare} ACC1 m d (cT (cL L)) : sProp 𝕄) from piece_zero (F := F) m d L h2 0 frow _ hP hc1 hs6)) $$ Hr0
  ihave Hr1 := (Entails.of_eq (show _ = (acc1Loc d (cT (cL L)) ↦[seg (N := 114688) (16384 * (jL L).val + 2048 * 1) 2048]{fullShare} ACC1 m d (cT (cL L)) : sProp 𝕄) from piece_zero (F := F) m d L h2 1 frow _ hP hc1 hs6)) $$ Hr1
  ihave Hr2 := (Entails.of_eq (show _ = (acc1Loc d (cT (cL L)) ↦[seg (N := 114688) (16384 * (jL L).val + 2048 * 2) 2048]{fullShare} ACC1 m d (cT (cL L)) : sProp 𝕄) from piece_zero (F := F) m d L h2 2 frow _ hP hc1 hs6)) $$ Hr2
  ihave Hr3 := (Entails.of_eq (show _ = (acc1Loc d (cT (cL L)) ↦[seg (N := 114688) (16384 * (jL L).val + 2048 * 3) 2048]{fullShare} ACC1 m d (cT (cL L)) : sProp 𝕄) from piece_zero (F := F) m d L h2 3 frow _ hP hc1 hs6)) $$ Hr3
  ihave Hr4 := (Entails.of_eq (show _ = (acc1Loc d (cT (cL L)) ↦[seg (N := 114688) (16384 * (jL L).val + 2048 * 4) 2048]{fullShare} ACC1 m d (cT (cL L)) : sProp 𝕄) from piece_zero (F := F) m d L h2 4 frow _ hP hc1 hs6)) $$ Hr4
  ihave Hr5 := (Entails.of_eq (show _ = (acc1Loc d (cT (cL L)) ↦[seg (N := 114688) (16384 * (jL L).val + 2048 * 5) 2048]{fullShare} ACC1 m d (cT (cL L)) : sProp 𝕄) from piece_zero (F := F) m d L h2 5 frow _ hP hc1 hs6)) $$ Hr5
  ihave Hr6 := (Entails.of_eq (show _ = (acc1Loc d (cT (cL L)) ↦[seg (N := 114688) (16384 * (jL L).val + 2048 * 6) 2048]{fullShare} ACC1 m d (cT (cL L)) : sProp 𝕄) from piece_zero (F := F) m d L h2 6 frow _ hP hc1 hs6)) $$ Hr6
  ihave Hr7 := (Entails.of_eq (show _ = (acc1Loc d (cT (cL L)) ↦[seg (N := 114688) (16384 * (jL L).val + 2048 * 7) 2048]{fullShare} ACC1 m d (cT (cL L)) : sProp 𝕄) from piece_zero (F := F) m d L h2 7 frow _ hP hc1 hs6)) $$ Hr7
  ihave Hrow := (Entails.of_eq (row_split (F := F) d (cT (cL L)) (jL L).val (ACC1 m d (cT (cL L)))).symm) $$ [Hr0 Hr1 Hr2 Hr3 Hr4 Hr5 Hr6 Hr7]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  ihave Hb2 := (Entails.of_eq (pts_val (F := F) d (cV L) (jV L) fz)) $$ Hb2
  have hs7 : (L 1).val < 7 := by omega
  ihave Hpay := (Entails.of_eq (show (acc1Loc d (cT (cL L)) ↦[seg (N := 114688) (16384 * (jL L).val) 16384]{fullShare} ACC1 m d (cT (cL L)) : sProp 𝕄) = _ from
      pays_row (F := F) m d (cV L) (jV L).val hs7)) $$ Hrow
  -- the waits recorded so far: all at index none
  ihave HOg := (gen_waits (F := F) _ _ _) $$ HO
  icases HOg with ⟨%W₁, %hW₁e, HO⟩
  have hW₁ : ∀ p ∈ W₁, p ∈ W ∨ p.2 = none := by
    subst hW₁e; intro p hp
    repeat (first | exact .inl hp | (rcases Finset.mem_insert.mp hp with e | hp; · exact .inr (by rw [e]; rfl)))
  clear hW₁e
  -- the barrier: the sixteen payloads handed over; its own round's seven column blocks received
  iapply (SparseCore.wp_subcoreBarrier 𝒱₀ none EB (bRd (F := F) m) d (sc := cV L) (i := jV L) sc_bar0 (grid1.bound 1) hsub1 (L 1) rfl κ (fun _ => 1) (jV L).val
      (fun j => bRd_mem m d _ _ _ (by decide)) (fun _ => rfl) (bRd_expect m d _ _ (by decide)) (some 1) O _) $$ [HO Htoks Hpay Hcred Hat]
  · isplitr; · iexact Hinv
    isplitl [HO]; · iexact HO
    isplitl [Htoks Hpay]
    · rw [bigSep_sep', bigSep_sep']
      isplitl [Htoks]; · iexact Htoks
      isplitl [Hpay]; · iexact Hpay
      iexact Hrch
    isplitl [Hcred]; · iexact Hcred
    isplitl [Hat]; · iexact Hat
    iapply ((K (F := F)).mayOwe_of_bound (thr := V d (cV L) (jV L)) 11 (fun p hp => by
        rw [Finset.mem_singleton] at hp; subst hp
        show (K (F := F)).lev (bcell d (cV L) (jV L)) (some 1) ≤ 11
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, Hrch1, Hgot⟩
  ihave Hcols := (pays_got m d (cV L) (jV L)) $$ Hgot
  icases Hcols with ⟨Hq0, Hq1, Hq2, Hq3, Hq4, Hq5, Hq6⟩
  -- each column block in two halves, the reduce scratch in seven windows, as the copies name them
  have l0 : 0 < 7 := by decide
  have l1 : 1 < 7 := by decide
  have l2 : 2 < 7 := by decide
  have l3 : 3 < 7 := by decide
  have l4 : 4 < 7 := by decide
  have l5 : 5 < 7 := by decide
  have l6 : 6 < 7 := by decide
  ihave Hh0 := (Entails.of_eq (acc_halves (F := F) d L 0 l0 _)) $$ Hq0
  icases Hh0 with ⟨Ha0, Hz0⟩
  ihave Hh1 := (Entails.of_eq (acc_halves (F := F) d L 1 l1 _)) $$ Hq1
  icases Hh1 with ⟨Ha1, Hz1⟩
  ihave Hh2 := (Entails.of_eq (acc_halves (F := F) d L 2 l2 _)) $$ Hq2
  icases Hh2 with ⟨Ha2, Hz2⟩
  ihave Hh3 := (Entails.of_eq (acc_halves (F := F) d L 3 l3 _)) $$ Hq3
  icases Hh3 with ⟨Ha3, Hz3⟩
  ihave Hh4 := (Entails.of_eq (acc_halves (F := F) d L 4 l4 _)) $$ Hq4
  icases Hh4 with ⟨Ha4, Hz4⟩
  ihave Hh5 := (Entails.of_eq (acc_halves (F := F) d L 5 l5 _)) $$ Hq5
  icases Hh5 with ⟨Ha5, Hz5⟩
  ihave Hh6 := (Entails.of_eq (acc_halves (F := F) d L 6 l6 _)) $$ Hq6
  icases Hh6 with ⟨Ha6, Hz6⟩
  ihave Hw := (Entails.of_eq (scr3_windows (F := F) d L f3)) $$ Hb3
  icases Hw with ⟨Hd0, Hd1, Hd2, Hd3, Hd4, Hd5, Hd6⟩
  haveI hst0 : ∀ t : Fin 7, BI.Storable (upEmb : UEmb _ 𝕄) (deliv (F := F) d L 0 (fun _ => ACC1 m d (cV L)) (fun _ => f3) t) :=
    fun t => deliv_storable (F := F) d L 0 _ _ t
  imod (Transfers.batch_alloc' (Lvl := ℕ) countersEmb (V d (cV L) (jV L)) (default : HIx 2) NW (deliv (F := F) d L 0 (fun _ => ACC1 m d (cV L)) (fun _ => f3))
    (sm := .dma cc1_scratch6.sem) (E := Set.univ)) $$ Hs6 with HB
  sl_exec
  -- the seven windows landed: the reduce scratch whole again, at one function
  ihave Hg := (windows_join (F := F) d L (fun n => landedJ (F := F) d L 0 n (ACC1 m d (cV L))) ) $$ [HB_dst0 HB_dst1 HB_dst2 HB_dst3 HB_dst4 HB_dst5 HB_dst6]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    iexact HB_dst6
  icases Hg with ⟨%g, %hg, Hg⟩
  ihave Hb4' := (Entails.of_eq (show ((V d (cV L) (jV L)).loc cc1_scratch4 ↦{fullShare} f4 : sProp 𝕄) = ((Memref.whole cc1_scratch4).view.loc (V d (cV L) (jV L)) ↦{fullShare} f4) from rfl)) $$ Hb4
  sl_for (invR (F := F) m d L 0 g) $$ [Hg Hb4']
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g (ValueIdx.ix1 (⟨512 * n.val + j, by have := n.isLt; omega⟩ : Fin 3584))
        = accAt (XT m d) (WH1 m d) 13 (cV L).val n.val (1024 * (L 1).val + 0 + j) := fun n j hj => hgv_of (F := F) m d L 0 g hg n j hj
    exact step_gen_1 d (cV L) (jV L) (XT m d) (WH1 m d) 13 (cV L).val (L 1).val 0 k.val hkt (by omega) k1_pay3
      (fun v0 v1 v2 v3 v4 v5 v6 l b h0 h1 h2 h3 h4 h5 h6 => pay3_partAt_k1 (XT m d) (WH1 m d) 13 (cV L).val b v0 v1 v2 v3 v4 v5 v6 l h0 h1 h2 h3 h4 h5 h6)
      g h _ _ ((Gen.k1_off32_eq k).trans (vec1 _ _ (by omega)))
      _ _ ((Gen.k1_off30_eq k).trans (vec1 _ _ (by omega)))
      _ _ ((Gen.k1_off31_eq k ⟨0, by decide⟩).trans (vec1 _ _ (by show 512 * 0 + 16 * k.val + 512 = 512 * 1 + 16 * k.val; omega)))
      _ _ ((Gen.k1_off31_eq k ⟨1, by decide⟩).trans (vec1 _ _ (by show 512 * 1 + 16 * k.val + 512 = 512 * 2 + 16 * k.val; omega)))
      _ _ ((Gen.k1_off31_eq k ⟨2, by decide⟩).trans (vec1 _ _ (by show 512 * 2 + 16 * k.val + 512 = 512 * 3 + 16 * k.val; omega)))
      _ _ ((Gen.k1_off31_eq k ⟨3, by decide⟩).trans (vec1 _ _ (by show 512 * 3 + 16 * k.val + 512 = 512 * 4 + 16 * k.val; omega)))
      _ _ ((Gen.k1_off31_eq k ⟨4, by decide⟩).trans (vec1 _ _ (by show 512 * 4 + 16 * k.val + 512 = 512 * 5 + 16 * k.val; omega)))
      _ _ ((Gen.k1_off31_eq k ⟨5, by decide⟩).trans (vec1 _ _ (by show 512 * 5 + 16 * k.val + 512 = 512 * 6 + 16 * k.val; omega)))
      hgv' hh
  · unfold invR
    isplitl [Hg]; · iexact Hg
    iexists f4
    isplitl [Hb4']; · iexact Hb4'
    ipureintro; intro k hk; exact absurd hk (by omega)
  iintro %_ HI
  unfold invR
  icases HI with ⟨Hg, ⟨%h1, Hh, %hh1⟩⟩
  -- the second batch: the other halves into the same seven windows
  ihave Hg' := (Entails.of_eq (show ((Memref.whole cc1_scratch3).view.loc (V d (cV L) (jV L)) ↦{fullShare} g : sProp 𝕄) = ((V d (cV L) (jV L)).loc cc1_scratch3 ↦{fullShare} g) from rfl)) $$ Hg
  ihave Hw2 := (Entails.of_eq (scr3_windows (F := F) d L g)) $$ Hg'
  icases Hw2 with ⟨He0, He1, He2, He3, He4, He5, He6⟩
  ihave HB' := (show (semVal ((V d (cV L) (jV L), SemLoc.dma cc1_scratch6.sem) : GSem nD τ sig) 0 : sProp 𝕄) ⊢ semVal ((V d (cV L) (jV L), SemLoc.dma cc1_scratch6.sem) : GSem nD τ sig) 0 from BI.Entails.refl _) $$ [HB]
  · iexact HB
  haveI hst1 : ∀ t : Fin 7, BI.Storable (upEmb : UEmb _ 𝕄) (deliv (F := F) d L 1 (fun _ => ACC1 m d (cV L)) (fun _ => g) t) :=
    fun t => deliv_storable (F := F) d L 1 _ _ t
  imod (Transfers.batch_alloc' (Lvl := ℕ) countersEmb (V d (cV L) (jV L)) (default : HIx 2) NW (deliv (F := F) d L 1 (fun _ => ACC1 m d (cV L)) (fun _ => g))
    (sm := .dma cc1_scratch6.sem) (E := Set.univ)) $$ HB' with HC
  sl_exec
  ihave Hg2J := (windows_join (F := F) d L (fun n => landedJ (F := F) d L 1 n (ACC1 m d (cV L)))) $$ [HC_dst0 HC_dst1 HC_dst2 HC_dst3 HC_dst4 HC_dst5 HC_dst6]
  · isplitl [HC_dst0]; · iexact HC_dst0
    isplitl [HC_dst1]; · iexact HC_dst1
    isplitl [HC_dst2]; · iexact HC_dst2
    isplitl [HC_dst3]; · iexact HC_dst3
    isplitl [HC_dst4]; · iexact HC_dst4
    isplitl [HC_dst5]; · iexact HC_dst5
    iexact HC_dst6
  icases Hg2J with ⟨%g2, %hg2, Hg2⟩
  sl_for (invR (F := F) m d L 512 g2) $$ [Hg2 Hh]
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g2 (ValueIdx.ix1 (⟨512 * n.val + j, by have := n.isLt; omega⟩ : Fin 3584))
        = accAt (XT m d) (WH1 m d) 13 (cV L).val n.val (1024 * (L 1).val + 512 + j) := fun n j hj => hgv_of (F := F) m d L 1 g2 hg2 n j hj
    exact step_gen_1 d (cV L) (jV L) (XT m d) (WH1 m d) 13 (cV L).val (L 1).val 512 k.val hkt (by omega) k1_pay1
      (fun v0 v1 v2 v3 v4 v5 v6 l b h0 h1 h2 h3 h4 h5 h6 => pay1_partAt_k1 (XT m d) (WH1 m d) 13 (cV L).val b v0 v1 v2 v3 v4 v5 v6 l h0 h1 h2 h3 h4 h5 h6)
      g2 h _ _ ((Gen.k1_off35_eq k).trans (vec1 _ _ (by omega)))
      _ _ ((Gen.k1_off33_eq k).trans (vec1 _ _ (by omega)))
      _ _ ((Gen.k1_off34_eq k ⟨0, by decide⟩).trans (vec1 _ _ (by show 512 * 0 + 16 * k.val + 512 = 512 * 1 + 16 * k.val; omega)))
      _ _ ((Gen.k1_off34_eq k ⟨1, by decide⟩).trans (vec1 _ _ (by show 512 * 1 + 16 * k.val + 512 = 512 * 2 + 16 * k.val; omega)))
      _ _ ((Gen.k1_off34_eq k ⟨2, by decide⟩).trans (vec1 _ _ (by show 512 * 2 + 16 * k.val + 512 = 512 * 3 + 16 * k.val; omega)))
      _ _ ((Gen.k1_off34_eq k ⟨3, by decide⟩).trans (vec1 _ _ (by show 512 * 3 + 16 * k.val + 512 = 512 * 4 + 16 * k.val; omega)))
      _ _ ((Gen.k1_off34_eq k ⟨4, by decide⟩).trans (vec1 _ _ (by show 512 * 4 + 16 * k.val + 512 = 512 * 5 + 16 * k.val; omega)))
      _ _ ((Gen.k1_off34_eq k ⟨5, by decide⟩).trans (vec1 _ _ (by show 512 * 5 + 16 * k.val + 512 = 512 * 6 + 16 * k.val; omega)))
      hgv' hh
  · unfold invR
    isplitl [Hg2]; · iexact Hg2
    iexists h1
    isplitl [Hh]; · iexact Hh
    ipureintro; intro k hk; exact hh1 k (by show k.val < 0 + 16 * 32; omega)
  iintro %_ HI2
  unfold invR
  icases HI2 with ⟨Hg2, ⟨%h2, Hh, %hh2⟩⟩
  -- the write-out: the output scratch into the tile's 1024 entries of the result
  ihave Hp0' := (Entails.of_eq (pts_poK (F := F) d L _).symm) $$ Hp0
  sl_exec
  have hfull : ∀ k : Fin 1024, (show F .f32 from h2 (ValueIdx.ix1 k)) = partAt (XT m d) (WH1 m d) 13 (L 0).val (1024 * (L 1).val + k.val) :=
    fun k => hh2 k (by have := k.isLt; show k.val < 512 + 16 * 32; omega)
  ihave Hp0 := (Entails.of_eq (show (_ : sProp 𝕄) = (p1Loc d ↦[seg (N := 32768) (16384 * (cL L).val + 1024 * (jL L).val) 1024]{fullShare} PT1 m d) from
    (pts_poK (F := F) d L _).trans (pointsTo_congr (by exact out_landed (F := F) m d (cV L) (jV L) (L 0).val (L 1).val (L 0).isLt (L 1).isLt _ _ (k1_off36_eq L) _ h2 hfull)))) $$ Hp0'
  -- the column blocks whole again, the scratches as the launch names them
  ihave Hq0 := (Entails.of_eq (acc_halves (F := F) d L 0 l0 (ACC1 m d (cV L))).symm) $$ [HB_src0 HC_src0]
  · isplitl [HB_src0]; · iexact HB_src0
    iexact HC_src0
  ihave Hq1 := (Entails.of_eq (acc_halves (F := F) d L 1 l1 (ACC1 m d (cV L))).symm) $$ [HB_src1 HC_src1]
  · isplitl [HB_src1]; · iexact HB_src1
    iexact HC_src1
  ihave Hq2 := (Entails.of_eq (acc_halves (F := F) d L 2 l2 (ACC1 m d (cV L))).symm) $$ [HB_src2 HC_src2]
  · isplitl [HB_src2]; · iexact HB_src2
    iexact HC_src2
  ihave Hq3 := (Entails.of_eq (acc_halves (F := F) d L 3 l3 (ACC1 m d (cV L))).symm) $$ [HB_src3 HC_src3]
  · isplitl [HB_src3]; · iexact HB_src3
    iexact HC_src3
  ihave Hq4 := (Entails.of_eq (acc_halves (F := F) d L 4 l4 (ACC1 m d (cV L))).symm) $$ [HB_src4 HC_src4]
  · isplitl [HB_src4]; · iexact HB_src4
    iexact HC_src4
  ihave Hq5 := (Entails.of_eq (acc_halves (F := F) d L 5 l5 (ACC1 m d (cV L))).symm) $$ [HB_src5 HC_src5]
  · isplitl [HB_src5]; · iexact HB_src5
    iexact HC_src5
  ihave Hq6 := (Entails.of_eq (acc_halves (F := F) d L 6 l6 (ACC1 m d (cV L))).symm) $$ [HB_src6 HC_src6]
  · isplitl [HB_src6]; · iexact HB_src6
    iexact HC_src6
  ihave Hb3 := (Entails.of_eq (show ((Memref.whole cc1_scratch3).view.loc (V d (cV L) (jV L)) ↦{fullShare} g2 : sProp 𝕄) = ((V d (cV L) (jV L)).loc cc1_scratch3 ↦{fullShare} g2) from rfl)) $$ Hg2
  ihave Hb4 := (Entails.of_eq (show ((Memref.whole cc1_scratch4).view.loc (V d (cV L) (jV L)) ↦{fullShare} h2 : sProp 𝕄) = ((V d (cV L) (jV L)).loc cc1_scratch4 ↦{fullShare} h2) from rfl)) $$ Hh
  -- the waits recorded: all at index none, or the barrier's
  ihave HOg := (gen_waits (F := F) _ _ _) $$ HO
  icases HOg with ⟨%W₂, %hW₂e, HO⟩
  have hW₂ : ∀ p ∈ W₂, p ∈ W ∨ p.2 = none ∨ p.2 = some (1 : Fin 2) := by
    subst hW₂e; intro p hp
    repeat (first | exact (hW₁ p hp).imp_right Or.inl | (rcases Finset.mem_insert.mp hp with e | hp; · first | exact .inr (.inl (by rw [e]; rfl)) | exact .inr (.inr (by rw [e]))))
  sl_step
  iapply (post_intro' (F := F) m d L hF O W W₂ hW₂) $$ [Hxt Hwh Hp0 Hq0 Hq1 Hq2 Hq3 Hq4 Hq5 Hq6 Hat Hrch1 Hb0 Hb1 Hb2 Hb3 Hb4 Hbufs HC Hs7 Hs8 Hs9 Hc0 Hc1 Hc2 Hc3 Hc4 Hc5 Hc6 Hc7 Hc8 Hc9 Hc10 Hc11 Hc12 Hc13 Hc14 Hc15 Hc16 Hsems HO]
  isplitl [Hxt]; · iexact Hxt
  isplitl [Hwh]; · iexact Hwh
  isplitl [Hp0]; · iexact Hp0
  isplitl [Hq0 Hq1 Hq2 Hq3 Hq4 Hq5 Hq6]
  · isplitl [Hq0]; · iexists _; iexact Hq0
    isplitl [Hq1]; · iexists _; iexact Hq1
    isplitl [Hq2]; · iexists _; iexact Hq2
    isplitl [Hq3]; · iexists _; iexact Hq3
    isplitl [Hq4]; · iexists _; iexact Hq4
    isplitl [Hq5]; · iexists _; iexact Hq5
    iexists _; iexact Hq6
  isplitl [Hat]; · iexact Hat
  isplitl [Hrch1]; · iexact Hrch1
  isplitl [Hb0 Hb1 Hb2 Hb3 Hb4]
  · isplitl [Hb0]; · iexists _; iexact Hb0
    isplitl [Hb1]; · iexists _; iexact Hb1
    isplitl [Hb2]; · iexists _; iexact Hb2
    isplitl [Hb3]; · iexists _; iexact Hb3
    iexists _; iexact Hb4
  isplitl [Hbufs]; · iexact Hbufs
  isplitl [HC Hs7 Hs8 Hs9 Hc0 Hc1 Hc2 Hc3 Hc4 Hc5 Hc6 Hc7 Hc8 Hc9 Hc10 Hc11 Hc12 Hc13 Hc14 Hc15 Hc16]
  · isplitl [HC]; · iexact HC
    isplitl [Hs7]; · iexact Hs7
    isplitl [Hs8]; · iexact Hs8
    isplitl [Hs9]; · iexact Hs9
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    iexact Hc16
  isplitl [Hsems]; · iexact Hsems
  iexact HO

set_option maxHeartbeats 4000000 in
theorem tile_body_A (h1 : k1_cond1 L = 1#1) (hx : InRange m) (hF : (K (F := F)).Facts) (O : CellTallies nD τ sig (HIx 2)) (W : Waits sig (HIx 2)) (hO : ∀ g, O g none = 0)
    (hOlev : ∀ g ι, 0 < O g ι → 8 * (1 : Fin 2).val + 6 ≤ (K (F := F)).lev g ι) :
    iprop(levAts (K (F := F)).L (K (F := F)).lev ∗ bkit m 1 d (cV L) (jV L) ∗ go1 m d (cL L) (jL L)
        ∗ scopedBufs (V d (cV L) (jV L)) ∗ scopedSems0 (V d (cV L) (jV L)) ∗ owes (V d (cV L) (jV L)) (O + oxV 1 d (cV L)) W)
      ⊢ wp frame (wpE (defs₀ (F := F)) 𝒱₀ (V d (cV L) (jV L)) none) Set.univ (prog1 (F := F) L)
          fun _ => iprop(td1 m d (cL L) (jL L) ∗ scopedBufs (V d (cV L) (jV L)) ∗ scopedSems0 (V d (cV L) (jV L))
            ∗ ∃ W', ⌜∀ p ∈ W', p ∈ W ∨ p.2 = none ∨ p.2 = some (1 : Fin 2)⌝ ∗ owes (V d (cV L) (jV L)) O W') := by
  obtain ⟨hs7, hcs, h2⟩ := conds_A L h1
  have hc2 : (L 0).val < 2 := (L 0).isLt
  unfold prog1
  simp only [cc1_sc_fields_1_eq_skeleton]; unfold cc1_sc_fields_1_skel
  rw [(K (F := F)).scopedBufs_V hF d (cV L) (jV L), SparseCore.Cfg.scopedSems0_V (Val := Elt F) d (cV L) (jV L), ownSems0_V, ownBufs_V]
  unfold bkit go1
  rw [if_neg (show ¬ (1 : Fin 2).val = 0 from by decide), if_pos (show (jL L).val < 7 from hs7)]
  iintro ⟨#Hlv, ⟨⟨%κ, #Hinv⟩, Htoks, Hcred, -⟩, ⟨Hxt, Hwh, Hp0, ⟨%frow, Hrow⟩, Hat, #Hrch⟩,
    ⟨⟨⟨%f0, Hb0⟩, ⟨%f1, Hb1⟩, ⟨%f2, Hb2⟩, ⟨%f3, Hb3⟩, ⟨%f4, Hb4⟩⟩, Hbufs⟩,
    ⟨⟨Hs6, Hs7, Hs8, Hs9, Hc0, Hc1, Hc2, Hc3, Hc4, Hc5, Hc6, Hc7, Hc8, Hc9, Hc10, Hc11, Hc12, Hc13, Hc14, Hc15, Hc16⟩, Hsems⟩, HO⟩
  have hO' : ∀ g, (O + oxV 1 d (cV L)) g none = 0 := fun g => by rw [Pi.add_apply, Finsupp.add_apply, hO g, oxV_none]
  ihave Hmw1 := (show levAts (K (F := F)).L (K (F := F)).lev ⊢ Transfers.MayWaits (V d (cV L) (jV L)) (default : HIx 2) (O + oxV 1 d (cV L)) from
    (K (F := F)).mayWaits_none (thr := V d (cV L) (jV L)) hO') $$ Hlv
  ihave Hmw2 := (show levAts (K (F := F)).L (K (F := F)).lev ⊢ Transfers.MayWaits (V d (cV L) (jV L)) (default : HIx 2) O from
    (K (F := F)).mayWaits_none (thr := V d (cV L) (jV L)) hO) $$ Hlv
  -- the row as the eight pieces the task copies into, the index scratch as its two slots
  ihave Hrow' := (Entails.of_eq (row_split (F := F) d (cT (cL L)) (jL L).val frow)) $$ Hrow
  icases Hrow' with ⟨Hr0, Hr1, Hr2, Hr3, Hr4, Hr5, Hr6, Hr7⟩
  ihave Hr0 := (Entails.of_eq (show (acc1Loc d (cT (cL L)) ↦[seg (N := 114688) (16384 * (jL L).val + 2048 * 0) 2048]{fullShare} frow : sProp 𝕄) = _ from (pts_rowPiece (F := F) d L h1 0 frow).symm)) $$ Hr0
  ihave Hr1 := (Entails.of_eq (show (acc1Loc d (cT (cL L)) ↦[seg (N := 114688) (16384 * (jL L).val + 2048 * 1) 2048]{fullShare} frow : sProp 𝕄) = _ from (pts_rowPiece (F := F) d L h1 1 frow).symm)) $$ Hr1
  ihave Hr2 := (Entails.of_eq (show (acc1Loc d (cT (cL L)) ↦[seg (N := 114688) (16384 * (jL L).val + 2048 * 2) 2048]{fullShare} frow : sProp 𝕄) = _ from (pts_rowPiece (F := F) d L h1 2 frow).symm)) $$ Hr2
  ihave Hr3 := (Entails.of_eq (show (acc1Loc d (cT (cL L)) ↦[seg (N := 114688) (16384 * (jL L).val + 2048 * 3) 2048]{fullShare} frow : sProp 𝕄) = _ from (pts_rowPiece (F := F) d L h1 3 frow).symm)) $$ Hr3
  ihave Hr4 := (Entails.of_eq (show (acc1Loc d (cT (cL L)) ↦[seg (N := 114688) (16384 * (jL L).val + 2048 * 4) 2048]{fullShare} frow : sProp 𝕄) = _ from (pts_rowPiece (F := F) d L h1 4 frow).symm)) $$ Hr4
  ihave Hr5 := (Entails.of_eq (show (acc1Loc d (cT (cL L)) ↦[seg (N := 114688) (16384 * (jL L).val + 2048 * 5) 2048]{fullShare} frow : sProp 𝕄) = _ from (pts_rowPiece (F := F) d L h1 5 frow).symm)) $$ Hr5
  ihave Hr6 := (Entails.of_eq (show (acc1Loc d (cT (cL L)) ↦[seg (N := 114688) (16384 * (jL L).val + 2048 * 6) 2048]{fullShare} frow : sProp 𝕄) = _ from (pts_rowPiece (F := F) d L h1 6 frow).symm)) $$ Hr6
  ihave Hr7 := (Entails.of_eq (show (acc1Loc d (cT (cL L)) ↦[seg (N := 114688) (16384 * (jL L).val + 2048 * 7) 2048]{fullShare} frow : sProp 𝕄) = _ from (pts_rowPiece (F := F) d L h1 7 frow).symm)) $$ Hr7
  ihave Hx := (x_split (F := F) d (cV L) (jV L) f1).1 $$ Hb1
  icases Hx with ⟨Hx0, Hx1⟩
  ihave Hxt := (Entails.of_eq (pts_xt (F := F) d (cV L) (jV L) _ _).symm) $$ Hxt
  ihave Hwh := (Entails.of_eq (pts_wh (F := F) d (cV L) (jV L) _ _).symm) $$ Hwh
  ihave Hp0 := (Entails.of_eq (pts_poK (F := F) d L _).symm) $$ Hp0
  ihave Hb0 := (Entails.of_eq (pts_sub (F := F) d (cV L) (jV L) _).symm) $$ Hb0
  ihave Hb2 := (Entails.of_eq (pts_val (F := F) d (cV L) (jV L) _).symm) $$ Hb2
  ihave Hb3 := (Entails.of_eq (pts_red (F := F) d (cV L) (jV L) _).symm) $$ Hb3
  ihave Hb4 := (Entails.of_eq (pts_out (F := F) d (cV L) (jV L) _).symm) $$ Hb4
  sl_exec
  -- the table scratch holds the field's 100000 entries
  have hfsub : SubHolds m d (cV L) (jV L) (7 * (L 0).val + (L 1).val) ((subM).view.writes (Elt F) f0 [⟨Rect.unit (s := S100096) ![0] S100000.size inb_S100096_S100000_0, tile_body_A.sl.dma0 m d L h1⟩]) := by
    unfold tile_body_A.sl.dma0
    exact subholds_landed (F := F) m d (cV L) (jV L) (7 * (L 0).val + (L 1).val) _ _ (by rw [k1_off1_eq]; congr 1; omega) _
  generalize ((subM).view.writes (Elt F) f0 [⟨Rect.unit (s := S100096) ![0] S100000.size inb_S100096_S100000_0, tile_body_A.sl.dma0 m d L h1⟩]) = fsub at hfsub ⊢
  -- chunk 0: slot 0 of the index scratch has it; the loop looks its 2048 indices up
  have hfx0 : XHolds m d (cV L) (jV L) 0 0 (7 * (L 0).val + (L 1).val + 13) ((xSlot0).view.writes (Elt F) (xSlot0).view.junk [⟨Rect.whole S2048, tile_body_A.sl.dma0_1 m d L h1⟩]) := by
    unfold tile_body_A.sl.dma0_1
    exact xholds_landed (F := F) m d (cV L) (jV L) 0 0 (7 * (L 0).val + (L 1).val + 13) _ _ rfl _ _ (k1_off2_eq L) _
  generalize ((xSlot0).view.writes (Elt F) (xSlot0).view.junk [⟨Rect.whole S2048, tile_body_A.sl.dma0_1 m d L h1⟩]) = fx0 at hfx0 ⊢
  sl_for (gInv (F := F) d (cV L) (jV L) (xSlot0).view.set fx0 fsub (Good m d (cV L) (jV L) (L 0).val (L 1).val 0)) $$ [Hx0 Hb0 Hb2]
  case region =>
    intro k u
    unfold gInv
    iintro ⟨H6, H5, %f, H7, %hG⟩
    have hk : k.val < 128 := lt_of_lt_of_le k.isLt k1_t1_abs.2.1
    have hoffX : k1_off4 k = ![2048 * 0 + 16 * k.val] := by rw [k1_off4_eq, show 2048 * 0 + 16 * k.val = 16 * k.val by omega]
    have hoffV : k1_off5 k = ![16 * k.val] := k1_off5_eq k
    have hS6 : (xM).view.setOn (Rect.unit (s := S4096) (k1_off4 k) S16.size (k1_off4_inb L k h1)).toLoadRect.set ⊆ (xSlot0).view.set := by
      rw [set_xSlot0]; exact box_sub_slot 0 k.val _ _ hoffX hk
    have hin := chk_of_holds (F := F) m d (cV L) (jV L) 0 0 (7 * (L 0).val + (L 1).val + 13) k.val (by decide) (by decide) (by omega) hk hx _ (k1_off4_inb L k h1) hoffX fx0 hfx0
    have hP : k1_chk1 L (gIdx (F := F) d (cV L) (jV L) (k1_off4 k) (k1_off4_inb L k h1) fx0) := fun _ => hin
    ihave Hw := (wp_gTrip (F := F) d (cV L) (jV L) (k1_off4 k) (k1_off5 k) (k1_off4_inb L k h1) (k1_off5_inb L k h1) (k1_chk1 L) (k1_chk1.dec L)
        (fun v hw => k1_idx1_inb L v hw h1) (xSlot0).view.set fx0 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 0 0 k.val hc2 (by omega) (by decide) (by decide) hk hx _ _ _ _ hoffX hoffV fx0 fsub f (by have e : 7 * (L 0).val + (L 1).val + 13 = 13 + 7 * (L 0).val + (L 1).val := (by omega); rw [← e]; exact hfx0) hfsub hG _
  · unfold gInv
    isplitl [Hx0]; · iexact Hx0
    isplitl [Hb0]; · iexact Hb0
    iexists _; isplitl [Hb2]; · iexact Hb2
    ipureintro; intro t ht; exact absurd ht (by omega)
  iintro %_ HI
  unfold gInv
  icases HI with ⟨Hx0, Hb0, %fv1, Hb2, %hG1⟩
  ihave Hx0 := (Entails.of_eq (show ((xM).view.loc (V d (cV L) (jV L)) ↦[(xSlot0).view.set]{fullShare} fx0 : sProp 𝕄)
      = ((xSlot0).view.loc (V d (cV L) (jV L)) ↦[(xSlot0).view.set]{fullShare} fx0) from rfl)) $$ Hx0
  sl_exec
  -- chunk 1: slot 1 of the index scratch has it; the loop looks its 2048 indices up
  have hfx1 : XHolds m d (cV L) (jV L) 1 1 (7 * (L 0).val + (L 1).val + 13) ((xSlot1).view.writes (Elt F) (xSlot1).view.junk [⟨Rect.whole S2048, tile_body_A.sl.dma0_2 m d L h1⟩]) := by
    unfold tile_body_A.sl.dma0_2
    exact xholds_landed (F := F) m d (cV L) (jV L) 1 1 (7 * (L 0).val + (L 1).val + 13) _ _ rfl _ _ (k1_off3_eq L) _
  generalize ((xSlot1).view.writes (Elt F) (xSlot1).view.junk [⟨Rect.whole S2048, tile_body_A.sl.dma0_2 m d L h1⟩]) = fx1 at hfx1 ⊢
  sl_for (gInv (F := F) d (cV L) (jV L) (xSlot1).view.set fx1 fsub (Good m d (cV L) (jV L) (L 0).val (L 1).val 1)) $$ [Hx1 Hb0 Hb2]
  case region =>
    intro k u
    unfold gInv
    iintro ⟨H6, H5, %f, H7, %hG⟩
    have hk : k.val < 128 := lt_of_lt_of_le k.isLt k1_t2_abs.2.1
    have hoffX : k1_off8 k = ![2048 * 1 + 16 * k.val] := by rw [k1_off8_eq, show 2048 * 1 + 16 * k.val = 16 * k.val + 2048 by omega]
    have hoffV : k1_off9 k = ![16 * k.val] := k1_off9_eq k
    have hS6 : (xM).view.setOn (Rect.unit (s := S4096) (k1_off8 k) S16.size (k1_off8_inb L k h1)).toLoadRect.set ⊆ (xSlot1).view.set := by
      rw [set_xSlot1]; exact box_sub_slot 1 k.val _ _ hoffX hk
    have hin := chk_of_holds (F := F) m d (cV L) (jV L) 1 1 (7 * (L 0).val + (L 1).val + 13) k.val (by decide) (by decide) (by omega) hk hx _ (k1_off8_inb L k h1) hoffX fx1 hfx1
    have hP : k1_chk2 L (gIdx (F := F) d (cV L) (jV L) (k1_off8 k) (k1_off8_inb L k h1) fx1) := fun _ => hin
    ihave Hw := (wp_gTrip (F := F) d (cV L) (jV L) (k1_off8 k) (k1_off9 k) (k1_off8_inb L k h1) (k1_off9_inb L k h1) (k1_chk2 L) (k1_chk2.dec L)
        (fun v hw => k1_idx2_inb L v hw h1) (xSlot1).view.set fx1 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 1 1 k.val hc2 (by omega) (by decide) (by decide) hk hx _ _ _ _ hoffX hoffV fx1 fsub f (by have e : 7 * (L 0).val + (L 1).val + 13 = 13 + 7 * (L 0).val + (L 1).val := (by omega); rw [← e]; exact hfx1) hfsub hG _
  · unfold gInv
    isplitl [Hx1]; · iexact Hx1
    isplitl [Hb0]; · iexact Hb0
    iexists _; isplitl [Hb2]; · iexact Hb2
    ipureintro; intro t ht; exact absurd ht (by omega)
  iintro %_ HI
  unfold gInv
  icases HI with ⟨Hx1, Hb0, %fv2, Hb2, %hG2⟩
  ihave Hx1 := (Entails.of_eq (show ((xM).view.loc (V d (cV L) (jV L)) ↦[(xSlot1).view.set]{fullShare} fx1 : sProp 𝕄)
      = ((xSlot1).view.loc (V d (cV L) (jV L)) ↦[(xSlot1).view.set]{fullShare} fx1) from rfl)) $$ Hx1
  sl_exec
  -- chunk 2: slot 0 of the index scratch has it; the loop looks its 2048 indices up
  have hfx2 : XHolds m d (cV L) (jV L) 0 2 (7 * (L 0).val + (L 1).val + 13) ((xSlot0).view.writes (Elt F) (xSlot0).view.junk [⟨Rect.whole S2048, tile_body_A.sl.dma0_4 m d L h1⟩]) := by
    unfold tile_body_A.sl.dma0_4
    exact xholds_landed (F := F) m d (cV L) (jV L) 0 2 (7 * (L 0).val + (L 1).val + 13) _ _ rfl _ _ (k1_off7_eq L) _
  generalize ((xSlot0).view.writes (Elt F) (xSlot0).view.junk [⟨Rect.whole S2048, tile_body_A.sl.dma0_4 m d L h1⟩]) = fx2 at hfx2 ⊢
  sl_for (gInv (F := F) d (cV L) (jV L) (xSlot0).view.set fx2 fsub (Good m d (cV L) (jV L) (L 0).val (L 1).val 2)) $$ [Hx0 Hb0 Hb2]
  case region =>
    intro k u
    unfold gInv
    iintro ⟨H6, H5, %f, H7, %hG⟩
    have hk : k.val < 128 := lt_of_lt_of_le k.isLt k1_t3_abs.2.1
    have hoffX : k1_off11 k = ![2048 * 0 + 16 * k.val] := by rw [k1_off11_eq, show 2048 * 0 + 16 * k.val = 16 * k.val by omega]
    have hoffV : k1_off12 k = ![16 * k.val] := k1_off12_eq k
    have hS6 : (xM).view.setOn (Rect.unit (s := S4096) (k1_off11 k) S16.size (k1_off11_inb L k h1)).toLoadRect.set ⊆ (xSlot0).view.set := by
      rw [set_xSlot0]; exact box_sub_slot 0 k.val _ _ hoffX hk
    have hin := chk_of_holds (F := F) m d (cV L) (jV L) 0 2 (7 * (L 0).val + (L 1).val + 13) k.val (by decide) (by decide) (by omega) hk hx _ (k1_off11_inb L k h1) hoffX fx2 hfx2
    have hP : k1_chk3 L (gIdx (F := F) d (cV L) (jV L) (k1_off11 k) (k1_off11_inb L k h1) fx2) := fun _ => hin
    ihave Hw := (wp_gTrip (F := F) d (cV L) (jV L) (k1_off11 k) (k1_off12 k) (k1_off11_inb L k h1) (k1_off12_inb L k h1) (k1_chk3 L) (k1_chk3.dec L)
        (fun v hw => k1_idx3_inb L v hw h1) (xSlot0).view.set fx2 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 2 0 k.val hc2 (by omega) (by decide) (by decide) hk hx _ _ _ _ hoffX hoffV fx2 fsub f (by have e : 7 * (L 0).val + (L 1).val + 13 = 13 + 7 * (L 0).val + (L 1).val := (by omega); rw [← e]; exact hfx2) hfsub hG _
  · unfold gInv
    isplitl [Hx0]; · iexact Hx0
    isplitl [Hb0]; · iexact Hb0
    iexists _; isplitl [Hb2]; · iexact Hb2
    ipureintro; intro t ht; exact absurd ht (by omega)
  iintro %_ HI
  unfold gInv
  icases HI with ⟨Hx0, Hb0, %fv3, Hb2, %hG3⟩
  ihave Hx0 := (Entails.of_eq (show ((xM).view.loc (V d (cV L) (jV L)) ↦[(xSlot0).view.set]{fullShare} fx2 : sProp 𝕄)
      = ((xSlot0).view.loc (V d (cV L) (jV L)) ↦[(xSlot0).view.set]{fullShare} fx2) from rfl)) $$ Hx0
  sl_exec
  -- chunk 3: slot 1 of the index scratch has it; the loop looks its 2048 indices up
  have hfx3 : XHolds m d (cV L) (jV L) 1 3 (7 * (L 0).val + (L 1).val + 13) ((xSlot1).view.writes (Elt F) (xSlot1).view.junk [⟨Rect.whole S2048, tile_body_A.sl.dma0_6 m d L h1⟩]) := by
    unfold tile_body_A.sl.dma0_6
    exact xholds_landed (F := F) m d (cV L) (jV L) 1 3 (7 * (L 0).val + (L 1).val + 13) _ _ rfl _ _ (k1_off10_eq L) _
  generalize ((xSlot1).view.writes (Elt F) (xSlot1).view.junk [⟨Rect.whole S2048, tile_body_A.sl.dma0_6 m d L h1⟩]) = fx3 at hfx3 ⊢
  sl_for (gInv (F := F) d (cV L) (jV L) (xSlot1).view.set fx3 fsub (Good m d (cV L) (jV L) (L 0).val (L 1).val 3)) $$ [Hx1 Hb0 Hb2]
  case region =>
    intro k u
    unfold gInv
    iintro ⟨H6, H5, %f, H7, %hG⟩
    have hk : k.val < 128 := lt_of_lt_of_le k.isLt k1_t4_abs.2.1
    have hoffX : k1_off14 k = ![2048 * 1 + 16 * k.val] := by rw [k1_off14_eq, show 2048 * 1 + 16 * k.val = 16 * k.val + 2048 by omega]
    have hoffV : k1_off15 k = ![16 * k.val] := k1_off15_eq k
    have hS6 : (xM).view.setOn (Rect.unit (s := S4096) (k1_off14 k) S16.size (k1_off14_inb L k h1)).toLoadRect.set ⊆ (xSlot1).view.set := by
      rw [set_xSlot1]; exact box_sub_slot 1 k.val _ _ hoffX hk
    have hin := chk_of_holds (F := F) m d (cV L) (jV L) 1 3 (7 * (L 0).val + (L 1).val + 13) k.val (by decide) (by decide) (by omega) hk hx _ (k1_off14_inb L k h1) hoffX fx3 hfx3
    have hP : k1_chk4 L (gIdx (F := F) d (cV L) (jV L) (k1_off14 k) (k1_off14_inb L k h1) fx3) := fun _ => hin
    ihave Hw := (wp_gTrip (F := F) d (cV L) (jV L) (k1_off14 k) (k1_off15 k) (k1_off14_inb L k h1) (k1_off15_inb L k h1) (k1_chk4 L) (k1_chk4.dec L)
        (fun v hw => k1_idx4_inb L v hw h1) (xSlot1).view.set fx3 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 3 1 k.val hc2 (by omega) (by decide) (by decide) hk hx _ _ _ _ hoffX hoffV fx3 fsub f (by have e : 7 * (L 0).val + (L 1).val + 13 = 13 + 7 * (L 0).val + (L 1).val := (by omega); rw [← e]; exact hfx3) hfsub hG _
  · unfold gInv
    isplitl [Hx1]; · iexact Hx1
    isplitl [Hb0]; · iexact Hb0
    iexists _; isplitl [Hb2]; · iexact Hb2
    ipureintro; intro t ht; exact absurd ht (by omega)
  iintro %_ HI
  unfold gInv
  icases HI with ⟨Hx1, Hb0, %fv4, Hb2, %hG4⟩
  ihave Hx1 := (Entails.of_eq (show ((xM).view.loc (V d (cV L) (jV L)) ↦[(xSlot1).view.set]{fullShare} fx3 : sProp 𝕄)
      = ((xSlot1).view.loc (V d (cV L) (jV L)) ↦[(xSlot1).view.set]{fullShare} fx3) from rfl)) $$ Hx1
  sl_exec
  -- chunk 4: slot 0 of the index scratch has it; the loop looks its 2048 indices up
  have hfx4 : XHolds m d (cV L) (jV L) 0 4 (7 * (L 0).val + (L 1).val + 13) ((xSlot0).view.writes (Elt F) (xSlot0).view.junk [⟨Rect.whole S2048, tile_body_A.sl.dma0_8 m d L h1⟩]) := by
    unfold tile_body_A.sl.dma0_8
    exact xholds_landed (F := F) m d (cV L) (jV L) 0 4 (7 * (L 0).val + (L 1).val + 13) _ _ rfl _ _ (k1_off13_eq L) _
  generalize ((xSlot0).view.writes (Elt F) (xSlot0).view.junk [⟨Rect.whole S2048, tile_body_A.sl.dma0_8 m d L h1⟩]) = fx4 at hfx4 ⊢
  sl_for (gInv (F := F) d (cV L) (jV L) (xSlot0).view.set fx4 fsub (Good m d (cV L) (jV L) (L 0).val (L 1).val 4)) $$ [Hx0 Hb0 Hb2]
  case region =>
    intro k u
    unfold gInv
    iintro ⟨H6, H5, %f, H7, %hG⟩
    have hk : k.val < 128 := lt_of_lt_of_le k.isLt k1_t5_abs.2.1
    have hoffX : k1_off17 k = ![2048 * 0 + 16 * k.val] := by rw [k1_off17_eq, show 2048 * 0 + 16 * k.val = 16 * k.val by omega]
    have hoffV : k1_off18 k = ![16 * k.val] := k1_off18_eq k
    have hS6 : (xM).view.setOn (Rect.unit (s := S4096) (k1_off17 k) S16.size (k1_off17_inb L k h1)).toLoadRect.set ⊆ (xSlot0).view.set := by
      rw [set_xSlot0]; exact box_sub_slot 0 k.val _ _ hoffX hk
    have hin := chk_of_holds (F := F) m d (cV L) (jV L) 0 4 (7 * (L 0).val + (L 1).val + 13) k.val (by decide) (by decide) (by omega) hk hx _ (k1_off17_inb L k h1) hoffX fx4 hfx4
    have hP : k1_chk5 L (gIdx (F := F) d (cV L) (jV L) (k1_off17 k) (k1_off17_inb L k h1) fx4) := fun _ => hin
    ihave Hw := (wp_gTrip (F := F) d (cV L) (jV L) (k1_off17 k) (k1_off18 k) (k1_off17_inb L k h1) (k1_off18_inb L k h1) (k1_chk5 L) (k1_chk5.dec L)
        (fun v hw => k1_idx5_inb L v hw h1) (xSlot0).view.set fx4 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 4 0 k.val hc2 (by omega) (by decide) (by decide) hk hx _ _ _ _ hoffX hoffV fx4 fsub f (by have e : 7 * (L 0).val + (L 1).val + 13 = 13 + 7 * (L 0).val + (L 1).val := (by omega); rw [← e]; exact hfx4) hfsub hG _
  · unfold gInv
    isplitl [Hx0]; · iexact Hx0
    isplitl [Hb0]; · iexact Hb0
    iexists _; isplitl [Hb2]; · iexact Hb2
    ipureintro; intro t ht; exact absurd ht (by omega)
  iintro %_ HI
  unfold gInv
  icases HI with ⟨Hx0, Hb0, %fv5, Hb2, %hG5⟩
  ihave Hx0 := (Entails.of_eq (show ((xM).view.loc (V d (cV L) (jV L)) ↦[(xSlot0).view.set]{fullShare} fx4 : sProp 𝕄)
      = ((xSlot0).view.loc (V d (cV L) (jV L)) ↦[(xSlot0).view.set]{fullShare} fx4) from rfl)) $$ Hx0
  sl_exec
  -- chunk 5: slot 1 of the index scratch has it; the loop looks its 2048 indices up
  have hfx5 : XHolds m d (cV L) (jV L) 1 5 (7 * (L 0).val + (L 1).val + 13) ((xSlot1).view.writes (Elt F) (xSlot1).view.junk [⟨Rect.whole S2048, tile_body_A.sl.dma0_10 m d L h1⟩]) := by
    unfold tile_body_A.sl.dma0_10
    exact xholds_landed (F := F) m d (cV L) (jV L) 1 5 (7 * (L 0).val + (L 1).val + 13) _ _ rfl _ _ (k1_off16_eq L) _
  generalize ((xSlot1).view.writes (Elt F) (xSlot1).view.junk [⟨Rect.whole S2048, tile_body_A.sl.dma0_10 m d L h1⟩]) = fx5 at hfx5 ⊢
  sl_for (gInv (F := F) d (cV L) (jV L) (xSlot1).view.set fx5 fsub (Good m d (cV L) (jV L) (L 0).val (L 1).val 5)) $$ [Hx1 Hb0 Hb2]
  case region =>
    intro k u
    unfold gInv
    iintro ⟨H6, H5, %f, H7, %hG⟩
    have hk : k.val < 128 := lt_of_lt_of_le k.isLt k1_t6_abs.2.1
    have hoffX : k1_off20 k = ![2048 * 1 + 16 * k.val] := by rw [k1_off20_eq, show 2048 * 1 + 16 * k.val = 16 * k.val + 2048 by omega]
    have hoffV : k1_off21 k = ![16 * k.val] := k1_off21_eq k
    have hS6 : (xM).view.setOn (Rect.unit (s := S4096) (k1_off20 k) S16.size (k1_off20_inb L k h1)).toLoadRect.set ⊆ (xSlot1).view.set := by
      rw [set_xSlot1]; exact box_sub_slot 1 k.val _ _ hoffX hk
    have hin := chk_of_holds (F := F) m d (cV L) (jV L) 1 5 (7 * (L 0).val + (L 1).val + 13) k.val (by decide) (by decide) (by omega) hk hx _ (k1_off20_inb L k h1) hoffX fx5 hfx5
    have hP : k1_chk6 L (gIdx (F := F) d (cV L) (jV L) (k1_off20 k) (k1_off20_inb L k h1) fx5) := fun _ => hin
    ihave Hw := (wp_gTrip (F := F) d (cV L) (jV L) (k1_off20 k) (k1_off21 k) (k1_off20_inb L k h1) (k1_off21_inb L k h1) (k1_chk6 L) (k1_chk6.dec L)
        (fun v hw => k1_idx6_inb L v hw h1) (xSlot1).view.set fx5 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 5 1 k.val hc2 (by omega) (by decide) (by decide) hk hx _ _ _ _ hoffX hoffV fx5 fsub f (by have e : 7 * (L 0).val + (L 1).val + 13 = 13 + 7 * (L 0).val + (L 1).val := (by omega); rw [← e]; exact hfx5) hfsub hG _
  · unfold gInv
    isplitl [Hx1]; · iexact Hx1
    isplitl [Hb0]; · iexact Hb0
    iexists _; isplitl [Hb2]; · iexact Hb2
    ipureintro; intro t ht; exact absurd ht (by omega)
  iintro %_ HI
  unfold gInv
  icases HI with ⟨Hx1, Hb0, %fv6, Hb2, %hG6⟩
  ihave Hx1 := (Entails.of_eq (show ((xM).view.loc (V d (cV L) (jV L)) ↦[(xSlot1).view.set]{fullShare} fx5 : sProp 𝕄)
      = ((xSlot1).view.loc (V d (cV L) (jV L)) ↦[(xSlot1).view.set]{fullShare} fx5) from rfl)) $$ Hx1
  sl_exec
  -- chunk 6: slot 0 of the index scratch has it; the loop looks its 2048 indices up
  have hfx6 : XHolds m d (cV L) (jV L) 0 6 (7 * (L 0).val + (L 1).val + 13) ((xSlot0).view.writes (Elt F) (xSlot0).view.junk [⟨Rect.whole S2048, tile_body_A.sl.dma0_12 m d L h1⟩]) := by
    unfold tile_body_A.sl.dma0_12
    exact xholds_landed (F := F) m d (cV L) (jV L) 0 6 (7 * (L 0).val + (L 1).val + 13) _ _ rfl _ _ (k1_off19_eq L) _
  generalize ((xSlot0).view.writes (Elt F) (xSlot0).view.junk [⟨Rect.whole S2048, tile_body_A.sl.dma0_12 m d L h1⟩]) = fx6 at hfx6 ⊢
  sl_for (gInv (F := F) d (cV L) (jV L) (xSlot0).view.set fx6 fsub (Good m d (cV L) (jV L) (L 0).val (L 1).val 6)) $$ [Hx0 Hb0 Hb2]
  case region =>
    intro k u
    unfold gInv
    iintro ⟨H6, H5, %f, H7, %hG⟩
    have hk : k.val < 128 := lt_of_lt_of_le k.isLt k1_t7_abs.2.1
    have hoffX : k1_off23 k = ![2048 * 0 + 16 * k.val] := by rw [k1_off23_eq, show 2048 * 0 + 16 * k.val = 16 * k.val by omega]
    have hoffV : k1_off24 k = ![16 * k.val] := k1_off24_eq k
    have hS6 : (xM).view.setOn (Rect.unit (s := S4096) (k1_off23 k) S16.size (k1_off23_inb L k h1)).toLoadRect.set ⊆ (xSlot0).view.set := by
      rw [set_xSlot0]; exact box_sub_slot 0 k.val _ _ hoffX hk
    have hin := chk_of_holds (F := F) m d (cV L) (jV L) 0 6 (7 * (L 0).val + (L 1).val + 13) k.val (by decide) (by decide) (by omega) hk hx _ (k1_off23_inb L k h1) hoffX fx6 hfx6
    have hP : k1_chk7 L (gIdx (F := F) d (cV L) (jV L) (k1_off23 k) (k1_off23_inb L k h1) fx6) := fun _ => hin
    ihave Hw := (wp_gTrip (F := F) d (cV L) (jV L) (k1_off23 k) (k1_off24 k) (k1_off23_inb L k h1) (k1_off24_inb L k h1) (k1_chk7 L) (k1_chk7.dec L)
        (fun v hw => k1_idx7_inb L v hw h1) (xSlot0).view.set fx6 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 6 0 k.val hc2 (by omega) (by decide) (by decide) hk hx _ _ _ _ hoffX hoffV fx6 fsub f (by have e : 7 * (L 0).val + (L 1).val + 13 = 13 + 7 * (L 0).val + (L 1).val := (by omega); rw [← e]; exact hfx6) hfsub hG _
  · unfold gInv
    isplitl [Hx0]; · iexact Hx0
    isplitl [Hb0]; · iexact Hb0
    iexists _; isplitl [Hb2]; · iexact Hb2
    ipureintro; intro t ht; exact absurd ht (by omega)
  iintro %_ HI
  unfold gInv
  icases HI with ⟨Hx0, Hb0, %fv7, Hb2, %hG7⟩
  ihave Hx0 := (Entails.of_eq (show ((xM).view.loc (V d (cV L) (jV L)) ↦[(xSlot0).view.set]{fullShare} fx6 : sProp 𝕄)
      = ((xSlot0).view.loc (V d (cV L) (jV L)) ↦[(xSlot0).view.set]{fullShare} fx6) from rfl)) $$ Hx0
  sl_exec
  -- chunk 7: slot 1 of the index scratch has it; the loop looks its 2048 indices up
  have hfx7 : XHolds m d (cV L) (jV L) 1 7 (7 * (L 0).val + (L 1).val + 13) ((xSlot1).view.writes (Elt F) (xSlot1).view.junk [⟨Rect.whole S2048, tile_body_A.sl.dma0_14 m d L h1⟩]) := by
    unfold tile_body_A.sl.dma0_14
    exact xholds_landed (F := F) m d (cV L) (jV L) 1 7 (7 * (L 0).val + (L 1).val + 13) _ _ rfl _ _ (k1_off22_eq L) _
  generalize ((xSlot1).view.writes (Elt F) (xSlot1).view.junk [⟨Rect.whole S2048, tile_body_A.sl.dma0_14 m d L h1⟩]) = fx7 at hfx7 ⊢
  sl_for (gInv (F := F) d (cV L) (jV L) (xSlot1).view.set fx7 fsub (Good m d (cV L) (jV L) (L 0).val (L 1).val 7)) $$ [Hx1 Hb0 Hb2]
  case region =>
    intro k u
    unfold gInv
    iintro ⟨H6, H5, %f, H7, %hG⟩
    have hk : k.val < 128 := lt_of_lt_of_le k.isLt k1_t8_abs.2.1
    have hoffX : k1_off25 k = ![2048 * 1 + 16 * k.val] := by rw [k1_off25_eq, show 2048 * 1 + 16 * k.val = 16 * k.val + 2048 by omega]
    have hoffV : k1_off26 k = ![16 * k.val] := k1_off26_eq k
    have hS6 : (xM).view.setOn (Rect.unit (s := S4096) (k1_off25 k) S16.size (k1_off25_inb L k h1)).toLoadRect.set ⊆ (xSlot1).view.set := by
      rw [set_xSlot1]; exact box_sub_slot 1 k.val _ _ hoffX hk
    have hin := chk_of_holds (F := F) m d (cV L) (jV L) 1 7 (7 * (L 0).val + (L 1).val + 13) k.val (by decide) (by decide) (by omega) hk hx _ (k1_off25_inb L k h1) hoffX fx7 hfx7
    have hP : k1_chk8 L (gIdx (F := F) d (cV L) (jV L) (k1_off25 k) (k1_off25_inb L k h1) fx7) := fun _ => hin
    ihave Hw := (wp_gTrip (F := F) d (cV L) (jV L) (k1_off25 k) (k1_off26 k) (k1_off25_inb L k h1) (k1_off26_inb L k h1) (k1_chk8 L) (k1_chk8.dec L)
        (fun v hw => k1_idx8_inb L v hw h1) (xSlot1).view.set fx7 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 7 1 k.val hc2 (by omega) (by decide) (by decide) hk hx _ _ _ _ hoffX hoffV fx7 fsub f (by have e : 7 * (L 0).val + (L 1).val + 13 = 13 + 7 * (L 0).val + (L 1).val := (by omega); rw [← e]; exact hfx7) hfsub hG _
  · unfold gInv
    isplitl [Hx1]; · iexact Hx1
    isplitl [Hb0]; · iexact Hb0
    iexists _; isplitl [Hb2]; · iexact Hb2
    ipureintro; intro t ht; exact absurd ht (by omega)
  iintro %_ HI
  unfold gInv
  icases HI with ⟨Hx1, Hb0, %fv8, Hb2, %hG8⟩
  ihave Hx1 := (Entails.of_eq (show ((xM).view.loc (V d (cV L) (jV L)) ↦[(xSlot1).view.set]{fullShare} fx7 : sProp 𝕄)
      = ((xSlot1).view.loc (V d (cV L) (jV L)) ↦[(xSlot1).view.set]{fullShare} fx7) from rfl)) $$ Hx1
  sl_exec
  have hG1' : Good m d (cV L) (jV L) (L 0).val (L 1).val 0 128 fv1 := by
    have e : Scf.trips k1_t1_loop.lb k1_t1_loop.ub k1_t1_loop.st = 128 := by decide
    rw [e] at hG1; exact hG1
  have hG2' : Good m d (cV L) (jV L) (L 0).val (L 1).val 1 128 fv2 := by
    have e : Scf.trips k1_t2_loop.lb k1_t2_loop.ub k1_t2_loop.st = 128 := by decide
    rw [e] at hG2; exact hG2
  have hG3' : Good m d (cV L) (jV L) (L 0).val (L 1).val 2 128 fv3 := by
    have e : Scf.trips k1_t3_loop.lb k1_t3_loop.ub k1_t3_loop.st = 128 := by decide
    rw [e] at hG3; exact hG3
  have hG4' : Good m d (cV L) (jV L) (L 0).val (L 1).val 3 128 fv4 := by
    have e : Scf.trips k1_t4_loop.lb k1_t4_loop.ub k1_t4_loop.st = 128 := by decide
    rw [e] at hG4; exact hG4
  have hG5' : Good m d (cV L) (jV L) (L 0).val (L 1).val 4 128 fv5 := by
    have e : Scf.trips k1_t5_loop.lb k1_t5_loop.ub k1_t5_loop.st = 128 := by decide
    rw [e] at hG5; exact hG5
  have hG6' : Good m d (cV L) (jV L) (L 0).val (L 1).val 5 128 fv6 := by
    have e : Scf.trips k1_t6_loop.lb k1_t6_loop.ub k1_t6_loop.st = 128 := by decide
    rw [e] at hG6; exact hG6
  have hG7' : Good m d (cV L) (jV L) (L 0).val (L 1).val 6 128 fv7 := by
    have e : Scf.trips k1_t7_loop.lb k1_t7_loop.ub k1_t7_loop.st = 128 := by decide
    rw [e] at hG7; exact hG7
  have hG8' : Good m d (cV L) (jV L) (L 0).val (L 1).val 7 128 fv8 := by
    have e : Scf.trips k1_t8_loop.lb k1_t8_loop.ub k1_t8_loop.st = 128 := by decide
    rw [e] at hG8; exact hG8
  ihave Hr0 := (Entails.of_eq (show (_ : sProp 𝕄) = (acc1Loc d (cT (cL L)) ↦[seg (N := 114688) (16384 * (jL L).val + 2048 * 0) 2048]{fullShare} ACC1 m d (cT (cL L))) from
      (pts_rowPiece (F := F) d L h1 0 _).trans (pointsTo_congr (by
        unfold tile_body_A.sl.dma0_3
        exact piece_landed (F := F) m d (cV L) (jV L) (cT (cL L)) (L 0).val (L 1).val 0 rfl (by omega) (by decide) _ _ (k1_off6_eq L 0) _ fv1 hG1')))) $$ Hr0
  ihave Hr1 := (Entails.of_eq (show (_ : sProp 𝕄) = (acc1Loc d (cT (cL L)) ↦[seg (N := 114688) (16384 * (jL L).val + 2048 * 1) 2048]{fullShare} ACC1 m d (cT (cL L))) from
      (pts_rowPiece (F := F) d L h1 1 _).trans (pointsTo_congr (by
        unfold tile_body_A.sl.dma0_5
        exact piece_landed (F := F) m d (cV L) (jV L) (cT (cL L)) (L 0).val (L 1).val 1 rfl (by omega) (by decide) _ _ (k1_off6_eq L 1) _ fv2 hG2')))) $$ Hr1
  ihave Hr2 := (Entails.of_eq (show (_ : sProp 𝕄) = (acc1Loc d (cT (cL L)) ↦[seg (N := 114688) (16384 * (jL L).val + 2048 * 2) 2048]{fullShare} ACC1 m d (cT (cL L))) from
      (pts_rowPiece (F := F) d L h1 2 _).trans (pointsTo_congr (by
        unfold tile_body_A.sl.dma0_7
        exact piece_landed (F := F) m d (cV L) (jV L) (cT (cL L)) (L 0).val (L 1).val 2 rfl (by omega) (by decide) _ _ (k1_off6_eq L 2) _ fv3 hG3')))) $$ Hr2
  ihave Hr3 := (Entails.of_eq (show (_ : sProp 𝕄) = (acc1Loc d (cT (cL L)) ↦[seg (N := 114688) (16384 * (jL L).val + 2048 * 3) 2048]{fullShare} ACC1 m d (cT (cL L))) from
      (pts_rowPiece (F := F) d L h1 3 _).trans (pointsTo_congr (by
        unfold tile_body_A.sl.dma0_9
        exact piece_landed (F := F) m d (cV L) (jV L) (cT (cL L)) (L 0).val (L 1).val 3 rfl (by omega) (by decide) _ _ (k1_off6_eq L 3) _ fv4 hG4')))) $$ Hr3
  ihave Hr4 := (Entails.of_eq (show (_ : sProp 𝕄) = (acc1Loc d (cT (cL L)) ↦[seg (N := 114688) (16384 * (jL L).val + 2048 * 4) 2048]{fullShare} ACC1 m d (cT (cL L))) from
      (pts_rowPiece (F := F) d L h1 4 _).trans (pointsTo_congr (by
        unfold tile_body_A.sl.dma0_11
        exact piece_landed (F := F) m d (cV L) (jV L) (cT (cL L)) (L 0).val (L 1).val 4 rfl (by omega) (by decide) _ _ (k1_off6_eq L 4) _ fv5 hG5')))) $$ Hr4
  ihave Hr5 := (Entails.of_eq (show (_ : sProp 𝕄) = (acc1Loc d (cT (cL L)) ↦[seg (N := 114688) (16384 * (jL L).val + 2048 * 5) 2048]{fullShare} ACC1 m d (cT (cL L))) from
      (pts_rowPiece (F := F) d L h1 5 _).trans (pointsTo_congr (by
        unfold tile_body_A.sl.dma0_13
        exact piece_landed (F := F) m d (cV L) (jV L) (cT (cL L)) (L 0).val (L 1).val 5 rfl (by omega) (by decide) _ _ (k1_off6_eq L 5) _ fv6 hG6')))) $$ Hr5
  ihave Hr6 := (Entails.of_eq (show (_ : sProp 𝕄) = (acc1Loc d (cT (cL L)) ↦[seg (N := 114688) (16384 * (jL L).val + 2048 * 6) 2048]{fullShare} ACC1 m d (cT (cL L))) from
      (pts_rowPiece (F := F) d L h1 6 _).trans (pointsTo_congr (by
        unfold tile_body_A.sl.dma0_15
        exact piece_landed (F := F) m d (cV L) (jV L) (cT (cL L)) (L 0).val (L 1).val 6 rfl (by omega) (by decide) _ _ (k1_off6_eq L 6) _ fv7 hG7')))) $$ Hr6
  ihave Hr7 := (Entails.of_eq (show (_ : sProp 𝕄) = (acc1Loc d (cT (cL L)) ↦[seg (N := 114688) (16384 * (jL L).val + 2048 * 7) 2048]{fullShare} ACC1 m d (cT (cL L))) from
      (pts_rowPiece (F := F) d L h1 7 _).trans (pointsTo_congr (by
        unfold tile_body_A.sl.dma0_16
        exact piece_landed (F := F) m d (cV L) (jV L) (cT (cL L)) (L 0).val (L 1).val 7 rfl (by omega) (by decide) _ _ (k1_off6_eq L 7) _ fv8 hG8')))) $$ Hr7
  -- the row at the looked-up values; the scratches and shares in the launch's spelling again
  ihave Hrow := (Entails.of_eq (row_split (F := F) d (cT (cL L)) (jL L).val (ACC1 m d (cT (cL L)))).symm) $$ [Hr0 Hr1 Hr2 Hr3 Hr4 Hr5 Hr6 Hr7]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  ihave Hb1 := (x_join (F := F) d (cV L) (jV L) _ _) $$ [Hx0 Hx1]
  · isplitl [Hx0]; · iexact Hx0
    iexact Hx1
  icases Hb1 with ⟨%f1', Hb1⟩
  ihave Hxt := (Entails.of_eq (pts_xt (F := F) d (cV L) (jV L) _ _)) $$ Hxt
  ihave Hwh := (Entails.of_eq (pts_wh (F := F) d (cV L) (jV L) _ _)) $$ Hwh
  ihave Hp0 := (Entails.of_eq (pts_poK (F := F) d L _)) $$ Hp0
  ihave Hb0 := (Entails.of_eq (pts_sub (F := F) d (cV L) (jV L) _)) $$ Hb0
  ihave Hb2 := (Entails.of_eq (pts_val (F := F) d (cV L) (jV L) _)) $$ Hb2
  ihave Hb3 := (Entails.of_eq (pts_red (F := F) d (cV L) (jV L) _)) $$ Hb3
  ihave Hb4 := (Entails.of_eq (pts_out (F := F) d (cV L) (jV L) _)) $$ Hb4
  ihave Hpay := (Entails.of_eq (show (acc1Loc d (cT (cL L)) ↦[seg (N := 114688) (16384 * (jL L).val) 16384]{fullShare} ACC1 m d (cT (cL L)) : sProp 𝕄) = _ from
      pays_row (F := F) m d (cV L) (jV L).val hs7)) $$ Hrow
  -- the waits recorded so far: all at index none
  ihave HOg := (gen_waits (F := F) _ _ _) $$ HO
  icases HOg with ⟨%W₁, %hW₁e, HO⟩
  have hW₁ : ∀ p ∈ W₁, p ∈ W ∨ p.2 = none := by
    subst hW₁e; intro p hp
    repeat (first | exact .inl hp | (rcases Finset.mem_insert.mp hp with e | hp; · exact .inr (by rw [e]; rfl)))
  clear hW₁e
  -- the barrier: the sixteen payloads handed over; its own round's seven column blocks received
  iapply (SparseCore.wp_subcoreBarrier 𝒱₀ none EB (bRd (F := F) m) d (sc := cV L) (i := jV L) sc_bar0 (grid1.bound 1) hsub1 (L 1) rfl κ (fun _ => 1) (jV L).val
      (fun j => bRd_mem m d _ _ _ (by decide)) (fun _ => rfl) (bRd_expect m d _ _ (by decide)) (some 1) O _) $$ [HO Htoks Hpay Hcred Hat]
  · isplitr; · iexact Hinv
    isplitl [HO]; · iexact HO
    isplitl [Htoks Hpay]
    · rw [bigSep_sep', bigSep_sep']
      isplitl [Htoks]; · iexact Htoks
      isplitl [Hpay]; · iexact Hpay
      iexact Hrch
    isplitl [Hcred]; · iexact Hcred
    isplitl [Hat]; · iexact Hat
    iapply ((K (F := F)).mayOwe_of_bound (thr := V d (cV L) (jV L)) 11 (fun p hp => by
        rw [Finset.mem_singleton] at hp; subst hp
        show (K (F := F)).lev (bcell d (cV L) (jV L)) (some 1) ≤ 11
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, Hrch1, Hgot⟩
  ihave Hcols := (pays_got m d (cV L) (jV L)) $$ Hgot
  icases Hcols with ⟨Hq0, Hq1, Hq2, Hq3, Hq4, Hq5, Hq6⟩
  -- each column block in two halves, the reduce scratch in seven windows, as the copies name them
  have l0 : 0 < 7 := by decide
  have l1 : 1 < 7 := by decide
  have l2 : 2 < 7 := by decide
  have l3 : 3 < 7 := by decide
  have l4 : 4 < 7 := by decide
  have l5 : 5 < 7 := by decide
  have l6 : 6 < 7 := by decide
  ihave Hh0 := (Entails.of_eq (acc_halves (F := F) d L 0 l0 _)) $$ Hq0
  icases Hh0 with ⟨Ha0, Hz0⟩
  ihave Hh1 := (Entails.of_eq (acc_halves (F := F) d L 1 l1 _)) $$ Hq1
  icases Hh1 with ⟨Ha1, Hz1⟩
  ihave Hh2 := (Entails.of_eq (acc_halves (F := F) d L 2 l2 _)) $$ Hq2
  icases Hh2 with ⟨Ha2, Hz2⟩
  ihave Hh3 := (Entails.of_eq (acc_halves (F := F) d L 3 l3 _)) $$ Hq3
  icases Hh3 with ⟨Ha3, Hz3⟩
  ihave Hh4 := (Entails.of_eq (acc_halves (F := F) d L 4 l4 _)) $$ Hq4
  icases Hh4 with ⟨Ha4, Hz4⟩
  ihave Hh5 := (Entails.of_eq (acc_halves (F := F) d L 5 l5 _)) $$ Hq5
  icases Hh5 with ⟨Ha5, Hz5⟩
  ihave Hh6 := (Entails.of_eq (acc_halves (F := F) d L 6 l6 _)) $$ Hq6
  icases Hh6 with ⟨Ha6, Hz6⟩
  ihave Hw := (Entails.of_eq (scr3_windows (F := F) d L f3)) $$ Hb3
  icases Hw with ⟨Hd0, Hd1, Hd2, Hd3, Hd4, Hd5, Hd6⟩
  haveI hst0 : ∀ t : Fin 7, BI.Storable (upEmb : UEmb _ 𝕄) (deliv (F := F) d L 0 (fun _ => ACC1 m d (cV L)) (fun _ => f3) t) :=
    fun t => deliv_storable (F := F) d L 0 _ _ t
  imod (Transfers.batch_alloc' (Lvl := ℕ) countersEmb (V d (cV L) (jV L)) (default : HIx 2) NW (deliv (F := F) d L 0 (fun _ => ACC1 m d (cV L)) (fun _ => f3))
    (sm := .dma cc1_scratch6.sem) (E := Set.univ)) $$ Hs6 with HB
  sl_exec
  -- the seven windows landed: the reduce scratch whole again, at one function
  ihave Hg := (windows_join (F := F) d L (fun n => landedJ (F := F) d L 0 n (ACC1 m d (cV L))) ) $$ [HB_dst0 HB_dst1 HB_dst2 HB_dst3 HB_dst4 HB_dst5 HB_dst6]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    iexact HB_dst6
  icases Hg with ⟨%g, %hg, Hg⟩
  ihave Hb4' := (Entails.of_eq (show ((V d (cV L) (jV L)).loc cc1_scratch4 ↦{fullShare} f4 : sProp 𝕄) = ((Memref.whole cc1_scratch4).view.loc (V d (cV L) (jV L)) ↦{fullShare} f4) from rfl)) $$ Hb4
  sl_for (invR (F := F) m d L 0 g) $$ [Hg Hb4']
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g (ValueIdx.ix1 (⟨512 * n.val + j, by have := n.isLt; omega⟩ : Fin 3584))
        = accAt (XT m d) (WH1 m d) 13 (cV L).val n.val (1024 * (L 1).val + 0 + j) := fun n j hj => hgv_of (F := F) m d L 0 g hg n j hj
    exact step_gen_1 d (cV L) (jV L) (XT m d) (WH1 m d) 13 (cV L).val (L 1).val 0 k.val hkt (by omega) k1_pay3
      (fun v0 v1 v2 v3 v4 v5 v6 l b h0 h1 h2 h3 h4 h5 h6 => pay3_partAt_k1 (XT m d) (WH1 m d) 13 (cV L).val b v0 v1 v2 v3 v4 v5 v6 l h0 h1 h2 h3 h4 h5 h6)
      g h _ _ ((Gen.k1_off32_eq k).trans (vec1 _ _ (by omega)))
      _ _ ((Gen.k1_off30_eq k).trans (vec1 _ _ (by omega)))
      _ _ ((Gen.k1_off31_eq k ⟨0, by decide⟩).trans (vec1 _ _ (by show 512 * 0 + 16 * k.val + 512 = 512 * 1 + 16 * k.val; omega)))
      _ _ ((Gen.k1_off31_eq k ⟨1, by decide⟩).trans (vec1 _ _ (by show 512 * 1 + 16 * k.val + 512 = 512 * 2 + 16 * k.val; omega)))
      _ _ ((Gen.k1_off31_eq k ⟨2, by decide⟩).trans (vec1 _ _ (by show 512 * 2 + 16 * k.val + 512 = 512 * 3 + 16 * k.val; omega)))
      _ _ ((Gen.k1_off31_eq k ⟨3, by decide⟩).trans (vec1 _ _ (by show 512 * 3 + 16 * k.val + 512 = 512 * 4 + 16 * k.val; omega)))
      _ _ ((Gen.k1_off31_eq k ⟨4, by decide⟩).trans (vec1 _ _ (by show 512 * 4 + 16 * k.val + 512 = 512 * 5 + 16 * k.val; omega)))
      _ _ ((Gen.k1_off31_eq k ⟨5, by decide⟩).trans (vec1 _ _ (by show 512 * 5 + 16 * k.val + 512 = 512 * 6 + 16 * k.val; omega)))
      hgv' hh
  · unfold invR
    isplitl [Hg]; · iexact Hg
    iexists f4
    isplitl [Hb4']; · iexact Hb4'
    ipureintro; intro k hk; exact absurd hk (by omega)
  iintro %_ HI
  unfold invR
  icases HI with ⟨Hg, ⟨%h1, Hh, %hh1⟩⟩
  -- the second batch: the other halves into the same seven windows
  ihave Hg' := (Entails.of_eq (show ((Memref.whole cc1_scratch3).view.loc (V d (cV L) (jV L)) ↦{fullShare} g : sProp 𝕄) = ((V d (cV L) (jV L)).loc cc1_scratch3 ↦{fullShare} g) from rfl)) $$ Hg
  ihave Hw2 := (Entails.of_eq (scr3_windows (F := F) d L g)) $$ Hg'
  icases Hw2 with ⟨He0, He1, He2, He3, He4, He5, He6⟩
  ihave HB' := (show (semVal ((V d (cV L) (jV L), SemLoc.dma cc1_scratch6.sem) : GSem nD τ sig) 0 : sProp 𝕄) ⊢ semVal ((V d (cV L) (jV L), SemLoc.dma cc1_scratch6.sem) : GSem nD τ sig) 0 from BI.Entails.refl _) $$ [HB]
  · iexact HB
  haveI hst1 : ∀ t : Fin 7, BI.Storable (upEmb : UEmb _ 𝕄) (deliv (F := F) d L 1 (fun _ => ACC1 m d (cV L)) (fun _ => g) t) :=
    fun t => deliv_storable (F := F) d L 1 _ _ t
  imod (Transfers.batch_alloc' (Lvl := ℕ) countersEmb (V d (cV L) (jV L)) (default : HIx 2) NW (deliv (F := F) d L 1 (fun _ => ACC1 m d (cV L)) (fun _ => g))
    (sm := .dma cc1_scratch6.sem) (E := Set.univ)) $$ HB' with HC
  sl_exec
  ihave Hg2J := (windows_join (F := F) d L (fun n => landedJ (F := F) d L 1 n (ACC1 m d (cV L)))) $$ [HC_dst0 HC_dst1 HC_dst2 HC_dst3 HC_dst4 HC_dst5 HC_dst6]
  · isplitl [HC_dst0]; · iexact HC_dst0
    isplitl [HC_dst1]; · iexact HC_dst1
    isplitl [HC_dst2]; · iexact HC_dst2
    isplitl [HC_dst3]; · iexact HC_dst3
    isplitl [HC_dst4]; · iexact HC_dst4
    isplitl [HC_dst5]; · iexact HC_dst5
    iexact HC_dst6
  icases Hg2J with ⟨%g2, %hg2, Hg2⟩
  sl_for (invR (F := F) m d L 512 g2) $$ [Hg2 Hh]
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g2 (ValueIdx.ix1 (⟨512 * n.val + j, by have := n.isLt; omega⟩ : Fin 3584))
        = accAt (XT m d) (WH1 m d) 13 (cV L).val n.val (1024 * (L 1).val + 512 + j) := fun n j hj => hgv_of (F := F) m d L 1 g2 hg2 n j hj
    exact step_gen_1 d (cV L) (jV L) (XT m d) (WH1 m d) 13 (cV L).val (L 1).val 512 k.val hkt (by omega) k1_pay1
      (fun v0 v1 v2 v3 v4 v5 v6 l b h0 h1 h2 h3 h4 h5 h6 => pay1_partAt_k1 (XT m d) (WH1 m d) 13 (cV L).val b v0 v1 v2 v3 v4 v5 v6 l h0 h1 h2 h3 h4 h5 h6)
      g2 h _ _ ((Gen.k1_off35_eq k).trans (vec1 _ _ (by omega)))
      _ _ ((Gen.k1_off33_eq k).trans (vec1 _ _ (by omega)))
      _ _ ((Gen.k1_off34_eq k ⟨0, by decide⟩).trans (vec1 _ _ (by show 512 * 0 + 16 * k.val + 512 = 512 * 1 + 16 * k.val; omega)))
      _ _ ((Gen.k1_off34_eq k ⟨1, by decide⟩).trans (vec1 _ _ (by show 512 * 1 + 16 * k.val + 512 = 512 * 2 + 16 * k.val; omega)))
      _ _ ((Gen.k1_off34_eq k ⟨2, by decide⟩).trans (vec1 _ _ (by show 512 * 2 + 16 * k.val + 512 = 512 * 3 + 16 * k.val; omega)))
      _ _ ((Gen.k1_off34_eq k ⟨3, by decide⟩).trans (vec1 _ _ (by show 512 * 3 + 16 * k.val + 512 = 512 * 4 + 16 * k.val; omega)))
      _ _ ((Gen.k1_off34_eq k ⟨4, by decide⟩).trans (vec1 _ _ (by show 512 * 4 + 16 * k.val + 512 = 512 * 5 + 16 * k.val; omega)))
      _ _ ((Gen.k1_off34_eq k ⟨5, by decide⟩).trans (vec1 _ _ (by show 512 * 5 + 16 * k.val + 512 = 512 * 6 + 16 * k.val; omega)))
      hgv' hh
  · unfold invR
    isplitl [Hg2]; · iexact Hg2
    iexists h1
    isplitl [Hh]; · iexact Hh
    ipureintro; intro k hk; exact hh1 k (by show k.val < 0 + 16 * 32; omega)
  iintro %_ HI2
  unfold invR
  icases HI2 with ⟨Hg2, ⟨%h2, Hh, %hh2⟩⟩
  -- the write-out: the output scratch into the tile's 1024 entries of the result
  ihave Hp0' := (Entails.of_eq (pts_poK (F := F) d L _).symm) $$ Hp0
  sl_exec
  have hfull : ∀ k : Fin 1024, (show F .f32 from h2 (ValueIdx.ix1 k)) = partAt (XT m d) (WH1 m d) 13 (L 0).val (1024 * (L 1).val + k.val) :=
    fun k => hh2 k (by have := k.isLt; show k.val < 512 + 16 * 32; omega)
  ihave Hp0 := (Entails.of_eq (show (_ : sProp 𝕄) = (p1Loc d ↦[seg (N := 32768) (16384 * (cL L).val + 1024 * (jL L).val) 1024]{fullShare} PT1 m d) from
    (pts_poK (F := F) d L _).trans (pointsTo_congr (by exact out_landed (F := F) m d (cV L) (jV L) (L 0).val (L 1).val (L 0).isLt (L 1).isLt _ _ (k1_off36_eq L) _ h2 hfull)))) $$ Hp0'
  -- the column blocks whole again, the scratches as the launch names them
  ihave Hq0 := (Entails.of_eq (acc_halves (F := F) d L 0 l0 (ACC1 m d (cV L))).symm) $$ [HB_src0 HC_src0]
  · isplitl [HB_src0]; · iexact HB_src0
    iexact HC_src0
  ihave Hq1 := (Entails.of_eq (acc_halves (F := F) d L 1 l1 (ACC1 m d (cV L))).symm) $$ [HB_src1 HC_src1]
  · isplitl [HB_src1]; · iexact HB_src1
    iexact HC_src1
  ihave Hq2 := (Entails.of_eq (acc_halves (F := F) d L 2 l2 (ACC1 m d (cV L))).symm) $$ [HB_src2 HC_src2]
  · isplitl [HB_src2]; · iexact HB_src2
    iexact HC_src2
  ihave Hq3 := (Entails.of_eq (acc_halves (F := F) d L 3 l3 (ACC1 m d (cV L))).symm) $$ [HB_src3 HC_src3]
  · isplitl [HB_src3]; · iexact HB_src3
    iexact HC_src3
  ihave Hq4 := (Entails.of_eq (acc_halves (F := F) d L 4 l4 (ACC1 m d (cV L))).symm) $$ [HB_src4 HC_src4]
  · isplitl [HB_src4]; · iexact HB_src4
    iexact HC_src4
  ihave Hq5 := (Entails.of_eq (acc_halves (F := F) d L 5 l5 (ACC1 m d (cV L))).symm) $$ [HB_src5 HC_src5]
  · isplitl [HB_src5]; · iexact HB_src5
    iexact HC_src5
  ihave Hq6 := (Entails.of_eq (acc_halves (F := F) d L 6 l6 (ACC1 m d (cV L))).symm) $$ [HB_src6 HC_src6]
  · isplitl [HB_src6]; · iexact HB_src6
    iexact HC_src6
  ihave Hb3 := (Entails.of_eq (show ((Memref.whole cc1_scratch3).view.loc (V d (cV L) (jV L)) ↦{fullShare} g2 : sProp 𝕄) = ((V d (cV L) (jV L)).loc cc1_scratch3 ↦{fullShare} g2) from rfl)) $$ Hg2
  ihave Hb4 := (Entails.of_eq (show ((Memref.whole cc1_scratch4).view.loc (V d (cV L) (jV L)) ↦{fullShare} h2 : sProp 𝕄) = ((V d (cV L) (jV L)).loc cc1_scratch4 ↦{fullShare} h2) from rfl)) $$ Hh
  -- the waits recorded: all at index none, or the barrier's
  ihave HOg := (gen_waits (F := F) _ _ _) $$ HO
  icases HOg with ⟨%W₂, %hW₂e, HO⟩
  have hW₂ : ∀ p ∈ W₂, p ∈ W ∨ p.2 = none ∨ p.2 = some (1 : Fin 2) := by
    subst hW₂e; intro p hp
    repeat (first | exact (hW₁ p hp).imp_right Or.inl | (rcases Finset.mem_insert.mp hp with e | hp; · first | exact .inr (.inl (by rw [e]; rfl)) | exact .inr (.inr (by rw [e]))))
  sl_step
  iapply (post_intro' (F := F) m d L hF O W W₂ hW₂) $$ [Hxt Hwh Hp0 Hq0 Hq1 Hq2 Hq3 Hq4 Hq5 Hq6 Hat Hrch1 Hb0 Hb1 Hb2 Hb3 Hb4 Hbufs HC Hs7 Hs8 Hs9 Hc0 Hc1 Hc2 Hc3 Hc4 Hc5 Hc6 Hc7 Hc8 Hc9 Hc10 Hc11 Hc12 Hc13 Hc14 Hc15 Hc16 Hsems HO]
  isplitl [Hxt]; · iexact Hxt
  isplitl [Hwh]; · iexact Hwh
  isplitl [Hp0]; · iexact Hp0
  isplitl [Hq0 Hq1 Hq2 Hq3 Hq4 Hq5 Hq6]
  · isplitl [Hq0]; · iexists _; iexact Hq0
    isplitl [Hq1]; · iexists _; iexact Hq1
    isplitl [Hq2]; · iexists _; iexact Hq2
    isplitl [Hq3]; · iexists _; iexact Hq3
    isplitl [Hq4]; · iexists _; iexact Hq4
    isplitl [Hq5]; · iexists _; iexact Hq5
    iexists _; iexact Hq6
  isplitl [Hat]; · iexact Hat
  isplitl [Hrch1]; · iexact Hrch1
  isplitl [Hb0 Hb1 Hb2 Hb3 Hb4]
  · isplitl [Hb0]; · iexists _; iexact Hb0
    isplitl [Hb1]; · iexists _; iexact Hb1
    isplitl [Hb2]; · iexists _; iexact Hb2
    isplitl [Hb3]; · iexists _; iexact Hb3
    iexists _; iexact Hb4
  isplitl [Hbufs]; · iexact Hbufs
  isplitl [HC Hs7 Hs8 Hs9 Hc0 Hc1 Hc2 Hc3 Hc4 Hc5 Hc6 Hc7 Hc8 Hc9 Hc10 Hc11 Hc12 Hc13 Hc14 Hc15 Hc16]
  · isplitl [HC]; · iexact HC
    isplitl [Hs7]; · iexact Hs7
    isplitl [Hs8]; · iexact Hs8
    isplitl [Hs9]; · iexact Hs9
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    iexact Hc16
  isplitl [Hsems]; · iexact Hsems
  iexact HO

/-- The task on tile `(L 0, L 1)`: whichever of the three kinds of tile it is. -/
theorem tile_body (hx : InRange m) (hF : (K (F := F)).Facts) (O : CellTallies nD τ sig (HIx 2)) (W : Waits sig (HIx 2)) (hO : ∀ g, O g none = 0)
    (hOlev : ∀ g ι, 0 < O g ι → 8 * (1 : Fin 2).val + 6 ≤ (K (F := F)).lev g ι) :
    iprop(levAts (K (F := F)).L (K (F := F)).lev ∗ bkit m 1 d (cV L) (jV L) ∗ go1 m d (cL L) (jL L)
        ∗ scopedBufs (V d (cV L) (jV L)) ∗ scopedSems0 (V d (cV L) (jV L)) ∗ owes (V d (cV L) (jV L)) (O + oxV 1 d (cV L)) W)
      ⊢ wp frame (wpE (defs₀ (F := F)) 𝒱₀ (V d (cV L) (jV L)) none) Set.univ (prog1 (F := F) L)
          fun _ => iprop(td1 m d (cL L) (jL L) ∗ scopedBufs (V d (cV L) (jV L)) ∗ scopedSems0 (V d (cV L) (jV L))
            ∗ ∃ W', ⌜∀ p ∈ W', p ∈ W ∨ p.2 = none ∨ p.2 = some (1 : Fin 2)⌝ ∗ owes (V d (cV L) (jV L)) O W') := by
  by_cases h1 : k1_cond1 L = 1#1
  · exact tile_body_A m d L h1 hx hF O W hO hOlev
  · by_cases h2 : k1_cond2 L = 1#1
    · exact tile_body_B m d L h1 h2 hx hF O W hO hOlev
    · exact tile_body_C m d L h1 h2 hx hF O W hO hOlev

end Tile

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => prog1 (F := F) (coordsV c s)) ⟨⟩ c s := rfl

end T1

set_option maxRecDepth 16384 in
/-- Lookup 1's task obligation: every tile's task, from what the launch deals it to what it hands back. -/
theorem tileObl1 (hx : InRange m) (hF : (K (F := F)).Facts) : (K (F := F)).TileObl (D (F := F)) 𝒱 (P m) v₀ 1 := by
  intro d c i O W hO hOlev _
  have hci : ((K (F := F)).core 1 c).val < grid1.bound 0 ∧ ((K (F := F)).sub 1 i).val < grid1.bound 1 := ⟨c.isLt, i.isLt⟩
  change iprop(levAts _ _ ∗ bkit m 1 d ((K (F := F)).core 1 c) ((K (F := F)).sub 1 i) ∗ go1 m d (cN 1 c) (iN 1 i) ∗ _ ∗ _
      ∗ owes _ (O + oxV 1 d ((K (F := F)).core 1 c)) W) ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [T1.defs₀_vector]; simp only [SparseCore.onTile, hci, and_self, ↓reduceDIte]
  exact T1.tile_body m d (T1.coordsV ⟨_, hci.1⟩ ⟨_, hci.2⟩) hx hF O W hO hOlev

end Cert.Proof.KI

end
-- ==== Proof.KI.MainPieces.lean ====
import proofs.«207420_g80582176408339_cont_9to1c4b_743_56_alg».proof.Proof.KI.Common

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within after)

variable {F : FTy → Type}

local notation "𝕄" => MT nD τ sig (HIx 2) (Elt F) ℕ UU ℕ

/-! ## The TensorCore's arrays as device buffers -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)
abbrev v9' : DevRef τ sig := Proc.devRef .tc (main_v9 : Ref sig .tc)
abbrev v10' : DevRef τ sig := Proc.devRef .tc (main_v10 : Ref sig .tc)
abbrev v11' : DevRef τ sig := Proc.devRef .tc (main_v11 : Ref sig .tc)

/-- The TensorCore's fifteen arrays, all unscoped: the three arguments and the twelve values of @main. -/
abbrev S15 : Finset (DevRef τ sig) := {a0', a1', a2', v0', v1', v2', v3', v4', v5', v6', v7', v8', v9', v10', v11'}

theorem held_S15 (d : Dev nD) (W : Valuation τ sig (Elt F)) :
    (held (T d) S15 W : sProp 𝕄)
      = iprop(((SparseCore.T d).loc main_arg0 ↦{fullShare} W a0') ∗ ((SparseCore.T d).loc main_arg1 ↦{fullShare} W a1') ∗ ((SparseCore.T d).loc main_arg2 ↦{fullShare} W a2') ∗ ((SparseCore.T d).loc main_v0 ↦{fullShare} W v0') ∗ ((SparseCore.T d).loc main_v1 ↦{fullShare} W v1') ∗ ((SparseCore.T d).loc main_v2 ↦{fullShare} W v2') ∗ ((SparseCore.T d).loc main_v3 ↦{fullShare} W v3') ∗ ((SparseCore.T d).loc main_v4 ↦{fullShare} W v4') ∗ ((SparseCore.T d).loc main_v5 ↦{fullShare} W v5') ∗ ((SparseCore.T d).loc main_v6 ↦{fullShare} W v6') ∗ ((SparseCore.T d).loc main_v7 ↦{fullShare} W v7') ∗ ((SparseCore.T d).loc main_v8 ↦{fullShare} W v8') ∗ ((SparseCore.T d).loc main_v9 ↦{fullShare} W v9') ∗ ((SparseCore.T d).loc main_v10 ↦{fullShare} W v10') ∗ ((SparseCore.T d).loc main_v11 ↦{fullShare} W v11')) := by
  unfold held S15
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3 ↦{fullShare} W main_v3) ∗ ((SparseCore.T d).loc main_v4 ↦{fullShare} W main_v4) ∗ ((SparseCore.T d).loc main_v5 ↦{fullShare} W main_v5) ∗ ((SparseCore.T d).loc main_v6 ↦{fullShare} W main_v6) ∗ ((SparseCore.T d).loc main_v7 ↦{fullShare} W main_v7) ∗ ((SparseCore.T d).loc main_v8 ↦{fullShare} W main_v8) ∗ ((SparseCore.T d).loc main_v9 ↦{fullShare} W main_v9) ∗ ((SparseCore.T d).loc main_v10 ↦{fullShare} W main_v10) ∗ ((SparseCore.T d).loc main_v11 ↦{fullShare} W main_v11)) := by
  unfold unscopedBufs
  rw [show (Finset.univ.filter fun b : Ref sig .tc => ¬ b.isScoped) = {main_arg0, main_arg1, main_arg2, main_v0, main_v1, main_v2, main_v3, main_v4, main_v5, main_v6, main_v7, main_v8, main_v9, main_v10, main_v11} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The unscoped arrays at the contents a valuation gives them are the fifteen held whole under it. -/
theorem unscoped_held (d : Dev nD) (W : Valuation τ sig (Elt F)) :
    (unscopedBufs d (fun b => W (Proc.devRef .tc b)) : sProp 𝕄) = held (T d) S15 W := by
  rw [unscopedBufs_eq, held_S15]

/-! ## The host operations -/

variable [FloatOps F]

abbrev opT : HloOp τ sig (Elt F) :=
  StableHlo.unary main_arg0 main_v0 ((transpose S26x16384 [1, 0] · Gen.transposes_S16384x26_S26x16384_1_0) : (⟨S16384x26, .i32⟩ : BufTy).Contents (Elt F) → (⟨S26x16384, .i32⟩ : BufTy).Contents (Elt F))
abbrev opS0 : HloOp τ sig (Elt F) :=
  StableHlo.unary main_arg1 main_v1 ((extractStridedSlice S1300000x1 ![0, 0] · Gen.slices_S2600000x1_S1300000x1_0_0) : (⟨S2600000x1, .f32⟩ : BufTy).Contents (Elt F) → (⟨S1300000x1, .f32⟩ : BufTy).Contents (Elt F))
abbrev opR0 : HloOp τ sig (Elt F) := StableHlo.reshape main_v1 main_v2 rfl Gen.shapeCasts_S1300000x1_S1300000
abbrev opS1 : HloOp τ sig (Elt F) :=
  StableHlo.unary main_arg1 main_v3 ((extractStridedSlice S1300000x1 ![1300000, 0] · Gen.slices_S2600000x1_S1300000x1_1300000_0) : (⟨S2600000x1, .f32⟩ : BufTy).Contents (Elt F) → (⟨S1300000x1, .f32⟩ : BufTy).Contents (Elt F))
abbrev opR1 : HloOp τ sig (Elt F) := StableHlo.reshape main_v3 main_v4 rfl Gen.shapeCasts_S1300000x1_S1300000
abbrev opB : HloOp τ sig (Elt F) :=
  StableHlo.unary main_arg2 main_v5 (broadcastInDim S1x128 ![1] Gen.bcast_S1_S1x128_1 : (⟨S1, .f32⟩ : BufTy).Contents (Elt F) → (⟨S1x128, .f32⟩ : BufTy).Contents (Elt F))
abbrev opP0 : HloOp τ sig (Elt F) := StableHlo.reshape main_v6 main_v8 rfl Gen.shapeCasts_S32768_S2x128x128
abbrev opP1 : HloOp τ sig (Elt F) := StableHlo.reshape main_v7 main_v9 rfl Gen.shapeCasts_S32768_S2x128x128
abbrev opO : HloOp τ sig (Elt F) := StableHlo.reshape main_v10 main_v11 rfl Gen.shapeCasts_S128x128_S16384x1

theorem hT : (opT (F := F)).bufs ⊆ S15 := show ({a0', v0'} : Finset (DevRef τ sig)) ⊆ S15 by decide
theorem hS0 : (opS0 (F := F)).bufs ⊆ S15 := show ({a1', v1'} : Finset (DevRef τ sig)) ⊆ S15 by decide
theorem hR0 : (opR0 (F := F)).bufs ⊆ S15 := show ({v1', v2'} : Finset (DevRef τ sig)) ⊆ S15 by decide
theorem hS1 : (opS1 (F := F)).bufs ⊆ S15 := show ({a1', v3'} : Finset (DevRef τ sig)) ⊆ S15 by decide
theorem hR1 : (opR1 (F := F)).bufs ⊆ S15 := show ({v3', v4'} : Finset (DevRef τ sig)) ⊆ S15 by decide
theorem hB : (opB (F := F)).bufs ⊆ S15 := show ({a2', v5'} : Finset (DevRef τ sig)) ⊆ S15 by decide
theorem hP0 : (opP0 (F := F)).bufs ⊆ S15 := show ({v6', v8'} : Finset (DevRef τ sig)) ⊆ S15 by decide
theorem hP1 : (opP1 (F := F)).bufs ⊆ S15 := show ({v7', v9'} : Finset (DevRef τ sig)) ⊆ S15 by decide
theorem hO : (opO (F := F)).bufs ⊆ S15 := show ({v10', v11'} : Finset (DevRef τ sig)) ⊆ S15 by decide

variable (m : (ℓ : Loc nD τ sig) → Buf (Elt F) ℓ)

/-- The launch valuation, and the valuation after the six host operations before the first lookup. -/
def V0 (d : Dev nD) : Valuation τ sig (Elt F) := fun b => m (d, b)
def V6 (d : Dev nD) : Valuation τ sig (Elt F) := after [opT, opS0, opR0, opS1, opR1, opB] (V0 m d)

theorem V6_a0 (d : Dev nD) : V6 m d a0' = m (xLoc d) := by unfold V6; after_results_simp; rfl
theorem V6_a1 (d : Dev nD) : V6 m d a1' = m (wLoc d) := by unfold V6; after_results_simp; rfl
theorem V6_a2 (d : Dev nD) : V6 m d a2' = m (bLoc d) := by unfold V6; after_results_simp; rfl
theorem V6_v0 (d : Dev nD) : V6 m d v0' = XT m d := by unfold V6; after_results_simp; rfl
theorem V6_v2 (d : Dev nD) : V6 m d v2' = WH0 m d := by unfold V6; after_results_simp; rfl
theorem V6_v4 (d : Dev nD) : V6 m d v4' = WH1 m d := by unfold V6; after_results_simp; rfl
theorem V6_v5 (d : Dev nD) : V6 m d v5' = BR m d := by unfold V6; after_results_simp; rfl
theorem V6_v6 (d : Dev nD) : V6 m d v6' = m (p0Loc d) := by unfold V6; after_results_simp; rfl
theorem V6_v7 (d : Dev nD) : V6 m d v7' = m (p1Loc d) := by unfold V6; after_results_simp; rfl

end Cert.Proof.KI

end
-- ==== Proof.KI.MainCalls.lean ====
import proofs.«207420_g80582176408339_cont_9to1c4b_743_56_alg».proof.Proof.KI.MainPieces
import proofs.«207420_g80582176408339_cont_9to1c4b_743_56_alg».proof.Proof.KI.Segs

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.StableHlo (held held_split held_sdiff_result held_sub_split held_congr wp_hlo_within after)

variable {F : FTy → Type}

local notation "𝕄" => MT nD τ sig (HIx 2) (Elt F) ℕ UU ℕ

variable [FloatOps F] (m : (ℓ : Loc nD τ sig) → Buf (Elt F) ℓ)

/-! ## A lookup's result among the two SparseCores -/

theorem halves_disjoint : ∀ t ∈ (Finset.univ : Finset (Fin 2)), ∀ t' ∈ (Finset.univ : Finset (Fin 2)), t ≠ t' →
    Disjoint (seg (N := 32768) (16384 * t.val) 16384) (seg (N := 32768) (16384 * t'.val) 16384) := by
  have h := seg_parts_disjoint (N := 32768) (lo := 0) (len := 16384) (k := 2)
  simp only [Nat.zero_add] at h; exact h

theorem halves_cover : (Finset.univ : Finset (Fin 2)).biUnion (fun c => seg (N := 32768) (16384 * c.val) 16384) = Finset.univ := by
  have h := seg_parts (N := 32768) 0 16384 2
  simp only [Nat.zero_add] at h; rw [h]; exact seg_univ

/-- A lookup's result whole is SparseCore 0's 16384 entries and SparseCore 1's. -/
theorem p0_halves (d : Dev nD) (f : Buf (Elt F) (p0Loc d)) :
    (p0Loc d ↦{fullShare} f : sProp 𝕄) = bigSep Finset.univ fun c : Fin 2 => p0Loc d ↦[seg (N := 32768) (16384 * c.val) 16384]{fullShare} f := by
  rw [← pointsTo_biUnion Finset.univ (ℓ := p0Loc d) (fun c : Fin 2 => seg (N := 32768) (16384 * c.val) 16384) halves_disjoint, halves_cover]; try rfl
theorem p1_halves (d : Dev nD) (f : Buf (Elt F) (p1Loc d)) :
    (p1Loc d ↦{fullShare} f : sProp 𝕄) = bigSep Finset.univ fun c : Fin 2 => p1Loc d ↦[seg (N := 32768) (16384 * c.val) 16384]{fullShare} f := by
  rw [← pointsTo_biUnion Finset.univ (ℓ := p1Loc d) (fun c : Fin 2 => seg (N := 32768) (16384 * c.val) 16384) halves_disjoint, halves_cover]; try rfl

/-! ## What the TensorCore hands the two SparseCores at each lookup, and gets back -/

/-- Every tile's standing on its barrier cell after lookup 0, both SparseCores'. -/
def bposAll (d : Dev nD) : sProp 𝕄 := bigSep Finset.univ fun c : Fin 2 => bigSep Finset.univ fun i : Fin 16 => bpos (F := F) d (cT c) (jt i)

theorem st0_eq (d : Dev nD) :
    (bigSep Finset.univ fun c : Fin ((K (F := F)).nCore 0) => (P m).st 0 d c)
      = iprop((bigSep Finset.univ fun c : Fin 2 => xtLoc d ↦{shC c} XT m d) ∗ (bigSep Finset.univ fun c : Fin 2 => w0Loc d ↦{shC c} WH0 m d)
          ∗ bigSep Finset.univ fun c : Fin 2 => p0Loc d ↦[seg (N := 32768) (16384 * c.val) 16384]{fullShare} m (p0Loc d)) := by
  show (bigSep Finset.univ fun c : Fin 2 => st0 m d c) = _
  unfold st0
  rw [bigSep_sep', bigSep_sep']
theorem dn0_eq (d : Dev nD) :
    (bigSep Finset.univ fun c : Fin ((K (F := F)).nCore 0) => (P m).dn 0 d c)
      = iprop((bigSep Finset.univ fun c : Fin 2 => xtLoc d ↦{shC c} XT m d) ∗ (bigSep Finset.univ fun c : Fin 2 => w0Loc d ↦{shC c} WH0 m d)
          ∗ (bigSep Finset.univ fun c : Fin 2 => p0Loc d ↦[seg (N := 32768) (16384 * c.val) 16384]{fullShare} PT0 m d) ∗ bposAll (F := F) d) := by
  show (bigSep Finset.univ fun c : Fin 2 => dn0 m d c) = _
  unfold dn0 bposAll
  rw [bigSep_sep', bigSep_sep', bigSep_sep']
theorem st1_eq (d : Dev nD) :
    (bigSep Finset.univ fun c : Fin ((K (F := F)).nCore 1) => (P m).st 1 d c)
      = iprop((bigSep Finset.univ fun c : Fin 2 => xtLoc d ↦{shC c} XT m d) ∗ (bigSep Finset.univ fun c : Fin 2 => w1Loc d ↦{shC c} WH1 m d)
          ∗ (bigSep Finset.univ fun c : Fin 2 => p1Loc d ↦[seg (N := 32768) (16384 * c.val) 16384]{fullShare} m (p1Loc d)) ∗ bposAll (F := F) d) := by
  show (bigSep Finset.univ fun c : Fin 2 => st1 m d c) = _
  unfold st1 bposAll
  rw [bigSep_sep', bigSep_sep', bigSep_sep']
theorem dn1_eq (d : Dev nD) :
    (bigSep Finset.univ fun c : Fin ((K (F := F)).nCore 1) => (P m).dn 1 d c)
      = iprop((bigSep Finset.univ fun c : Fin 2 => xtLoc d ↦{shC c} XT m d) ∗ (bigSep Finset.univ fun c : Fin 2 => w1Loc d ↦{shC c} WH1 m d)
          ∗ bigSep Finset.univ fun c : Fin 2 => p1Loc d ↦[seg (N := 32768) (16384 * c.val) 16384]{fullShare} PT1 m d) := by
  show (bigSep Finset.univ fun c : Fin 2 => dn1 m d c) = _
  unfold dn1
  rw [bigSep_sep', bigSep_sep']

end Cert.Proof.KI

end
-- ==== Proof.KI.MainBody.lean ====
import proofs.«207420_g80582176408339_cont_9to1c4b_743_56_alg».proof.Proof.KI.MainPieces

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result held_sub_split held_congr wp_hlo_within after)
open Idealize.ShloMosaic.Pipeline (Dat Cfg Window BodyObligation BodyObligationLoose cellOf)

variable {F : FTy → Type} [FloatOps F]

local notation "𝕄" => MT nD τ sig (HIx 2) (Elt F) ℕ UU ℕ

/-! ## The TensorCore kernel's body -/

/-- The two halves of a partial-sum array as the body loads them. -/
abbrev rcLo : LoadRect S2x128x128 := (Rect.unit (s := S2x128x128) ![0, 0, 0] S1x128x128.size Gen.inb_S2x128x128_S1x128x128_0_0_0).toLoadRect
abbrev rcHi : LoadRect S2x128x128 := (Rect.unit (s := S2x128x128) ![1, 0, 0] S1x128x128.size Gen.inb_S2x128x128_S1x128x128_1_0_0).toLoadRect

/-- What the body stores, from the contents of its three operands' buffers: the four halves added in order, then the bias
    row broadcast over the rows. -/
def bodyOut (X0 X1 : S2x128x128.Idx → Elt F .f32) (X2 : S1x128.Idx → Elt F .f32) : S128x128.Idx → Elt F .f32 :=
  k2_pay1 ((stage2_0 0).view.readAt (Elt F) rcLo X0) ((stage2_0 0).view.readAt (Elt F) rcHi X0)
    ((stage2_1 0).view.readAt (Elt F) rcLo X1) ((stage2_1 0).view.readAt (Elt F) rcHi X1) X2

/-- The body on the four staging buffers: five loads of the operands (the bias row whole, each partial-sum array's two
    halves), the sum, a load of the result's buffer nothing reads, the store of the sum over the whole of it. -/
theorem tc_body (c : Dev nD) (E : Set ℕ) (X0 X1 : S2x128x128.Idx → Elt F .f32) (X2 : S1x128.Idx → Elt F .f32) (X3 : S128x128.Idx → Elt F .f32)
    (Kp : PUnit → sProp 𝕄) :
    iprop((owns (c : Thread nD τ) (stage2_0 0) fullShare X0 ∗ owns (c : Thread nD τ) (stage2_1 0) fullShare X1
            ∗ owns (c : Thread nD τ) (stage2_2 0) fullShare X2 ∗ owns (c : Thread nD τ) (stage2_3 0) fullShare X3)
          ∗ (iprop(owns (c : Thread nD τ) (stage2_0 0) fullShare X0 ∗ owns (c : Thread nD τ) (stage2_1 0) fullShare X1
                  ∗ owns (c : Thread nD τ) (stage2_2 0) fullShare X2 ∗ owns (c : Thread nD τ) (stage2_3 0) fullShare (bodyOut X0 X1 X2)) -∗ Kp ⟨⟩))
      ⊢ wp frame (wpE (defs₀ (F := F)) 𝒱₀ c none) E
          (cc2__tc_body (stage2_0 0) (hstage2_0 0) (stage2_1 0) (hstage2_1 0) (stage2_2 0) (hstage2_2 0) (stage2_3 0) (hstage2_3 0)) Kp := by
  have hz : (![0, 0] : Fin 2 → Nat) = fun _ => 0 := funext fun a => by fin_cases a <;> rfl
  have hr2 : (stage2_2 0 : Memref sig .tc _ _ _).view.readAt (Elt F) (Rect.unit (s := S1x128) ![0, 0] S1x128.size
      Gen.inb_S1x128_S1x128_0_0).toLoadRect = id := funext (Memref.readAt_unit_zero (Elt F) cc2_stg2_0 hz _)
  have hw3 : ∀ f w, (((stage2_3 0).access (Rect.unit (s := S128x128) ![0, 0] S128x128.size Gen.inb_S128x128_S128x128_0_0)) :
      View sig .tc _ _ _).write (Elt F) f w Finset.univ = w := Memref.write_access_unit_zero_univ (Elt F) cc2_stg3_0 hz _
  simp only [owns_whole_eq, cc2__tc_body_eq_skeleton]; unfold cc2__tc_body_skel
  simp only [Prog.lift, Prog.bind_op, Prog.bind_ret]
  iintro ⟨⟨⟨%f0, %hf0, H0⟩, ⟨%f1, %hf1, H1⟩, ⟨%f2, %hf2, H2⟩, ⟨%f3, %hf3, H3⟩⟩, Hk⟩
  sl_steps
  iapply Hk
  rw [hr2, hw3]
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  · iexists _; isplitr
    swap; · iexact H3
    ipureintro; rw [hf0, hf1, hf2]; rfl

end Cert.Proof.KI

end
-- ==== Proof.KI.MainRegion.lean ====
import proofs.«207420_g80582176408339_cont_9to1c4b_743_56_alg».proof.Proof.KI.MainBody

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result held_sub_split held_congr wp_hlo_within after)
open Idealize.ShloMosaic.Pipeline (Dat Cfg Window BodyObligation BodyObligationLoose cellOf)

variable {F : FTy → Type} [FloatOps F]

local notation "𝕄" => MT nD τ sig (HIx 2) (Elt F) ℕ UU ℕ

/-
  The TensorCore's own kernel inside the SparseCore program: one pipelined call of one grid point, every window whole.
  The pipeline fetches the two lookups' recast results and the bias row into their staging buffers, the body adds
  the four pages and the bias row into the result's staging buffer, the pipeline writes that back. So the region
  takes the TensorCore's arrays from a valuation `V` to `V` with the result array at the body's sum of the three
  operand arrays, and leaves everything else — the other eleven arrays, what the core owes — as it found it.
-/
/-! ## The pipeline's proof data -/

/-- The one pipeline's tables: it has none. -/
abbrev adm : (p : Fin 1) → (pcfgs (F := F) p).Adm := fun p => (cfgs p).toPCfg_adm

variable (W : Dev nD → Valuation τ sig (Elt F))

/-- The TensorCore's arrays as the region finds them. -/
abbrev VW (c : Dev nD) (b : Ref sig .tc) : Buf (Elt F) ((c : Thread nD τ).loc b) := W c (Proc.devRef .tc b)

/-- The proof data: the arrays at the valuation's contents; after the body each operand's staging buffer at its whole
    array and the result's at the sum; no invariant; nothing owed; the recorded pairs those the calls before left (at or
    below the second call's levels). -/
def dat (c : Dev nD) : Dat τ (Elt F) (HIx 2) ℕ UU ℕ cfg2 c where
  A w := VW W c (Pipeline.arrRef spec2 w)
  after w t := match w with
    | ⟨0, _⟩ => W c v8'
    | ⟨1, _⟩ => W c v9'
    | ⟨2, _⟩ => W c v5'
    | ⟨3, _⟩ => bodyOut (W c v8') (W c v9') (W c v5')
  Φ _ := iprop(emp)
  q _ := fullShare
  owed _ := 0
  recorded _ := {p | (K (F := F)).lev ((c : Thread nD τ), p.1) p.2 ≤ 16}

theorem before_0 (c : Dev nD) (t : Fin cfg2.N) (d) : (dat W c).before 0 t d = W c v8' := by
  unfold Dat.before; rw [if_pos (fetch2_0 t)]
  unfold Dat.fetched Dat.blockOf
  refine Eq.trans ?_ (Memref.read_access_unit_zero (Elt F) main_v8 (off := fun a => (cfg2.win 0).index t a * (cfg2.win 0).size a)
    (funext fun a => Nat.zero_mul _) (fun a => Pipeline.Clip.inb ((cfg2.win 0).hclip (cfg2.grid.coords t) a)) (W c v8'))
  rfl
theorem before_1 (c : Dev nD) (t : Fin cfg2.N) (d) : (dat W c).before 1 t d = W c v9' := by
  unfold Dat.before; rw [if_pos (fetch2_1 t)]
  unfold Dat.fetched Dat.blockOf
  refine Eq.trans ?_ (Memref.read_access_unit_zero (Elt F) main_v9 (off := fun a => (cfg2.win 1).index t a * (cfg2.win 1).size a)
    (funext fun a => Nat.zero_mul _) (fun a => Pipeline.Clip.inb ((cfg2.win 1).hclip (cfg2.grid.coords t) a)) (W c v9'))
  rfl
theorem before_2 (c : Dev nD) (t : Fin cfg2.N) (d) : (dat W c).before 2 t d = W c v5' := by
  unfold Dat.before; rw [if_pos (fetch2_2 t)]
  unfold Dat.fetched Dat.blockOf
  refine Eq.trans ?_ (Memref.read_access_unit_zero (Elt F) main_v5 (off := fun a => (cfg2.win 2).index t a * (cfg2.win 2).size a)
    (funext fun a => Nat.zero_mul _) (fun a => Pipeline.Clip.inb ((cfg2.win 2).hclip (cfg2.grid.coords t) a)) (W c v5'))
  rfl
theorem before_3 (c : Dev nD) (t : Fin cfg2.N) (d) : (dat W c).before 3 t d = d := by
  obtain rfl := fin_N2 t
  unfold Dat.before
  rw [if_neg (show ¬((cfg2.win 3).fetch t2_0 = true) by decide)]
  rfl

/-! ## The body obligation -/

theorem body_obligation (c : Dev nD) : BodyObligation (dat (F := F) W c) (defs₀ (F := F)) 𝒱₀ (none : HIx 2) Set.univ := fun t => by
  rw [bigSep_W2, bigSep_W2]
  show iprop((dat W c).Φ t.castSucc ∗ (dat W c).owesAt none t.castSucc
      ∗ (∃ d, owns (c : Thread nD τ) (stage2_0 0) fullShare ((dat W c).before 0 t d))
      ∗ (∃ d, owns (c : Thread nD τ) (stage2_1 0) fullShare ((dat W c).before 1 t d))
      ∗ (∃ d, owns (c : Thread nD τ) (stage2_2 0) fullShare ((dat W c).before 2 t d))
      ∗ (∃ d, owns (c : Thread nD τ) (stage2_3 0) fullShare ((dat W c).before 3 t d)))
    ⊢ wp frame (wpE (defs₀ (F := F)) 𝒱₀ c none) Set.univ (bodyAt2 t) fun _ =>
      iprop((dat W c).Φ t.succ ∗ (dat W c).owesAt none t.succ
        ∗ owns (c : Thread nD τ) (stage2_0 0) fullShare (W c v8')
        ∗ owns (c : Thread nD τ) (stage2_1 0) fullShare (W c v9')
        ∗ owns (c : Thread nD τ) (stage2_2 0) fullShare (W c v5')
        ∗ owns (c : Thread nD τ) (stage2_3 0) fullShare (bodyOut (W c v8') (W c v9') (W c v5')))
  simp only [before_0, before_1, before_2, before_3]
  rw [show (dat W c).Φ t.succ = (dat W c).Φ t.castSucc from rfl, show (dat W c).owesAt none t.succ = (dat W c).owesAt none t.castSucc from rfl]
  iintro ⟨HΦ, HO, ⟨%d0, H0⟩, ⟨%d1, H1⟩, ⟨%d2, H2⟩, ⟨%d3, H3⟩⟩
  iapply (tc_body c Set.univ (W c v8') (W c v9') (W c v5') d3)
  isplitl [H0 H1 H2 H3]
  · isplitl [H0]; · iexact H0
    isplitl [H1]; · iexact H1
    isplitl [H2] <;> iassumption
  iintro ⟨H0, H1, H2, H3⟩
  isplitl [HΦ]; · iexact HΦ
  isplitl [HO]; · iexact HO
  isplitl [H0]; · iexact H0
  isplitl [H1]; · iexact H1
  isplitl [H2] <;> iassumption

/-! ## The region -/

/-- After the region: the result array at the body's sum of the three operand arrays. -/
def WR (V : Valuation τ sig (Elt F)) : Valuation τ sig (Elt F) := Function.update V v10' (bodyOut (V v8') (V v9') (V v5'))

/-- The one pipeline's proof data on every device. -/
def pdats : (p : Fin 1) → (c : Dev nD) → Dat τ (Elt F) (HIx 2) ℕ UU ℕ (Pipeline.pin (pcfgs (F := F)) adm p) c := fun _ c => dat W c

theorem bigSep_F0 {M : Type} [URA M] (Φ : Fin 0 → sProp M) : bigSep Finset.univ Φ = (BI.emp : sProp M) :=
  bigSep_univ_eq_bigSepL [] (by decide) (by decide) Φ

theorem prefHeld_emp (c : Dev nD) (q) (pf) :
    (Pipeline.prefHeld (Ix := HIx 2) (Name := ℕ) (U := UU) (Lvl := ℕ) (Val := Elt F) (pcfgs (F := F) 0).pre c q pf : sProp 𝕄) = BI.emp :=
  bigSep_F0 _

theorem share_full (c : Dev nD) (w : Fin cfg2.W) : (dat W c).share w = fullShare := (dat W c).share_full (fun _ => rfl) w

/-- What the TensorCore owes and has recorded between its calls and its own kernel: nothing owed, every recorded pair at
    or below the second call's levels. -/
abbrev tcOwes (c : Dev nD) : sProp 𝕄 :=
  iprop(∃ Wt, ⌜(K (F := F)).WBelow (T c) Wt 16⌝ ∗ owes (T c) (0 : CellTallies nD τ sig (HIx 2)) Wt)

theorem owesAt_intro (c : Dev nD) (t : Fin (cfg2.N + 1)) : tcOwes (F := F) c ⊢ ((dat W c).owesAt none t : sProp 𝕄) := by
  unfold Pipeline.Dat.owesAt Pipeline.owesWithin Pipeline.Dat.bound
  iintro ⟨%Wt, %hW, HO⟩
  iexists Wt; isplitr
  · ipureintro; exact fun p hp => Or.inl (hW p (Finset.mem_coe.mp hp))
  iexact HO

theorem owesAt_elim (c : Dev nD) (t : Fin (cfg2.N + 1)) : ((dat W c).owesAt none t : sProp 𝕄) ⊢ tcOwes (F := F) c := by
  unfold Pipeline.Dat.owesAt Pipeline.owesWithin Pipeline.Dat.bound
  iintro ⟨%Wt, %hW, HO⟩
  iexists Wt; isplitr
  · ipureintro
    intro p hp
    rcases hW (Finset.mem_coe.mpr hp) with h | ⟨w, s, rfl⟩
    · exact h
    · exact Nat.zero_le _
  iexact HO

theorem WR_a0 (V : Valuation τ sig (Elt F)) : WR V a0' = V a0' := Function.update_of_ne (show a0' ≠ v10' by decide) _ _
theorem WR_a1 (V : Valuation τ sig (Elt F)) : WR V a1' = V a1' := Function.update_of_ne (show a1' ≠ v10' by decide) _ _
theorem WR_a2 (V : Valuation τ sig (Elt F)) : WR V a2' = V a2' := Function.update_of_ne (show a2' ≠ v10' by decide) _ _
theorem WR_v0 (V : Valuation τ sig (Elt F)) : WR V v0' = V v0' := Function.update_of_ne (show v0' ≠ v10' by decide) _ _
theorem WR_v1 (V : Valuation τ sig (Elt F)) : WR V v1' = V v1' := Function.update_of_ne (show v1' ≠ v10' by decide) _ _
theorem WR_v2 (V : Valuation τ sig (Elt F)) : WR V v2' = V v2' := Function.update_of_ne (show v2' ≠ v10' by decide) _ _
theorem WR_v3 (V : Valuation τ sig (Elt F)) : WR V v3' = V v3' := Function.update_of_ne (show v3' ≠ v10' by decide) _ _
theorem WR_v4 (V : Valuation τ sig (Elt F)) : WR V v4' = V v4' := Function.update_of_ne (show v4' ≠ v10' by decide) _ _
theorem WR_v5 (V : Valuation τ sig (Elt F)) : WR V v5' = V v5' := Function.update_of_ne (show v5' ≠ v10' by decide) _ _
theorem WR_v6 (V : Valuation τ sig (Elt F)) : WR V v6' = V v6' := Function.update_of_ne (show v6' ≠ v10' by decide) _ _
theorem WR_v7 (V : Valuation τ sig (Elt F)) : WR V v7' = V v7' := Function.update_of_ne (show v7' ≠ v10' by decide) _ _
theorem WR_v8 (V : Valuation τ sig (Elt F)) : WR V v8' = V v8' := Function.update_of_ne (show v8' ≠ v10' by decide) _ _
theorem WR_v9 (V : Valuation τ sig (Elt F)) : WR V v9' = V v9' := Function.update_of_ne (show v9' ≠ v10' by decide) _ _
theorem WR_v11 (V : Valuation τ sig (Elt F)) : WR V v11' = V v11' := Function.update_of_ne (show v11' ≠ v10' by decide) _ _
theorem WR_v10 (V : Valuation τ sig (Elt F)) : WR V v10' = bodyOut (V v8') (V v9') (V v5') := Function.update_self _ _ _

/-- The result array after the one write-back: the body's sum, whole. -/
theorem arrAt_out (c : Dev nD) : (dat W c).arrAt (3 : Fin 4) cfg2.N = bodyOut (W c v8') (W c v9') (W c v5') := by
  rw [show cfg2.N = t2_0.val + 1 from rfl, (dat W c).arrAt_succ 3 t2_0, if_pos (flush2_3 _)]
  refine Eq.trans ?_ (Memref.write_access_unit_zero_univ (Elt F) main_v10 (off := fun a => (cfg2.win 3).index t2_0 a * (cfg2.win 3).size a)
    (funext fun a => Nat.zero_mul _) (fun a => Pipeline.Clip.inb ((cfg2.win 3).hclip (cfg2.grid.coords t2_0) a)) ((dat W c).arrAt 3 t2_0.val)
    (bodyOut (W c v8') (W c v9') (W c v5')))
  rfl
/-- The operand arrays are never written. -/
theorem arrAt_in0 (c : Dev nD) : (dat W c).arrAt (0 : Fin 4) cfg2.N = W c v8' := (dat W c).arrAt_in 0 rfl _
theorem arrAt_in1 (c : Dev nD) : (dat W c).arrAt (1 : Fin 4) cfg2.N = W c v9' := (dat W c).arrAt_in 1 rfl _
theorem arrAt_in2 (c : Dev nD) : (dat W c).arrAt (2 : Fin 4) cfg2.N = W c v5' := (dat W c).arrAt_in 2 rfl _

/-! ## The region's four entailments -/

/-- ENTRY: the fifteen arrays are the four the pipeline moves and the eleven that bypass it. -/
theorem reg_hentry (c : Dev nD) :
    iprop(iprop(held (T c) S15 (W c) ∗ tcOwes (F := F) c) ∗ Pipeline.ownSems0 (fun k : PEmpty => k.elim) c ∗ levAts (K (F := F)).L (K (F := F)).lev)
      ⊢ |={Set.univ}=> iprop((dat W c).arrays ((dat W c).arrAt · 0) ∗ Pipeline.prefHeld (pcfgs (F := F) 0).pre c (fun _ => fullShare) (adm (F := F) 0).1
          ∗ (dat W c).owesAt none 0 ∗ iprop(emp) ∗ Pipeline.unscopedRest spec2 c (VW W c)) := by
  rw [Pipeline.ownSems0_none, ← unscoped_held, prefHeld_emp]
  iintro ⟨⟨Hu, HO⟩, -, -⟩
  ihave H := (Pipeline.arrays_of_unscopedBufs (pcfgs (F := F)) adm (pdats W) (p := 0) winFacts2 arr_whole2 c (share_full W c) (VW W c) (fun _ => rfl)) $$ Hu
  icases H with ⟨Harr, Hrest⟩
  imodintro
  isplitl [Harr]; · iexact Harr
  isplitr; · iempintro
  isplitl [HO]; · iapply (owesAt_intro W c 0); iexact HO
  isplitr; · iempintro
  iexact Hrest

theorem reg_hout (c : Dev nD) :
    ((dat W c).Φ (Fin.last cfg2.N) : sProp 𝕄) ⊢ iprop(iprop(emp) ∗ Pipeline.ownSems0 (fun k : PEmpty => k.elim) c ∗ Pipeline.scopedRest spec2 c) := by
  rw [Pipeline.ownSems0_none, scopedRest2_eq]
  iintro -
  isplitr; · iempintro
  isplitr <;> iempintro

set_option maxHeartbeats 1000000 in
/-- EXIT: the operand arrays as they were, the result array at the body's sum, the eleven others: the fifteen again. -/
theorem reg_hexit (c : Dev nD) :
    iprop((dat W c).arrays ((dat W c).arrAt · cfg2.N) ∗ (dat W c).owesAt none (Fin.last cfg2.N) ∗ iprop(emp) ∗ Pipeline.unscopedRest spec2 c (VW W c))
      ⊢ |={Set.univ}=> iprop(held (T c) S15 (WR (W c)) ∗ tcOwes (F := F) c) := by
  rw [Pipeline.arrays_eq cfgs (fun _ c => dat W c) 0 c arr_whole2 (share_full W c), bigSep_W2, unscopedRest2_eq, held_S15]
  rw [WR_a0, WR_a1, WR_a2, WR_v0, WR_v1, WR_v2, WR_v3, WR_v4, WR_v5, WR_v6, WR_v7, WR_v8, WR_v9, WR_v11, WR_v10,
    arrAt_in0 W c, arrAt_in1 W c, arrAt_in2 W c, arrAt_out W c]
  iintro ⟨⟨Hv8, Hv9, Hv5, Hv10⟩, HO, -, Ha0, Ha1, Ha2, Hv0, Hv1, Hv2, Hv3, Hv4, Hv6, Hv7, Hv11⟩
  imodintro
  isplitr [HO]
  · isplitl [Ha0]; · iexact Ha0
    isplitl [Ha1]; · iexact Ha1
    isplitl [Ha2]; · iexact Ha2
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Hv8]; · iexact Hv8
    isplitl [Hv9]; · iexact Hv9
    isplitl [Hv10]; · iexact Hv10
    iexact Hv11
  iapply (owesAt_elim W c (Fin.last _)); iexact HO

/-- The TensorCore's kernel region: entered from the fifteen arrays held whole under `W` and the core owing nothing, it
    leaves them under `WR W`. The three operand arrays and the result array go through the pipeline; the other eleven
    bypass it. -/
def reg : Pipeline.RegionSeg (pcfgs (F := F)) adm (pdats W) (none : HIx 2) defs₀ 𝒱₀ (K (F := F)).L (K (F := F)).lev 0 where
  win := winFacts2.to₀
  block_pos := block_pos2
  stage_whole := stage_whole2
  K := PEmpty
  osem k := k.elim
  ho := Pipeline.OwnSemFacts.none _
  hbody c := (body_obligation W c).loose
  hwaits := Pipeline.hwaits_of_owed_zero _ _ _ _ _ _ 0 fun _ _ => rfl
  pre c := iprop(held (T c) S15 (W c) ∗ tcOwes (F := F) c)
  post c := iprop(held (T c) S15 (WR (W c)) ∗ tcOwes (F := F) c)
  X _ := iprop(emp)
  Y _ := iprop(emp)
  Z c := Pipeline.unscopedRest spec2 c (VW W c)
  hentry := reg_hentry W
  hin c := by iintro -; iempintro
  hout := reg_hout W
  hexit := reg_hexit W

theorem reg_pre (c : Dev nD) : (reg W).pre c = iprop(held (T c) S15 (W c) ∗ tcOwes (F := F) c) := rfl
theorem reg_post (c : Dev nD) : (reg W).post c = iprop(held (T c) S15 (WR (W c)) ∗ tcOwes (F := F) c) := rfl

/-! ## The region's call -/

/-- The region's call as the pipelines' program text, and @main's line as its lift. -/
abbrev regionCall : Prog (TpuEff nD τ sig (Elt F) (ΛP (F := F)) .tc) PUnit := Prog.op (.customCall (Pipeline.entry 0) ()) .ret
theorem lift_regionCall :
    (Prog.lift (.customCall (SparseCore.inner (Pipeline.entry 0)) ()) : Prog (TpuEff nD τ sig (Elt F) (SparseCore.Sig (ΛP (F := F)) 2) .tc) PUnit)
      = SparseCore.liftProg (regionCall (F := F)) := rfl

theorem tc_region (d : Dev nD) (V : Valuation τ sig (Elt F)) (Φ : PUnit → sProp 𝕄) :
    iprop(levAts (K (F := F)).L (K (F := F)).lev ∗ boundary (T d) ∗ held (T d) S15 V ∗ tcOwes (F := F) d ∗ mainG (F := F) d
        ∗ (iprop(boundary (T d) ∗ held (T d) S15 (WR V) ∗ tcOwes (F := F) d) -∗ Φ ⟨⟩))
      ⊢ wp frame (wpE ((K (F := F)).defs (D (F := F))) 𝒱 (T d) none) Set.univ
          (Prog.lift (.customCall (SparseCore.inner (Pipeline.entry 0)) ())) Φ := by
  rw [lift_regionCall]
  refine BIBase.Entails.trans ?_ ((K (F := F)).wp_liftProg (D (F := F)) 𝒱 (T d) Set.univ none (regionCall (F := F)) Φ)
  iintro ⟨#Hlev, Hb, Hheld, HO, ⟨Hg, Ht⟩, Hk⟩
  ihave Hg' := (Entails.of_eq (BI.bigSep_univ_of_subsingleton (Φ := fun p : Fin 1 => Pipeline.cellsGhost cfgs EP p d) (0 : Fin 1))) $$ Hg
  ihave Ht' := (Entails.of_eq (BI.bigSep_univ_of_subsingleton (Φ := fun p : Fin 1 => Pipeline.toksInit cfgs EP p d) (0 : Fin 1))) $$ Ht
  iapply (Pipeline.RegionSeg.wp (pcfgs (F := F)) adm (pdats (fun _ => V)) (none : HIx 2) cellOf_inj EP defs₀ 𝒱₀ (K (F := F)).L (K (F := F)).lev
      (reg (fun _ => V)) d none (fun _ h => nomatch h) (fun _ => .ret PUnit.unit) Φ)
  rw [reg_pre, reg_post]
  isplitl [Hk]
  · iintro ⟨Hb, Hheld, HO⟩
    rw [wp_ret]; imodintro
    iapply Hk
    isplitl [Hb]; · iexact Hb
    isplitl [Hheld] <;> iassumption
  isplitl [Hb]; · iexact Hb
  isplitl [Hheld HO]
  · isplitl [Hheld] <;> iassumption
  isplitr; · iexact Hlev
  isplitl [Hg'] <;> iassumption

end Cert.Proof.KI

end
-- ==== Proof.KI.TcOut.lean ====
/-
  What the TensorCore's addition leaves, as one function of its three operand arrays: entry (r, l) of the 128 × 128
  result is ((A[0, r, l] + A[1, r, l]) + B[0, r, l]) + B[1, r, l], plus the bias row's entry l.
-/
import proofs.«207420_g80582176408339_cont_9to1c4b_743_56_alg».proof.Proof.KI.Common

noncomputable section

namespace Cert.Proof.KI

open Cert.KernelIdeal Cert.KernelIdeal.Gen
open Idealize.ShloMosaic Idealize.ShloMosaic.ValueIdx

variable {F : FTy → Type} [FloatOps F]

def tcOut (A B : FVec F S2x128x128 .f32) (C : FVec F S1x128 .f32) : FVec F S128x128 .f32 := fun i =>
  FloatOps.addf (FloatOps.addf (FloatOps.addf (FloatOps.addf
    (A (ix3 (0 : Fin 2) (i 0 : Fin 128) (i 1 : Fin 128))) (A (ix3 (1 : Fin 2) (i 0 : Fin 128) (i 1 : Fin 128))))
    (B (ix3 (0 : Fin 2) (i 0 : Fin 128) (i 1 : Fin 128)))) (B (ix3 (1 : Fin 2) (i 0 : Fin 128) (i 1 : Fin 128))))
    (C (ix2 (0 : Fin 1) (i 1 : Fin 128)))

end Cert.Proof.KI

end
-- ==== Proof.KI.BodyOutEq.lean ====
/-
  What the TensorCore's body stores is the four halves added in order plus the bias row: the body's own term — loads of
  the two [1,128,128] halves of each partial-sum buffer recast as [128,128], added, the bias row broadcast over the
  rows — read at entry (r, l) is the specification's entry.
-/
import proofs.«207420_g80582176408339_cont_9to1c4b_743_56_alg».proof.Proof.KI.MainBody
import proofs.«207420_g80582176408339_cont_9to1c4b_743_56_alg».proof.Proof.KI.TcOut
import Idealize.ShloMosaic.Lib.ValueLayout
import Idealize.ShloMosaic.Lib.Pipeline.Value

noncomputable section

namespace Cert.Proof.KI

open Cert.KernelIdeal Cert.KernelIdeal.Gen
open Idealize.ShloMosaic Idealize.ShloMosaic.ValueIdx

variable {F : FTy → Type} [FloatOps F]

/-- A half of a whole [2,128,128] buffer, loaded as [1,128,128] and read at (0, r, l), is the buffer's entry (u, r, l), u the half. -/
theorem read0_lo (X : S2x128x128.Idx → Elt F .f32) (r l : Fin 128) :
    (stage2_0 0).view.readAt (Elt F) rcLo X (ix3 (0 : Fin 1) r l) = X (ix3 (0 : Fin 2) r l) := by
  rw [View.readAt_apply]
  show X _ = X _
  congr 1
  funext a
  apply Fin.ext
  simp only [View.emb_whole, Function.Embedding.refl_apply, LoadRect.idx_apply]
  match a with
  | ⟨0, _⟩ => rfl
  | ⟨1, _⟩ => show 0 + 1 * r.val = r.val; omega
  | ⟨2, _⟩ => show 0 + 1 * l.val = l.val; omega

theorem read0_hi (X : S2x128x128.Idx → Elt F .f32) (r l : Fin 128) :
    (stage2_0 0).view.readAt (Elt F) rcHi X (ix3 (0 : Fin 1) r l) = X (ix3 (1 : Fin 2) r l) := by
  rw [View.readAt_apply]
  show X _ = X _
  congr 1
  funext a
  apply Fin.ext
  simp only [View.emb_whole, Function.Embedding.refl_apply, LoadRect.idx_apply]
  match a with
  | ⟨0, _⟩ => rfl
  | ⟨1, _⟩ => show 0 + 1 * r.val = r.val; omega
  | ⟨2, _⟩ => show 0 + 1 * l.val = l.val; omega

theorem read1_lo (X : S2x128x128.Idx → Elt F .f32) (r l : Fin 128) :
    (stage2_1 0).view.readAt (Elt F) rcLo X (ix3 (0 : Fin 1) r l) = X (ix3 (0 : Fin 2) r l) := by
  rw [View.readAt_apply]
  show X _ = X _
  congr 1
  funext a
  apply Fin.ext
  simp only [View.emb_whole, Function.Embedding.refl_apply, LoadRect.idx_apply]
  match a with
  | ⟨0, _⟩ => rfl
  | ⟨1, _⟩ => show 0 + 1 * r.val = r.val; omega
  | ⟨2, _⟩ => show 0 + 1 * l.val = l.val; omega

theorem read1_hi (X : S2x128x128.Idx → Elt F .f32) (r l : Fin 128) :
    (stage2_1 0).view.readAt (Elt F) rcHi X (ix3 (0 : Fin 1) r l) = X (ix3 (1 : Fin 2) r l) := by
  rw [View.readAt_apply]
  show X _ = X _
  congr 1
  funext a
  apply Fin.ext
  simp only [View.emb_whole, Function.Embedding.refl_apply, LoadRect.idx_apply]
  match a with
  | ⟨0, _⟩ => rfl
  | ⟨1, _⟩ => show 0 + 1 * r.val = r.val; omega
  | ⟨2, _⟩ => show 0 + 1 * l.val = l.val; omega

/-- The body's stored term is the four halves added in order plus the bias row. -/
theorem bodyOut_eq (X0 X1 : S2x128x128.Idx → Elt F .f32) (X2 : S1x128.Idx → Elt F .f32) : bodyOut X0 X1 X2 = tcOut X0 X1 X2 := by
  funext i
  obtain ⟨r, l, rfl⟩ : ∃ (r : Fin 128) (l : Fin 128), i = ix2 r l := ⟨i 0, i 1, eq_ix2 i⟩
  unfold bodyOut tcOut Gen.k2_pay1
  simp only [addf]
  rw [shapeCast_1ab_ab_apply, shapeCast_1ab_ab_apply, shapeCast_1ab_ab_apply, shapeCast_1ab_ab_apply, broadcastTo_1b_ab_apply]
  rw [shapeCast_self, read0_lo, read0_hi, read1_lo, read1_hi]

end Cert.Proof.KI

end
-- ==== Proof.KI.TcValue.lean ====
/-
  The last host-side steps, read at one row.

  The two lookups' results are flat arrays of 32768 numbers, entry 16384 c + b being SparseCore c's partial sum for
  batch row b. Recast as [2, 128, 128] that entry sits at (c, b / 128, b % 128); the TensorCore's addition works on
  those 128 × 128 pages, and its result recast as [16384, 1] has entry (128 r + l, 0) from (r, l). So row b of the
  final array is ((first lookup, core 0) + (first lookup, core 1)) + (second lookup, core 0)) + (second lookup,
  core 1), plus the bias: the four partial sums in the order the program adds them. Only row-major positions are
  compared; no array is opened.
-/
import proofs.«207420_g80582176408339_cont_9to1c4b_743_56_alg».proof.Proof.KI.TcOut
import Idealize.ShloMosaic.Lib.Pipeline.Value
import Idealize.ShloMosaic.Lib.ValueIdx

noncomputable section

namespace Cert.Proof.KI

open Cert.KernelIdeal Cert.KernelIdeal.Gen
open Idealize.ShloMosaic Idealize.ShloMosaic.ValueIdx

variable {F : FTy → Type} [FloatOps F]

/-- A lookup's flat result recast as two pages of 128 × 128: page c at (b / 128, b % 128) is core c's partial sum for
    batch row b. -/
theorem partVal_page (xt : IVec S26x16384 32) (wh : FVec F S1300000 .f32) (fb : Nat) (c : Fin 2) (b : Fin 16384)
    (hr : b.val / 128 < 128) (hl : b.val % 128 < 128) :
    shapeCast S2x128x128 (partVal xt wh fb) Gen.shapeCasts_S32768_S2x128x128
        (ix3 c (⟨b.val / 128, hr⟩ : Fin 128) (⟨b.val % 128, hl⟩ : Fin 128))
      = partAt xt wh fb c.val b.val := by
  have hc := c.isLt
  have hb := b.isLt
  refine (shapeCast_apply _ _ _ (ix1 (⟨16384 * c.val + b.val, by omega⟩ : Fin 32768)) ?_).trans ?_
  · rw [Shape.rowMajor_val_one, Shape.rowMajor_val_three]
    show 16384 * c.val + b.val = (c.val * 128 + b.val / 128) * 128 + b.val % 128
    omega
  · show partAt xt wh fb ((16384 * c.val + b.val) / 16384) ((16384 * c.val + b.val) % 16384) = _
    have h1 : (16384 * c.val + b.val) / 16384 = c.val := by omega
    have h2 : (16384 * c.val + b.val) % 16384 = b.val := by omega
    rw [h1, h2]

/-- The bias row holds the bias in every lane. -/
theorem BR_apply (m : (ℓ : Loc nD τ sig) → Buf (Elt F) ℓ) (d : Dev nD) (l : Fin 128) :
    BR m d (ix2 (0 : Fin 1) l) = m (bLoc d) (ix1 (0 : Fin 1)) := by
  unfold BR broadcastInDim
  refine congrArg (m (bLoc d)) ?_
  funext a
  match a with
  | ⟨0, _⟩ => rfl

/-- The recast of the TensorCore's addition over the two lookups' recast results and the bias row is the final
    array: row b holds the four partial sums added in the program's order, plus the bias. -/
theorem res_of_tcOut (m : (ℓ : Loc nD τ sig) → Buf (Elt F) ℓ) (d : Dev nD) :
    shapeCast S16384x1 (tcOut (shapeCast S2x128x128 (PT0 m d) Gen.shapeCasts_S32768_S2x128x128) (shapeCast S2x128x128 (PT1 m d) Gen.shapeCasts_S32768_S2x128x128) (BR m d)) Gen.shapeCasts_S128x128_S16384x1 = RES m d := by
  funext i
  obtain ⟨b, z, rfl⟩ : ∃ (b : Fin 16384) (z : Fin 1), i = ix2 b z := ⟨i 0, i 1, eq_ix2 i⟩
  obtain rfl : z = 0 := Subsingleton.elim _ _
  have hb := b.isLt
  have hr : b.val / 128 < 128 := by omega
  have hl : b.val % 128 < 128 := by omega
  refine (shapeCast_apply _ _ _ (ix2 (⟨b.val / 128, hr⟩ : Fin 128) (⟨b.val % 128, hl⟩ : Fin 128)) ?_).trans ?_
  · rw [Shape.rowMajor_val_two, Shape.rowMajor_val_two]
    show b.val / 128 * 128 + b.val % 128 = b.val * 1 + 0
    omega
  · have e00 : (shapeCast S2x128x128 (PT0 m d) Gen.shapeCasts_S32768_S2x128x128) (ix3 (0 : Fin 2) (⟨b.val / 128, hr⟩ : Fin 128) (⟨b.val % 128, hl⟩ : Fin 128))
        = partAt (XT m d) (WH0 m d) 0 0 b.val := partVal_page _ _ 0 (0 : Fin 2) b hr hl
    have e01 : (shapeCast S2x128x128 (PT0 m d) Gen.shapeCasts_S32768_S2x128x128) (ix3 (1 : Fin 2) (⟨b.val / 128, hr⟩ : Fin 128) (⟨b.val % 128, hl⟩ : Fin 128))
        = partAt (XT m d) (WH0 m d) 0 1 b.val := partVal_page _ _ 0 (1 : Fin 2) b hr hl
    have e10 : (shapeCast S2x128x128 (PT1 m d) Gen.shapeCasts_S32768_S2x128x128) (ix3 (0 : Fin 2) (⟨b.val / 128, hr⟩ : Fin 128) (⟨b.val % 128, hl⟩ : Fin 128))
        = partAt (XT m d) (WH1 m d) 13 0 b.val := partVal_page _ _ 13 (0 : Fin 2) b hr hl
    have e11 : (shapeCast S2x128x128 (PT1 m d) Gen.shapeCasts_S32768_S2x128x128) (ix3 (1 : Fin 2) (⟨b.val / 128, hr⟩ : Fin 128) (⟨b.val % 128, hl⟩ : Fin 128))
        = partAt (XT m d) (WH1 m d) 13 1 b.val := partVal_page _ _ 13 (1 : Fin 2) b hr hl
    show FloatOps.addf (FloatOps.addf (FloatOps.addf (FloatOps.addf
        ((shapeCast S2x128x128 (PT0 m d) Gen.shapeCasts_S32768_S2x128x128) (ix3 (0 : Fin 2) (⟨b.val / 128, hr⟩ : Fin 128) (⟨b.val % 128, hl⟩ : Fin 128)))
        ((shapeCast S2x128x128 (PT0 m d) Gen.shapeCasts_S32768_S2x128x128) (ix3 (1 : Fin 2) (⟨b.val / 128, hr⟩ : Fin 128) (⟨b.val % 128, hl⟩ : Fin 128))))
        ((shapeCast S2x128x128 (PT1 m d) Gen.shapeCasts_S32768_S2x128x128) (ix3 (0 : Fin 2) (⟨b.val / 128, hr⟩ : Fin 128) (⟨b.val % 128, hl⟩ : Fin 128))))
        ((shapeCast S2x128x128 (PT1 m d) Gen.shapeCasts_S32768_S2x128x128) (ix3 (1 : Fin 2) (⟨b.val / 128, hr⟩ : Fin 128) (⟨b.val % 128, hl⟩ : Fin 128))))
        (BR m d (ix2 (0 : Fin 1) (⟨b.val % 128, hl⟩ : Fin 128)))
      = FloatOps.addf (FloatOps.addf (FloatOps.addf (FloatOps.addf (partAt (XT m d) (WH0 m d) 0 0 b.val)
        (partAt (XT m d) (WH0 m d) 0 1 b.val)) (partAt (XT m d) (WH1 m d) 13 0 b.val)) (partAt (XT m d) (WH1 m d) 13 1 b.val))
        (m (bLoc d) (ix1 (0 : Fin 1)))
    rw [e00, e01, e10, e11, BR_apply]

end Cert.Proof.KI

end
-- ==== Proof.KI.Main.lean ====
import proofs.«207420_g80582176408339_cont_9to1c4b_743_56_alg».proof.Proof.KI.MainCalls
import proofs.«207420_g80582176408339_cont_9to1c4b_743_56_alg».proof.Proof.KI.MainRegion
import proofs.«207420_g80582176408339_cont_9to1c4b_743_56_alg».proof.Proof.KI.BodyOutEq
import proofs.«207420_g80582176408339_cont_9to1c4b_743_56_alg».proof.Proof.KI.TcValue

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.StableHlo (held held_split held_sdiff_result held_sub_split held_congr wp_hlo_within after)

variable {F : FTy → Type}

local notation "𝕄" => MT nD τ sig (HIx 2) (Elt F) ℕ UU ℕ

/-
  @main on the TensorCore. Six host operations make the lookups' operands (the index matrix transposed, the two half
  tables flattened, the bias as a row); each lookup is handed, per SparseCore, a read share of the index rows and of its
  half table and that SparseCore's 16384 entries of the result, and hands them back at the partial sums; the two results
  recast as pages go through the TensorCore's own kernel, whose sum recast as a column is the final array.
-/

variable [FloatOps F] (m : (ℓ : Loc nD τ sig) → Buf (Elt F) ℓ) (ρ : Dev nD → PrngReg)

/-! ## The arrays' contents along @main -/

/-- Before the first lookup: the three arguments as launched, the index matrix transposed, the two half tables, the bias row. -/
theorem held_V6 (d : Dev nD) :
    (held (T d) S15 ((opB (F := F)).result ((opR1 (F := F)).result ((opS1 (F := F)).result ((opR0 (F := F)).result ((opS0 (F := F)).result ((opT (F := F)).result (V0 m d))))))) : sProp 𝕄)
      = iprop((xLoc d ↦{fullShare} m (xLoc d)) ∗ (wLoc d ↦{fullShare} m (wLoc d)) ∗ (bLoc d ↦{fullShare} m (bLoc d)) ∗ (xtLoc d ↦{fullShare} XT m d) ∗ ((SparseCore.T d).loc main_v1 ↦{fullShare} V6 m d v1') ∗ (w0Loc d ↦{fullShare} WH0 m d) ∗ ((SparseCore.T d).loc main_v3 ↦{fullShare} V6 m d v3') ∗ (w1Loc d ↦{fullShare} WH1 m d) ∗ (brLoc d ↦{fullShare} BR m d) ∗ (p0Loc d ↦{fullShare} m (p0Loc d)) ∗ (p1Loc d ↦{fullShare} m (p1Loc d)) ∗ ((SparseCore.T d).loc main_v8 ↦{fullShare} V6 m d v8') ∗ ((SparseCore.T d).loc main_v9 ↦{fullShare} V6 m d v9') ∗ ((SparseCore.T d).loc main_v10 ↦{fullShare} V6 m d v10') ∗ (resLoc d ↦{fullShare} V6 m d v11')) := by
  show held (SparseCore.T d) S15 (V6 m d) = _
  rw [held_S15, V6_a0, V6_a1, V6_a2, V6_v0, V6_v2, V6_v4, V6_v5, V6_v6, V6_v7]

/-- After the two lookups: their results at the partial sums. -/
def V7 (d : Dev nD) : Valuation τ sig (Elt F) := Function.update (Function.update (V6 m d) v6' (PT0 m d)) v7' (PT1 m d)
theorem V7_a0 (d : Dev nD) : V7 m d a0' = m (xLoc d) := ((Function.update_of_ne (show a0' ≠ v7' by decide) _ _).trans (Function.update_of_ne (show a0' ≠ v6' by decide) _ _)).trans (V6_a0 m d)
theorem V7_a1 (d : Dev nD) : V7 m d a1' = m (wLoc d) := ((Function.update_of_ne (show a1' ≠ v7' by decide) _ _).trans (Function.update_of_ne (show a1' ≠ v6' by decide) _ _)).trans (V6_a1 m d)
theorem V7_a2 (d : Dev nD) : V7 m d a2' = m (bLoc d) := ((Function.update_of_ne (show a2' ≠ v7' by decide) _ _).trans (Function.update_of_ne (show a2' ≠ v6' by decide) _ _)).trans (V6_a2 m d)
theorem V7_v0 (d : Dev nD) : V7 m d v0' = XT m d := ((Function.update_of_ne (show v0' ≠ v7' by decide) _ _).trans (Function.update_of_ne (show v0' ≠ v6' by decide) _ _)).trans (V6_v0 m d)
theorem V7_v1 (d : Dev nD) : V7 m d v1' = V6 m d v1' := ((Function.update_of_ne (show v1' ≠ v7' by decide) _ _).trans (Function.update_of_ne (show v1' ≠ v6' by decide) _ _))
theorem V7_v2 (d : Dev nD) : V7 m d v2' = WH0 m d := ((Function.update_of_ne (show v2' ≠ v7' by decide) _ _).trans (Function.update_of_ne (show v2' ≠ v6' by decide) _ _)).trans (V6_v2 m d)
theorem V7_v3 (d : Dev nD) : V7 m d v3' = V6 m d v3' := ((Function.update_of_ne (show v3' ≠ v7' by decide) _ _).trans (Function.update_of_ne (show v3' ≠ v6' by decide) _ _))
theorem V7_v4 (d : Dev nD) : V7 m d v4' = WH1 m d := ((Function.update_of_ne (show v4' ≠ v7' by decide) _ _).trans (Function.update_of_ne (show v4' ≠ v6' by decide) _ _)).trans (V6_v4 m d)
theorem V7_v5 (d : Dev nD) : V7 m d v5' = BR m d := ((Function.update_of_ne (show v5' ≠ v7' by decide) _ _).trans (Function.update_of_ne (show v5' ≠ v6' by decide) _ _)).trans (V6_v5 m d)
theorem V7_v6 (d : Dev nD) : V7 m d v6' = PT0 m d := (Function.update_of_ne (show v6' ≠ v7' by decide) _ _).trans (Function.update_self _ _ _)
theorem V7_v7 (d : Dev nD) : V7 m d v7' = PT1 m d := Function.update_self _ _ _
theorem V7_v8 (d : Dev nD) : V7 m d v8' = V6 m d v8' := ((Function.update_of_ne (show v8' ≠ v7' by decide) _ _).trans (Function.update_of_ne (show v8' ≠ v6' by decide) _ _))
theorem V7_v9 (d : Dev nD) : V7 m d v9' = V6 m d v9' := ((Function.update_of_ne (show v9' ≠ v7' by decide) _ _).trans (Function.update_of_ne (show v9' ≠ v6' by decide) _ _))
theorem V7_v10 (d : Dev nD) : V7 m d v10' = V6 m d v10' := ((Function.update_of_ne (show v10' ≠ v7' by decide) _ _).trans (Function.update_of_ne (show v10' ≠ v6' by decide) _ _))
theorem V7_v11 (d : Dev nD) : V7 m d v11' = V6 m d v11' := ((Function.update_of_ne (show v11' ≠ v7' by decide) _ _).trans (Function.update_of_ne (show v11' ≠ v6' by decide) _ _))

theorem held_V7 (d : Dev nD) :
    (held (T d) S15 (V7 m d) : sProp 𝕄)
      = iprop((xLoc d ↦{fullShare} m (xLoc d)) ∗ (wLoc d ↦{fullShare} m (wLoc d)) ∗ (bLoc d ↦{fullShare} m (bLoc d)) ∗ (xtLoc d ↦{fullShare} XT m d) ∗ ((SparseCore.T d).loc main_v1 ↦{fullShare} V6 m d v1') ∗ (w0Loc d ↦{fullShare} WH0 m d) ∗ ((SparseCore.T d).loc main_v3 ↦{fullShare} V6 m d v3') ∗ (w1Loc d ↦{fullShare} WH1 m d) ∗ (brLoc d ↦{fullShare} BR m d) ∗ (p0Loc d ↦{fullShare} PT0 m d) ∗ (p1Loc d ↦{fullShare} PT1 m d) ∗ ((SparseCore.T d).loc main_v8 ↦{fullShare} V6 m d v8') ∗ ((SparseCore.T d).loc main_v9 ↦{fullShare} V6 m d v9') ∗ ((SparseCore.T d).loc main_v10 ↦{fullShare} V6 m d v10') ∗ (resLoc d ↦{fullShare} V6 m d v11')) := by
  rw [held_S15, V7_a0, V7_a1, V7_a2, V7_v0, V7_v1, V7_v2, V7_v3, V7_v4, V7_v5, V7_v6, V7_v7, V7_v8, V7_v9, V7_v10, V7_v11]

/-- After the two recasts, the TensorCore's addition and the last recast. -/
def V9 (d : Dev nD) : Valuation τ sig (Elt F) := after [opP0, opP1] (V7 m d)
def V11 (d : Dev nD) : Valuation τ sig (Elt F) := (opO (F := F)).result (WR (V9 m d))

theorem V9_v8 (d : Dev nD) : V9 m d v8' = shapeCast S2x128x128 (PT0 m d) Gen.shapeCasts_S32768_S2x128x128 := by
  unfold V9; after_results_simp; rw [V7_v6]; rfl
theorem V9_v9 (d : Dev nD) : V9 m d v9' = shapeCast S2x128x128 (PT1 m d) Gen.shapeCasts_S32768_S2x128x128 := by
  unfold V9; after_results_simp; rw [V7_v7]; rfl
theorem V9_v5 (d : Dev nD) : V9 m d v5' = BR m d := by
  unfold V9; after_results_simp; exact V7_v5 m d
theorem V9_a0 (d : Dev nD) : V9 m d a0' = m (xLoc d) := by
  unfold V9; after_results_simp; exact V7_a0 m d
theorem V9_a1 (d : Dev nD) : V9 m d a1' = m (wLoc d) := by
  unfold V9; after_results_simp; exact V7_a1 m d
theorem V9_a2 (d : Dev nD) : V9 m d a2' = m (bLoc d) := by
  unfold V9; after_results_simp; exact V7_a2 m d

theorem V11_a0 (d : Dev nD) : V11 m d a0' = m (xLoc d) := by
  unfold V11; rw [(opO (F := F)).result_of_not_mem _ (show a0' ∉ ({v11'} : Finset (DevRef τ sig)) by decide), WR_a0, V9_a0]
theorem V11_a1 (d : Dev nD) : V11 m d a1' = m (wLoc d) := by
  unfold V11; rw [(opO (F := F)).result_of_not_mem _ (show a1' ∉ ({v11'} : Finset (DevRef τ sig)) by decide), WR_a1, V9_a1]
theorem V11_a2 (d : Dev nD) : V11 m d a2' = m (bLoc d) := by
  unfold V11; rw [(opO (F := F)).result_of_not_mem _ (show a2' ∉ ({v11'} : Finset (DevRef τ sig)) by decide), WR_a2, V9_a2]
theorem V11_v11 (d : Dev nD) : V11 m d v11' = RES m d := by
  unfold V11
  refine (StableHlo.reshape_result' (x := main_v10) (y := main_v11) rfl Gen.shapeCasts_S128x128_S16384x1 _ _ (WR (V9 m d))).trans ?_
  rw [WR_v10, V9_v8, V9_v9, V9_v5, bodyOut_eq]
  exact res_of_tcOut m d

/-- What @main leaves the claim, out of the fifteen arrays at the end. -/
theorem held_V11 (d : Dev nD) : (held (T d) S15 ((opO (F := F)).result (WR (V9 m d))) : sProp 𝕄) ⊢ FIN m d := by
  show held (SparseCore.T d) S15 (V11 m d) ⊢ _
  rw [held_S15, V11_a0, V11_a1, V11_a2, V11_v11]
  iintro ⟨Ha0, Ha1, Ha2, -, -, -, -, -, -, -, -, -, -, -, Hv11⟩
  isplitl [Ha0]; · iexact Ha0
  isplitl [Ha1]; · iexact Ha1
  isplitl [Ha2]; · iexact Ha2
  iexact Hv11

/-! ## The TensorCore's handshake state around its own kernel -/

/-- The TensorCore's state after both calls but for what it owes. -/
def tcSt2Rest (d : Dev nD) : sProp 𝕄 :=
  iprop(atPos EH ((K (F := F)).doneCell d) 2 ∅ 0 ∗ reached EH ((K (F := F)).doneCell d) 2
    ∗ (bigSep Finset.univ fun c : Fin τ.nSC => reached EH ((K (F := F)).startCell d c) ((K (F := F)).sRank c 2))
    ∗ bigSep (SparseCore.Cfg.callsFrom 2) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt2_eq (d : Dev nD) : ((K (F := F)).tcSt EH d 2 : sProp 𝕄) = iprop(tcOwes (F := F) d ∗ tcSt2Rest (F := F) d) := by
  unfold SparseCore.Cfg.tcSt tcSt2Rest tcOwes
  rw [(K (F := F)).Otc_end d (le_refl 2)]

/-! ## @main on the TensorCore -/

theorem hmain (κ : GSem nD τ sig → ℕ) (d : Dev nD) :
    iprop((K (F := F)).ctx EH (P m) κ ∗ (K (F := F)).tcSt EH d 0 ∗ (K (F := F)).tcRes m ρ d ∗ mainG (F := F) d)
      ⊢ wp frame (wpE ((K (F := F)).defs (D (F := F))) 𝒱 (SparseCore.T d) none) Set.univ (main d)
          fun _ => iprop((K (F := F)).tcSt EH d 2 ∗ FIN m d) := by
  unfold SparseCore.Cfg.tcRes
  rw [show (unscopedBufs d (fun b => m ((SparseCore.T d).loc b)) : sProp 𝕄) = held (T d) S15 (V0 m d) from unscoped_held d (V0 m d)]
  simp only [main, wp_bind, wp_pure]
  iintro ⟨#Hctx, Hst, ⟨Hb, Hheld, -, -⟩, HG⟩
  -- the six host operations
  iapply (wp_hlo_within 𝒱 (SparseCore.T d) none Set.univ (op := opT) (S := S15) hT (V := V0 m d)) $$ [Hb Hheld]
  · isplitl [Hb] <;> iassumption
  iintro ⟨Hb, Hheld⟩
  rw [wp_ret]; imodintro
  iapply (wp_hlo_within 𝒱 (SparseCore.T d) none Set.univ (op := opS0) (S := S15) hS0 (V := (opT (F := F)).result (V0 m d))) $$ [Hb Hheld]
  · isplitl [Hb] <;> iassumption
  iintro ⟨Hb, Hheld⟩
  rw [wp_ret]; imodintro
  iapply (wp_hlo_within 𝒱 (SparseCore.T d) none Set.univ (op := opR0) (S := S15) hR0 (V := (opS0 (F := F)).result ((opT (F := F)).result (V0 m d)))) $$ [Hb Hheld]
  · isplitl [Hb] <;> iassumption
  iintro ⟨Hb, Hheld⟩
  rw [wp_ret]; imodintro
  iapply (wp_hlo_within 𝒱 (SparseCore.T d) none Set.univ (op := opS1) (S := S15) hS1 (V := (opR0 (F := F)).result ((opS0 (F := F)).result ((opT (F := F)).result (V0 m d))))) $$ [Hb Hheld]
  · isplitl [Hb] <;> iassumption
  iintro ⟨Hb, Hheld⟩
  rw [wp_ret]; imodintro
  iapply (wp_hlo_within 𝒱 (SparseCore.T d) none Set.univ (op := opR1) (S := S15) hR1 (V := (opS1 (F := F)).result ((opR0 (F := F)).result ((opS0 (F := F)).result ((opT (F := F)).result (V0 m d)))))) $$ [Hb Hheld]
  · isplitl [Hb] <;> iassumption
  iintro ⟨Hb, Hheld⟩
  rw [wp_ret]; imodintro
  iapply (wp_hlo_within 𝒱 (SparseCore.T d) none Set.univ (op := opB) (S := S15) hB (V := (opR1 (F := F)).result ((opS1 (F := F)).result ((opR0 (F := F)).result ((opS0 (F := F)).result ((opT (F := F)).result (V0 m d))))))) $$ [Hb Hheld]
  · isplitl [Hb] <;> iassumption
  iintro ⟨Hb, Hheld⟩
  rw [wp_ret]; imodintro
  ihave Hh := (Entails.of_eq (held_V6 (F := F) m d)) $$ Hheld
  icases Hh with ⟨Ha0, Ha1, Ha2, Hxt, Hv1, Hw0, Hv3, Hw1, Hbr, Hp0, Hp1, Hv8, Hv9, Hv10, Hv11⟩
  -- the read shares and the results' halves for the two SparseCores
  ihave Hxt' := (pointsTo_toks_split (ℓ := xtLoc d) fullShare 2) $$ Hxt
  icases Hxt' with ⟨Hxt0, Hxts⟩
  ihave Hw0' := (pointsTo_toks_split (ℓ := w0Loc d) fullShare 2) $$ Hw0
  icases Hw0' with ⟨Hw00, Hw0s⟩
  ihave Hw1' := (pointsTo_toks_split (ℓ := w1Loc d) fullShare 2) $$ Hw1
  icases Hw1' with ⟨Hw10, Hw1s⟩
  ihave Hp0s := (Entails.of_eq (p0_halves (F := F) d (m (p0Loc d)))) $$ Hp0
  ihave Hp1s := (Entails.of_eq (p1_halves (F := F) d (m (p1Loc d)))) $$ Hp1

  -- lookup 0
  iapply ((K (F := F)).wp_run (D (F := F)) 𝒱 (EH := EH) (P := P m) κ d 0) $$ [Hst HG Hb Ha0 Ha1 Ha2 Hv1 Hv3 Hbr Hv8 Hv9 Hv10 Hv11 Hxt0 Hxts Hw00 Hw0s Hw10 Hw1s Hp0s Hp1s]
  isplitr; · iexact Hctx
  isplitl [Hst]; · iexact Hst
  isplitl [Hxts Hw0s Hp0s]
  · rw [st0_eq]
    isplitl [Hxts]; · iexact Hxts
    isplitl [Hw0s] <;> iassumption
  iintro ⟨Hst, Hdn⟩
  ihave Hdn' := (Entails.of_eq (dn0_eq (F := F) m d)) $$ Hdn
  icases Hdn' with ⟨Hxts, Hw0s, Hp0s, Hbpos⟩
  -- lookup 1
  iapply ((K (F := F)).wp_run (D (F := F)) 𝒱 (EH := EH) (P := P m) κ d 1) $$ [Hst HG Hb Ha0 Ha1 Ha2 Hv1 Hv3 Hbr Hv8 Hv9 Hv10 Hv11 Hxt0 Hxts Hw00 Hw0s Hw10 Hw1s Hp0s Hp1s Hbpos]
  isplitr; · iexact Hctx
  isplitl [Hst]; · iexact Hst
  isplitl [Hxts Hw1s Hp1s Hbpos]
  · rw [st1_eq]
    isplitl [Hxts]; · iexact Hxts
    isplitl [Hw1s]; · iexact Hw1s
    isplitl [Hp1s] <;> iassumption
  iintro ⟨Hst, Hdn⟩
  ihave Hdn' := (Entails.of_eq (dn1_eq (F := F) m d)) $$ Hdn
  icases Hdn' with ⟨Hxts, Hw1s, Hp1s⟩
  -- the shares rejoined, the results whole again
  ihave Hxt := (pointsTo_toks_join (ℓ := xtLoc d) fullShare 2) $$ [Hxt0 Hxts]
  · isplitl [Hxt0] <;> iassumption
  ihave Hw0 := (pointsTo_toks_join (ℓ := w0Loc d) fullShare 2) $$ [Hw00 Hw0s]
  · isplitl [Hw00] <;> iassumption
  ihave Hw1 := (pointsTo_toks_join (ℓ := w1Loc d) fullShare 2) $$ [Hw10 Hw1s]
  · isplitl [Hw10] <;> iassumption
  ihave Hp0 := (Entails.of_eq (p0_halves (F := F) d (PT0 m d)).symm) $$ Hp0s
  ihave Hp1 := (Entails.of_eq (p1_halves (F := F) d (PT1 m d)).symm) $$ Hp1s
  -- the two recasts
  iapply (wp_hlo_within 𝒱 (SparseCore.T d) none Set.univ (op := opP0) (S := S15) hP0 (V := V7 m d)) $$ [Hb Ha0 Ha1 Ha2 Hxt Hv1 Hw0 Hv3 Hw1 Hbr Hp0 Hp1 Hv8 Hv9 Hv10 Hv11]
  · isplitl [Hb]; · iexact Hb
    rw [held_V7]
    isplitl [Ha0]; · iexact Ha0
    isplitl [Ha1]; · iexact Ha1
    isplitl [Ha2]; · iexact Ha2
    isplitl [Hxt]; · iexact Hxt
    isplitl [Hv1]; · iexact Hv1
    isplitl [Hw0]; · iexact Hw0
    isplitl [Hv3]; · iexact Hv3
    isplitl [Hw1]; · iexact Hw1
    isplitl [Hbr]; · iexact Hbr
    isplitl [Hp0]; · iexact Hp0
    isplitl [Hp1]; · iexact Hp1
    isplitl [Hv8]; · iexact Hv8
    isplitl [Hv9]; · iexact Hv9
    isplitl [Hv10]; · iexact Hv10
    iexact Hv11
  iintro ⟨Hb, Hheld⟩
  rw [wp_ret]; imodintro
  iapply (wp_hlo_within 𝒱 (SparseCore.T d) none Set.univ (op := opP1) (S := S15) hP1 (V := (opP0 (F := F)).result (V7 m d))) $$ [Hb Hheld]
  · isplitl [Hb] <;> iassumption
  iintro ⟨Hb, Hheld⟩
  rw [wp_ret]; imodintro

  -- the TensorCore's own kernel: it owes nothing any more
  ihave Hst' := (Entails.of_eq (show ((K (F := F)).tcSt EH d ((1 : Fin 2).val + 1) : sProp 𝕄) = iprop(tcOwes (F := F) d ∗ tcSt2Rest (F := F) d) from tcSt2_eq (F := F) d)) $$ Hst
  icases Hst' with ⟨HO, Hrest⟩
  ihave Hlev := (SparseCore.Cfg.ctx_levAts (K := K (F := F)) (EH := EH) (P := P m) κ) $$ Hctx
  iapply (tc_region d ((opP1 (F := F)).result ((opP0 (F := F)).result (V7 m d))) _) $$ [Hlev Hb Hheld HO HG Hrest]
  isplitl [Hlev]; · iexact Hlev
  isplitl [Hb]; · iexact Hb
  isplitl [Hheld]; · iexact Hheld
  isplitl [HO]; · iexact HO
  isplitl [HG]; · iexact HG
  iintro ⟨Hb, Hheld, HO⟩
  -- the last recast
  iapply (wp_hlo_within 𝒱 (SparseCore.T d) none Set.univ (op := opO) (S := S15) hO (V := WR ((opP1 (F := F)).result ((opP0 (F := F)).result (V7 m d))))) $$ [Hb Hheld]
  · isplitl [Hb] <;> iassumption
  iintro ⟨Hb, Hheld⟩
  rw [wp_ret]; imodintro
  imodintro
  isplitl [HO Hrest]
  · iapply (Entails.of_eq (tcSt2_eq (F := F) d).symm)
    isplitl [HO] <;> iassumption
  iapply (held_V11 m d); iexact Hheld

end Cert.Proof.KI

end
-- ==== Proof.KI.Whole.lean ====
/-
  The kernel's run from the launch memory, whole: the launch theorem applied to the two lookups' tile obligations, the
  splits of each SparseCore's operands among its tiles, the launch element and @main on the TensorCore. Under the stated
  domain of the index matrix every weakly fair execution of all the threads terminates, nothing faulting, with the result
  array at `RES` and the three arguments unchanged.
-/
import proofs.«207420_g80582176408339_cont_9to1c4b_743_56_alg».proof.Proof.KI.Run
import proofs.«207420_g80582176408339_cont_9to1c4b_743_56_alg».proof.Proof.KI.Value
import proofs.«207420_g80582176408339_cont_9to1c4b_743_56_alg».proof.Proof.KI.Tile0
import proofs.«207420_g80582176408339_cont_9to1c4b_743_56_alg».proof.Proof.KI.Tile1
import proofs.«207420_g80582176408339_cont_9to1c4b_743_56_alg».proof.Proof.KI.Main

noncomputable section

namespace Cert.Proof.KI

open Cert.KernelIdeal Cert.KernelIdeal.Gen
open Idealize.ShloMosaic Idealize.SL.Sem

variable {F : FTy → Type} [FloatOps F]

theorem run_main [∀ e, Nonempty (Elt F e)] (m : (ℓ : Loc nD τ sig) → Buf (Elt F) ℓ) (ρ : Dev nD → PrngReg) (hx : InRange m) :
    θ_run (Cert.KernelIdeal.defs (F := F)) (Cert.KernelIdeal.threads (F := F)) ⟨m, fun _ => 0, ρ⟩ (QC m) :=
  run_of_parts m ρ (tileObl0 m hx facts) (tileObl1 m hx facts) (hmain m ρ)

end Cert.Proof.KI

end
-- ==== Proof.KB.Common.lean ====
/-
  What the parts of the kernel's proof share.

  The program: two lookups on the SparseCores, one after the other, then one addition on the TensorCore.
  Lookup k (k = 0, 1) handles fields 13k … 13k + 12 of the 26. On SparseCore c, tile s with s + c < 7 owns
  field 13k + 7c + s: it copies that field's 100000 table rows into its own memory, then, 2048 batch rows at
  a time, copies the field's index row, looks every index up, and copies the 2048 numbers into row s of its
  SparseCore's shared buffer (7 rows of 16384). On SparseCore 1 tile 6 fills row 6 with zeros (only 6 fields
  are left for it). All sixteen tiles then meet at the barrier; after it tile s owns columns
  1024 s … 1024 s + 1023 of every row, adds the seven rows there, and writes the 1024 sums to the lookup's
  result at 16384 c + 1024 s. The TensorCore adds the four partial sums (two lookups, two SparseCores) and
  the bias.

  Ownership. Nothing is shared for reading: a tile alone reads its field's table rows and its index row
  (handed to it as read shares of the whole arrays, one per tile); row s of the shared buffer is written by
  tile s alone before the barrier, and column block s of every row is read by tile s alone after it. The
  barrier is therefore what moves ownership: arriving, tile a hands each tile j the piece (row a, column
  block j) it has written, at the looked-up values. Each tile's barrier semaphore is used once per lookup:
  round k of it is lookup k's barrier.
-/
import proofs.«207420_g80582176408339_cont_9to1c4b_743_56_alg».proof.Defs
import proofs.«207420_g80582176408339_cont_9to1c4b_743_56_alg».proof.Proof.Gen.Kernel
import proofs.«207420_g80582176408339_cont_9to1c4b_743_56_alg».proof.Proof.Gen.Kernel.Skeleton
import proofs.«207420_g80582176408339_cont_9to1c4b_743_56_alg».proof.Proof.Gen.Kernel.Launch
import proofs.«207420_g80582176408339_cont_9to1c4b_743_56_alg».proof.Proof.Gen.Kernel.Points
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 2 := sc (F := F)
theorem nSub_eq (q : Fin 2) : (K (F := F)).nSub q = 16 := by fin_cases q <;> rfl
theorem nCore_eq (q : Fin 2) : (K (F := F)).nCore q = 2 := by fin_cases q <;> rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier cells' rounds, the TensorCore pipeline's staging
    cells' rounds, and the local transfers' counters -/

abbrev UH : Type := URounds (GSem nD τ sig) ℕ
abbrev UB : Type := URounds (GSem nD τ sig) ℕ
abbrev UP : Type := URounds (GSem nD τ sig) Unit
abbrev UU : Type := UH × (UB × (UP × Counters))

local notation "𝕄" => MT nD τ sig (HIx 2) (Elt F) ℕ UU ℕ

abbrev EH : Emb UH (MT nD τ sig (HIx 2) (Elt F) ℕ UU ℕ) := embL
def EB : Emb UB (MT nD τ sig (HIx 2) (Elt F) ℕ UU ℕ) :=
  ((Emb.inl : Emb UB (UB × (UP × Counters))).trans (Emb.inr : Emb (UB × (UP × Counters)) UU)).trans
    (uEmb (nD := nD) (sig := sig) (Ix := HIx 2) (Val := Elt F) (Name := ℕ) (U := UU) (Lvl := ℕ)).toEmb
def EP : Emb UP (MT nD τ sig (HIx 2) (Elt F) ℕ UU ℕ) :=
  (((Emb.inl : Emb UP (UP × Counters)).trans (Emb.inr : Emb (UP × Counters) (UB × (UP × Counters)))).trans (Emb.inr : Emb (UB × (UP × Counters)) UU)).trans
    (uEmb (nD := nD) (sig := sig) (Ix := HIx 2) (Val := Elt F) (Name := ℕ) (U := UU) (Lvl := ℕ)).toEmb
instance EB_landsIn : (EB : Emb UB 𝕄).LandsIn (upEmb : UEmb _ 𝕄) := by unfold EB; infer_instance
instance EP_landsIn : (EP : Emb UP 𝕄).LandsIn (upEmb : UEmb _ 𝕄) := by unfold EP; infer_instance

/-! ## The launch memory, the arrays, and what each holds at each point -/

variable (m : (ℓ : Loc nD τ sig) → Buf (Elt F) ℓ) (ρ : Dev nD → PrngReg)

abbrev xLoc (d : Dev nD) : Loc nD τ sig := (SparseCore.T d).loc main_arg0
abbrev wLoc (d : Dev nD) : Loc nD τ sig := (SparseCore.T d).loc main_arg1
abbrev bLoc (d : Dev nD) : Loc nD τ sig := (SparseCore.T d).loc main_arg2
/-- The index matrix transposed (one row per field), the table's two halves flattened, the bias as a row of 128, the two
    lookups' results (each: SparseCore 0's 16384 partial sums, then SparseCore 1's), and the final result. -/
abbrev xtLoc (d : Dev nD) : Loc nD τ sig := (SparseCore.T d).loc main_v0
abbrev w0Loc (d : Dev nD) : Loc nD τ sig := (SparseCore.T d).loc main_v2
abbrev w1Loc (d : Dev nD) : Loc nD τ sig := (SparseCore.T d).loc main_v4
abbrev brLoc (d : Dev nD) : Loc nD τ sig := (SparseCore.T d).loc main_v5
abbrev p0Loc (d : Dev nD) : Loc nD τ sig := (SparseCore.T d).loc main_v6
abbrev p1Loc (d : Dev nD) : Loc nD τ sig := (SparseCore.T d).loc main_v7
abbrev resLoc (d : Dev nD) : Loc nD τ sig := (SparseCore.T d).loc main_v11
/-- SparseCore `c`'s shared buffer of lookup 0 and of lookup 1: 7 rows of 16384, flat. -/
abbrev acc0Ref (c : Fin τ.nSC) : DevRef τ sig := ⟨.shared, ⟨0, by decide⟩, c⟩
abbrev acc1Ref (c : Fin τ.nSC) : DevRef τ sig := ⟨.shared, ⟨1, by decide⟩, c⟩
abbrev acc0Loc (d : Dev nD) (c : Fin τ.nSC) : Loc nD τ sig := (d, acc0Ref c)
abbrev acc1Loc (d : Dev nD) (c : Fin τ.nSC) : Loc nD τ sig := (d, acc1Ref c)

variable [FloatOps F]

open Idealize.ShloMosaic.ValueIdx in
/-- Entry `n` of a half table; the zero word for a number that names no entry. -/
def whAt (wh : FVec F S1300000 .f32) (n : Nat) : F .f32 :=
  if h : n < 1300000 then wh (ix1 (⟨n, h⟩ : Fin 1300000)) else Scalar.ofBits .f32 0x00000000#32

open Idealize.ShloMosaic.ValueIdx in
/-- The index field `f` holds for batch row `b`, as a number; zero outside the matrix. -/
def xtAt (xt : IVec S26x16384 32) (f b : Nat) : Nat :=
  if h : f < 26 ∧ b < 16384 then (xt (ix2 (⟨f, h.1⟩ : Fin 26) (⟨b, h.2⟩ : Fin 16384))).toNat else 0

/-- What row `r` of SparseCore `c`'s shared buffer holds for batch row `b` when the tiles have passed the barrier, in the
    lookup whose first field is `fb`: the looked-up entry of field `fb + 7c + r` where a tile owns that row's field
    (`r + c < 7`), the zero word in the one row left over. -/
def accAt (xt : IVec S26x16384 32) (wh : FVec F S1300000 .f32) (fb c r b : Nat) : F .f32 :=
  if r + c < 7 then whAt wh ((7 * c + r) * 100000 + xtAt xt (fb + 7 * c + r) b) else Scalar.ofBits .f32 0x00000000#32

/-- The whole shared buffer then, flat: entry `16384 r + b`. -/
def accVal (xt : IVec S26x16384 32) (wh : FVec F S1300000 .f32) (fb c : Nat) : FVec F S114688 .f32 :=
  fun j => accAt xt wh fb c ((j 0).val / 16384) ((j 0).val % 16384)

/-- SparseCore `c`'s partial sum for batch row `b`: its seven rows added, first to last. -/
def partAt (xt : IVec S26x16384 32) (wh : FVec F S1300000 .f32) (fb c b : Nat) : F .f32 :=
  FloatOps.addf (FloatOps.addf (FloatOps.addf (FloatOps.addf (FloatOps.addf (FloatOps.addf
    (accAt xt wh fb c 0 b) (accAt xt wh fb c 1 b)) (accAt xt wh fb c 2 b)) (accAt xt wh fb c 3 b)) (accAt xt wh fb c 4 b))
    (accAt xt wh fb c 5 b)) (accAt xt wh fb c 6 b)

/-- A lookup's result, flat: entry `16384 c + b`. -/
def partVal (xt : IVec S26x16384 32) (wh : FVec F S1300000 .f32) (fb : Nat) : FVec F S32768 .f32 :=
  fun j => partAt xt wh fb ((j 0).val / 16384) ((j 0).val % 16384)

/-- The final result for batch row `b`: the four partial sums added in the order the TensorCore adds them, then the bias. -/
def resAt (xt : IVec S26x16384 32) (w0 w1 : FVec F S1300000 .f32) (bias : F .f32) (b : Nat) : F .f32 :=
  FloatOps.addf (FloatOps.addf (FloatOps.addf (FloatOps.addf (partAt xt w0 0 0 b) (partAt xt w0 0 1 b)) (partAt xt w1 13 0 b))
    (partAt xt w1 13 1 b)) bias

/-- The arrays' contents as functions of the launch memory. -/
def XT (d : Dev nD) : IVec S26x16384 32 := transpose S26x16384 [1, 0] (m (xLoc d)) Gen.transposes_S16384x26_S26x16384_1_0
def WH0 (d : Dev nD) : FVec F S1300000 .f32 :=
  shapeCast S1300000 (extractStridedSlice S1300000x1 ![0, 0] (m (wLoc d)) Gen.slices_S2600000x1_S1300000x1_0_0) Gen.shapeCasts_S1300000x1_S1300000
def WH1 (d : Dev nD) : FVec F S1300000 .f32 :=
  shapeCast S1300000 (extractStridedSlice S1300000x1 ![1300000, 0] (m (wLoc d)) Gen.slices_S2600000x1_S1300000x1_1300000_0) Gen.shapeCasts_S1300000x1_S1300000
def BR (d : Dev nD) : FVec F S1x128 .f32 := broadcastInDim S1x128 ![1] Gen.bcast_S1_S1x128_1 (m (bLoc d))
def PT0 (d : Dev nD) : FVec F S32768 .f32 := partVal (XT m d) (WH0 m d) 0
def PT1 (d : Dev nD) : FVec F S32768 .f32 := partVal (XT m d) (WH1 m d) 13
def ACC0 (d : Dev nD) (c : Fin τ.nSC) : FVec F S114688 .f32 := accVal (XT m d) (WH0 m d) 0 c.val
def ACC1 (d : Dev nD) (c : Fin τ.nSC) : FVec F S114688 .f32 := accVal (XT m d) (WH1 m d) 13 c.val
open Idealize.ShloMosaic.ValueIdx in
def RES (d : Dev nD) : FVec F S16384x1 .f32 :=
  fun i => resAt (XT m d) (WH0 m d) (WH1 m d) (m (bLoc d) (ix1 (0 : Fin 1))) (i 0).val

/-! ## Flat pieces of the one-dimensional arrays -/

/-- The entries `lo ≤ · < lo + len` of a flat array. -/
def seg {N : Nat} (lo len : Nat) : Finset (⟨1, ![N]⟩ : Shape).Idx := Finset.univ.filter fun i => lo ≤ (i 0).val ∧ (i 0).val < lo + len

/-! ## The barrier cells: one per tile, round `k` for lookup `k` -/

/-- Tile `(c, j)`'s barrier semaphore of device `d`. -/
abbrev bcell (d : Dev nD) (c : Fin τ.nSC) (j : Fin τ.nSub) : GSem nD τ sig := (V d c j, .reg sc_bar0)
/-- A tile's number among its SparseCore's sixteen. -/
abbrev jt (j : Fin 16) : Fin τ.nSub := j.castLE (by decide)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- What tile `n`'s arrival at lookup `r`'s barrier hands tile `j`: the piece it has written of its row of the shared
    buffer that tile `j` will read — row `n`, columns `1024 j … 1024 j + 1023` —, at the looked-up values. Tiles 7 to 15
    own no row and hand over nothing. -/
def bPay (g : GSem nD τ sig) (r n : ℕ) : sProp 𝕄 :=
  match g with
  | ((d, .scVector c j), _) =>
      if n < 7 then
        (if r = 0 then iprop(acc0Loc d c ↦[seg (N := 114688) (16384 * n + 1024 * j.val) 1024]{fullShare} ACC0 m d c)
         else if r = 1 then iprop(acc1Loc d c ↦[seg (N := 114688) (16384 * n + 1024 * j.val) 1024]{fullShare} ACC1 m d c)
         else iprop(emp))
      else iprop(emp)
  | _ => iprop(emp)

/-- The barrier cells' schedule: two rounds on each (one per lookup), each of one unit duty per tile of the SparseCore
    (named by its number), whose payload is `bPay`. -/
def bRd : Rounds.Schedule (GSem nD τ sig) ℕ 𝕄 where
  duties g r := if isBar g ∧ r < 2 then (Finset.univ : Finset (Fin τ.nSub)).image Fin.val else ∅
  amount _ _ _ := 1
  payload g r n := bPay m g r n
  amount_pos _ _ _ _ := Nat.one_pos

instance bRd_payload_storable (g : GSem nD τ sig) (r n : ℕ) : BI.Storable (upEmb : UEmb _ 𝕄) ((bRd (F := F) m).payload g r n) := by
  show BI.Storable upEmb (bPay m g r n)
  unfold bPay
  rcases g with ⟨⟨d, _ | c | ⟨c, i⟩⟩, sm⟩ <;> dsimp only <;> (repeat' split) <;> infer_instance

theorem bRd_duties (d : Dev nD) (c : Fin τ.nSC) (j : Fin τ.nSub) {r : ℕ} (hr : r < 2) :
    (bRd (F := F) m).duties (bcell d c j) r = (Finset.univ : Finset (Fin τ.nSub)).image Fin.val := by
  show (if isBar (bcell d c j) = true ∧ r < 2 then _ else ∅) = _
  rw [if_pos ⟨isBar_bcell d c j, hr⟩]
theorem bRd_mem (d : Dev nD) (c : Fin τ.nSC) (j i : Fin τ.nSub) {r : ℕ} (hr : r < 2) : i.val ∈ (bRd (F := F) m).duties (bcell d c j) r := by
  rw [bRd_duties m d c j hr]; exact Finset.mem_image_of_mem _ (Finset.mem_univ i)
theorem bRd_expect (d : Dev nD) (c : Fin τ.nSC) (j : Fin τ.nSub) {r : ℕ} (hr : r < 2) : 0 + 16 = (bRd (F := F) m).expect (bcell d c j) r := by
  unfold Rounds.Schedule.expect; rw [bRd_duties m d c j hr]
  show 0 + 16 = ∑ x ∈ (Finset.univ : Finset (Fin 16)).image Fin.val, 1
  rw [Finset.sum_const, Finset.card_image_of_injective _ Fin.val_injective]; rfl

/-- What the launch has a tile owe for lookup `q`'s barrier: a unit on every tile's cell of its SparseCore, at the call's index. -/
def oxV (q : Fin 2) (d : Dev nD) (c : Fin τ.nSC) : CellTallies nD τ sig (HIx 2) := ∑ j : Fin 16, tallyAt (bcell d c (jt j)) (some q) 1

omit [FloatOps F] in
theorem oxV_none (q : Fin 2) (d : Dev nD) (c : Fin τ.nSC) (g : GSem nD τ sig) : oxV q d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {q : Fin 2} {d : Dev nD} {c : Fin τ.nSC} {g : GSem nD τ sig} {ι : HIx 2} (h : 0 < oxV q d c g ι) :
    ∃ j : Fin 16, g = bcell d c (jt j) ∧ ι = some q := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- A tile's standing on its own barrier cell once lookup 0's barrier is behind it: at the origin of round 1, that round
    reached. It travels back with the task's results and out again with lookup 1's operands. -/
def bpos (d : Dev nD) (c : Fin τ.nSC) (i : Fin τ.nSub) : sProp 𝕄 := iprop(atPos EB (bcell d c i) 1 ∅ 0 ∗ reached EB (bcell d c i) 1)

/-- Tile `(c, i)`'s barrier kit for lookup `q`, dealt at the launch: every tile's cell invariant of its SparseCore, its
    duty token in every tile's round `q`, the credit for the sixteen units of its own round `q`; and for lookup 0 also
    that every cell has reached round 0 and its own position at the origin. -/
def bkit (q : Fin 2) (d : Dev nD) (c : Fin τ.nSC) (i : Fin τ.nSub) : sProp 𝕄 :=
  iprop((∃ κ : GSem nD τ sig → ℕ, bigSep Finset.univ fun j : Fin 16 => cellInv EB (bRd (F := F) m) (κ (bcell d c (jt j))) (bcell d c (jt j)))
    ∗ (bigSep Finset.univ fun j : Fin 16 => dutyTok EB (bcell d c (jt j)) q.val i.val)
    ∗ cred (tallyAt (bcell d c i) (some q) 16)
    ∗ (if q.val = 0 then iprop((bigSep Finset.univ fun j : Fin 16 => reached EB (bcell d c (jt j)) 0) ∗ atPos EB (bcell d c i) 0 ∅ 0)
       else iprop(emp)))

/-! ## What the handshakes carry -/

open Idealize.ShloMosaic.Transfers (shareTok shareDrop)

/-- The read share of a whole array a SparseCore is handed at a lookup, and the one a tile of it is. -/
abbrev shC (c : Fin 2) : PosShare TreeShare := shareTok fullShare 2 c
abbrev shT (c : Fin 2) (i : Fin 16) : PosShare TreeShare := shareTok (shC c) 16 i
/-- A SparseCore's number as the topology's. -/
abbrev cT (c : Fin 2) : Fin τ.nSC := c.castLE (by decide)
/-- A lookup's grid coordinates as plain numbers. -/
abbrev cN (q : Fin 2) (c : Fin ((K (F := F)).nCore q)) : Fin 2 := Fin.cast (nCore_eq q) c
abbrev iN (q : Fin 2) (i : Fin ((K (F := F)).nSub q)) : Fin 16 := Fin.cast (nSub_eq q) i

/-- Lookup 0, a SparseCore: read shares of the index rows and of the first half table, and its 16384 entries of the result. -/
def st0 (d : Dev nD) (c : Fin 2) : sProp 𝕄 :=
  iprop((xtLoc d ↦{shC c} XT m d) ∗ (w0Loc d ↦{shC c} WH0 m d)
    ∗ (p0Loc d ↦[seg (N := 32768) (16384 * c.val) 16384]{fullShare} m (p0Loc d)))
/-- back: the result entries at the partial sums, and every tile's standing on its barrier cell for lookup 1. -/
def dn0 (d : Dev nD) (c : Fin 2) : sProp 𝕄 :=
  iprop((xtLoc d ↦{shC c} XT m d) ∗ (w0Loc d ↦{shC c} WH0 m d)
    ∗ (p0Loc d ↦[seg (N := 32768) (16384 * c.val) 16384]{fullShare} PT0 m d)
    ∗ bigSep Finset.univ fun i : Fin 16 => bpos d (cT c) (jt i))
/-- Lookup 1 the same over the second half table, the standings going out again. -/
def st1 (d : Dev nD) (c : Fin 2) : sProp 𝕄 :=
  iprop((xtLoc d ↦{shC c} XT m d) ∗ (w1Loc d ↦{shC c} WH1 m d)
    ∗ (p1Loc d ↦[seg (N := 32768) (16384 * c.val) 16384]{fullShare} m (p1Loc d))
    ∗ bigSep Finset.univ fun i : Fin 16 => bpos d (cT c) (jt i))
def dn1 (d : Dev nD) (c : Fin 2) : sProp 𝕄 :=
  iprop((xtLoc d ↦{shC c} XT m d) ∗ (w1Loc d ↦{shC c} WH1 m d)
    ∗ (p1Loc d ↦[seg (N := 32768) (16384 * c.val) 16384]{fullShare} PT1 m d))

/-- Lookup 0, a tile: its read shares, its 1024 entries of the result, and (tiles 0 to 6) its row of the shared buffer. -/
def go0 (d : Dev nD) (c : Fin 2) (i : Fin 16) : sProp 𝕄 :=
  iprop((xtLoc d ↦{shT c i} XT m d) ∗ (w0Loc d ↦{shT c i} WH0 m d)
    ∗ (p0Loc d ↦[seg (N := 32768) (16384 * c.val + 1024 * i.val) 1024]{fullShare} m (p0Loc d))
    ∗ (if i.val < 7 then iprop(∃ f, acc0Loc d (cT c) ↦[seg (N := 114688) (16384 * i.val) 16384]{fullShare} f) else iprop(emp)))
/-- back: the entries at the partial sums, its column block of every row of the shared buffer, its standing for lookup 1. -/
def td0 (d : Dev nD) (c : Fin 2) (i : Fin 16) : sProp 𝕄 :=
  iprop((xtLoc d ↦{shT c i} XT m d) ∗ (w0Loc d ↦{shT c i} WH0 m d)
    ∗ (p0Loc d ↦[seg (N := 32768) (16384 * c.val + 1024 * i.val) 1024]{fullShare} PT0 m d)
    ∗ (bigSep Finset.univ fun n : Fin 7 => iprop(∃ f, acc0Loc d (cT c) ↦[seg (N := 114688) (16384 * n.val + 1024 * i.val) 1024]{fullShare} f))
    ∗ bpos d (cT c) (jt i))
/-- Lookup 1, a tile: the same over the second half table and the second shared buffer, with its position at the origin
    of round 1 of its barrier cell and that every tile of its SparseCore has reached that round. -/
def go1 (d : Dev nD) (c : Fin 2) (i : Fin 16) : sProp 𝕄 :=
  iprop((xtLoc d ↦{shT c i} XT m d) ∗ (w1Loc d ↦{shT c i} WH1 m d)
    ∗ (p1Loc d ↦[seg (N := 32768) (16384 * c.val + 1024 * i.val) 1024]{fullShare} m (p1Loc d))
    ∗ (if i.val < 7 then iprop(∃ f, acc1Loc d (cT c) ↦[seg (N := 114688) (16384 * i.val) 16384]{fullShare} f) else iprop(emp))
    ∗ atPos EB (bcell d (cT c) (jt i)) 1 ∅ 0 ∗ bigSep Finset.univ fun j : Fin 16 => reached EB (bcell d (cT c) (jt j)) 1)
def td1 (d : Dev nD) (c : Fin 2) (i : Fin 16) : sProp 𝕄 :=
  iprop((xtLoc d ↦{shT c i} XT m d) ∗ (w1Loc d ↦{shT c i} WH1 m d)
    ∗ (p1Loc d ↦[seg (N := 32768) (16384 * c.val + 1024 * i.val) 1024]{fullShare} PT1 m d)
    ∗ (bigSep Finset.univ fun n : Fin 7 => iprop(∃ f, acc1Loc d (cT c) ↦[seg (N := 114688) (16384 * n.val + 1024 * i.val) 1024]{fullShare} f)))

instance st0_storable (d : Dev nD) (c : Fin 2) : BI.Storable (upEmb : UEmb _ 𝕄) (st0 m d c) := by unfold st0; infer_instance
instance dn0_storable (d : Dev nD) (c : Fin 2) : BI.Storable (upEmb : UEmb _ 𝕄) (dn0 m d c) := by unfold dn0 bpos; infer_instance
instance st1_storable (d : Dev nD) (c : Fin 2) : BI.Storable (upEmb : UEmb _ 𝕄) (st1 m d c) := by unfold st1 bpos; infer_instance
instance dn1_storable (d : Dev nD) (c : Fin 2) : BI.Storable (upEmb : UEmb _ 𝕄) (dn1 m d c) := by unfold dn1; infer_instance
instance go0_storable (d : Dev nD) (c : Fin 2) (i : Fin 16) : BI.Storable (upEmb : UEmb _ 𝕄) (go0 m d c i) := by
  unfold go0; (repeat' split) <;> infer_instance
instance td0_storable (d : Dev nD) (c : Fin 2) (i : Fin 16) : BI.Storable (upEmb : UEmb _ 𝕄) (td0 m d c i) := by unfold td0 bpos; infer_instance
instance go1_storable (d : Dev nD) (c : Fin 2) (i : Fin 16) : BI.Storable (upEmb : UEmb _ 𝕄) (go1 m d c i) := by
  unfold go1; (repeat' split) <;> infer_instance
instance td1_storable (d : Dev nD) (c : Fin 2) (i : Fin 16) : BI.Storable (upEmb : UEmb _ 𝕄) (td1 m d c i) := by unfold td1; infer_instance

/-- The certificate's payloads: per lookup, what a SparseCore is handed and hands back, what a tile is and does; each tile's
    barrier kit per lookup; each tile owes its sixteen arrivals per lookup. -/
def P : (K (F := F)).Pay (nD := nD) (Val := Elt F) (Name := ℕ) (U := UU) where
  st := fun q d c => match q with | 0 => st0 m d (cN 0 c) | 1 => st1 m d (cN 1 c)
  dn := fun q d c => match q with | 0 => dn0 m d (cN 0 c) | 1 => dn1 m d (cN 1 c)
  go := fun q d c i => match q with | 0 => go0 m d (cN 0 c) (iN 0 i) | 1 => go1 m d (cN 1 c) (iN 1 i)
  td := fun q d c i => match q with | 0 => td0 m d (cN 0 c) (iN 0 i) | 1 => td1 m d (cN 1 c) (iN 1 i)
  x := fun q thr => match thr with
    | (d, .scVector c i) => bkit m q d c i
    | _ => iprop(emp)
  ox := fun q thr => match thr with
    | (d, .scVector c _) => oxV q d c
    | _ => 0
  ox_band := by
    intro q thr g ι h
    rcases thr with ⟨d, _ | c | ⟨c, i⟩⟩
    · exact absurd h (lt_irrefl 0)
    · exact absurd h (lt_irrefl 0)
    · dsimp only at h
      obtain ⟨j, rfl, rfl⟩ := oxV_apply_pos h
      rw [(K (F := F)).lev_V_reg d c (jt j) (show (sc_bar0 : Sem sig) ≠ (K (F := F)).go from sc_bar0_ne_go)]; exact ⟨le_rfl, by omega⟩
  ox_tc := fun _ _ => rfl
  ox_sc := fun _ _ _ h => absurd rfl h
  ox_vc := by
    intro q d c i _
    fin_cases q <;> exact ⟨rfl, c.isLt, i.isLt⟩

instance P_storable : (P (F := F) m).IsStorable where
  st q d c := match q with
    | 0 => (inferInstance : BI.Storable (upEmb : UEmb _ 𝕄) (st0 m d (cN 0 c)))
    | 1 => (inferInstance : BI.Storable (upEmb : UEmb _ 𝕄) (st1 m d (cN 1 c)))
  dn q d c := match q with
    | 0 => (inferInstance : BI.Storable (upEmb : UEmb _ 𝕄) (dn0 m d (cN 0 c)))
    | 1 => (inferInstance : BI.Storable (upEmb : UEmb _ 𝕄) (dn1 m d (cN 1 c)))
  go q d c i := match q with
    | 0 => (inferInstance : BI.Storable (upEmb : UEmb _ 𝕄) (go0 m d (cN 0 c) (iN 0 i)))
    | 1 => (inferInstance : BI.Storable (upEmb : UEmb _ 𝕄) (go1 m d (cN 1 c) (iN 1 i)))
  td q d c i := match q with
    | 0 => (inferInstance : BI.Storable (upEmb : UEmb _ 𝕄) (td0 m d (cN 0 c) (iN 0 i)))
    | 1 => (inferInstance : BI.Storable (upEmb : UEmb _ 𝕄) (td1 m d (cN 1 c) (iN 1 i)))

/-! ## What the proofs of the parts assume and leave -/

open Idealize.ShloMosaic.ValueIdx in
/-- Every index names a row of its field's 100000 (what the precondition says of the index matrix). -/
def InRange : Prop := ∀ (d : Dev nD) (f : Fin 26) (b : Fin 16384), (XT m d (ix2 f b)).toNat < 100000

/-- What the launch deals the TensorCore for its one pipelined call: the staging cells' launch state and the transfers' tokens. -/
abbrev mainG (d : Dev nD) : sProp 𝕄 :=
  iprop((bigSep Finset.univ fun p : Fin 1 => Pipeline.cellsGhost cfgs EP p d) ∗ bigSep Finset.univ fun p : Fin 1 => Pipeline.toksInit cfgs EP p d)

/-- What @main leaves the claim: the three arguments at their launch contents and the result at `RES`. -/
abbrev FIN (d : Dev nD) : sProp 𝕄 :=
  iprop((xLoc d ↦{fullShare} m (xLoc d)) ∗ (wLoc d ↦{fullShare} m (wLoc d)) ∗ (bLoc d ↦{fullShare} m (bLoc d)) ∗ (resLoc d ↦{fullShare} RES m d))

end Cert.Proof.KB

end
-- ==== Proof.KB.Segs.lean ====
/-
  Flat pieces of a one-dimensional array: a segment `seg lo len` is the entries `lo ≤ · < lo + len`.
  Equal consecutive parts of a segment are pairwise disjoint and cover it; the whole array is the segment from 0.
  These are the set facts behind every split of an array among SparseCores, tiles, rows and column blocks.
-/
import proofs.«207420_g80582176408339_cont_9to1c4b_743_56_alg».proof.Proof.KB.Common

noncomputable section

namespace Cert.Proof.KB

open Idealize.ShloMosaic

theorem mem_seg {N lo len : Nat} (i : (⟨1, ![N]⟩ : Shape).Idx) : i ∈ seg (N := N) lo len ↔ lo ≤ (i 0).val ∧ (i 0).val < lo + len := by
  unfold seg; rw [Finset.mem_filter]; exact ⟨fun h => h.2, fun h => ⟨Finset.mem_univ _, h⟩⟩

/-- Segments one of which ends where or before the other begins share no entry. -/
theorem seg_disjoint {N lo len lo' len' : Nat} (h : lo + len ≤ lo' ∨ lo' + len' ≤ lo) : Disjoint (seg (N := N) lo len) (seg (N := N) lo' len') := by
  rw [Finset.disjoint_left]
  intro i hi hi'
  rw [mem_seg] at hi hi'
  omega

/-- The `t`-th of consecutive parts of length `len` from `lo`. -/
theorem seg_parts_disjoint {N lo len k : Nat} :
    ∀ t ∈ (Finset.univ : Finset (Fin k)), ∀ t' ∈ (Finset.univ : Finset (Fin k)), t ≠ t' →
      Disjoint (seg (N := N) (lo + len * t.val) len) (seg (N := N) (lo + len * t'.val) len) := by
  intro t _ t' _ hne
  apply seg_disjoint
  have hv : t.val ≠ t'.val := fun e => hne (Fin.ext e)
  rcases Nat.lt_or_gt_of_ne hv with h | h
  · left
    have : len * t.val + len ≤ len * t'.val := by
      calc len * t.val + len = len * (t.val + 1) := by ring
        _ ≤ len * t'.val := Nat.mul_le_mul_left _ h
    omega
  · right
    have : len * t'.val + len ≤ len * t.val := by
      calc len * t'.val + len = len * (t'.val + 1) := by ring
        _ ≤ len * t.val := Nat.mul_le_mul_left _ h
    omega

/-- The `k` consecutive parts of length `len` from `lo` are the segment of length `len * k` from `lo`. -/
theorem seg_parts {N : Nat} (lo len k : Nat) :
    (Finset.univ : Finset (Fin k)).biUnion (fun t => seg (N := N) (lo + len * t.val) len) = seg (N := N) lo (len * k) := by
  ext i
  rw [Finset.mem_biUnion, mem_seg]
  constructor
  · rintro ⟨t, -, ht⟩
    rw [mem_seg] at ht
    have : len * t.val + len ≤ len * k := by
      calc len * t.val + len = len * (t.val + 1) := by ring
        _ ≤ len * k := Nat.mul_le_mul_left _ t.isLt
    omega
  · rintro ⟨h1, h2⟩
    have hlen : 0 < len := by
      rcases Nat.eq_zero_or_pos len with h0 | h0
      · subst h0; omega
      · exact h0
    have hq : ((i 0).val - lo) / len < k := by
      apply Nat.div_lt_of_lt_mul; omega
    refine ⟨⟨((i 0).val - lo) / len, hq⟩, Finset.mem_univ _, ?_⟩
    rw [mem_seg]
    have h3 := Nat.div_add_mod ((i 0).val - lo) len
    have h4 := Nat.mod_lt ((i 0).val - lo) hlen
    constructor
    · show lo + len * (((i 0).val - lo) / len) ≤ (i 0).val
      omega
    · show (i 0).val < lo + len * (((i 0).val - lo) / len) + len
      omega

/-- The whole flat array is the segment from 0 of its length. -/
theorem seg_univ {N : Nat} : seg (N := N) 0 N = Finset.univ := by
  ext i
  rw [mem_seg]
  exact ⟨fun _ => Finset.mem_univ _, fun _ => ⟨Nat.zero_le _, by have := (i 0).isLt; simpa using this⟩⟩

end Cert.Proof.KB

end
-- ==== Proof.KB.Split.lean ====
/-
  How one SparseCore's operands of a lookup split among its sixteen tiles, and how what the tiles hand back joins.

  Going out: the read shares of the index rows and of the half table halve sixteen times (one share per tile, a
  remainder kept); the SparseCore's 16384 entries of the result are sixteen consecutive pieces of 1024; its shared
  buffer (the sequencer's own, 7 rows of 16384) is seven rows, handed to tiles 0 to 6.
  Coming back: the shares rejoin; the sixteen result pieces, now at the partial sums, are the 16384 entries again;
  each tile returns its column block of every row of the shared buffer (what the barrier gave it), and the
  16 × 7 blocks of 1024 are the whole buffer again, at whatever contents.
-/
import proofs.«207420_g80582176408339_cont_9to1c4b_743_56_alg».proof.Proof.KB.Segs

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop pointsTo_toks_split pointsTo_toks_join)

variable {F : FTy → Type}

local notation "𝕄" => MT nD τ sig (HIx 2) (Elt F) ℕ UU ℕ

variable (m : (ℓ : Loc nD τ sig) → Buf (Elt F) ℓ)

/-! ## Set facts -/

/-- A family over the first `n` of `N` indices is the family over all of them that is empty past `n`. -/
theorem bigSep_fin_le {M : Type} [URA M] {n N : Nat} (h : n ≤ N) (X : Fin N → sProp M) :
    bigSep Finset.univ (fun i : Fin n => X (i.castLE h)) = bigSep Finset.univ fun i : Fin N => if i.val < n then X i else (iprop(emp) : sProp M) := by
  show _ = bigSep Finset.univ fun i : Fin N => if i.val < n then X i else (BI.emp : sProp M)
  rw [← bigSep_filter,
    show (Finset.univ.filter fun i : Fin N => i.val < n) = Finset.univ.map (Fin.castLEEmb h) from by
      ext i; simp only [Finset.mem_filter, Finset.mem_univ, true_and, Finset.mem_map, Fin.castLEEmb_apply]
      exact ⟨fun hi => ⟨⟨i.val, hi⟩, Fin.ext rfl⟩, fun ⟨j, hj⟩ => hj ▸ j.isLt⟩,
    bigSep_map]
  rfl

/-- The 16 × 7 column blocks of 1024 of the shared buffer are pairwise disjoint and cover it. -/
theorem blocks_disjoint : ∀ x ∈ (Finset.univ : Finset (Fin 16 × Fin 7)), ∀ y ∈ (Finset.univ : Finset (Fin 16 × Fin 7)), x ≠ y →
    Disjoint (seg (N := 114688) (16384 * x.2.val + 1024 * x.1.val) 1024) (seg (N := 114688) (16384 * y.2.val + 1024 * y.1.val) 1024) := by
  rintro ⟨i, n⟩ - ⟨i', n'⟩ - hne
  apply seg_disjoint
  have h1 := i.isLt; have h2 := i'.isLt; have h3 := n.isLt; have h4 := n'.isLt
  have hne' : i.val ≠ i'.val ∨ n.val ≠ n'.val := by
    by_cases h5 : i.val = i'.val
    · right; intro h6; exact hne (Prod.ext (Fin.ext h5) (Fin.ext h6))
    · left; exact h5
  dsimp only
  omega

theorem blocks_cover : (Finset.univ : Finset (Fin 16 × Fin 7)).biUnion (fun x => seg (N := 114688) (16384 * x.2.val + 1024 * x.1.val) 1024) = Finset.univ := by
  ext j
  simp only [Finset.mem_biUnion, Finset.mem_univ, true_and, iff_true]
  have hj : (j 0).val < 114688 := by have := (j 0).isLt; simpa using this
  refine ⟨(⟨((j 0).val % 16384) / 1024, by omega⟩, ⟨(j 0).val / 16384, by omega⟩), ?_⟩
  rw [mem_seg]
  dsimp only
  omega

/-! ## The sequencer's shared buffers among its own -/

theorem ownBufs_S0 (d : Dev nD) (c : Fin τ.nSC) :
    (ownBufs (S d c) : sProp 𝕄)
      = iprop((∃ f, acc0Loc d c ↦{fullShare} f) ∗ bigSep ((ownRefs (τ := τ) (.scScalar c)).erase (acc0Ref c)) fun b => iprop(∃ f, ((d, b) : Loc nD τ sig) ↦{fullShare} f)) := by
  unfold SparseCore.Cfg.ownBufs
  have h : acc0Ref c ∈ ownRefs (τ := τ) (sig := sig) (.scScalar c) := (mem_ownRefs (p := Proc.scScalar c) (b := acc0Ref c)).mpr rfl
  exact SparseCore.bigSep_erase' h

theorem ownBufs_S1 (d : Dev nD) (c : Fin τ.nSC) :
    (ownBufs (S d c) : sProp 𝕄)
      = iprop((∃ f, acc1Loc d c ↦{fullShare} f) ∗ bigSep ((ownRefs (τ := τ) (.scScalar c)).erase (acc1Ref c)) fun b => iprop(∃ f, ((d, b) : Loc nD τ sig) ↦{fullShare} f)) := by
  unfold SparseCore.Cfg.ownBufs
  have h : acc1Ref c ∈ ownRefs (τ := τ) (sig := sig) (.scScalar c) := (mem_ownRefs (p := Proc.scScalar c) (b := acc1Ref c)).mpr rfl
  exact SparseCore.bigSep_erase' h

/-! ## Lookup 0: one SparseCore's operands among its tiles -/

variable [FloatOps F]

/-- The result's 16384 entries of SparseCore `c` are its sixteen tiles' pieces of 1024. -/
theorem p0_pieces (d : Dev nD) (c : Fin 2) (f : Buf (Elt F) (p0Loc d)) :
    (p0Loc d ↦[seg (N := 32768) (16384 * c.val) 16384]{fullShare} f : sProp 𝕄)
      = bigSep Finset.univ fun i : Fin 16 => p0Loc d ↦[seg (N := 32768) (16384 * c.val + 1024 * i.val) 1024]{fullShare} f := by
  rw [← pointsTo_biUnion Finset.univ (ℓ := p0Loc d) (fun i : Fin 16 => seg (N := 32768) (16384 * c.val + 1024 * i.val) 1024) seg_parts_disjoint,
    seg_parts (N := 32768) (16384 * c.val) 1024 16]

/-- The shared buffer whole is its seven rows. -/
theorem acc0_rows (d : Dev nD) (c : Fin τ.nSC) (f : Buf (Elt F) (acc0Loc d c)) :
    (acc0Loc d c ↦{fullShare} f : sProp 𝕄) = bigSep Finset.univ fun n : Fin 7 => acc0Loc d c ↦[seg (N := 114688) (16384 * n.val) 16384]{fullShare} f := by
  have hd : ∀ t ∈ (Finset.univ : Finset (Fin 7)), ∀ t' ∈ (Finset.univ : Finset (Fin 7)), t ≠ t' →
      Disjoint (seg (N := 114688) (16384 * t.val) 16384) (seg (N := 114688) (16384 * t'.val) 16384) := by
    have h := seg_parts_disjoint (N := 114688) (lo := 0) (len := 16384) (k := 7)
    simp only [Nat.zero_add] at h; exact h
  have hc : (Finset.univ : Finset (Fin 7)).biUnion (fun n => seg (N := 114688) (16384 * n.val) 16384) = Finset.univ := by
    have h := seg_parts (N := 114688) 0 16384 7
    simp only [Nat.zero_add] at h; rw [h]; exact seg_univ
  rw [← pointsTo_biUnion Finset.univ (ℓ := acc0Loc d c) (fun n : Fin 7 => seg (N := 114688) (16384 * n.val) 16384) hd, hc]; try rfl

/-- The 16 × 7 column blocks, each at contents of its own, are the shared buffer whole at some contents. -/
theorem acc0_blocks_join (d : Dev nD) (c : Fin τ.nSC) :
    (bigSep Finset.univ fun i : Fin 16 => bigSep Finset.univ fun n : Fin 7 =>
        iprop(∃ f, acc0Loc d c ↦[seg (N := 114688) (16384 * n.val + 1024 * i.val) 1024]{fullShare} f))
      ⊢ (iprop(∃ f, acc0Loc d c ↦{fullShare} f) : sProp 𝕄) := by
  rw [← bigSep_univ_prod (fun x : Fin 16 × Fin 7 => iprop(∃ f, acc0Loc d c ↦[seg (N := 114688) (16384 * x.2.val + 1024 * x.1.val) 1024]{fullShare} f))]
  refine (bigSep_exists_pi Finset.univ (fun (x : Fin 16 × Fin 7) (f : Buf (Elt F) (acc0Loc d c)) =>
    (acc0Loc d c ↦[seg (N := 114688) (16384 * x.2.val + 1024 * x.1.val) 1024]{fullShare} f : sProp 𝕄))).trans ?_
  iintro ⟨%fs, H⟩
  ihave H' := (pointsTo_biUnion_join Finset.univ (fun x : Fin 16 × Fin 7 => seg (N := 114688) (16384 * x.2.val + 1024 * x.1.val) 1024) fs (fs (0, 0)) blocks_disjoint) $$ H
  icases H' with ⟨%g, -, Hg⟩
  rw [blocks_cover]
  iexists g; iexact Hg

/-- SparseCore `c` of lookup 0: from its operands and the sequencer's own buffers, every tile's operands; and from what
    every tile hands back, its results and the buffers again. -/
theorem split0 (d : Dev nD) (c : Fin 2) :
    iprop(st0 m d c ∗ ownBufs (S d (cT c))) ⊢ |={Set.univ}=> iprop((bigSep Finset.univ fun i : Fin 16 => go0 m d c i)
      ∗ ((bigSep Finset.univ fun i : Fin 16 => td0 m d c i) -∗ iprop(dn0 m d c ∗ ownBufs (S d (cT c))))) := by
  unfold st0 go0 td0 dn0
  rw [ownBufs_S0, p0_pieces, p0_pieces, bigSep_sep', bigSep_sep', bigSep_sep', bigSep_sep', bigSep_sep', bigSep_sep', bigSep_sep']
  iintro ⟨⟨Hxt, Hw, Hp⟩, ⟨%fa, Hacc⟩, Hrest⟩
  ihave Hxt' := (pointsTo_toks_split (shC c) 16) $$ Hxt
  icases Hxt' with ⟨Hxt0, Hxts⟩
  ihave Hw' := (pointsTo_toks_split (shC c) 16) $$ Hw
  icases Hw' with ⟨Hw0, Hws⟩
  ihave Hrows := (Entails.of_eq (acc0_rows d (cT c) fa)) $$ Hacc
  imodintro
  isplitl [Hxts Hws Hp Hrows]
  · isplitl [Hxts]; · iexact Hxts
    isplitl [Hws]; · iexact Hws
    isplitl [Hp]; · iexact Hp
    rw [← bigSep_fin_le (show 7 ≤ 16 by decide) (fun i : Fin 16 => iprop(∃ f, acc0Loc d (cT c) ↦[seg (N := 114688) (16384 * i.val) 16384]{fullShare} f))]
    iapply (SparseCore.ent (bigSep_mono (Φ := fun n : Fin 7 => (acc0Loc d (cT c) ↦[seg (N := 114688) (16384 * n.val) 16384]{fullShare} fa : sProp 𝕄))
      (Ψ := fun n : Fin 7 => iprop(∃ f, acc0Loc d (cT c) ↦[seg (N := 114688) (16384 * (n.castLE (show 7 ≤ 16 by decide)).val) 16384]{fullShare} f))
      fun n _ => BI.BIClass.exists_intro (Φ := fun f => (acc0Loc d (cT c) ↦[seg (N := 114688) (16384 * n.val) 16384]{fullShare} f : sProp 𝕄)) fa))
    iexact Hrows
  iintro ⟨Hxts, Hws, Hp, Hblocks, Hpos⟩
  isplitr [Hblocks Hrest]
  · isplitl [Hxt0 Hxts]
    · iapply (pointsTo_toks_join (shC c) 16); isplitl [Hxt0] <;> iassumption
    isplitl [Hw0 Hws]
    · iapply (pointsTo_toks_join (shC c) 16); isplitl [Hw0] <;> iassumption
    isplitl [Hp]; · iexact Hp
    iexact Hpos
  isplitl [Hblocks]; · iapply (acc0_blocks_join d (cT c)); iexact Hblocks
  iexact Hrest

/-! ## Lookup 1: the same over the second half table and the second shared buffer; the tiles' standings for round 1 of their
    barrier cells go out with the operands -/

theorem p1_pieces (d : Dev nD) (c : Fin 2) (f : Buf (Elt F) (p1Loc d)) :
    (p1Loc d ↦[seg (N := 32768) (16384 * c.val) 16384]{fullShare} f : sProp 𝕄)
      = bigSep Finset.univ fun i : Fin 16 => p1Loc d ↦[seg (N := 32768) (16384 * c.val + 1024 * i.val) 1024]{fullShare} f := by
  rw [← pointsTo_biUnion Finset.univ (ℓ := p1Loc d) (fun i : Fin 16 => seg (N := 32768) (16384 * c.val + 1024 * i.val) 1024) seg_parts_disjoint,
    seg_parts (N := 32768) (16384 * c.val) 1024 16]

theorem acc1_rows (d : Dev nD) (c : Fin τ.nSC) (f : Buf (Elt F) (acc1Loc d c)) :
    (acc1Loc d c ↦{fullShare} f : sProp 𝕄) = bigSep Finset.univ fun n : Fin 7 => acc1Loc d c ↦[seg (N := 114688) (16384 * n.val) 16384]{fullShare} f := by
  have hd : ∀ t ∈ (Finset.univ : Finset (Fin 7)), ∀ t' ∈ (Finset.univ : Finset (Fin 7)), t ≠ t' →
      Disjoint (seg (N := 114688) (16384 * t.val) 16384) (seg (N := 114688) (16384 * t'.val) 16384) := by
    have h := seg_parts_disjoint (N := 114688) (lo := 0) (len := 16384) (k := 7)
    simp only [Nat.zero_add] at h; exact h
  have hc : (Finset.univ : Finset (Fin 7)).biUnion (fun n => seg (N := 114688) (16384 * n.val) 16384) = Finset.univ := by
    have h := seg_parts (N := 114688) 0 16384 7
    simp only [Nat.zero_add] at h; rw [h]; exact seg_univ
  rw [← pointsTo_biUnion Finset.univ (ℓ := acc1Loc d c) (fun n : Fin 7 => seg (N := 114688) (16384 * n.val) 16384) hd, hc]; try rfl

theorem acc1_blocks_join (d : Dev nD) (c : Fin τ.nSC) :
    (bigSep Finset.univ fun i : Fin 16 => bigSep Finset.univ fun n : Fin 7 =>
        iprop(∃ f, acc1Loc d c ↦[seg (N := 114688) (16384 * n.val + 1024 * i.val) 1024]{fullShare} f))
      ⊢ (iprop(∃ f, acc1Loc d c ↦{fullShare} f) : sProp 𝕄) := by
  rw [← bigSep_univ_prod (fun x : Fin 16 × Fin 7 => iprop(∃ f, acc1Loc d c ↦[seg (N := 114688) (16384 * x.2.val + 1024 * x.1.val) 1024]{fullShare} f))]
  refine (bigSep_exists_pi Finset.univ (fun (x : Fin 16 × Fin 7) (f : Buf (Elt F) (acc1Loc d c)) =>
    (acc1Loc d c ↦[seg (N := 114688) (16384 * x.2.val + 1024 * x.1.val) 1024]{fullShare} f : sProp 𝕄))).trans ?_
  iintro ⟨%fs, H⟩
  ihave H' := (pointsTo_biUnion_join Finset.univ (fun x : Fin 16 × Fin 7 => seg (N := 114688) (16384 * x.2.val + 1024 * x.1.val) 1024) fs (fs (0, 0)) blocks_disjoint) $$ H
  icases H' with ⟨%g, -, Hg⟩
  rw [blocks_cover]
  iexists g; iexact Hg

omit [FloatOps F] in
/-- A persistent fact is had once per member of any family. -/
theorem bigSep_const_persistent {I : Type} [DecidableEq I] {R : sProp 𝕄} [BI.Persistent R] (s : Finset I) :
    R ⊢ bigSep s fun _ => R := by
  induction s using Finset.induction_on with
  | empty => rw [bigSep_empty]; exact fun _ _ => trivial
  | insert a s ha ih =>
    rw [SparseCore.bigSep_insert' ha]
    iintro #HR
    isplitl
    · iexact HR
    · iapply ih; iexact HR

theorem split1 (d : Dev nD) (c : Fin 2) :
    iprop(st1 m d c ∗ ownBufs (S d (cT c))) ⊢ |={Set.univ}=> iprop((bigSep Finset.univ fun i : Fin 16 => go1 m d c i)
      ∗ ((bigSep Finset.univ fun i : Fin 16 => td1 m d c i) -∗ iprop(dn1 m d c ∗ ownBufs (S d (cT c))))) := by
  unfold st1 go1 td1 dn1 bpos
  rw [ownBufs_S1, p1_pieces, p1_pieces]
  simp only [bigSep_sep']
  iintro ⟨⟨Hxt, Hw, Hp, Hat, #Hr⟩, ⟨%fa, Hacc⟩, Hrest⟩
  ihave Hxt' := (pointsTo_toks_split (shC c) 16) $$ Hxt
  icases Hxt' with ⟨Hxt0, Hxts⟩
  ihave Hw' := (pointsTo_toks_split (shC c) 16) $$ Hw
  icases Hw' with ⟨Hw0, Hws⟩
  ihave Hrows := (Entails.of_eq (acc1_rows d (cT c) fa)) $$ Hacc
  imodintro
  isplitl [Hxts Hws Hp Hrows Hat]
  · isplitl [Hxts]; · iexact Hxts
    isplitl [Hws]; · iexact Hws
    isplitl [Hp]; · iexact Hp
    isplitl [Hrows]
    · rw [← bigSep_fin_le (show 7 ≤ 16 by decide) (fun i : Fin 16 => iprop(∃ f, acc1Loc d (cT c) ↦[seg (N := 114688) (16384 * i.val) 16384]{fullShare} f))]
      iapply (SparseCore.ent (bigSep_mono (Φ := fun n : Fin 7 => (acc1Loc d (cT c) ↦[seg (N := 114688) (16384 * n.val) 16384]{fullShare} fa : sProp 𝕄))
        (Ψ := fun n : Fin 7 => iprop(∃ f, acc1Loc d (cT c) ↦[seg (N := 114688) (16384 * (n.castLE (show 7 ≤ 16 by decide)).val) 16384]{fullShare} f))
        fun n _ => BI.BIClass.exists_intro (Φ := fun f => (acc1Loc d (cT c) ↦[seg (N := 114688) (16384 * n.val) 16384]{fullShare} f : sProp 𝕄)) fa))
      iexact Hrows
    isplitl [Hat]; · iexact Hat
    iapply (bigSep_const_persistent (R := bigSep Finset.univ fun j : Fin 16 => reached EB (bcell d (cT c) (jt j)) 1) (Finset.univ : Finset (Fin 16)))
    iexact Hr
  iintro ⟨Hxts, Hws, Hp, Hblocks⟩
  isplitr [Hblocks Hrest]
  · isplitl [Hxt0 Hxts]
    · iapply (pointsTo_toks_join (shC c) 16); isplitl [Hxt0] <;> iassumption
    isplitl [Hw0 Hws]
    · iapply (pointsTo_toks_join (shC c) 16); isplitl [Hw0] <;> iassumption
    iexact Hp
  isplitl [Hblocks]; · iapply (acc1_blocks_join d (cT c)); iexact Hblocks
  iexact Hrest

/-! ## The launch theorem's hypothesis, per lookup -/

omit [FloatOps F] in
theorem bigSep_tasks (q : Fin 2) (Φ : Fin 16 → sProp 𝕄) :
    (bigSep Finset.univ fun i : Fin ((K (F := F)).nSub q) => Φ (iN q i)) = bigSep Finset.univ Φ := by
  fin_cases q <;> exact bigSep_congr fun _ _ => congrArg Φ (Fin.ext rfl)

theorem vecSplit0 : (K (F := F)).VecSplit (P m) 0 := by
  intro d c
  show iprop(st0 m d (cN 0 c) ∗ ownBufs (S d (cT (cN 0 c)))) ⊢ |={Set.univ}=> iprop(
      (bigSep Finset.univ fun i : Fin ((K (F := F)).nSub 0) => go0 m d (cN 0 c) (iN 0 i))
      ∗ ((bigSep Finset.univ fun i : Fin ((K (F := F)).nSub 0) => td0 m d (cN 0 c) (iN 0 i)) -∗ iprop(dn0 m d (cN 0 c) ∗ ownBufs (S d (cT (cN 0 c))))))
  rw [bigSep_tasks (F := F) 0 (fun i => go0 m d (cN 0 c) i), bigSep_tasks (F := F) 0 (fun i => td0 m d (cN 0 c) i)]
  exact split0 m d (cN 0 c)

theorem vecSplit1 : (K (F := F)).VecSplit (P m) 1 := by
  intro d c
  show iprop(st1 m d (cN 1 c) ∗ ownBufs (S d (cT (cN 1 c)))) ⊢ |={Set.univ}=> iprop(
      (bigSep Finset.univ fun i : Fin ((K (F := F)).nSub 1) => go1 m d (cN 1 c) (iN 1 i))
      ∗ ((bigSep Finset.univ fun i : Fin ((K (F := F)).nSub 1) => td1 m d (cN 1 c) (iN 1 i)) -∗ iprop(dn1 m d (cN 1 c) ∗ ownBufs (S d (cT (cN 1 c))))))
  rw [bigSep_tasks (F := F) 1 (fun i => go1 m d (cN 1 c) i), bigSep_tasks (F := F) 1 (fun i => td1 m d (cN 1 c) i)]
  exact split1 m d (cN 1 c)

end Cert.Proof.KB

end
-- ==== Proof.KB.Elem.lean ====
/-
  The launch element of the ghost state, and what the launch deals each thread from it.

  The element is three rounds libraries side by side — the launch handshakes', the barrier cells', the TensorCore
  pipeline's staging cells' — and the local transfers' counters. The barrier cells are one per tile; their tokens one
  per (cell, lookup, arriving tile). From the barrier library the launch allocates every cell's invariant at once
  (a tile may signal a sibling whose task has not begun), and deals each tile, per lookup, its sixteen duty tokens
  and the credit for the sixteen units of its own round; for lookup 0 also its position at the origin of round 0.
  The sixteen units a tile's round expects are the one unit each of the sixteen tiles of its SparseCore owes it:
  regrouping the credit is a sum over the tiles swapped with a sum over the cells.
-/
import proofs.«207420_g80582176408339_cont_9to1c4b_743_56_alg».proof.Proof.KB.Common

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (m : (ℓ : Loc nD τ sig) → Buf (Elt F) ℓ)

/-! ## The barrier cells and tokens as finite sets; the element -/

abbrev DCI : Type := Dev nD × Fin τ.nSC × Fin τ.nSub
abbrev bcell₃ (x : DCI) : GSem nD τ sig := bcell x.1 x.2.1 x.2.2

def bCells : Finset (GSem nD τ sig) := Finset.univ.image bcell₃
/-- Tile `i`'s token in tile `j`'s cell for lookup `q`, for every pair of tiles of a SparseCore and both lookups. -/
def bToks : Finset (GSem nD τ sig × ℕ × ℕ) :=
  Finset.univ.image fun x : (DCI × Fin 16) × Fin 2 => (bcell x.1.1.1 x.1.1.2.1 (jt x.1.2), x.2.val, x.1.1.2.2.val)

def u₀ : UU :=
  (initOf (K (F := F)).hsCells (K (F := F)).hsToks,
    (initOf bCells bToks, (initOf (Pipeline.cells (nD := nD) (τ := τ) cfgs Gen.cellOf_inj) (Pipeline.launchToks (nD := nD) (τ := τ) cfgs Gen.cellOf_inj), 1)))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

/-- The element is the three libraries' elements side by side. -/
theorem ownU_split (a : UH) (b : UB) (p : UP) :
    (ownU ((a, (b, (p, 1))) : UU) : sProp 𝕄) ⊢ iprop(BI.own (EH a) ∗ BI.own (EB b) ∗ BI.own (EP p)) := by
  have s1 : (ownU ((a, (b, (p, 1))) : UU) : sProp 𝕄) ⊢ iprop(BI.own (EH a) ∗ ownU ((1, (b, (p, 1))) : UU)) :=
    BI.own_op_elim ((uEmb (nD := nD) (sig := sig) (Ix := HIx 2) (Val := Elt F) (Name := ℕ) (U := UU) (Lvl := ℕ)).toEmb.op_of_mem
      (Prod.mk_mem_op (URA.mem_op_one a) (URA.mem_one_op (b, (p, (1 : Counters))))))
  have s2 : (ownU ((1, (b, (p, 1))) : UU) : sProp 𝕄) ⊢ iprop(BI.own (EB b) ∗ BI.own (EP p)) :=
    BI.own_op_elim ((uEmb (nD := nD) (sig := sig) (Ix := HIx 2) (Val := Elt F) (Name := ℕ) (U := UU) (Lvl := ℕ)).toEmb.op_of_mem
      (Prod.mk_mem_op (URA.mem_op_one (1 : UH)) (Prod.mk_mem_op (URA.mem_op_one b) (URA.mem_one_op (p, (1 : Counters))))))
  exact s1.trans (sep_mono .rfl s2)

/-- Every barrier semaphore at zero, out of the free semaphores the launch hands over. -/
theorem sems_b : ((K (F := F)).freeSems0 : sProp 𝕄) ⊢ bigSep bCells fun g => semVal g 0 := by
  unfold SparseCore.Cfg.freeSems0 bCells
  rw [SparseCore.bigSep_image_of_injOn (fun a _ b _ e => bcell₃_injective e)]
  refine sep_elim_right.trans (bigSep_mono fun dci _ => ?_)
  unfold SparseCore.Cfg.vcSems0
  exact bigSep_elim (Φ := fun sm : SemLoc sig => (semVal (V dci.1 dci.2.1 dci.2.2, sm) 0 : sProp 𝕄))
    (Finset.mem_erase.mpr ⟨fun h => sc_bar0_ne_go (SemLoc.reg.inj h), Finset.mem_filter.mpr ⟨Finset.mem_univ _, by decide⟩⟩)

variable [FloatOps F]

/-- The barrier cells' invariants, allocated at once. -/
theorem invs_b : iprop((bigSep bCells fun g => (semVal g 0 : sProp 𝕄)) ∗ bigSep bCells fun g => roundState EB (bRd (F := F) m) g 0)
    ⊢ |={Set.univ}=> iprop(∃ κ : GSem nD τ sig → ℕ, bigSep bCells fun g => cellInv EB (bRd (F := F) m) (κ g) g) := by
  refine (Rounds.bodies_intro EB (bRd (F := F) m) bCells).trans ((inv_alloc_family bCells (Rounds.body EB (bRd (F := F) m)) ∅ (E := Set.univ)).trans ?_)
  iintro H
  imod H with ⟨%κ, -, Hinv⟩
  imodintro; iexists κ; iexact Hinv

/-! ## The credit, regrouped: each tile the sixteen units of its own cell, per lookup -/

omit [FloatOps F] in
theorem sum_tallyAt_one (g : GSem nD τ sig) (ι : HIx 2) : ∀ n : ℕ, ∑ _x : Fin n, tallyAt g ι 1 = (tallyAt g ι n : CellTallies nD τ sig (HIx 2))
  | 0 => by rw [Finset.univ_eq_empty, Finset.sum_empty, tallyAt_zero]
  | n + 1 => by rw [Fin.sum_univ_castSucc, sum_tallyAt_one g ι n, tallyAt_add]

omit [FloatOps F] in
/-- A family over a SparseCore's sixteen tile numbers is one over its tiles. -/
theorem bigSep_jt {M : Type} [URA M] (X : Fin τ.nSub → sProp M) : bigSep Finset.univ (fun j : Fin 16 => X (jt j)) = bigSep Finset.univ X :=
  bigSep_congr (s := (Finset.univ : Finset (Fin 16))) fun _ _ => rfl

omit [FloatOps F] in
theorem bigSep_fin2 {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

/-- What a tile owes over the whole program for the kernels' own protocol: its sixteen arrivals at each lookup's barrier. -/
theorem oxFrom_V (d : Dev nD) (c : Fin τ.nSC) (i : Fin τ.nSub) : (P (F := F) m).oxFrom 0 (V d c i) = oxV 0 d c + oxV 1 d c := by
  rw [show (0 : ℕ) = (0 : Fin 2).val from rfl, (P m).oxFrom_step, show (0 : Fin 2).val + 1 = (1 : Fin 2).val from rfl, (P m).oxFrom_step,
    (P m).oxFrom_end _ (n := (1 : Fin 2).val + 1) (by decide), add_zero]
  rfl

omit [FloatOps F] in
/-- One unit from each of the sixteen tiles on each of the sixteen cells is sixteen units on each cell. -/
theorem cred_tiles (q : Fin 2) (d : Dev nD) (c : Fin τ.nSC) :
    (bigSep Finset.univ fun _i : Fin τ.nSub => (cred (oxV q d c) : sProp 𝕄))
      = bigSep Finset.univ fun i : Fin τ.nSub => cred (tallyAt (bcell d c i) (some q) 16) := by
  unfold oxV
  simp only [SparseCore.Cfg.cred_finsum]
  rw [bigSep_univ_comm, ← bigSep_jt (fun i : Fin τ.nSub => (cred (tallyAt (bcell d c i) (some q) 16) : sProp 𝕄))]
  refine bigSep_congr fun j _ => ?_
  rw [← SparseCore.Cfg.cred_finsum]
  exact congrArg _ (sum_tallyAt_one (bcell d c (jt j)) (some q) 16)

theorem creds_b : ((P (F := F) m).oxCred : sProp 𝕄)
    ⊢ bigSep Finset.univ fun dci : DCI => iprop(cred (tallyAt (bcell₃ dci) (some 0) 16) ∗ cred (tallyAt (bcell₃ dci) (some 1) 16)) := by
  unfold SparseCore.Cfg.Pay.oxCred
  rw [SparseCore.Cfg.bigSep_threads (fun thr : Thread nD τ => (cred ((P (F := F) m).oxFrom 0 thr) : sProp 𝕄))]
  refine sep_elim_right.trans (sep_elim_right.trans ?_)
  rw [bigSep_univ_prod, bigSep_univ_prod (fun dci : DCI => iprop(cred (tallyAt (bcell₃ dci) (some 0) 16) ∗ cred (tallyAt (bcell₃ dci) (some 1) 16)))]
  refine bigSep_mono fun d _ => ?_
  rw [bigSep_univ_prod, bigSep_univ_prod (fun ci : Fin τ.nSC × Fin τ.nSub => iprop(cred (tallyAt (bcell₃ (d, ci)) (some 0) 16) ∗ cred (tallyAt (bcell₃ (d, ci)) (some 1) 16)))]
  refine bigSep_mono fun c _ => ?_
  dsimp only
  simp only [oxFrom_V, SparseCore.Cfg.cred_add_eq]
  rw [bigSep_sep', bigSep_sep', cred_tiles 0, cred_tiles 1]
  exact BI.Entails.refl _

/-! ## The tokens as nested families -/

omit [FloatOps F] in
theorem toks_eq : (bigSep bToks fun x => (dutyTok EB x.1 x.2.1 x.2.2 : sProp 𝕄))
    = bigSep Finset.univ fun dci : DCI => bigSep Finset.univ fun j : Fin 16 => bigSep Finset.univ fun q : Fin 2 =>
        dutyTok EB (bcell dci.1 dci.2.1 (jt j)) q.val dci.2.2.val := by
  unfold bToks
  rw [SparseCore.bigSep_image_of_injOn (f := fun x : (DCI × Fin 16) × Fin 2 => (bcell x.1.1.1 x.1.1.2.1 (jt x.1.2), x.2.val, x.1.1.2.2.val)) ?inj
      (fun x => (dutyTok EB x.1 x.2.1 x.2.2 : sProp 𝕄)),
    bigSep_univ_prod (fun x : (DCI × Fin 16) × Fin 2 => (dutyTok EB (bcell x.1.1.1 x.1.1.2.1 (jt x.1.2)) x.2.val x.1.1.2.2.val : sProp 𝕄)),
    bigSep_univ_prod (fun a : DCI × Fin 16 => bigSep Finset.univ fun q : Fin 2 => (dutyTok EB (bcell a.1.1 a.1.2.1 (jt a.2)) q.val a.1.2.2.val : sProp 𝕄))]
  rintro ⟨⟨⟨d, c, i⟩, j⟩, q⟩ - ⟨⟨⟨d', c', i'⟩, j'⟩, q'⟩ - e
  have e1 := (Prod.mk.inj (Prod.mk.inj e).1).1
  have e2 : i.val = i'.val := (Prod.mk.inj (Prod.mk.inj e).2).2
  have e3 : q.val = q'.val := (Prod.mk.inj (Prod.mk.inj e).2).1
  obtain ⟨rfl, h⟩ := Prod.mk.inj e1
  obtain ⟨rfl, hj⟩ := Proc.scVector.inj h
  have hj' : j = j' := Fin.ext (congrArg Fin.val hj)
  subst hj'
  have hi' : i = i' := Fin.ext e2
  subst hi'
  have hq' : q = q' := Fin.ext e3
  subst hq'
  rfl

/-! ## Each tile its kits -/

/-- What every tile is handed alike: every barrier cell's invariant, and that each has reached round 0. -/
abbrev shared : sProp 𝕄 :=
  iprop((∃ κ : GSem nD τ sig → ℕ, bigSep Finset.univ fun x : DCI => cellInv EB (bRd (F := F) m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin 16 => bigSep Finset.univ fun q : Fin 2 => dutyTok EB (bcell dci.1 dci.2.1 (jt j)) q.val dci.2.2.val)
    ∗ iprop(cred (tallyAt (bcell₃ dci) (some 0) 16) ∗ cred (tallyAt (bcell₃ dci) (some 1) 16)))

omit [FloatOps F] in
/-- A persistent resource beside a family goes to each member's derivation. -/
theorem bigSep_mono_with {I : Type} [DecidableEq I] {R : sProp 𝕄} [BI.Persistent R] {s : Finset I} {Φ Ψ : I → sProp 𝕄}
    (h : ∀ i ∈ s, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a (Finset.mem_insert_self _ _)); isplitr; · iexact HR
      iexact H1
    · iapply (ih fun i hi => h i (Finset.mem_insert_of_mem hi)); isplitr; · iexact HR
      iexact H2

/-- One tile's two kits out of those. -/
theorem kit_intro (dci : DCI) : iprop(shared (F := F) m ∗ mine (F := F) dci) ⊢ (iprop(bkit m 0 dci.1 dci.2.1 dci.2.2 ∗ bkit m 1 dci.1 dci.2.1 dci.2.2) : sProp 𝕄) := by
  obtain ⟨d, c, i⟩ := dci
  unfold bkit mine shared
  simp only [bigSep_sep', bigSep_fin2]
  iintro ⟨⟨#Hinv, #Hr⟩, Hat, ⟨Ht0, Ht1⟩, Hc0, Hc1⟩
  icases Hinv with ⟨%κ, Hinv⟩
  ihave #Hinv' := (show (bigSep Finset.univ fun x : DCI => cellInv EB (bRd (F := F) m) (κ (bcell₃ x)) (bcell₃ x))
      ⊢ (bigSep Finset.univ fun j : Fin 16 => cellInv EB (bRd (F := F) m) (κ (bcell d c (jt j))) (bcell d c (jt j)) : sProp 𝕄) from
    BI.bigSep_intro_persistent fun j _ => bigSep_elim (Φ := fun x : DCI => (cellInv EB (bRd (F := F) m) (κ (bcell₃ x)) (bcell₃ x) : sProp 𝕄))
      (i := (d, c, jt j)) (Finset.mem_univ _)) $$ Hinv
  ihave #Hr' := (show (bigSep Finset.univ fun x : DCI => reached EB (bcell₃ x) 0)
      ⊢ (bigSep Finset.univ fun j : Fin 16 => reached EB (bcell d c (jt j)) 0 : sProp 𝕄) from
    BI.bigSep_intro_persistent fun j _ => bigSep_elim (Φ := fun x : DCI => (reached EB (bcell₃ x) 0 : sProp 𝕄))
      (i := (d, c, jt j)) (Finset.mem_univ _)) $$ Hr
  isplitl [Hat Ht0 Hc0]
  · isplitr; · iexists κ; iexact Hinv'
    isplitl [Ht0]; · iexact Ht0
    isplitl [Hc0]; · iexact Hc0
    rw [if_pos (show ((0 : Fin 2).val = 0) from rfl)]
    isplitr; · iexact Hr'
    iexact Hat
  · isplitr; · iexists κ; iexact Hinv'
    isplitl [Ht1]; · iexact Ht1
    isplitl [Hc1]; · iexact Hc1
    rw [if_neg (show ¬ ((1 : Fin 2).val = 0) by decide)]
    iempintro

omit [FloatOps F] in
/-- The three families side by side are the family of each tile's own. -/
theorem mine_intro :
    iprop((bigSep Finset.univ fun x : DCI => atPos EB (bcell₃ x) 0 ∅ 0)
        ∗ (bigSep Finset.univ fun dci : DCI => bigSep Finset.univ fun j : Fin 16 => bigSep Finset.univ fun q : Fin 2 =>
            dutyTok EB (bcell dci.1 dci.2.1 (jt j)) q.val dci.2.2.val)
        ∗ (bigSep Finset.univ fun dci : DCI => iprop(cred (tallyAt (bcell₃ dci) (some 0) 16) ∗ cred (tallyAt (bcell₃ dci) (some 1) 16))))
      ⊢ (bigSep Finset.univ fun dci : DCI => mine (F := F) dci : sProp 𝕄) := by
  have e : (bigSep Finset.univ fun dci : DCI => mine (F := F) dci : sProp 𝕄)
      = iprop((bigSep Finset.univ fun x : DCI => atPos EB (bcell₃ x) 0 ∅ 0)
        ∗ (bigSep Finset.univ fun dci : DCI => bigSep Finset.univ fun j : Fin 16 => bigSep Finset.univ fun q : Fin 2 =>
            dutyTok EB (bcell dci.1 dci.2.1 (jt j)) q.val dci.2.2.val)
        ∗ (bigSep Finset.univ fun dci : DCI => iprop(cred (tallyAt (bcell₃ dci) (some 0) 16) ∗ cred (tallyAt (bcell₃ dci) (some 1) 16)))) := by
    unfold mine
    rw [bigSep_sep', bigSep_sep']
  rw [e]

/-- Each tile its two kits; the TensorCore and the sequencers are dealt nothing. -/
theorem kits_deal :
    iprop(shared (F := F) m ∗ (bigSep Finset.univ fun x : DCI => atPos EB (bcell₃ x) 0 ∅ 0)
        ∗ (bigSep Finset.univ fun dci : DCI => bigSep Finset.univ fun j : Fin 16 => bigSep Finset.univ fun q : Fin 2 =>
            dutyTok EB (bcell dci.1 dci.2.1 (jt j)) q.val dci.2.2.val)
        ∗ (bigSep Finset.univ fun dci : DCI => iprop(cred (tallyAt (bcell₃ dci) (some 0) 16) ∗ cred (tallyAt (bcell₃ dci) (some 1) 16))))
      ⊢ (bigSep Finset.univ fun thr : Thread nD τ => bigSep Finset.univ fun q : Fin 2 => (P (F := F) m).x q thr : sProp 𝕄) := by
  rw [SparseCore.Cfg.bigSep_threads (fun thr : Thread nD τ => bigSep Finset.univ fun q : Fin 2 => (P (F := F) m).x q thr)]
  have hT : (bigSep Finset.univ fun d : Dev nD => bigSep Finset.univ fun q : Fin 2 => (P (F := F) m).x q (SparseCore.T d)) = (iprop(emp) : sProp 𝕄) :=
    (bigSep_congr fun d _ => (bigSep_emp_const (Finset.univ : Finset (Fin 2)))).trans (bigSep_emp_const _)
  have hS : (bigSep Finset.univ fun dc : Dev nD × Fin τ.nSC => bigSep Finset.univ fun q : Fin 2 => (P (F := F) m).x q (S dc.1 dc.2)) = (iprop(emp) : sProp 𝕄) :=
    (bigSep_congr fun dc _ => (bigSep_emp_const (Finset.univ : Finset (Fin 2)))).trans (bigSep_emp_const _)
  have hV : ∀ dci : DCI, (bigSep Finset.univ fun q : Fin 2 => (P (F := F) m).x q (V dci.1 dci.2.1 dci.2.2))
      = (iprop(bkit m 0 dci.1 dci.2.1 dci.2.2 ∗ bkit m 1 dci.1 dci.2.1 dci.2.2) : sProp 𝕄) := fun dci => bigSep_fin2 _
  rw [hT, hS]
  simp only [hV]
  iintro ⟨#Hsh, Hat, Htok, Hcred⟩
  isplitr; · iempintro
  isplitr; · iempintro
  iapply (bigSep_mono_with (R := shared (F := F) m) (Φ := mine (F := F)) fun dci _ => kit_intro (F := F) m dci)
  isplitr; · iexact Hsh
  iapply (mine_intro (F := F))
  isplitl [Hat]; · iexact Hat
  isplitl [Htok]; · iexact Htok
  iexact Hcred

/-! ## The launch element -/

theorem hu₀ : iprop(ownU (u₀ (F := F)) ∗ (P (F := F) m).oxCred ∗ (K (F := F)).freeSems0)
    ⊢ |={Set.univ}=> iprop(BI.own (EH (initOf (K (F := F)).hsCells (K (F := F)).hsToks)) ∗ (bigSep Finset.univ fun d : Dev nD => mainG (F := F) d)
        ∗ (bigSep Finset.univ fun thr : Thread nD τ => bigSep Finset.univ fun q : Fin 2 => (P (F := F) m).x q thr) : sProp 𝕄) := by
  unfold u₀
  iintro ⟨Hu, Hcred, Hfree⟩
  ihave H := (ownU_split _ _ _) $$ Hu
  icases H with ⟨HH, HB, HP⟩
  imod (Rounds.fund EB (bRd (F := F) m) bCells bToks) $$ HB with ⟨Hst, #Hr, Hat, Htok⟩
  imod (Pipeline.fund_ghost (nD := nD) (τ := τ) cfgs EP Gen.cellOf_inj) $$ HP with ⟨Hg, Ht⟩
  ihave Hsems := (sems_b (F := F)) $$ Hfree
  imod (invs_b m) $$ [Hsems Hst] with ⟨%κ, #Hinv⟩
  · isplitl [Hsems] <;> iassumption
  ihave Hcred' := (creds_b m) $$ Hcred
  ihave Hinv' := (Entails.of_eq (bCells_eq (F := F) fun g => cellInv EB (bRd (F := F) m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitl [Hg Ht]
  · rw [bigSep_sep']
    isplitl [Hg] <;> iassumption
  iapply (kits_deal m)
  isplitr
  · isplitl; · iexists κ; iexact Hinv'
    iexact Hr'
  isplitl [Hat']; · iexact Hat'
  isplitl [Htok']; · iexact Htok'
  iexact Hcred'

end Cert.Proof.KB

end
-- ==== Proof.KB.Run.lean ====
/-
  The program's run: every weakly fair execution of the TensorCore's @main beside the SparseCores' threads terminates,
  nothing faulting, with the result array at `RES` — one term of the launch memory's three arguments — and the
  arguments unchanged. It is the launch theorem applied to the parts: the two lookups' tile obligations, how each
  SparseCore's operands split among its tiles, the launch element, and @main on the TensorCore. What @main leaves
  (`FIN`) is read off the final memory by agreement of each held array with the machine's state.
-/
import proofs.«207420_g80582176408339_cont_9to1c4b_743_56_alg».proof.Proof.KB.Split
import proofs.«207420_g80582176408339_cont_9to1c4b_743_56_alg».proof.Proof.KB.Elem

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ) (ρ : Dev nD → PrngReg)

/-- What the final memory holds on device `d`. -/
def fq (d : Dev nD) (s' : Phys nD τ sig (Elt F)) : Prop :=
  s'.mem.mem (resLoc d) = RES m d ∧ s'.mem.mem (xLoc d) = m (xLoc d) ∧ s'.mem.mem (wLoc d) = m (wLoc d) ∧ s'.mem.mem (bLoc d) = m (bLoc d)

theorem hfin (d : Dev nD) (s' : Phys nD τ sig (Elt F)) : iprop(FIN m d ∗ SI s') ⊢ (⌜fq m d s'⌝ : sProp 𝕄) := by
  iintro ⟨⟨Hx, Hw, Hb, Hr⟩, HSI⟩
  icombine HSI Hx gives %hx
  icombine HSI Hw gives %hw
  icombine HSI Hb gives %hb
  icombine HSI Hr gives %hr
  ipureintro
  exact ⟨funext fun i => hr i (Finset.mem_univ i), funext fun i => hx i (Finset.mem_univ i), funext fun i => hw i (Finset.mem_univ i),
    funext fun i => hb i (Finset.mem_univ i)⟩

/-- The run's post: on every device the result at `RES`, the arguments at their launch contents. -/
def QC : PUnit × MemSt nD τ sig (Elt F) → Prop := fun r => ∀ c : Dev nD,
  r.2.mem (resLoc c) = RES m c ∧ r.2.mem (xLoc c) = m (xLoc c) ∧ r.2.mem (wLoc c) = m (wLoc c) ∧ r.2.mem (bLoc c) = m (bLoc c)

/-- What is owed of @main on the TensorCore (the launch theorem's hypothesis about it). -/
def MainObl : Prop := ∀ (κ : GSem nD τ sig → ℕ) (d : Dev nD),
  iprop((K (F := F)).ctx EH (P m) κ ∗ (K (F := F)).tcSt EH d 0 ∗ (K (F := F)).tcRes m ρ d ∗ mainG (F := F) d)
    ⊢ wp frame (wpE ((K (F := F)).defs (D (F := F))) 𝒱 (SparseCore.T d) none) Set.univ (main d)
        fun _ => iprop((K (F := F)).tcSt EH d 2 ∗ FIN m d)

/-- The launch theorem applied. -/
theorem run_of_parts [∀ e, Nonempty (Elt F e)]
    (ht0 : (K (F := F)).TileObl (D (F := F)) 𝒱 (P m) v₀ 0) (ht1 : (K (F := F)).TileObl (D (F := F)) 𝒱 (P m) v₀ 1)
    (hm : MainObl m ρ) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq | 1 => nomatch hq)
    (fun q _ => match q with | 0 => ht0 | 1 => ht1)
    (fun q _ => match q with | 0 => vecSplit0 m | 1 => vecSplit1 m)
    m ρ main (fun d => mainG (F := F) d) (FIN m) (u₀ (F := F)) (hu₀ m) hm (fq m) (hfin m) (QC m) (fun _ h => h)

end Cert.Proof.KB

end
-- ==== Proof.KB.Value.lean ====
/-
  The value the kernel's parts leave, read as the specification.

  Two facts about the arrays the lookups read. The index matrix they read is the transpose of the index argument, so
  its entry (f, b) is x[b, f]; with the stated domain of the inputs every such entry, read unsigned, is below 100000.
  The two half tables are rows 0 … 1299999 and rows 1300000 … 2599999 of the table, flattened, so entry n of half q
  is the table's row 1300000 q + n.

  Then the sum. Lookup q on SparseCore c puts in row r of its shared buffer the looked-up entry of field
  13 q + 7 c + r (r + c < 7), whose row in its half table is (7 c + r) * 100000 + x[b, 13 q + 7 c + r]: that is the
  table's row (13 q + 7 c + r) * 100000 + x[b, 13 q + 7 c + r], the specification's row for that field. The one row
  left over (c = 1, r = 6) holds the zero word, which is 0. The fields 13 q + 7 c + r are 0 … 6, 7 … 12, 13 … 19,
  20 … 25: each of the 26 once. Addition on the extended reals is commutative and associative with unit 0, so the
  28 numbers added seven at a time, then four partial sums, then the bias, are the sum over the 26 fields plus the
  bias.
-/
import proofs.«207420_g80582176408339_cont_9to1c4b_743_56_alg».proof.Proof.KB.Common
import proofs.«207420_g80582176408339_cont_9to1c4b_743_56_alg».proof.Proof.RefPre
import proofs.«207420_g80582176408339_cont_9to1c4b_743_56_alg».proof.Proof.Spec
import Idealize.ShloMosaic.Lib.Pipeline.Value
import Idealize.ShloMosaic.PureOps.Ideal.Laws

noncomputable section

namespace Cert.Proof.KB

open Cert.Kernel Cert.Kernel.Gen

open Idealize.ShloMosaic Idealize.ShloMosaic.ValueIdx

/-! ## For every float instance: the arrays the lookups read, and the domain of the indices -/

section AnyInstance
variable {F : FTy → Type} [FloatOps F]

/-- The index matrix the lookups read is the index argument transposed. -/
theorem XT_apply (m : (ℓ : Loc nD τ sig) → Buf (Elt F) ℓ) (d : Dev nD) (f : Fin 26) (b : Fin 16384) :
    XT m d (ix2 f b) = m (xLoc d) (ix2 b f) := by
  unfold XT
  exact transpose_apply _ _ _ _ _ (fun a => by
    match a with
    | ⟨0, _⟩ => rfl
    | ⟨1, _⟩ => rfl)

/-- every index names a row of its field, from the precondition on the index matrix (XT is the transpose: xtAt XT f b is x[b, f]) -/
theorem inRange_of_pre {F : FTy → Type} [FloatOps F] (m : (ℓ : Loc nD τ sig) → Buf (Elt F) ℓ)
    (h : ∀ d : Dev nD, Cert.Pre_input_domain.fn (F := F) (m (xLoc d)) (m (wLoc d)) (m (bLoc d)) = (fun _ => 1#1)) : InRange m := by
  intro d f b
  rw [XT_apply]
  exact Cert.RefPre.x_in_range _ _ _ (h d) b f

/-- The number the index matrix holds for field f and batch row b is x[b, f] read unsigned. -/
theorem xtAt_XT (m : (ℓ : Loc nD τ sig) → Buf (Elt F) ℓ) (d : Dev nD) (f : Fin 26) (b : Fin 16384) :
    xtAt (XT m d) f.val b.val = (m (xLoc d) (ix2 b f)).toNat := by
  unfold xtAt
  rw [dif_pos ⟨f.isLt, b.isLt⟩]
  exact congrArg BitVec.toNat (XT_apply m d f b)

/-- Entry n of the first half table is the table's row n. -/
theorem WH0_apply (m : (ℓ : Loc nD τ sig) → Buf (Elt F) ℓ) (d : Dev nD) (n : Fin 1300000) :
    WH0 m d (ix1 n) = m (wLoc d) (ix2 (⟨n.val, by omega⟩ : Fin 2600000) (0 : Fin 1)) := by
  unfold WH0
  refine (shapeCast_apply _ _ (ix1 n) (ix2 n (0 : Fin 1)) ?_).trans ?_
  · rw [Shape.rowMajor_val_two, Shape.rowMajor_val_one]
    show n.val * 1 + 0 = n.val
    omega
  · exact extractStridedSlice_apply _ _ _ _ _ (fun a => by
      match a with
      | ⟨0, _⟩ => exact (Nat.zero_add _).symm
      | ⟨1, _⟩ => rfl)

/-- Entry n of the second half table is the table's row 1300000 + n. -/
theorem WH1_apply (m : (ℓ : Loc nD τ sig) → Buf (Elt F) ℓ) (d : Dev nD) (n : Fin 1300000) :
    WH1 m d (ix1 n) = m (wLoc d) (ix2 (⟨1300000 + n.val, by omega⟩ : Fin 2600000) (0 : Fin 1)) := by
  unfold WH1
  refine (shapeCast_apply _ _ (ix1 n) (ix2 n (0 : Fin 1)) ?_).trans ?_
  · rw [Shape.rowMajor_val_two, Shape.rowMajor_val_one]
    show n.val * 1 + 0 = n.val
    omega
  · exact extractStridedSlice_apply _ _ _ _ _ (fun a => by
      match a with
      | ⟨0, _⟩ => rfl
      | ⟨1, _⟩ => rfl)

theorem whAt_WH0 (m : (ℓ : Loc nD τ sig) → Buf (Elt F) ℓ) (d : Dev nD) (n : Nat) (h : n < 1300000) :
    whAt (WH0 m d) n = m (wLoc d) (ix2 (⟨n, by omega⟩ : Fin 2600000) (0 : Fin 1)) := by
  unfold whAt
  rw [dif_pos h]
  exact WH0_apply m d ⟨n, h⟩

theorem whAt_WH1 (m : (ℓ : Loc nD τ sig) → Buf (Elt F) ℓ) (d : Dev nD) (n : Nat) (h : n < 1300000) :
    whAt (WH1 m d) n = m (wLoc d) (ix2 (⟨1300000 + n, by omega⟩ : Fin 2600000) (0 : Fin 1)) := by
  unfold whAt
  rw [dif_pos h]
  exact WH1_apply m d ⟨n, h⟩

/-- The row of a SparseCore's shared buffer that no tile fills with looked-up numbers holds the zero word. -/
theorem acc_left_over (xt : IVec S26x16384 32) (wh : FVec F S1300000 .f32) (fb b : Nat) :
    accAt xt wh fb 1 6 b = Scalar.ofBits .f32 0x00000000#32 := if_neg (by decide)

end AnyInstance

/-! ## At the ideal instance: the rows are the specification's, and the sums agree -/

/-- The specification's looked-up number of field n for batch row b; zero for a number that names no field. -/
def fieldAt (x : IVec ⟨2, ![16384, 26]⟩ 32) (w : FVec Ideal ⟨2, ![2600000, 1]⟩ .f32) (b : Fin 16384) (n : Nat) : Ideal .f32 :=
  if h : n < 26 then Cert.Spec.wAt w (Cert.Spec.rowOfField x b ⟨n, h⟩) else 0

/-- For an index below 100000 it is the table's entry at row n * 100000 + x[b, n]. -/
theorem fieldAt_eq (x : IVec ⟨2, ![16384, 26]⟩ 32) (w : FVec Ideal ⟨2, ![2600000, 1]⟩ .f32) (b : Fin 16384) (n : Nat)
    (hn : n < 26) (hx : (x (ix2 b (⟨n, hn⟩ : Fin 26))).toNat < 100000) :
    fieldAt x w b n
      = w (ix2 (⟨n * 100000 + (x (ix2 b (⟨n, hn⟩ : Fin 26))).toNat, by omega⟩ : Fin 2600000) (0 : Fin 1)) := by
  unfold fieldAt
  rw [dif_pos hn]
  unfold Cert.Spec.wAt Cert.Spec.rowOfField
  exact dif_pos _

section AtIdeal
variable (m : (ℓ : Loc nD τ sig) → Buf (Elt Ideal) ℓ) (hx : InRange m) (d : Dev nD) (b : Fin 16384)
include hx

/-- Row r of SparseCore c's shared buffer in the first lookup holds the specification's number of field 7 c + r. -/
theorem acc0_eq (c r n : Nat) (hn : n = 0 + 7 * c + r) (hrc : r + c < 7) (hc : c < 2) :
    accAt (XT m d) (WH0 m d) 0 c r b.val = fieldAt (m (xLoc d)) (m (wLoc d)) b n := by
  subst hn
  have hf : 0 + 7 * c + r < 26 := by omega
  have hxv : (m (xLoc d) (ix2 b (⟨0 + 7 * c + r, hf⟩ : Fin 26))).toNat < 100000 := by
    have := hx d ⟨0 + 7 * c + r, hf⟩ b
    rwa [XT_apply] at this
  have hlt : (7 * c + r) * 100000 + (m (xLoc d) (ix2 b (⟨0 + 7 * c + r, hf⟩ : Fin 26))).toNat < 1300000 := by omega
  unfold accAt
  rw [if_pos hrc, xtAt_XT m d ⟨0 + 7 * c + r, hf⟩ b, whAt_WH0 m d _ hlt, fieldAt_eq _ _ b _ hf hxv]
  exact congrArg (fun k : Fin 2600000 => m (wLoc d) (ix2 k (0 : Fin 1))) (Fin.ext (by simp only []; omega))

/-- The same in the second lookup, over the second half table: field 13 + 7 c + r. -/
theorem acc1_eq (c r n : Nat) (hn : n = 13 + 7 * c + r) (hrc : r + c < 7) (hc : c < 2) :
    accAt (XT m d) (WH1 m d) 13 c r b.val = fieldAt (m (xLoc d)) (m (wLoc d)) b n := by
  subst hn
  have hf : 13 + 7 * c + r < 26 := by omega
  have hxv : (m (xLoc d) (ix2 b (⟨13 + 7 * c + r, hf⟩ : Fin 26))).toNat < 100000 := by
    have := hx d ⟨13 + 7 * c + r, hf⟩ b
    rwa [XT_apply] at this
  have hlt : (7 * c + r) * 100000 + (m (xLoc d) (ix2 b (⟨13 + 7 * c + r, hf⟩ : Fin 26))).toNat < 1300000 := by omega
  unfold accAt
  rw [if_pos hrc, xtAt_XT m d ⟨13 + 7 * c + r, hf⟩ b, whAt_WH1 m d _ hlt, fieldAt_eq _ _ b _ hf hxv]
  exact congrArg (fun k : Fin 2600000 => m (wLoc d) (ix2 k (0 : Fin 1))) (Fin.ext (by simp only []; omega))

end AtIdeal

/-- at the ideal instance the kernel's result is the specification -/
theorem RES_eq_G (m : (ℓ : Loc nD τ sig) → Buf (Elt Ideal) ℓ) (hx : InRange m) (d : Dev nD) :
    RES m d = Cert.Spec.G (m (xLoc d)) (m (wLoc d)) (m (bLoc d)) := by
  funext i
  obtain ⟨b, z, rfl⟩ : ∃ (b : Fin 16384) (z : Fin 1), i = ix2 b z := ⟨i 0, i 1, eq_ix2 i⟩
  have hsum : (∑ f : Fin 26, Cert.Spec.wAt (m (wLoc d)) (Cert.Spec.rowOfField (m (xLoc d)) b f))
      = ∑ n ∈ Finset.range 26, fieldAt (m (xLoc d)) (m (wLoc d)) b n := by
    rw [← Fin.sum_univ_eq_sum_range]
    exact Finset.sum_congr rfl fun f _ => by unfold fieldAt; rw [dif_pos f.isLt]
  have hz : (Scalar.ofBits .f32 0x00000000#32 : Ideal .f32) = 0 := Ideal.ofBits_zero_f32
  show resAt (XT m d) (WH0 m d) (WH1 m d) (m (bLoc d) (ix1 (0 : Fin 1))) b.val
    = (∑ f : Fin 26, Cert.Spec.wAt (m (wLoc d)) (Cert.Spec.rowOfField (m (xLoc d)) b f)) + m (bLoc d) (ix1 (0 : Fin 1))
  rw [hsum]
  unfold resAt partAt
  rw [acc_left_over, acc_left_over, hz,
    acc0_eq m hx d b 0 0 0 rfl (by decide) (by decide),
    acc0_eq m hx d b 0 1 1 rfl (by decide) (by decide),
    acc0_eq m hx d b 0 2 2 rfl (by decide) (by decide),
    acc0_eq m hx d b 0 3 3 rfl (by decide) (by decide),
    acc0_eq m hx d b 0 4 4 rfl (by decide) (by decide),
    acc0_eq m hx d b 0 5 5 rfl (by decide) (by decide),
    acc0_eq m hx d b 0 6 6 rfl (by decide) (by decide),
    acc0_eq m hx d b 1 0 7 rfl (by decide) (by decide),
    acc0_eq m hx d b 1 1 8 rfl (by decide) (by decide),
    acc0_eq m hx d b 1 2 9 rfl (by decide) (by decide),
    acc0_eq m hx d b 1 3 10 rfl (by decide) (by decide),
    acc0_eq m hx d b 1 4 11 rfl (by decide) (by decide),
    acc0_eq m hx d b 1 5 12 rfl (by decide) (by decide),
    acc1_eq m hx d b 0 0 13 rfl (by decide) (by decide),
    acc1_eq m hx d b 0 1 14 rfl (by decide) (by decide),
    acc1_eq m hx d b 0 2 15 rfl (by decide) (by decide),
    acc1_eq m hx d b 0 3 16 rfl (by decide) (by decide),
    acc1_eq m hx d b 0 4 17 rfl (by decide) (by decide),
    acc1_eq m hx d b 0 5 18 rfl (by decide) (by decide),
    acc1_eq m hx d b 0 6 19 rfl (by decide) (by decide),
    acc1_eq m hx d b 1 0 20 rfl (by decide) (by decide),
    acc1_eq m hx d b 1 1 21 rfl (by decide) (by decide),
    acc1_eq m hx d b 1 2 22 rfl (by decide) (by decide),
    acc1_eq m hx d b 1 3 23 rfl (by decide) (by decide),
    acc1_eq m hx d b 1 4 24 rfl (by decide) (by decide),
    acc1_eq m hx d b 1 5 25 rfl (by decide) (by decide)]
  simp only [Finset.sum_range_succ, Finset.sum_range_zero, Ideal.addf_def, add_zero, zero_add]
  ac_rfl

end Cert.Proof.KB

end
-- ==== Proof.KB.Tile0Pieces.lean ====
/-
  Lookup 0, one tile: the pieces its task's proof is assembled from.
  A tile's coordinates; the slice of a flat array at a unit rectangle as a segment; the tile's own twenty-one DMA
  semaphores and five scratch buffers taken out of its own cells and references one by one; and the barrier's
  payloads: a tile that owns no row (tiles 7 to 15) hands nothing over, and every tile's own round collects its
  column block of each of the seven rows of the shared buffer at the looked-up values.
-/
import proofs.«207420_g80582176408339_cont_9to1c4b_743_56_alg».proof.Proof.KB.Segs

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T0

/-! ## A tile's coordinates -/

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

/-! ## The slice of a flat array at a unit rectangle is a segment -/

omit [FloatOps F] in
theorem unit_set_seg {N : Nat} (off size : Fin 1 → Nat) (inb : ∀ a, off a + size a ≤ (⟨1, ![N]⟩ : Shape).size a) :
    (Rect.unit (s := (⟨1, ![N]⟩ : Shape)) off size inb).set = seg (N := N) (off 0) (size 0) := by
  ext i
  rw [Rect.mem_set_unit, mem_seg]
  constructor
  · intro h; exact h 0
  · intro h a
    obtain rfl : a = 0 := Subsingleton.elim _ _
    exact h

/-! ## The tile's own semaphores and buffers, one by one -/

/-- The tile's twenty-one DMA semaphores: the kernel's four and the seventeen of its scoped regions. -/
def semLocs : List (SemLoc sig) :=
  [.dma cc0_scratch6.sem, .dma cc0_scratch7.sem, .dma cc0_scratch8.sem, .dma cc0_scratch9.sem,
   .dma cc0_scoped0.sem, .dma cc0_scoped1.sem, .dma cc0_scoped2.sem, .dma cc0_scoped3.sem, .dma cc0_scoped4.sem, .dma cc0_scoped5.sem,
   .dma cc0_scoped6.sem, .dma cc0_scoped7.sem, .dma cc0_scoped8.sem, .dma cc0_scoped9.sem, .dma cc0_scoped10.sem, .dma cc0_scoped11.sem,
   .dma cc0_scoped12.sem, .dma cc0_scoped13.sem, .dma cc0_scoped14.sem, .dma cc0_scoped15.sem, .dma cc0_scoped16.sem]

omit [FloatOps F] in
theorem semLocs_nodup : semLocs.Nodup := by decide
omit [FloatOps F] in
theorem semLocs_scoped : ∀ sm ∈ semLocs, (sm : SemLoc sig).isScoped .scVector = true := by decide

abbrev semCells (thr : Thread nD τ) : List (GSem nD τ sig) := semLocs.map fun sm => (thr, sm)

omit [FloatOps F] in
theorem semCells_nodup (thr : Thread nD τ) : (semCells thr).Nodup :=
  semLocs_nodup.map fun _ _ e => (Prod.mk.inj e).2

omit [FloatOps F] in
theorem semCells_sub (d : Dev nD) (c : Fin τ.nSC) (i : Fin τ.nSub) : (semCells (V d c i)).toFinset ⊆ ownCells (V d c i) := by
  intro g hg
  rw [List.mem_toFinset, List.mem_map] at hg
  obtain ⟨sm, hsm, rfl⟩ := hg
  exact mem_ownCells.mpr ⟨rfl, semLocs_scoped sm hsm⟩

omit [FloatOps F] in
theorem ownSems0_V (d : Dev nD) (c : Fin τ.nSC) (i : Fin τ.nSub) :
    (ownSems0 (V d c i) : sProp 𝕄)
      = iprop((semVal ((V d c i, SemLoc.dma cc0_scratch6.sem) : GSem nD τ sig) 0
          ∗ semVal ((V d c i, SemLoc.dma cc0_scratch7.sem) : GSem nD τ sig) 0
          ∗ semVal ((V d c i, SemLoc.dma cc0_scratch8.sem) : GSem nD τ sig) 0
          ∗ semVal ((V d c i, SemLoc.dma cc0_scratch9.sem) : GSem nD τ sig) 0
          ∗ semVal ((V d c i, SemLoc.dma cc0_scoped0.sem) : GSem nD τ sig) 0
          ∗ semVal ((V d c i, SemLoc.dma cc0_scoped1.sem) : GSem nD τ sig) 0
          ∗ semVal ((V d c i, SemLoc.dma cc0_scoped2.sem) : GSem nD τ sig) 0
          ∗ semVal ((V d c i, SemLoc.dma cc0_scoped3.sem) : GSem nD τ sig) 0
          ∗ semVal ((V d c i, SemLoc.dma cc0_scoped4.sem) : GSem nD τ sig) 0
          ∗ semVal ((V d c i, SemLoc.dma cc0_scoped5.sem) : GSem nD τ sig) 0
          ∗ semVal ((V d c i, SemLoc.dma cc0_scoped6.sem) : GSem nD τ sig) 0
          ∗ semVal ((V d c i, SemLoc.dma cc0_scoped7.sem) : GSem nD τ sig) 0
          ∗ semVal ((V d c i, SemLoc.dma cc0_scoped8.sem) : GSem nD τ sig) 0
          ∗ semVal ((V d c i, SemLoc.dma cc0_scoped9.sem) : GSem nD τ sig) 0
          ∗ semVal ((V d c i, SemLoc.dma cc0_scoped10.sem) : GSem nD τ sig) 0
          ∗ semVal ((V d c i, SemLoc.dma cc0_scoped11.sem) : GSem nD τ sig) 0
          ∗ semVal ((V d c i, SemLoc.dma cc0_scoped12.sem) : GSem nD τ sig) 0
          ∗ semVal ((V d c i, SemLoc.dma cc0_scoped13.sem) : GSem nD τ sig) 0
          ∗ semVal ((V d c i, SemLoc.dma cc0_scoped14.sem) : GSem nD τ sig) 0
          ∗ semVal ((V d c i, SemLoc.dma cc0_scoped15.sem) : GSem nD τ sig) 0
          ∗ semVal ((V d c i, SemLoc.dma cc0_scoped16.sem) : GSem nD τ sig) 0)
          ∗ bigSep (ownCells (V d c i) \ (semCells (V d c i)).toFinset) fun g => semVal g 0) := by
  unfold SparseCore.Cfg.ownSems0
  rw [SparseCore.bigSep_sdiff_split' (semCells_sub d c i), bigSep_eq_bigSepL_of_eq (semCells (V d c i)) rfl (semCells_nodup _)]
  simp only [semCells, semLocs, List.map_cons, List.map_nil, bigSepL_cons_cons, bigSepL_singleton]
  rfl

end T0

namespace T0

/-! ## The tile's own scratch buffers, one by one -/

def bufRefs : List (Ref sig .scVector) := [cc0_scratch0, cc0_scratch1, cc0_scratch2, cc0_scratch3, cc0_scratch4]
omit [FloatOps F] in
theorem bufRefs_nodup : bufRefs.Nodup := by decide
abbrev bufCells (c : Fin τ.nSC) (i : Fin τ.nSub) : List (DevRef τ sig) := bufRefs.map (Proc.scVector c i).devRef
omit [FloatOps F] in
theorem bufCells_nodup (c : Fin τ.nSC) (i : Fin τ.nSub) : (bufCells c i).Nodup := bufRefs_nodup.map (Proc.devRef_injective _)
omit [FloatOps F] in
theorem bufCells_sub (c : Fin τ.nSC) (i : Fin τ.nSub) : (bufCells c i).toFinset ⊆ ownRefs (τ := τ) (.scVector c i) := by
  intro b hb
  rw [List.mem_toFinset, List.mem_map] at hb
  obtain ⟨r, hr, rfl⟩ := hb
  simp only [bufRefs, List.mem_cons, List.not_mem_nil, or_false] at hr
  rcases hr with rfl | rfl | rfl | rfl | rfl <;> exact SparseCore.Cfg.mem_ownRefs_of_owner rfl

omit [FloatOps F] in
theorem ownBufs_V (d : Dev nD) (c : Fin τ.nSC) (i : Fin τ.nSub) :
    (ownBufs (V d c i) : sProp 𝕄)
      = iprop(((∃ f, (V d c i).loc cc0_scratch0 ↦{fullShare} f)
          ∗ (∃ f, (V d c i).loc cc0_scratch1 ↦{fullShare} f)
          ∗ (∃ f, (V d c i).loc cc0_scratch2 ↦{fullShare} f)
          ∗ (∃ f, (V d c i).loc cc0_scratch3 ↦{fullShare} f)
          ∗ (∃ f, (V d c i).loc cc0_scratch4 ↦{fullShare} f))
          ∗ bigSep (ownRefs (τ := τ) (.scVector c i) \ (bufCells c i).toFinset) fun b => iprop(∃ f, ((d, b) : Loc nD τ sig) ↦{fullShare} f)) := by
  unfold SparseCore.Cfg.ownBufs
  rw [SparseCore.bigSep_sdiff_split' (bufCells_sub c i), bigSep_eq_bigSepL_of_eq (bufCells c i) rfl (bufCells_nodup _ _)]
  simp only [bufCells, bufRefs, List.map_cons, List.map_nil, bigSepL_cons_cons, bigSepL_singleton]
  rfl

omit [FloatOps F] in
theorem bigSep_emp' {I : Type} (s : Finset I) : (bigSep s fun _ => iprop(emp)) = (iprop(emp) : sProp 𝕄) := bigSep_emp_const s

end T0

namespace T0
section Bar
variable (d : Dev nD)

/-- A tile that owns no row hands nothing over at the barrier. -/
theorem pays_none (c : Fin τ.nSC) (s : ℕ) (hs : 7 ≤ s) :
    (bigSep Finset.univ fun j : Fin (grid0.bound 1) => (bRd (F := F) m).payload (bcell d c (j.castLE hsub0)) 0 s : sProp 𝕄) = iprop(emp) := by
  rw [show (bigSep Finset.univ fun j : Fin (grid0.bound 1) => (bRd (F := F) m).payload (bcell d c (j.castLE hsub0)) 0 s)
      = bigSep Finset.univ fun _ : Fin (grid0.bound 1) => (iprop(emp) : sProp 𝕄) from bigSep_congr fun j _ => by
        show bPay m (bcell d c (j.castLE hsub0)) 0 s = _
        unfold bPay; dsimp only; rw [if_neg (by omega)], bigSep_emp']

theorem bPay_lt (c : Fin τ.nSC) (i : Fin τ.nSub) (n : ℕ) (hn : n < 7) :
    bPay m (bcell d c i) 0 n = iprop(acc0Loc d c ↦[seg (N := 114688) (16384 * n + 1024 * i.val) 1024]{fullShare} ACC0 m d c) := by
  unfold bPay; dsimp only; rw [if_pos hn, if_pos rfl]
theorem bPay_ge (c : Fin τ.nSC) (i : Fin τ.nSub) (n : ℕ) (hn : 7 ≤ n) : bPay m (bcell d c i) 0 n = iprop(emp) := by
  unfold bPay; dsimp only; rw [if_neg (by omega)]

omit [FloatOps F] in
theorem duties_list : (Finset.univ : Finset (Fin τ.nSub)).image Fin.val = [0, 1, 2, 3, 4, 5, 6, 7, 8, 9, 10, 11, 12, 13, 14, 15].toFinset := by decide

/-- What a tile's own round of the barrier collected: its column block of each of the seven rows, at the looked-up values. -/
theorem pays_got (c : Fin τ.nSC) (i : Fin τ.nSub) :
    (bigSep ((bRd (F := F) m).duties (bcell d c i) 0 \ ∅) fun n => (bRd (F := F) m).payload (bcell d c i) 0 n : sProp 𝕄)
      ⊢ iprop((acc0Loc d c ↦[seg (N := 114688) (16384 * 0 + 1024 * i.val) 1024]{fullShare} ACC0 m d c)
          ∗ (acc0Loc d c ↦[seg (N := 114688) (16384 * 1 + 1024 * i.val) 1024]{fullShare} ACC0 m d c)
          ∗ (acc0Loc d c ↦[seg (N := 114688) (16384 * 2 + 1024 * i.val) 1024]{fullShare} ACC0 m d c)
          ∗ (acc0Loc d c ↦[seg (N := 114688) (16384 * 3 + 1024 * i.val) 1024]{fullShare} ACC0 m d c)
          ∗ (acc0Loc d c ↦[seg (N := 114688) (16384 * 4 + 1024 * i.val) 1024]{fullShare} ACC0 m d c)
          ∗ (acc0Loc d c ↦[seg (N := 114688) (16384 * 5 + 1024 * i.val) 1024]{fullShare} ACC0 m d c)
          ∗ (acc0Loc d c ↦[seg (N := 114688) (16384 * 6 + 1024 * i.val) 1024]{fullShare} ACC0 m d c)) := by
  rw [Finset.sdiff_empty, bRd_duties m d c i (by decide), bigSep_eq_bigSepL_of_eq _ duties_list (by decide)]
  show iprop(bPay m (bcell d c i) 0 0 ∗ bPay m (bcell d c i) 0 1 ∗ bPay m (bcell d c i) 0 2 ∗ bPay m (bcell d c i) 0 3 ∗ bPay m (bcell d c i) 0 4 ∗ bPay m (bcell d c i) 0 5 ∗ bPay m (bcell d c i) 0 6 ∗ bPay m (bcell d c i) 0 7 ∗ bPay m (bcell d c i) 0 8 ∗ bPay m (bcell d c i) 0 9 ∗ bPay m (bcell d c i) 0 10 ∗ bPay m (bcell d c i) 0 11 ∗ bPay m (bcell d c i) 0 12 ∗ bPay m (bcell d c i) 0 13 ∗ bPay m (bcell d c i) 0 14 ∗ bPay m (bcell d c i) 0 15) ⊢ _
  rw [bPay_lt m d c i 0 (by decide), bPay_lt m d c i 1 (by decide), bPay_lt m d c i 2 (by decide), bPay_lt m d c i 3 (by decide), bPay_lt m d c i 4 (by decide), bPay_lt m d c i 5 (by decide), bPay_lt m d c i 6 (by decide),
    bPay_ge m d c i 7 (by decide), bPay_ge m d c i 8 (by decide), bPay_ge m d c i 9 (by decide), bPay_ge m d c i 10 (by decide), bPay_ge m d c i 11 (by decide), bPay_ge m d c i 12 (by decide), bPay_ge m d c i 13 (by decide), bPay_ge m d c i 14 (by decide), bPay_ge m d c i 15 (by decide)]
  iintro ⟨H0, H1, H2, H3, H4, H5, H6, -⟩
  isplitl [H0]; · iexact H0
  isplitl [H1]; · iexact H1
  isplitl [H2]; · iexact H2
  isplitl [H3]; · iexact H3
  isplitl [H4]; · iexact H4
  isplitl [H5]; · iexact H5
  iexact H6

end Bar
end T0

end Cert.Proof.KB

end
-- ==== Proof.KB.Tile0Trip.lean ====
/-
  Lookup 0, one tile, the gather phase's pieces.
  One trip of a gather loop as a program over the offsets of its two boxes and its check (every printed loop's trip is
  an instance, by unfolding), and what it does: sixteen indices read from a slot of the index scratch, in range, the
  sixteen table entries they name read from the table scratch and written at the trip's box of the value scratch.
  The buffers as the task addresses them: the two slots of the index scratch, the eight pieces of the tile's row of the
  shared buffer, the tile's entries of the result; the row as its eight pieces. A gather loop's invariant. And what the
  scratches hold, as statements about their entries: a slot a chunk of the field's index row, the table scratch the
  field's entries of the half table, the value scratch the looked-up entries below the trip's box.
-/
import proofs.«207420_g80582176408339_cont_9to1c4b_743_56_alg».proof.Proof.KB.Tile0Pieces

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T0
section Trip
variable (d : Dev nD) (c : Fin τ.nSC) (i : Fin τ.nSub)

abbrev subM : Memref sig .scVector .vmem S100096 .f32 := Memref.whole cc0_scratch0
abbrev xM : Memref sig .scVector .vmem S4096 .i32 := Memref.whole cc0_scratch1
abbrev valM : Memref sig .scVector .vmem S2048 .f32 := Memref.whole cc0_scratch2

/-- One trip of a gather loop, over the offsets of its two boxes and its check: sixteen indices loaded, assumed in
    range, the sixteen table entries they name loaded, and stored. -/
def gTrip (offX offV : Fin 1 → Nat) (inbX : ∀ a, offX a + S16.size a ≤ S4096.size a) (inbV : ∀ a, offV a + S16.size a ≤ S2048.size a)
    (P : IVec S16 32 → Prop) (dec : ∀ v, Decidable (P v)) (hidx : ∀ v, P v → ∀ a x, ((![v] : Fin 1 → IVec S16 32) a x).toNat < S100096.size a) :
    Prog (TpuEff nD τ sig (Elt F) Λ₀ (.scVector c i)) Unit := do
  let v280 : Vec F S16 .i32 ← Prog.lift (.load xM (Rect.unit (s := S4096) offX S16.size inbX).toLoadRect (View.loadsAt_vmem h_S16))
  have hw : P v280 := (← Prog.lift (TpuEff.assume (P v280) (dec v280))).down
  let v281 : Vec F S16 .f32 ← SparseCore.vectorLoadIdx subM ![v280] (hidx v280 hw) (View.loads_vmem h_S100096)
  let v283 : Vec F S16 .f32 ← Prog.lift (.load valM (Rect.unit (s := S2048) offV S16.size inbV).toLoadRect (View.loadsAt_vmem h_S16))
  Prog.lift (.store valM (Rect.unit (s := S2048) offV S16.size inbV) v281 Finset.univ (View.stores_vmem_bits_univ h_S16 rfl) (.inl rfl))
  pure ⟨⟩

theorem k0_t1_body_eq (L : grid0.Coords) (arg1 v1 : BitVec 32) (h1 : k0_cond1 L = 1#1) (k : Fin k0_t1_loop.trips) (u : Unit) :
    k0_t1_body (F := F) L (Memref.whole main_v0_scv) (Memref.isWhole_whole _) (Memref.whole main_v2_scv) (Memref.isWhole_whole _) (Memref.whole main_v6_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 arg1 v1 h1 k u
      = gTrip (F := F) (cV L) (jV L) (k0_off4 k) (k0_off5 k) (k0_off4_inb L k h1) (k0_off5_inb L k h1) (k0_chk1 L) (k0_chk1.dec L) (fun v hw => k0_idx1_inb L v hw h1) := rfl

/-- The sixteen indices a trip loads. -/
abbrev gIdx (offX : Fin 1 → Nat) (inbX : ∀ a, offX a + S16.size a ≤ S4096.size a) (fx : Buf (Elt F) ((xM).view.loc (V d c i))) : IVec S16 32 :=
  (xM).view.readAt (Elt F) (Rect.unit (s := S4096) offX S16.size inbX).toLoadRect fx

/-- What the trip leaves in the value scratch: the looked-up entries written at its box. -/
abbrev gOut (offX offV : Fin 1 → Nat) (inbX : ∀ a, offX a + S16.size a ≤ S4096.size a) (inbV : ∀ a, offV a + S16.size a ≤ S2048.size a)
    (fx : Buf (Elt F) ((xM).view.loc (V d c i))) (fsub : Buf (Elt F) ((subM).view.loc (V d c i))) (fval : Buf (Elt F) ((valM).view.loc (V d c i)))
    (hin : ∀ a x, ((![gIdx (F := F) d c i offX inbX fx] : Fin 1 → IVec S16 32) a x).toNat < S100096.size a) :
    Buf (Elt F) ((valM).view.loc (V d c i)) :=
  ((valM).access (Rect.unit (s := S2048) offV S16.size inbV)).write (Elt F) fval
    (loadIdx (((subM).access (.whole S100096)).read (Elt F) fsub) ![gIdx (F := F) d c i offX inbX fx] hin) Finset.univ

set_option maxHeartbeats 1000000 in
theorem wp_gTrip (offX offV : Fin 1 → Nat) (inbX : ∀ a, offX a + S16.size a ≤ S4096.size a) (inbV : ∀ a, offV a + S16.size a ≤ S2048.size a)
    (P : IVec S16 32 → Prop) (dec : ∀ v, Decidable (P v)) (hidx : ∀ v, P v → ∀ a x, ((![v] : Fin 1 → IVec S16 32) a x).toNat < S100096.size a)
    (S6 : Finset (Idx ((xM).view.loc (V d c i)))) (fx : Buf (Elt F) ((xM).view.loc (V d c i))) (fsub : Buf (Elt F) ((subM).view.loc (V d c i)))
    (fval : Buf (Elt F) ((valM).view.loc (V d c i)))
    (hS6 : (xM).view.setOn (Rect.unit (s := S4096) offX S16.size inbX).toLoadRect.set ⊆ S6)
    (hP : P (gIdx (F := F) d c i offX inbX fx)) :
    (iprop(((xM).view.loc (V d c i) ↦[S6]{fullShare} fx) ∗ ((subM).view.loc (V d c i) ↦{fullShare} fsub) ∗ ((valM).view.loc (V d c i) ↦{fullShare} fval)) : sProp 𝕄)
      ⊢ wp frame (wpE (defs₀ (F := F)) 𝒱₀ (V d c i) none) Set.univ (gTrip (F := F) c i offX offV inbX inbV P dec hidx)
          fun _ => iprop(((xM).view.loc (V d c i) ↦[S6]{fullShare} fx) ∗ ((subM).view.loc (V d c i) ↦{fullShare} fsub)
            ∗ ((valM).view.loc (V d c i) ↦{fullShare} gOut d c i offX offV inbX inbV fx fsub fval (hidx _ hP))) := by
  unfold gTrip
  simp only [Prog.lift, Prog.bind_op, Prog.bind_ret, Prog.pure_eq_ret]
  iintro ⟨H6, H5, H7⟩
  iapply (wp_load 𝒱₀ (V d c i) none Set.univ (m := xM) (S := S6) hS6) $$ H6; iintro H6
  rw [wp_assume_of _ _ _ _ hP]
  iapply (SparseCore.wp_vectorLoadIdx 𝒱₀ (V d c i) none Set.univ (base := subM) (S := Finset.univ) (q := fullShare) (Finset.subset_univ _)) $$ H5; iintro H5
  iapply (wp_load 𝒱₀ (V d c i) none Set.univ (m := valM) (S := Finset.univ) (Finset.subset_univ _)) $$ H7; iintro H7
  iapply (wp_store 𝒱₀ (V d c i) none Set.univ (m := valM) (r := Rect.unit (s := S2048) offV S16.size inbV) (Mk := Finset.univ) (S := Finset.univ) (Finset.subset_univ _)) $$ H7; iintro H7
  rw [wp_ret]; imodintro
  isplitl [H6]; · iexact H6
  isplitl [H5]; · iexact H5
  iexact H7

end Trip
end T0

namespace T0
section PhaseViews
variable (d : Dev nD) (L : grid0.Coords)

abbrev accM : Memref sig .scVector .shared S114688 .f32 := Memref.whole cc0_scratch5

omit [FloatOps F] in
theorem conds_A : ∀ L : grid0.Coords, k0_cond1 L = 1#1 → (L 1).val < 7 ∧ (L 0).val + (L 1).val < 7 ∧ ¬ k0_cond2 L = 1#1 := by decide +kernel

/-- Piece `h` of the tile's row of the shared buffer, as the task slices it. -/
abbrev rowPiece (h1 : k0_cond1 L = 1#1) (h : Fin 8) : Memref sig .scVector .shared S2048 .f32 :=
  (accM).slice (Rect.unit (s := S114688) (k0_off6 L (BitVec.ofNat 32 (2048 * h.val))) S2048.size (k0_off6_inb L h1 h)) (fun _ => rfl)

omit [FloatOps F] in
theorem set_rowPiece (h1 : k0_cond1 L = 1#1) (h : Fin 8) :
    (rowPiece L h1 h).view.set = seg (N := 114688) (16384 * (L 1).val + 2048 * h.val) 2048 := by
  refine (View.set_slice_whole cc0_scratch5 _).trans ?_
  rw [unit_set_seg, k0_off6_eq]; rfl

/-- Slot `p` of the index scratch, as the task slices it. -/
abbrev xSlot0 : Memref sig .scVector .vmem S2048 .i32 := (xM).slice (Rect.unit (s := S4096) ![0] S2048.size inb_S4096_S2048_0) (fun _ => rfl)
abbrev xSlot1 : Memref sig .scVector .vmem S2048 .i32 := (xM).slice (Rect.unit (s := S4096) ![2048] S2048.size inb_S4096_S2048_2048) (fun _ => rfl)

omit [FloatOps F] in
theorem set_xSlot0 : (xSlot0).view.set = seg (N := 4096) 0 2048 := by
  refine (View.set_slice_whole cc0_scratch1 _).trans ?_
  rw [unit_set_seg]; rfl
omit [FloatOps F] in
theorem set_xSlot1 : (xSlot1).view.set = seg (N := 4096) 2048 2048 := by
  refine (View.set_slice_whole cc0_scratch1 _).trans ?_
  rw [unit_set_seg]; rfl

omit [FloatOps F] in
/-- The index scratch is its two slots. -/
theorem x_split (c : Fin τ.nSC) (i : Fin τ.nSub) (f : Buf (Elt F) ((V d c i).loc cc0_scratch1)) :
    ((V d c i).loc cc0_scratch1 ↦{fullShare} f : sProp 𝕄)
      ⊣⊢ iprop(((xSlot0).view.loc (V d c i) ↦[(xSlot0).view.set]{fullShare} f) ∗ ((xSlot1).view.loc (V d c i) ↦[(xSlot1).view.set]{fullShare} f)) := by
  rw [set_xSlot0, set_xSlot1]
  have hu : (Finset.univ : Finset (Idx ((V d c i).loc cc0_scratch1))) = seg (N := 4096) 0 2048 ∪ seg (N := 4096) 2048 2048 := by
    ext j; rw [Finset.mem_union, mem_seg, mem_seg]
    have : (j 0).val < 4096 := (j 0).isLt
    constructor
    · intro _; omega
    · intro _; exact Finset.mem_univ _
  show ((V d c i).loc cc0_scratch1 ↦[Finset.univ]{fullShare} f : sProp 𝕄) ⊣⊢ _
  rw [hu]
  exact pointsTo_union (seg_disjoint (Or.inl (by omega)))

/-- The tile's row of the shared buffer is its eight pieces of 2048. -/
theorem row_split (c : Fin τ.nSC) (s : ℕ) (f : Buf (Elt F) (acc0Loc d c)) :
    (acc0Loc d c ↦[seg (N := 114688) (16384 * s) 16384]{fullShare} f : sProp 𝕄)
      = iprop((acc0Loc d c ↦[seg (N := 114688) (16384 * s + 2048 * 0) 2048]{fullShare} f)
          ∗ (acc0Loc d c ↦[seg (N := 114688) (16384 * s + 2048 * 1) 2048]{fullShare} f)
          ∗ (acc0Loc d c ↦[seg (N := 114688) (16384 * s + 2048 * 2) 2048]{fullShare} f)
          ∗ (acc0Loc d c ↦[seg (N := 114688) (16384 * s + 2048 * 3) 2048]{fullShare} f)
          ∗ (acc0Loc d c ↦[seg (N := 114688) (16384 * s + 2048 * 4) 2048]{fullShare} f)
          ∗ (acc0Loc d c ↦[seg (N := 114688) (16384 * s + 2048 * 5) 2048]{fullShare} f)
          ∗ (acc0Loc d c ↦[seg (N := 114688) (16384 * s + 2048 * 6) 2048]{fullShare} f)
          ∗ (acc0Loc d c ↦[seg (N := 114688) (16384 * s + 2048 * 7) 2048]{fullShare} f)) := by
  rw [show seg (N := 114688) (16384 * s) 16384 = seg (N := 114688) (16384 * s) (2048 * 8) from rfl, ← seg_parts,
    pointsTo_biUnion _ _ seg_parts_disjoint, bigSep_univ_eq_bigSepL [0, 1, 2, 3, 4, 5, 6, 7] (by decide) (by decide)]
  rfl

theorem pts_rowPiece (h1 : k0_cond1 L = 1#1) (h : Fin 8) (f : Buf (Elt F) (acc0Loc d (cT (cL L)))) :
    ((rowPiece L h1 h).view.loc (V d (cV L) (jV L)) ↦[(rowPiece L h1 h).view.set]{fullShare} f : sProp 𝕄)
      = (acc0Loc d (cT (cL L)) ↦[seg (N := 114688) (16384 * (L 1).val + 2048 * h.val) 2048]{fullShare} f) := by
  rw [set_rowPiece]; rfl

end PhaseViews
end T0

namespace T0
section Respell
variable (d : Dev nD) (L : grid0.Coords)

abbrev xtM : Memref sig .scVector .hbm S26x16384 .i32 := Memref.whole main_v0_scv
abbrev whM : Memref sig .scVector .hbm S1300000 .f32 := Memref.whole main_v2_scv
abbrev poM : Memref sig .scVector .hbm S32768 .f32 := Memref.whole main_v6_scv
abbrev redM : Memref sig .scVector .vmem S3584 .f32 := Memref.whole cc0_scratch3
abbrev outM : Memref sig .scVector .vmem S1024 .f32 := Memref.whole cc0_scratch4

omit [FloatOps F] in
theorem pts_xt (c : Fin τ.nSC) (i : Fin τ.nSub) (q : PosShare TreeShare) (f : Buf (Elt F) (xtLoc d)) :
    ((xtM).view.loc (V d c i) ↦{q} f : sProp 𝕄) = (xtLoc d ↦{q} f) := rfl
omit [FloatOps F] in
theorem pts_wh (c : Fin τ.nSC) (i : Fin τ.nSub) (q : PosShare TreeShare) (f : Buf (Elt F) (w0Loc d)) :
    ((whM).view.loc (V d c i) ↦{q} f : sProp 𝕄) = (w0Loc d ↦{q} f) := rfl
omit [FloatOps F] in
theorem pts_sub (c : Fin τ.nSC) (i : Fin τ.nSub) (f : Buf (Elt F) ((V d c i).loc cc0_scratch0)) :
    ((subM).view.loc (V d c i) ↦{fullShare} f : sProp 𝕄) = ((V d c i).loc cc0_scratch0 ↦{fullShare} f) := rfl
omit [FloatOps F] in
theorem pts_val (c : Fin τ.nSC) (i : Fin τ.nSub) (f : Buf (Elt F) ((V d c i).loc cc0_scratch2)) :
    ((valM).view.loc (V d c i) ↦{fullShare} f : sProp 𝕄) = ((V d c i).loc cc0_scratch2 ↦{fullShare} f) := rfl
omit [FloatOps F] in
theorem pts_red (c : Fin τ.nSC) (i : Fin τ.nSub) (f : Buf (Elt F) ((V d c i).loc cc0_scratch3)) :
    ((redM).view.loc (V d c i) ↦{fullShare} f : sProp 𝕄) = ((V d c i).loc cc0_scratch3 ↦{fullShare} f) := rfl
omit [FloatOps F] in
theorem pts_out (c : Fin τ.nSC) (i : Fin τ.nSub) (f : Buf (Elt F) ((V d c i).loc cc0_scratch4)) :
    ((outM).view.loc (V d c i) ↦{fullShare} f : sProp 𝕄) = ((V d c i).loc cc0_scratch4 ↦{fullShare} f) := rfl

/-- The tile's 1024 entries of the result, as the task slices them. -/
abbrev poK : Memref sig .scVector .hbm S1024 .f32 := (poM).slice (Rect.unit (s := S32768) (k0_off36 L) S1024.size (k0_off36_inb L)) (fun _ => rfl)
omit [FloatOps F] in
theorem set_poK : (poK L).view.set = seg (N := 32768) (16384 * (L 0).val + 1024 * (L 1).val) 1024 := by
  refine (View.set_slice_whole main_v6_scv _).trans ?_
  rw [unit_set_seg, k0_off36_eq]; rfl
omit [FloatOps F] in
theorem pts_poK (f : Buf (Elt F) (p0Loc d)) :
    ((poK L).view.loc (V d (cV L) (jV L)) ↦[(poK L).view.set]{fullShare} f : sProp 𝕄)
      = (p0Loc d ↦[seg (N := 32768) (16384 * (cL L).val + 1024 * (jL L).val) 1024]{fullShare} f) := by
  rw [set_poK]; rfl

end Respell
end T0

namespace T0
section Loop
variable (d : Dev nD) (c : Fin τ.nSC) (i : Fin τ.nSub)

/-- A gather loop's invariant: the index slot and the table as they stand, the value scratch at some contents of which
    the entries below the trip's box are as `G` says. -/
def gInv (S6 : Finset (Idx ((xM).view.loc (V d c i)))) (fx : Buf (Elt F) ((xM).view.loc (V d c i))) (fsub : Buf (Elt F) ((subM).view.loc (V d c i)))
    (G : ℕ → Buf (Elt F) ((valM).view.loc (V d c i)) → Prop) (k : ℕ) (_ : PUnit) : sProp 𝕄 :=
  iprop(((xM).view.loc (V d c i) ↦[S6]{fullShare} fx) ∗ ((subM).view.loc (V d c i) ↦{fullShare} fsub)
    ∗ ∃ f, ((valM).view.loc (V d c i) ↦{fullShare} f) ∗ ⌜G k f⌝)

end Loop
end T0

namespace T0
section ValueFacts
variable (d : Dev nD) (c : Fin τ.nSC) (i : Fin τ.nSub)

open Idealize.ShloMosaic.ValueIdx in
/-- Slot `p` of the index scratch holds chunk `h` (2048 batch rows) of field `j`'s index row. -/
def XHolds (p h j : ℕ) (fx : Buf (Elt F) ((xM).view.loc (V d c i))) : Prop :=
  ∀ (y : Fin 2048) (hy : 2048 * p + y.val < 4096),
    (show BitVec 32 from fx (ix1 (⟨2048 * p + y.val, hy⟩ : Fin 4096))).toNat = xtAt (XT m d) j (2048 * h + y.val)

open Idealize.ShloMosaic.ValueIdx in
/-- The table scratch holds field `j`'s 100000 entries of the half table. -/
def SubHolds (j : ℕ) (fsub : Buf (Elt F) ((subM).view.loc (V d c i))) : Prop :=
  ∀ n : Fin 100096, n.val < 100000 → (show F .f32 from fsub (ix1 n)) = whAt (WH0 m d) (100000 * j + n.val)

open Idealize.ShloMosaic.ValueIdx in
/-- The value scratch's first `16 k` entries are chunk `h`'s looked-up entries of row `s` on SparseCore `cc`. -/
def Good (cc s h k : ℕ) (f : Buf (Elt F) ((valM).view.loc (V d c i))) : Prop :=
  ∀ t : Fin 2048, t.val < 16 * k → (show F .f32 from f (ix1 t)) = accAt (XT m d) (WH0 m d) 0 cc s (2048 * h + t.val)

end ValueFacts
end T0

end Cert.Proof.KB

end
-- ==== Proof.KB.Tile0Val.lean ====
/-
  Lookup 0, a gather trip's values. The sixteen indices a trip loads are sixteen consecutive entries of a slot of the
  index scratch; when the slot holds a chunk of the field's index row they are entries of the index matrix, so each is a
  row number of the field (below 100000, hence inside the table scratch). The sixteen entries the trip then reads out of
  the table scratch are the field's table entries at those rows: exactly what the shared buffer's row is to hold for the
  sixteen batch rows of the trip, so the value scratch's done part grows by the trip's box.
-/
import proofs.«207420_g80582176408339_cont_9to1c4b_743_56_alg».proof.Proof.KB.Tile0Trip

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

variable (m : (ℓ : Loc nD τ sig) → Buf (Elt F) ℓ)

namespace T0

variable (d : Dev nD) (c : Fin τ.nSC) (i : Fin τ.nSub)

/-- Lane `x` of the sixteen indices a trip loads at offset `o` is entry `o + x` of the index scratch. -/
theorem gIdx_lane (o : ℕ) (offX : Fin 1 → Nat) (inbX : ∀ a, offX a + S16.size a ≤ S4096.size a) (hoff : offX = ![o])
    (fx : Buf (Elt F) ((xM).view.loc (V d c i))) (x : S16.Idx) (hlt : o + (x 0).val < 4096) :
    gIdx (F := F) d c i offX inbX fx x = (show BitVec 32 from fx (ix1 (⟨o + (x 0).val, hlt⟩ : Fin 4096))) := by
  subst hoff
  unfold gIdx
  rw [View.readAt_apply]
  show fx _ = fx _
  congr 1
  funext a
  apply Fin.ext
  simp only [View.emb_whole, Function.Embedding.refl_apply, LoadRect.idx_apply]
  match a with
  | ⟨0, _⟩ => show o + 1 * (x 0).val = o + (x 0).val; omega

/-- A slot holding a chunk of the field's index row, the sixteen indices a trip loads from it are row numbers of the field. -/
theorem gIdx_val (p h j k : ℕ) (hp : p < 2) (hh : h < 8) (hj : j < 26) (hk : k < 128)
    (offX : Fin 1 → Nat) (inbX : ∀ a, offX a + S16.size a ≤ S4096.size a) (hoff : offX = ![2048 * p + 16 * k])
    (fx : Buf (Elt F) ((xM).view.loc (V d c i))) (hX : XHolds m d c i p h j fx) (x : S16.Idx) :
    (gIdx (F := F) d c i offX inbX fx x).toNat = xtAt (XT m d) j (2048 * h + (16 * k + (x 0).val)) := by
  have hx0 : (x 0).val < 16 := (x 0).isLt
  have hlt : 2048 * p + 16 * k + (x 0).val < 4096 := by omega
  rw [gIdx_lane d c i (2048 * p + 16 * k) offX inbX hoff fx x hlt]
  have h1 := hX ⟨16 * k + (x 0).val, by omega⟩ (by show 2048 * p + (16 * k + (x 0).val) < 4096; omega)
  have e : (⟨2048 * p + 16 * k + (x 0).val, hlt⟩ : Fin 4096) = ⟨2048 * p + (16 * k + (x 0).val), by omega⟩ :=
    Fin.ext (show 2048 * p + 16 * k + (x 0).val = 2048 * p + (16 * k + (x 0).val) by omega)
  rw [e]
  exact h1

theorem xtAt_lt (hx : InRange m) (j b : ℕ) (hj : j < 26) (hb : b < 16384) : xtAt (XT m d) j b < 100000 := by
  unfold xtAt
  rw [dif_pos ⟨hj, hb⟩]
  exact hx d ⟨j, hj⟩ ⟨b, hb⟩

theorem chk_of_holds (p h j k : ℕ) (hp : p < 2) (hh : h < 8) (hj : j < 26) (hk : k < 128) (hx : InRange m)
    (offX : Fin 1 → Nat) (inbX : ∀ a, offX a + S16.size a ≤ S4096.size a) (hoff : offX = ![2048 * p + 16 * k])
    (fx : Buf (Elt F) ((xM).view.loc (V d c i))) (hX : XHolds m d c i p h j fx) :
    ∀ a x, ((![gIdx (F := F) d c i offX inbX fx] : Fin 1 → IVec S16 32) a x).toNat < S100096.size a := by
  intro a x
  match a with
  | ⟨0, _⟩ =>
    show (gIdx (F := F) d c i offX inbX fx x).toNat < 100096
    have hx0 : (x 0).val < 16 := (x 0).isLt
    rw [gIdx_val m d c i p h j k hp hh hj hk offX inbX hoff fx hX x]
    have := xtAt_lt m d hx j (2048 * h + (16 * k + (x 0).val)) hj (by omega)
    omega

/-- A trip extends the done part of the value scratch by its box. -/
theorem good_step (cc s h p k : ℕ) (hcc : cc < 2) (hcs : s + cc < 7) (hp : p < 2) (hh : h < 8) (hk : k < 128) (hx : InRange m)
    (offX offV : Fin 1 → Nat) (inbX : ∀ a, offX a + S16.size a ≤ S4096.size a) (inbV : ∀ a, offV a + S16.size a ≤ S2048.size a)
    (hoffX : offX = ![2048 * p + 16 * k]) (hoffV : offV = ![16 * k])
    (fx : Buf (Elt F) ((xM).view.loc (V d c i))) (fsub : Buf (Elt F) ((subM).view.loc (V d c i))) (f : Buf (Elt F) ((valM).view.loc (V d c i)))
    (hX : XHolds m d c i p h (7 * cc + s) fx) (hS : SubHolds m d c i (7 * cc + s) fsub) (hG : Good m d c i cc s h k f)
    (hin : ∀ a x, ((![gIdx (F := F) d c i offX inbX fx] : Fin 1 → IVec S16 32) a x).toNat < S100096.size a) :
    Good m d c i cc s h (k + 1) (gOut (F := F) d c i offX offV inbX inbV fx fsub f hin) := by
  have hj : 7 * cc + s < 26 := by omega
  subst hoffV
  intro t ht
  have ht2 : t.val < 2048 := t.isLt
  by_cases hlo : t.val < 16 * k
  · have hnot : (ix1 t : S2048.Idx) ∉ ((valM).access (Rect.unit (s := S2048) ![16 * k] S16.size inbV)).setOn Finset.univ := by
      rw [View.setOn_univ, View.set_slice_whole, Rect.mem_set_unit]
      intro hall
      have h0 := (hall 0).1
      have : 16 * k ≤ t.val := h0
      omega
    show (gOut (F := F) d c i offX ![16 * k] inbX inbV fx fsub f hin) (ix1 t) = _
    unfold gOut
    rw [View.write_of_not_mem _ _ _ hnot]
    exact hG t hlo
  · have hx' : t.val - 16 * k < 16 := by omega
    have he : (ix1 t : S2048.Idx) = ((valM).access (Rect.unit (s := S2048) ![16 * k] S16.size inbV)).emb (ix1 (⟨t.val - 16 * k, hx'⟩ : Fin 16)) := by
      funext a
      apply Fin.ext
      match a with
      | ⟨0, _⟩ => show t.val = 16 * k + 1 * (t.val - 16 * k); omega
    show (gOut (F := F) d c i offX ![16 * k] inbX inbV fx fsub f hin) (ix1 t) = _
    unfold gOut
    rw [he, View.write_emb_of_mem _ _ (Finset.mem_univ _)]
    show loadIdx (((subM).access (.whole S100096)).read (Elt F) fsub) ![gIdx (F := F) d c i offX inbX fx] hin (ix1 (⟨t.val - 16 * k, hx'⟩ : Fin 16)) = _
    have hr : View.read (Elt F) ((subM).access (Rect.whole S100096)) fsub = fsub := Memref.read_access_whole (Elt F) cc0_scratch0 fsub
    rw [hr]
    unfold loadIdx
    have hval : (gIdx (F := F) d c i offX inbX fx (ix1 (⟨t.val - 16 * k, hx'⟩ : Fin 16))).toNat
        = xtAt (XT m d) (7 * cc + s) (2048 * h + (16 * k + (t.val - 16 * k))) :=
      gIdx_val m d c i p h (7 * cc + s) k hp hh hj hk offX inbX hoffX fx hX (ix1 (⟨t.val - 16 * k, hx'⟩ : Fin 16))
    have hb : 2048 * h + (16 * k + (t.val - 16 * k)) = 2048 * h + t.val := by omega
    have hlt : (gIdx (F := F) d c i offX inbX fx (ix1 (⟨t.val - 16 * k, hx'⟩ : Fin 16))).toNat < 100000 := by
      rw [hval]; exact xtAt_lt m d hx _ _ hj (by omega)
    have hidx : idxAt ![gIdx (F := F) d c i offX inbX fx] hin (ix1 (⟨t.val - 16 * k, hx'⟩ : Fin 16))
        = (ix1 (⟨(gIdx (F := F) d c i offX inbX fx (ix1 (⟨t.val - 16 * k, hx'⟩ : Fin 16))).toNat, by omega⟩ : Fin 100096) : S100096.Idx) := by
      funext a
      apply Fin.ext
      match a with
      | ⟨0, _⟩ => rfl
    rw [hidx]
    refine (hS ⟨(gIdx (F := F) d c i offX inbX fx (ix1 (⟨t.val - 16 * k, hx'⟩ : Fin 16))).toNat, by omega⟩ hlt).trans ?_
    unfold accAt
    rw [if_pos hcs]
    show whAt (WH0 m d) (100000 * (7 * cc + s) + (gIdx (F := F) d c i offX inbX fx (ix1 (⟨t.val - 16 * k, hx'⟩ : Fin 16))).toNat)
      = whAt (WH0 m d) ((7 * cc + s) * 100000 + xtAt (XT m d) (0 + 7 * cc + s) (2048 * h + t.val))
    rw [hval, hb, Nat.zero_add, Nat.mul_comm 100000]

end T0

end Cert.Proof.KB

end
-- ==== Proof.KB.Landed.lean ====
/-
  What a write through a view leaves, read back at an entry. Through the view of a whole buffer a read is the contents
  themselves; a write of a rectangle leaves its payload at the rectangle's entries and the old contents elsewhere; a
  write of the whole of a slice leaves its payload's entry x at the slice's entry x of the buffer, and a read through
  the slice at x is the contents at that entry.
-/
import Idealize.ShloMosaic.Lib.Writes

noncomputable section

namespace Cert.Proof.KB.Landed

open Idealize.ShloMosaic

variable {sig : RefSig} {κ : Kind} {Val : EltTy → Type}

theorem read_whole (b : Ref sig κ) (f : b.ty.Contents Val) (y : b.ty.shape.Idx) : (View.whole b).read Val f y = f y := rfl

theorem read_slice (b : Ref sig κ) (r0 : Rect b.ty.shape) (f : b.ty.Contents Val) (x : r0.shape.Idx) :
    ((View.whole b).slice r0).read Val f x = f (r0.emb x) := rfl

/-- Through a slice recast to another shape of as many entries: the contents at the slice's entry the recast names. -/
theorem read_slice_reshape (b : Ref sig κ) (r0 : Rect b.ty.shape) (s' : Shape) (hn : s'.numel = r0.shape.numel) (f : b.ty.Contents Val) (x : s'.Idx) :
    (((View.whole b).slice r0).reshape s' hn).read Val f x = f (r0.emb (Shape.reshapeEquiv hn x)) := rfl

/-- Under the write: the payload. -/
theorem whole_writes_hit (b : Ref sig κ) (base : b.ty.Contents Val) (r : Rect b.ty.shape) (w : r.shape.Idx → Val b.ty.elt) (x : r.shape.Idx) :
    (View.whole b).writes Val base [⟨r, w⟩] (r.emb x) = w x :=
  (read_whole b _ _).symm.trans (View.read_writes_cons_emb (View.whole b) base r w [] x)

/-- Off the write: the old contents. -/
theorem whole_writes_miss (b : Ref sig κ) (base : b.ty.Contents Val) (r : Rect b.ty.shape) (w : r.shape.Idx → Val b.ty.elt)
    (y : b.ty.shape.Idx) (hy : y ∉ r.set) : (View.whole b).writes Val base [⟨r, w⟩] y = base y :=
  (read_whole b _ _).symm.trans ((View.read_writes_apply_of_forall_not_mem (View.whole b) base y [⟨r, w⟩]
    (fun p hp => by rw [List.mem_singleton] at hp; subst hp; exact hy)).trans (read_whole b base y))

/-- A slice written whole: the payload's entry x at the slice's entry x. -/
theorem slice_writes_hit (b : Ref sig κ) (base : b.ty.Contents Val) (r0 : Rect b.ty.shape) (w : r0.shape.Idx → Val b.ty.elt) (x : r0.shape.Idx) :
    ((View.whole b).slice r0).writes Val base [⟨Rect.whole r0.shape, w⟩] (r0.emb x) = w x := by
  have h := View.read_writes_cons_emb ((View.whole b).slice r0) base (Rect.whole r0.shape) w [] x
  rw [Rect.emb_whole_apply] at h
  exact (read_slice b r0 _ x).symm.trans h

end Cert.Proof.KB.Landed

end
-- ==== Proof.KB.Tile0Landed.lean ====
/-
  Lookup 0, what a landed copy leaves. A copy writes its destination slice, whole, with what it read of its source slice:
  entry k of the destination slice is entry k of the source slice. Read through the slices' offsets: the table scratch's
  entry n is the half table's entry 100000 j + n; slot p's entry y is the index row's entry 2048 h + y of field j; and the
  piece of the shared buffer's row the whole value scratch was copied into holds the value scratch's entries, which a
  finished gather loop has made the looked-up entries of the chunk.
-/
import proofs.«207420_g80582176408339_cont_9to1c4b_743_56_alg».proof.Proof.KB.Tile0Val
import proofs.«207420_g80582176408339_cont_9to1c4b_743_56_alg».proof.Proof.KB.Landed

noncomputable section

namespace Cert.Proof.KB

open Cert.Kernel Cert.Kernel.Gen

open Idealize.ShloMosaic
open Idealize.ShloMosaic.SparseCore (S V)
open Idealize.ShloMosaic.ValueIdx

variable {F : FTy → Type} [FloatOps F]

variable (m : (ℓ : Loc nD τ sig) → Buf (Elt F) ℓ)

namespace T0

variable (d : Dev nD) (c : Fin τ.nSC) (i : Fin τ.nSub)

/-- The table scratch the copy of a field's entries has landed in holds them. -/
theorem subholds_landed (j : ℕ) (off : Fin 1 → Nat) (inb : ∀ a, off a + S100000.size a ≤ S1300000.size a) (hoff : off = ![100000 * j])
    (base : Buf (Elt F) ((subM).view.loc (V d c i))) :
    SubHolds m d c i j ((subM).view.writes (Elt F) base
      [⟨Rect.unit (s := S100096) ![0] S100000.size inb_S100096_S100000_0, ReadAs.same.apply (View.read (Elt F) ((whM).slice (Rect.unit (s := S1300000) off S100000.size inb) (fun _ => rfl)).view (WH0 m d))⟩]) := by
  subst hoff
  intro n hn
  have hj : 100000 * j + 100000 ≤ 1300000 := by have := inb 0; simpa using this
  have hi : (ix1 n : S100096.Idx) = (Rect.unit (s := S100096) ![0] S100000.size inb_S100096_S100000_0).emb (ix1 (⟨n.val, hn⟩ : Fin 100000)) := by
    funext a
    apply Fin.ext
    match a with
    | ⟨0, _⟩ => show n.val = 0 + 1 * n.val; omega
  rw [hi]
  refine (Landed.whole_writes_hit (Val := Elt F) cc0_scratch0 base _ _ _).trans ?_
  refine (Landed.read_slice (Val := Elt F) main_v2_scv (Rect.unit (s := S1300000) ![100000 * j] S100000.size inb) (WH0 m d) _).trans ?_
  unfold whAt
  rw [dif_pos (show 100000 * j + n.val < 1300000 by omega)]
  congr 1
  funext a
  apply Fin.ext
  match a with
  | ⟨0, _⟩ => show 100000 * j + 1 * n.val = 100000 * j + n.val; omega

/-- A slot the copy of a chunk of a field's index row has landed in holds that chunk. -/
theorem xholds_landed (p h j : ℕ) (offS : Fin 1 → Nat) (inbS : ∀ a, offS a + S2048.size a ≤ S4096.size a) (hoffS : offS = ![2048 * p])
    (off : Fin 2 → Nat) (inb : ∀ a, off a + S1x2048.size a ≤ S26x16384.size a) (hoff : off = ![j, 2048 * h])
    (base : Buf (Elt F) ((xM).view.loc (V d c i))) :
    XHolds m d c i p h j (((xM).slice (Rect.unit (s := S4096) offS S2048.size inbS) (fun _ => rfl)).view.writes (Elt F) base
      [⟨Rect.whole S2048, ReadAs.same.apply (View.read (Elt F) (((xtM).slice (Rect.unit (s := S26x16384) off S1x2048.size inb) (fun _ => rfl)).squeeze S2048 squeezes_S1x2048_S2048).view (XT m d))⟩]) := by
  subst hoffS
  subst hoff
  intro y hy
  have hj : j + 1 ≤ 26 := by have := inb 0; simpa using this
  have hh : 2048 * h + 2048 ≤ 16384 := by have := inb 1; simpa using this
  have hi : (ix1 (⟨2048 * p + y.val, hy⟩ : Fin 4096) : S4096.Idx) = (Rect.unit (s := S4096) ![2048 * p] S2048.size inbS).emb (ix1 y) := by
    funext a
    apply Fin.ext
    match a with
    | ⟨0, _⟩ => show 2048 * p + y.val = 2048 * p + 1 * y.val; omega
  rw [hi]
  refine (congrArg BitVec.toNat (Landed.slice_writes_hit (Val := Elt F) cc0_scratch1 base (Rect.unit (s := S4096) ![2048 * p] S2048.size inbS) _ (ix1 y))).trans ?_
  refine (congrArg BitVec.toNat (Landed.read_slice_reshape (Val := Elt F) main_v0_scv (Rect.unit (s := S26x16384) ![j, 2048 * h] S1x2048.size inb) S2048
    squeezes_S1x2048_S2048.numel_eq (XT m d) (ix1 y))).trans ?_
  have hre : Shape.reshapeEquiv (s := (Rect.unit (s := S26x16384) ![j, 2048 * h] S1x2048.size inb).shape) (s' := S2048) squeezes_S1x2048_S2048.numel_eq (ix1 y)
      = (ix2 (0 : Fin 1) y) := by
    apply Shape.reshapeEquiv_eq_of_rowMajor
    rw [Shape.rowMajor_val_two, Shape.rowMajor_val_one]
    show 0 * 2048 + y.val = y.val
    omega
  rw [hre]
  unfold xtAt
  rw [dif_pos ⟨by omega, by have := y.isLt; omega⟩]
  congr 2
  funext a
  apply Fin.ext
  match a with
  | ⟨0, _⟩ => show j + 1 * 0 = j; omega
  | ⟨1, _⟩ => show 2048 * h + 1 * y.val = 2048 * h + y.val; omega

/-- A piece of the row the whole value scratch has been copied into holds the looked-up entries of its chunk. -/
theorem piece_landed (cT' : Fin τ.nSC) (cc s h : ℕ) (hcc : cT'.val = cc) (hcs : s + cc < 7) (hh : h < 8) (off : Fin 1 → Nat) (inb : ∀ a, off a + S2048.size a ≤ S114688.size a) (hoff : off = ![16384 * s + 2048 * h])
    (base : Buf (Elt F) (acc0Loc d cT')) (fv : Buf (Elt F) ((valM).view.loc (V d c i))) (hG : Good m d c i cc s h 128 fv) :
    ∀ idx ∈ seg (N := 114688) (16384 * s + 2048 * h) 2048,
      (((accM).slice (Rect.unit (s := S114688) off S2048.size inb) (fun _ => rfl)).view.writes (Elt F) base
        [⟨Rect.whole S2048, ReadAs.same.apply (View.read (Elt F) (valM).view fv)⟩]) idx = ACC0 m d cT' idx := by
  subst hoff
  subst hcc
  intro idx hidx
  rw [mem_seg] at hidx
  have ht : (idx 0).val - (16384 * s + 2048 * h) < 2048 := by omega
  have hi : idx = (Rect.unit (s := S114688) ![16384 * s + 2048 * h] S2048.size inb).emb (ix1 (⟨(idx 0).val - (16384 * s + 2048 * h), ht⟩ : Fin 2048)) := by
    funext a
    apply Fin.ext
    match a with
    | ⟨0, _⟩ => show (idx 0).val = 16384 * s + 2048 * h + 1 * ((idx 0).val - (16384 * s + 2048 * h)); omega
  rw [hi]
  refine (Landed.slice_writes_hit (Val := Elt F) cc0_scratch5 base (Rect.unit (s := S114688) ![16384 * s + 2048 * h] S2048.size inb) _
    (ix1 (⟨(idx 0).val - (16384 * s + 2048 * h), ht⟩ : Fin 2048))).trans ?_
  refine (Landed.read_whole (Val := Elt F) cc0_scratch2 fv (ix1 (⟨(idx 0).val - (16384 * s + 2048 * h), ht⟩ : Fin 2048))).trans ?_
  refine (hG ⟨(idx 0).val - (16384 * s + 2048 * h), ht⟩ (by show (idx 0).val - (16384 * s + 2048 * h) < 16 * 128; omega)).trans ?_
  unfold ACC0 accVal
  show accAt (XT m d) (WH0 m d) 0 cT'.val s (2048 * h + ((idx 0).val - (16384 * s + 2048 * h)))
    = accAt (XT m d) (WH0 m d) 0 cT'.val ((16384 * s + 2048 * h + 1 * ((idx 0).val - (16384 * s + 2048 * h))) / 16384)
        ((16384 * s + 2048 * h + 1 * ((idx 0).val - (16384 * s + 2048 * h))) % 16384)
  have hs : s < 7 := by omega
  congr 1 <;> omega

end T0

end Cert.Proof.KB

end
-- ==== Proof.KB.Tile0Row.lean ====
/-
  Lookup 0, one tile: the set facts of the gather phase and of the row owner's barrier step.
  A trip's box of sixteen indices lies in its slot of the index scratch; the two slots cover the scratch and rejoin it;
  and the tile's row of the shared buffer at the looked-up values is exactly the sixteen payloads of its duties at the
  barrier: its sixteen column blocks of 1024.
-/
import proofs.«207420_g80582176408339_cont_9to1c4b_743_56_alg».proof.Proof.KB.Tile0Landed

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T0
section Mine
variable (d : Dev nD) (c : Fin τ.nSC) (i : Fin τ.nSub)

omit [FloatOps F] in
/-- A trip's box of sixteen indices lies in its slot. -/
theorem box_sub_slot (p k : ℕ) (offX : Fin 1 → Nat) (inbX : ∀ a, offX a + S16.size a ≤ S4096.size a) (hoff : offX = ![2048 * p + 16 * k]) (hk : k < 128) :
    (xM).view.setOn (Rect.unit (s := S4096) offX S16.size inbX).toLoadRect.set ⊆ seg (N := 4096) (2048 * p) 2048 := by
  intro j hj
  rw [View.setOn, Finset.mem_map] at hj
  obtain ⟨y, hy, rfl⟩ := hj
  have h0 := (Rect.mem_set_unit.mp hy) 0
  subst hoff
  rw [mem_seg]
  have e16 : S16.size 0 = 16 := rfl
  have e0 : (![2048 * p + 16 * k] : Fin 1 → Nat) 0 = 2048 * p + 16 * k := rfl
  rw [e16, e0] at h0
  show 2048 * p ≤ (y 0).val ∧ (y 0).val < 2048 * p + 2048
  omega

omit [FloatOps F] in
theorem x_cover : seg (N := 4096) 0 2048 ∪ seg (N := 4096) 2048 2048 = Finset.univ := by
  ext j; rw [Finset.mem_union, mem_seg, mem_seg]
  have : (j 0).val < 4096 := (j 0).isLt
  constructor
  · intro _; exact Finset.mem_univ _
  · intro _; omega

omit [FloatOps F] in
/-- The two slots, at whatever they hold, are the index scratch at some contents. -/
theorem x_join (f g : Buf (Elt F) ((V d c i).loc cc0_scratch1)) :
    iprop(((xSlot0).view.loc (V d c i) ↦[(xSlot0).view.set]{fullShare} f) ∗ ((xSlot1).view.loc (V d c i) ↦[(xSlot1).view.set]{fullShare} g))
      ⊢ (iprop(∃ f', (V d c i).loc cc0_scratch1 ↦{fullShare} f') : sProp 𝕄) := by
  rw [set_xSlot0, set_xSlot1]
  refine (pointsTo_join (seg_disjoint (Or.inl (by omega)))).trans ?_
  rw [x_cover]
  iintro H; iexists _; iexact H

/-- A tile that owns a row hands every tile its column block of it: the row at the looked-up values is the sixteen
    payloads of its duties. -/
theorem pays_row (s : ℕ) (hs : s < 7) :
    (acc0Loc d c ↦[seg (N := 114688) (16384 * s) 16384]{fullShare} ACC0 m d c : sProp 𝕄)
      = bigSep Finset.univ fun j : Fin (grid0.bound 1) => (bRd (F := F) m).payload (bcell d c (j.castLE hsub0)) 0 s := by
  rw [show seg (N := 114688) (16384 * s) 16384 = seg (N := 114688) (16384 * s) (1024 * 16) from rfl, ← seg_parts,
    pointsTo_biUnion _ _ seg_parts_disjoint]
  exact bigSep_congr fun j _ => (bPay_lt m d c (j.castLE hsub0) s hs).symm

end Mine
end T0

end Cert.Proof.KB

end
-- ==== Proof.KB.Tile0Post.lean ====
/-
  Lookup 0, one tile: the end of the task.
  From what the tile holds after its write-out — its two read shares, its 1024 entries of the result at the partial
  sums, its column block of each of the seven rows of the shared buffer at whatever they hold, its standing on its own
  barrier cell for the next lookup, its five scratches and twenty-one semaphores back, the waits it recorded — to the
  form the launch expects of a finished task.
-/
import proofs.«207420_g80582176408339_cont_9to1c4b_743_56_alg».proof.Proof.KB.Tile0Row

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T0
section Post
variable (d : Dev nD) (L : grid0.Coords)

/-- The end of the task: what the tile hands back, its scratches and semaphores, the waits it recorded. -/
theorem post_intro (hF : (K (F := F)).Facts) (O : CellTallies nD τ sig (HIx 2)) (W W' : Waits sig (HIx 2))
    (hW' : ∀ p ∈ W', p ∈ W ∨ p.2 = none ∨ p.2 = some (0 : Fin 2)) :
    (iprop((xtLoc d ↦{shT (cL L) (jL L)} XT m d) ∗ (w0Loc d ↦{shT (cL L) (jL L)} WH0 m d)
        ∗ (p0Loc d ↦[seg (N := 32768) (16384 * (cL L).val + 1024 * (jL L).val) 1024]{fullShare} PT0 m d)
        ∗ ((∃ f, acc0Loc d (cV L) ↦[seg (N := 114688) (16384 * 0 + 1024 * (jV L).val) 1024]{fullShare} f)
            ∗ (∃ f, acc0Loc d (cV L) ↦[seg (N := 114688) (16384 * 1 + 1024 * (jV L).val) 1024]{fullShare} f)
            ∗ (∃ f, acc0Loc d (cV L) ↦[seg (N := 114688) (16384 * 2 + 1024 * (jV L).val) 1024]{fullShare} f)
            ∗ (∃ f, acc0Loc d (cV L) ↦[seg (N := 114688) (16384 * 3 + 1024 * (jV L).val) 1024]{fullShare} f)
            ∗ (∃ f, acc0Loc d (cV L) ↦[seg (N := 114688) (16384 * 4 + 1024 * (jV L).val) 1024]{fullShare} f)
            ∗ (∃ f, acc0Loc d (cV L) ↦[seg (N := 114688) (16384 * 5 + 1024 * (jV L).val) 1024]{fullShare} f)
            ∗ (∃ f, acc0Loc d (cV L) ↦[seg (N := 114688) (16384 * 6 + 1024 * (jV L).val) 1024]{fullShare} f))
        ∗ atPos EB (bcell d (cV L) (jV L)) (0 + 1) ∅ 0 ∗ reached EB (bcell d (cV L) (jV L)) (0 + 1)
        ∗ ((∃ f, (V d (cV L) (jV L)).loc cc0_scratch0 ↦{fullShare} f)
            ∗ (∃ f, (V d (cV L) (jV L)).loc cc0_scratch1 ↦{fullShare} f)
            ∗ (∃ f, (V d (cV L) (jV L)).loc cc0_scratch2 ↦{fullShare} f)
            ∗ (∃ f, (V d (cV L) (jV L)).loc cc0_scratch3 ↦{fullShare} f)
            ∗ (∃ f, (V d (cV L) (jV L)).loc cc0_scratch4 ↦{fullShare} f))
        ∗ (bigSep (ownRefs (τ := τ) (.scVector (cV L) (jV L)) \ (bufCells (cV L) (jV L)).toFinset) fun b => iprop(∃ f, ((d, b) : Loc nD τ sig) ↦{fullShare} f))
        ∗ (semVal ((V d (cV L) (jV L), SemLoc.dma cc0_scratch6.sem) : GSem nD τ sig) 0
            ∗ semVal ((V d (cV L) (jV L), SemLoc.dma cc0_scratch7.sem) : GSem nD τ sig) 0
            ∗ semVal ((V d (cV L) (jV L), SemLoc.dma cc0_scratch8.sem) : GSem nD τ sig) 0
            ∗ semVal ((V d (cV L) (jV L), SemLoc.dma cc0_scratch9.sem) : GSem nD τ sig) 0
            ∗ semVal ((V d (cV L) (jV L), SemLoc.dma cc0_scoped0.sem) : GSem nD τ sig) 0
            ∗ semVal ((V d (cV L) (jV L), SemLoc.dma cc0_scoped1.sem) : GSem nD τ sig) 0
            ∗ semVal ((V d (cV L) (jV L), SemLoc.dma cc0_scoped2.sem) : GSem nD τ sig) 0
            ∗ semVal ((V d (cV L) (jV L), SemLoc.dma cc0_scoped3.sem) : GSem nD τ sig) 0
            ∗ semVal ((V d (cV L) (jV L), SemLoc.dma cc0_scoped4.sem) : GSem nD τ sig) 0
            ∗ semVal ((V d (cV L) (jV L), SemLoc.dma cc0_scoped5.sem) : GSem nD τ sig) 0
            ∗ semVal ((V d (cV L) (jV L), SemLoc.dma cc0_scoped6.sem) : GSem nD τ sig) 0
            ∗ semVal ((V d (cV L) (jV L), SemLoc.dma cc0_scoped7.sem) : GSem nD τ sig) 0
            ∗ semVal ((V d (cV L) (jV L), SemLoc.dma cc0_scoped8.sem) : GSem nD τ sig) 0
            ∗ semVal ((V d (cV L) (jV L), SemLoc.dma cc0_scoped9.sem) : GSem nD τ sig) 0
            ∗ semVal ((V d (cV L) (jV L), SemLoc.dma cc0_scoped10.sem) : GSem nD τ sig) 0
            ∗ semVal ((V d (cV L) (jV L), SemLoc.dma cc0_scoped11.sem) : GSem nD τ sig) 0
            ∗ semVal ((V d (cV L) (jV L), SemLoc.dma cc0_scoped12.sem) : GSem nD τ sig) 0
            ∗ semVal ((V d (cV L) (jV L), SemLoc.dma cc0_scoped13.sem) : GSem nD τ sig) 0
            ∗ semVal ((V d (cV L) (jV L), SemLoc.dma cc0_scoped14.sem) : GSem nD τ sig) 0
            ∗ semVal ((V d (cV L) (jV L), SemLoc.dma cc0_scoped15.sem) : GSem nD τ sig) 0
            ∗ semVal ((V d (cV L) (jV L), SemLoc.dma cc0_scoped16.sem) : GSem nD τ sig) 0)
        ∗ (bigSep (ownCells (V d (cV L) (jV L)) \ (semCells (V d (cV L) (jV L))).toFinset) fun g => semVal g 0)
        ∗ owes (V d (cV L) (jV L)) O W') : sProp 𝕄)
      ⊢ iprop(td0 m d (cL L) (jL L) ∗ scopedBufs (V d (cV L) (jV L)) ∗ scopedSems0 (V d (cV L) (jV L))
          ∗ ∃ W', ⌜∀ p ∈ W', p ∈ W ∨ p.2 = none ∨ p.2 = some (0 : Fin 2)⌝ ∗ owes (V d (cV L) (jV L)) O W') := by
  rw [(K (F := F)).scopedBufs_V hF d (cV L) (jV L), SparseCore.Cfg.scopedSems0_V (Val := Elt F) d (cV L) (jV L), ownSems0_V, ownBufs_V]
  unfold td0 bpos
  rw [bigSep_univ_eq_bigSepL [0, 1, 2, 3, 4, 5, 6] (by decide) (by decide),
    show bigSepL [0, 1, 2, 3, 4, 5, 6] (fun n : Fin 7 => iprop(∃ f, acc0Loc d (cT (cL L)) ↦[seg (N := 114688) (16384 * n.val + 1024 * (jL L).val) 1024]{fullShare} f))
      = (iprop((∃ f, acc0Loc d (cT (cL L)) ↦[seg (N := 114688) (16384 * (0 : Fin 7).val + 1024 * (jL L).val) 1024]{fullShare} f) ∗ (∃ f, acc0Loc d (cT (cL L)) ↦[seg (N := 114688) (16384 * (1 : Fin 7).val + 1024 * (jL L).val) 1024]{fullShare} f) ∗ (∃ f, acc0Loc d (cT (cL L)) ↦[seg (N := 114688) (16384 * (2 : Fin 7).val + 1024 * (jL L).val) 1024]{fullShare} f) ∗ (∃ f, acc0Loc d (cT (cL L)) ↦[seg (N := 114688) (16384 * (3 : Fin 7).val + 1024 * (jL L).val) 1024]{fullShare} f) ∗ (∃ f, acc0Loc d (cT (cL L)) ↦[seg (N := 114688) (16384 * (4 : Fin 7).val + 1024 * (jL L).val) 1024]{fullShare} f) ∗ (∃ f, acc0Loc d (cT (cL L)) ↦[seg (N := 114688) (16384 * (5 : Fin 7).val + 1024 * (jL L).val) 1024]{fullShare} f) ∗ (∃ f, acc0Loc d (cT (cL L)) ↦[seg (N := 114688) (16384 * (6 : Fin 7).val + 1024 * (jL L).val) 1024]{fullShare} f)) : sProp 𝕄) from rfl]
  iintro ⟨Hxt, Hwh, Hp0, ⟨G0, G1, G2, G3, G4, G5, G6⟩, Hat, Hrch1, ⟨B0, B1, B2, B3, B4⟩, Hbufs,
    ⟨Hs6, Hs7, Hs8, Hs9, Hc0, Hc1, Hc2, Hc3, Hc4, Hc5, Hc6, Hc7, Hc8, Hc9, Hc10, Hc11, Hc12, Hc13, Hc14, Hc15, Hc16⟩, Hsems, HO⟩
  isplitl [Hxt Hwh Hp0 G0 G1 G2 G3 G4 G5 G6 Hat Hrch1]
  · isplitl [Hxt]; · iexact Hxt
    isplitl [Hwh]; · iexact Hwh
    isplitl [Hp0]; · iexact Hp0
    isplitl [G0 G1 G2 G3 G4 G5 G6]
    · isplitl [G0]; · iexact G0
      isplitl [G1]; · iexact G1
      isplitl [G2]; · iexact G2
      isplitl [G3]; · iexact G3
      isplitl [G4]; · iexact G4
      isplitl [G5]; · iexact G5
      iexact G6
    isplitl [Hat]; · iexact Hat
    iexact Hrch1
  isplitl [B0 B1 B2 B3 B4 Hbufs]
  · isplitl [B0 B1 B2 B3 B4]
    · isplitl [B0]; · iexact B0
      isplitl [B1]; · iexact B1
      isplitl [B2]; · iexact B2
      isplitl [B3]; · iexact B3
      iexact B4
    iexact Hbufs
  isplitl [Hs6 Hs7 Hs8 Hs9 Hc0 Hc1 Hc2 Hc3 Hc4 Hc5 Hc6 Hc7 Hc8 Hc9 Hc10 Hc11 Hc12 Hc13 Hc14 Hc15 Hc16 Hsems]
  · isplitl [Hs6 Hs7 Hs8 Hs9 Hc0 Hc1 Hc2 Hc3 Hc4 Hc5 Hc6 Hc7 Hc8 Hc9 Hc10 Hc11 Hc12 Hc13 Hc14 Hc15 Hc16]
    · isplitl [Hs6]; · iexact Hs6
      isplitl [Hs7]; · iexact Hs7
      isplitl [Hs8]; · iexact Hs8
      isplitl [Hs9]; · iexact Hs9
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      iexact Hc16
    iexact Hsems
  iexists W'; isplitr
  · ipureintro; exact hW'
  · iexact HO

end Post
end T0

end Cert.Proof.KB

end
-- ==== Proof.KB.Tile0Out.lean ====
/-
  Lookup 0, one tile: what the write-out leaves. The tile's 1024 entries of the result, once the whole output scratch
  has been copied into them, are SparseCore c's partial sums for batch rows 1024 s … 1024 s + 1023.
-/
import proofs.«207420_g80582176408339_cont_9to1c4b_743_56_alg».proof.Proof.KB.Tile0Post

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T0
section Out
variable (d : Dev nD) (c : Fin τ.nSC) (i : Fin τ.nSub)

open Idealize.ShloMosaic.ValueIdx in
/-- The tile's 1024 entries of the result, once the output scratch has been copied into them, are the partial sums. -/
theorem out_landed (cc s : ℕ) (hcc : cc < 2) (hs : s < 16) (off : Fin 1 → Nat) (inb : ∀ a, off a + S1024.size a ≤ S32768.size a) (hoff : off = ![16384 * cc + 1024 * s])
    (base : Buf (Elt F) (p0Loc d)) (h : Buf (Elt F) ((outM).view.loc (V d c i)))
    (hh : ∀ k : Fin 1024, (show F .f32 from h (ix1 k)) = partAt (XT m d) (WH0 m d) 0 cc (1024 * s + k.val)) :
    ∀ idx ∈ seg (N := 32768) (16384 * cc + 1024 * s) 1024,
      (((poM).slice (Rect.unit (s := S32768) off S1024.size inb) (fun _ => rfl)).view.writes (Elt F) base
        [⟨Rect.whole S1024, ReadAs.same.apply (View.read (Elt F) (outM).view h)⟩]) idx = PT0 m d idx := by
  subst hoff
  intro idx hidx
  rw [mem_seg] at hidx
  have ht : (idx 0).val - (16384 * cc + 1024 * s) < 1024 := by omega
  have hi : idx = (Rect.unit (s := S32768) ![16384 * cc + 1024 * s] S1024.size inb).emb (ix1 (⟨(idx 0).val - (16384 * cc + 1024 * s), ht⟩ : Fin 1024)) := by
    funext a
    apply Fin.ext
    match a with
    | ⟨0, _⟩ => show (idx 0).val = 16384 * cc + 1024 * s + 1 * ((idx 0).val - (16384 * cc + 1024 * s)); omega
  rw [hi]
  refine (Landed.slice_writes_hit (Val := Elt F) main_v6_scv base (Rect.unit (s := S32768) ![16384 * cc + 1024 * s] S1024.size inb) _
    (ix1 (⟨(idx 0).val - (16384 * cc + 1024 * s), ht⟩ : Fin 1024))).trans ?_
  refine (Landed.read_whole (Val := Elt F) cc0_scratch4 h (ix1 (⟨(idx 0).val - (16384 * cc + 1024 * s), ht⟩ : Fin 1024))).trans ?_
  refine (hh ⟨(idx 0).val - (16384 * cc + 1024 * s), ht⟩).trans ?_
  unfold PT0 partVal
  show partAt (XT m d) (WH0 m d) 0 cc (1024 * s + ((idx 0).val - (16384 * cc + 1024 * s)))
    = partAt (XT m d) (WH0 m d) 0 ((16384 * cc + 1024 * s + 1 * ((idx 0).val - (16384 * cc + 1024 * s))) / 16384)
        ((16384 * cc + 1024 * s + 1 * ((idx 0).val - (16384 * cc + 1024 * s))) % 16384)
  congr 1 <;> omega

end Out
end T0

end Cert.Proof.KB

end
-- ==== Proof.KB.ReduceIdx.lean ====
/-
  The reduction's entries, read back. A store of sixteen lanes into the output scratch leaves those lanes at its box and
  the old contents elsewhere; a load of sixteen lanes from the reduction scratch reads sixteen consecutive entries; a
  window of 512 of the reduction scratch that a copy out of the shared buffer has landed in holds, entry by entry, the
  512 entries of the shared buffer the copy read.
-/
import proofs.«207420_g80582176408339_cont_9to1c4b_743_56_alg».proof.Proof.KB.Common
import proofs.«207420_g80582176408339_cont_9to1c4b_743_56_alg».proof.Proof.KB.Landed

noncomputable section

namespace Cert.Proof.KB

open Cert.Kernel Cert.Kernel.Gen
open Idealize.ShloMosaic Idealize.ShloMosaic.ValueIdx
open Idealize.ShloMosaic.SparseCore (S V)

variable {F : FTy → Type} [FloatOps F]

variable (d : Dev nD) (c : Fin τ.nSC) (i : Fin τ.nSub)

/-- A store of sixteen lanes into the output scratch of lookup 0: the lanes where it lands, -/
theorem writes16_hit_0 (h : Buf (Elt F) ((Memref.whole cc0_scratch4).view.loc (V d c i))) (off : Fin 1 → Nat)
    (inb : ∀ a, off a + S16.size a ≤ S1024.size a) (w : FVec F S16 .f32) (l : Fin 16) (hlt : off 0 + l.val < 1024) :
    ((Memref.whole cc0_scratch4).view.writes (Elt F) h [⟨Rect.unit (s := S1024) off S16.size inb, w⟩]) (ix1 (⟨off 0 + l.val, hlt⟩ : Fin 1024)) = w (ix1 l) := by
  have hi : (ix1 (⟨off 0 + l.val, hlt⟩ : Fin 1024) : S1024.Idx) = (Rect.unit (s := S1024) off S16.size inb).emb (ix1 l) := by
    funext a
    apply Fin.ext
    match a with
    | ⟨0, _⟩ => show off 0 + l.val = off 0 + 1 * l.val; omega
  rw [hi]
  exact Landed.whole_writes_hit (Val := Elt F) cc0_scratch4 h (Rect.unit (s := S1024) off S16.size inb) w (ix1 l)

/-- and the old contents elsewhere. -/
theorem writes16_miss_0 (h : Buf (Elt F) ((Memref.whole cc0_scratch4).view.loc (V d c i))) (off : Fin 1 → Nat)
    (inb : ∀ a, off a + S16.size a ≤ S1024.size a) (w : FVec F S16 .f32) (k : Fin 1024) (hk : k.val < off 0 ∨ off 0 + 16 ≤ k.val) :
    ((Memref.whole cc0_scratch4).view.writes (Elt F) h [⟨Rect.unit (s := S1024) off S16.size inb, w⟩]) (ix1 k) = h (ix1 k) := by
  refine Landed.whole_writes_miss (Val := Elt F) cc0_scratch4 h (Rect.unit (s := S1024) off S16.size inb) w (ix1 k) ?_
  rw [Rect.mem_set_unit]
  intro hall
  have h0 := hall 0
  have h1 : off 0 ≤ k.val := h0.1
  have h2 : k.val < off 0 + 16 := h0.2
  omega

/-- Sixteen lanes loaded from the reduction scratch of lookup 0 are its sixteen consecutive entries. -/
theorem readAt16_0 (g : Buf (Elt F) ((Memref.whole cc0_scratch3).view.loc (V d c i))) (off : Fin 1 → Nat)
    (inb : ∀ a, off a + S16.size a ≤ S3584.size a) (l : Fin 16) (hlt : off 0 + l.val < 3584) :
    View.readAt (Elt F) (Memref.whole cc0_scratch3).view (Rect.unit (s := S3584) off S16.size inb).toLoadRect g (ix1 l)
      = g (ix1 (⟨off 0 + l.val, hlt⟩ : Fin 3584)) := by
  rw [View.readAt_apply]
  refine (Landed.read_whole (Val := Elt F) cc0_scratch3 g _).trans ?_
  congr 1
  funext a
  apply Fin.ext
  match a with
  | ⟨0, _⟩ => show off 0 + 1 * l.val = off 0 + l.val; omega

/-- A window of 512 of the reduction scratch a copy out of the shared buffer of lookup 0 has landed in holds the 512
    entries copied. -/
theorem landed512_0 (cT' : Fin τ.nSC) (offd : Fin 1 → Nat) (inbd : ∀ a, offd a + S512.size a ≤ S3584.size a) (offs : Fin 1 → Nat)
    (inbs : ∀ a, offs a + S512.size a ≤ S114688.size a) (fd : Buf (Elt F) ((Memref.whole cc0_scratch3).view.loc (V d c i)))
    (fs : Buf (Elt F) (acc0Loc d cT')) (k : Fin 512) (hd : offd 0 + k.val < 3584) (hs : offs 0 + k.val < 114688) :
    ((((Memref.whole cc0_scratch3).slice (Rect.unit (s := S3584) offd S512.size inbd) (fun _ => rfl)).view.writes (Elt F) fd
      [⟨Rect.whole S512, ReadAs.same.apply (View.read (Elt F)
        ((Memref.whole cc0_scratch5).slice (Rect.unit (s := S114688) offs S512.size inbs) (fun _ => rfl)).view fs)⟩]) (ix1 (⟨offd 0 + k.val, hd⟩ : Fin 3584)))
      = fs (ix1 (⟨offs 0 + k.val, hs⟩ : Fin 114688)) := by
  have hi : (ix1 (⟨offd 0 + k.val, hd⟩ : Fin 3584) : S3584.Idx) = (Rect.unit (s := S3584) offd S512.size inbd).emb (ix1 k) := by
    funext a
    apply Fin.ext
    match a with
    | ⟨0, _⟩ => show offd 0 + k.val = offd 0 + 1 * k.val; omega
  rw [hi]
  refine (Landed.slice_writes_hit (Val := Elt F) cc0_scratch3 fd (Rect.unit (s := S3584) offd S512.size inbd) _ (ix1 k)).trans ?_
  refine (Landed.read_slice (Val := Elt F) cc0_scratch5 (Rect.unit (s := S114688) offs S512.size inbs) fs (ix1 k)).trans ?_
  congr 1
  funext a
  apply Fin.ext
  match a with
  | ⟨0, _⟩ => show offs 0 + 1 * k.val = offs 0 + k.val; omega

/-- A store of sixteen lanes into the output scratch of lookup 1: the lanes where it lands, -/
theorem writes16_hit_1 (h : Buf (Elt F) ((Memref.whole cc1_scratch4).view.loc (V d c i))) (off : Fin 1 → Nat)
    (inb : ∀ a, off a + S16.size a ≤ S1024.size a) (w : FVec F S16 .f32) (l : Fin 16) (hlt : off 0 + l.val < 1024) :
    ((Memref.whole cc1_scratch4).view.writes (Elt F) h [⟨Rect.unit (s := S1024) off S16.size inb, w⟩]) (ix1 (⟨off 0 + l.val, hlt⟩ : Fin 1024)) = w (ix1 l) := by
  have hi : (ix1 (⟨off 0 + l.val, hlt⟩ : Fin 1024) : S1024.Idx) = (Rect.unit (s := S1024) off S16.size inb).emb (ix1 l) := by
    funext a
    apply Fin.ext
    match a with
    | ⟨0, _⟩ => show off 0 + l.val = off 0 + 1 * l.val; omega
  rw [hi]
  exact Landed.whole_writes_hit (Val := Elt F) cc1_scratch4 h (Rect.unit (s := S1024) off S16.size inb) w (ix1 l)

/-- and the old contents elsewhere. -/
theorem writes16_miss_1 (h : Buf (Elt F) ((Memref.whole cc1_scratch4).view.loc (V d c i))) (off : Fin 1 → Nat)
    (inb : ∀ a, off a + S16.size a ≤ S1024.size a) (w : FVec F S16 .f32) (k : Fin 1024) (hk : k.val < off 0 ∨ off 0 + 16 ≤ k.val) :
    ((Memref.whole cc1_scratch4).view.writes (Elt F) h [⟨Rect.unit (s := S1024) off S16.size inb, w⟩]) (ix1 k) = h (ix1 k) := by
  refine Landed.whole_writes_miss (Val := Elt F) cc1_scratch4 h (Rect.unit (s := S1024) off S16.size inb) w (ix1 k) ?_
  rw [Rect.mem_set_unit]
  intro hall
  have h0 := hall 0
  have h1 : off 0 ≤ k.val := h0.1
  have h2 : k.val < off 0 + 16 := h0.2
  omega

/-- Sixteen lanes loaded from the reduction scratch of lookup 1 are its sixteen consecutive entries. -/
theorem readAt16_1 (g : Buf (Elt F) ((Memref.whole cc1_scratch3).view.loc (V d c i))) (off : Fin 1 → Nat)
    (inb : ∀ a, off a + S16.size a ≤ S3584.size a) (l : Fin 16) (hlt : off 0 + l.val < 3584) :
    View.readAt (Elt F) (Memref.whole cc1_scratch3).view (Rect.unit (s := S3584) off S16.size inb).toLoadRect g (ix1 l)
      = g (ix1 (⟨off 0 + l.val, hlt⟩ : Fin 3584)) := by
  rw [View.readAt_apply]
  refine (Landed.read_whole (Val := Elt F) cc1_scratch3 g _).trans ?_
  congr 1
  funext a
  apply Fin.ext
  match a with
  | ⟨0, _⟩ => show off 0 + 1 * l.val = off 0 + l.val; omega

/-- A window of 512 of the reduction scratch a copy out of the shared buffer of lookup 1 has landed in holds the 512
    entries copied. -/
theorem landed512_1 (cT' : Fin τ.nSC) (offd : Fin 1 → Nat) (inbd : ∀ a, offd a + S512.size a ≤ S3584.size a) (offs : Fin 1 → Nat)
    (inbs : ∀ a, offs a + S512.size a ≤ S114688.size a) (fd : Buf (Elt F) ((Memref.whole cc1_scratch3).view.loc (V d c i)))
    (fs : Buf (Elt F) (acc1Loc d cT')) (k : Fin 512) (hd : offd 0 + k.val < 3584) (hs : offs 0 + k.val < 114688) :
    ((((Memref.whole cc1_scratch3).slice (Rect.unit (s := S3584) offd S512.size inbd) (fun _ => rfl)).view.writes (Elt F) fd
      [⟨Rect.whole S512, ReadAs.same.apply (View.read (Elt F)
        ((Memref.whole cc1_scratch5).slice (Rect.unit (s := S114688) offs S512.size inbs) (fun _ => rfl)).view fs)⟩]) (ix1 (⟨offd 0 + k.val, hd⟩ : Fin 3584)))
      = fs (ix1 (⟨offs 0 + k.val, hs⟩ : Fin 114688)) := by
  have hi : (ix1 (⟨offd 0 + k.val, hd⟩ : Fin 3584) : S3584.Idx) = (Rect.unit (s := S3584) offd S512.size inbd).emb (ix1 k) := by
    funext a
    apply Fin.ext
    match a with
    | ⟨0, _⟩ => show offd 0 + k.val = offd 0 + 1 * k.val; omega
  rw [hi]
  refine (Landed.slice_writes_hit (Val := Elt F) cc1_scratch3 fd (Rect.unit (s := S3584) offd S512.size inbd) _ (ix1 k)).trans ?_
  refine (Landed.read_slice (Val := Elt F) cc1_scratch5 (Rect.unit (s := S114688) offs S512.size inbs) fs (ix1 k)).trans ?_
  congr 1
  funext a
  apply Fin.ext
  match a with
  | ⟨0, _⟩ => show offs 0 + 1 * k.val = offs 0 + k.val; omega

end Cert.Proof.KB

end
-- ==== Proof.KB.ReduceValue.lean ====
/-
  Two value facts for the reduction after the barrier. The shared buffer's entry 16384 n + b is row n's entry for batch
  row b. And the sum a reduction trip stores — seven loaded rows added lane by lane, first to last — is, in a lane that
  holds the seven rows' entries for batch row b, the SparseCore's partial sum for b.
-/
import proofs.«207420_g80582176408339_cont_9to1c4b_743_56_alg».proof.Proof.KB.Common

noncomputable section

namespace Cert.Proof.KB

open Cert.Kernel Cert.Kernel.Gen
open Idealize.ShloMosaic Idealize.ShloMosaic.ValueIdx

variable {F : FTy → Type} [FloatOps F]

theorem accVal_apply (xt : IVec S26x16384 32) (wh : FVec F S1300000 .f32) (fb c n b : Nat) (hn : n < 7) (hb : b < 16384) :
    accVal xt wh fb c (ix1 (⟨16384 * n + b, by omega⟩ : Fin 114688)) = accAt xt wh fb c n b := by
  unfold accVal
  show accAt xt wh fb c ((16384 * n + b) / 16384) ((16384 * n + b) % 16384) = _
  rw [show (16384 * n + b) / 16384 = n by omega, show (16384 * n + b) % 16384 = b by omega]

theorem pay1_partAt_k0 (xt : IVec S26x16384 32) (wh : FVec F S1300000 .f32) (fb c b : Nat)
    (v0 v1 v2 v3 v4 v5 v6 : Vec F S16 .f32) (l : Fin 16)
    (h0 : v0 (ix1 l) = accAt xt wh fb c 0 b) (h1 : v1 (ix1 l) = accAt xt wh fb c 1 b) (h2 : v2 (ix1 l) = accAt xt wh fb c 2 b)
    (h3 : v3 (ix1 l) = accAt xt wh fb c 3 b) (h4 : v4 (ix1 l) = accAt xt wh fb c 4 b) (h5 : v5 (ix1 l) = accAt xt wh fb c 5 b)
    (h6 : v6 (ix1 l) = accAt xt wh fb c 6 b) :
    k0_pay1 v0 v1 v2 v3 v4 v5 v6 (ix1 l) = partAt xt wh fb c b := by
  unfold k0_pay1 partAt
  simp only [addf]
  rw [h0, h1, h2, h3, h4, h5, h6]

theorem pay3_partAt_k0 (xt : IVec S26x16384 32) (wh : FVec F S1300000 .f32) (fb c b : Nat)
    (v0 v1 v2 v3 v4 v5 v6 : Vec F S16 .f32) (l : Fin 16)
    (h0 : v0 (ix1 l) = accAt xt wh fb c 0 b) (h1 : v1 (ix1 l) = accAt xt wh fb c 1 b) (h2 : v2 (ix1 l) = accAt xt wh fb c 2 b)
    (h3 : v3 (ix1 l) = accAt xt wh fb c 3 b) (h4 : v4 (ix1 l) = accAt xt wh fb c 4 b) (h5 : v5 (ix1 l) = accAt xt wh fb c 5 b)
    (h6 : v6 (ix1 l) = accAt xt wh fb c 6 b) :
    k0_pay3 v0 v1 v2 v3 v4 v5 v6 (ix1 l) = partAt xt wh fb c b := by
  unfold k0_pay3 partAt
  simp only [addf]
  rw [h0, h1, h2, h3, h4, h5, h6]

theorem pay1_partAt_k1 (xt : IVec S26x16384 32) (wh : FVec F S1300000 .f32) (fb c b : Nat)
    (v0 v1 v2 v3 v4 v5 v6 : Vec F S16 .f32) (l : Fin 16)
    (h0 : v0 (ix1 l) = accAt xt wh fb c 0 b) (h1 : v1 (ix1 l) = accAt xt wh fb c 1 b) (h2 : v2 (ix1 l) = accAt xt wh fb c 2 b)
    (h3 : v3 (ix1 l) = accAt xt wh fb c 3 b) (h4 : v4 (ix1 l) = accAt xt wh fb c 4 b) (h5 : v5 (ix1 l) = accAt xt wh fb c 5 b)
    (h6 : v6 (ix1 l) = accAt xt wh fb c 6 b) :
    k1_pay1 v0 v1 v2 v3 v4 v5 v6 (ix1 l) = partAt xt wh fb c b := by
  unfold k1_pay1 partAt
  simp only [addf]
  rw [h0, h1, h2, h3, h4, h5, h6]

theorem pay3_partAt_k1 (xt : IVec S26x16384 32) (wh : FVec F S1300000 .f32) (fb c b : Nat)
    (v0 v1 v2 v3 v4 v5 v6 : Vec F S16 .f32) (l : Fin 16)
    (h0 : v0 (ix1 l) = accAt xt wh fb c 0 b) (h1 : v1 (ix1 l) = accAt xt wh fb c 1 b) (h2 : v2 (ix1 l) = accAt xt wh fb c 2 b)
    (h3 : v3 (ix1 l) = accAt xt wh fb c 3 b) (h4 : v4 (ix1 l) = accAt xt wh fb c 4 b) (h5 : v5 (ix1 l) = accAt xt wh fb c 5 b)
    (h6 : v6 (ix1 l) = accAt xt wh fb c 6 b) :
    k1_pay3 v0 v1 v2 v3 v4 v5 v6 (ix1 l) = partAt xt wh fb c b := by
  unfold k1_pay3 partAt
  simp only [addf]
  rw [h0, h1, h2, h3, h4, h5, h6]

end Cert.Proof.KB

end
-- ==== Proof.KB.ReduceStep.lean ====
/-
  The reduction, one window and one trip at a time. A window of the reduction scratch a copy has landed in, the shared
  buffer standing at the looked-up values, holds a row's entries for 512 consecutive batch rows of the tile. A trip of
  the adding loop reads sixteen lanes of each of the seven windows, adds them first to last, and stores the sixteen sums:
  they are the partial sums of sixteen consecutive batch rows, and what the earlier trips stored stays.
-/
import proofs.«207420_g80582176408339_cont_9to1c4b_743_56_alg».proof.Proof.KB.ReduceIdx
import proofs.«207420_g80582176408339_cont_9to1c4b_743_56_alg».proof.Proof.KB.ReduceValue

noncomputable section

namespace Cert.Proof.KB

open Cert.Kernel Cert.Kernel.Gen
open Idealize.ShloMosaic Idealize.ShloMosaic.ValueIdx
open Idealize.ShloMosaic.SparseCore (S V)

variable {F : FTy → Type} [FloatOps F]

variable (m : (ℓ : Loc nD τ sig) → Buf (Elt F) ℓ)

variable (d : Dev nD) (c : Fin τ.nSC) (i : Fin τ.nSub)

/-- A tile's window `n` of the reduction scratch of lookup 0, landed from the shared buffer (at `ACC0`) at the
    source the task slices for round `r`: entry `512 n + k` is row `n`'s entry for batch row `1024 s + 512 r + k`. -/
theorem landed_acc_aux_0 (cT' : Fin τ.nSC) (s rr : Nat) (hs : s < 16) (hr : rr < 2) (n : Fin 7) (k : Nat) (hk : k < 512)
    (offd : Fin 1 → Nat) (hoffd : offd = ![512 * n.val]) (inbd : ∀ a, offd a + S512.size a ≤ S3584.size a)
    (offs : Fin 1 → Nat) (hoffs : offs = ![16384 * n.val + 1024 * s + 512 * rr]) (inbs : ∀ a, offs a + S512.size a ≤ S114688.size a)
    (fd : Buf (Elt F) ((Memref.whole cc0_scratch3).view.loc (V d c i))) :
    ((((Memref.whole cc0_scratch3).slice (Rect.unit (s := S3584) offd S512.size inbd) (fun _ => rfl)).view.writes (Elt F) fd
      [⟨Rect.whole S512, ReadAs.same.apply (View.read (Elt F)
        ((Memref.whole cc0_scratch5).slice (Rect.unit (s := S114688) offs S512.size inbs) (fun _ => rfl)).view (ACC0 m d cT'))⟩])
        (ix1 (⟨512 * n.val + k, by have := n.isLt; omega⟩ : Fin 3584)))
      = accAt (XT m d) (WH0 m d) 0 cT'.val n.val (1024 * s + 512 * rr + k) := by
  subst hoffd
  subst hoffs
  have hn := n.isLt
  have hd : (![512 * n.val] : Fin 1 → Nat) 0 + k < 3584 := by show 512 * n.val + k < 3584; omega
  have hs' : (![16384 * n.val + 1024 * s + 512 * rr] : Fin 1 → Nat) 0 + k < 114688 := by show 16384 * n.val + 1024 * s + 512 * rr + k < 114688; omega
  refine (landed512_0 d c i cT' _ inbd _ inbs fd (ACC0 m d cT') ⟨k, hk⟩ hd hs').trans ?_
  have hb : 1024 * s + 512 * rr + k < 16384 := by omega
  refine Eq.trans ?_ (accVal_apply (XT m d) (WH0 m d) 0 cT'.val n.val (1024 * s + 512 * rr + k) hn hb)
  show accVal _ _ _ _ _ = accVal _ _ _ _ _
  congr 1
  funext a
  apply Fin.ext
  match a with
  | ⟨0, _⟩ => show 16384 * n.val + 1024 * s + 512 * rr + k = 16384 * n.val + (1024 * s + 512 * rr + k); omega

/-- The same at the task's own offsets. -/
theorem landed_acc_0 (cT' : Fin τ.nSC) (L : grid0.Coords) (r : Fin 2) (n : Fin 7) (k : Nat) (hk : k < 512)
    (inbd : ∀ a, (![512 * n.val] : Fin 1 → Nat) a + S512.size a ≤ S3584.size a)
    (fd : Buf (Elt F) ((Memref.whole cc0_scratch3).view.loc (V d c i))) :
    ((((Memref.whole cc0_scratch3).slice (Rect.unit (s := S3584) ![512 * n.val] S512.size inbd) (fun _ => rfl)).view.writes (Elt F) fd
      [⟨Rect.whole S512, ReadAs.same.apply (View.read (Elt F)
        ((Memref.whole cc0_scratch5).slice (Rect.unit (s := S114688) (k0_off29 L (BitVec.ofNat 32 (16384 * n.val)) (BitVec.ofNat 32 (512 * r.val))) S512.size
          (Gen.k0_off29_inb L n r)) (fun _ => rfl)).view (ACC0 m d cT'))⟩])
        (ix1 (⟨512 * n.val + k, by have := n.isLt; omega⟩ : Fin 3584)))
      = accAt (XT m d) (WH0 m d) 0 cT'.val n.val (1024 * (L 1).val + 512 * r.val + k) :=
  landed_acc_aux_0 m d c i cT' (L 1).val r.val (L 1).isLt r.isLt n k hk _ rfl inbd _ (Gen.k0_off29_eq L n r) (Gen.k0_off29_inb L n r) fd

/-- One trip of a reduction loop of lookup 0, over abstract offsets and an abstract seven-row sum: the sixteen lanes it
    stores at `lo + 16 t` of the output scratch are the partial sums of batch rows `1024 s + lo + 16 t + l`, and the done part
    below stays. -/
theorem step_gen_0 (xt : IVec S26x16384 32) (wh : FVec F S1300000 .f32) (fb cn s lo t : Nat) (ht : t < 32) (hlo : lo + 512 ≤ 1024)
    (pay : Vec F S16 .f32 → Vec F S16 .f32 → Vec F S16 .f32 → Vec F S16 .f32 → Vec F S16 .f32 → Vec F S16 .f32 → Vec F S16 .f32 → FVec F S16 .f32)
    (hpay : ∀ (v0 v1 v2 v3 v4 v5 v6 : Vec F S16 .f32) (l : Fin 16) (b : Nat),
      v0 (ix1 l) = accAt xt wh fb cn 0 b → v1 (ix1 l) = accAt xt wh fb cn 1 b → v2 (ix1 l) = accAt xt wh fb cn 2 b → v3 (ix1 l) = accAt xt wh fb cn 3 b →
      v4 (ix1 l) = accAt xt wh fb cn 4 b → v5 (ix1 l) = accAt xt wh fb cn 5 b → v6 (ix1 l) = accAt xt wh fb cn 6 b →
      pay v0 v1 v2 v3 v4 v5 v6 (ix1 l) = partAt xt wh fb cn b)
    (g : Buf (Elt F) ((Memref.whole cc0_scratch3).view.loc (V d c i))) (h : Buf (Elt F) ((Memref.whole cc0_scratch4).view.loc (V d c i)))
    (ow : Fin 1 → Nat) (inbw : ∀ a, ow a + S16.size a ≤ S1024.size a) (how : ow = ![lo + 16 * t])
    (o0 : Fin 1 → Nat) (inb0 : ∀ a, o0 a + S16.size a ≤ S3584.size a) (ho0 : o0 = ![512 * 0 + 16 * t])
    (o1 : Fin 1 → Nat) (inb1 : ∀ a, o1 a + S16.size a ≤ S3584.size a) (ho1 : o1 = ![512 * 1 + 16 * t])
    (o2 : Fin 1 → Nat) (inb2 : ∀ a, o2 a + S16.size a ≤ S3584.size a) (ho2 : o2 = ![512 * 2 + 16 * t])
    (o3 : Fin 1 → Nat) (inb3 : ∀ a, o3 a + S16.size a ≤ S3584.size a) (ho3 : o3 = ![512 * 3 + 16 * t])
    (o4 : Fin 1 → Nat) (inb4 : ∀ a, o4 a + S16.size a ≤ S3584.size a) (ho4 : o4 = ![512 * 4 + 16 * t])
    (o5 : Fin 1 → Nat) (inb5 : ∀ a, o5 a + S16.size a ≤ S3584.size a) (ho5 : o5 = ![512 * 5 + 16 * t])
    (o6 : Fin 1 → Nat) (inb6 : ∀ a, o6 a + S16.size a ≤ S3584.size a) (ho6 : o6 = ![512 * 6 + 16 * t])
    (hgv : ∀ (n : Fin 7) (j : Nat) (hj : j < 512), g (ix1 (⟨512 * n.val + j, by have := n.isLt; omega⟩ : Fin 3584)) = accAt xt wh fb cn n.val (1024 * s + lo + j))
    (hh : ∀ q : Fin 1024, q.val < lo + 16 * t → h (ix1 q) = partAt xt wh fb cn (1024 * s + q.val)) :
    ∀ q : Fin 1024, q.val < lo + 16 * (t + 1) →
      ((Memref.whole cc0_scratch4).view.writes (Elt F) h [⟨Rect.unit (s := S1024) ow S16.size inbw,
        pay (View.readAt (Elt F) (Memref.whole cc0_scratch3).view (Rect.unit (s := S3584) o0 S16.size inb0).toLoadRect g) (View.readAt (Elt F) (Memref.whole cc0_scratch3).view (Rect.unit (s := S3584) o1 S16.size inb1).toLoadRect g) (View.readAt (Elt F) (Memref.whole cc0_scratch3).view (Rect.unit (s := S3584) o2 S16.size inb2).toLoadRect g) (View.readAt (Elt F) (Memref.whole cc0_scratch3).view (Rect.unit (s := S3584) o3 S16.size inb3).toLoadRect g) (View.readAt (Elt F) (Memref.whole cc0_scratch3).view (Rect.unit (s := S3584) o4 S16.size inb4).toLoadRect g) (View.readAt (Elt F) (Memref.whole cc0_scratch3).view (Rect.unit (s := S3584) o5 S16.size inb5).toLoadRect g) (View.readAt (Elt F) (Memref.whole cc0_scratch3).view (Rect.unit (s := S3584) o6 S16.size inb6).toLoadRect g)⟩]) (ix1 q) = partAt xt wh fb cn (1024 * s + q.val) := by
  intro q hq
  have how0 : ow 0 = lo + 16 * t := by rw [how]; rfl
  by_cases hlt : q.val < lo + 16 * t
  · rw [writes16_miss_0 d c i h ow inbw _ q (Or.inl (by rw [how0]; exact hlt))]
    exact hh q hlt
  · have hl : q.val - (lo + 16 * t) < 16 := by omega
    have hql : ow 0 + (q.val - (lo + 16 * t)) < 1024 := by rw [how0]; have := q.isLt; omega
    have hq' : q = (⟨ow 0 + (q.val - (lo + 16 * t)), hql⟩ : Fin 1024) := Fin.ext (by show q.val = ow 0 + (q.val - (lo + 16 * t)); rw [how0]; omega)
    rw [hq', writes16_hit_0 d c i h ow inbw _ ⟨q.val - (lo + 16 * t), hl⟩ hql]
    have hb : 1024 * s + (ow 0 + (q.val - (lo + 16 * t))) = 1024 * s + lo + (16 * t + (q.val - (lo + 16 * t))) := by rw [how0]; omega
    show pay _ _ _ _ _ _ _ (ix1 (⟨q.val - (lo + 16 * t), hl⟩ : Fin 16)) = partAt xt wh fb cn (1024 * s + (ow 0 + (q.val - (lo + 16 * t))))
    rw [hb]
    have lane : ∀ (n : Fin 7) (o : Fin 1 → Nat) (inb : ∀ a, o a + S16.size a ≤ S3584.size a) (ho : o = ![512 * n.val + 16 * t]),
        View.readAt (Elt F) (Memref.whole cc0_scratch3).view (Rect.unit (s := S3584) o S16.size inb).toLoadRect g (ix1 (⟨q.val - (lo + 16 * t), hl⟩ : Fin 16))
          = accAt xt wh fb cn n.val (1024 * s + lo + (16 * t + (q.val - (lo + 16 * t)))) := by
      intro n o inb ho
      have hn := n.isLt
      have ho0 : o 0 = 512 * n.val + 16 * t := by rw [ho]; rfl
      have hlt3 : o 0 + (q.val - (lo + 16 * t)) < 3584 := by rw [ho0]; omega
      rw [readAt16_0 d c i g o inb ⟨q.val - (lo + 16 * t), hl⟩ hlt3]
      have := hgv n (16 * t + (q.val - (lo + 16 * t))) (by omega)
      refine Eq.trans ?_ this
      congr 2
      apply Fin.ext
      show o 0 + (q.val - (lo + 16 * t)) = 512 * n.val + (16 * t + (q.val - (lo + 16 * t)))
      rw [ho0]; omega
    exact hpay _ _ _ _ _ _ _ _ _ (lane ⟨0, by decide⟩ o0 inb0 ho0) (lane ⟨1, by decide⟩ o1 inb1 ho1) (lane ⟨2, by decide⟩ o2 inb2 ho2) (lane ⟨3, by decide⟩ o3 inb3 ho3) (lane ⟨4, by decide⟩ o4 inb4 ho4) (lane ⟨5, by decide⟩ o5 inb5 ho5) (lane ⟨6, by decide⟩ o6 inb6 ho6)

/-- A tile's window `n` of the reduction scratch of lookup 1, landed from the shared buffer (at `ACC1`) at the
    source the task slices for round `r`: entry `512 n + k` is row `n`'s entry for batch row `1024 s + 512 r + k`. -/
theorem landed_acc_aux_1 (cT' : Fin τ.nSC) (s rr : Nat) (hs : s < 16) (hr : rr < 2) (n : Fin 7) (k : Nat) (hk : k < 512)
    (offd : Fin 1 → Nat) (hoffd : offd = ![512 * n.val]) (inbd : ∀ a, offd a + S512.size a ≤ S3584.size a)
    (offs : Fin 1 → Nat) (hoffs : offs = ![16384 * n.val + 1024 * s + 512 * rr]) (inbs : ∀ a, offs a + S512.size a ≤ S114688.size a)
    (fd : Buf (Elt F) ((Memref.whole cc1_scratch3).view.loc (V d c i))) :
    ((((Memref.whole cc1_scratch3).slice (Rect.unit (s := S3584) offd S512.size inbd) (fun _ => rfl)).view.writes (Elt F) fd
      [⟨Rect.whole S512, ReadAs.same.apply (View.read (Elt F)
        ((Memref.whole cc1_scratch5).slice (Rect.unit (s := S114688) offs S512.size inbs) (fun _ => rfl)).view (ACC1 m d cT'))⟩])
        (ix1 (⟨512 * n.val + k, by have := n.isLt; omega⟩ : Fin 3584)))
      = accAt (XT m d) (WH1 m d) 13 cT'.val n.val (1024 * s + 512 * rr + k) := by
  subst hoffd
  subst hoffs
  have hn := n.isLt
  have hd : (![512 * n.val] : Fin 1 → Nat) 0 + k < 3584 := by show 512 * n.val + k < 3584; omega
  have hs' : (![16384 * n.val + 1024 * s + 512 * rr] : Fin 1 → Nat) 0 + k < 114688 := by show 16384 * n.val + 1024 * s + 512 * rr + k < 114688; omega
  refine (landed512_1 d c i cT' _ inbd _ inbs fd (ACC1 m d cT') ⟨k, hk⟩ hd hs').trans ?_
  have hb : 1024 * s + 512 * rr + k < 16384 := by omega
  refine Eq.trans ?_ (accVal_apply (XT m d) (WH1 m d) 13 cT'.val n.val (1024 * s + 512 * rr + k) hn hb)
  show accVal _ _ _ _ _ = accVal _ _ _ _ _
  congr 1
  funext a
  apply Fin.ext
  match a with
  | ⟨0, _⟩ => show 16384 * n.val + 1024 * s + 512 * rr + k = 16384 * n.val + (1024 * s + 512 * rr + k); omega

/-- The same at the task's own offsets. -/
theorem landed_acc_1 (cT' : Fin τ.nSC) (L : grid1.Coords) (r : Fin 2) (n : Fin 7) (k : Nat) (hk : k < 512)
    (inbd : ∀ a, (![512 * n.val] : Fin 1 → Nat) a + S512.size a ≤ S3584.size a)
    (fd : Buf (Elt F) ((Memref.whole cc1_scratch3).view.loc (V d c i))) :
    ((((Memref.whole cc1_scratch3).slice (Rect.unit (s := S3584) ![512 * n.val] S512.size inbd) (fun _ => rfl)).view.writes (Elt F) fd
      [⟨Rect.whole S512, ReadAs.same.apply (View.read (Elt F)
        ((Memref.whole cc1_scratch5).slice (Rect.unit (s := S114688) (k1_off29 L (BitVec.ofNat 32 (16384 * n.val)) (BitVec.ofNat 32 (512 * r.val))) S512.size
          (Gen.k1_off29_inb L n r)) (fun _ => rfl)).view (ACC1 m d cT'))⟩])
        (ix1 (⟨512 * n.val + k, by have := n.isLt; omega⟩ : Fin 3584)))
      = accAt (XT m d) (WH1 m d) 13 cT'.val n.val (1024 * (L 1).val + 512 * r.val + k) :=
  landed_acc_aux_1 m d c i cT' (L 1).val r.val (L 1).isLt r.isLt n k hk _ rfl inbd _ (Gen.k1_off29_eq L n r) (Gen.k1_off29_inb L n r) fd

/-- One trip of a reduction loop of lookup 1, over abstract offsets and an abstract seven-row sum: the sixteen lanes it
    stores at `lo + 16 t` of the output scratch are the partial sums of batch rows `1024 s + lo + 16 t + l`, and the done part
    below stays. -/
theorem step_gen_1 (xt : IVec S26x16384 32) (wh : FVec F S1300000 .f32) (fb cn s lo t : Nat) (ht : t < 32) (hlo : lo + 512 ≤ 1024)
    (pay : Vec F S16 .f32 → Vec F S16 .f32 → Vec F S16 .f32 → Vec F S16 .f32 → Vec F S16 .f32 → Vec F S16 .f32 → Vec F S16 .f32 → FVec F S16 .f32)
    (hpay : ∀ (v0 v1 v2 v3 v4 v5 v6 : Vec F S16 .f32) (l : Fin 16) (b : Nat),
      v0 (ix1 l) = accAt xt wh fb cn 0 b → v1 (ix1 l) = accAt xt wh fb cn 1 b → v2 (ix1 l) = accAt xt wh fb cn 2 b → v3 (ix1 l) = accAt xt wh fb cn 3 b →
      v4 (ix1 l) = accAt xt wh fb cn 4 b → v5 (ix1 l) = accAt xt wh fb cn 5 b → v6 (ix1 l) = accAt xt wh fb cn 6 b →
      pay v0 v1 v2 v3 v4 v5 v6 (ix1 l) = partAt xt wh fb cn b)
    (g : Buf (Elt F) ((Memref.whole cc1_scratch3).view.loc (V d c i))) (h : Buf (Elt F) ((Memref.whole cc1_scratch4).view.loc (V d c i)))
    (ow : Fin 1 → Nat) (inbw : ∀ a, ow a + S16.size a ≤ S1024.size a) (how : ow = ![lo + 16 * t])
    (o0 : Fin 1 → Nat) (inb0 : ∀ a, o0 a + S16.size a ≤ S3584.size a) (ho0 : o0 = ![512 * 0 + 16 * t])
    (o1 : Fin 1 → Nat) (inb1 : ∀ a, o1 a + S16.size a ≤ S3584.size a) (ho1 : o1 = ![512 * 1 + 16 * t])
    (o2 : Fin 1 → Nat) (inb2 : ∀ a, o2 a + S16.size a ≤ S3584.size a) (ho2 : o2 = ![512 * 2 + 16 * t])
    (o3 : Fin 1 → Nat) (inb3 : ∀ a, o3 a + S16.size a ≤ S3584.size a) (ho3 : o3 = ![512 * 3 + 16 * t])
    (o4 : Fin 1 → Nat) (inb4 : ∀ a, o4 a + S16.size a ≤ S3584.size a) (ho4 : o4 = ![512 * 4 + 16 * t])
    (o5 : Fin 1 → Nat) (inb5 : ∀ a, o5 a + S16.size a ≤ S3584.size a) (ho5 : o5 = ![512 * 5 + 16 * t])
    (o6 : Fin 1 → Nat) (inb6 : ∀ a, o6 a + S16.size a ≤ S3584.size a) (ho6 : o6 = ![512 * 6 + 16 * t])
    (hgv : ∀ (n : Fin 7) (j : Nat) (hj : j < 512), g (ix1 (⟨512 * n.val + j, by have := n.isLt; omega⟩ : Fin 3584)) = accAt xt wh fb cn n.val (1024 * s + lo + j))
    (hh : ∀ q : Fin 1024, q.val < lo + 16 * t → h (ix1 q) = partAt xt wh fb cn (1024 * s + q.val)) :
    ∀ q : Fin 1024, q.val < lo + 16 * (t + 1) →
      ((Memref.whole cc1_scratch4).view.writes (Elt F) h [⟨Rect.unit (s := S1024) ow S16.size inbw,
        pay (View.readAt (Elt F) (Memref.whole cc1_scratch3).view (Rect.unit (s := S3584) o0 S16.size inb0).toLoadRect g) (View.readAt (Elt F) (Memref.whole cc1_scratch3).view (Rect.unit (s := S3584) o1 S16.size inb1).toLoadRect g) (View.readAt (Elt F) (Memref.whole cc1_scratch3).view (Rect.unit (s := S3584) o2 S16.size inb2).toLoadRect g) (View.readAt (Elt F) (Memref.whole cc1_scratch3).view (Rect.unit (s := S3584) o3 S16.size inb3).toLoadRect g) (View.readAt (Elt F) (Memref.whole cc1_scratch3).view (Rect.unit (s := S3584) o4 S16.size inb4).toLoadRect g) (View.readAt (Elt F) (Memref.whole cc1_scratch3).view (Rect.unit (s := S3584) o5 S16.size inb5).toLoadRect g) (View.readAt (Elt F) (Memref.whole cc1_scratch3).view (Rect.unit (s := S3584) o6 S16.size inb6).toLoadRect g)⟩]) (ix1 q) = partAt xt wh fb cn (1024 * s + q.val) := by
  intro q hq
  have how0 : ow 0 = lo + 16 * t := by rw [how]; rfl
  by_cases hlt : q.val < lo + 16 * t
  · rw [writes16_miss_1 d c i h ow inbw _ q (Or.inl (by rw [how0]; exact hlt))]
    exact hh q hlt
  · have hl : q.val - (lo + 16 * t) < 16 := by omega
    have hql : ow 0 + (q.val - (lo + 16 * t)) < 1024 := by rw [how0]; have := q.isLt; omega
    have hq' : q = (⟨ow 0 + (q.val - (lo + 16 * t)), hql⟩ : Fin 1024) := Fin.ext (by show q.val = ow 0 + (q.val - (lo + 16 * t)); rw [how0]; omega)
    rw [hq', writes16_hit_1 d c i h ow inbw _ ⟨q.val - (lo + 16 * t), hl⟩ hql]
    have hb : 1024 * s + (ow 0 + (q.val - (lo + 16 * t))) = 1024 * s + lo + (16 * t + (q.val - (lo + 16 * t))) := by rw [how0]; omega
    show pay _ _ _ _ _ _ _ (ix1 (⟨q.val - (lo + 16 * t), hl⟩ : Fin 16)) = partAt xt wh fb cn (1024 * s + (ow 0 + (q.val - (lo + 16 * t))))
    rw [hb]
    have lane : ∀ (n : Fin 7) (o : Fin 1 → Nat) (inb : ∀ a, o a + S16.size a ≤ S3584.size a) (ho : o = ![512 * n.val + 16 * t]),
        View.readAt (Elt F) (Memref.whole cc1_scratch3).view (Rect.unit (s := S3584) o S16.size inb).toLoadRect g (ix1 (⟨q.val - (lo + 16 * t), hl⟩ : Fin 16))
          = accAt xt wh fb cn n.val (1024 * s + lo + (16 * t + (q.val - (lo + 16 * t)))) := by
      intro n o inb ho
      have hn := n.isLt
      have ho0 : o 0 = 512 * n.val + 16 * t := by rw [ho]; rfl
      have hlt3 : o 0 + (q.val - (lo + 16 * t)) < 3584 := by rw [ho0]; omega
      rw [readAt16_1 d c i g o inb ⟨q.val - (lo + 16 * t), hl⟩ hlt3]
      have := hgv n (16 * t + (q.val - (lo + 16 * t))) (by omega)
      refine Eq.trans ?_ this
      congr 2
      apply Fin.ext
      show o 0 + (q.val - (lo + 16 * t)) = 512 * n.val + (16 * t + (q.val - (lo + 16 * t)))
      rw [ho0]; omega
    exact hpay _ _ _ _ _ _ _ _ _ (lane ⟨0, by decide⟩ o0 inb0 ho0) (lane ⟨1, by decide⟩ o1 inb1 ho1) (lane ⟨2, by decide⟩ o2 inb2 ho2) (lane ⟨3, by decide⟩ o3 inb3 ho3) (lane ⟨4, by decide⟩ o4 inb4 ho4) (lane ⟨5, by decide⟩ o5 inb5 ho5) (lane ⟨6, by decide⟩ o6 inb6 ho6)

end Cert.Proof.KB

end
-- ==== Proof.KB.Tile0Reduce.lean ====
/-
  Lookup 0, after the barrier: the reduction of the seven rows of the shared buffer over the tile's 1024 columns.

  The tile owns column block (L 1) of each of the seven rows: entries 16384 n + 1024 (L 1) + k, k < 1024. It reduces
  them in two halves of 512 columns. For half r it copies, for each row n, the 512 entries from 16384 n + 1024 (L 1)
  + 512 r into window n (entries 512 n … 512 n + 511) of a scratch of 3584, all seven copies on one semaphore, and
  waits for all seven before it reads any of them; then, sixteen lanes at a time, adds the seven windows entrywise and
  stores the sums at 512 r + 16 t of an output scratch of 1024. Entry k of the output scratch is then the sum over
  the rows of the shared buffer's entries in column 1024 (L 1) + k: the tile's partial sum for that batch row.

  Here: the halves of a column block and the windows of the scratch as sets of entries; the split of a block into its
  halves and of the scratch into its windows and back; what the seven copies of a half deliver; the windows joined
  into one function that agrees with each; that function in terms of the shared buffer's entries; and the loops'
  invariant — the first entries of the output scratch are the partial sums.
-/
import proofs.«207420_g80582176408339_cont_9to1c4b_743_56_alg».proof.Proof.KB.Tile0Out
import proofs.«207420_g80582176408339_cont_9to1c4b_743_56_alg».proof.Proof.KB.ReduceStep

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T0
section Reduce
variable (d : Dev nD) (L : grid0.Coords)

/-! ## The windows of the two batches -/

omit [FloatOps F] in
theorem bigSep_fin2' {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

omit [FloatOps F] in
theorem bigSep_fin7 {M : Type} [URA M] (Φ : Fin 7 → sProp M) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide, SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- Half r of column block (L 1) of row n of the shared buffer, as the copies name it. -/
def srcW (L : grid0.Coords) (r : Fin 2) (n : Fin 7) : Memref sig .scVector .shared S512 .f32 :=
  (Memref.whole cc0_scratch5).slice (Rect.unit (s := S114688) (k0_off29 L (BitVec.ofNat 32 (16384 * n.val)) (BitVec.ofNat 32 (512 * r.val))) S512.size (Gen.k0_off29_inb L n r)) (fun _ => rfl)

omit [FloatOps F] in
theorem inb3 (n : Fin 7) : ∀ a, (![512 * n.val] : Fin 1 → Nat) a + S512.size a ≤ S3584.size a := by
  have := n.isLt; intro a; fin_cases a; show 512 * n.val + 512 ≤ 3584; omega
/-- Window n of the reduce scratch. -/
def dstW (n : Fin 7) : Memref sig .scVector .vmem S512 .f32 :=
  (Memref.whole cc0_scratch3).slice (Rect.unit (s := S3584) ![512 * n.val] S512.size (inb3 n)) (fun _ => rfl)

omit [FloatOps F] in
theorem set_srcW (r : Fin 2) (n : Fin 7) :
    (srcW L r n).view.set = seg (N := 114688) (16384 * n.val + 1024 * (L 1).val + 512 * r.val) 512 := by
  show ((View.whole (cc0_scratch5 : Ref sig .scVector)).slice (Rect.unit (s := S114688) _ S512.size _)).set = _
  rw [View.set_slice]
  refine Finset.map_refl.trans ?_
  rw [unit_set_seg, Gen.k0_off29_eq]
  rfl

omit [FloatOps F] in
theorem set_dstW (n : Fin 7) : (dstW n).view.set = seg (N := 3584) (512 * n.val) 512 := by
  show ((View.whole (cc0_scratch3 : Ref sig .scVector)).slice (Rect.unit (s := S3584) _ S512.size _)).set = _
  rw [View.set_slice]
  refine Finset.map_refl.trans ?_
  rw [unit_set_seg]
  rfl

abbrev heldOwn {sp : Space} {S : Shape} (M : Memref sig .scVector sp S .f32) (f : Buf (Elt F) (M.view.loc (V d (cV L) (jV L)))) : sProp 𝕄 :=
  M.view.loc (V d (cV L) (jV L)) ↦[M.view.set]{fullShare} f

theorem acc_halves (n : Nat) (hn : n < 7) (f : Buf (Elt F) (acc0Loc d (cV L))) :
    (acc0Loc d (cV L) ↦[seg (N := 114688) (16384 * n + 1024 * (jV L).val) 1024]{fullShare} f : sProp 𝕄)
      = iprop(heldOwn d L (srcW L 0 ⟨n, hn⟩) f ∗ heldOwn d L (srcW L 1 ⟨n, hn⟩) f) := by
  unfold heldOwn
  rw [set_srcW, set_srcW]
  show _ = iprop((acc0Loc d (cV L) ↦[seg (N := 114688) (16384 * n + 1024 * (L 1).val + 512 * (0 : Fin 2).val) 512]{fullShare} f)
    ∗ (acc0Loc d (cV L) ↦[seg (N := 114688) (16384 * n + 1024 * (L 1).val + 512 * (1 : Fin 2).val) 512]{fullShare} f))
  rw [← bigSep_fin2' (fun r : Fin 2 => (acc0Loc d (cV L) ↦[seg (N := 114688) (16384 * n + 1024 * (L 1).val + 512 * r.val) 512]{fullShare} f : sProp 𝕄)),
    ← pointsTo_biUnion Finset.univ (ℓ := acc0Loc d (cV L)) (fun r : Fin 2 => seg (N := 114688) (16384 * n + 1024 * (L 1).val + 512 * r.val) 512) seg_parts_disjoint,
    seg_parts (N := 114688) (16384 * n + 1024 * (L 1).val) 512 2]
  rfl

theorem scr3_windows (f : Buf (Elt F) ((V d (cV L) (jV L)).loc cc0_scratch3)) :
    ((V d (cV L) (jV L)).loc cc0_scratch3 ↦{fullShare} f : sProp 𝕄)
      = iprop(heldOwn d L (dstW 0) f ∗ heldOwn d L (dstW 1) f ∗ heldOwn d L (dstW 2) f ∗ heldOwn d L (dstW 3) f
          ∗ heldOwn d L (dstW 4) f ∗ heldOwn d L (dstW 5) f ∗ heldOwn d L (dstW 6) f) := by
  unfold heldOwn
  rw [set_dstW, set_dstW, set_dstW, set_dstW, set_dstW, set_dstW, set_dstW]
  show _ = iprop(((V d (cV L) (jV L)).loc cc0_scratch3 ↦[seg (N := 3584) (512 * (0 : Fin 7).val) 512]{fullShare} f)
    ∗ ((V d (cV L) (jV L)).loc cc0_scratch3 ↦[seg (N := 3584) (512 * (1 : Fin 7).val) 512]{fullShare} f)
    ∗ ((V d (cV L) (jV L)).loc cc0_scratch3 ↦[seg (N := 3584) (512 * (2 : Fin 7).val) 512]{fullShare} f)
    ∗ ((V d (cV L) (jV L)).loc cc0_scratch3 ↦[seg (N := 3584) (512 * (3 : Fin 7).val) 512]{fullShare} f)
    ∗ ((V d (cV L) (jV L)).loc cc0_scratch3 ↦[seg (N := 3584) (512 * (4 : Fin 7).val) 512]{fullShare} f)
    ∗ ((V d (cV L) (jV L)).loc cc0_scratch3 ↦[seg (N := 3584) (512 * (5 : Fin 7).val) 512]{fullShare} f)
    ∗ ((V d (cV L) (jV L)).loc cc0_scratch3 ↦[seg (N := 3584) (512 * (6 : Fin 7).val) 512]{fullShare} f))
  rw [← bigSep_fin7 (fun n : Fin 7 => ((V d (cV L) (jV L)).loc cc0_scratch3 ↦[seg (N := 3584) (512 * n.val) 512]{fullShare} f : sProp 𝕄))]
  have hd : ∀ t ∈ (Finset.univ : Finset (Fin 7)), ∀ t' ∈ (Finset.univ : Finset (Fin 7)), t ≠ t' →
      Disjoint (seg (N := 3584) (512 * t.val) 512) (seg (N := 3584) (512 * t'.val) 512) := by
    have h := seg_parts_disjoint (N := 3584) (lo := 0) (len := 512) (k := 7)
    simp only [Nat.zero_add] at h; exact h
  have hc : (Finset.univ : Finset (Fin 7)).biUnion (fun n => seg (N := 3584) (512 * n.val) 512) = Finset.univ := by
    have h := seg_parts (N := 3584) 0 512 7
    simp only [Nat.zero_add] at h; rw [h]; exact seg_univ
  rw [← pointsTo_biUnion Finset.univ (ℓ := (V d (cV L) (jV L)).loc cc0_scratch3) (fun n : Fin 7 => seg (N := 3584) (512 * n.val) 512) hd, hc]; try rfl

/-- What copy n of batch r leaves in window n of the reduce scratch. -/
abbrev landed (r : Fin 2) (n : Fin 7) (fs : Buf (Elt F) ((srcW L r n).view.loc (V d (cV L) (jV L)))) (fd : Buf (Elt F) ((dstW n).view.loc (V d (cV L) (jV L)))) :
    Buf (Elt F) ((dstW n).view.loc (V d (cV L) (jV L))) :=
  (dstW n).view.writes (Elt F) fd [⟨Rect.whole S512, ReadAs.same.apply ((srcW L r n).view.read (Elt F) fs)⟩]

/-- The seven deliveries of batch r. -/
abbrev deliv (r : Fin 2) (fs : (n : Fin 7) → Buf (Elt F) ((srcW L r n).view.loc (V d (cV L) (jV L))))
    (fd : (n : Fin 7) → Buf (Elt F) ((dstW n).view.loc (V d (cV L) (jV L)))) (n : Fin 7) : sProp 𝕄 :=
  iprop(heldOwn d L (dstW n) (landed d L r n (fs n) (fd n)) ∗ heldOwn d L (srcW L r n) (fs n))

instance deliv_storable (r : Fin 2) (fs : (n : Fin 7) → Buf (Elt F) ((srcW L r n).view.loc (V d (cV L) (jV L))))
    (fd : (n : Fin 7) → Buf (Elt F) ((dstW n).view.loc (V d (cV L) (jV L)))) (n : Fin 7) :
    BI.Storable (upEmb : UEmb _ 𝕄) (deliv (F := F) d L r fs fd n) := by
  unfold deliv heldOwn; infer_instance

/-- One window's credit. -/
abbrev NW : ℕ := (dstW 0).view.amount (SemLoc.dma (sig := sig) cc0_scratch6.sem)

/-- What copy n of batch r leaves in window n, over whatever was there. -/
abbrev landedJ (r : Fin 2) (n : Fin 7) (fs : Buf (Elt F) ((srcW L r n).view.loc (V d (cV L) (jV L)))) :
    Buf (Elt F) ((dstW n).view.loc (V d (cV L) (jV L))) :=
  (dstW n).view.writes (Elt F) (dstW n).view.junk [⟨Rect.whole S512, ReadAs.same.apply ((srcW L r n).view.read (Elt F) fs)⟩]

/-- The seven windows, each at contents of its own, are the reduce scratch whole at one function that agrees with each. -/
theorem windows_join (C : Fin 7 → Buf (Elt F) ((V d (cV L) (jV L)).loc cc0_scratch3)) :
    (iprop(heldOwn d L (dstW 0) (C 0) ∗ heldOwn d L (dstW 1) (C 1) ∗ heldOwn d L (dstW 2) (C 2)
        ∗ heldOwn d L (dstW 3) (C 3) ∗ heldOwn d L (dstW 4) (C 4) ∗ heldOwn d L (dstW 5) (C 5)
        ∗ heldOwn d L (dstW 6) (C 6)) : sProp 𝕄)
      ⊢ iprop(∃ g : Buf (Elt F) ((V d (cV L) (jV L)).loc cc0_scratch3), ⌜∀ n : Fin 7, ∀ i ∈ seg (N := 3584) (512 * n.val) 512, g i = C n i⌝
          ∗ (Memref.whole cc0_scratch3).view.loc (V d (cV L) (jV L)) ↦{fullShare} g) := by
  unfold heldOwn
  rw [set_dstW, set_dstW, set_dstW, set_dstW, set_dstW, set_dstW, set_dstW]
  show (iprop(((V d (cV L) (jV L)).loc cc0_scratch3 ↦[seg (N := 3584) (512 * (0 : Fin 7).val) 512]{fullShare} C 0)
    ∗ ((V d (cV L) (jV L)).loc cc0_scratch3 ↦[seg (N := 3584) (512 * (1 : Fin 7).val) 512]{fullShare} C 1)
    ∗ ((V d (cV L) (jV L)).loc cc0_scratch3 ↦[seg (N := 3584) (512 * (2 : Fin 7).val) 512]{fullShare} C 2)
    ∗ ((V d (cV L) (jV L)).loc cc0_scratch3 ↦[seg (N := 3584) (512 * (3 : Fin 7).val) 512]{fullShare} C 3)
    ∗ ((V d (cV L) (jV L)).loc cc0_scratch3 ↦[seg (N := 3584) (512 * (4 : Fin 7).val) 512]{fullShare} C 4)
    ∗ ((V d (cV L) (jV L)).loc cc0_scratch3 ↦[seg (N := 3584) (512 * (5 : Fin 7).val) 512]{fullShare} C 5)
    ∗ ((V d (cV L) (jV L)).loc cc0_scratch3 ↦[seg (N := 3584) (512 * (6 : Fin 7).val) 512]{fullShare} C 6)) : sProp 𝕄) ⊢ _
  rw [← bigSep_fin7 (fun n : Fin 7 => ((V d (cV L) (jV L)).loc cc0_scratch3 ↦[seg (N := 3584) (512 * n.val) 512]{fullShare} C n : sProp 𝕄))]
  have hd : ∀ t ∈ (Finset.univ : Finset (Fin 7)), ∀ t' ∈ (Finset.univ : Finset (Fin 7)), t ≠ t' →
      Disjoint (seg (N := 3584) (512 * t.val) 512) (seg (N := 3584) (512 * t'.val) 512) := by
    have h := seg_parts_disjoint (N := 3584) (lo := 0) (len := 512) (k := 7)
    simp only [Nat.zero_add] at h; exact h
  have hc : (Finset.univ : Finset (Fin 7)).biUnion (fun n => seg (N := 3584) (512 * n.val) 512) = Finset.univ := by
    have h := seg_parts (N := 3584) 0 512 7
    simp only [Nat.zero_add] at h; rw [h]; exact seg_univ
  refine (pointsTo_biUnion_join (ℓ := (V d (cV L) (jV L)).loc cc0_scratch3) (q := fullShare) Finset.univ (fun n : Fin 7 => seg (N := 3584) (512 * n.val) 512) C (C 0) hd).trans ?_
  rw [hc]
  iintro ⟨%g, %hg, Hg⟩
  iexists g
  isplitr
  · ipureintro; exact fun n i hi => hg n (Finset.mem_univ n) i hi
  · iexact Hg

/-- The partial sum the tile owes at entry k of its 1024. -/
def oAt (k : Nat) : F .f32 := partAt (XT m d) (WH0 m d) 0 (cV L).val (1024 * (L 1).val + k)

/-- A reduce loop's invariant: the reduce scratch fixed, the first entries of the output scratch done. -/
def invR (base : Nat) (g : Buf (Elt F) ((V d (cV L) (jV L)).loc cc0_scratch3)) (t : Nat) (_ : PUnit) : sProp 𝕄 :=
  iprop(((Memref.whole cc0_scratch3).view.loc (V d (cV L) (jV L)) ↦{fullShare} g)
    ∗ ∃ h : Buf (Elt F) ((V d (cV L) (jV L)).loc cc0_scratch4), ((Memref.whole cc0_scratch4).view.loc (V d (cV L) (jV L)) ↦{fullShare} h)
      ∗ ⌜∀ k : Fin 1024, k.val < base + 16 * t → h (ValueIdx.ix1 k) = oAt m d L k.val⌝)

/-- The landed windows hold the shared buffer's entries. -/
theorem hgv_of (r : Fin 2) (g : Buf (Elt F) ((V d (cV L) (jV L)).loc cc0_scratch3))
    (hg : ∀ n : Fin 7, ∀ i ∈ seg (N := 3584) (512 * n.val) 512, g i = landedJ (F := F) d L r n (ACC0 m d (cV L)) i) :
    ∀ (n : Fin 7) (j : Nat) (hj : j < 512), g (ValueIdx.ix1 (⟨512 * n.val + j, by have := n.isLt; omega⟩ : Fin 3584))
      = accAt (XT m d) (WH0 m d) 0 (cV L).val n.val (1024 * (L 1).val + 512 * r.val + j) := by
  intro n j hj
  have hn := n.isLt
  rw [hg n _ (by rw [mem_seg]; exact ⟨Nat.le_add_right _ _, by show 512 * n.val + j < 512 * n.val + 512; omega⟩)]
  exact landed_acc_0 m d (cV L) (jV L) (cV L) L r n j hj (inb3 n) _

omit [FloatOps F] in
theorem vec1 (a b : Nat) (h : a = b) : (![a] : Fin 1 → Nat) = ![b] := by rw [h]

end Reduce
end T0

end Cert.Proof.KB

end
-- ==== Proof.KB.Tile0Zero.lean ====
/-
  Lookup 0, the one tile that owns the row no field is left for (SparseCore 1, tile 6): the pieces of its zero phase.
  The tile fills its value scratch with the zero word, sixteen entries a trip for 128 trips, and copies the scratch into
  each of the eight pieces of 2048 of row 6 of its SparseCore's shared buffer. The row's pieces as the task slices them;
  the loop's trip and invariant (the entries below the trip's box are the zero word; a trip extends them by sixteen;
  128 trips fill the scratch); and the value: a piece a copy of zero words landed in holds what the shared buffer holds
  there once every tile has passed the barrier, since 6 + 1 < 7 fails and that row is the zero word throughout.
-/
import proofs.«207420_g80582176408339_cont_9to1c4b_743_56_alg».proof.Proof.KB.Tile0Trip
import Idealize.ShloMosaic.Lib.Affine

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T0
section Zero
variable (d : Dev nD) (L : grid0.Coords)

omit [FloatOps F] in
theorem conds_B : ∀ L : grid0.Coords, ¬ k0_cond1 L = 1#1 → k0_cond2 L = 1#1 → (L 0).val = 1 ∧ (L 1).val = 6 := by decide +kernel

/-- Piece `r` of the zero row of the shared buffer, as the task slices it. -/
abbrev zPiece (h2 : k0_cond2 L = 1#1) (r : Fin 8) : Memref sig .scVector .shared S2048 .f32 :=
  (accM).slice (Rect.unit (s := S114688) (k0_off28 L (BitVec.ofNat 32 (2048 * r.val))) S2048.size (k0_off28_inb L h2 r)) (fun _ => rfl)

omit [FloatOps F] in
theorem set_zPiece (h2 : k0_cond2 L = 1#1) (r : Fin 8) :
    (zPiece L h2 r).view.set = seg (N := 114688) (16384 * (L 1).val + 2048 * r.val) 2048 := by
  refine (View.set_slice_whole cc0_scratch5 _).trans ?_
  rw [unit_set_seg, k0_off28_eq]; rfl

theorem pts_zPiece (h2 : k0_cond2 L = 1#1) (r : Fin 8) (f : Buf (Elt F) (acc0Loc d (cT (cL L)))) :
    ((zPiece L h2 r).view.loc (V d (cV L) (jV L)) ↦[(zPiece L h2 r).view.set]{fullShare} f : sProp 𝕄)
      = (acc0Loc d (cT (cL L)) ↦[seg (N := 114688) (16384 * (L 1).val + 2048 * r.val) 2048]{fullShare} f) := by
  rw [set_zPiece]; rfl

end Zero
end T0

namespace T0
section ZeroLoop
variable (d : Dev nD) (c : Fin τ.nSC) (i : Fin τ.nSub)

open Idealize.ShloMosaic.ValueIdx in
/-- The value scratch's first `16 k` entries are the zero word. -/
def ZeroTo (k : ℕ) (f : Buf (Elt F) ((valM).view.loc (V d c i))) : Prop :=
  ∀ t : Fin 2048, t.val < 16 * k → (show F .f32 from f (ix1 t)) = Scalar.ofBits .f32 0x00000000#32

/-- The zero loop's invariant: the value scratch at some contents whose entries below the trip's box are the zero word. -/
def zInv (k : ℕ) (_ : PUnit) : sProp 𝕄 :=
  iprop(∃ f, ((valM).view.loc (V d c i) ↦{fullShare} f) ∗ ⌜ZeroTo (F := F) d c i k f⌝)

/-- One trip of the zero loop, over the offset of its box: sixteen entries loaded (and not used), sixteen zero words stored. -/
def zTrip (off : Fin 1 → Nat) (inb : ∀ a, off a + S16.size a ≤ S2048.size a) :
    Prog (TpuEff nD τ sig (Elt F) Λ₀ (.scVector c i)) Unit := do
  let v167 : Vec F S16 .f32 ← Prog.lift (.load valM (Rect.unit (s := S2048) off S16.size inb).toLoadRect (View.loadsAt_vmem h_S16))
  Prog.lift (.store valM (Rect.unit (s := S2048) off S16.size inb) (k0_pay2 (F := F)) Finset.univ (View.stores_vmem_bits_univ h_S16 rfl) (.inl rfl))
  pure ⟨⟩

theorem k0_t9_body_eq (L : grid0.Coords) (arg1 : BitVec 32) (h2 : k0_cond2 L = 1#1) (k : Fin k0_t9_loop.trips) (u : Unit) :
    k0_t9_body (F := F) L (Memref.whole main_v0_scv) (Memref.isWhole_whole _) (Memref.whole main_v2_scv) (Memref.isWhole_whole _) (Memref.whole main_v6_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 arg1 h2 k u
      = zTrip (F := F) (cV L) (jV L) (k0_off27 k) (k0_off27_inb L k h2) := rfl

theorem wp_zTrip (off : Fin 1 → Nat) (inb : ∀ a, off a + S16.size a ≤ S2048.size a) (f : Buf (Elt F) ((valM).view.loc (V d c i))) :
    (((valM).view.loc (V d c i) ↦{fullShare} f) : sProp 𝕄)
      ⊢ wp frame (wpE (defs₀ (F := F)) 𝒱₀ (V d c i) none) Set.univ (zTrip (F := F) c i off inb)
          fun _ => ((valM).view.loc (V d c i) ↦{fullShare}
            ((valM).access (Rect.unit (s := S2048) off S16.size inb)).write (Elt F) f (k0_pay2 (F := F)) Finset.univ) := by
  unfold zTrip
  simp only [Prog.lift, Prog.bind_op, Prog.bind_ret, Prog.pure_eq_ret]
  iintro H7
  iapply (wp_load 𝒱₀ (V d c i) none Set.univ (m := valM) (S := Finset.univ) (Finset.subset_univ _)) $$ H7; iintro H7
  iapply (wp_store 𝒱₀ (V d c i) none Set.univ (m := valM) (r := Rect.unit (s := S2048) off S16.size inb) (Mk := Finset.univ) (S := Finset.univ) (Finset.subset_univ _)) $$ H7; iintro H7
  rw [wp_ret]; imodintro
  iexact H7

open Idealize.ShloMosaic.ValueIdx in
/-- A trip at box `16 k` extends the zeros by sixteen. -/
theorem ZeroTo_step (k : ℕ) (off : Fin 1 → Nat) (hoff : off = ![16 * k]) (inb : ∀ a, off a + S16.size a ≤ S2048.size a)
    (f : Buf (Elt F) ((valM).view.loc (V d c i))) (h : ZeroTo (F := F) d c i k f) :
    ZeroTo (F := F) d c i (k + 1) (((valM).access (Rect.unit (s := S2048) off S16.size inb)).write (Elt F) f (k0_pay2 (F := F)) Finset.univ) := by
  subst hoff
  intro t ht
  by_cases hlt : t.val < 16 * k
  · have hn : (ix1 t : S2048.Idx) ∉ ((valM).access (Rect.unit (s := S2048) ![16 * k] S16.size inb)).setOn Finset.univ := by
      rw [View.setOn_univ]
      show (ix1 t : S2048.Idx) ∉ ((View.whole cc0_scratch2).slice (Rect.unit (s := S2048) ![16 * k] S16.size inb)).set
      rw [View.set_slice_whole, unit_set_seg, mem_seg]
      show ¬ (16 * k ≤ t.val ∧ t.val < 16 * k + 16)
      omega
    exact (View.write_of_not_mem _ _ _ hn).trans (h t hlt)
  · have hx : t.val - 16 * k < 16 := by omega
    have he : (ix1 t : S2048.Idx) = ((valM).access (Rect.unit (s := S2048) ![16 * k] S16.size inb)).emb (ix1 (⟨t.val - 16 * k, hx⟩ : Fin 16)) := by
      funext a
      obtain rfl : a = 0 := Subsingleton.elim _ _
      apply Fin.ext
      show t.val = 16 * k + 1 * (t.val - 16 * k)
      omega
    show (show F .f32 from (((valM).access (Rect.unit (s := S2048) ![16 * k] S16.size inb)).write (Elt F) f (k0_pay2 (F := F)) Finset.univ) (ix1 t)) = _
    rw [he, View.write_emb_of_mem _ _ (Finset.mem_univ _)]
    rfl

end ZeroLoop
end T0

namespace T0
section ZeroValue
variable (d : Dev nD) (L : grid0.Coords)

omit [FloatOps F] in
/-- The zero loop makes 128 trips: the whole value scratch. -/
theorem trips_t9 : Scf.trips k0_t9_loop.lb k0_t9_loop.ub k0_t9_loop.st = 128 := by
  have h0 : Affine.IsInt (0#32 : BitVec 32) (0) := Affine.ofNat _ (by omega)
  have h128 : Affine.IsInt (128#32 : BitVec 32) (128) := Affine.ofNat _ (by omega)
  have hub : Affine.IsInt (Scalar.addi (0#32 : BitVec 32) 128#32) (128) := Affine.addi h0 h128 (by omega)
  have h1 : Affine.IsInt (1#32 : BitVec 32) (1) := Affine.ofNat _ (by omega)
  unfold Affine.IsInt at h0 hub h1
  show ((k0_t9_loop.ub.toInt - k0_t9_loop.lb.toInt + k0_t9_loop.st.toInt - 1) / k0_t9_loop.st.toInt).toNat = 128
  rw [show k0_t9_loop.ub.toInt = 128 from hub, show k0_t9_loop.lb.toInt = 0 from h0, show k0_t9_loop.st.toInt = 1 from h1]
  omega

set_option maxRecDepth 65536 in
/-- A piece of the zero row after a copy of zero words landed in it holds what the shared buffer holds there once the
    tiles have passed the barrier: row 6 of SparseCore 1 is the row no field is left for, the zero word throughout. -/
theorem piece_zero (h2 : k0_cond2 L = 1#1) (r : Fin 8) (frow : Buf (Elt F) (acc0Loc d (cT (cL L)))) (P : S2048.Idx → Elt F .f32)
    (hP : ∀ x, P x = Scalar.ofBits .f32 0x00000000#32) (hc1 : (L 0).val = 1) (hs6 : (L 1).val = 6) :
    ((zPiece L h2 r).view.loc (V d (cV L) (jV L)) ↦[(zPiece L h2 r).view.set]{fullShare}
        (zPiece L h2 r).view.writes (Elt F) frow [⟨Rect.whole S2048, P⟩] : sProp 𝕄)
      = (acc0Loc d (cT (cL L)) ↦[seg (N := 114688) (16384 * (L 1).val + 2048 * r.val) 2048]{fullShare} ACC0 m d (cT (cL L))) := by
  rw [← pts_zPiece (F := F) d L h2 r (ACC0 m d (cT (cL L)))]
  apply pointsTo_congr
  intro i hi
  obtain ⟨y, -, rfl⟩ := Finset.mem_map.mp hi
  have hl : (zPiece L h2 r).view.writes (Elt F) frow [⟨Rect.whole S2048, P⟩] ((zPiece L h2 r).view.emb y) = P y := by
    have he : (zPiece L h2 r).view.emb y = ((zPiece L h2 r).view.slice (Rect.whole S2048)).emb y := by
      show _ = (zPiece L h2 r).view.emb ((Rect.whole S2048).emb y)
      rw [Rect.emb_whole_apply]
    rw [View.writes_singleton, he, View.write_emb_of_mem _ _ (Finset.mem_univ _)]
    rfl
  rw [hl, hP]
  have hoff : (k0_off28 L (BitVec.ofNat 32 (2048 * r.val))) 0 = 16384 * (L 1).val + 2048 * r.val := congrFun (k0_off28_eq L r) 0
  have hv : (((zPiece L h2 r).view.emb y) 0).val = (k0_off28 L (BitVec.ofNat 32 (2048 * r.val))) 0 + 1 * (y 0).val := rfl
  have hy : (y 0).val < 2048 := (y 0).isLt
  have hr := r.isLt
  have hq : (((zPiece L h2 r).view.emb y) 0).val / 16384 = 6 := by rw [hv, hoff]; omega
  have hcc : (cT (cL L)).val = 1 := hc1
  show _ = accAt (XT m d) (WH0 m d) 0 (cT (cL L)).val ((((zPiece L h2 r).view.emb y) 0).val / 16384) ((((zPiece L h2 r).view.emb y) 0).val % 16384)
  unfold accAt
  rw [hq, hcc, if_neg (by decide)]

end ZeroValue
end T0

end Cert.Proof.KB

end
-- ==== Proof.KB.Tile0.lean ====
/-
  Lookup 0's task obligation: one tile's task of the first SparseCore call, at a symbolic tile.

  A tile (c, s) is of one of three kinds. If s + c < 7 it owns field 7c + s: it copies the field's 100000 table entries
  into its table scratch and, 2048 batch rows at a time through the two slots of its index scratch (one copy in flight
  while the other slot is read), looks every index up — the indices are entries of the field's index row, so below
  100000 — and copies the 2048 entries into its row of its SparseCore's shared buffer: after the eight chunks the row
  holds the looked-up entries. If c = 1 and s = 6 it fills its row with the zero word. Otherwise it owns no row. The
  three kinds meet at the barrier: a row owner hands every tile its column block of its row (the row is exactly the
  sixteen payloads of its duties), the others hand over nothing; every tile receives its own column block of each of
  the seven rows at the looked-up values. It then twice copies seven half blocks into its reduce scratch — seven copies
  on one semaphore, all started, all waited for, then read —, adds the seven rows sixteen lanes at a time, and writes
  its 1024 sums into the lookup's result: SparseCore c's partial sums for batch rows 1024 s … 1024 s + 1023. What it
  hands back is its read shares, those 1024 entries at the partial sums, its seven column blocks, and its standing on
  its own barrier cell for the next lookup.
-/
import proofs.«207420_g80582176408339_cont_9to1c4b_743_56_alg».proof.Proof.KB.Tile0Reduce
import proofs.«207420_g80582176408339_cont_9to1c4b_743_56_alg».proof.Proof.KB.Tile0Zero

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T0
section Post
variable (d : Dev nD) (L : grid0.Coords)

/-- The same, towards the form in which the task's own buffers and semaphores stand one by one. -/
theorem post_intro' (hF : (K (F := F)).Facts) (O : CellTallies nD τ sig (HIx 2)) (W W' : Waits sig (HIx 2))
    (hW' : ∀ p ∈ W', p ∈ W ∨ p.2 = none ∨ p.2 = some (0 : Fin 2)) :
    (iprop((xtLoc d ↦{shT (cL L) (jL L)} XT m d) ∗ (w0Loc d ↦{shT (cL L) (jL L)} WH0 m d)
        ∗ (p0Loc d ↦[seg (N := 32768) (16384 * (cL L).val + 1024 * (jL L).val) 1024]{fullShare} PT0 m d)
        ∗ ((∃ f, acc0Loc d (cV L) ↦[seg (N := 114688) (16384 * 0 + 1024 * (jV L).val) 1024]{fullShare} f)
            ∗ (∃ f, acc0Loc d (cV L) ↦[seg (N := 114688) (16384 * 1 + 1024 * (jV L).val) 1024]{fullShare} f)
            ∗ (∃ f, acc0Loc d (cV L) ↦[seg (N := 114688) (16384 * 2 + 1024 * (jV L).val) 1024]{fullShare} f)
            ∗ (∃ f, acc0Loc d (cV L) ↦[seg (N := 114688) (16384 * 3 + 1024 * (jV L).val) 1024]{fullShare} f)
            ∗ (∃ f, acc0Loc d (cV L) ↦[seg (N := 114688) (16384 * 4 + 1024 * (jV L).val) 1024]{fullShare} f)
            ∗ (∃ f, acc0Loc d (cV L) ↦[seg (N := 114688) (16384 * 5 + 1024 * (jV L).val) 1024]{fullShare} f)
            ∗ (∃ f, acc0Loc d (cV L) ↦[seg (N := 114688) (16384 * 6 + 1024 * (jV L).val) 1024]{fullShare} f))
        ∗ atPos EB (bcell d (cV L) (jV L)) (0 + 1) ∅ 0 ∗ reached EB (bcell d (cV L) (jV L)) (0 + 1)
        ∗ ((∃ f, (V d (cV L) (jV L)).loc cc0_scratch0 ↦{fullShare} f)
            ∗ (∃ f, (V d (cV L) (jV L)).loc cc0_scratch1 ↦{fullShare} f)
            ∗ (∃ f, (V d (cV L) (jV L)).loc cc0_scratch2 ↦{fullShare} f)
            ∗ (∃ f, (V d (cV L) (jV L)).loc cc0_scratch3 ↦{fullShare} f)
            ∗ (∃ f, (V d (cV L) (jV L)).loc cc0_scratch4 ↦{fullShare} f))
        ∗ (bigSep (ownRefs (τ := τ) (.scVector (cV L) (jV L)) \ (bufCells (cV L) (jV L)).toFinset) fun b => iprop(∃ f, ((d, b) : Loc nD τ sig) ↦{fullShare} f))
        ∗ (semVal ((V d (cV L) (jV L), SemLoc.dma cc0_scratch6.sem) : GSem nD τ sig) 0
            ∗ semVal ((V d (cV L) (jV L), SemLoc.dma cc0_scratch7.sem) : GSem nD τ sig) 0
            ∗ semVal ((V d (cV L) (jV L), SemLoc.dma cc0_scratch8.sem) : GSem nD τ sig) 0
            ∗ semVal ((V d (cV L) (jV L), SemLoc.dma cc0_scratch9.sem) : GSem nD τ sig) 0
            ∗ semVal ((V d (cV L) (jV L), SemLoc.dma cc0_scoped0.sem) : GSem nD τ sig) 0
            ∗ semVal ((V d (cV L) (jV L), SemLoc.dma cc0_scoped1.sem) : GSem nD τ sig) 0
            ∗ semVal ((V d (cV L) (jV L), SemLoc.dma cc0_scoped2.sem) : GSem nD τ sig) 0
            ∗ semVal ((V d (cV L) (jV L), SemLoc.dma cc0_scoped3.sem) : GSem nD τ sig) 0
            ∗ semVal ((V d (cV L) (jV L), SemLoc.dma cc0_scoped4.sem) : GSem nD τ sig) 0
            ∗ semVal ((V d (cV L) (jV L), SemLoc.dma cc0_scoped5.sem) : GSem nD τ sig) 0
            ∗ semVal ((V d (cV L) (jV L), SemLoc.dma cc0_scoped6.sem) : GSem nD τ sig) 0
            ∗ semVal ((V d (cV L) (jV L), SemLoc.dma cc0_scoped7.sem) : GSem nD τ sig) 0
            ∗ semVal ((V d (cV L) (jV L), SemLoc.dma cc0_scoped8.sem) : GSem nD τ sig) 0
            ∗ semVal ((V d (cV L) (jV L), SemLoc.dma cc0_scoped9.sem) : GSem nD τ sig) 0
            ∗ semVal ((V d (cV L) (jV L), SemLoc.dma cc0_scoped10.sem) : GSem nD τ sig) 0
            ∗ semVal ((V d (cV L) (jV L), SemLoc.dma cc0_scoped11.sem) : GSem nD τ sig) 0
            ∗ semVal ((V d (cV L) (jV L), SemLoc.dma cc0_scoped12.sem) : GSem nD τ sig) 0
            ∗ semVal ((V d (cV L) (jV L), SemLoc.dma cc0_scoped13.sem) : GSem nD τ sig) 0
            ∗ semVal ((V d (cV L) (jV L), SemLoc.dma cc0_scoped14.sem) : GSem nD τ sig) 0
            ∗ semVal ((V d (cV L) (jV L), SemLoc.dma cc0_scoped15.sem) : GSem nD τ sig) 0
            ∗ semVal ((V d (cV L) (jV L), SemLoc.dma cc0_scoped16.sem) : GSem nD τ sig) 0)
        ∗ (bigSep (ownCells (V d (cV L) (jV L)) \ (semCells (V d (cV L) (jV L))).toFinset) fun g => semVal g 0)
        ∗ owes (V d (cV L) (jV L)) O W') : sProp 𝕄)
      ⊢ iprop(td0 m d (cL L) (jL L)
          ∗ (((∃ f, (V d (cV L) (jV L)).loc cc0_scratch0 ↦{fullShare} f)
            ∗ (∃ f, (V d (cV L) (jV L)).loc cc0_scratch1 ↦{fullShare} f)
            ∗ (∃ f, (V d (cV L) (jV L)).loc cc0_scratch2 ↦{fullShare} f)
            ∗ (∃ f, (V d (cV L) (jV L)).loc cc0_scratch3 ↦{fullShare} f)
            ∗ (∃ f, (V d (cV L) (jV L)).loc cc0_scratch4 ↦{fullShare} f))
              ∗ bigSep (ownRefs (τ := τ) (.scVector (cV L) (jV L)) \ (bufCells (cV L) (jV L)).toFinset) fun b => iprop(∃ f, ((d, b) : Loc nD τ sig) ↦{fullShare} f))
          ∗ ((semVal ((V d (cV L) (jV L), SemLoc.dma cc0_scratch6.sem) : GSem nD τ sig) 0
            ∗ semVal ((V d (cV L) (jV L), SemLoc.dma cc0_scratch7.sem) : GSem nD τ sig) 0
            ∗ semVal ((V d (cV L) (jV L), SemLoc.dma cc0_scratch8.sem) : GSem nD τ sig) 0
            ∗ semVal ((V d (cV L) (jV L), SemLoc.dma cc0_scratch9.sem) : GSem nD τ sig) 0
            ∗ semVal ((V d (cV L) (jV L), SemLoc.dma cc0_scoped0.sem) : GSem nD τ sig) 0
            ∗ semVal ((V d (cV L) (jV L), SemLoc.dma cc0_scoped1.sem) : GSem nD τ sig) 0
            ∗ semVal ((V d (cV L) (jV L), SemLoc.dma cc0_scoped2.sem) : GSem nD τ sig) 0
            ∗ semVal ((V d (cV L) (jV L), SemLoc.dma cc0_scoped3.sem) : GSem nD τ sig) 0
            ∗ semVal ((V d (cV L) (jV L), SemLoc.dma cc0_scoped4.sem) : GSem nD τ sig) 0
            ∗ semVal ((V d (cV L) (jV L), SemLoc.dma cc0_scoped5.sem) : GSem nD τ sig) 0
            ∗ semVal ((V d (cV L) (jV L), SemLoc.dma cc0_scoped6.sem) : GSem nD τ sig) 0
            ∗ semVal ((V d (cV L) (jV L), SemLoc.dma cc0_scoped7.sem) : GSem nD τ sig) 0
            ∗ semVal ((V d (cV L) (jV L), SemLoc.dma cc0_scoped8.sem) : GSem nD τ sig) 0
            ∗ semVal ((V d (cV L) (jV L), SemLoc.dma cc0_scoped9.sem) : GSem nD τ sig) 0
            ∗ semVal ((V d (cV L) (jV L), SemLoc.dma cc0_scoped10.sem) : GSem nD τ sig) 0
            ∗ semVal ((V d (cV L) (jV L), SemLoc.dma cc0_scoped11.sem) : GSem nD τ sig) 0
            ∗ semVal ((V d (cV L) (jV L), SemLoc.dma cc0_scoped12.sem) : GSem nD τ sig) 0
            ∗ semVal ((V d (cV L) (jV L), SemLoc.dma cc0_scoped13.sem) : GSem nD τ sig) 0
            ∗ semVal ((V d (cV L) (jV L), SemLoc.dma cc0_scoped14.sem) : GSem nD τ sig) 0
            ∗ semVal ((V d (cV L) (jV L), SemLoc.dma cc0_scoped15.sem) : GSem nD τ sig) 0
            ∗ semVal ((V d (cV L) (jV L), SemLoc.dma cc0_scoped16.sem) : GSem nD τ sig) 0)
              ∗ bigSep (ownCells (V d (cV L) (jV L)) \ (semCells (V d (cV L) (jV L))).toFinset) fun g => semVal g 0)
          ∗ ∃ W', ⌜∀ p ∈ W', p ∈ W ∨ p.2 = none ∨ p.2 = some (0 : Fin 2)⌝ ∗ owes (V d (cV L) (jV L)) O W') := by
  unfold td0 bpos
  rw [bigSep_univ_eq_bigSepL [0, 1, 2, 3, 4, 5, 6] (by decide) (by decide),
    show bigSepL [0, 1, 2, 3, 4, 5, 6] (fun n : Fin 7 => iprop(∃ f, acc0Loc d (cT (cL L)) ↦[seg (N := 114688) (16384 * n.val + 1024 * (jL L).val) 1024]{fullShare} f))
      = (iprop((∃ f, acc0Loc d (cT (cL L)) ↦[seg (N := 114688) (16384 * (0 : Fin 7).val + 1024 * (jL L).val) 1024]{fullShare} f) ∗ (∃ f, acc0Loc d (cT (cL L)) ↦[seg (N := 114688) (16384 * (1 : Fin 7).val + 1024 * (jL L).val) 1024]{fullShare} f) ∗ (∃ f, acc0Loc d (cT (cL L)) ↦[seg (N := 114688) (16384 * (2 : Fin 7).val + 1024 * (jL L).val) 1024]{fullShare} f) ∗ (∃ f, acc0Loc d (cT (cL L)) ↦[seg (N := 114688) (16384 * (3 : Fin 7).val + 1024 * (jL L).val) 1024]{fullShare} f) ∗ (∃ f, acc0Loc d (cT (cL L)) ↦[seg (N := 114688) (16384 * (4 : Fin 7).val + 1024 * (jL L).val) 1024]{fullShare} f) ∗ (∃ f, acc0Loc d (cT (cL L)) ↦[seg (N := 114688) (16384 * (5 : Fin 7).val + 1024 * (jL L).val) 1024]{fullShare} f) ∗ (∃ f, acc0Loc d (cT (cL L)) ↦[seg (N := 114688) (16384 * (6 : Fin 7).val + 1024 * (jL L).val) 1024]{fullShare} f)) : sProp 𝕄) from rfl]
  iintro ⟨Hxt, Hwh, Hp0, ⟨G0, G1, G2, G3, G4, G5, G6⟩, Hat, Hrch1, ⟨B0, B1, B2, B3, B4⟩, Hbufs,
    ⟨Hs6, Hs7, Hs8, Hs9, Hc0, Hc1, Hc2, Hc3, Hc4, Hc5, Hc6, Hc7, Hc8, Hc9, Hc10, Hc11, Hc12, Hc13, Hc14, Hc15, Hc16⟩, Hsems, HO⟩
  isplitl [Hxt Hwh Hp0 G0 G1 G2 G3 G4 G5 G6 Hat Hrch1]
  · isplitl [Hxt]; · iexact Hxt
    isplitl [Hwh]; · iexact Hwh
    isplitl [Hp0]; · iexact Hp0
    isplitl [G0 G1 G2 G3 G4 G5 G6]
    · isplitl [G0]; · iexact G0
      isplitl [G1]; · iexact G1
      isplitl [G2]; · iexact G2
      isplitl [G3]; · iexact G3
      isplitl [G4]; · iexact G4
      isplitl [G5]; · iexact G5
      iexact G6
    isplitl [Hat]; · iexact Hat
    iexact Hrch1
  isplitl [B0 B1 B2 B3 B4 Hbufs]
  · isplitl [B0 B1 B2 B3 B4]
    · isplitl [B0]; · iexact B0
      isplitl [B1]; · iexact B1
      isplitl [B2]; · iexact B2
      isplitl [B3]; · iexact B3
      iexact B4
    iexact Hbufs
  isplitl [Hs6 Hs7 Hs8 Hs9 Hc0 Hc1 Hc2 Hc3 Hc4 Hc5 Hc6 Hc7 Hc8 Hc9 Hc10 Hc11 Hc12 Hc13 Hc14 Hc15 Hc16 Hsems]
  · isplitl [Hs6 Hs7 Hs8 Hs9 Hc0 Hc1 Hc2 Hc3 Hc4 Hc5 Hc6 Hc7 Hc8 Hc9 Hc10 Hc11 Hc12 Hc13 Hc14 Hc15 Hc16]
    · isplitl [Hs6]; · iexact Hs6
      isplitl [Hs7]; · iexact Hs7
      isplitl [Hs8]; · iexact Hs8
      isplitl [Hs9]; · iexact Hs9
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      iexact Hc16
    iexact Hsems
  iexists W'; isplitr
  · ipureintro; exact hW'
  · iexact HO

end Post
end T0

namespace T0

omit [FloatOps F] in
/-- The recorded waits as a variable. -/
theorem gen_waits (thr : Thread nD τ) (X : CellTallies nD τ sig (HIx 2)) (W₀ : Waits sig (HIx 2)) :
    owes thr X W₀ ⊢ (iprop(∃ W₁, ⌜W₁ = W₀⌝ ∗ owes thr X W₁) : sProp 𝕄) := by
  iintro H; iexists W₀; isplitr
  · ipureintro; rfl
  · iexact H

omit [FloatOps F] in
theorem conds_C : ∀ L : grid0.Coords, ¬ k0_cond1 L = 1#1 → ¬ k0_cond2 L = 1#1 → 7 ≤ (L 1).val := by decide +kernel

section Tile
variable (d : Dev nD) (L : grid0.Coords)

abbrev prog0 (L : grid0.Coords) : Prog (TpuEff nD τ sig (Elt F) Λ₀ (.scVector ((L 0).castLE hcore0) ((L 1).castLE hsub0))) PUnit :=
  cc0_sc_fields_0 L (Memref.whole main_v0_scv) (Memref.isWhole_whole _) (Memref.whole main_v2_scv) (Memref.isWhole_whole _) (Memref.whole main_v6_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16

set_option maxHeartbeats 4000000 in
theorem tile_body_C (h1 : ¬ k0_cond1 L = 1#1) (h2 : ¬ k0_cond2 L = 1#1) (hx : InRange m) (hF : (K (F := F)).Facts) (O : CellTallies nD τ sig (HIx 2)) (W : Waits sig (HIx 2)) (hO : ∀ g, O g none = 0)
    (hOlev : ∀ g ι, 0 < O g ι → 8 * (0 : Fin 2).val + 6 ≤ (K (F := F)).lev g ι) :
    iprop(levAts (K (F := F)).L (K (F := F)).lev ∗ bkit m 0 d (cV L) (jV L) ∗ go0 m d (cL L) (jL L)
        ∗ scopedBufs (V d (cV L) (jV L)) ∗ scopedSems0 (V d (cV L) (jV L)) ∗ owes (V d (cV L) (jV L)) (O + oxV 0 d (cV L)) W)
      ⊢ wp frame (wpE (defs₀ (F := F)) 𝒱₀ (V d (cV L) (jV L)) none) Set.univ (prog0 (F := F) L)
          fun _ => iprop(td0 m d (cL L) (jL L) ∗ scopedBufs (V d (cV L) (jV L)) ∗ scopedSems0 (V d (cV L) (jV L))
            ∗ ∃ W', ⌜∀ p ∈ W', p ∈ W ∨ p.2 = none ∨ p.2 = some (0 : Fin 2)⌝ ∗ owes (V d (cV L) (jV L)) O W') := by
  have hs : 7 ≤ (L 1).val := conds_C L h1 h2
  unfold prog0
  simp only [cc0_sc_fields_0_eq_skeleton]; unfold cc0_sc_fields_0_skel
  rw [(K (F := F)).scopedBufs_V hF d (cV L) (jV L), SparseCore.Cfg.scopedSems0_V (Val := Elt F) d (cV L) (jV L), ownSems0_V, ownBufs_V]
  unfold bkit go0
  rw [if_pos (show (0 : Fin 2).val = 0 from rfl), if_neg (show ¬ (jL L).val < 7 from by show ¬ (L 1).val < 7; omega)]
  iintro ⟨#Hlv, ⟨⟨%κ, #Hinv⟩, Htoks, Hcred, #Hrch, Hat⟩, ⟨Hxt, Hwh, Hp0, -⟩,
    ⟨⟨⟨%f0, Hb0⟩, ⟨%f1, Hb1⟩, ⟨%f2, Hb2⟩, ⟨%f3, Hb3⟩, ⟨%f4, Hb4⟩⟩, Hbufs⟩,
    ⟨⟨Hs6, Hs7, Hs8, Hs9, Hc0, Hc1, Hc2, Hc3, Hc4, Hc5, Hc6, Hc7, Hc8, Hc9, Hc10, Hc11, Hc12, Hc13, Hc14, Hc15, Hc16⟩, Hsems⟩, HO⟩
  have hO' : ∀ g, (O + oxV 0 d (cV L)) g none = 0 := fun g => by rw [Pi.add_apply, Finsupp.add_apply, hO g, oxV_none]
  ihave Hmw1 := (show levAts (K (F := F)).L (K (F := F)).lev ⊢ Transfers.MayWaits (V d (cV L) (jV L)) (default : HIx 2) (O + oxV 0 d (cV L)) from
    (K (F := F)).mayWaits_none (thr := V d (cV L) (jV L)) hO') $$ Hlv
  ihave Hmw2 := (show levAts (K (F := F)).L (K (F := F)).lev ⊢ Transfers.MayWaits (V d (cV L) (jV L)) (default : HIx 2) O from
    (K (F := F)).mayWaits_none (thr := V d (cV L) (jV L)) hO) $$ Hlv
  sl_exec
  ihave Hpay := (show (iprop(emp) : sProp 𝕄) ⊢ _ from Entails.of_eq (pays_none (F := F) m d (cV L) (jV L).val hs).symm) $$ []
  · iempintro
  -- the waits recorded so far: all at index none
  ihave HOg := (gen_waits (F := F) _ _ _) $$ HO
  icases HOg with ⟨%W₁, %hW₁e, HO⟩
  have hW₁ : ∀ p ∈ W₁, p ∈ W ∨ p.2 = none := by
    subst hW₁e; intro p hp
    repeat (first | exact .inl hp | (rcases Finset.mem_insert.mp hp with e | hp; · exact .inr (by rw [e]; rfl)))
  clear hW₁e
  -- the barrier: the sixteen payloads handed over; its own round's seven column blocks received
  iapply (SparseCore.wp_subcoreBarrier 𝒱₀ none EB (bRd (F := F) m) d (sc := cV L) (i := jV L) sc_bar0 (grid0.bound 1) hsub0 (L 1) rfl κ (fun _ => 0) (jV L).val
      (fun j => bRd_mem m d _ _ _ (by decide)) (fun _ => rfl) (bRd_expect m d _ _ (by decide)) (some 0) O _) $$ [HO Htoks Hpay Hcred Hat]
  · isplitr; · iexact Hinv
    isplitl [HO]; · iexact HO
    isplitl [Htoks Hpay]
    · rw [bigSep_sep', bigSep_sep']
      isplitl [Htoks]; · iexact Htoks
      isplitl [Hpay]; · iexact Hpay
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, Hrch1, Hgot⟩
  ihave Hcols := (pays_got m d (cV L) (jV L)) $$ Hgot
  icases Hcols with ⟨Hq0, Hq1, Hq2, Hq3, Hq4, Hq5, Hq6⟩
  -- each column block in two halves, the reduce scratch in seven windows, as the copies name them
  have l0 : 0 < 7 := by decide
  have l1 : 1 < 7 := by decide
  have l2 : 2 < 7 := by decide
  have l3 : 3 < 7 := by decide
  have l4 : 4 < 7 := by decide
  have l5 : 5 < 7 := by decide
  have l6 : 6 < 7 := by decide
  ihave Hh0 := (Entails.of_eq (acc_halves (F := F) d L 0 l0 _)) $$ Hq0
  icases Hh0 with ⟨Ha0, Hz0⟩
  ihave Hh1 := (Entails.of_eq (acc_halves (F := F) d L 1 l1 _)) $$ Hq1
  icases Hh1 with ⟨Ha1, Hz1⟩
  ihave Hh2 := (Entails.of_eq (acc_halves (F := F) d L 2 l2 _)) $$ Hq2
  icases Hh2 with ⟨Ha2, Hz2⟩
  ihave Hh3 := (Entails.of_eq (acc_halves (F := F) d L 3 l3 _)) $$ Hq3
  icases Hh3 with ⟨Ha3, Hz3⟩
  ihave Hh4 := (Entails.of_eq (acc_halves (F := F) d L 4 l4 _)) $$ Hq4
  icases Hh4 with ⟨Ha4, Hz4⟩
  ihave Hh5 := (Entails.of_eq (acc_halves (F := F) d L 5 l5 _)) $$ Hq5
  icases Hh5 with ⟨Ha5, Hz5⟩
  ihave Hh6 := (Entails.of_eq (acc_halves (F := F) d L 6 l6 _)) $$ Hq6
  icases Hh6 with ⟨Ha6, Hz6⟩
  ihave Hw := (Entails.of_eq (scr3_windows (F := F) d L f3)) $$ Hb3
  icases Hw with ⟨Hd0, Hd1, Hd2, Hd3, Hd4, Hd5, Hd6⟩
  haveI hst0 : ∀ t : Fin 7, BI.Storable (upEmb : UEmb _ 𝕄) (deliv (F := F) d L 0 (fun _ => ACC0 m d (cV L)) (fun _ => f3) t) :=
    fun t => deliv_storable (F := F) d L 0 _ _ t
  imod (Transfers.batch_alloc' (Lvl := ℕ) countersEmb (V d (cV L) (jV L)) (default : HIx 2) NW (deliv (F := F) d L 0 (fun _ => ACC0 m d (cV L)) (fun _ => f3))
    (sm := .dma cc0_scratch6.sem) (E := Set.univ)) $$ Hs6 with HB
  sl_exec
  -- the seven windows landed: the reduce scratch whole again, at one function
  ihave Hg := (windows_join (F := F) d L (fun n => landedJ (F := F) d L 0 n (ACC0 m d (cV L))) ) $$ [HB_dst0 HB_dst1 HB_dst2 HB_dst3 HB_dst4 HB_dst5 HB_dst6]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    iexact HB_dst6
  icases Hg with ⟨%g, %hg, Hg⟩
  ihave Hb4' := (Entails.of_eq (show ((V d (cV L) (jV L)).loc cc0_scratch4 ↦{fullShare} f4 : sProp 𝕄) = ((Memref.whole cc0_scratch4).view.loc (V d (cV L) (jV L)) ↦{fullShare} f4) from rfl)) $$ Hb4
  sl_for (invR (F := F) m d L 0 g) $$ [Hg Hb4']
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g (ValueIdx.ix1 (⟨512 * n.val + j, by have := n.isLt; omega⟩ : Fin 3584))
        = accAt (XT m d) (WH0 m d) 0 (cV L).val n.val (1024 * (L 1).val + 0 + j) := fun n j hj => hgv_of (F := F) m d L 0 g hg n j hj
    exact step_gen_0 d (cV L) (jV L) (XT m d) (WH0 m d) 0 (cV L).val (L 1).val 0 k.val hkt (by omega) k0_pay3
      (fun v0 v1 v2 v3 v4 v5 v6 l b h0 h1 h2 h3 h4 h5 h6 => pay3_partAt_k0 (XT m d) (WH0 m d) 0 (cV L).val b v0 v1 v2 v3 v4 v5 v6 l h0 h1 h2 h3 h4 h5 h6)
      g h _ _ ((Gen.k0_off32_eq k).trans (vec1 _ _ (by omega)))
      _ _ ((Gen.k0_off30_eq k).trans (vec1 _ _ (by omega)))
      _ _ ((Gen.k0_off31_eq k ⟨0, by decide⟩).trans (vec1 _ _ (by show 512 * 0 + 16 * k.val + 512 = 512 * 1 + 16 * k.val; omega)))
      _ _ ((Gen.k0_off31_eq k ⟨1, by decide⟩).trans (vec1 _ _ (by show 512 * 1 + 16 * k.val + 512 = 512 * 2 + 16 * k.val; omega)))
      _ _ ((Gen.k0_off31_eq k ⟨2, by decide⟩).trans (vec1 _ _ (by show 512 * 2 + 16 * k.val + 512 = 512 * 3 + 16 * k.val; omega)))
      _ _ ((Gen.k0_off31_eq k ⟨3, by decide⟩).trans (vec1 _ _ (by show 512 * 3 + 16 * k.val + 512 = 512 * 4 + 16 * k.val; omega)))
      _ _ ((Gen.k0_off31_eq k ⟨4, by decide⟩).trans (vec1 _ _ (by show 512 * 4 + 16 * k.val + 512 = 512 * 5 + 16 * k.val; omega)))
      _ _ ((Gen.k0_off31_eq k ⟨5, by decide⟩).trans (vec1 _ _ (by show 512 * 5 + 16 * k.val + 512 = 512 * 6 + 16 * k.val; omega)))
      hgv' hh
  · unfold invR
    isplitl [Hg]; · iexact Hg
    iexists f4
    isplitl [Hb4']; · iexact Hb4'
    ipureintro; intro k hk; exact absurd hk (by omega)
  iintro %_ HI
  unfold invR
  icases HI with ⟨Hg, ⟨%h1, Hh, %hh1⟩⟩
  -- the second batch: the other halves into the same seven windows
  ihave Hg' := (Entails.of_eq (show ((Memref.whole cc0_scratch3).view.loc (V d (cV L) (jV L)) ↦{fullShare} g : sProp 𝕄) = ((V d (cV L) (jV L)).loc cc0_scratch3 ↦{fullShare} g) from rfl)) $$ Hg
  ihave Hw2 := (Entails.of_eq (scr3_windows (F := F) d L g)) $$ Hg'
  icases Hw2 with ⟨He0, He1, He2, He3, He4, He5, He6⟩
  ihave HB' := (show (semVal ((V d (cV L) (jV L), SemLoc.dma cc0_scratch6.sem) : GSem nD τ sig) 0 : sProp 𝕄) ⊢ semVal ((V d (cV L) (jV L), SemLoc.dma cc0_scratch6.sem) : GSem nD τ sig) 0 from BI.Entails.refl _) $$ [HB]
  · iexact HB
  haveI hst1 : ∀ t : Fin 7, BI.Storable (upEmb : UEmb _ 𝕄) (deliv (F := F) d L 1 (fun _ => ACC0 m d (cV L)) (fun _ => g) t) :=
    fun t => deliv_storable (F := F) d L 1 _ _ t
  imod (Transfers.batch_alloc' (Lvl := ℕ) countersEmb (V d (cV L) (jV L)) (default : HIx 2) NW (deliv (F := F) d L 1 (fun _ => ACC0 m d (cV L)) (fun _ => g))
    (sm := .dma cc0_scratch6.sem) (E := Set.univ)) $$ HB' with HC
  sl_exec
  ihave Hg2J := (windows_join (F := F) d L (fun n => landedJ (F := F) d L 1 n (ACC0 m d (cV L)))) $$ [HC_dst0 HC_dst1 HC_dst2 HC_dst3 HC_dst4 HC_dst5 HC_dst6]
  · isplitl [HC_dst0]; · iexact HC_dst0
    isplitl [HC_dst1]; · iexact HC_dst1
    isplitl [HC_dst2]; · iexact HC_dst2
    isplitl [HC_dst3]; · iexact HC_dst3
    isplitl [HC_dst4]; · iexact HC_dst4
    isplitl [HC_dst5]; · iexact HC_dst5
    iexact HC_dst6
  icases Hg2J with ⟨%g2, %hg2, Hg2⟩
  sl_for (invR (F := F) m d L 512 g2) $$ [Hg2 Hh]
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g2 (ValueIdx.ix1 (⟨512 * n.val + j, by have := n.isLt; omega⟩ : Fin 3584))
        = accAt (XT m d) (WH0 m d) 0 (cV L).val n.val (1024 * (L 1).val + 512 + j) := fun n j hj => hgv_of (F := F) m d L 1 g2 hg2 n j hj
    exact step_gen_0 d (cV L) (jV L) (XT m d) (WH0 m d) 0 (cV L).val (L 1).val 512 k.val hkt (by omega) k0_pay1
      (fun v0 v1 v2 v3 v4 v5 v6 l b h0 h1 h2 h3 h4 h5 h6 => pay1_partAt_k0 (XT m d) (WH0 m d) 0 (cV L).val b v0 v1 v2 v3 v4 v5 v6 l h0 h1 h2 h3 h4 h5 h6)
      g2 h _ _ ((Gen.k0_off35_eq k).trans (vec1 _ _ (by omega)))
      _ _ ((Gen.k0_off33_eq k).trans (vec1 _ _ (by omega)))
      _ _ ((Gen.k0_off34_eq k ⟨0, by decide⟩).trans (vec1 _ _ (by show 512 * 0 + 16 * k.val + 512 = 512 * 1 + 16 * k.val; omega)))
      _ _ ((Gen.k0_off34_eq k ⟨1, by decide⟩).trans (vec1 _ _ (by show 512 * 1 + 16 * k.val + 512 = 512 * 2 + 16 * k.val; omega)))
      _ _ ((Gen.k0_off34_eq k ⟨2, by decide⟩).trans (vec1 _ _ (by show 512 * 2 + 16 * k.val + 512 = 512 * 3 + 16 * k.val; omega)))
      _ _ ((Gen.k0_off34_eq k ⟨3, by decide⟩).trans (vec1 _ _ (by show 512 * 3 + 16 * k.val + 512 = 512 * 4 + 16 * k.val; omega)))
      _ _ ((Gen.k0_off34_eq k ⟨4, by decide⟩).trans (vec1 _ _ (by show 512 * 4 + 16 * k.val + 512 = 512 * 5 + 16 * k.val; omega)))
      _ _ ((Gen.k0_off34_eq k ⟨5, by decide⟩).trans (vec1 _ _ (by show 512 * 5 + 16 * k.val + 512 = 512 * 6 + 16 * k.val; omega)))
      hgv' hh
  · unfold invR
    isplitl [Hg2]; · iexact Hg2
    iexists h1
    isplitl [Hh]; · iexact Hh
    ipureintro; intro k hk; exact hh1 k (by show k.val < 0 + 16 * 32; omega)
  iintro %_ HI2
  unfold invR
  icases HI2 with ⟨Hg2, ⟨%h2, Hh, %hh2⟩⟩
  -- the write-out: the output scratch into the tile's 1024 entries of the result
  ihave Hp0' := (Entails.of_eq (pts_poK (F := F) d L _).symm) $$ Hp0
  sl_exec
  have hfull : ∀ k : Fin 1024, (show F .f32 from h2 (ValueIdx.ix1 k)) = partAt (XT m d) (WH0 m d) 0 (L 0).val (1024 * (L 1).val + k.val) :=
    fun k => hh2 k (by have := k.isLt; show k.val < 512 + 16 * 32; omega)
  ihave Hp0 := (Entails.of_eq (show (_ : sProp 𝕄) = (p0Loc d ↦[seg (N := 32768) (16384 * (cL L).val + 1024 * (jL L).val) 1024]{fullShare} PT0 m d) from
    (pts_poK (F := F) d L _).trans (pointsTo_congr (by exact out_landed (F := F) m d (cV L) (jV L) (L 0).val (L 1).val (L 0).isLt (L 1).isLt _ _ (k0_off36_eq L) _ h2 hfull)))) $$ Hp0'
  -- the column blocks whole again, the scratches as the launch names them
  ihave Hq0 := (Entails.of_eq (acc_halves (F := F) d L 0 l0 (ACC0 m d (cV L))).symm) $$ [HB_src0 HC_src0]
  · isplitl [HB_src0]; · iexact HB_src0
    iexact HC_src0
  ihave Hq1 := (Entails.of_eq (acc_halves (F := F) d L 1 l1 (ACC0 m d (cV L))).symm) $$ [HB_src1 HC_src1]
  · isplitl [HB_src1]; · iexact HB_src1
    iexact HC_src1
  ihave Hq2 := (Entails.of_eq (acc_halves (F := F) d L 2 l2 (ACC0 m d (cV L))).symm) $$ [HB_src2 HC_src2]
  · isplitl [HB_src2]; · iexact HB_src2
    iexact HC_src2
  ihave Hq3 := (Entails.of_eq (acc_halves (F := F) d L 3 l3 (ACC0 m d (cV L))).symm) $$ [HB_src3 HC_src3]
  · isplitl [HB_src3]; · iexact HB_src3
    iexact HC_src3
  ihave Hq4 := (Entails.of_eq (acc_halves (F := F) d L 4 l4 (ACC0 m d (cV L))).symm) $$ [HB_src4 HC_src4]
  · isplitl [HB_src4]; · iexact HB_src4
    iexact HC_src4
  ihave Hq5 := (Entails.of_eq (acc_halves (F := F) d L 5 l5 (ACC0 m d (cV L))).symm) $$ [HB_src5 HC_src5]
  · isplitl [HB_src5]; · iexact HB_src5
    iexact HC_src5
  ihave Hq6 := (Entails.of_eq (acc_halves (F := F) d L 6 l6 (ACC0 m d (cV L))).symm) $$ [HB_src6 HC_src6]
  · isplitl [HB_src6]; · iexact HB_src6
    iexact HC_src6
  ihave Hb3 := (Entails.of_eq (show ((Memref.whole cc0_scratch3).view.loc (V d (cV L) (jV L)) ↦{fullShare} g2 : sProp 𝕄) = ((V d (cV L) (jV L)).loc cc0_scratch3 ↦{fullShare} g2) from rfl)) $$ Hg2
  ihave Hb4 := (Entails.of_eq (show ((Memref.whole cc0_scratch4).view.loc (V d (cV L) (jV L)) ↦{fullShare} h2 : sProp 𝕄) = ((V d (cV L) (jV L)).loc cc0_scratch4 ↦{fullShare} h2) from rfl)) $$ Hh
  -- the waits recorded: all at index none, or the barrier's
  ihave HOg := (gen_waits (F := F) _ _ _) $$ HO
  icases HOg with ⟨%W₂, %hW₂e, HO⟩
  have hW₂ : ∀ p ∈ W₂, p ∈ W ∨ p.2 = none ∨ p.2 = some (0 : Fin 2) := by
    subst hW₂e; intro p hp
    repeat (first | exact (hW₁ p hp).imp_right Or.inl | (rcases Finset.mem_insert.mp hp with e | hp; · first | exact .inr (.inl (by rw [e]; rfl)) | exact .inr (.inr (by rw [e]))))
  sl_step
  iapply (post_intro' (F := F) m d L hF O W W₂ hW₂) $$ [Hxt Hwh Hp0 Hq0 Hq1 Hq2 Hq3 Hq4 Hq5 Hq6 Hat Hrch1 Hb0 Hb1 Hb2 Hb3 Hb4 Hbufs HC Hs7 Hs8 Hs9 Hc0 Hc1 Hc2 Hc3 Hc4 Hc5 Hc6 Hc7 Hc8 Hc9 Hc10 Hc11 Hc12 Hc13 Hc14 Hc15 Hc16 Hsems HO]
  isplitl [Hxt]; · iexact Hxt
  isplitl [Hwh]; · iexact Hwh
  isplitl [Hp0]; · iexact Hp0
  isplitl [Hq0 Hq1 Hq2 Hq3 Hq4 Hq5 Hq6]
  · isplitl [Hq0]; · iexists _; iexact Hq0
    isplitl [Hq1]; · iexists _; iexact Hq1
    isplitl [Hq2]; · iexists _; iexact Hq2
    isplitl [Hq3]; · iexists _; iexact Hq3
    isplitl [Hq4]; · iexists _; iexact Hq4
    isplitl [Hq5]; · iexists _; iexact Hq5
    iexists _; iexact Hq6
  isplitl [Hat]; · iexact Hat
  isplitl [Hrch1]; · iexact Hrch1
  isplitl [Hb0 Hb1 Hb2 Hb3 Hb4]
  · isplitl [Hb0]; · iexists _; iexact Hb0
    isplitl [Hb1]; · iexists _; iexact Hb1
    isplitl [Hb2]; · iexists _; iexact Hb2
    isplitl [Hb3]; · iexists _; iexact Hb3
    iexists _; iexact Hb4
  isplitl [Hbufs]; · iexact Hbufs
  isplitl [HC Hs7 Hs8 Hs9 Hc0 Hc1 Hc2 Hc3 Hc4 Hc5 Hc6 Hc7 Hc8 Hc9 Hc10 Hc11 Hc12 Hc13 Hc14 Hc15 Hc16]
  · isplitl [HC]; · iexact HC
    isplitl [Hs7]; · iexact Hs7
    isplitl [Hs8]; · iexact Hs8
    isplitl [Hs9]; · iexact Hs9
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    iexact Hc16
  isplitl [Hsems]; · iexact Hsems
  iexact HO

set_option maxHeartbeats 4000000 in
theorem tile_body_B (h1 : ¬ k0_cond1 L = 1#1) (h2 : k0_cond2 L = 1#1) (hx : InRange m) (hF : (K (F := F)).Facts) (O : CellTallies nD τ sig (HIx 2)) (W : Waits sig (HIx 2)) (hO : ∀ g, O g none = 0)
    (hOlev : ∀ g ι, 0 < O g ι → 8 * (0 : Fin 2).val + 6 ≤ (K (F := F)).lev g ι) :
    iprop(levAts (K (F := F)).L (K (F := F)).lev ∗ bkit m 0 d (cV L) (jV L) ∗ go0 m d (cL L) (jL L)
        ∗ scopedBufs (V d (cV L) (jV L)) ∗ scopedSems0 (V d (cV L) (jV L)) ∗ owes (V d (cV L) (jV L)) (O + oxV 0 d (cV L)) W)
      ⊢ wp frame (wpE (defs₀ (F := F)) 𝒱₀ (V d (cV L) (jV L)) none) Set.univ (prog0 (F := F) L)
          fun _ => iprop(td0 m d (cL L) (jL L) ∗ scopedBufs (V d (cV L) (jV L)) ∗ scopedSems0 (V d (cV L) (jV L))
            ∗ ∃ W', ⌜∀ p ∈ W', p ∈ W ∨ p.2 = none ∨ p.2 = some (0 : Fin 2)⌝ ∗ owes (V d (cV L) (jV L)) O W') := by
  obtain ⟨hc1, hs6⟩ := conds_B L h1 h2
  unfold prog0
  simp only [cc0_sc_fields_0_eq_skeleton]; unfold cc0_sc_fields_0_skel
  rw [(K (F := F)).scopedBufs_V hF d (cV L) (jV L), SparseCore.Cfg.scopedSems0_V (Val := Elt F) d (cV L) (jV L), ownSems0_V, ownBufs_V]
  unfold bkit go0
  rw [if_pos (show (0 : Fin 2).val = 0 from rfl), if_pos (show (jL L).val < 7 from by show (L 1).val < 7; omega)]
  iintro ⟨#Hlv, ⟨⟨%κ, #Hinv⟩, Htoks, Hcred, #Hrch, Hat⟩, ⟨Hxt, Hwh, Hp0, %frow, Hrow⟩,
    ⟨⟨⟨%f0, Hb0⟩, ⟨%f1, Hb1⟩, ⟨%f2, Hb2⟩, ⟨%f3, Hb3⟩, ⟨%f4, Hb4⟩⟩, Hbufs⟩,
    ⟨⟨Hs6, Hs7, Hs8, Hs9, Hc0, Hc1, Hc2, Hc3, Hc4, Hc5, Hc6, Hc7, Hc8, Hc9, Hc10, Hc11, Hc12, Hc13, Hc14, Hc15, Hc16⟩, Hsems⟩, HO⟩
  have hO' : ∀ g, (O + oxV 0 d (cV L)) g none = 0 := fun g => by rw [Pi.add_apply, Finsupp.add_apply, hO g, oxV_none]
  ihave Hmw1 := (show levAts (K (F := F)).L (K (F := F)).lev ⊢ Transfers.MayWaits (V d (cV L) (jV L)) (default : HIx 2) (O + oxV 0 d (cV L)) from
    (K (F := F)).mayWaits_none (thr := V d (cV L) (jV L)) hO') $$ Hlv
  ihave Hmw2 := (show levAts (K (F := F)).L (K (F := F)).lev ⊢ Transfers.MayWaits (V d (cV L) (jV L)) (default : HIx 2) O from
    (K (F := F)).mayWaits_none (thr := V d (cV L) (jV L)) hO) $$ Hlv
  -- the row as the eight pieces the task copies the zeros into
  ihave Hrow' := (Entails.of_eq (row_split (F := F) d (cT (cL L)) (jL L).val frow)) $$ Hrow
  icases Hrow' with ⟨Hr0, Hr1, Hr2, Hr3, Hr4, Hr5, Hr6, Hr7⟩
  ihave Hr0 := (Entails.of_eq (show (acc0Loc d (cT (cL L)) ↦[seg (N := 114688) (16384 * (jL L).val + 2048 * 0) 2048]{fullShare} frow : sProp 𝕄) = _ from (pts_zPiece (F := F) d L h2 0 frow).symm)) $$ Hr0
  ihave Hr1 := (Entails.of_eq (show (acc0Loc d (cT (cL L)) ↦[seg (N := 114688) (16384 * (jL L).val + 2048 * 1) 2048]{fullShare} frow : sProp 𝕄) = _ from (pts_zPiece (F := F) d L h2 1 frow).symm)) $$ Hr1
  ihave Hr2 := (Entails.of_eq (show (acc0Loc d (cT (cL L)) ↦[seg (N := 114688) (16384 * (jL L).val + 2048 * 2) 2048]{fullShare} frow : sProp 𝕄) = _ from (pts_zPiece (F := F) d L h2 2 frow).symm)) $$ Hr2
  ihave Hr3 := (Entails.of_eq (show (acc0Loc d (cT (cL L)) ↦[seg (N := 114688) (16384 * (jL L).val + 2048 * 3) 2048]{fullShare} frow : sProp 𝕄) = _ from (pts_zPiece (F := F) d L h2 3 frow).symm)) $$ Hr3
  ihave Hr4 := (Entails.of_eq (show (acc0Loc d (cT (cL L)) ↦[seg (N := 114688) (16384 * (jL L).val + 2048 * 4) 2048]{fullShare} frow : sProp 𝕄) = _ from (pts_zPiece (F := F) d L h2 4 frow).symm)) $$ Hr4
  ihave Hr5 := (Entails.of_eq (show (acc0Loc d (cT (cL L)) ↦[seg (N := 114688) (16384 * (jL L).val + 2048 * 5) 2048]{fullShare} frow : sProp 𝕄) = _ from (pts_zPiece (F := F) d L h2 5 frow).symm)) $$ Hr5
  ihave Hr6 := (Entails.of_eq (show (acc0Loc d (cT (cL L)) ↦[seg (N := 114688) (16384 * (jL L).val + 2048 * 6) 2048]{fullShare} frow : sProp 𝕄) = _ from (pts_zPiece (F := F) d L h2 6 frow).symm)) $$ Hr6
  ihave Hr7 := (Entails.of_eq (show (acc0Loc d (cT (cL L)) ↦[seg (N := 114688) (16384 * (jL L).val + 2048 * 7) 2048]{fullShare} frow : sProp 𝕄) = _ from (pts_zPiece (F := F) d L h2 7 frow).symm)) $$ Hr7
  ihave Hb2 := (Entails.of_eq (pts_val (F := F) d (cV L) (jV L) _).symm) $$ Hb2
  sl_exec
  -- the zero loop: the value scratch filled sixteen entries a trip
  sl_for (zInv (F := F) d (cV L) (jV L)) $$ [Hb2]
  case region =>
    intro k u
    unfold zInv
    iintro ⟨%f, H7, %hZ⟩
    ihave Hw := (wp_zTrip (F := F) d (cV L) (jV L) (k0_off27 k) (k0_off27_inb L k h2) f) $$ H7
    iapply (wp_mono frame _ _ (fun _ => ?post)) $$ Hw
    case post =>
      iintro H7
      iexists _; isplitl [H7]; · iexact H7
      ipureintro
      exact ZeroTo_step (F := F) d (cV L) (jV L) k.val (k0_off27 k) (k0_off27_eq k) (k0_off27_inb L k h2) f hZ
  · unfold zInv
    iexists _; isplitl [Hb2]; · iexact Hb2
    ipureintro; intro t ht; omega
  iintro %_ HI
  unfold zInv
  icases HI with ⟨%fz, Hb2, %hZ⟩
  sl_exec
  -- every entry of the value scratch is the zero word, so each landed piece is the row's own zeros
  have hP : ∀ x : S2048.Idx, tile_body_B.sl.dma0 d L fz x = Scalar.ofBits .f32 0x00000000#32 := fun x => by
    obtain ⟨t, rfl⟩ : ∃ t : Fin 2048, x = Idealize.ShloMosaic.ValueIdx.ix1 t := ⟨x 0, Idealize.ShloMosaic.ValueIdx.eq_ix1 x⟩
    exact hZ t (by have := t.isLt; rw [trips_t9]; omega)
  ihave Hr0 := (Entails.of_eq (show _ = (acc0Loc d (cT (cL L)) ↦[seg (N := 114688) (16384 * (jL L).val + 2048 * 0) 2048]{fullShare} ACC0 m d (cT (cL L)) : sProp 𝕄) from piece_zero (F := F) m d L h2 0 frow _ hP hc1 hs6)) $$ Hr0
  ihave Hr1 := (Entails.of_eq (show _ = (acc0Loc d (cT (cL L)) ↦[seg (N := 114688) (16384 * (jL L).val + 2048 * 1) 2048]{fullShare} ACC0 m d (cT (cL L)) : sProp 𝕄) from piece_zero (F := F) m d L h2 1 frow _ hP hc1 hs6)) $$ Hr1
  ihave Hr2 := (Entails.of_eq (show _ = (acc0Loc d (cT (cL L)) ↦[seg (N := 114688) (16384 * (jL L).val + 2048 * 2) 2048]{fullShare} ACC0 m d (cT (cL L)) : sProp 𝕄) from piece_zero (F := F) m d L h2 2 frow _ hP hc1 hs6)) $$ Hr2
  ihave Hr3 := (Entails.of_eq (show _ = (acc0Loc d (cT (cL L)) ↦[seg (N := 114688) (16384 * (jL L).val + 2048 * 3) 2048]{fullShare} ACC0 m d (cT (cL L)) : sProp 𝕄) from piece_zero (F := F) m d L h2 3 frow _ hP hc1 hs6)) $$ Hr3
  ihave Hr4 := (Entails.of_eq (show _ = (acc0Loc d (cT (cL L)) ↦[seg (N := 114688) (16384 * (jL L).val + 2048 * 4) 2048]{fullShare} ACC0 m d (cT (cL L)) : sProp 𝕄) from piece_zero (F := F) m d L h2 4 frow _ hP hc1 hs6)) $$ Hr4
  ihave Hr5 := (Entails.of_eq (show _ = (acc0Loc d (cT (cL L)) ↦[seg (N := 114688) (16384 * (jL L).val + 2048 * 5) 2048]{fullShare} ACC0 m d (cT (cL L)) : sProp 𝕄) from piece_zero (F := F) m d L h2 5 frow _ hP hc1 hs6)) $$ Hr5
  ihave Hr6 := (Entails.of_eq (show _ = (acc0Loc d (cT (cL L)) ↦[seg (N := 114688) (16384 * (jL L).val + 2048 * 6) 2048]{fullShare} ACC0 m d (cT (cL L)) : sProp 𝕄) from piece_zero (F := F) m d L h2 6 frow _ hP hc1 hs6)) $$ Hr6
  ihave Hr7 := (Entails.of_eq (show _ = (acc0Loc d (cT (cL L)) ↦[seg (N := 114688) (16384 * (jL L).val + 2048 * 7) 2048]{fullShare} ACC0 m d (cT (cL L)) : sProp 𝕄) from piece_zero (F := F) m d L h2 7 frow _ hP hc1 hs6)) $$ Hr7
  ihave Hrow := (Entails.of_eq (row_split (F := F) d (cT (cL L)) (jL L).val (ACC0 m d (cT (cL L)))).symm) $$ [Hr0 Hr1 Hr2 Hr3 Hr4 Hr5 Hr6 Hr7]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  ihave Hb2 := (Entails.of_eq (pts_val (F := F) d (cV L) (jV L) fz)) $$ Hb2
  have hs7 : (L 1).val < 7 := by omega
  ihave Hpay := (Entails.of_eq (show (acc0Loc d (cT (cL L)) ↦[seg (N := 114688) (16384 * (jL L).val) 16384]{fullShare} ACC0 m d (cT (cL L)) : sProp 𝕄) = _ from
      pays_row (F := F) m d (cV L) (jV L).val hs7)) $$ Hrow
  -- the waits recorded so far: all at index none
  ihave HOg := (gen_waits (F := F) _ _ _) $$ HO
  icases HOg with ⟨%W₁, %hW₁e, HO⟩
  have hW₁ : ∀ p ∈ W₁, p ∈ W ∨ p.2 = none := by
    subst hW₁e; intro p hp
    repeat (first | exact .inl hp | (rcases Finset.mem_insert.mp hp with e | hp; · exact .inr (by rw [e]; rfl)))
  clear hW₁e
  -- the barrier: the sixteen payloads handed over; its own round's seven column blocks received
  iapply (SparseCore.wp_subcoreBarrier 𝒱₀ none EB (bRd (F := F) m) d (sc := cV L) (i := jV L) sc_bar0 (grid0.bound 1) hsub0 (L 1) rfl κ (fun _ => 0) (jV L).val
      (fun j => bRd_mem m d _ _ _ (by decide)) (fun _ => rfl) (bRd_expect m d _ _ (by decide)) (some 0) O _) $$ [HO Htoks Hpay Hcred Hat]
  · isplitr; · iexact Hinv
    isplitl [HO]; · iexact HO
    isplitl [Htoks Hpay]
    · rw [bigSep_sep', bigSep_sep']
      isplitl [Htoks]; · iexact Htoks
      isplitl [Hpay]; · iexact Hpay
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, Hrch1, Hgot⟩
  ihave Hcols := (pays_got m d (cV L) (jV L)) $$ Hgot
  icases Hcols with ⟨Hq0, Hq1, Hq2, Hq3, Hq4, Hq5, Hq6⟩
  -- each column block in two halves, the reduce scratch in seven windows, as the copies name them
  have l0 : 0 < 7 := by decide
  have l1 : 1 < 7 := by decide
  have l2 : 2 < 7 := by decide
  have l3 : 3 < 7 := by decide
  have l4 : 4 < 7 := by decide
  have l5 : 5 < 7 := by decide
  have l6 : 6 < 7 := by decide
  ihave Hh0 := (Entails.of_eq (acc_halves (F := F) d L 0 l0 _)) $$ Hq0
  icases Hh0 with ⟨Ha0, Hz0⟩
  ihave Hh1 := (Entails.of_eq (acc_halves (F := F) d L 1 l1 _)) $$ Hq1
  icases Hh1 with ⟨Ha1, Hz1⟩
  ihave Hh2 := (Entails.of_eq (acc_halves (F := F) d L 2 l2 _)) $$ Hq2
  icases Hh2 with ⟨Ha2, Hz2⟩
  ihave Hh3 := (Entails.of_eq (acc_halves (F := F) d L 3 l3 _)) $$ Hq3
  icases Hh3 with ⟨Ha3, Hz3⟩
  ihave Hh4 := (Entails.of_eq (acc_halves (F := F) d L 4 l4 _)) $$ Hq4
  icases Hh4 with ⟨Ha4, Hz4⟩
  ihave Hh5 := (Entails.of_eq (acc_halves (F := F) d L 5 l5 _)) $$ Hq5
  icases Hh5 with ⟨Ha5, Hz5⟩
  ihave Hh6 := (Entails.of_eq (acc_halves (F := F) d L 6 l6 _)) $$ Hq6
  icases Hh6 with ⟨Ha6, Hz6⟩
  ihave Hw := (Entails.of_eq (scr3_windows (F := F) d L f3)) $$ Hb3
  icases Hw with ⟨Hd0, Hd1, Hd2, Hd3, Hd4, Hd5, Hd6⟩
  haveI hst0 : ∀ t : Fin 7, BI.Storable (upEmb : UEmb _ 𝕄) (deliv (F := F) d L 0 (fun _ => ACC0 m d (cV L)) (fun _ => f3) t) :=
    fun t => deliv_storable (F := F) d L 0 _ _ t
  imod (Transfers.batch_alloc' (Lvl := ℕ) countersEmb (V d (cV L) (jV L)) (default : HIx 2) NW (deliv (F := F) d L 0 (fun _ => ACC0 m d (cV L)) (fun _ => f3))
    (sm := .dma cc0_scratch6.sem) (E := Set.univ)) $$ Hs6 with HB
  sl_exec
  -- the seven windows landed: the reduce scratch whole again, at one function
  ihave Hg := (windows_join (F := F) d L (fun n => landedJ (F := F) d L 0 n (ACC0 m d (cV L))) ) $$ [HB_dst0 HB_dst1 HB_dst2 HB_dst3 HB_dst4 HB_dst5 HB_dst6]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    iexact HB_dst6
  icases Hg with ⟨%g, %hg, Hg⟩
  ihave Hb4' := (Entails.of_eq (show ((V d (cV L) (jV L)).loc cc0_scratch4 ↦{fullShare} f4 : sProp 𝕄) = ((Memref.whole cc0_scratch4).view.loc (V d (cV L) (jV L)) ↦{fullShare} f4) from rfl)) $$ Hb4
  sl_for (invR (F := F) m d L 0 g) $$ [Hg Hb4']
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g (ValueIdx.ix1 (⟨512 * n.val + j, by have := n.isLt; omega⟩ : Fin 3584))
        = accAt (XT m d) (WH0 m d) 0 (cV L).val n.val (1024 * (L 1).val + 0 + j) := fun n j hj => hgv_of (F := F) m d L 0 g hg n j hj
    exact step_gen_0 d (cV L) (jV L) (XT m d) (WH0 m d) 0 (cV L).val (L 1).val 0 k.val hkt (by omega) k0_pay3
      (fun v0 v1 v2 v3 v4 v5 v6 l b h0 h1 h2 h3 h4 h5 h6 => pay3_partAt_k0 (XT m d) (WH0 m d) 0 (cV L).val b v0 v1 v2 v3 v4 v5 v6 l h0 h1 h2 h3 h4 h5 h6)
      g h _ _ ((Gen.k0_off32_eq k).trans (vec1 _ _ (by omega)))
      _ _ ((Gen.k0_off30_eq k).trans (vec1 _ _ (by omega)))
      _ _ ((Gen.k0_off31_eq k ⟨0, by decide⟩).trans (vec1 _ _ (by show 512 * 0 + 16 * k.val + 512 = 512 * 1 + 16 * k.val; omega)))
      _ _ ((Gen.k0_off31_eq k ⟨1, by decide⟩).trans (vec1 _ _ (by show 512 * 1 + 16 * k.val + 512 = 512 * 2 + 16 * k.val; omega)))
      _ _ ((Gen.k0_off31_eq k ⟨2, by decide⟩).trans (vec1 _ _ (by show 512 * 2 + 16 * k.val + 512 = 512 * 3 + 16 * k.val; omega)))
      _ _ ((Gen.k0_off31_eq k ⟨3, by decide⟩).trans (vec1 _ _ (by show 512 * 3 + 16 * k.val + 512 = 512 * 4 + 16 * k.val; omega)))
      _ _ ((Gen.k0_off31_eq k ⟨4, by decide⟩).trans (vec1 _ _ (by show 512 * 4 + 16 * k.val + 512 = 512 * 5 + 16 * k.val; omega)))
      _ _ ((Gen.k0_off31_eq k ⟨5, by decide⟩).trans (vec1 _ _ (by show 512 * 5 + 16 * k.val + 512 = 512 * 6 + 16 * k.val; omega)))
      hgv' hh
  · unfold invR
    isplitl [Hg]; · iexact Hg
    iexists f4
    isplitl [Hb4']; · iexact Hb4'
    ipureintro; intro k hk; exact absurd hk (by omega)
  iintro %_ HI
  unfold invR
  icases HI with ⟨Hg, ⟨%h1, Hh, %hh1⟩⟩
  -- the second batch: the other halves into the same seven windows
  ihave Hg' := (Entails.of_eq (show ((Memref.whole cc0_scratch3).view.loc (V d (cV L) (jV L)) ↦{fullShare} g : sProp 𝕄) = ((V d (cV L) (jV L)).loc cc0_scratch3 ↦{fullShare} g) from rfl)) $$ Hg
  ihave Hw2 := (Entails.of_eq (scr3_windows (F := F) d L g)) $$ Hg'
  icases Hw2 with ⟨He0, He1, He2, He3, He4, He5, He6⟩
  ihave HB' := (show (semVal ((V d (cV L) (jV L), SemLoc.dma cc0_scratch6.sem) : GSem nD τ sig) 0 : sProp 𝕄) ⊢ semVal ((V d (cV L) (jV L), SemLoc.dma cc0_scratch6.sem) : GSem nD τ sig) 0 from BI.Entails.refl _) $$ [HB]
  · iexact HB
  haveI hst1 : ∀ t : Fin 7, BI.Storable (upEmb : UEmb _ 𝕄) (deliv (F := F) d L 1 (fun _ => ACC0 m d (cV L)) (fun _ => g) t) :=
    fun t => deliv_storable (F := F) d L 1 _ _ t
  imod (Transfers.batch_alloc' (Lvl := ℕ) countersEmb (V d (cV L) (jV L)) (default : HIx 2) NW (deliv (F := F) d L 1 (fun _ => ACC0 m d (cV L)) (fun _ => g))
    (sm := .dma cc0_scratch6.sem) (E := Set.univ)) $$ HB' with HC
  sl_exec
  ihave Hg2J := (windows_join (F := F) d L (fun n => landedJ (F := F) d L 1 n (ACC0 m d (cV L)))) $$ [HC_dst0 HC_dst1 HC_dst2 HC_dst3 HC_dst4 HC_dst5 HC_dst6]
  · isplitl [HC_dst0]; · iexact HC_dst0
    isplitl [HC_dst1]; · iexact HC_dst1
    isplitl [HC_dst2]; · iexact HC_dst2
    isplitl [HC_dst3]; · iexact HC_dst3
    isplitl [HC_dst4]; · iexact HC_dst4
    isplitl [HC_dst5]; · iexact HC_dst5
    iexact HC_dst6
  icases Hg2J with ⟨%g2, %hg2, Hg2⟩
  sl_for (invR (F := F) m d L 512 g2) $$ [Hg2 Hh]
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g2 (ValueIdx.ix1 (⟨512 * n.val + j, by have := n.isLt; omega⟩ : Fin 3584))
        = accAt (XT m d) (WH0 m d) 0 (cV L).val n.val (1024 * (L 1).val + 512 + j) := fun n j hj => hgv_of (F := F) m d L 1 g2 hg2 n j hj
    exact step_gen_0 d (cV L) (jV L) (XT m d) (WH0 m d) 0 (cV L).val (L 1).val 512 k.val hkt (by omega) k0_pay1
      (fun v0 v1 v2 v3 v4 v5 v6 l b h0 h1 h2 h3 h4 h5 h6 => pay1_partAt_k0 (XT m d) (WH0 m d) 0 (cV L).val b v0 v1 v2 v3 v4 v5 v6 l h0 h1 h2 h3 h4 h5 h6)
      g2 h _ _ ((Gen.k0_off35_eq k).trans (vec1 _ _ (by omega)))
      _ _ ((Gen.k0_off33_eq k).trans (vec1 _ _ (by omega)))
      _ _ ((Gen.k0_off34_eq k ⟨0, by decide⟩).trans (vec1 _ _ (by show 512 * 0 + 16 * k.val + 512 = 512 * 1 + 16 * k.val; omega)))
      _ _ ((Gen.k0_off34_eq k ⟨1, by decide⟩).trans (vec1 _ _ (by show 512 * 1 + 16 * k.val + 512 = 512 * 2 + 16 * k.val; omega)))
      _ _ ((Gen.k0_off34_eq k ⟨2, by decide⟩).trans (vec1 _ _ (by show 512 * 2 + 16 * k.val + 512 = 512 * 3 + 16 * k.val; omega)))
      _ _ ((Gen.k0_off34_eq k ⟨3, by decide⟩).trans (vec1 _ _ (by show 512 * 3 + 16 * k.val + 512 = 512 * 4 + 16 * k.val; omega)))
      _ _ ((Gen.k0_off34_eq k ⟨4, by decide⟩).trans (vec1 _ _ (by show 512 * 4 + 16 * k.val + 512 = 512 * 5 + 16 * k.val; omega)))
      _ _ ((Gen.k0_off34_eq k ⟨5, by decide⟩).trans (vec1 _ _ (by show 512 * 5 + 16 * k.val + 512 = 512 * 6 + 16 * k.val; omega)))
      hgv' hh
  · unfold invR
    isplitl [Hg2]; · iexact Hg2
    iexists h1
    isplitl [Hh]; · iexact Hh
    ipureintro; intro k hk; exact hh1 k (by show k.val < 0 + 16 * 32; omega)
  iintro %_ HI2
  unfold invR
  icases HI2 with ⟨Hg2, ⟨%h2, Hh, %hh2⟩⟩
  -- the write-out: the output scratch into the tile's 1024 entries of the result
  ihave Hp0' := (Entails.of_eq (pts_poK (F := F) d L _).symm) $$ Hp0
  sl_exec
  have hfull : ∀ k : Fin 1024, (show F .f32 from h2 (ValueIdx.ix1 k)) = partAt (XT m d) (WH0 m d) 0 (L 0).val (1024 * (L 1).val + k.val) :=
    fun k => hh2 k (by have := k.isLt; show k.val < 512 + 16 * 32; omega)
  ihave Hp0 := (Entails.of_eq (show (_ : sProp 𝕄) = (p0Loc d ↦[seg (N := 32768) (16384 * (cL L).val + 1024 * (jL L).val) 1024]{fullShare} PT0 m d) from
    (pts_poK (F := F) d L _).trans (pointsTo_congr (by exact out_landed (F := F) m d (cV L) (jV L) (L 0).val (L 1).val (L 0).isLt (L 1).isLt _ _ (k0_off36_eq L) _ h2 hfull)))) $$ Hp0'
  -- the column blocks whole again, the scratches as the launch names them
  ihave Hq0 := (Entails.of_eq (acc_halves (F := F) d L 0 l0 (ACC0 m d (cV L))).symm) $$ [HB_src0 HC_src0]
  · isplitl [HB_src0]; · iexact HB_src0
    iexact HC_src0
  ihave Hq1 := (Entails.of_eq (acc_halves (F := F) d L 1 l1 (ACC0 m d (cV L))).symm) $$ [HB_src1 HC_src1]
  · isplitl [HB_src1]; · iexact HB_src1
    iexact HC_src1
  ihave Hq2 := (Entails.of_eq (acc_halves (F := F) d L 2 l2 (ACC0 m d (cV L))).symm) $$ [HB_src2 HC_src2]
  · isplitl [HB_src2]; · iexact HB_src2
    iexact HC_src2
  ihave Hq3 := (Entails.of_eq (acc_halves (F := F) d L 3 l3 (ACC0 m d (cV L))).symm) $$ [HB_src3 HC_src3]
  · isplitl [HB_src3]; · iexact HB_src3
    iexact HC_src3
  ihave Hq4 := (Entails.of_eq (acc_halves (F := F) d L 4 l4 (ACC0 m d (cV L))).symm) $$ [HB_src4 HC_src4]
  · isplitl [HB_src4]; · iexact HB_src4
    iexact HC_src4
  ihave Hq5 := (Entails.of_eq (acc_halves (F := F) d L 5 l5 (ACC0 m d (cV L))).symm) $$ [HB_src5 HC_src5]
  · isplitl [HB_src5]; · iexact HB_src5
    iexact HC_src5
  ihave Hq6 := (Entails.of_eq (acc_halves (F := F) d L 6 l6 (ACC0 m d (cV L))).symm) $$ [HB_src6 HC_src6]
  · isplitl [HB_src6]; · iexact HB_src6
    iexact HC_src6
  ihave Hb3 := (Entails.of_eq (show ((Memref.whole cc0_scratch3).view.loc (V d (cV L) (jV L)) ↦{fullShare} g2 : sProp 𝕄) = ((V d (cV L) (jV L)).loc cc0_scratch3 ↦{fullShare} g2) from rfl)) $$ Hg2
  ihave Hb4 := (Entails.of_eq (show ((Memref.whole cc0_scratch4).view.loc (V d (cV L) (jV L)) ↦{fullShare} h2 : sProp 𝕄) = ((V d (cV L) (jV L)).loc cc0_scratch4 ↦{fullShare} h2) from rfl)) $$ Hh
  -- the waits recorded: all at index none, or the barrier's
  ihave HOg := (gen_waits (F := F) _ _ _) $$ HO
  icases HOg with ⟨%W₂, %hW₂e, HO⟩
  have hW₂ : ∀ p ∈ W₂, p ∈ W ∨ p.2 = none ∨ p.2 = some (0 : Fin 2) := by
    subst hW₂e; intro p hp
    repeat (first | exact (hW₁ p hp).imp_right Or.inl | (rcases Finset.mem_insert.mp hp with e | hp; · first | exact .inr (.inl (by rw [e]; rfl)) | exact .inr (.inr (by rw [e]))))
  sl_step
  iapply (post_intro' (F := F) m d L hF O W W₂ hW₂) $$ [Hxt Hwh Hp0 Hq0 Hq1 Hq2 Hq3 Hq4 Hq5 Hq6 Hat Hrch1 Hb0 Hb1 Hb2 Hb3 Hb4 Hbufs HC Hs7 Hs8 Hs9 Hc0 Hc1 Hc2 Hc3 Hc4 Hc5 Hc6 Hc7 Hc8 Hc9 Hc10 Hc11 Hc12 Hc13 Hc14 Hc15 Hc16 Hsems HO]
  isplitl [Hxt]; · iexact Hxt
  isplitl [Hwh]; · iexact Hwh
  isplitl [Hp0]; · iexact Hp0
  isplitl [Hq0 Hq1 Hq2 Hq3 Hq4 Hq5 Hq6]
  · isplitl [Hq0]; · iexists _; iexact Hq0
    isplitl [Hq1]; · iexists _; iexact Hq1
    isplitl [Hq2]; · iexists _; iexact Hq2
    isplitl [Hq3]; · iexists _; iexact Hq3
    isplitl [Hq4]; · iexists _; iexact Hq4
    isplitl [Hq5]; · iexists _; iexact Hq5
    iexists _; iexact Hq6
  isplitl [Hat]; · iexact Hat
  isplitl [Hrch1]; · iexact Hrch1
  isplitl [Hb0 Hb1 Hb2 Hb3 Hb4]
  · isplitl [Hb0]; · iexists _; iexact Hb0
    isplitl [Hb1]; · iexists _; iexact Hb1
    isplitl [Hb2]; · iexists _; iexact Hb2
    isplitl [Hb3]; · iexists _; iexact Hb3
    iexists _; iexact Hb4
  isplitl [Hbufs]; · iexact Hbufs
  isplitl [HC Hs7 Hs8 Hs9 Hc0 Hc1 Hc2 Hc3 Hc4 Hc5 Hc6 Hc7 Hc8 Hc9 Hc10 Hc11 Hc12 Hc13 Hc14 Hc15 Hc16]
  · isplitl [HC]; · iexact HC
    isplitl [Hs7]; · iexact Hs7
    isplitl [Hs8]; · iexact Hs8
    isplitl [Hs9]; · iexact Hs9
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    iexact Hc16
  isplitl [Hsems]; · iexact Hsems
  iexact HO

set_option maxHeartbeats 4000000 in
theorem tile_body_A (h1 : k0_cond1 L = 1#1) (hx : InRange m) (hF : (K (F := F)).Facts) (O : CellTallies nD τ sig (HIx 2)) (W : Waits sig (HIx 2)) (hO : ∀ g, O g none = 0)
    (hOlev : ∀ g ι, 0 < O g ι → 8 * (0 : Fin 2).val + 6 ≤ (K (F := F)).lev g ι) :
    iprop(levAts (K (F := F)).L (K (F := F)).lev ∗ bkit m 0 d (cV L) (jV L) ∗ go0 m d (cL L) (jL L)
        ∗ scopedBufs (V d (cV L) (jV L)) ∗ scopedSems0 (V d (cV L) (jV L)) ∗ owes (V d (cV L) (jV L)) (O + oxV 0 d (cV L)) W)
      ⊢ wp frame (wpE (defs₀ (F := F)) 𝒱₀ (V d (cV L) (jV L)) none) Set.univ (prog0 (F := F) L)
          fun _ => iprop(td0 m d (cL L) (jL L) ∗ scopedBufs (V d (cV L) (jV L)) ∗ scopedSems0 (V d (cV L) (jV L))
            ∗ ∃ W', ⌜∀ p ∈ W', p ∈ W ∨ p.2 = none ∨ p.2 = some (0 : Fin 2)⌝ ∗ owes (V d (cV L) (jV L)) O W') := by
  obtain ⟨hs7, hcs, h2⟩ := conds_A L h1
  have hc2 : (L 0).val < 2 := (L 0).isLt
  unfold prog0
  simp only [cc0_sc_fields_0_eq_skeleton]; unfold cc0_sc_fields_0_skel
  rw [(K (F := F)).scopedBufs_V hF d (cV L) (jV L), SparseCore.Cfg.scopedSems0_V (Val := Elt F) d (cV L) (jV L), ownSems0_V, ownBufs_V]
  unfold bkit go0
  rw [if_pos (show (0 : Fin 2).val = 0 from rfl), if_pos (show (jL L).val < 7 from hs7)]
  iintro ⟨#Hlv, ⟨⟨%κ, #Hinv⟩, Htoks, Hcred, #Hrch, Hat⟩, ⟨Hxt, Hwh, Hp0, %frow, Hrow⟩,
    ⟨⟨⟨%f0, Hb0⟩, ⟨%f1, Hb1⟩, ⟨%f2, Hb2⟩, ⟨%f3, Hb3⟩, ⟨%f4, Hb4⟩⟩, Hbufs⟩,
    ⟨⟨Hs6, Hs7, Hs8, Hs9, Hc0, Hc1, Hc2, Hc3, Hc4, Hc5, Hc6, Hc7, Hc8, Hc9, Hc10, Hc11, Hc12, Hc13, Hc14, Hc15, Hc16⟩, Hsems⟩, HO⟩
  have hO' : ∀ g, (O + oxV 0 d (cV L)) g none = 0 := fun g => by rw [Pi.add_apply, Finsupp.add_apply, hO g, oxV_none]
  ihave Hmw1 := (show levAts (K (F := F)).L (K (F := F)).lev ⊢ Transfers.MayWaits (V d (cV L) (jV L)) (default : HIx 2) (O + oxV 0 d (cV L)) from
    (K (F := F)).mayWaits_none (thr := V d (cV L) (jV L)) hO') $$ Hlv
  ihave Hmw2 := (show levAts (K (F := F)).L (K (F := F)).lev ⊢ Transfers.MayWaits (V d (cV L) (jV L)) (default : HIx 2) O from
    (K (F := F)).mayWaits_none (thr := V d (cV L) (jV L)) hO) $$ Hlv
  -- the row as the eight pieces the task copies into, the index scratch as its two slots
  ihave Hrow' := (Entails.of_eq (row_split (F := F) d (cT (cL L)) (jL L).val frow)) $$ Hrow
  icases Hrow' with ⟨Hr0, Hr1, Hr2, Hr3, Hr4, Hr5, Hr6, Hr7⟩
  ihave Hr0 := (Entails.of_eq (show (acc0Loc d (cT (cL L)) ↦[seg (N := 114688) (16384 * (jL L).val + 2048 * 0) 2048]{fullShare} frow : sProp 𝕄) = _ from (pts_rowPiece (F := F) d L h1 0 frow).symm)) $$ Hr0
  ihave Hr1 := (Entails.of_eq (show (acc0Loc d (cT (cL L)) ↦[seg (N := 114688) (16384 * (jL L).val + 2048 * 1) 2048]{fullShare} frow : sProp 𝕄) = _ from (pts_rowPiece (F := F) d L h1 1 frow).symm)) $$ Hr1
  ihave Hr2 := (Entails.of_eq (show (acc0Loc d (cT (cL L)) ↦[seg (N := 114688) (16384 * (jL L).val + 2048 * 2) 2048]{fullShare} frow : sProp 𝕄) = _ from (pts_rowPiece (F := F) d L h1 2 frow).symm)) $$ Hr2
  ihave Hr3 := (Entails.of_eq (show (acc0Loc d (cT (cL L)) ↦[seg (N := 114688) (16384 * (jL L).val + 2048 * 3) 2048]{fullShare} frow : sProp 𝕄) = _ from (pts_rowPiece (F := F) d L h1 3 frow).symm)) $$ Hr3
  ihave Hr4 := (Entails.of_eq (show (acc0Loc d (cT (cL L)) ↦[seg (N := 114688) (16384 * (jL L).val + 2048 * 4) 2048]{fullShare} frow : sProp 𝕄) = _ from (pts_rowPiece (F := F) d L h1 4 frow).symm)) $$ Hr4
  ihave Hr5 := (Entails.of_eq (show (acc0Loc d (cT (cL L)) ↦[seg (N := 114688) (16384 * (jL L).val + 2048 * 5) 2048]{fullShare} frow : sProp 𝕄) = _ from (pts_rowPiece (F := F) d L h1 5 frow).symm)) $$ Hr5
  ihave Hr6 := (Entails.of_eq (show (acc0Loc d (cT (cL L)) ↦[seg (N := 114688) (16384 * (jL L).val + 2048 * 6) 2048]{fullShare} frow : sProp 𝕄) = _ from (pts_rowPiece (F := F) d L h1 6 frow).symm)) $$ Hr6
  ihave Hr7 := (Entails.of_eq (show (acc0Loc d (cT (cL L)) ↦[seg (N := 114688) (16384 * (jL L).val + 2048 * 7) 2048]{fullShare} frow : sProp 𝕄) = _ from (pts_rowPiece (F := F) d L h1 7 frow).symm)) $$ Hr7
  ihave Hx := (x_split (F := F) d (cV L) (jV L) f1).1 $$ Hb1
  icases Hx with ⟨Hx0, Hx1⟩
  ihave Hxt := (Entails.of_eq (pts_xt (F := F) d (cV L) (jV L) _ _).symm) $$ Hxt
  ihave Hwh := (Entails.of_eq (pts_wh (F := F) d (cV L) (jV L) _ _).symm) $$ Hwh
  ihave Hp0 := (Entails.of_eq (pts_poK (F := F) d L _).symm) $$ Hp0
  ihave Hb0 := (Entails.of_eq (pts_sub (F := F) d (cV L) (jV L) _).symm) $$ Hb0
  ihave Hb2 := (Entails.of_eq (pts_val (F := F) d (cV L) (jV L) _).symm) $$ Hb2
  ihave Hb3 := (Entails.of_eq (pts_red (F := F) d (cV L) (jV L) _).symm) $$ Hb3
  ihave Hb4 := (Entails.of_eq (pts_out (F := F) d (cV L) (jV L) _).symm) $$ Hb4
  sl_exec
  -- the table scratch holds the field's 100000 entries
  have hfsub : SubHolds m d (cV L) (jV L) (7 * (L 0).val + (L 1).val) ((subM).view.writes (Elt F) f0 [⟨Rect.unit (s := S100096) ![0] S100000.size inb_S100096_S100000_0, tile_body_A.sl.dma0 m d L h1⟩]) := by
    unfold tile_body_A.sl.dma0
    exact subholds_landed (F := F) m d (cV L) (jV L) (7 * (L 0).val + (L 1).val) _ _ (by rw [k0_off1_eq]; congr 1; omega) _
  generalize ((subM).view.writes (Elt F) f0 [⟨Rect.unit (s := S100096) ![0] S100000.size inb_S100096_S100000_0, tile_body_A.sl.dma0 m d L h1⟩]) = fsub at hfsub ⊢
  -- chunk 0: slot 0 of the index scratch has it; the loop looks its 2048 indices up
  have hfx0 : XHolds m d (cV L) (jV L) 0 0 (7 * (L 0).val + (L 1).val) ((xSlot0).view.writes (Elt F) (xSlot0).view.junk [⟨Rect.whole S2048, tile_body_A.sl.dma0_1 m d L h1⟩]) := by
    unfold tile_body_A.sl.dma0_1
    exact xholds_landed (F := F) m d (cV L) (jV L) 0 0 (7 * (L 0).val + (L 1).val) _ _ rfl _ _ (k0_off2_eq L) _
  generalize ((xSlot0).view.writes (Elt F) (xSlot0).view.junk [⟨Rect.whole S2048, tile_body_A.sl.dma0_1 m d L h1⟩]) = fx0 at hfx0 ⊢
  sl_for (gInv (F := F) d (cV L) (jV L) (xSlot0).view.set fx0 fsub (Good m d (cV L) (jV L) (L 0).val (L 1).val 0)) $$ [Hx0 Hb0 Hb2]
  case region =>
    intro k u
    unfold gInv
    iintro ⟨H6, H5, %f, H7, %hG⟩
    have hk : k.val < 128 := lt_of_lt_of_le k.isLt k0_t1_abs.2.1
    have hoffX : k0_off4 k = ![2048 * 0 + 16 * k.val] := by rw [k0_off4_eq, show 2048 * 0 + 16 * k.val = 16 * k.val by omega]
    have hoffV : k0_off5 k = ![16 * k.val] := k0_off5_eq k
    have hS6 : (xM).view.setOn (Rect.unit (s := S4096) (k0_off4 k) S16.size (k0_off4_inb L k h1)).toLoadRect.set ⊆ (xSlot0).view.set := by
      rw [set_xSlot0]; exact box_sub_slot 0 k.val _ _ hoffX hk
    have hin := chk_of_holds (F := F) m d (cV L) (jV L) 0 0 (7 * (L 0).val + (L 1).val) k.val (by decide) (by decide) (by omega) hk hx _ (k0_off4_inb L k h1) hoffX fx0 hfx0
    have hP : k0_chk1 L (gIdx (F := F) d (cV L) (jV L) (k0_off4 k) (k0_off4_inb L k h1) fx0) := fun _ => hin
    ihave Hw := (wp_gTrip (F := F) d (cV L) (jV L) (k0_off4 k) (k0_off5 k) (k0_off4_inb L k h1) (k0_off5_inb L k h1) (k0_chk1 L) (k0_chk1.dec L)
        (fun v hw => k0_idx1_inb L v hw h1) (xSlot0).view.set fx0 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 0 0 k.val hc2 (by omega) (by decide) (by decide) hk hx _ _ _ _ hoffX hoffV fx0 fsub f hfx0 hfsub hG _
  · unfold gInv
    isplitl [Hx0]; · iexact Hx0
    isplitl [Hb0]; · iexact Hb0
    iexists _; isplitl [Hb2]; · iexact Hb2
    ipureintro; intro t ht; exact absurd ht (by omega)
  iintro %_ HI
  unfold gInv
  icases HI with ⟨Hx0, Hb0, %fv1, Hb2, %hG1⟩
  ihave Hx0 := (Entails.of_eq (show ((xM).view.loc (V d (cV L) (jV L)) ↦[(xSlot0).view.set]{fullShare} fx0 : sProp 𝕄)
      = ((xSlot0).view.loc (V d (cV L) (jV L)) ↦[(xSlot0).view.set]{fullShare} fx0) from rfl)) $$ Hx0
  sl_exec
  -- chunk 1: slot 1 of the index scratch has it; the loop looks its 2048 indices up
  have hfx1 : XHolds m d (cV L) (jV L) 1 1 (7 * (L 0).val + (L 1).val) ((xSlot1).view.writes (Elt F) (xSlot1).view.junk [⟨Rect.whole S2048, tile_body_A.sl.dma0_2 m d L h1⟩]) := by
    unfold tile_body_A.sl.dma0_2
    exact xholds_landed (F := F) m d (cV L) (jV L) 1 1 (7 * (L 0).val + (L 1).val) _ _ rfl _ _ (k0_off3_eq L) _
  generalize ((xSlot1).view.writes (Elt F) (xSlot1).view.junk [⟨Rect.whole S2048, tile_body_A.sl.dma0_2 m d L h1⟩]) = fx1 at hfx1 ⊢
  sl_for (gInv (F := F) d (cV L) (jV L) (xSlot1).view.set fx1 fsub (Good m d (cV L) (jV L) (L 0).val (L 1).val 1)) $$ [Hx1 Hb0 Hb2]
  case region =>
    intro k u
    unfold gInv
    iintro ⟨H6, H5, %f, H7, %hG⟩
    have hk : k.val < 128 := lt_of_lt_of_le k.isLt k0_t2_abs.2.1
    have hoffX : k0_off8 k = ![2048 * 1 + 16 * k.val] := by rw [k0_off8_eq, show 2048 * 1 + 16 * k.val = 16 * k.val + 2048 by omega]
    have hoffV : k0_off9 k = ![16 * k.val] := k0_off9_eq k
    have hS6 : (xM).view.setOn (Rect.unit (s := S4096) (k0_off8 k) S16.size (k0_off8_inb L k h1)).toLoadRect.set ⊆ (xSlot1).view.set := by
      rw [set_xSlot1]; exact box_sub_slot 1 k.val _ _ hoffX hk
    have hin := chk_of_holds (F := F) m d (cV L) (jV L) 1 1 (7 * (L 0).val + (L 1).val) k.val (by decide) (by decide) (by omega) hk hx _ (k0_off8_inb L k h1) hoffX fx1 hfx1
    have hP : k0_chk2 L (gIdx (F := F) d (cV L) (jV L) (k0_off8 k) (k0_off8_inb L k h1) fx1) := fun _ => hin
    ihave Hw := (wp_gTrip (F := F) d (cV L) (jV L) (k0_off8 k) (k0_off9 k) (k0_off8_inb L k h1) (k0_off9_inb L k h1) (k0_chk2 L) (k0_chk2.dec L)
        (fun v hw => k0_idx2_inb L v hw h1) (xSlot1).view.set fx1 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 1 1 k.val hc2 (by omega) (by decide) (by decide) hk hx _ _ _ _ hoffX hoffV fx1 fsub f hfx1 hfsub hG _
  · unfold gInv
    isplitl [Hx1]; · iexact Hx1
    isplitl [Hb0]; · iexact Hb0
    iexists _; isplitl [Hb2]; · iexact Hb2
    ipureintro; intro t ht; exact absurd ht (by omega)
  iintro %_ HI
  unfold gInv
  icases HI with ⟨Hx1, Hb0, %fv2, Hb2, %hG2⟩
  ihave Hx1 := (Entails.of_eq (show ((xM).view.loc (V d (cV L) (jV L)) ↦[(xSlot1).view.set]{fullShare} fx1 : sProp 𝕄)
      = ((xSlot1).view.loc (V d (cV L) (jV L)) ↦[(xSlot1).view.set]{fullShare} fx1) from rfl)) $$ Hx1
  sl_exec
  -- chunk 2: slot 0 of the index scratch has it; the loop looks its 2048 indices up
  have hfx2 : XHolds m d (cV L) (jV L) 0 2 (7 * (L 0).val + (L 1).val) ((xSlot0).view.writes (Elt F) (xSlot0).view.junk [⟨Rect.whole S2048, tile_body_A.sl.dma0_4 m d L h1⟩]) := by
    unfold tile_body_A.sl.dma0_4
    exact xholds_landed (F := F) m d (cV L) (jV L) 0 2 (7 * (L 0).val + (L 1).val) _ _ rfl _ _ (k0_off7_eq L) _
  generalize ((xSlot0).view.writes (Elt F) (xSlot0).view.junk [⟨Rect.whole S2048, tile_body_A.sl.dma0_4 m d L h1⟩]) = fx2 at hfx2 ⊢
  sl_for (gInv (F := F) d (cV L) (jV L) (xSlot0).view.set fx2 fsub (Good m d (cV L) (jV L) (L 0).val (L 1).val 2)) $$ [Hx0 Hb0 Hb2]
  case region =>
    intro k u
    unfold gInv
    iintro ⟨H6, H5, %f, H7, %hG⟩
    have hk : k.val < 128 := lt_of_lt_of_le k.isLt k0_t3_abs.2.1
    have hoffX : k0_off11 k = ![2048 * 0 + 16 * k.val] := by rw [k0_off11_eq, show 2048 * 0 + 16 * k.val = 16 * k.val by omega]
    have hoffV : k0_off12 k = ![16 * k.val] := k0_off12_eq k
    have hS6 : (xM).view.setOn (Rect.unit (s := S4096) (k0_off11 k) S16.size (k0_off11_inb L k h1)).toLoadRect.set ⊆ (xSlot0).view.set := by
      rw [set_xSlot0]; exact box_sub_slot 0 k.val _ _ hoffX hk
    have hin := chk_of_holds (F := F) m d (cV L) (jV L) 0 2 (7 * (L 0).val + (L 1).val) k.val (by decide) (by decide) (by omega) hk hx _ (k0_off11_inb L k h1) hoffX fx2 hfx2
    have hP : k0_chk3 L (gIdx (F := F) d (cV L) (jV L) (k0_off11 k) (k0_off11_inb L k h1) fx2) := fun _ => hin
    ihave Hw := (wp_gTrip (F := F) d (cV L) (jV L) (k0_off11 k) (k0_off12 k) (k0_off11_inb L k h1) (k0_off12_inb L k h1) (k0_chk3 L) (k0_chk3.dec L)
        (fun v hw => k0_idx3_inb L v hw h1) (xSlot0).view.set fx2 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 2 0 k.val hc2 (by omega) (by decide) (by decide) hk hx _ _ _ _ hoffX hoffV fx2 fsub f hfx2 hfsub hG _
  · unfold gInv
    isplitl [Hx0]; · iexact Hx0
    isplitl [Hb0]; · iexact Hb0
    iexists _; isplitl [Hb2]; · iexact Hb2
    ipureintro; intro t ht; exact absurd ht (by omega)
  iintro %_ HI
  unfold gInv
  icases HI with ⟨Hx0, Hb0, %fv3, Hb2, %hG3⟩
  ihave Hx0 := (Entails.of_eq (show ((xM).view.loc (V d (cV L) (jV L)) ↦[(xSlot0).view.set]{fullShare} fx2 : sProp 𝕄)
      = ((xSlot0).view.loc (V d (cV L) (jV L)) ↦[(xSlot0).view.set]{fullShare} fx2) from rfl)) $$ Hx0
  sl_exec
  -- chunk 3: slot 1 of the index scratch has it; the loop looks its 2048 indices up
  have hfx3 : XHolds m d (cV L) (jV L) 1 3 (7 * (L 0).val + (L 1).val) ((xSlot1).view.writes (Elt F) (xSlot1).view.junk [⟨Rect.whole S2048, tile_body_A.sl.dma0_6 m d L h1⟩]) := by
    unfold tile_body_A.sl.dma0_6
    exact xholds_landed (F := F) m d (cV L) (jV L) 1 3 (7 * (L 0).val + (L 1).val) _ _ rfl _ _ (k0_off10_eq L) _
  generalize ((xSlot1).view.writes (Elt F) (xSlot1).view.junk [⟨Rect.whole S2048, tile_body_A.sl.dma0_6 m d L h1⟩]) = fx3 at hfx3 ⊢
  sl_for (gInv (F := F) d (cV L) (jV L) (xSlot1).view.set fx3 fsub (Good m d (cV L) (jV L) (L 0).val (L 1).val 3)) $$ [Hx1 Hb0 Hb2]
  case region =>
    intro k u
    unfold gInv
    iintro ⟨H6, H5, %f, H7, %hG⟩
    have hk : k.val < 128 := lt_of_lt_of_le k.isLt k0_t4_abs.2.1
    have hoffX : k0_off14 k = ![2048 * 1 + 16 * k.val] := by rw [k0_off14_eq, show 2048 * 1 + 16 * k.val = 16 * k.val + 2048 by omega]
    have hoffV : k0_off15 k = ![16 * k.val] := k0_off15_eq k
    have hS6 : (xM).view.setOn (Rect.unit (s := S4096) (k0_off14 k) S16.size (k0_off14_inb L k h1)).toLoadRect.set ⊆ (xSlot1).view.set := by
      rw [set_xSlot1]; exact box_sub_slot 1 k.val _ _ hoffX hk
    have hin := chk_of_holds (F := F) m d (cV L) (jV L) 1 3 (7 * (L 0).val + (L 1).val) k.val (by decide) (by decide) (by omega) hk hx _ (k0_off14_inb L k h1) hoffX fx3 hfx3
    have hP : k0_chk4 L (gIdx (F := F) d (cV L) (jV L) (k0_off14 k) (k0_off14_inb L k h1) fx3) := fun _ => hin
    ihave Hw := (wp_gTrip (F := F) d (cV L) (jV L) (k0_off14 k) (k0_off15 k) (k0_off14_inb L k h1) (k0_off15_inb L k h1) (k0_chk4 L) (k0_chk4.dec L)
        (fun v hw => k0_idx4_inb L v hw h1) (xSlot1).view.set fx3 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 3 1 k.val hc2 (by omega) (by decide) (by decide) hk hx _ _ _ _ hoffX hoffV fx3 fsub f hfx3 hfsub hG _
  · unfold gInv
    isplitl [Hx1]; · iexact Hx1
    isplitl [Hb0]; · iexact Hb0
    iexists _; isplitl [Hb2]; · iexact Hb2
    ipureintro; intro t ht; exact absurd ht (by omega)
  iintro %_ HI
  unfold gInv
  icases HI with ⟨Hx1, Hb0, %fv4, Hb2, %hG4⟩
  ihave Hx1 := (Entails.of_eq (show ((xM).view.loc (V d (cV L) (jV L)) ↦[(xSlot1).view.set]{fullShare} fx3 : sProp 𝕄)
      = ((xSlot1).view.loc (V d (cV L) (jV L)) ↦[(xSlot1).view.set]{fullShare} fx3) from rfl)) $$ Hx1
  sl_exec
  -- chunk 4: slot 0 of the index scratch has it; the loop looks its 2048 indices up
  have hfx4 : XHolds m d (cV L) (jV L) 0 4 (7 * (L 0).val + (L 1).val) ((xSlot0).view.writes (Elt F) (xSlot0).view.junk [⟨Rect.whole S2048, tile_body_A.sl.dma0_8 m d L h1⟩]) := by
    unfold tile_body_A.sl.dma0_8
    exact xholds_landed (F := F) m d (cV L) (jV L) 0 4 (7 * (L 0).val + (L 1).val) _ _ rfl _ _ (k0_off13_eq L) _
  generalize ((xSlot0).view.writes (Elt F) (xSlot0).view.junk [⟨Rect.whole S2048, tile_body_A.sl.dma0_8 m d L h1⟩]) = fx4 at hfx4 ⊢
  sl_for (gInv (F := F) d (cV L) (jV L) (xSlot0).view.set fx4 fsub (Good m d (cV L) (jV L) (L 0).val (L 1).val 4)) $$ [Hx0 Hb0 Hb2]
  case region =>
    intro k u
    unfold gInv
    iintro ⟨H6, H5, %f, H7, %hG⟩
    have hk : k.val < 128 := lt_of_lt_of_le k.isLt k0_t5_abs.2.1
    have hoffX : k0_off17 k = ![2048 * 0 + 16 * k.val] := by rw [k0_off17_eq, show 2048 * 0 + 16 * k.val = 16 * k.val by omega]
    have hoffV : k0_off18 k = ![16 * k.val] := k0_off18_eq k
    have hS6 : (xM).view.setOn (Rect.unit (s := S4096) (k0_off17 k) S16.size (k0_off17_inb L k h1)).toLoadRect.set ⊆ (xSlot0).view.set := by
      rw [set_xSlot0]; exact box_sub_slot 0 k.val _ _ hoffX hk
    have hin := chk_of_holds (F := F) m d (cV L) (jV L) 0 4 (7 * (L 0).val + (L 1).val) k.val (by decide) (by decide) (by omega) hk hx _ (k0_off17_inb L k h1) hoffX fx4 hfx4
    have hP : k0_chk5 L (gIdx (F := F) d (cV L) (jV L) (k0_off17 k) (k0_off17_inb L k h1) fx4) := fun _ => hin
    ihave Hw := (wp_gTrip (F := F) d (cV L) (jV L) (k0_off17 k) (k0_off18 k) (k0_off17_inb L k h1) (k0_off18_inb L k h1) (k0_chk5 L) (k0_chk5.dec L)
        (fun v hw => k0_idx5_inb L v hw h1) (xSlot0).view.set fx4 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 4 0 k.val hc2 (by omega) (by decide) (by decide) hk hx _ _ _ _ hoffX hoffV fx4 fsub f hfx4 hfsub hG _
  · unfold gInv
    isplitl [Hx0]; · iexact Hx0
    isplitl [Hb0]; · iexact Hb0
    iexists _; isplitl [Hb2]; · iexact Hb2
    ipureintro; intro t ht; exact absurd ht (by omega)
  iintro %_ HI
  unfold gInv
  icases HI with ⟨Hx0, Hb0, %fv5, Hb2, %hG5⟩
  ihave Hx0 := (Entails.of_eq (show ((xM).view.loc (V d (cV L) (jV L)) ↦[(xSlot0).view.set]{fullShare} fx4 : sProp 𝕄)
      = ((xSlot0).view.loc (V d (cV L) (jV L)) ↦[(xSlot0).view.set]{fullShare} fx4) from rfl)) $$ Hx0
  sl_exec
  -- chunk 5: slot 1 of the index scratch has it; the loop looks its 2048 indices up
  have hfx5 : XHolds m d (cV L) (jV L) 1 5 (7 * (L 0).val + (L 1).val) ((xSlot1).view.writes (Elt F) (xSlot1).view.junk [⟨Rect.whole S2048, tile_body_A.sl.dma0_10 m d L h1⟩]) := by
    unfold tile_body_A.sl.dma0_10
    exact xholds_landed (F := F) m d (cV L) (jV L) 1 5 (7 * (L 0).val + (L 1).val) _ _ rfl _ _ (k0_off16_eq L) _
  generalize ((xSlot1).view.writes (Elt F) (xSlot1).view.junk [⟨Rect.whole S2048, tile_body_A.sl.dma0_10 m d L h1⟩]) = fx5 at hfx5 ⊢
  sl_for (gInv (F := F) d (cV L) (jV L) (xSlot1).view.set fx5 fsub (Good m d (cV L) (jV L) (L 0).val (L 1).val 5)) $$ [Hx1 Hb0 Hb2]
  case region =>
    intro k u
    unfold gInv
    iintro ⟨H6, H5, %f, H7, %hG⟩
    have hk : k.val < 128 := lt_of_lt_of_le k.isLt k0_t6_abs.2.1
    have hoffX : k0_off20 k = ![2048 * 1 + 16 * k.val] := by rw [k0_off20_eq, show 2048 * 1 + 16 * k.val = 16 * k.val + 2048 by omega]
    have hoffV : k0_off21 k = ![16 * k.val] := k0_off21_eq k
    have hS6 : (xM).view.setOn (Rect.unit (s := S4096) (k0_off20 k) S16.size (k0_off20_inb L k h1)).toLoadRect.set ⊆ (xSlot1).view.set := by
      rw [set_xSlot1]; exact box_sub_slot 1 k.val _ _ hoffX hk
    have hin := chk_of_holds (F := F) m d (cV L) (jV L) 1 5 (7 * (L 0).val + (L 1).val) k.val (by decide) (by decide) (by omega) hk hx _ (k0_off20_inb L k h1) hoffX fx5 hfx5
    have hP : k0_chk6 L (gIdx (F := F) d (cV L) (jV L) (k0_off20 k) (k0_off20_inb L k h1) fx5) := fun _ => hin
    ihave Hw := (wp_gTrip (F := F) d (cV L) (jV L) (k0_off20 k) (k0_off21 k) (k0_off20_inb L k h1) (k0_off21_inb L k h1) (k0_chk6 L) (k0_chk6.dec L)
        (fun v hw => k0_idx6_inb L v hw h1) (xSlot1).view.set fx5 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 5 1 k.val hc2 (by omega) (by decide) (by decide) hk hx _ _ _ _ hoffX hoffV fx5 fsub f hfx5 hfsub hG _
  · unfold gInv
    isplitl [Hx1]; · iexact Hx1
    isplitl [Hb0]; · iexact Hb0
    iexists _; isplitl [Hb2]; · iexact Hb2
    ipureintro; intro t ht; exact absurd ht (by omega)
  iintro %_ HI
  unfold gInv
  icases HI with ⟨Hx1, Hb0, %fv6, Hb2, %hG6⟩
  ihave Hx1 := (Entails.of_eq (show ((xM).view.loc (V d (cV L) (jV L)) ↦[(xSlot1).view.set]{fullShare} fx5 : sProp 𝕄)
      = ((xSlot1).view.loc (V d (cV L) (jV L)) ↦[(xSlot1).view.set]{fullShare} fx5) from rfl)) $$ Hx1
  sl_exec
  -- chunk 6: slot 0 of the index scratch has it; the loop looks its 2048 indices up
  have hfx6 : XHolds m d (cV L) (jV L) 0 6 (7 * (L 0).val + (L 1).val) ((xSlot0).view.writes (Elt F) (xSlot0).view.junk [⟨Rect.whole S2048, tile_body_A.sl.dma0_12 m d L h1⟩]) := by
    unfold tile_body_A.sl.dma0_12
    exact xholds_landed (F := F) m d (cV L) (jV L) 0 6 (7 * (L 0).val + (L 1).val) _ _ rfl _ _ (k0_off19_eq L) _
  generalize ((xSlot0).view.writes (Elt F) (xSlot0).view.junk [⟨Rect.whole S2048, tile_body_A.sl.dma0_12 m d L h1⟩]) = fx6 at hfx6 ⊢
  sl_for (gInv (F := F) d (cV L) (jV L) (xSlot0).view.set fx6 fsub (Good m d (cV L) (jV L) (L 0).val (L 1).val 6)) $$ [Hx0 Hb0 Hb2]
  case region =>
    intro k u
    unfold gInv
    iintro ⟨H6, H5, %f, H7, %hG⟩
    have hk : k.val < 128 := lt_of_lt_of_le k.isLt k0_t7_abs.2.1
    have hoffX : k0_off23 k = ![2048 * 0 + 16 * k.val] := by rw [k0_off23_eq, show 2048 * 0 + 16 * k.val = 16 * k.val by omega]
    have hoffV : k0_off24 k = ![16 * k.val] := k0_off24_eq k
    have hS6 : (xM).view.setOn (Rect.unit (s := S4096) (k0_off23 k) S16.size (k0_off23_inb L k h1)).toLoadRect.set ⊆ (xSlot0).view.set := by
      rw [set_xSlot0]; exact box_sub_slot 0 k.val _ _ hoffX hk
    have hin := chk_of_holds (F := F) m d (cV L) (jV L) 0 6 (7 * (L 0).val + (L 1).val) k.val (by decide) (by decide) (by omega) hk hx _ (k0_off23_inb L k h1) hoffX fx6 hfx6
    have hP : k0_chk7 L (gIdx (F := F) d (cV L) (jV L) (k0_off23 k) (k0_off23_inb L k h1) fx6) := fun _ => hin
    ihave Hw := (wp_gTrip (F := F) d (cV L) (jV L) (k0_off23 k) (k0_off24 k) (k0_off23_inb L k h1) (k0_off24_inb L k h1) (k0_chk7 L) (k0_chk7.dec L)
        (fun v hw => k0_idx7_inb L v hw h1) (xSlot0).view.set fx6 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 6 0 k.val hc2 (by omega) (by decide) (by decide) hk hx _ _ _ _ hoffX hoffV fx6 fsub f hfx6 hfsub hG _
  · unfold gInv
    isplitl [Hx0]; · iexact Hx0
    isplitl [Hb0]; · iexact Hb0
    iexists _; isplitl [Hb2]; · iexact Hb2
    ipureintro; intro t ht; exact absurd ht (by omega)
  iintro %_ HI
  unfold gInv
  icases HI with ⟨Hx0, Hb0, %fv7, Hb2, %hG7⟩
  ihave Hx0 := (Entails.of_eq (show ((xM).view.loc (V d (cV L) (jV L)) ↦[(xSlot0).view.set]{fullShare} fx6 : sProp 𝕄)
      = ((xSlot0).view.loc (V d (cV L) (jV L)) ↦[(xSlot0).view.set]{fullShare} fx6) from rfl)) $$ Hx0
  sl_exec
  -- chunk 7: slot 1 of the index scratch has it; the loop looks its 2048 indices up
  have hfx7 : XHolds m d (cV L) (jV L) 1 7 (7 * (L 0).val + (L 1).val) ((xSlot1).view.writes (Elt F) (xSlot1).view.junk [⟨Rect.whole S2048, tile_body_A.sl.dma0_14 m d L h1⟩]) := by
    unfold tile_body_A.sl.dma0_14
    exact xholds_landed (F := F) m d (cV L) (jV L) 1 7 (7 * (L 0).val + (L 1).val) _ _ rfl _ _ (k0_off22_eq L) _
  generalize ((xSlot1).view.writes (Elt F) (xSlot1).view.junk [⟨Rect.whole S2048, tile_body_A.sl.dma0_14 m d L h1⟩]) = fx7 at hfx7 ⊢
  sl_for (gInv (F := F) d (cV L) (jV L) (xSlot1).view.set fx7 fsub (Good m d (cV L) (jV L) (L 0).val (L 1).val 7)) $$ [Hx1 Hb0 Hb2]
  case region =>
    intro k u
    unfold gInv
    iintro ⟨H6, H5, %f, H7, %hG⟩
    have hk : k.val < 128 := lt_of_lt_of_le k.isLt k0_t8_abs.2.1
    have hoffX : k0_off25 k = ![2048 * 1 + 16 * k.val] := by rw [k0_off25_eq, show 2048 * 1 + 16 * k.val = 16 * k.val + 2048 by omega]
    have hoffV : k0_off26 k = ![16 * k.val] := k0_off26_eq k
    have hS6 : (xM).view.setOn (Rect.unit (s := S4096) (k0_off25 k) S16.size (k0_off25_inb L k h1)).toLoadRect.set ⊆ (xSlot1).view.set := by
      rw [set_xSlot1]; exact box_sub_slot 1 k.val _ _ hoffX hk
    have hin := chk_of_holds (F := F) m d (cV L) (jV L) 1 7 (7 * (L 0).val + (L 1).val) k.val (by decide) (by decide) (by omega) hk hx _ (k0_off25_inb L k h1) hoffX fx7 hfx7
    have hP : k0_chk8 L (gIdx (F := F) d (cV L) (jV L) (k0_off25 k) (k0_off25_inb L k h1) fx7) := fun _ => hin
    ihave Hw := (wp_gTrip (F := F) d (cV L) (jV L) (k0_off25 k) (k0_off26 k) (k0_off25_inb L k h1) (k0_off26_inb L k h1) (k0_chk8 L) (k0_chk8.dec L)
        (fun v hw => k0_idx8_inb L v hw h1) (xSlot1).view.set fx7 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 7 1 k.val hc2 (by omega) (by decide) (by decide) hk hx _ _ _ _ hoffX hoffV fx7 fsub f hfx7 hfsub hG _
  · unfold gInv
    isplitl [Hx1]; · iexact Hx1
    isplitl [Hb0]; · iexact Hb0
    iexists _; isplitl [Hb2]; · iexact Hb2
    ipureintro; intro t ht; exact absurd ht (by omega)
  iintro %_ HI
  unfold gInv
  icases HI with ⟨Hx1, Hb0, %fv8, Hb2, %hG8⟩
  ihave Hx1 := (Entails.of_eq (show ((xM).view.loc (V d (cV L) (jV L)) ↦[(xSlot1).view.set]{fullShare} fx7 : sProp 𝕄)
      = ((xSlot1).view.loc (V d (cV L) (jV L)) ↦[(xSlot1).view.set]{fullShare} fx7) from rfl)) $$ Hx1
  sl_exec
  have hG1' : Good m d (cV L) (jV L) (L 0).val (L 1).val 0 128 fv1 := by
    have e : Scf.trips k0_t1_loop.lb k0_t1_loop.ub k0_t1_loop.st = 128 := by decide
    rw [e] at hG1; exact hG1
  have hG2' : Good m d (cV L) (jV L) (L 0).val (L 1).val 1 128 fv2 := by
    have e : Scf.trips k0_t2_loop.lb k0_t2_loop.ub k0_t2_loop.st = 128 := by decide
    rw [e] at hG2; exact hG2
  have hG3' : Good m d (cV L) (jV L) (L 0).val (L 1).val 2 128 fv3 := by
    have e : Scf.trips k0_t3_loop.lb k0_t3_loop.ub k0_t3_loop.st = 128 := by decide
    rw [e] at hG3; exact hG3
  have hG4' : Good m d (cV L) (jV L) (L 0).val (L 1).val 3 128 fv4 := by
    have e : Scf.trips k0_t4_loop.lb k0_t4_loop.ub k0_t4_loop.st = 128 := by decide
    rw [e] at hG4; exact hG4
  have hG5' : Good m d (cV L) (jV L) (L 0).val (L 1).val 4 128 fv5 := by
    have e : Scf.trips k0_t5_loop.lb k0_t5_loop.ub k0_t5_loop.st = 128 := by decide
    rw [e] at hG5; exact hG5
  have hG6' : Good m d (cV L) (jV L) (L 0).val (L 1).val 5 128 fv6 := by
    have e : Scf.trips k0_t6_loop.lb k0_t6_loop.ub k0_t6_loop.st = 128 := by decide
    rw [e] at hG6; exact hG6
  have hG7' : Good m d (cV L) (jV L) (L 0).val (L 1).val 6 128 fv7 := by
    have e : Scf.trips k0_t7_loop.lb k0_t7_loop.ub k0_t7_loop.st = 128 := by decide
    rw [e] at hG7; exact hG7
  have hG8' : Good m d (cV L) (jV L) (L 0).val (L 1).val 7 128 fv8 := by
    have e : Scf.trips k0_t8_loop.lb k0_t8_loop.ub k0_t8_loop.st = 128 := by decide
    rw [e] at hG8; exact hG8
  ihave Hr0 := (Entails.of_eq (show (_ : sProp 𝕄) = (acc0Loc d (cT (cL L)) ↦[seg (N := 114688) (16384 * (jL L).val + 2048 * 0) 2048]{fullShare} ACC0 m d (cT (cL L))) from
      (pts_rowPiece (F := F) d L h1 0 _).trans (pointsTo_congr (by
        unfold tile_body_A.sl.dma0_3
        exact piece_landed (F := F) m d (cV L) (jV L) (cT (cL L)) (L 0).val (L 1).val 0 rfl (by omega) (by decide) _ _ (k0_off6_eq L 0) _ fv1 hG1')))) $$ Hr0
  ihave Hr1 := (Entails.of_eq (show (_ : sProp 𝕄) = (acc0Loc d (cT (cL L)) ↦[seg (N := 114688) (16384 * (jL L).val + 2048 * 1) 2048]{fullShare} ACC0 m d (cT (cL L))) from
      (pts_rowPiece (F := F) d L h1 1 _).trans (pointsTo_congr (by
        unfold tile_body_A.sl.dma0_5
        exact piece_landed (F := F) m d (cV L) (jV L) (cT (cL L)) (L 0).val (L 1).val 1 rfl (by omega) (by decide) _ _ (k0_off6_eq L 1) _ fv2 hG2')))) $$ Hr1
  ihave Hr2 := (Entails.of_eq (show (_ : sProp 𝕄) = (acc0Loc d (cT (cL L)) ↦[seg (N := 114688) (16384 * (jL L).val + 2048 * 2) 2048]{fullShare} ACC0 m d (cT (cL L))) from
      (pts_rowPiece (F := F) d L h1 2 _).trans (pointsTo_congr (by
        unfold tile_body_A.sl.dma0_7
        exact piece_landed (F := F) m d (cV L) (jV L) (cT (cL L)) (L 0).val (L 1).val 2 rfl (by omega) (by decide) _ _ (k0_off6_eq L 2) _ fv3 hG3')))) $$ Hr2
  ihave Hr3 := (Entails.of_eq (show (_ : sProp 𝕄) = (acc0Loc d (cT (cL L)) ↦[seg (N := 114688) (16384 * (jL L).val + 2048 * 3) 2048]{fullShare} ACC0 m d (cT (cL L))) from
      (pts_rowPiece (F := F) d L h1 3 _).trans (pointsTo_congr (by
        unfold tile_body_A.sl.dma0_9
        exact piece_landed (F := F) m d (cV L) (jV L) (cT (cL L)) (L 0).val (L 1).val 3 rfl (by omega) (by decide) _ _ (k0_off6_eq L 3) _ fv4 hG4')))) $$ Hr3
  ihave Hr4 := (Entails.of_eq (show (_ : sProp 𝕄) = (acc0Loc d (cT (cL L)) ↦[seg (N := 114688) (16384 * (jL L).val + 2048 * 4) 2048]{fullShare} ACC0 m d (cT (cL L))) from
      (pts_rowPiece (F := F) d L h1 4 _).trans (pointsTo_congr (by
        unfold tile_body_A.sl.dma0_11
        exact piece_landed (F := F) m d (cV L) (jV L) (cT (cL L)) (L 0).val (L 1).val 4 rfl (by omega) (by decide) _ _ (k0_off6_eq L 4) _ fv5 hG5')))) $$ Hr4
  ihave Hr5 := (Entails.of_eq (show (_ : sProp 𝕄) = (acc0Loc d (cT (cL L)) ↦[seg (N := 114688) (16384 * (jL L).val + 2048 * 5) 2048]{fullShare} ACC0 m d (cT (cL L))) from
      (pts_rowPiece (F := F) d L h1 5 _).trans (pointsTo_congr (by
        unfold tile_body_A.sl.dma0_13
        exact piece_landed (F := F) m d (cV L) (jV L) (cT (cL L)) (L 0).val (L 1).val 5 rfl (by omega) (by decide) _ _ (k0_off6_eq L 5) _ fv6 hG6')))) $$ Hr5
  ihave Hr6 := (Entails.of_eq (show (_ : sProp 𝕄) = (acc0Loc d (cT (cL L)) ↦[seg (N := 114688) (16384 * (jL L).val + 2048 * 6) 2048]{fullShare} ACC0 m d (cT (cL L))) from
      (pts_rowPiece (F := F) d L h1 6 _).trans (pointsTo_congr (by
        unfold tile_body_A.sl.dma0_15
        exact piece_landed (F := F) m d (cV L) (jV L) (cT (cL L)) (L 0).val (L 1).val 6 rfl (by omega) (by decide) _ _ (k0_off6_eq L 6) _ fv7 hG7')))) $$ Hr6
  ihave Hr7 := (Entails.of_eq (show (_ : sProp 𝕄) = (acc0Loc d (cT (cL L)) ↦[seg (N := 114688) (16384 * (jL L).val + 2048 * 7) 2048]{fullShare} ACC0 m d (cT (cL L))) from
      (pts_rowPiece (F := F) d L h1 7 _).trans (pointsTo_congr (by
        unfold tile_body_A.sl.dma0_16
        exact piece_landed (F := F) m d (cV L) (jV L) (cT (cL L)) (L 0).val (L 1).val 7 rfl (by omega) (by decide) _ _ (k0_off6_eq L 7) _ fv8 hG8')))) $$ Hr7
  -- the row at the looked-up values; the scratches and shares in the launch's spelling again
  ihave Hrow := (Entails.of_eq (row_split (F := F) d (cT (cL L)) (jL L).val (ACC0 m d (cT (cL L)))).symm) $$ [Hr0 Hr1 Hr2 Hr3 Hr4 Hr5 Hr6 Hr7]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  ihave Hb1 := (x_join (F := F) d (cV L) (jV L) _ _) $$ [Hx0 Hx1]
  · isplitl [Hx0]; · iexact Hx0
    iexact Hx1
  icases Hb1 with ⟨%f1', Hb1⟩
  ihave Hxt := (Entails.of_eq (pts_xt (F := F) d (cV L) (jV L) _ _)) $$ Hxt
  ihave Hwh := (Entails.of_eq (pts_wh (F := F) d (cV L) (jV L) _ _)) $$ Hwh
  ihave Hp0 := (Entails.of_eq (pts_poK (F := F) d L _)) $$ Hp0
  ihave Hb0 := (Entails.of_eq (pts_sub (F := F) d (cV L) (jV L) _)) $$ Hb0
  ihave Hb2 := (Entails.of_eq (pts_val (F := F) d (cV L) (jV L) _)) $$ Hb2
  ihave Hb3 := (Entails.of_eq (pts_red (F := F) d (cV L) (jV L) _)) $$ Hb3
  ihave Hb4 := (Entails.of_eq (pts_out (F := F) d (cV L) (jV L) _)) $$ Hb4
  ihave Hpay := (Entails.of_eq (show (acc0Loc d (cT (cL L)) ↦[seg (N := 114688) (16384 * (jL L).val) 16384]{fullShare} ACC0 m d (cT (cL L)) : sProp 𝕄) = _ from
      pays_row (F := F) m d (cV L) (jV L).val hs7)) $$ Hrow
  -- the waits recorded so far: all at index none
  ihave HOg := (gen_waits (F := F) _ _ _) $$ HO
  icases HOg with ⟨%W₁, %hW₁e, HO⟩
  have hW₁ : ∀ p ∈ W₁, p ∈ W ∨ p.2 = none := by
    subst hW₁e; intro p hp
    repeat (first | exact .inl hp | (rcases Finset.mem_insert.mp hp with e | hp; · exact .inr (by rw [e]; rfl)))
  clear hW₁e
  -- the barrier: the sixteen payloads handed over; its own round's seven column blocks received
  iapply (SparseCore.wp_subcoreBarrier 𝒱₀ none EB (bRd (F := F) m) d (sc := cV L) (i := jV L) sc_bar0 (grid0.bound 1) hsub0 (L 1) rfl κ (fun _ => 0) (jV L).val
      (fun j => bRd_mem m d _ _ _ (by decide)) (fun _ => rfl) (bRd_expect m d _ _ (by decide)) (some 0) O _) $$ [HO Htoks Hpay Hcred Hat]
  · isplitr; · iexact Hinv
    isplitl [HO]; · iexact HO
    isplitl [Htoks Hpay]
    · rw [bigSep_sep', bigSep_sep']
      isplitl [Htoks]; · iexact Htoks
      isplitl [Hpay]; · iexact Hpay
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, Hrch1, Hgot⟩
  ihave Hcols := (pays_got m d (cV L) (jV L)) $$ Hgot
  icases Hcols with ⟨Hq0, Hq1, Hq2, Hq3, Hq4, Hq5, Hq6⟩
  -- each column block in two halves, the reduce scratch in seven windows, as the copies name them
  have l0 : 0 < 7 := by decide
  have l1 : 1 < 7 := by decide
  have l2 : 2 < 7 := by decide
  have l3 : 3 < 7 := by decide
  have l4 : 4 < 7 := by decide
  have l5 : 5 < 7 := by decide
  have l6 : 6 < 7 := by decide
  ihave Hh0 := (Entails.of_eq (acc_halves (F := F) d L 0 l0 _)) $$ Hq0
  icases Hh0 with ⟨Ha0, Hz0⟩
  ihave Hh1 := (Entails.of_eq (acc_halves (F := F) d L 1 l1 _)) $$ Hq1
  icases Hh1 with ⟨Ha1, Hz1⟩
  ihave Hh2 := (Entails.of_eq (acc_halves (F := F) d L 2 l2 _)) $$ Hq2
  icases Hh2 with ⟨Ha2, Hz2⟩
  ihave Hh3 := (Entails.of_eq (acc_halves (F := F) d L 3 l3 _)) $$ Hq3
  icases Hh3 with ⟨Ha3, Hz3⟩
  ihave Hh4 := (Entails.of_eq (acc_halves (F := F) d L 4 l4 _)) $$ Hq4
  icases Hh4 with ⟨Ha4, Hz4⟩
  ihave Hh5 := (Entails.of_eq (acc_halves (F := F) d L 5 l5 _)) $$ Hq5
  icases Hh5 with ⟨Ha5, Hz5⟩
  ihave Hh6 := (Entails.of_eq (acc_halves (F := F) d L 6 l6 _)) $$ Hq6
  icases Hh6 with ⟨Ha6, Hz6⟩
  ihave Hw := (Entails.of_eq (scr3_windows (F := F) d L f3)) $$ Hb3
  icases Hw with ⟨Hd0, Hd1, Hd2, Hd3, Hd4, Hd5, Hd6⟩
  haveI hst0 : ∀ t : Fin 7, BI.Storable (upEmb : UEmb _ 𝕄) (deliv (F := F) d L 0 (fun _ => ACC0 m d (cV L)) (fun _ => f3) t) :=
    fun t => deliv_storable (F := F) d L 0 _ _ t
  imod (Transfers.batch_alloc' (Lvl := ℕ) countersEmb (V d (cV L) (jV L)) (default : HIx 2) NW (deliv (F := F) d L 0 (fun _ => ACC0 m d (cV L)) (fun _ => f3))
    (sm := .dma cc0_scratch6.sem) (E := Set.univ)) $$ Hs6 with HB
  sl_exec
  -- the seven windows landed: the reduce scratch whole again, at one function
  ihave Hg := (windows_join (F := F) d L (fun n => landedJ (F := F) d L 0 n (ACC0 m d (cV L))) ) $$ [HB_dst0 HB_dst1 HB_dst2 HB_dst3 HB_dst4 HB_dst5 HB_dst6]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    iexact HB_dst6
  icases Hg with ⟨%g, %hg, Hg⟩
  ihave Hb4' := (Entails.of_eq (show ((V d (cV L) (jV L)).loc cc0_scratch4 ↦{fullShare} f4 : sProp 𝕄) = ((Memref.whole cc0_scratch4).view.loc (V d (cV L) (jV L)) ↦{fullShare} f4) from rfl)) $$ Hb4
  sl_for (invR (F := F) m d L 0 g) $$ [Hg Hb4']
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g (ValueIdx.ix1 (⟨512 * n.val + j, by have := n.isLt; omega⟩ : Fin 3584))
        = accAt (XT m d) (WH0 m d) 0 (cV L).val n.val (1024 * (L 1).val + 0 + j) := fun n j hj => hgv_of (F := F) m d L 0 g hg n j hj
    exact step_gen_0 d (cV L) (jV L) (XT m d) (WH0 m d) 0 (cV L).val (L 1).val 0 k.val hkt (by omega) k0_pay3
      (fun v0 v1 v2 v3 v4 v5 v6 l b h0 h1 h2 h3 h4 h5 h6 => pay3_partAt_k0 (XT m d) (WH0 m d) 0 (cV L).val b v0 v1 v2 v3 v4 v5 v6 l h0 h1 h2 h3 h4 h5 h6)
      g h _ _ ((Gen.k0_off32_eq k).trans (vec1 _ _ (by omega)))
      _ _ ((Gen.k0_off30_eq k).trans (vec1 _ _ (by omega)))
      _ _ ((Gen.k0_off31_eq k ⟨0, by decide⟩).trans (vec1 _ _ (by show 512 * 0 + 16 * k.val + 512 = 512 * 1 + 16 * k.val; omega)))
      _ _ ((Gen.k0_off31_eq k ⟨1, by decide⟩).trans (vec1 _ _ (by show 512 * 1 + 16 * k.val + 512 = 512 * 2 + 16 * k.val; omega)))
      _ _ ((Gen.k0_off31_eq k ⟨2, by decide⟩).trans (vec1 _ _ (by show 512 * 2 + 16 * k.val + 512 = 512 * 3 + 16 * k.val; omega)))
      _ _ ((Gen.k0_off31_eq k ⟨3, by decide⟩).trans (vec1 _ _ (by show 512 * 3 + 16 * k.val + 512 = 512 * 4 + 16 * k.val; omega)))
      _ _ ((Gen.k0_off31_eq k ⟨4, by decide⟩).trans (vec1 _ _ (by show 512 * 4 + 16 * k.val + 512 = 512 * 5 + 16 * k.val; omega)))
      _ _ ((Gen.k0_off31_eq k ⟨5, by decide⟩).trans (vec1 _ _ (by show 512 * 5 + 16 * k.val + 512 = 512 * 6 + 16 * k.val; omega)))
      hgv' hh
  · unfold invR
    isplitl [Hg]; · iexact Hg
    iexists f4
    isplitl [Hb4']; · iexact Hb4'
    ipureintro; intro k hk; exact absurd hk (by omega)
  iintro %_ HI
  unfold invR
  icases HI with ⟨Hg, ⟨%h1, Hh, %hh1⟩⟩
  -- the second batch: the other halves into the same seven windows
  ihave Hg' := (Entails.of_eq (show ((Memref.whole cc0_scratch3).view.loc (V d (cV L) (jV L)) ↦{fullShare} g : sProp 𝕄) = ((V d (cV L) (jV L)).loc cc0_scratch3 ↦{fullShare} g) from rfl)) $$ Hg
  ihave Hw2 := (Entails.of_eq (scr3_windows (F := F) d L g)) $$ Hg'
  icases Hw2 with ⟨He0, He1, He2, He3, He4, He5, He6⟩
  ihave HB' := (show (semVal ((V d (cV L) (jV L), SemLoc.dma cc0_scratch6.sem) : GSem nD τ sig) 0 : sProp 𝕄) ⊢ semVal ((V d (cV L) (jV L), SemLoc.dma cc0_scratch6.sem) : GSem nD τ sig) 0 from BI.Entails.refl _) $$ [HB]
  · iexact HB
  haveI hst1 : ∀ t : Fin 7, BI.Storable (upEmb : UEmb _ 𝕄) (deliv (F := F) d L 1 (fun _ => ACC0 m d (cV L)) (fun _ => g) t) :=
    fun t => deliv_storable (F := F) d L 1 _ _ t
  imod (Transfers.batch_alloc' (Lvl := ℕ) countersEmb (V d (cV L) (jV L)) (default : HIx 2) NW (deliv (F := F) d L 1 (fun _ => ACC0 m d (cV L)) (fun _ => g))
    (sm := .dma cc0_scratch6.sem) (E := Set.univ)) $$ HB' with HC
  sl_exec
  ihave Hg2J := (windows_join (F := F) d L (fun n => landedJ (F := F) d L 1 n (ACC0 m d (cV L)))) $$ [HC_dst0 HC_dst1 HC_dst2 HC_dst3 HC_dst4 HC_dst5 HC_dst6]
  · isplitl [HC_dst0]; · iexact HC_dst0
    isplitl [HC_dst1]; · iexact HC_dst1
    isplitl [HC_dst2]; · iexact HC_dst2
    isplitl [HC_dst3]; · iexact HC_dst3
    isplitl [HC_dst4]; · iexact HC_dst4
    isplitl [HC_dst5]; · iexact HC_dst5
    iexact HC_dst6
  icases Hg2J with ⟨%g2, %hg2, Hg2⟩
  sl_for (invR (F := F) m d L 512 g2) $$ [Hg2 Hh]
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g2 (ValueIdx.ix1 (⟨512 * n.val + j, by have := n.isLt; omega⟩ : Fin 3584))
        = accAt (XT m d) (WH0 m d) 0 (cV L).val n.val (1024 * (L 1).val + 512 + j) := fun n j hj => hgv_of (F := F) m d L 1 g2 hg2 n j hj
    exact step_gen_0 d (cV L) (jV L) (XT m d) (WH0 m d) 0 (cV L).val (L 1).val 512 k.val hkt (by omega) k0_pay1
      (fun v0 v1 v2 v3 v4 v5 v6 l b h0 h1 h2 h3 h4 h5 h6 => pay1_partAt_k0 (XT m d) (WH0 m d) 0 (cV L).val b v0 v1 v2 v3 v4 v5 v6 l h0 h1 h2 h3 h4 h5 h6)
      g2 h _ _ ((Gen.k0_off35_eq k).trans (vec1 _ _ (by omega)))
      _ _ ((Gen.k0_off33_eq k).trans (vec1 _ _ (by omega)))
      _ _ ((Gen.k0_off34_eq k ⟨0, by decide⟩).trans (vec1 _ _ (by show 512 * 0 + 16 * k.val + 512 = 512 * 1 + 16 * k.val; omega)))
      _ _ ((Gen.k0_off34_eq k ⟨1, by decide⟩).trans (vec1 _ _ (by show 512 * 1 + 16 * k.val + 512 = 512 * 2 + 16 * k.val; omega)))
      _ _ ((Gen.k0_off34_eq k ⟨2, by decide⟩).trans (vec1 _ _ (by show 512 * 2 + 16 * k.val + 512 = 512 * 3 + 16 * k.val; omega)))
      _ _ ((Gen.k0_off34_eq k ⟨3, by decide⟩).trans (vec1 _ _ (by show 512 * 3 + 16 * k.val + 512 = 512 * 4 + 16 * k.val; omega)))
      _ _ ((Gen.k0_off34_eq k ⟨4, by decide⟩).trans (vec1 _ _ (by show 512 * 4 + 16 * k.val + 512 = 512 * 5 + 16 * k.val; omega)))
      _ _ ((Gen.k0_off34_eq k ⟨5, by decide⟩).trans (vec1 _ _ (by show 512 * 5 + 16 * k.val + 512 = 512 * 6 + 16 * k.val; omega)))
      hgv' hh
  · unfold invR
    isplitl [Hg2]; · iexact Hg2
    iexists h1
    isplitl [Hh]; · iexact Hh
    ipureintro; intro k hk; exact hh1 k (by show k.val < 0 + 16 * 32; omega)
  iintro %_ HI2
  unfold invR
  icases HI2 with ⟨Hg2, ⟨%h2, Hh, %hh2⟩⟩
  -- the write-out: the output scratch into the tile's 1024 entries of the result
  ihave Hp0' := (Entails.of_eq (pts_poK (F := F) d L _).symm) $$ Hp0
  sl_exec
  have hfull : ∀ k : Fin 1024, (show F .f32 from h2 (ValueIdx.ix1 k)) = partAt (XT m d) (WH0 m d) 0 (L 0).val (1024 * (L 1).val + k.val) :=
    fun k => hh2 k (by have := k.isLt; show k.val < 512 + 16 * 32; omega)
  ihave Hp0 := (Entails.of_eq (show (_ : sProp 𝕄) = (p0Loc d ↦[seg (N := 32768) (16384 * (cL L).val + 1024 * (jL L).val) 1024]{fullShare} PT0 m d) from
    (pts_poK (F := F) d L _).trans (pointsTo_congr (by exact out_landed (F := F) m d (cV L) (jV L) (L 0).val (L 1).val (L 0).isLt (L 1).isLt _ _ (k0_off36_eq L) _ h2 hfull)))) $$ Hp0'
  -- the column blocks whole again, the scratches as the launch names them
  ihave Hq0 := (Entails.of_eq (acc_halves (F := F) d L 0 l0 (ACC0 m d (cV L))).symm) $$ [HB_src0 HC_src0]
  · isplitl [HB_src0]; · iexact HB_src0
    iexact HC_src0
  ihave Hq1 := (Entails.of_eq (acc_halves (F := F) d L 1 l1 (ACC0 m d (cV L))).symm) $$ [HB_src1 HC_src1]
  · isplitl [HB_src1]; · iexact HB_src1
    iexact HC_src1
  ihave Hq2 := (Entails.of_eq (acc_halves (F := F) d L 2 l2 (ACC0 m d (cV L))).symm) $$ [HB_src2 HC_src2]
  · isplitl [HB_src2]; · iexact HB_src2
    iexact HC_src2
  ihave Hq3 := (Entails.of_eq (acc_halves (F := F) d L 3 l3 (ACC0 m d (cV L))).symm) $$ [HB_src3 HC_src3]
  · isplitl [HB_src3]; · iexact HB_src3
    iexact HC_src3
  ihave Hq4 := (Entails.of_eq (acc_halves (F := F) d L 4 l4 (ACC0 m d (cV L))).symm) $$ [HB_src4 HC_src4]
  · isplitl [HB_src4]; · iexact HB_src4
    iexact HC_src4
  ihave Hq5 := (Entails.of_eq (acc_halves (F := F) d L 5 l5 (ACC0 m d (cV L))).symm) $$ [HB_src5 HC_src5]
  · isplitl [HB_src5]; · iexact HB_src5
    iexact HC_src5
  ihave Hq6 := (Entails.of_eq (acc_halves (F := F) d L 6 l6 (ACC0 m d (cV L))).symm) $$ [HB_src6 HC_src6]
  · isplitl [HB_src6]; · iexact HB_src6
    iexact HC_src6
  ihave Hb3 := (Entails.of_eq (show ((Memref.whole cc0_scratch3).view.loc (V d (cV L) (jV L)) ↦{fullShare} g2 : sProp 𝕄) = ((V d (cV L) (jV L)).loc cc0_scratch3 ↦{fullShare} g2) from rfl)) $$ Hg2
  ihave Hb4 := (Entails.of_eq (show ((Memref.whole cc0_scratch4).view.loc (V d (cV L) (jV L)) ↦{fullShare} h2 : sProp 𝕄) = ((V d (cV L) (jV L)).loc cc0_scratch4 ↦{fullShare} h2) from rfl)) $$ Hh
  -- the waits recorded: all at index none, or the barrier's
  ihave HOg := (gen_waits (F := F) _ _ _) $$ HO
  icases HOg with ⟨%W₂, %hW₂e, HO⟩
  have hW₂ : ∀ p ∈ W₂, p ∈ W ∨ p.2 = none ∨ p.2 = some (0 : Fin 2) := by
    subst hW₂e; intro p hp
    repeat (first | exact (hW₁ p hp).imp_right Or.inl | (rcases Finset.mem_insert.mp hp with e | hp; · first | exact .inr (.inl (by rw [e]; rfl)) | exact .inr (.inr (by rw [e]))))
  sl_step
  iapply (post_intro' (F := F) m d L hF O W W₂ hW₂) $$ [Hxt Hwh Hp0 Hq0 Hq1 Hq2 Hq3 Hq4 Hq5 Hq6 Hat Hrch1 Hb0 Hb1 Hb2 Hb3 Hb4 Hbufs HC Hs7 Hs8 Hs9 Hc0 Hc1 Hc2 Hc3 Hc4 Hc5 Hc6 Hc7 Hc8 Hc9 Hc10 Hc11 Hc12 Hc13 Hc14 Hc15 Hc16 Hsems HO]
  isplitl [Hxt]; · iexact Hxt
  isplitl [Hwh]; · iexact Hwh
  isplitl [Hp0]; · iexact Hp0
  isplitl [Hq0 Hq1 Hq2 Hq3 Hq4 Hq5 Hq6]
  · isplitl [Hq0]; · iexists _; iexact Hq0
    isplitl [Hq1]; · iexists _; iexact Hq1
    isplitl [Hq2]; · iexists _; iexact Hq2
    isplitl [Hq3]; · iexists _; iexact Hq3
    isplitl [Hq4]; · iexists _; iexact Hq4
    isplitl [Hq5]; · iexists _; iexact Hq5
    iexists _; iexact Hq6
  isplitl [Hat]; · iexact Hat
  isplitl [Hrch1]; · iexact Hrch1
  isplitl [Hb0 Hb1 Hb2 Hb3 Hb4]
  · isplitl [Hb0]; · iexists _; iexact Hb0
    isplitl [Hb1]; · iexists _; iexact Hb1
    isplitl [Hb2]; · iexists _; iexact Hb2
    isplitl [Hb3]; · iexists _; iexact Hb3
    iexists _; iexact Hb4
  isplitl [Hbufs]; · iexact Hbufs
  isplitl [HC Hs7 Hs8 Hs9 Hc0 Hc1 Hc2 Hc3 Hc4 Hc5 Hc6 Hc7 Hc8 Hc9 Hc10 Hc11 Hc12 Hc13 Hc14 Hc15 Hc16]
  · isplitl [HC]; · iexact HC
    isplitl [Hs7]; · iexact Hs7
    isplitl [Hs8]; · iexact Hs8
    isplitl [Hs9]; · iexact Hs9
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    iexact Hc16
  isplitl [Hsems]; · iexact Hsems
  iexact HO

/-- The task on tile `(L 0, L 1)`: whichever of the three kinds of tile it is. -/
theorem tile_body (hx : InRange m) (hF : (K (F := F)).Facts) (O : CellTallies nD τ sig (HIx 2)) (W : Waits sig (HIx 2)) (hO : ∀ g, O g none = 0)
    (hOlev : ∀ g ι, 0 < O g ι → 8 * (0 : Fin 2).val + 6 ≤ (K (F := F)).lev g ι) :
    iprop(levAts (K (F := F)).L (K (F := F)).lev ∗ bkit m 0 d (cV L) (jV L) ∗ go0 m d (cL L) (jL L)
        ∗ scopedBufs (V d (cV L) (jV L)) ∗ scopedSems0 (V d (cV L) (jV L)) ∗ owes (V d (cV L) (jV L)) (O + oxV 0 d (cV L)) W)
      ⊢ wp frame (wpE (defs₀ (F := F)) 𝒱₀ (V d (cV L) (jV L)) none) Set.univ (prog0 (F := F) L)
          fun _ => iprop(td0 m d (cL L) (jL L) ∗ scopedBufs (V d (cV L) (jV L)) ∗ scopedSems0 (V d (cV L) (jV L))
            ∗ ∃ W', ⌜∀ p ∈ W', p ∈ W ∨ p.2 = none ∨ p.2 = some (0 : Fin 2)⌝ ∗ owes (V d (cV L) (jV L)) O W') := by
  by_cases h1 : k0_cond1 L = 1#1
  · exact tile_body_A m d L h1 hx hF O W hO hOlev
  · by_cases h2 : k0_cond2 L = 1#1
    · exact tile_body_B m d L h1 h2 hx hF O W hO hOlev
    · exact tile_body_C m d L h1 h2 hx hF O W hO hOlev

end Tile

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => prog0 (F := F) (coordsV c s)) ⟨⟩ c s := rfl

end T0

set_option maxRecDepth 16384 in
/-- Lookup 0's task obligation: every tile's task, from what the launch deals it to what it hands back. -/
theorem tileObl0 (hx : InRange m) (hF : (K (F := F)).Facts) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change iprop(levAts _ _ ∗ bkit m 0 d ((K (F := F)).core 0 c) ((K (F := F)).sub 0 i) ∗ go0 m d (cN 0 c) (iN 0 i) ∗ _ ∗ _
      ∗ owes _ (O + oxV 0 d ((K (F := F)).core 0 c)) W) ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [T0.defs₀_vector]; simp only [SparseCore.onTile, hci, and_self, ↓reduceDIte]
  exact T0.tile_body m d (T0.coordsV ⟨_, hci.1⟩ ⟨_, hci.2⟩) hx hF O W hO hOlev

end Cert.Proof.KB

end
-- ==== Proof.KB.Tile1Pieces.lean ====
/-
  Lookup 1, one tile: the pieces its task's proof is assembled from.
  A tile's coordinates; the slice of a flat array at a unit rectangle as a segment; the tile's own twenty-one DMA
  semaphores and five scratch buffers taken out of its own cells and references one by one; and the barrier's
  payloads: a tile that owns no row (tiles 7 to 15) hands nothing over, and every tile's own round collects its
  column block of each of the seven rows of the shared buffer at the looked-up values.
-/
import proofs.«207420_g80582176408339_cont_9to1c4b_743_56_alg».proof.Proof.KB.Segs

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T1

/-! ## A tile's coordinates -/

abbrev cV (L : grid1.Coords) : Fin τ.nSC := (L 0).castLE hcore1
abbrev jV (L : grid1.Coords) : Fin τ.nSub := (L 1).castLE hsub1
omit [FloatOps F] in
theorem bound_zero : grid1.bound 0 = 2 := rfl
omit [FloatOps F] in
theorem bound_one : grid1.bound 1 = 16 := rfl
abbrev cL (L : grid1.Coords) : Fin 2 := Fin.cast bound_zero (L 0)
abbrev jL (L : grid1.Coords) : Fin 16 := Fin.cast bound_one (L 1)

/-! ## The slice of a flat array at a unit rectangle is a segment -/

omit [FloatOps F] in
theorem unit_set_seg {N : Nat} (off size : Fin 1 → Nat) (inb : ∀ a, off a + size a ≤ (⟨1, ![N]⟩ : Shape).size a) :
    (Rect.unit (s := (⟨1, ![N]⟩ : Shape)) off size inb).set = seg (N := N) (off 0) (size 0) := by
  ext i
  rw [Rect.mem_set_unit, mem_seg]
  constructor
  · intro h; exact h 0
  · intro h a
    obtain rfl : a = 0 := Subsingleton.elim _ _
    exact h

/-! ## The tile's own semaphores and buffers, one by one -/

/-- The tile's twenty-one DMA semaphores: the kernel's four and the seventeen of its scoped regions. -/
def semLocs : List (SemLoc sig) :=
  [.dma cc1_scratch6.sem, .dma cc1_scratch7.sem, .dma cc1_scratch8.sem, .dma cc1_scratch9.sem,
   .dma cc1_scoped0.sem, .dma cc1_scoped1.sem, .dma cc1_scoped2.sem, .dma cc1_scoped3.sem, .dma cc1_scoped4.sem, .dma cc1_scoped5.sem,
   .dma cc1_scoped6.sem, .dma cc1_scoped7.sem, .dma cc1_scoped8.sem, .dma cc1_scoped9.sem, .dma cc1_scoped10.sem, .dma cc1_scoped11.sem,
   .dma cc1_scoped12.sem, .dma cc1_scoped13.sem, .dma cc1_scoped14.sem, .dma cc1_scoped15.sem, .dma cc1_scoped16.sem]

omit [FloatOps F] in
theorem semLocs_nodup : semLocs.Nodup := by decide
omit [FloatOps F] in
theorem semLocs_scoped : ∀ sm ∈ semLocs, (sm : SemLoc sig).isScoped .scVector = true := by decide

abbrev semCells (thr : Thread nD τ) : List (GSem nD τ sig) := semLocs.map fun sm => (thr, sm)

omit [FloatOps F] in
theorem semCells_nodup (thr : Thread nD τ) : (semCells thr).Nodup :=
  semLocs_nodup.map fun _ _ e => (Prod.mk.inj e).2

omit [FloatOps F] in
theorem semCells_sub (d : Dev nD) (c : Fin τ.nSC) (i : Fin τ.nSub) : (semCells (V d c i)).toFinset ⊆ ownCells (V d c i) := by
  intro g hg
  rw [List.mem_toFinset, List.mem_map] at hg
  obtain ⟨sm, hsm, rfl⟩ := hg
  exact mem_ownCells.mpr ⟨rfl, semLocs_scoped sm hsm⟩

omit [FloatOps F] in
theorem ownSems0_V (d : Dev nD) (c : Fin τ.nSC) (i : Fin τ.nSub) :
    (ownSems0 (V d c i) : sProp 𝕄)
      = iprop((semVal ((V d c i, SemLoc.dma cc1_scratch6.sem) : GSem nD τ sig) 0
          ∗ semVal ((V d c i, SemLoc.dma cc1_scratch7.sem) : GSem nD τ sig) 0
          ∗ semVal ((V d c i, SemLoc.dma cc1_scratch8.sem) : GSem nD τ sig) 0
          ∗ semVal ((V d c i, SemLoc.dma cc1_scratch9.sem) : GSem nD τ sig) 0
          ∗ semVal ((V d c i, SemLoc.dma cc1_scoped0.sem) : GSem nD τ sig) 0
          ∗ semVal ((V d c i, SemLoc.dma cc1_scoped1.sem) : GSem nD τ sig) 0
          ∗ semVal ((V d c i, SemLoc.dma cc1_scoped2.sem) : GSem nD τ sig) 0
          ∗ semVal ((V d c i, SemLoc.dma cc1_scoped3.sem) : GSem nD τ sig) 0
          ∗ semVal ((V d c i, SemLoc.dma cc1_scoped4.sem) : GSem nD τ sig) 0
          ∗ semVal ((V d c i, SemLoc.dma cc1_scoped5.sem) : GSem nD τ sig) 0
          ∗ semVal ((V d c i, SemLoc.dma cc1_scoped6.sem) : GSem nD τ sig) 0
          ∗ semVal ((V d c i, SemLoc.dma cc1_scoped7.sem) : GSem nD τ sig) 0
          ∗ semVal ((V d c i, SemLoc.dma cc1_scoped8.sem) : GSem nD τ sig) 0
          ∗ semVal ((V d c i, SemLoc.dma cc1_scoped9.sem) : GSem nD τ sig) 0
          ∗ semVal ((V d c i, SemLoc.dma cc1_scoped10.sem) : GSem nD τ sig) 0
          ∗ semVal ((V d c i, SemLoc.dma cc1_scoped11.sem) : GSem nD τ sig) 0
          ∗ semVal ((V d c i, SemLoc.dma cc1_scoped12.sem) : GSem nD τ sig) 0
          ∗ semVal ((V d c i, SemLoc.dma cc1_scoped13.sem) : GSem nD τ sig) 0
          ∗ semVal ((V d c i, SemLoc.dma cc1_scoped14.sem) : GSem nD τ sig) 0
          ∗ semVal ((V d c i, SemLoc.dma cc1_scoped15.sem) : GSem nD τ sig) 0
          ∗ semVal ((V d c i, SemLoc.dma cc1_scoped16.sem) : GSem nD τ sig) 0)
          ∗ bigSep (ownCells (V d c i) \ (semCells (V d c i)).toFinset) fun g => semVal g 0) := by
  unfold SparseCore.Cfg.ownSems0
  rw [SparseCore.bigSep_sdiff_split' (semCells_sub d c i), bigSep_eq_bigSepL_of_eq (semCells (V d c i)) rfl (semCells_nodup _)]
  simp only [semCells, semLocs, List.map_cons, List.map_nil, bigSepL_cons_cons, bigSepL_singleton]
  rfl

end T1

namespace T1

/-! ## The tile's own scratch buffers, one by one -/

def bufRefs : List (Ref sig .scVector) := [cc1_scratch0, cc1_scratch1, cc1_scratch2, cc1_scratch3, cc1_scratch4]
omit [FloatOps F] in
theorem bufRefs_nodup : bufRefs.Nodup := by decide
abbrev bufCells (c : Fin τ.nSC) (i : Fin τ.nSub) : List (DevRef τ sig) := bufRefs.map (Proc.scVector c i).devRef
omit [FloatOps F] in
theorem bufCells_nodup (c : Fin τ.nSC) (i : Fin τ.nSub) : (bufCells c i).Nodup := bufRefs_nodup.map (Proc.devRef_injective _)
omit [FloatOps F] in
theorem bufCells_sub (c : Fin τ.nSC) (i : Fin τ.nSub) : (bufCells c i).toFinset ⊆ ownRefs (τ := τ) (.scVector c i) := by
  intro b hb
  rw [List.mem_toFinset, List.mem_map] at hb
  obtain ⟨r, hr, rfl⟩ := hb
  simp only [bufRefs, List.mem_cons, List.not_mem_nil, or_false] at hr
  rcases hr with rfl | rfl | rfl | rfl | rfl <;> exact SparseCore.Cfg.mem_ownRefs_of_owner rfl

omit [FloatOps F] in
theorem ownBufs_V (d : Dev nD) (c : Fin τ.nSC) (i : Fin τ.nSub) :
    (ownBufs (V d c i) : sProp 𝕄)
      = iprop(((∃ f, (V d c i).loc cc1_scratch0 ↦{fullShare} f)
          ∗ (∃ f, (V d c i).loc cc1_scratch1 ↦{fullShare} f)
          ∗ (∃ f, (V d c i).loc cc1_scratch2 ↦{fullShare} f)
          ∗ (∃ f, (V d c i).loc cc1_scratch3 ↦{fullShare} f)
          ∗ (∃ f, (V d c i).loc cc1_scratch4 ↦{fullShare} f))
          ∗ bigSep (ownRefs (τ := τ) (.scVector c i) \ (bufCells c i).toFinset) fun b => iprop(∃ f, ((d, b) : Loc nD τ sig) ↦{fullShare} f)) := by
  unfold SparseCore.Cfg.ownBufs
  rw [SparseCore.bigSep_sdiff_split' (bufCells_sub c i), bigSep_eq_bigSepL_of_eq (bufCells c i) rfl (bufCells_nodup _ _)]
  simp only [bufCells, bufRefs, List.map_cons, List.map_nil, bigSepL_cons_cons, bigSepL_singleton]
  rfl

omit [FloatOps F] in
theorem bigSep_emp' {I : Type} (s : Finset I) : (bigSep s fun _ => iprop(emp)) = (iprop(emp) : sProp 𝕄) := bigSep_emp_const s

end T1

namespace T1
section Bar
variable (d : Dev nD)

/-- A tile that owns no row hands nothing over at the barrier. -/
theorem pays_none (c : Fin τ.nSC) (s : ℕ) (hs : 7 ≤ s) :
    (bigSep Finset.univ fun j : Fin (grid1.bound 1) => (bRd (F := F) m).payload (bcell d c (j.castLE hsub1)) 1 s : sProp 𝕄) = iprop(emp) := by
  rw [show (bigSep Finset.univ fun j : Fin (grid1.bound 1) => (bRd (F := F) m).payload (bcell d c (j.castLE hsub1)) 1 s)
      = bigSep Finset.univ fun _ : Fin (grid1.bound 1) => (iprop(emp) : sProp 𝕄) from bigSep_congr fun j _ => by
        show bPay m (bcell d c (j.castLE hsub1)) 1 s = _
        unfold bPay; dsimp only; rw [if_neg (by omega)], bigSep_emp']

theorem bPay_lt (c : Fin τ.nSC) (i : Fin τ.nSub) (n : ℕ) (hn : n < 7) :
    bPay m (bcell d c i) 1 n = iprop(acc1Loc d c ↦[seg (N := 114688) (16384 * n + 1024 * i.val) 1024]{fullShare} ACC1 m d c) := by
  unfold bPay; dsimp only; rw [if_pos hn, if_neg (by decide), if_pos rfl]
theorem bPay_ge (c : Fin τ.nSC) (i : Fin τ.nSub) (n : ℕ) (hn : 7 ≤ n) : bPay m (bcell d c i) 1 n = iprop(emp) := by
  unfold bPay; dsimp only; rw [if_neg (by omega)]

omit [FloatOps F] in
theorem duties_list : (Finset.univ : Finset (Fin τ.nSub)).image Fin.val = [0, 1, 2, 3, 4, 5, 6, 7, 8, 9, 10, 11, 12, 13, 14, 15].toFinset := by decide

/-- What a tile's own round of the barrier collected: its column block of each of the seven rows, at the looked-up values. -/
theorem pays_got (c : Fin τ.nSC) (i : Fin τ.nSub) :
    (bigSep ((bRd (F := F) m).duties (bcell d c i) 1 \ ∅) fun n => (bRd (F := F) m).payload (bcell d c i) 1 n : sProp 𝕄)
      ⊢ iprop((acc1Loc d c ↦[seg (N := 114688) (16384 * 0 + 1024 * i.val) 1024]{fullShare} ACC1 m d c)
          ∗ (acc1Loc d c ↦[seg (N := 114688) (16384 * 1 + 1024 * i.val) 1024]{fullShare} ACC1 m d c)
          ∗ (acc1Loc d c ↦[seg (N := 114688) (16384 * 2 + 1024 * i.val) 1024]{fullShare} ACC1 m d c)
          ∗ (acc1Loc d c ↦[seg (N := 114688) (16384 * 3 + 1024 * i.val) 1024]{fullShare} ACC1 m d c)
          ∗ (acc1Loc d c ↦[seg (N := 114688) (16384 * 4 + 1024 * i.val) 1024]{fullShare} ACC1 m d c)
          ∗ (acc1Loc d c ↦[seg (N := 114688) (16384 * 5 + 1024 * i.val) 1024]{fullShare} ACC1 m d c)
          ∗ (acc1Loc d c ↦[seg (N := 114688) (16384 * 6 + 1024 * i.val) 1024]{fullShare} ACC1 m d c)) := by
  rw [Finset.sdiff_empty, bRd_duties m d c i (by decide), bigSep_eq_bigSepL_of_eq _ duties_list (by decide)]
  show iprop(bPay m (bcell d c i) 1 0 ∗ bPay m (bcell d c i) 1 1 ∗ bPay m (bcell d c i) 1 2 ∗ bPay m (bcell d c i) 1 3 ∗ bPay m (bcell d c i) 1 4 ∗ bPay m (bcell d c i) 1 5 ∗ bPay m (bcell d c i) 1 6 ∗ bPay m (bcell d c i) 1 7 ∗ bPay m (bcell d c i) 1 8 ∗ bPay m (bcell d c i) 1 9 ∗ bPay m (bcell d c i) 1 10 ∗ bPay m (bcell d c i) 1 11 ∗ bPay m (bcell d c i) 1 12 ∗ bPay m (bcell d c i) 1 13 ∗ bPay m (bcell d c i) 1 14 ∗ bPay m (bcell d c i) 1 15) ⊢ _
  rw [bPay_lt m d c i 0 (by decide), bPay_lt m d c i 1 (by decide), bPay_lt m d c i 2 (by decide), bPay_lt m d c i 3 (by decide), bPay_lt m d c i 4 (by decide), bPay_lt m d c i 5 (by decide), bPay_lt m d c i 6 (by decide),
    bPay_ge m d c i 7 (by decide), bPay_ge m d c i 8 (by decide), bPay_ge m d c i 9 (by decide), bPay_ge m d c i 10 (by decide), bPay_ge m d c i 11 (by decide), bPay_ge m d c i 12 (by decide), bPay_ge m d c i 13 (by decide), bPay_ge m d c i 14 (by decide), bPay_ge m d c i 15 (by decide)]
  iintro ⟨H0, H1, H2, H3, H4, H5, H6, -⟩
  isplitl [H0]; · iexact H0
  isplitl [H1]; · iexact H1
  isplitl [H2]; · iexact H2
  isplitl [H3]; · iexact H3
  isplitl [H4]; · iexact H4
  isplitl [H5]; · iexact H5
  iexact H6

end Bar
end T1

end Cert.Proof.KB

end
-- ==== Proof.KB.Tile1Trip.lean ====
/-
  Lookup 1, one tile, the gather phase's pieces.
  One trip of a gather loop as a program over the offsets of its two boxes and its check (every printed loop's trip is
  an instance, by unfolding), and what it does: sixteen indices read from a slot of the index scratch, in range, the
  sixteen table entries they name read from the table scratch and written at the trip's box of the value scratch.
  The buffers as the task addresses them: the two slots of the index scratch, the eight pieces of the tile's row of the
  shared buffer, the tile's entries of the result; the row as its eight pieces. A gather loop's invariant. And what the
  scratches hold, as statements about their entries: a slot a chunk of the field's index row, the table scratch the
  field's entries of the half table, the value scratch the looked-up entries below the trip's box.
-/
import proofs.«207420_g80582176408339_cont_9to1c4b_743_56_alg».proof.Proof.KB.Tile1Pieces

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T1
section Trip
variable (d : Dev nD) (c : Fin τ.nSC) (i : Fin τ.nSub)

abbrev subM : Memref sig .scVector .vmem S100096 .f32 := Memref.whole cc1_scratch0
abbrev xM : Memref sig .scVector .vmem S4096 .i32 := Memref.whole cc1_scratch1
abbrev valM : Memref sig .scVector .vmem S2048 .f32 := Memref.whole cc1_scratch2

/-- One trip of a gather loop, over the offsets of its two boxes and its check: sixteen indices loaded, assumed in
    range, the sixteen table entries they name loaded, and stored. -/
def gTrip (offX offV : Fin 1 → Nat) (inbX : ∀ a, offX a + S16.size a ≤ S4096.size a) (inbV : ∀ a, offV a + S16.size a ≤ S2048.size a)
    (P : IVec S16 32 → Prop) (dec : ∀ v, Decidable (P v)) (hidx : ∀ v, P v → ∀ a x, ((![v] : Fin 1 → IVec S16 32) a x).toNat < S100096.size a) :
    Prog (TpuEff nD τ sig (Elt F) Λ₀ (.scVector c i)) Unit := do
  let v280 : Vec F S16 .i32 ← Prog.lift (.load xM (Rect.unit (s := S4096) offX S16.size inbX).toLoadRect (View.loadsAt_vmem h_S16))
  have hw : P v280 := (← Prog.lift (TpuEff.assume (P v280) (dec v280))).down
  let v281 : Vec F S16 .f32 ← SparseCore.vectorLoadIdx subM ![v280] (hidx v280 hw) (View.loads_vmem h_S100096)
  let v283 : Vec F S16 .f32 ← Prog.lift (.load valM (Rect.unit (s := S2048) offV S16.size inbV).toLoadRect (View.loadsAt_vmem h_S16))
  Prog.lift (.store valM (Rect.unit (s := S2048) offV S16.size inbV) v281 Finset.univ (View.stores_vmem_bits_univ h_S16 rfl) (.inl rfl))
  pure ⟨⟩

theorem k1_t1_body_eq (L : grid1.Coords) (arg1 v1 : BitVec 32) (h1 : k1_cond1 L = 1#1) (k : Fin k1_t1_loop.trips) (u : Unit) :
    k1_t1_body (F := F) L (Memref.whole main_v0_scv) (Memref.isWhole_whole _) (Memref.whole main_v4_scv) (Memref.isWhole_whole _) (Memref.whole main_v7_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 arg1 v1 h1 k u
      = gTrip (F := F) (cV L) (jV L) (k1_off4 k) (k1_off5 k) (k1_off4_inb L k h1) (k1_off5_inb L k h1) (k1_chk1 L) (k1_chk1.dec L) (fun v hw => k1_idx1_inb L v hw h1) := rfl

/-- The sixteen indices a trip loads. -/
abbrev gIdx (offX : Fin 1 → Nat) (inbX : ∀ a, offX a + S16.size a ≤ S4096.size a) (fx : Buf (Elt F) ((xM).view.loc (V d c i))) : IVec S16 32 :=
  (xM).view.readAt (Elt F) (Rect.unit (s := S4096) offX S16.size inbX).toLoadRect fx

/-- What the trip leaves in the value scratch: the looked-up entries written at its box. -/
abbrev gOut (offX offV : Fin 1 → Nat) (inbX : ∀ a, offX a + S16.size a ≤ S4096.size a) (inbV : ∀ a, offV a + S16.size a ≤ S2048.size a)
    (fx : Buf (Elt F) ((xM).view.loc (V d c i))) (fsub : Buf (Elt F) ((subM).view.loc (V d c i))) (fval : Buf (Elt F) ((valM).view.loc (V d c i)))
    (hin : ∀ a x, ((![gIdx (F := F) d c i offX inbX fx] : Fin 1 → IVec S16 32) a x).toNat < S100096.size a) :
    Buf (Elt F) ((valM).view.loc (V d c i)) :=
  ((valM).access (Rect.unit (s := S2048) offV S16.size inbV)).write (Elt F) fval
    (loadIdx (((subM).access (.whole S100096)).read (Elt F) fsub) ![gIdx (F := F) d c i offX inbX fx] hin) Finset.univ

set_option maxHeartbeats 1000000 in
theorem wp_gTrip (offX offV : Fin 1 → Nat) (inbX : ∀ a, offX a + S16.size a ≤ S4096.size a) (inbV : ∀ a, offV a + S16.size a ≤ S2048.size a)
    (P : IVec S16 32 → Prop) (dec : ∀ v, Decidable (P v)) (hidx : ∀ v, P v → ∀ a x, ((![v] : Fin 1 → IVec S16 32) a x).toNat < S100096.size a)
    (S6 : Finset (Idx ((xM).view.loc (V d c i)))) (fx : Buf (Elt F) ((xM).view.loc (V d c i))) (fsub : Buf (Elt F) ((subM).view.loc (V d c i)))
    (fval : Buf (Elt F) ((valM).view.loc (V d c i)))
    (hS6 : (xM).view.setOn (Rect.unit (s := S4096) offX S16.size inbX).toLoadRect.set ⊆ S6)
    (hP : P (gIdx (F := F) d c i offX inbX fx)) :
    (iprop(((xM).view.loc (V d c i) ↦[S6]{fullShare} fx) ∗ ((subM).view.loc (V d c i) ↦{fullShare} fsub) ∗ ((valM).view.loc (V d c i) ↦{fullShare} fval)) : sProp 𝕄)
      ⊢ wp frame (wpE (defs₀ (F := F)) 𝒱₀ (V d c i) none) Set.univ (gTrip (F := F) c i offX offV inbX inbV P dec hidx)
          fun _ => iprop(((xM).view.loc (V d c i) ↦[S6]{fullShare} fx) ∗ ((subM).view.loc (V d c i) ↦{fullShare} fsub)
            ∗ ((valM).view.loc (V d c i) ↦{fullShare} gOut d c i offX offV inbX inbV fx fsub fval (hidx _ hP))) := by
  unfold gTrip
  simp only [Prog.lift, Prog.bind_op, Prog.bind_ret, Prog.pure_eq_ret]
  iintro ⟨H6, H5, H7⟩
  iapply (wp_load 𝒱₀ (V d c i) none Set.univ (m := xM) (S := S6) hS6) $$ H6; iintro H6
  rw [wp_assume_of _ _ _ _ hP]
  iapply (SparseCore.wp_vectorLoadIdx 𝒱₀ (V d c i) none Set.univ (base := subM) (S := Finset.univ) (q := fullShare) (Finset.subset_univ _)) $$ H5; iintro H5
  iapply (wp_load 𝒱₀ (V d c i) none Set.univ (m := valM) (S := Finset.univ) (Finset.subset_univ _)) $$ H7; iintro H7
  iapply (wp_store 𝒱₀ (V d c i) none Set.univ (m := valM) (r := Rect.unit (s := S2048) offV S16.size inbV) (Mk := Finset.univ) (S := Finset.univ) (Finset.subset_univ _)) $$ H7; iintro H7
  rw [wp_ret]; imodintro
  isplitl [H6]; · iexact H6
  isplitl [H5]; · iexact H5
  iexact H7

end Trip
end T1

namespace T1
section PhaseViews
variable (d : Dev nD) (L : grid1.Coords)

abbrev accM : Memref sig .scVector .shared S114688 .f32 := Memref.whole cc1_scratch5

omit [FloatOps F] in
theorem conds_A : ∀ L : grid1.Coords, k1_cond1 L = 1#1 → (L 1).val < 7 ∧ (L 0).val + (L 1).val < 7 ∧ ¬ k1_cond2 L = 1#1 := by decide +kernel

/-- Piece `h` of the tile's row of the shared buffer, as the task slices it. -/
abbrev rowPiece (h1 : k1_cond1 L = 1#1) (h : Fin 8) : Memref sig .scVector .shared S2048 .f32 :=
  (accM).slice (Rect.unit (s := S114688) (k1_off6 L (BitVec.ofNat 32 (2048 * h.val))) S2048.size (k1_off6_inb L h1 h)) (fun _ => rfl)

omit [FloatOps F] in
theorem set_rowPiece (h1 : k1_cond1 L = 1#1) (h : Fin 8) :
    (rowPiece L h1 h).view.set = seg (N := 114688) (16384 * (L 1).val + 2048 * h.val) 2048 := by
  refine (View.set_slice_whole cc1_scratch5 _).trans ?_
  rw [unit_set_seg, k1_off6_eq]; rfl

/-- Slot `p` of the index scratch, as the task slices it. -/
abbrev xSlot0 : Memref sig .scVector .vmem S2048 .i32 := (xM).slice (Rect.unit (s := S4096) ![0] S2048.size inb_S4096_S2048_0) (fun _ => rfl)
abbrev xSlot1 : Memref sig .scVector .vmem S2048 .i32 := (xM).slice (Rect.unit (s := S4096) ![2048] S2048.size inb_S4096_S2048_2048) (fun _ => rfl)

omit [FloatOps F] in
theorem set_xSlot0 : (xSlot0).view.set = seg (N := 4096) 0 2048 := by
  refine (View.set_slice_whole cc1_scratch1 _).trans ?_
  rw [unit_set_seg]; rfl
omit [FloatOps F] in
theorem set_xSlot1 : (xSlot1).view.set = seg (N := 4096) 2048 2048 := by
  refine (View.set_slice_whole cc1_scratch1 _).trans ?_
  rw [unit_set_seg]; rfl

omit [FloatOps F] in
/-- The index scratch is its two slots. -/
theorem x_split (c : Fin τ.nSC) (i : Fin τ.nSub) (f : Buf (Elt F) ((V d c i).loc cc1_scratch1)) :
    ((V d c i).loc cc1_scratch1 ↦{fullShare} f : sProp 𝕄)
      ⊣⊢ iprop(((xSlot0).view.loc (V d c i) ↦[(xSlot0).view.set]{fullShare} f) ∗ ((xSlot1).view.loc (V d c i) ↦[(xSlot1).view.set]{fullShare} f)) := by
  rw [set_xSlot0, set_xSlot1]
  have hu : (Finset.univ : Finset (Idx ((V d c i).loc cc1_scratch1))) = seg (N := 4096) 0 2048 ∪ seg (N := 4096) 2048 2048 := by
    ext j; rw [Finset.mem_union, mem_seg, mem_seg]
    have : (j 0).val < 4096 := (j 0).isLt
    constructor
    · intro _; omega
    · intro _; exact Finset.mem_univ _
  show ((V d c i).loc cc1_scratch1 ↦[Finset.univ]{fullShare} f : sProp 𝕄) ⊣⊢ _
  rw [hu]
  exact pointsTo_union (seg_disjoint (Or.inl (by omega)))

/-- The tile's row of the shared buffer is its eight pieces of 2048. -/
theorem row_split (c : Fin τ.nSC) (s : ℕ) (f : Buf (Elt F) (acc1Loc d c)) :
    (acc1Loc d c ↦[seg (N := 114688) (16384 * s) 16384]{fullShare} f : sProp 𝕄)
      = iprop((acc1Loc d c ↦[seg (N := 114688) (16384 * s + 2048 * 0) 2048]{fullShare} f)
          ∗ (acc1Loc d c ↦[seg (N := 114688) (16384 * s + 2048 * 1) 2048]{fullShare} f)
          ∗ (acc1Loc d c ↦[seg (N := 114688) (16384 * s + 2048 * 2) 2048]{fullShare} f)
          ∗ (acc1Loc d c ↦[seg (N := 114688) (16384 * s + 2048 * 3) 2048]{fullShare} f)
          ∗ (acc1Loc d c ↦[seg (N := 114688) (16384 * s + 2048 * 4) 2048]{fullShare} f)
          ∗ (acc1Loc d c ↦[seg (N := 114688) (16384 * s + 2048 * 5) 2048]{fullShare} f)
          ∗ (acc1Loc d c ↦[seg (N := 114688) (16384 * s + 2048 * 6) 2048]{fullShare} f)
          ∗ (acc1Loc d c ↦[seg (N := 114688) (16384 * s + 2048 * 7) 2048]{fullShare} f)) := by
  rw [show seg (N := 114688) (16384 * s) 16384 = seg (N := 114688) (16384 * s) (2048 * 8) from rfl, ← seg_parts,
    pointsTo_biUnion _ _ seg_parts_disjoint, bigSep_univ_eq_bigSepL [0, 1, 2, 3, 4, 5, 6, 7] (by decide) (by decide)]
  rfl

theorem pts_rowPiece (h1 : k1_cond1 L = 1#1) (h : Fin 8) (f : Buf (Elt F) (acc1Loc d (cT (cL L)))) :
    ((rowPiece L h1 h).view.loc (V d (cV L) (jV L)) ↦[(rowPiece L h1 h).view.set]{fullShare} f : sProp 𝕄)
      = (acc1Loc d (cT (cL L)) ↦[seg (N := 114688) (16384 * (L 1).val + 2048 * h.val) 2048]{fullShare} f) := by
  rw [set_rowPiece]; rfl

end PhaseViews
end T1

namespace T1
section Respell
variable (d : Dev nD) (L : grid1.Coords)

abbrev xtM : Memref sig .scVector .hbm S26x16384 .i32 := Memref.whole main_v0_scv
abbrev whM : Memref sig .scVector .hbm S1300000 .f32 := Memref.whole main_v4_scv
abbrev poM : Memref sig .scVector .hbm S32768 .f32 := Memref.whole main_v7_scv
abbrev redM : Memref sig .scVector .vmem S3584 .f32 := Memref.whole cc1_scratch3
abbrev outM : Memref sig .scVector .vmem S1024 .f32 := Memref.whole cc1_scratch4

omit [FloatOps F] in
theorem pts_xt (c : Fin τ.nSC) (i : Fin τ.nSub) (q : PosShare TreeShare) (f : Buf (Elt F) (xtLoc d)) :
    ((xtM).view.loc (V d c i) ↦{q} f : sProp 𝕄) = (xtLoc d ↦{q} f) := rfl
omit [FloatOps F] in
theorem pts_wh (c : Fin τ.nSC) (i : Fin τ.nSub) (q : PosShare TreeShare) (f : Buf (Elt F) (w1Loc d)) :
    ((whM).view.loc (V d c i) ↦{q} f : sProp 𝕄) = (w1Loc d ↦{q} f) := rfl
omit [FloatOps F] in
theorem pts_sub (c : Fin τ.nSC) (i : Fin τ.nSub) (f : Buf (Elt F) ((V d c i).loc cc1_scratch0)) :
    ((subM).view.loc (V d c i) ↦{fullShare} f : sProp 𝕄) = ((V d c i).loc cc1_scratch0 ↦{fullShare} f) := rfl
omit [FloatOps F] in
theorem pts_val (c : Fin τ.nSC) (i : Fin τ.nSub) (f : Buf (Elt F) ((V d c i).loc cc1_scratch2)) :
    ((valM).view.loc (V d c i) ↦{fullShare} f : sProp 𝕄) = ((V d c i).loc cc1_scratch2 ↦{fullShare} f) := rfl
omit [FloatOps F] in
theorem pts_red (c : Fin τ.nSC) (i : Fin τ.nSub) (f : Buf (Elt F) ((V d c i).loc cc1_scratch3)) :
    ((redM).view.loc (V d c i) ↦{fullShare} f : sProp 𝕄) = ((V d c i).loc cc1_scratch3 ↦{fullShare} f) := rfl
omit [FloatOps F] in
theorem pts_out (c : Fin τ.nSC) (i : Fin τ.nSub) (f : Buf (Elt F) ((V d c i).loc cc1_scratch4)) :
    ((outM).view.loc (V d c i) ↦{fullShare} f : sProp 𝕄) = ((V d c i).loc cc1_scratch4 ↦{fullShare} f) := rfl

/-- The tile's 1024 entries of the result, as the task slices them. -/
abbrev poK : Memref sig .scVector .hbm S1024 .f32 := (poM).slice (Rect.unit (s := S32768) (k1_off36 L) S1024.size (k1_off36_inb L)) (fun _ => rfl)
omit [FloatOps F] in
theorem set_poK : (poK L).view.set = seg (N := 32768) (16384 * (L 0).val + 1024 * (L 1).val) 1024 := by
  refine (View.set_slice_whole main_v7_scv _).trans ?_
  rw [unit_set_seg, k1_off36_eq]; rfl
omit [FloatOps F] in
theorem pts_poK (f : Buf (Elt F) (p1Loc d)) :
    ((poK L).view.loc (V d (cV L) (jV L)) ↦[(poK L).view.set]{fullShare} f : sProp 𝕄)
      = (p1Loc d ↦[seg (N := 32768) (16384 * (cL L).val + 1024 * (jL L).val) 1024]{fullShare} f) := by
  rw [set_poK]; rfl

end Respell
end T1

namespace T1
section Loop
variable (d : Dev nD) (c : Fin τ.nSC) (i : Fin τ.nSub)

/-- A gather loop's invariant: the index slot and the table as they stand, the value scratch at some contents of which
    the entries below the trip's box are as `G` says. -/
def gInv (S6 : Finset (Idx ((xM).view.loc (V d c i)))) (fx : Buf (Elt F) ((xM).view.loc (V d c i))) (fsub : Buf (Elt F) ((subM).view.loc (V d c i)))
    (G : ℕ → Buf (Elt F) ((valM).view.loc (V d c i)) → Prop) (k : ℕ) (_ : PUnit) : sProp 𝕄 :=
  iprop(((xM).view.loc (V d c i) ↦[S6]{fullShare} fx) ∗ ((subM).view.loc (V d c i) ↦{fullShare} fsub)
    ∗ ∃ f, ((valM).view.loc (V d c i) ↦{fullShare} f) ∗ ⌜G k f⌝)

end Loop
end T1

namespace T1
section ValueFacts
variable (d : Dev nD) (c : Fin τ.nSC) (i : Fin τ.nSub)

open Idealize.ShloMosaic.ValueIdx in
/-- Slot `p` of the index scratch holds chunk `h` (2048 batch rows) of field `j`'s index row. -/
def XHolds (p h j : ℕ) (fx : Buf (Elt F) ((xM).view.loc (V d c i))) : Prop :=
  ∀ (y : Fin 2048) (hy : 2048 * p + y.val < 4096),
    (show BitVec 32 from fx (ix1 (⟨2048 * p + y.val, hy⟩ : Fin 4096))).toNat = xtAt (XT m d) j (2048 * h + y.val)

open Idealize.ShloMosaic.ValueIdx in
/-- The table scratch holds field `j`'s 100000 entries of the half table. -/
def SubHolds (j : ℕ) (fsub : Buf (Elt F) ((subM).view.loc (V d c i))) : Prop :=
  ∀ n : Fin 100096, n.val < 100000 → (show F .f32 from fsub (ix1 n)) = whAt (WH1 m d) (100000 * j + n.val)

open Idealize.ShloMosaic.ValueIdx in
/-- The value scratch's first `16 k` entries are chunk `h`'s looked-up entries of row `s` on SparseCore `cc`. -/
def Good (cc s h k : ℕ) (f : Buf (Elt F) ((valM).view.loc (V d c i))) : Prop :=
  ∀ t : Fin 2048, t.val < 16 * k → (show F .f32 from f (ix1 t)) = accAt (XT m d) (WH1 m d) 13 cc s (2048 * h + t.val)

end ValueFacts
end T1

end Cert.Proof.KB

end
-- ==== Proof.KB.Tile1Val.lean ====
/-
  Lookup 1, a gather trip's values. The sixteen indices a trip loads are sixteen consecutive entries of a slot of the
  index scratch; when the slot holds a chunk of the field's index row they are entries of the index matrix, so each is a
  row number of the field (below 100000, hence inside the table scratch). The sixteen entries the trip then reads out of
  the table scratch are the field's table entries at those rows: exactly what the shared buffer's row is to hold for the
  sixteen batch rows of the trip, so the value scratch's done part grows by the trip's box.
-/
import proofs.«207420_g80582176408339_cont_9to1c4b_743_56_alg».proof.Proof.KB.Tile1Trip

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 2) (Elt F) ℕ UU ℕ

variable (m : (ℓ : Loc nD τ sig) → Buf (Elt F) ℓ)

namespace T1

variable (d : Dev nD) (c : Fin τ.nSC) (i : Fin τ.nSub)

/-- Lane `x` of the sixteen indices a trip loads at offset `o` is entry `o + x` of the index scratch. -/
theorem gIdx_lane (o : ℕ) (offX : Fin 1 → Nat) (inbX : ∀ a, offX a + S16.size a ≤ S4096.size a) (hoff : offX = ![o])
    (fx : Buf (Elt F) ((xM).view.loc (V d c i))) (x : S16.Idx) (hlt : o + (x 0).val < 4096) :
    gIdx (F := F) d c i offX inbX fx x = (show BitVec 32 from fx (ix1 (⟨o + (x 0).val, hlt⟩ : Fin 4096))) := by
  subst hoff
  unfold gIdx
  rw [View.readAt_apply]
  show fx _ = fx _
  congr 1
  funext a
  apply Fin.ext
  simp only [View.emb_whole, Function.Embedding.refl_apply, LoadRect.idx_apply]
  match a with
  | ⟨0, _⟩ => show o + 1 * (x 0).val = o + (x 0).val; omega

/-- A slot holding a chunk of the field's index row, the sixteen indices a trip loads from it are row numbers of the field. -/
theorem gIdx_val (p h j k : ℕ) (hp : p < 2) (hh : h < 8) (hj : j < 26) (hk : k < 128)
    (offX : Fin 1 → Nat) (inbX : ∀ a, offX a + S16.size a ≤ S4096.size a) (hoff : offX = ![2048 * p + 16 * k])
    (fx : Buf (Elt F) ((xM).view.loc (V d c i))) (hX : XHolds m d c i p h j fx) (x : S16.Idx) :
    (gIdx (F := F) d c i offX inbX fx x).toNat = xtAt (XT m d) j (2048 * h + (16 * k + (x 0).val)) := by
  have hx0 : (x 0).val < 16 := (x 0).isLt
  have hlt : 2048 * p + 16 * k + (x 0).val < 4096 := by omega
  rw [gIdx_lane d c i (2048 * p + 16 * k) offX inbX hoff fx x hlt]
  have h1 := hX ⟨16 * k + (x 0).val, by omega⟩ (by show 2048 * p + (16 * k + (x 0).val) < 4096; omega)
  have e : (⟨2048 * p + 16 * k + (x 0).val, hlt⟩ : Fin 4096) = ⟨2048 * p + (16 * k + (x 0).val), by omega⟩ :=
    Fin.ext (show 2048 * p + 16 * k + (x 0).val = 2048 * p + (16 * k + (x 0).val) by omega)
  rw [e]
  exact h1

theorem xtAt_lt (hx : InRange m) (j b : ℕ) (hj : j < 26) (hb : b < 16384) : xtAt (XT m d) j b < 100000 := by
  unfold xtAt
  rw [dif_pos ⟨hj, hb⟩]
  exact hx d ⟨j, hj⟩ ⟨b, hb⟩

theorem chk_of_holds (p h j k : ℕ) (hp : p < 2) (hh : h < 8) (hj : j < 26) (hk : k < 128) (hx : InRange m)
    (offX : Fin 1 → Nat) (inbX : ∀ a, offX a + S16.size a ≤ S4096.size a) (hoff : offX = ![2048 * p + 16 * k])
    (fx : Buf (Elt F) ((xM).view.loc (V d c i))) (hX : XHolds m d c i p h j fx) :
    ∀ a x, ((![gIdx (F := F) d c i offX inbX fx] : Fin 1 → IVec S16 32) a x).toNat < S100096.size a := by
  intro a x
  match a with
  | ⟨0, _⟩ =>
    show (gIdx (F := F) d c i offX inbX fx x).toNat < 100096
    have hx0 : (x 0).val < 16 := (x 0).isLt
    rw [gIdx_val m d c i p h j k hp hh hj hk offX inbX hoff fx hX x]
    have := xtAt_lt m d hx j (2048 * h + (16 * k + (x 0).val)) hj (by omega)
    omega

/-- A trip extends the done part of the value scratch by its box. -/
theorem good_step (cc s h p k : ℕ) (hcc : cc < 2) (hcs : s + cc < 7) (hp : p < 2) (hh : h < 8) (hk : k < 128) (hx : InRange m)
    (offX offV : Fin 1 → Nat) (inbX : ∀ a, offX a + S16.size a ≤ S4096.size a) (inbV : ∀ a, offV a + S16.size a ≤ S2048.size a)
    (hoffX : offX = ![2048 * p + 16 * k]) (hoffV : offV = ![16 * k])
    (fx : Buf (Elt F) ((xM).view.loc (V d c i))) (fsub : Buf (Elt F) ((subM).view.loc (V d c i))) (f : Buf (Elt F) ((valM).view.loc (V d c i)))
    (hX : XHolds m d c i p h (13 + 7 * cc + s) fx) (hS : SubHolds m d c i (7 * cc + s) fsub) (hG : Good m d c i cc s h k f)
    (hin : ∀ a x, ((![gIdx (F := F) d c i offX inbX fx] : Fin 1 → IVec S16 32) a x).toNat < S100096.size a) :
    Good m d c i cc s h (k + 1) (gOut (F := F) d c i offX offV inbX inbV fx fsub f hin) := by
  have hj : 13 + 7 * cc + s < 26 := by omega
  subst hoffV
  intro t ht
  have ht2 : t.val < 2048 := t.isLt
  by_cases hlo : t.val < 16 * k
  · have hnot : (ix1 t : S2048.Idx) ∉ ((valM).access (Rect.unit (s := S2048) ![16 * k] S16.size inbV)).setOn Finset.univ := by
      rw [View.setOn_univ, View.set_slice_whole, Rect.mem_set_unit]
      intro hall
      have h0 := (hall 0).1
      have : 16 * k ≤ t.val := h0
      omega
    show (gOut (F := F) d c i offX ![16 * k] inbX inbV fx fsub f hin) (ix1 t) = _
    unfold gOut
    rw [View.write_of_not_mem _ _ _ hnot]
    exact hG t hlo
  · have hx' : t.val - 16 * k < 16 := by omega
    have he : (ix1 t : S2048.Idx) = ((valM).access (Rect.unit (s := S2048) ![16 * k] S16.size inbV)).emb (ix1 (⟨t.val - 16 * k, hx'⟩ : Fin 16)) := by
      funext a
      apply Fin.ext
      match a with
      | ⟨0, _⟩ => show t.val = 16 * k + 1 * (t.val - 16 * k); omega
    show (gOut (F := F) d c i offX ![16 * k] inbX inbV fx fsub f hin) (ix1 t) = _
    unfold gOut
    rw [he, View.write_emb_of_mem _ _ (Finset.mem_univ _)]
    show loadIdx (((subM).access (.whole S100096)).read (Elt F) fsub) ![gIdx (F := F) d c i offX inbX fx] hin (ix1 (⟨t.val - 16 * k, hx'⟩ : Fin 16)) = _
    have hr : View.read (Elt F) ((subM).access (Rect.whole S100096)) fsub = fsub := Memref.read_access_whole (Elt F) cc1_scratch0 fsub
    rw [hr]
    unfold loadIdx
    have hval : (gIdx (F := F) d c i offX inbX fx (ix1 (⟨t.val - 16 * k, hx'⟩ : Fin 16))).toNat
        = xtAt (XT m d) (13 + 7 * cc + s) (2048 * h + (16 * k + (t.val - 16 * k))) :=
      gIdx_val m d c i p h (13 + 7 * cc + s) k hp hh hj hk offX inbX hoffX fx hX (ix1 (⟨t.val - 16 * k, hx'⟩ : Fin 16))
    have hb : 2048 * h + (16 * k + (t.val - 16 * k)) = 2048 * h + t.val := by omega
    have hlt : (gIdx (F := F) d c i offX inbX fx (ix1 (⟨t.val - 16 * k, hx'⟩ : Fin 16))).toNat < 100000 := by
      rw [hval]; exact xtAt_lt m d hx _ _ hj (by omega)
    have hidx : idxAt ![gIdx (F := F) d c i offX inbX fx] hin (ix1 (⟨t.val - 16 * k, hx'⟩ : Fin 16))
        = (ix1 (⟨(gIdx (F := F) d c i offX inbX fx (ix1 (⟨t.val - 16 * k, hx'⟩ : Fin 16))).toNat, by omega⟩ : Fin 100096) : S100096.Idx) := by
      funext a
      apply Fin.ext
      match a with
      | ⟨0, _⟩ => rfl
    rw [hidx]
    refine (hS ⟨(gIdx (F := F) d c i offX inbX fx (ix1 (⟨t.val - 16 * k, hx'⟩ : Fin 16))).toNat, by omega⟩ hlt).trans ?_
    unfold accAt
    rw [if_pos hcs]
    show whAt (WH1 m d) (100000 * (7 * cc + s) + (gIdx (F := F) d c i offX inbX fx (ix1 (⟨t.val - 16 * k, hx'⟩ : Fin 16))).toNat)
      = whAt (WH1 m d) ((7 * cc + s) * 100000 + xtAt (XT m d) (13 + 7 * cc + s) (2048 * h + t.val))
    rw [hval, hb, Nat.mul_comm 100000]

end T1

end Cert.Proof.KB

end
-- ==== Proof.KB.Tile1Landed.lean ====
/-
  Lookup 1, what a landed copy leaves. A copy writes its destination slice, whole, with what it read of its source slice:
  entry k of the destination slice is entry k of the source slice. Read through the slices' offsets: the table scratch's
  entry n is the half table's entry 100000 j + n; slot p's entry y is the index row's entry 2048 h + y of field j; and the
  piece of the shared buffer's row the whole value scratch was copied into holds the value scratch's entries, which a
  finished gather loop has made the looked-up entries of the chunk.
-/
import proofs.«207420_g80582176408339_cont_9to1c4b_743_56_alg».proof.Proof.KB.Tile1Val
import proofs.«207420_g80582176408339_cont_9to1c4b_743_56_alg».proof.Proof.KB.Landed

noncomputable section

namespace Cert.Proof.KB

open Cert.Kernel Cert.Kernel.Gen

open Idealize.ShloMosaic
open Idealize.ShloMosaic.SparseCore (S V)
open Idealize.ShloMosaic.ValueIdx

variable {F : FTy → Type} [FloatOps F]

variable (m : (ℓ : Loc nD τ sig) → Buf (Elt F) ℓ)

namespace T1

variable (d : Dev nD) (c : Fin τ.nSC) (i : Fin τ.nSub)

/-- The table scratch the copy of a field's entries has landed in holds them. -/
theorem subholds_landed (j : ℕ) (off : Fin 1 → Nat) (inb : ∀ a, off a + S100000.size a ≤ S1300000.size a) (hoff : off = ![100000 * j])
    (base : Buf (Elt F) ((subM).view.loc (V d c i))) :
    SubHolds m d c i j ((subM).view.writes (Elt F) base
      [⟨Rect.unit (s := S100096) ![0] S100000.size inb_S100096_S100000_0, ReadAs.same.apply (View.read (Elt F) ((whM).slice (Rect.unit (s := S1300000) off S100000.size inb) (fun _ => rfl)).view (WH1 m d))⟩]) := by
  subst hoff
  intro n hn
  have hj : 100000 * j + 100000 ≤ 1300000 := by have := inb 0; simpa using this
  have hi : (ix1 n : S100096.Idx) = (Rect.unit (s := S100096) ![0] S100000.size inb_S100096_S100000_0).emb (ix1 (⟨n.val, hn⟩ : Fin 100000)) := by
    funext a
    apply Fin.ext
    match a with
    | ⟨0, _⟩ => show n.val = 0 + 1 * n.val; omega
  rw [hi]
  refine (Landed.whole_writes_hit (Val := Elt F) cc1_scratch0 base _ _ _).trans ?_
  refine (Landed.read_slice (Val := Elt F) main_v4_scv (Rect.unit (s := S1300000) ![100000 * j] S100000.size inb) (WH1 m d) _).trans ?_
  unfold whAt
  rw [dif_pos (show 100000 * j + n.val < 1300000 by omega)]
  congr 1
  funext a
  apply Fin.ext
  match a with
  | ⟨0, _⟩ => show 100000 * j + 1 * n.val = 100000 * j + n.val; omega

/-- A slot the copy of a chunk of a field's index row has landed in holds that chunk. -/
theorem xholds_landed (p h j : ℕ) (offS : Fin 1 → Nat) (inbS : ∀ a, offS a + S2048.size a ≤ S4096.size a) (hoffS : offS = ![2048 * p])
    (off : Fin 2 → Nat) (inb : ∀ a, off a + S1x2048.size a ≤ S26x16384.size a) (hoff : off = ![j, 2048 * h])
    (base : Buf (Elt F) ((xM).view.loc (V d c i))) :
    XHolds m d c i p h j (((xM).slice (Rect.unit (s := S4096) offS S2048.size inbS) (fun _ => rfl)).view.writes (Elt F) base
      [⟨Rect.whole S2048, ReadAs.same.apply (View.read (Elt F) (((xtM).slice (Rect.unit (s := S26x16384) off S1x2048.size inb) (fun _ => rfl)).squeeze S2048 squeezes_S1x2048_S2048).view (XT m d))⟩]) := by
  subst hoffS
  subst hoff
  intro y hy
  have hj : j + 1 ≤ 26 := by have := inb 0; simpa using this
  have hh : 2048 * h + 2048 ≤ 16384 := by have := inb 1; simpa using this
  have hi : (ix1 (⟨2048 * p + y.val, hy⟩ : Fin 4096) : S4096.Idx) = (Rect.unit (s := S4096) ![2048 * p] S2048.size inbS).emb (ix1 y) := by
    funext a
    apply Fin.ext
    match a with
    | ⟨0, _⟩ => show 2048 * p + y.val = 2048 * p + 1 * y.val; omega
  rw [hi]
  refine (congrArg BitVec.toNat (Landed.slice_writes_hit (Val := Elt F) cc1_scratch1 base (Rect.unit (s := S4096) ![2048 * p] S2048.size inbS) _ (ix1 y))).trans ?_
  refine (congrArg BitVec.toNat (Landed.read_slice_reshape (Val := Elt F) main_v0_scv (Rect.unit (s := S26x16384) ![j, 2048 * h] S1x2048.size inb) S2048
    squeezes_S1x2048_S2048.numel_eq (XT m d) (ix1 y))).trans ?_
  have hre : Shape.reshapeEquiv (s := (Rect.unit (s := S26x16384) ![j, 2048 * h] S1x2048.size inb).shape) (s' := S2048) squeezes_S1x2048_S2048.numel_eq (ix1 y)
      = (ix2 (0 : Fin 1) y) := by
    apply Shape.reshapeEquiv_eq_of_rowMajor
    rw [Shape.rowMajor_val_two, Shape.rowMajor_val_one]
    show 0 * 2048 + y.val = y.val
    omega
  rw [hre]
  unfold xtAt
  rw [dif_pos ⟨by omega, by have := y.isLt; omega⟩]
  congr 2
  funext a
  apply Fin.ext
  match a with
  | ⟨0, _⟩ => show j + 1 * 0 = j; omega
  | ⟨1, _⟩ => show 2048 * h + 1 * y.val = 2048 * h + y.val; omega

/-- A piece of the row the whole value scratch has been copied into holds the looked-up entries of its chunk. -/
theorem piece_landed (cT' : Fin τ.nSC) (cc s h : ℕ) (hcc : cT'.val = cc) (hcs : s + cc < 7) (hh : h < 8) (off : Fin 1 → Nat) (inb : ∀ a, off a + S2048.size a ≤ S114688.size a) (hoff : off = ![16384 * s + 2048 * h])
    (base : Buf (Elt F) (acc1Loc d cT')) (fv : Buf (Elt F) ((valM).view.loc (V d c i))) (hG : Good m d c i cc s h 128 fv) :
    ∀ idx ∈ seg (N := 114688) (16384 * s + 2048 * h) 2048,
      (((accM).slice (Rect.unit (s := S114688) off S2048.size inb) (fun _ => rfl)).view.writes (Elt F) base
        [⟨Rect.whole S2048, ReadAs.same.apply (View.read (Elt F) (valM).view fv)⟩]) idx = ACC1 m d cT' idx := by
  subst hoff
  subst hcc
  intro idx hidx
  rw [mem_seg] at hidx
  have ht : (idx 0).val - (16384 * s + 2048 * h) < 2048 := by omega
  have hi : idx = (Rect.unit (s := S114688) ![16384 * s + 2048 * h] S2048.size inb).emb (ix1 (⟨(idx 0).val - (16384 * s + 2048 * h), ht⟩ : Fin 2048)) := by
    funext a
    apply Fin.ext
    match a with
    | ⟨0, _⟩ => show (idx 0).val = 16384 * s + 2048 * h + 1 * ((idx 0).val - (16384 * s + 2048 * h)); omega
  rw [hi]
  refine (Landed.slice_writes_hit (Val := Elt F) cc1_scratch5 base (Rect.unit (s := S114688) ![16384 * s + 2048 * h] S2048.size inb) _
    (ix1 (⟨(idx 0).val - (16384 * s + 2048 * h), ht⟩ : Fin 2048))).trans ?_
  refine (Landed.read_whole (Val := Elt F) cc1_scratch2 fv (ix1 (⟨(idx 0).val - (16384 * s + 2048 * h), ht⟩ : Fin 2048))).trans ?_
  refine (hG ⟨(idx 0).val - (16384 * s + 2048 * h), ht⟩ (by show (idx 0).val - (16384 * s + 2048 * h) < 16 * 128; omega)).trans ?_
  unfold ACC1 accVal
  show accAt (XT m d) (WH1 m d) 13 cT'.val s (2048 * h + ((idx 0).val - (16384 * s + 2048 * h)))
    = accAt (XT m d) (WH1 m d) 13 cT'.val ((16384 * s + 2048 * h + 1 * ((idx 0).val - (16384 * s + 2048 * h))) / 16384)
        ((16384 * s + 2048 * h + 1 * ((idx 0).val - (16384 * s + 2048 * h))) % 16384)
  have hs : s < 7 := by omega
  congr 1 <;> omega

end T1

end Cert.Proof.KB

end
-- ==== Proof.KB.Tile1Row.lean ====
/-
  Lookup 1, one tile: the set facts of the gather phase and of the row owner's barrier step.
  A trip's box of sixteen indices lies in its slot of the index scratch; the two slots cover the scratch and rejoin it;
  and the tile's row of the shared buffer at the looked-up values is exactly the sixteen payloads of its duties at the
  barrier: its sixteen column blocks of 1024.
-/
import proofs.«207420_g80582176408339_cont_9to1c4b_743_56_alg».proof.Proof.KB.Tile1Landed

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T1
section Mine
variable (d : Dev nD) (c : Fin τ.nSC) (i : Fin τ.nSub)

omit [FloatOps F] in
/-- A trip's box of sixteen indices lies in its slot. -/
theorem box_sub_slot (p k : ℕ) (offX : Fin 1 → Nat) (inbX : ∀ a, offX a + S16.size a ≤ S4096.size a) (hoff : offX = ![2048 * p + 16 * k]) (hk : k < 128) :
    (xM).view.setOn (Rect.unit (s := S4096) offX S16.size inbX).toLoadRect.set ⊆ seg (N := 4096) (2048 * p) 2048 := by
  intro j hj
  rw [View.setOn, Finset.mem_map] at hj
  obtain ⟨y, hy, rfl⟩ := hj
  have h0 := (Rect.mem_set_unit.mp hy) 0
  subst hoff
  rw [mem_seg]
  have e16 : S16.size 0 = 16 := rfl
  have e0 : (![2048 * p + 16 * k] : Fin 1 → Nat) 0 = 2048 * p + 16 * k := rfl
  rw [e16, e0] at h0
  show 2048 * p ≤ (y 0).val ∧ (y 0).val < 2048 * p + 2048
  omega

omit [FloatOps F] in
theorem x_cover : seg (N := 4096) 0 2048 ∪ seg (N := 4096) 2048 2048 = Finset.univ := by
  ext j; rw [Finset.mem_union, mem_seg, mem_seg]
  have : (j 0).val < 4096 := (j 0).isLt
  constructor
  · intro _; exact Finset.mem_univ _
  · intro _; omega

omit [FloatOps F] in
/-- The two slots, at whatever they hold, are the index scratch at some contents. -/
theorem x_join (f g : Buf (Elt F) ((V d c i).loc cc1_scratch1)) :
    iprop(((xSlot0).view.loc (V d c i) ↦[(xSlot0).view.set]{fullShare} f) ∗ ((xSlot1).view.loc (V d c i) ↦[(xSlot1).view.set]{fullShare} g))
      ⊢ (iprop(∃ f', (V d c i).loc cc1_scratch1 ↦{fullShare} f') : sProp 𝕄) := by
  rw [set_xSlot0, set_xSlot1]
  refine (pointsTo_join (seg_disjoint (Or.inl (by omega)))).trans ?_
  rw [x_cover]
  iintro H; iexists _; iexact H

/-- A tile that owns a row hands every tile its column block of it: the row at the looked-up values is the sixteen
    payloads of its duties. -/
theorem pays_row (s : ℕ) (hs : s < 7) :
    (acc1Loc d c ↦[seg (N := 114688) (16384 * s) 16384]{fullShare} ACC1 m d c : sProp 𝕄)
      = bigSep Finset.univ fun j : Fin (grid1.bound 1) => (bRd (F := F) m).payload (bcell d c (j.castLE hsub1)) 1 s := by
  rw [show seg (N := 114688) (16384 * s) 16384 = seg (N := 114688) (16384 * s) (1024 * 16) from rfl, ← seg_parts,
    pointsTo_biUnion _ _ seg_parts_disjoint]
  exact bigSep_congr fun j _ => (bPay_lt m d c (j.castLE hsub1) s hs).symm

end Mine
end T1

end Cert.Proof.KB

end
-- ==== Proof.KB.Tile1Post.lean ====
/-
  Lookup 1, one tile: the end of the task.
  From what the tile holds after its write-out — its two read shares, its 1024 entries of the result at the partial
  sums, its column block of each of the seven rows of the shared buffer at whatever they hold, its standing on its own
  barrier cell (no longer needed: this is the last lookup), its five scratches and twenty-one semaphores back, the waits it recorded — to the
  form the launch expects of a finished task.
-/
import proofs.«207420_g80582176408339_cont_9to1c4b_743_56_alg».proof.Proof.KB.Tile1Row

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T1
section Post
variable (d : Dev nD) (L : grid1.Coords)

/-- The end of the task: what the tile hands back, its scratches and semaphores, the waits it recorded. -/
theorem post_intro (hF : (K (F := F)).Facts) (O : CellTallies nD τ sig (HIx 2)) (W W' : Waits sig (HIx 2))
    (hW' : ∀ p ∈ W', p ∈ W ∨ p.2 = none ∨ p.2 = some (1 : Fin 2)) :
    (iprop((xtLoc d ↦{shT (cL L) (jL L)} XT m d) ∗ (w1Loc d ↦{shT (cL L) (jL L)} WH1 m d)
        ∗ (p1Loc d ↦[seg (N := 32768) (16384 * (cL L).val + 1024 * (jL L).val) 1024]{fullShare} PT1 m d)
        ∗ ((∃ f, acc1Loc d (cV L) ↦[seg (N := 114688) (16384 * 0 + 1024 * (jV L).val) 1024]{fullShare} f)
            ∗ (∃ f, acc1Loc d (cV L) ↦[seg (N := 114688) (16384 * 1 + 1024 * (jV L).val) 1024]{fullShare} f)
            ∗ (∃ f, acc1Loc d (cV L) ↦[seg (N := 114688) (16384 * 2 + 1024 * (jV L).val) 1024]{fullShare} f)
            ∗ (∃ f, acc1Loc d (cV L) ↦[seg (N := 114688) (16384 * 3 + 1024 * (jV L).val) 1024]{fullShare} f)
            ∗ (∃ f, acc1Loc d (cV L) ↦[seg (N := 114688) (16384 * 4 + 1024 * (jV L).val) 1024]{fullShare} f)
            ∗ (∃ f, acc1Loc d (cV L) ↦[seg (N := 114688) (16384 * 5 + 1024 * (jV L).val) 1024]{fullShare} f)
            ∗ (∃ f, acc1Loc d (cV L) ↦[seg (N := 114688) (16384 * 6 + 1024 * (jV L).val) 1024]{fullShare} f))
        ∗ atPos EB (bcell d (cV L) (jV L)) (1 + 1) ∅ 0 ∗ reached EB (bcell d (cV L) (jV L)) (1 + 1)
        ∗ ((∃ f, (V d (cV L) (jV L)).loc cc1_scratch0 ↦{fullShare} f)
            ∗ (∃ f, (V d (cV L) (jV L)).loc cc1_scratch1 ↦{fullShare} f)
            ∗ (∃ f, (V d (cV L) (jV L)).loc cc1_scratch2 ↦{fullShare} f)
            ∗ (∃ f, (V d (cV L) (jV L)).loc cc1_scratch3 ↦{fullShare} f)
            ∗ (∃ f, (V d (cV L) (jV L)).loc cc1_scratch4 ↦{fullShare} f))
        ∗ (bigSep (ownRefs (τ := τ) (.scVector (cV L) (jV L)) \ (bufCells (cV L) (jV L)).toFinset) fun b => iprop(∃ f, ((d, b) : Loc nD τ sig) ↦{fullShare} f))
        ∗ (semVal ((V d (cV L) (jV L), SemLoc.dma cc1_scratch6.sem) : GSem nD τ sig) 0
            ∗ semVal ((V d (cV L) (jV L), SemLoc.dma cc1_scratch7.sem) : GSem nD τ sig) 0
            ∗ semVal ((V d (cV L) (jV L), SemLoc.dma cc1_scratch8.sem) : GSem nD τ sig) 0
            ∗ semVal ((V d (cV L) (jV L), SemLoc.dma cc1_scratch9.sem) : GSem nD τ sig) 0
            ∗ semVal ((V d (cV L) (jV L), SemLoc.dma cc1_scoped0.sem) : GSem nD τ sig) 0
            ∗ semVal ((V d (cV L) (jV L), SemLoc.dma cc1_scoped1.sem) : GSem nD τ sig) 0
            ∗ semVal ((V d (cV L) (jV L), SemLoc.dma cc1_scoped2.sem) : GSem nD τ sig) 0
            ∗ semVal ((V d (cV L) (jV L), SemLoc.dma cc1_scoped3.sem) : GSem nD τ sig) 0
            ∗ semVal ((V d (cV L) (jV L), SemLoc.dma cc1_scoped4.sem) : GSem nD τ sig) 0
            ∗ semVal ((V d (cV L) (jV L), SemLoc.dma cc1_scoped5.sem) : GSem nD τ sig) 0
            ∗ semVal ((V d (cV L) (jV L), SemLoc.dma cc1_scoped6.sem) : GSem nD τ sig) 0
            ∗ semVal ((V d (cV L) (jV L), SemLoc.dma cc1_scoped7.sem) : GSem nD τ sig) 0
            ∗ semVal ((V d (cV L) (jV L), SemLoc.dma cc1_scoped8.sem) : GSem nD τ sig) 0
            ∗ semVal ((V d (cV L) (jV L), SemLoc.dma cc1_scoped9.sem) : GSem nD τ sig) 0
            ∗ semVal ((V d (cV L) (jV L), SemLoc.dma cc1_scoped10.sem) : GSem nD τ sig) 0
            ∗ semVal ((V d (cV L) (jV L), SemLoc.dma cc1_scoped11.sem) : GSem nD τ sig) 0
            ∗ semVal ((V d (cV L) (jV L), SemLoc.dma cc1_scoped12.sem) : GSem nD τ sig) 0
            ∗ semVal ((V d (cV L) (jV L), SemLoc.dma cc1_scoped13.sem) : GSem nD τ sig) 0
            ∗ semVal ((V d (cV L) (jV L), SemLoc.dma cc1_scoped14.sem) : GSem nD τ sig) 0
            ∗ semVal ((V d (cV L) (jV L), SemLoc.dma cc1_scoped15.sem) : GSem nD τ sig) 0
            ∗ semVal ((V d (cV L) (jV L), SemLoc.dma cc1_scoped16.sem) : GSem nD τ sig) 0)
        ∗ (bigSep (ownCells (V d (cV L) (jV L)) \ (semCells (V d (cV L) (jV L))).toFinset) fun g => semVal g 0)
        ∗ owes (V d (cV L) (jV L)) O W') : sProp 𝕄)
      ⊢ iprop(td1 m d (cL L) (jL L) ∗ scopedBufs (V d (cV L) (jV L)) ∗ scopedSems0 (V d (cV L) (jV L))
          ∗ ∃ W', ⌜∀ p ∈ W', p ∈ W ∨ p.2 = none ∨ p.2 = some (1 : Fin 2)⌝ ∗ owes (V d (cV L) (jV L)) O W') := by
  rw [(K (F := F)).scopedBufs_V hF d (cV L) (jV L), SparseCore.Cfg.scopedSems0_V (Val := Elt F) d (cV L) (jV L), ownSems0_V, ownBufs_V]
  unfold td1
  rw [bigSep_univ_eq_bigSepL [0, 1, 2, 3, 4, 5, 6] (by decide) (by decide),
    show bigSepL [0, 1, 2, 3, 4, 5, 6] (fun n : Fin 7 => iprop(∃ f, acc1Loc d (cT (cL L)) ↦[seg (N := 114688) (16384 * n.val + 1024 * (jL L).val) 1024]{fullShare} f))
      = (iprop((∃ f, acc1Loc d (cT (cL L)) ↦[seg (N := 114688) (16384 * (0 : Fin 7).val + 1024 * (jL L).val) 1024]{fullShare} f) ∗ (∃ f, acc1Loc d (cT (cL L)) ↦[seg (N := 114688) (16384 * (1 : Fin 7).val + 1024 * (jL L).val) 1024]{fullShare} f) ∗ (∃ f, acc1Loc d (cT (cL L)) ↦[seg (N := 114688) (16384 * (2 : Fin 7).val + 1024 * (jL L).val) 1024]{fullShare} f) ∗ (∃ f, acc1Loc d (cT (cL L)) ↦[seg (N := 114688) (16384 * (3 : Fin 7).val + 1024 * (jL L).val) 1024]{fullShare} f) ∗ (∃ f, acc1Loc d (cT (cL L)) ↦[seg (N := 114688) (16384 * (4 : Fin 7).val + 1024 * (jL L).val) 1024]{fullShare} f) ∗ (∃ f, acc1Loc d (cT (cL L)) ↦[seg (N := 114688) (16384 * (5 : Fin 7).val + 1024 * (jL L).val) 1024]{fullShare} f) ∗ (∃ f, acc1Loc d (cT (cL L)) ↦[seg (N := 114688) (16384 * (6 : Fin 7).val + 1024 * (jL L).val) 1024]{fullShare} f)) : sProp 𝕄) from rfl]
  iintro ⟨Hxt, Hwh, Hp0, ⟨G0, G1, G2, G3, G4, G5, G6⟩, -, -, ⟨B0, B1, B2, B3, B4⟩, Hbufs,
    ⟨Hs6, Hs7, Hs8, Hs9, Hc0, Hc1, Hc2, Hc3, Hc4, Hc5, Hc6, Hc7, Hc8, Hc9, Hc10, Hc11, Hc12, Hc13, Hc14, Hc15, Hc16⟩, Hsems, HO⟩
  isplitl [Hxt Hwh Hp0 G0 G1 G2 G3 G4 G5 G6]
  · isplitl [Hxt]; · iexact Hxt
    isplitl [Hwh]; · iexact Hwh
    isplitl [Hp0]; · iexact Hp0
    isplitl [G0]; · iexact G0
    isplitl [G1]; · iexact G1
    isplitl [G2]; · iexact G2
    isplitl [G3]; · iexact G3
    isplitl [G4]; · iexact G4
    isplitl [G5]; · iexact G5
    iexact G6
  isplitl [B0 B1 B2 B3 B4 Hbufs]
  · isplitl [B0 B1 B2 B3 B4]
    · isplitl [B0]; · iexact B0
      isplitl [B1]; · iexact B1
      isplitl [B2]; · iexact B2
      isplitl [B3]; · iexact B3
      iexact B4
    iexact Hbufs
  isplitl [Hs6 Hs7 Hs8 Hs9 Hc0 Hc1 Hc2 Hc3 Hc4 Hc5 Hc6 Hc7 Hc8 Hc9 Hc10 Hc11 Hc12 Hc13 Hc14 Hc15 Hc16 Hsems]
  · isplitl [Hs6 Hs7 Hs8 Hs9 Hc0 Hc1 Hc2 Hc3 Hc4 Hc5 Hc6 Hc7 Hc8 Hc9 Hc10 Hc11 Hc12 Hc13 Hc14 Hc15 Hc16]
    · isplitl [Hs6]; · iexact Hs6
      isplitl [Hs7]; · iexact Hs7
      isplitl [Hs8]; · iexact Hs8
      isplitl [Hs9]; · iexact Hs9
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      iexact Hc16
    iexact Hsems
  iexists W'; isplitr
  · ipureintro; exact hW'
  · iexact HO

/-- The same, towards the form in which the task's own buffers and semaphores stand one by one. -/
theorem post_intro' (hF : (K (F := F)).Facts) (O : CellTallies nD τ sig (HIx 2)) (W W' : Waits sig (HIx 2))
    (hW' : ∀ p ∈ W', p ∈ W ∨ p.2 = none ∨ p.2 = some (1 : Fin 2)) :
    (iprop((xtLoc d ↦{shT (cL L) (jL L)} XT m d) ∗ (w1Loc d ↦{shT (cL L) (jL L)} WH1 m d)
        ∗ (p1Loc d ↦[seg (N := 32768) (16384 * (cL L).val + 1024 * (jL L).val) 1024]{fullShare} PT1 m d)
        ∗ ((∃ f, acc1Loc d (cV L) ↦[seg (N := 114688) (16384 * 0 + 1024 * (jV L).val) 1024]{fullShare} f)
            ∗ (∃ f, acc1Loc d (cV L) ↦[seg (N := 114688) (16384 * 1 + 1024 * (jV L).val) 1024]{fullShare} f)
            ∗ (∃ f, acc1Loc d (cV L) ↦[seg (N := 114688) (16384 * 2 + 1024 * (jV L).val) 1024]{fullShare} f)
            ∗ (∃ f, acc1Loc d (cV L) ↦[seg (N := 114688) (16384 * 3 + 1024 * (jV L).val) 1024]{fullShare} f)
            ∗ (∃ f, acc1Loc d (cV L) ↦[seg (N := 114688) (16384 * 4 + 1024 * (jV L).val) 1024]{fullShare} f)
            ∗ (∃ f, acc1Loc d (cV L) ↦[seg (N := 114688) (16384 * 5 + 1024 * (jV L).val) 1024]{fullShare} f)
            ∗ (∃ f, acc1Loc d (cV L) ↦[seg (N := 114688) (16384 * 6 + 1024 * (jV L).val) 1024]{fullShare} f))
        ∗ atPos EB (bcell d (cV L) (jV L)) (1 + 1) ∅ 0 ∗ reached EB (bcell d (cV L) (jV L)) (1 + 1)
        ∗ ((∃ f, (V d (cV L) (jV L)).loc cc1_scratch0 ↦{fullShare} f)
            ∗ (∃ f, (V d (cV L) (jV L)).loc cc1_scratch1 ↦{fullShare} f)
            ∗ (∃ f, (V d (cV L) (jV L)).loc cc1_scratch2 ↦{fullShare} f)
            ∗ (∃ f, (V d (cV L) (jV L)).loc cc1_scratch3 ↦{fullShare} f)
            ∗ (∃ f, (V d (cV L) (jV L)).loc cc1_scratch4 ↦{fullShare} f))
        ∗ (bigSep (ownRefs (τ := τ) (.scVector (cV L) (jV L)) \ (bufCells (cV L) (jV L)).toFinset) fun b => iprop(∃ f, ((d, b) : Loc nD τ sig) ↦{fullShare} f))
        ∗ (semVal ((V d (cV L) (jV L), SemLoc.dma cc1_scratch6.sem) : GSem nD τ sig) 0
            ∗ semVal ((V d (cV L) (jV L), SemLoc.dma cc1_scratch7.sem) : GSem nD τ sig) 0
            ∗ semVal ((V d (cV L) (jV L), SemLoc.dma cc1_scratch8.sem) : GSem nD τ sig) 0
            ∗ semVal ((V d (cV L) (jV L), SemLoc.dma cc1_scratch9.sem) : GSem nD τ sig) 0
            ∗ semVal ((V d (cV L) (jV L), SemLoc.dma cc1_scoped0.sem) : GSem nD τ sig) 0
            ∗ semVal ((V d (cV L) (jV L), SemLoc.dma cc1_scoped1.sem) : GSem nD τ sig) 0
            ∗ semVal ((V d (cV L) (jV L), SemLoc.dma cc1_scoped2.sem) : GSem nD τ sig) 0
            ∗ semVal ((V d (cV L) (jV L), SemLoc.dma cc1_scoped3.sem) : GSem nD τ sig) 0
            ∗ semVal ((V d (cV L) (jV L), SemLoc.dma cc1_scoped4.sem) : GSem nD τ sig) 0
            ∗ semVal ((V d (cV L) (jV L), SemLoc.dma cc1_scoped5.sem) : GSem nD τ sig) 0
            ∗ semVal ((V d (cV L) (jV L), SemLoc.dma cc1_scoped6.sem) : GSem nD τ sig) 0
            ∗ semVal ((V d (cV L) (jV L), SemLoc.dma cc1_scoped7.sem) : GSem nD τ sig) 0
            ∗ semVal ((V d (cV L) (jV L), SemLoc.dma cc1_scoped8.sem) : GSem nD τ sig) 0
            ∗ semVal ((V d (cV L) (jV L), SemLoc.dma cc1_scoped9.sem) : GSem nD τ sig) 0
            ∗ semVal ((V d (cV L) (jV L), SemLoc.dma cc1_scoped10.sem) : GSem nD τ sig) 0
            ∗ semVal ((V d (cV L) (jV L), SemLoc.dma cc1_scoped11.sem) : GSem nD τ sig) 0
            ∗ semVal ((V d (cV L) (jV L), SemLoc.dma cc1_scoped12.sem) : GSem nD τ sig) 0
            ∗ semVal ((V d (cV L) (jV L), SemLoc.dma cc1_scoped13.sem) : GSem nD τ sig) 0
            ∗ semVal ((V d (cV L) (jV L), SemLoc.dma cc1_scoped14.sem) : GSem nD τ sig) 0
            ∗ semVal ((V d (cV L) (jV L), SemLoc.dma cc1_scoped15.sem) : GSem nD τ sig) 0
            ∗ semVal ((V d (cV L) (jV L), SemLoc.dma cc1_scoped16.sem) : GSem nD τ sig) 0)
        ∗ (bigSep (ownCells (V d (cV L) (jV L)) \ (semCells (V d (cV L) (jV L))).toFinset) fun g => semVal g 0)
        ∗ owes (V d (cV L) (jV L)) O W') : sProp 𝕄)
      ⊢ iprop(td1 m d (cL L) (jL L)
          ∗ (((∃ f, (V d (cV L) (jV L)).loc cc1_scratch0 ↦{fullShare} f)
            ∗ (∃ f, (V d (cV L) (jV L)).loc cc1_scratch1 ↦{fullShare} f)
            ∗ (∃ f, (V d (cV L) (jV L)).loc cc1_scratch2 ↦{fullShare} f)
            ∗ (∃ f, (V d (cV L) (jV L)).loc cc1_scratch3 ↦{fullShare} f)
            ∗ (∃ f, (V d (cV L) (jV L)).loc cc1_scratch4 ↦{fullShare} f))
              ∗ bigSep (ownRefs (τ := τ) (.scVector (cV L) (jV L)) \ (bufCells (cV L) (jV L)).toFinset) fun b => iprop(∃ f, ((d, b) : Loc nD τ sig) ↦{fullShare} f))
          ∗ ((semVal ((V d (cV L) (jV L), SemLoc.dma cc1_scratch6.sem) : GSem nD τ sig) 0
            ∗ semVal ((V d (cV L) (jV L), SemLoc.dma cc1_scratch7.sem) : GSem nD τ sig) 0
            ∗ semVal ((V d (cV L) (jV L), SemLoc.dma cc1_scratch8.sem) : GSem nD τ sig) 0
            ∗ semVal ((V d (cV L) (jV L), SemLoc.dma cc1_scratch9.sem) : GSem nD τ sig) 0
            ∗ semVal ((V d (cV L) (jV L), SemLoc.dma cc1_scoped0.sem) : GSem nD τ sig) 0
            ∗ semVal ((V d (cV L) (jV L), SemLoc.dma cc1_scoped1.sem) : GSem nD τ sig) 0
            ∗ semVal ((V d (cV L) (jV L), SemLoc.dma cc1_scoped2.sem) : GSem nD τ sig) 0
            ∗ semVal ((V d (cV L) (jV L), SemLoc.dma cc1_scoped3.sem) : GSem nD τ sig) 0
            ∗ semVal ((V d (cV L) (jV L), SemLoc.dma cc1_scoped4.sem) : GSem nD τ sig) 0
            ∗ semVal ((V d (cV L) (jV L), SemLoc.dma cc1_scoped5.sem) : GSem nD τ sig) 0
            ∗ semVal ((V d (cV L) (jV L), SemLoc.dma cc1_scoped6.sem) : GSem nD τ sig) 0
            ∗ semVal ((V d (cV L) (jV L), SemLoc.dma cc1_scoped7.sem) : GSem nD τ sig) 0
            ∗ semVal ((V d (cV L) (jV L), SemLoc.dma cc1_scoped8.sem) : GSem nD τ sig) 0
            ∗ semVal ((V d (cV L) (jV L), SemLoc.dma cc1_scoped9.sem) : GSem nD τ sig) 0
            ∗ semVal ((V d (cV L) (jV L), SemLoc.dma cc1_scoped10.sem) : GSem nD τ sig) 0
            ∗ semVal ((V d (cV L) (jV L), SemLoc.dma cc1_scoped11.sem) : GSem nD τ sig) 0
            ∗ semVal ((V d (cV L) (jV L), SemLoc.dma cc1_scoped12.sem) : GSem nD τ sig) 0
            ∗ semVal ((V d (cV L) (jV L), SemLoc.dma cc1_scoped13.sem) : GSem nD τ sig) 0
            ∗ semVal ((V d (cV L) (jV L), SemLoc.dma cc1_scoped14.sem) : GSem nD τ sig) 0
            ∗ semVal ((V d (cV L) (jV L), SemLoc.dma cc1_scoped15.sem) : GSem nD τ sig) 0
            ∗ semVal ((V d (cV L) (jV L), SemLoc.dma cc1_scoped16.sem) : GSem nD τ sig) 0)
              ∗ bigSep (ownCells (V d (cV L) (jV L)) \ (semCells (V d (cV L) (jV L))).toFinset) fun g => semVal g 0)
          ∗ ∃ W', ⌜∀ p ∈ W', p ∈ W ∨ p.2 = none ∨ p.2 = some (1 : Fin 2)⌝ ∗ owes (V d (cV L) (jV L)) O W') := by
  unfold td1
  rw [bigSep_univ_eq_bigSepL [0, 1, 2, 3, 4, 5, 6] (by decide) (by decide),
    show bigSepL [0, 1, 2, 3, 4, 5, 6] (fun n : Fin 7 => iprop(∃ f, acc1Loc d (cT (cL L)) ↦[seg (N := 114688) (16384 * n.val + 1024 * (jL L).val) 1024]{fullShare} f))
      = (iprop((∃ f, acc1Loc d (cT (cL L)) ↦[seg (N := 114688) (16384 * (0 : Fin 7).val + 1024 * (jL L).val) 1024]{fullShare} f) ∗ (∃ f, acc1Loc d (cT (cL L)) ↦[seg (N := 114688) (16384 * (1 : Fin 7).val + 1024 * (jL L).val) 1024]{fullShare} f) ∗ (∃ f, acc1Loc d (cT (cL L)) ↦[seg (N := 114688) (16384 * (2 : Fin 7).val + 1024 * (jL L).val) 1024]{fullShare} f) ∗ (∃ f, acc1Loc d (cT (cL L)) ↦[seg (N := 114688) (16384 * (3 : Fin 7).val + 1024 * (jL L).val) 1024]{fullShare} f) ∗ (∃ f, acc1Loc d (cT (cL L)) ↦[seg (N := 114688) (16384 * (4 : Fin 7).val + 1024 * (jL L).val) 1024]{fullShare} f) ∗ (∃ f, acc1Loc d (cT (cL L)) ↦[seg (N := 114688) (16384 * (5 : Fin 7).val + 1024 * (jL L).val) 1024]{fullShare} f) ∗ (∃ f, acc1Loc d (cT (cL L)) ↦[seg (N := 114688) (16384 * (6 : Fin 7).val + 1024 * (jL L).val) 1024]{fullShare} f)) : sProp 𝕄) from rfl]
  iintro ⟨Hxt, Hwh, Hp0, ⟨G0, G1, G2, G3, G4, G5, G6⟩, -, -, ⟨B0, B1, B2, B3, B4⟩, Hbufs,
    ⟨Hs6, Hs7, Hs8, Hs9, Hc0, Hc1, Hc2, Hc3, Hc4, Hc5, Hc6, Hc7, Hc8, Hc9, Hc10, Hc11, Hc12, Hc13, Hc14, Hc15, Hc16⟩, Hsems, HO⟩
  isplitl [Hxt Hwh Hp0 G0 G1 G2 G3 G4 G5 G6]
  · isplitl [Hxt]; · iexact Hxt
    isplitl [Hwh]; · iexact Hwh
    isplitl [Hp0]; · iexact Hp0
    isplitl [G0]; · iexact G0
    isplitl [G1]; · iexact G1
    isplitl [G2]; · iexact G2
    isplitl [G3]; · iexact G3
    isplitl [G4]; · iexact G4
    isplitl [G5]; · iexact G5
    iexact G6
  isplitl [B0 B1 B2 B3 B4 Hbufs]
  · isplitl [B0 B1 B2 B3 B4]
    · isplitl [B0]; · iexact B0
      isplitl [B1]; · iexact B1
      isplitl [B2]; · iexact B2
      isplitl [B3]; · iexact B3
      iexact B4
    iexact Hbufs
  isplitl [Hs6 Hs7 Hs8 Hs9 Hc0 Hc1 Hc2 Hc3 Hc4 Hc5 Hc6 Hc7 Hc8 Hc9 Hc10 Hc11 Hc12 Hc13 Hc14 Hc15 Hc16 Hsems]
  · isplitl [Hs6 Hs7 Hs8 Hs9 Hc0 Hc1 Hc2 Hc3 Hc4 Hc5 Hc6 Hc7 Hc8 Hc9 Hc10 Hc11 Hc12 Hc13 Hc14 Hc15 Hc16]
    · isplitl [Hs6]; · iexact Hs6
      isplitl [Hs7]; · iexact Hs7
      isplitl [Hs8]; · iexact Hs8
      isplitl [Hs9]; · iexact Hs9
      isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      iexact Hc16
    iexact Hsems
  iexists W'; isplitr
  · ipureintro; exact hW'
  · iexact HO

end Post
end T1

end Cert.Proof.KB

end
-- ==== Proof.KB.Tile1Out.lean ====
/-
  Lookup 1, one tile: what the write-out leaves. The tile's 1024 entries of the result, once the whole output scratch
  has been copied into them, are SparseCore c's partial sums for batch rows 1024 s … 1024 s + 1023.
-/
import proofs.«207420_g80582176408339_cont_9to1c4b_743_56_alg».proof.Proof.KB.Tile1Post

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T1
section Out
variable (d : Dev nD) (c : Fin τ.nSC) (i : Fin τ.nSub)

open Idealize.ShloMosaic.ValueIdx in
/-- The tile's 1024 entries of the result, once the output scratch has been copied into them, are the partial sums. -/
theorem out_landed (cc s : ℕ) (hcc : cc < 2) (hs : s < 16) (off : Fin 1 → Nat) (inb : ∀ a, off a + S1024.size a ≤ S32768.size a) (hoff : off = ![16384 * cc + 1024 * s])
    (base : Buf (Elt F) (p1Loc d)) (h : Buf (Elt F) ((outM).view.loc (V d c i)))
    (hh : ∀ k : Fin 1024, (show F .f32 from h (ix1 k)) = partAt (XT m d) (WH1 m d) 13 cc (1024 * s + k.val)) :
    ∀ idx ∈ seg (N := 32768) (16384 * cc + 1024 * s) 1024,
      (((poM).slice (Rect.unit (s := S32768) off S1024.size inb) (fun _ => rfl)).view.writes (Elt F) base
        [⟨Rect.whole S1024, ReadAs.same.apply (View.read (Elt F) (outM).view h)⟩]) idx = PT1 m d idx := by
  subst hoff
  intro idx hidx
  rw [mem_seg] at hidx
  have ht : (idx 0).val - (16384 * cc + 1024 * s) < 1024 := by omega
  have hi : idx = (Rect.unit (s := S32768) ![16384 * cc + 1024 * s] S1024.size inb).emb (ix1 (⟨(idx 0).val - (16384 * cc + 1024 * s), ht⟩ : Fin 1024)) := by
    funext a
    apply Fin.ext
    match a with
    | ⟨0, _⟩ => show (idx 0).val = 16384 * cc + 1024 * s + 1 * ((idx 0).val - (16384 * cc + 1024 * s)); omega
  rw [hi]
  refine (Landed.slice_writes_hit (Val := Elt F) main_v7_scv base (Rect.unit (s := S32768) ![16384 * cc + 1024 * s] S1024.size inb) _
    (ix1 (⟨(idx 0).val - (16384 * cc + 1024 * s), ht⟩ : Fin 1024))).trans ?_
  refine (Landed.read_whole (Val := Elt F) cc1_scratch4 h (ix1 (⟨(idx 0).val - (16384 * cc + 1024 * s), ht⟩ : Fin 1024))).trans ?_
  refine (hh ⟨(idx 0).val - (16384 * cc + 1024 * s), ht⟩).trans ?_
  unfold PT1 partVal
  show partAt (XT m d) (WH1 m d) 13 cc (1024 * s + ((idx 0).val - (16384 * cc + 1024 * s)))
    = partAt (XT m d) (WH1 m d) 13 ((16384 * cc + 1024 * s + 1 * ((idx 0).val - (16384 * cc + 1024 * s))) / 16384)
        ((16384 * cc + 1024 * s + 1 * ((idx 0).val - (16384 * cc + 1024 * s))) % 16384)
  congr 1 <;> omega

end Out
end T1

end Cert.Proof.KB

end
-- ==== Proof.KB.Tile1Reduce.lean ====
/-
  Lookup 1, after the barrier: the reduction of the seven rows of the shared buffer over the tile's 1024 columns.

  The tile owns column block (L 1) of each of the seven rows: entries 16384 n + 1024 (L 1) + k, k < 1024. It reduces
  them in two halves of 512 columns. For half r it copies, for each row n, the 512 entries from 16384 n + 1024 (L 1)
  + 512 r into window n (entries 512 n … 512 n + 511) of a scratch of 3584, all seven copies on one semaphore, and
  waits for all seven before it reads any of them; then, sixteen lanes at a time, adds the seven windows entrywise and
  stores the sums at 512 r + 16 t of an output scratch of 1024. Entry k of the output scratch is then the sum over
  the rows of the shared buffer's entries in column 1024 (L 1) + k: the tile's partial sum for that batch row.

  Here: the halves of a column block and the windows of the scratch as sets of entries; the split of a block into its
  halves and of the scratch into its windows and back; what the seven copies of a half deliver; the windows joined
  into one function that agrees with each; that function in terms of the shared buffer's entries; and the loops'
  invariant — the first entries of the output scratch are the partial sums.
-/
import proofs.«207420_g80582176408339_cont_9to1c4b_743_56_alg».proof.Proof.KB.Tile1Pieces
import proofs.«207420_g80582176408339_cont_9to1c4b_743_56_alg».proof.Proof.KB.ReduceStep

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T1
section Reduce
variable (d : Dev nD) (L : grid1.Coords)

/-! ## The windows of the two batches -/

omit [FloatOps F] in
theorem bigSep_fin2' {M : Type} [URA M] (Φ : Fin 2 → sProp M) : bigSep Finset.univ Φ = iprop(Φ 0 ∗ Φ 1) := by
  rw [show (Finset.univ : Finset (Fin 2)) = {0, 1} by decide, SparseCore.bigSep_insert' (by decide), bigSep_singleton]

omit [FloatOps F] in
theorem bigSep_fin7 {M : Type} [URA M] (Φ : Fin 7 → sProp M) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide, SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-- Half r of column block (L 1) of row n of the shared buffer, as the copies name it. -/
def srcW (L : grid1.Coords) (r : Fin 2) (n : Fin 7) : Memref sig .scVector .shared S512 .f32 :=
  (Memref.whole cc1_scratch5).slice (Rect.unit (s := S114688) (k1_off29 L (BitVec.ofNat 32 (16384 * n.val)) (BitVec.ofNat 32 (512 * r.val))) S512.size (Gen.k1_off29_inb L n r)) (fun _ => rfl)

omit [FloatOps F] in
theorem inb3 (n : Fin 7) : ∀ a, (![512 * n.val] : Fin 1 → Nat) a + S512.size a ≤ S3584.size a := by
  have := n.isLt; intro a; fin_cases a; show 512 * n.val + 512 ≤ 3584; omega
/-- Window n of the reduce scratch. -/
def dstW (n : Fin 7) : Memref sig .scVector .vmem S512 .f32 :=
  (Memref.whole cc1_scratch3).slice (Rect.unit (s := S3584) ![512 * n.val] S512.size (inb3 n)) (fun _ => rfl)

omit [FloatOps F] in
theorem set_srcW (r : Fin 2) (n : Fin 7) :
    (srcW L r n).view.set = seg (N := 114688) (16384 * n.val + 1024 * (L 1).val + 512 * r.val) 512 := by
  show ((View.whole (cc1_scratch5 : Ref sig .scVector)).slice (Rect.unit (s := S114688) _ S512.size _)).set = _
  rw [View.set_slice]
  refine Finset.map_refl.trans ?_
  rw [unit_set_seg, Gen.k1_off29_eq]
  rfl

omit [FloatOps F] in
theorem set_dstW (n : Fin 7) : (dstW n).view.set = seg (N := 3584) (512 * n.val) 512 := by
  show ((View.whole (cc1_scratch3 : Ref sig .scVector)).slice (Rect.unit (s := S3584) _ S512.size _)).set = _
  rw [View.set_slice]
  refine Finset.map_refl.trans ?_
  rw [unit_set_seg]
  rfl

abbrev heldOwn {sp : Space} {S : Shape} (M : Memref sig .scVector sp S .f32) (f : Buf (Elt F) (M.view.loc (V d (cV L) (jV L)))) : sProp 𝕄 :=
  M.view.loc (V d (cV L) (jV L)) ↦[M.view.set]{fullShare} f

theorem acc_halves (n : Nat) (hn : n < 7) (f : Buf (Elt F) (acc1Loc d (cV L))) :
    (acc1Loc d (cV L) ↦[seg (N := 114688) (16384 * n + 1024 * (jV L).val) 1024]{fullShare} f : sProp 𝕄)
      = iprop(heldOwn d L (srcW L 0 ⟨n, hn⟩) f ∗ heldOwn d L (srcW L 1 ⟨n, hn⟩) f) := by
  unfold heldOwn
  rw [set_srcW, set_srcW]
  show _ = iprop((acc1Loc d (cV L) ↦[seg (N := 114688) (16384 * n + 1024 * (L 1).val + 512 * (0 : Fin 2).val) 512]{fullShare} f)
    ∗ (acc1Loc d (cV L) ↦[seg (N := 114688) (16384 * n + 1024 * (L 1).val + 512 * (1 : Fin 2).val) 512]{fullShare} f))
  rw [← bigSep_fin2' (fun r : Fin 2 => (acc1Loc d (cV L) ↦[seg (N := 114688) (16384 * n + 1024 * (L 1).val + 512 * r.val) 512]{fullShare} f : sProp 𝕄)),
    ← pointsTo_biUnion Finset.univ (ℓ := acc1Loc d (cV L)) (fun r : Fin 2 => seg (N := 114688) (16384 * n + 1024 * (L 1).val + 512 * r.val) 512) seg_parts_disjoint,
    seg_parts (N := 114688) (16384 * n + 1024 * (L 1).val) 512 2]
  rfl

theorem scr3_windows (f : Buf (Elt F) ((V d (cV L) (jV L)).loc cc1_scratch3)) :
    ((V d (cV L) (jV L)).loc cc1_scratch3 ↦{fullShare} f : sProp 𝕄)
      = iprop(heldOwn d L (dstW 0) f ∗ heldOwn d L (dstW 1) f ∗ heldOwn d L (dstW 2) f ∗ heldOwn d L (dstW 3) f
          ∗ heldOwn d L (dstW 4) f ∗ heldOwn d L (dstW 5) f ∗ heldOwn d L (dstW 6) f) := by
  unfold heldOwn
  rw [set_dstW, set_dstW, set_dstW, set_dstW, set_dstW, set_dstW, set_dstW]
  show _ = iprop(((V d (cV L) (jV L)).loc cc1_scratch3 ↦[seg (N := 3584) (512 * (0 : Fin 7).val) 512]{fullShare} f)
    ∗ ((V d (cV L) (jV L)).loc cc1_scratch3 ↦[seg (N := 3584) (512 * (1 : Fin 7).val) 512]{fullShare} f)
    ∗ ((V d (cV L) (jV L)).loc cc1_scratch3 ↦[seg (N := 3584) (512 * (2 : Fin 7).val) 512]{fullShare} f)
    ∗ ((V d (cV L) (jV L)).loc cc1_scratch3 ↦[seg (N := 3584) (512 * (3 : Fin 7).val) 512]{fullShare} f)
    ∗ ((V d (cV L) (jV L)).loc cc1_scratch3 ↦[seg (N := 3584) (512 * (4 : Fin 7).val) 512]{fullShare} f)
    ∗ ((V d (cV L) (jV L)).loc cc1_scratch3 ↦[seg (N := 3584) (512 * (5 : Fin 7).val) 512]{fullShare} f)
    ∗ ((V d (cV L) (jV L)).loc cc1_scratch3 ↦[seg (N := 3584) (512 * (6 : Fin 7).val) 512]{fullShare} f))
  rw [← bigSep_fin7 (fun n : Fin 7 => ((V d (cV L) (jV L)).loc cc1_scratch3 ↦[seg (N := 3584) (512 * n.val) 512]{fullShare} f : sProp 𝕄))]
  have hd : ∀ t ∈ (Finset.univ : Finset (Fin 7)), ∀ t' ∈ (Finset.univ : Finset (Fin 7)), t ≠ t' →
      Disjoint (seg (N := 3584) (512 * t.val) 512) (seg (N := 3584) (512 * t'.val) 512) := by
    have h := seg_parts_disjoint (N := 3584) (lo := 0) (len := 512) (k := 7)
    simp only [Nat.zero_add] at h; exact h
  have hc : (Finset.univ : Finset (Fin 7)).biUnion (fun n => seg (N := 3584) (512 * n.val) 512) = Finset.univ := by
    have h := seg_parts (N := 3584) 0 512 7
    simp only [Nat.zero_add] at h; rw [h]; exact seg_univ
  rw [← pointsTo_biUnion Finset.univ (ℓ := (V d (cV L) (jV L)).loc cc1_scratch3) (fun n : Fin 7 => seg (N := 3584) (512 * n.val) 512) hd, hc]; try rfl

/-- What copy n of batch r leaves in window n of the reduce scratch. -/
abbrev landed (r : Fin 2) (n : Fin 7) (fs : Buf (Elt F) ((srcW L r n).view.loc (V d (cV L) (jV L)))) (fd : Buf (Elt F) ((dstW n).view.loc (V d (cV L) (jV L)))) :
    Buf (Elt F) ((dstW n).view.loc (V d (cV L) (jV L))) :=
  (dstW n).view.writes (Elt F) fd [⟨Rect.whole S512, ReadAs.same.apply ((srcW L r n).view.read (Elt F) fs)⟩]

/-- The seven deliveries of batch r. -/
abbrev deliv (r : Fin 2) (fs : (n : Fin 7) → Buf (Elt F) ((srcW L r n).view.loc (V d (cV L) (jV L))))
    (fd : (n : Fin 7) → Buf (Elt F) ((dstW n).view.loc (V d (cV L) (jV L)))) (n : Fin 7) : sProp 𝕄 :=
  iprop(heldOwn d L (dstW n) (landed d L r n (fs n) (fd n)) ∗ heldOwn d L (srcW L r n) (fs n))

instance deliv_storable (r : Fin 2) (fs : (n : Fin 7) → Buf (Elt F) ((srcW L r n).view.loc (V d (cV L) (jV L))))
    (fd : (n : Fin 7) → Buf (Elt F) ((dstW n).view.loc (V d (cV L) (jV L)))) (n : Fin 7) :
    BI.Storable (upEmb : UEmb _ 𝕄) (deliv (F := F) d L r fs fd n) := by
  unfold deliv heldOwn; infer_instance

/-- One window's credit. -/
abbrev NW : ℕ := (dstW 0).view.amount (SemLoc.dma (sig := sig) cc1_scratch6.sem)

/-- What copy n of batch r leaves in window n, over whatever was there. -/
abbrev landedJ (r : Fin 2) (n : Fin 7) (fs : Buf (Elt F) ((srcW L r n).view.loc (V d (cV L) (jV L)))) :
    Buf (Elt F) ((dstW n).view.loc (V d (cV L) (jV L))) :=
  (dstW n).view.writes (Elt F) (dstW n).view.junk [⟨Rect.whole S512, ReadAs.same.apply ((srcW L r n).view.read (Elt F) fs)⟩]

/-- The seven windows, each at contents of its own, are the reduce scratch whole at one function that agrees with each. -/
theorem windows_join (C : Fin 7 → Buf (Elt F) ((V d (cV L) (jV L)).loc cc1_scratch3)) :
    (iprop(heldOwn d L (dstW 0) (C 0) ∗ heldOwn d L (dstW 1) (C 1) ∗ heldOwn d L (dstW 2) (C 2)
        ∗ heldOwn d L (dstW 3) (C 3) ∗ heldOwn d L (dstW 4) (C 4) ∗ heldOwn d L (dstW 5) (C 5)
        ∗ heldOwn d L (dstW 6) (C 6)) : sProp 𝕄)
      ⊢ iprop(∃ g : Buf (Elt F) ((V d (cV L) (jV L)).loc cc1_scratch3), ⌜∀ n : Fin 7, ∀ i ∈ seg (N := 3584) (512 * n.val) 512, g i = C n i⌝
          ∗ (Memref.whole cc1_scratch3).view.loc (V d (cV L) (jV L)) ↦{fullShare} g) := by
  unfold heldOwn
  rw [set_dstW, set_dstW, set_dstW, set_dstW, set_dstW, set_dstW, set_dstW]
  show (iprop(((V d (cV L) (jV L)).loc cc1_scratch3 ↦[seg (N := 3584) (512 * (0 : Fin 7).val) 512]{fullShare} C 0)
    ∗ ((V d (cV L) (jV L)).loc cc1_scratch3 ↦[seg (N := 3584) (512 * (1 : Fin 7).val) 512]{fullShare} C 1)
    ∗ ((V d (cV L) (jV L)).loc cc1_scratch3 ↦[seg (N := 3584) (512 * (2 : Fin 7).val) 512]{fullShare} C 2)
    ∗ ((V d (cV L) (jV L)).loc cc1_scratch3 ↦[seg (N := 3584) (512 * (3 : Fin 7).val) 512]{fullShare} C 3)
    ∗ ((V d (cV L) (jV L)).loc cc1_scratch3 ↦[seg (N := 3584) (512 * (4 : Fin 7).val) 512]{fullShare} C 4)
    ∗ ((V d (cV L) (jV L)).loc cc1_scratch3 ↦[seg (N := 3584) (512 * (5 : Fin 7).val) 512]{fullShare} C 5)
    ∗ ((V d (cV L) (jV L)).loc cc1_scratch3 ↦[seg (N := 3584) (512 * (6 : Fin 7).val) 512]{fullShare} C 6)) : sProp 𝕄) ⊢ _
  rw [← bigSep_fin7 (fun n : Fin 7 => ((V d (cV L) (jV L)).loc cc1_scratch3 ↦[seg (N := 3584) (512 * n.val) 512]{fullShare} C n : sProp 𝕄))]
  have hd : ∀ t ∈ (Finset.univ : Finset (Fin 7)), ∀ t' ∈ (Finset.univ : Finset (Fin 7)), t ≠ t' →
      Disjoint (seg (N := 3584) (512 * t.val) 512) (seg (N := 3584) (512 * t'.val) 512) := by
    have h := seg_parts_disjoint (N := 3584) (lo := 0) (len := 512) (k := 7)
    simp only [Nat.zero_add] at h; exact h
  have hc : (Finset.univ : Finset (Fin 7)).biUnion (fun n => seg (N := 3584) (512 * n.val) 512) = Finset.univ := by
    have h := seg_parts (N := 3584) 0 512 7
    simp only [Nat.zero_add] at h; rw [h]; exact seg_univ
  refine (pointsTo_biUnion_join (ℓ := (V d (cV L) (jV L)).loc cc1_scratch3) (q := fullShare) Finset.univ (fun n : Fin 7 => seg (N := 3584) (512 * n.val) 512) C (C 0) hd).trans ?_
  rw [hc]
  iintro ⟨%g, %hg, Hg⟩
  iexists g
  isplitr
  · ipureintro; exact fun n i hi => hg n (Finset.mem_univ n) i hi
  · iexact Hg

/-- The partial sum the tile owes at entry k of its 1024. -/
def oAt (k : Nat) : F .f32 := partAt (XT m d) (WH1 m d) 13 (cV L).val (1024 * (L 1).val + k)

/-- A reduce loop's invariant: the reduce scratch fixed, the first entries of the output scratch done. -/
def invR (base : Nat) (g : Buf (Elt F) ((V d (cV L) (jV L)).loc cc1_scratch3)) (t : Nat) (_ : PUnit) : sProp 𝕄 :=
  iprop(((Memref.whole cc1_scratch3).view.loc (V d (cV L) (jV L)) ↦{fullShare} g)
    ∗ ∃ h : Buf (Elt F) ((V d (cV L) (jV L)).loc cc1_scratch4), ((Memref.whole cc1_scratch4).view.loc (V d (cV L) (jV L)) ↦{fullShare} h)
      ∗ ⌜∀ k : Fin 1024, k.val < base + 16 * t → h (ValueIdx.ix1 k) = oAt m d L k.val⌝)

/-- The landed windows hold the shared buffer's entries. -/
theorem hgv_of (r : Fin 2) (g : Buf (Elt F) ((V d (cV L) (jV L)).loc cc1_scratch3))
    (hg : ∀ n : Fin 7, ∀ i ∈ seg (N := 3584) (512 * n.val) 512, g i = landedJ (F := F) d L r n (ACC1 m d (cV L)) i) :
    ∀ (n : Fin 7) (j : Nat) (hj : j < 512), g (ValueIdx.ix1 (⟨512 * n.val + j, by have := n.isLt; omega⟩ : Fin 3584))
      = accAt (XT m d) (WH1 m d) 13 (cV L).val n.val (1024 * (L 1).val + 512 * r.val + j) := by
  intro n j hj
  have hn := n.isLt
  rw [hg n _ (by rw [mem_seg]; exact ⟨Nat.le_add_right _ _, by show 512 * n.val + j < 512 * n.val + 512; omega⟩)]
  exact landed_acc_1 m d (cV L) (jV L) (cV L) L r n j hj (inb3 n) _

omit [FloatOps F] in
theorem vec1 (a b : Nat) (h : a = b) : (![a] : Fin 1 → Nat) = ![b] := by rw [h]

end Reduce
end T1

end Cert.Proof.KB

end
-- ==== Proof.KB.Tile1Zero.lean ====
/-
  Lookup 1, the one tile that owns the row no field is left for (SparseCore 1, tile 6): the pieces of its zero phase.
  The tile fills its value scratch with the zero word, sixteen entries a trip for 128 trips, and copies the scratch into
  each of the eight pieces of 2048 of row 6 of its SparseCore's shared buffer. The row's pieces as the task slices them;
  the loop's trip and invariant (the entries below the trip's box are the zero word; a trip extends them by sixteen;
  128 trips fill the scratch); and the value: a piece a copy of zero words landed in holds what the shared buffer holds
  there once every tile has passed the barrier, since 6 + 1 < 7 fails and that row is the zero word throughout.
-/
import proofs.«207420_g80582176408339_cont_9to1c4b_743_56_alg».proof.Proof.KB.Tile1Trip
import Idealize.ShloMosaic.Lib.Affine

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T1
section Zero
variable (d : Dev nD) (L : grid1.Coords)

omit [FloatOps F] in
theorem conds_B : ∀ L : grid1.Coords, ¬ k1_cond1 L = 1#1 → k1_cond2 L = 1#1 → (L 0).val = 1 ∧ (L 1).val = 6 := by decide +kernel

/-- Piece `r` of the zero row of the shared buffer, as the task slices it. -/
abbrev zPiece (h2 : k1_cond2 L = 1#1) (r : Fin 8) : Memref sig .scVector .shared S2048 .f32 :=
  (accM).slice (Rect.unit (s := S114688) (k1_off28 L (BitVec.ofNat 32 (2048 * r.val))) S2048.size (k1_off28_inb L h2 r)) (fun _ => rfl)

omit [FloatOps F] in
theorem set_zPiece (h2 : k1_cond2 L = 1#1) (r : Fin 8) :
    (zPiece L h2 r).view.set = seg (N := 114688) (16384 * (L 1).val + 2048 * r.val) 2048 := by
  refine (View.set_slice_whole cc1_scratch5 _).trans ?_
  rw [unit_set_seg, k1_off28_eq]; rfl

theorem pts_zPiece (h2 : k1_cond2 L = 1#1) (r : Fin 8) (f : Buf (Elt F) (acc1Loc d (cT (cL L)))) :
    ((zPiece L h2 r).view.loc (V d (cV L) (jV L)) ↦[(zPiece L h2 r).view.set]{fullShare} f : sProp 𝕄)
      = (acc1Loc d (cT (cL L)) ↦[seg (N := 114688) (16384 * (L 1).val + 2048 * r.val) 2048]{fullShare} f) := by
  rw [set_zPiece]; rfl

end Zero
end T1

namespace T1
section ZeroLoop
variable (d : Dev nD) (c : Fin τ.nSC) (i : Fin τ.nSub)

open Idealize.ShloMosaic.ValueIdx in
/-- The value scratch's first `16 k` entries are the zero word. -/
def ZeroTo (k : ℕ) (f : Buf (Elt F) ((valM).view.loc (V d c i))) : Prop :=
  ∀ t : Fin 2048, t.val < 16 * k → (show F .f32 from f (ix1 t)) = Scalar.ofBits .f32 0x00000000#32

/-- The zero loop's invariant: the value scratch at some contents whose entries below the trip's box are the zero word. -/
def zInv (k : ℕ) (_ : PUnit) : sProp 𝕄 :=
  iprop(∃ f, ((valM).view.loc (V d c i) ↦{fullShare} f) ∗ ⌜ZeroTo (F := F) d c i k f⌝)

/-- One trip of the zero loop, over the offset of its box: sixteen entries loaded (and not used), sixteen zero words stored. -/
def zTrip (off : Fin 1 → Nat) (inb : ∀ a, off a + S16.size a ≤ S2048.size a) :
    Prog (TpuEff nD τ sig (Elt F) Λ₀ (.scVector c i)) Unit := do
  let v167 : Vec F S16 .f32 ← Prog.lift (.load valM (Rect.unit (s := S2048) off S16.size inb).toLoadRect (View.loadsAt_vmem h_S16))
  Prog.lift (.store valM (Rect.unit (s := S2048) off S16.size inb) (k1_pay2 (F := F)) Finset.univ (View.stores_vmem_bits_univ h_S16 rfl) (.inl rfl))
  pure ⟨⟩

theorem k1_t9_body_eq (L : grid1.Coords) (arg1 : BitVec 32) (h2 : k1_cond2 L = 1#1) (k : Fin k1_t9_loop.trips) (u : Unit) :
    k1_t9_body (F := F) L (Memref.whole main_v0_scv) (Memref.isWhole_whole _) (Memref.whole main_v4_scv) (Memref.isWhole_whole _) (Memref.whole main_v7_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16 arg1 h2 k u
      = zTrip (F := F) (cV L) (jV L) (k1_off27 k) (k1_off27_inb L k h2) := rfl

theorem wp_zTrip (off : Fin 1 → Nat) (inb : ∀ a, off a + S16.size a ≤ S2048.size a) (f : Buf (Elt F) ((valM).view.loc (V d c i))) :
    (((valM).view.loc (V d c i) ↦{fullShare} f) : sProp 𝕄)
      ⊢ wp frame (wpE (defs₀ (F := F)) 𝒱₀ (V d c i) none) Set.univ (zTrip (F := F) c i off inb)
          fun _ => ((valM).view.loc (V d c i) ↦{fullShare}
            ((valM).access (Rect.unit (s := S2048) off S16.size inb)).write (Elt F) f (k1_pay2 (F := F)) Finset.univ) := by
  unfold zTrip
  simp only [Prog.lift, Prog.bind_op, Prog.bind_ret, Prog.pure_eq_ret]
  iintro H7
  iapply (wp_load 𝒱₀ (V d c i) none Set.univ (m := valM) (S := Finset.univ) (Finset.subset_univ _)) $$ H7; iintro H7
  iapply (wp_store 𝒱₀ (V d c i) none Set.univ (m := valM) (r := Rect.unit (s := S2048) off S16.size inb) (Mk := Finset.univ) (S := Finset.univ) (Finset.subset_univ _)) $$ H7; iintro H7
  rw [wp_ret]; imodintro
  iexact H7

open Idealize.ShloMosaic.ValueIdx in
/-- A trip at box `16 k` extends the zeros by sixteen. -/
theorem ZeroTo_step (k : ℕ) (off : Fin 1 → Nat) (hoff : off = ![16 * k]) (inb : ∀ a, off a + S16.size a ≤ S2048.size a)
    (f : Buf (Elt F) ((valM).view.loc (V d c i))) (h : ZeroTo (F := F) d c i k f) :
    ZeroTo (F := F) d c i (k + 1) (((valM).access (Rect.unit (s := S2048) off S16.size inb)).write (Elt F) f (k1_pay2 (F := F)) Finset.univ) := by
  subst hoff
  intro t ht
  by_cases hlt : t.val < 16 * k
  · have hn : (ix1 t : S2048.Idx) ∉ ((valM).access (Rect.unit (s := S2048) ![16 * k] S16.size inb)).setOn Finset.univ := by
      rw [View.setOn_univ]
      show (ix1 t : S2048.Idx) ∉ ((View.whole cc1_scratch2).slice (Rect.unit (s := S2048) ![16 * k] S16.size inb)).set
      rw [View.set_slice_whole, unit_set_seg, mem_seg]
      show ¬ (16 * k ≤ t.val ∧ t.val < 16 * k + 16)
      omega
    exact (View.write_of_not_mem _ _ _ hn).trans (h t hlt)
  · have hx : t.val - 16 * k < 16 := by omega
    have he : (ix1 t : S2048.Idx) = ((valM).access (Rect.unit (s := S2048) ![16 * k] S16.size inb)).emb (ix1 (⟨t.val - 16 * k, hx⟩ : Fin 16)) := by
      funext a
      obtain rfl : a = 0 := Subsingleton.elim _ _
      apply Fin.ext
      show t.val = 16 * k + 1 * (t.val - 16 * k)
      omega
    show (show F .f32 from (((valM).access (Rect.unit (s := S2048) ![16 * k] S16.size inb)).write (Elt F) f (k1_pay2 (F := F)) Finset.univ) (ix1 t)) = _
    rw [he, View.write_emb_of_mem _ _ (Finset.mem_univ _)]
    rfl

end ZeroLoop
end T1

namespace T1
section ZeroValue
variable (d : Dev nD) (L : grid1.Coords)

omit [FloatOps F] in
/-- The zero loop makes 128 trips: the whole value scratch. -/
theorem trips_t9 : Scf.trips k1_t9_loop.lb k1_t9_loop.ub k1_t9_loop.st = 128 := by
  have h0 : Affine.IsInt (0#32 : BitVec 32) (0) := Affine.ofNat _ (by omega)
  have h128 : Affine.IsInt (128#32 : BitVec 32) (128) := Affine.ofNat _ (by omega)
  have hub : Affine.IsInt (Scalar.addi (0#32 : BitVec 32) 128#32) (128) := Affine.addi h0 h128 (by omega)
  have h1 : Affine.IsInt (1#32 : BitVec 32) (1) := Affine.ofNat _ (by omega)
  unfold Affine.IsInt at h0 hub h1
  show ((k1_t9_loop.ub.toInt - k1_t9_loop.lb.toInt + k1_t9_loop.st.toInt - 1) / k1_t9_loop.st.toInt).toNat = 128
  rw [show k1_t9_loop.ub.toInt = 128 from hub, show k1_t9_loop.lb.toInt = 0 from h0, show k1_t9_loop.st.toInt = 1 from h1]
  omega

set_option maxRecDepth 65536 in
/-- A piece of the zero row after a copy of zero words landed in it holds what the shared buffer holds there once the
    tiles have passed the barrier: row 6 of SparseCore 1 is the row no field is left for, the zero word throughout. -/
theorem piece_zero (h2 : k1_cond2 L = 1#1) (r : Fin 8) (frow : Buf (Elt F) (acc1Loc d (cT (cL L)))) (P : S2048.Idx → Elt F .f32)
    (hP : ∀ x, P x = Scalar.ofBits .f32 0x00000000#32) (hc1 : (L 0).val = 1) (hs6 : (L 1).val = 6) :
    ((zPiece L h2 r).view.loc (V d (cV L) (jV L)) ↦[(zPiece L h2 r).view.set]{fullShare}
        (zPiece L h2 r).view.writes (Elt F) frow [⟨Rect.whole S2048, P⟩] : sProp 𝕄)
      = (acc1Loc d (cT (cL L)) ↦[seg (N := 114688) (16384 * (L 1).val + 2048 * r.val) 2048]{fullShare} ACC1 m d (cT (cL L))) := by
  rw [← pts_zPiece (F := F) d L h2 r (ACC1 m d (cT (cL L)))]
  apply pointsTo_congr
  intro i hi
  obtain ⟨y, -, rfl⟩ := Finset.mem_map.mp hi
  have hl : (zPiece L h2 r).view.writes (Elt F) frow [⟨Rect.whole S2048, P⟩] ((zPiece L h2 r).view.emb y) = P y := by
    have he : (zPiece L h2 r).view.emb y = ((zPiece L h2 r).view.slice (Rect.whole S2048)).emb y := by
      show _ = (zPiece L h2 r).view.emb ((Rect.whole S2048).emb y)
      rw [Rect.emb_whole_apply]
    rw [View.writes_singleton, he, View.write_emb_of_mem _ _ (Finset.mem_univ _)]
    rfl
  rw [hl, hP]
  have hoff : (k1_off28 L (BitVec.ofNat 32 (2048 * r.val))) 0 = 16384 * (L 1).val + 2048 * r.val := congrFun (k1_off28_eq L r) 0
  have hv : (((zPiece L h2 r).view.emb y) 0).val = (k1_off28 L (BitVec.ofNat 32 (2048 * r.val))) 0 + 1 * (y 0).val := rfl
  have hy : (y 0).val < 2048 := (y 0).isLt
  have hr := r.isLt
  have hq : (((zPiece L h2 r).view.emb y) 0).val / 16384 = 6 := by rw [hv, hoff]; omega
  have hcc : (cT (cL L)).val = 1 := hc1
  show _ = accAt (XT m d) (WH1 m d) 13 (cT (cL L)).val ((((zPiece L h2 r).view.emb y) 0).val / 16384) ((((zPiece L h2 r).view.emb y) 0).val % 16384)
  unfold accAt
  rw [hq, hcc, if_neg (by decide)]

end ZeroValue
end T1

end Cert.Proof.KB

end
-- ==== Proof.KB.Tile1.lean ====
/-
  Lookup 1's task obligation: one tile's task of the second SparseCore call, at a symbolic tile.

  A tile (c, s) is of one of three kinds. If s + c < 7 it owns field 13 + 7c + s: it copies the field's 100000 table entries
  into its table scratch and, 2048 batch rows at a time through the two slots of its index scratch (one copy in flight
  while the other slot is read), looks every index up — the indices are entries of the field's index row, so below
  100000 — and copies the 2048 entries into its row of its SparseCore's shared buffer: after the eight chunks the row
  holds the looked-up entries. If c = 1 and s = 6 it fills its row with the zero word. Otherwise it owns no row. The
  three kinds meet at the barrier: a row owner hands every tile its column block of its row (the row is exactly the
  sixteen payloads of its duties), the others hand over nothing; every tile receives its own column block of each of
  the seven rows at the looked-up values. It then twice copies seven half blocks into its reduce scratch — seven copies
  on one semaphore, all started, all waited for, then read —, adds the seven rows sixteen lanes at a time, and writes
  its 1024 sums into the lookup's result: SparseCore c's partial sums for batch rows 1024 s … 1024 s + 1023. What it
  hands back is its read shares, those 1024 entries at the partial sums and its seven column blocks.
-/
import proofs.«207420_g80582176408339_cont_9to1c4b_743_56_alg».proof.Proof.KB.Tile1Out
import proofs.«207420_g80582176408339_cont_9to1c4b_743_56_alg».proof.Proof.KB.Tile1Reduce
import proofs.«207420_g80582176408339_cont_9to1c4b_743_56_alg».proof.Proof.KB.Tile1Zero

noncomputable section

namespace Cert.Proof.KB

open Cert.Kernel Cert.Kernel.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

variable (m : (ℓ : Loc nD τ sig) → Buf (Elt F) ℓ)

namespace T1

omit [FloatOps F] in
/-- The recorded waits as a variable. -/
theorem gen_waits (thr : Thread nD τ) (X : CellTallies nD τ sig (HIx 2)) (W₀ : Waits sig (HIx 2)) :
    owes thr X W₀ ⊢ (iprop(∃ W₁, ⌜W₁ = W₀⌝ ∗ owes thr X W₁) : sProp 𝕄) := by
  iintro H; iexists W₀; isplitr
  · ipureintro; rfl
  · iexact H

omit [FloatOps F] in
theorem conds_C : ∀ L : grid1.Coords, ¬ k1_cond1 L = 1#1 → ¬ k1_cond2 L = 1#1 → 7 ≤ (L 1).val := by decide +kernel

section Tile
variable (d : Dev nD) (L : grid1.Coords)

abbrev prog1 (L : grid1.Coords) : Prog (TpuEff nD τ sig (Elt F) Λ₀ (.scVector ((L 0).castLE hcore1) ((L 1).castLE hsub1))) PUnit :=
  cc1_sc_fields_1 L (Memref.whole main_v0_scv) (Memref.isWhole_whole _) (Memref.whole main_v4_scv) (Memref.isWhole_whole _) (Memref.whole main_v7_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scratch7 cc1_scratch8 cc1_scratch9 cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14 cc1_scoped15 cc1_scoped16

set_option maxHeartbeats 4000000 in
theorem tile_body_C (h1 : ¬ k1_cond1 L = 1#1) (h2 : ¬ k1_cond2 L = 1#1) (hx : InRange m) (hF : (K (F := F)).Facts) (O : CellTallies nD τ sig (HIx 2)) (W : Waits sig (HIx 2)) (hO : ∀ g, O g none = 0)
    (hOlev : ∀ g ι, 0 < O g ι → 8 * (1 : Fin 2).val + 6 ≤ (K (F := F)).lev g ι) :
    iprop(levAts (K (F := F)).L (K (F := F)).lev ∗ bkit m 1 d (cV L) (jV L) ∗ go1 m d (cL L) (jL L)
        ∗ scopedBufs (V d (cV L) (jV L)) ∗ scopedSems0 (V d (cV L) (jV L)) ∗ owes (V d (cV L) (jV L)) (O + oxV 1 d (cV L)) W)
      ⊢ wp frame (wpE (defs₀ (F := F)) 𝒱₀ (V d (cV L) (jV L)) none) Set.univ (prog1 (F := F) L)
          fun _ => iprop(td1 m d (cL L) (jL L) ∗ scopedBufs (V d (cV L) (jV L)) ∗ scopedSems0 (V d (cV L) (jV L))
            ∗ ∃ W', ⌜∀ p ∈ W', p ∈ W ∨ p.2 = none ∨ p.2 = some (1 : Fin 2)⌝ ∗ owes (V d (cV L) (jV L)) O W') := by
  have hs : 7 ≤ (L 1).val := conds_C L h1 h2
  unfold prog1
  simp only [cc1_sc_fields_1_eq_skeleton]; unfold cc1_sc_fields_1_skel
  rw [(K (F := F)).scopedBufs_V hF d (cV L) (jV L), SparseCore.Cfg.scopedSems0_V (Val := Elt F) d (cV L) (jV L), ownSems0_V, ownBufs_V]
  unfold bkit go1
  rw [if_neg (show ¬ (1 : Fin 2).val = 0 from by decide), if_neg (show ¬ (jL L).val < 7 from by show ¬ (L 1).val < 7; omega)]
  iintro ⟨#Hlv, ⟨⟨%κ, #Hinv⟩, Htoks, Hcred, -⟩, ⟨Hxt, Hwh, Hp0, -, Hat, #Hrch⟩,
    ⟨⟨⟨%f0, Hb0⟩, ⟨%f1, Hb1⟩, ⟨%f2, Hb2⟩, ⟨%f3, Hb3⟩, ⟨%f4, Hb4⟩⟩, Hbufs⟩,
    ⟨⟨Hs6, Hs7, Hs8, Hs9, Hc0, Hc1, Hc2, Hc3, Hc4, Hc5, Hc6, Hc7, Hc8, Hc9, Hc10, Hc11, Hc12, Hc13, Hc14, Hc15, Hc16⟩, Hsems⟩, HO⟩
  have hO' : ∀ g, (O + oxV 1 d (cV L)) g none = 0 := fun g => by rw [Pi.add_apply, Finsupp.add_apply, hO g, oxV_none]
  ihave Hmw1 := (show levAts (K (F := F)).L (K (F := F)).lev ⊢ Transfers.MayWaits (V d (cV L) (jV L)) (default : HIx 2) (O + oxV 1 d (cV L)) from
    (K (F := F)).mayWaits_none (thr := V d (cV L) (jV L)) hO') $$ Hlv
  ihave Hmw2 := (show levAts (K (F := F)).L (K (F := F)).lev ⊢ Transfers.MayWaits (V d (cV L) (jV L)) (default : HIx 2) O from
    (K (F := F)).mayWaits_none (thr := V d (cV L) (jV L)) hO) $$ Hlv
  sl_exec
  ihave Hpay := (show (iprop(emp) : sProp 𝕄) ⊢ _ from Entails.of_eq (pays_none (F := F) m d (cV L) (jV L).val hs).symm) $$ []
  · iempintro
  -- the waits recorded so far: all at index none
  ihave HOg := (gen_waits (F := F) _ _ _) $$ HO
  icases HOg with ⟨%W₁, %hW₁e, HO⟩
  have hW₁ : ∀ p ∈ W₁, p ∈ W ∨ p.2 = none := by
    subst hW₁e; intro p hp
    repeat (first | exact .inl hp | (rcases Finset.mem_insert.mp hp with e | hp; · exact .inr (by rw [e]; rfl)))
  clear hW₁e
  -- the barrier: the sixteen payloads handed over; its own round's seven column blocks received
  iapply (SparseCore.wp_subcoreBarrier 𝒱₀ none EB (bRd (F := F) m) d (sc := cV L) (i := jV L) sc_bar0 (grid1.bound 1) hsub1 (L 1) rfl κ (fun _ => 1) (jV L).val
      (fun j => bRd_mem m d _ _ _ (by decide)) (fun _ => rfl) (bRd_expect m d _ _ (by decide)) (some 1) O _) $$ [HO Htoks Hpay Hcred Hat]
  · isplitr; · iexact Hinv
    isplitl [HO]; · iexact HO
    isplitl [Htoks Hpay]
    · rw [bigSep_sep', bigSep_sep']
      isplitl [Htoks]; · iexact Htoks
      isplitl [Hpay]; · iexact Hpay
      iexact Hrch
    isplitl [Hcred]; · iexact Hcred
    isplitl [Hat]; · iexact Hat
    iapply ((K (F := F)).mayOwe_of_bound (thr := V d (cV L) (jV L)) 11 (fun p hp => by
        rw [Finset.mem_singleton] at hp; subst hp
        show (K (F := F)).lev (bcell d (cV L) (jV L)) (some 1) ≤ 11
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, Hrch1, Hgot⟩
  ihave Hcols := (pays_got m d (cV L) (jV L)) $$ Hgot
  icases Hcols with ⟨Hq0, Hq1, Hq2, Hq3, Hq4, Hq5, Hq6⟩
  -- each column block in two halves, the reduce scratch in seven windows, as the copies name them
  have l0 : 0 < 7 := by decide
  have l1 : 1 < 7 := by decide
  have l2 : 2 < 7 := by decide
  have l3 : 3 < 7 := by decide
  have l4 : 4 < 7 := by decide
  have l5 : 5 < 7 := by decide
  have l6 : 6 < 7 := by decide
  ihave Hh0 := (Entails.of_eq (acc_halves (F := F) d L 0 l0 _)) $$ Hq0
  icases Hh0 with ⟨Ha0, Hz0⟩
  ihave Hh1 := (Entails.of_eq (acc_halves (F := F) d L 1 l1 _)) $$ Hq1
  icases Hh1 with ⟨Ha1, Hz1⟩
  ihave Hh2 := (Entails.of_eq (acc_halves (F := F) d L 2 l2 _)) $$ Hq2
  icases Hh2 with ⟨Ha2, Hz2⟩
  ihave Hh3 := (Entails.of_eq (acc_halves (F := F) d L 3 l3 _)) $$ Hq3
  icases Hh3 with ⟨Ha3, Hz3⟩
  ihave Hh4 := (Entails.of_eq (acc_halves (F := F) d L 4 l4 _)) $$ Hq4
  icases Hh4 with ⟨Ha4, Hz4⟩
  ihave Hh5 := (Entails.of_eq (acc_halves (F := F) d L 5 l5 _)) $$ Hq5
  icases Hh5 with ⟨Ha5, Hz5⟩
  ihave Hh6 := (Entails.of_eq (acc_halves (F := F) d L 6 l6 _)) $$ Hq6
  icases Hh6 with ⟨Ha6, Hz6⟩
  ihave Hw := (Entails.of_eq (scr3_windows (F := F) d L f3)) $$ Hb3
  icases Hw with ⟨Hd0, Hd1, Hd2, Hd3, Hd4, Hd5, Hd6⟩
  haveI hst0 : ∀ t : Fin 7, BI.Storable (upEmb : UEmb _ 𝕄) (deliv (F := F) d L 0 (fun _ => ACC1 m d (cV L)) (fun _ => f3) t) :=
    fun t => deliv_storable (F := F) d L 0 _ _ t
  imod (Transfers.batch_alloc' (Lvl := ℕ) countersEmb (V d (cV L) (jV L)) (default : HIx 2) NW (deliv (F := F) d L 0 (fun _ => ACC1 m d (cV L)) (fun _ => f3))
    (sm := .dma cc1_scratch6.sem) (E := Set.univ)) $$ Hs6 with HB
  sl_exec
  -- the seven windows landed: the reduce scratch whole again, at one function
  ihave Hg := (windows_join (F := F) d L (fun n => landedJ (F := F) d L 0 n (ACC1 m d (cV L))) ) $$ [HB_dst0 HB_dst1 HB_dst2 HB_dst3 HB_dst4 HB_dst5 HB_dst6]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    iexact HB_dst6
  icases Hg with ⟨%g, %hg, Hg⟩
  ihave Hb4' := (Entails.of_eq (show ((V d (cV L) (jV L)).loc cc1_scratch4 ↦{fullShare} f4 : sProp 𝕄) = ((Memref.whole cc1_scratch4).view.loc (V d (cV L) (jV L)) ↦{fullShare} f4) from rfl)) $$ Hb4
  sl_for (invR (F := F) m d L 0 g) $$ [Hg Hb4']
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g (ValueIdx.ix1 (⟨512 * n.val + j, by have := n.isLt; omega⟩ : Fin 3584))
        = accAt (XT m d) (WH1 m d) 13 (cV L).val n.val (1024 * (L 1).val + 0 + j) := fun n j hj => hgv_of (F := F) m d L 0 g hg n j hj
    exact step_gen_1 d (cV L) (jV L) (XT m d) (WH1 m d) 13 (cV L).val (L 1).val 0 k.val hkt (by omega) k1_pay3
      (fun v0 v1 v2 v3 v4 v5 v6 l b h0 h1 h2 h3 h4 h5 h6 => pay3_partAt_k1 (XT m d) (WH1 m d) 13 (cV L).val b v0 v1 v2 v3 v4 v5 v6 l h0 h1 h2 h3 h4 h5 h6)
      g h _ _ ((Gen.k1_off32_eq k).trans (vec1 _ _ (by omega)))
      _ _ ((Gen.k1_off30_eq k).trans (vec1 _ _ (by omega)))
      _ _ ((Gen.k1_off31_eq k ⟨0, by decide⟩).trans (vec1 _ _ (by show 512 * 0 + 16 * k.val + 512 = 512 * 1 + 16 * k.val; omega)))
      _ _ ((Gen.k1_off31_eq k ⟨1, by decide⟩).trans (vec1 _ _ (by show 512 * 1 + 16 * k.val + 512 = 512 * 2 + 16 * k.val; omega)))
      _ _ ((Gen.k1_off31_eq k ⟨2, by decide⟩).trans (vec1 _ _ (by show 512 * 2 + 16 * k.val + 512 = 512 * 3 + 16 * k.val; omega)))
      _ _ ((Gen.k1_off31_eq k ⟨3, by decide⟩).trans (vec1 _ _ (by show 512 * 3 + 16 * k.val + 512 = 512 * 4 + 16 * k.val; omega)))
      _ _ ((Gen.k1_off31_eq k ⟨4, by decide⟩).trans (vec1 _ _ (by show 512 * 4 + 16 * k.val + 512 = 512 * 5 + 16 * k.val; omega)))
      _ _ ((Gen.k1_off31_eq k ⟨5, by decide⟩).trans (vec1 _ _ (by show 512 * 5 + 16 * k.val + 512 = 512 * 6 + 16 * k.val; omega)))
      hgv' hh
  · unfold invR
    isplitl [Hg]; · iexact Hg
    iexists f4
    isplitl [Hb4']; · iexact Hb4'
    ipureintro; intro k hk; exact absurd hk (by omega)
  iintro %_ HI
  unfold invR
  icases HI with ⟨Hg, ⟨%h1, Hh, %hh1⟩⟩
  -- the second batch: the other halves into the same seven windows
  ihave Hg' := (Entails.of_eq (show ((Memref.whole cc1_scratch3).view.loc (V d (cV L) (jV L)) ↦{fullShare} g : sProp 𝕄) = ((V d (cV L) (jV L)).loc cc1_scratch3 ↦{fullShare} g) from rfl)) $$ Hg
  ihave Hw2 := (Entails.of_eq (scr3_windows (F := F) d L g)) $$ Hg'
  icases Hw2 with ⟨He0, He1, He2, He3, He4, He5, He6⟩
  ihave HB' := (show (semVal ((V d (cV L) (jV L), SemLoc.dma cc1_scratch6.sem) : GSem nD τ sig) 0 : sProp 𝕄) ⊢ semVal ((V d (cV L) (jV L), SemLoc.dma cc1_scratch6.sem) : GSem nD τ sig) 0 from BI.Entails.refl _) $$ [HB]
  · iexact HB
  haveI hst1 : ∀ t : Fin 7, BI.Storable (upEmb : UEmb _ 𝕄) (deliv (F := F) d L 1 (fun _ => ACC1 m d (cV L)) (fun _ => g) t) :=
    fun t => deliv_storable (F := F) d L 1 _ _ t
  imod (Transfers.batch_alloc' (Lvl := ℕ) countersEmb (V d (cV L) (jV L)) (default : HIx 2) NW (deliv (F := F) d L 1 (fun _ => ACC1 m d (cV L)) (fun _ => g))
    (sm := .dma cc1_scratch6.sem) (E := Set.univ)) $$ HB' with HC
  sl_exec
  ihave Hg2J := (windows_join (F := F) d L (fun n => landedJ (F := F) d L 1 n (ACC1 m d (cV L)))) $$ [HC_dst0 HC_dst1 HC_dst2 HC_dst3 HC_dst4 HC_dst5 HC_dst6]
  · isplitl [HC_dst0]; · iexact HC_dst0
    isplitl [HC_dst1]; · iexact HC_dst1
    isplitl [HC_dst2]; · iexact HC_dst2
    isplitl [HC_dst3]; · iexact HC_dst3
    isplitl [HC_dst4]; · iexact HC_dst4
    isplitl [HC_dst5]; · iexact HC_dst5
    iexact HC_dst6
  icases Hg2J with ⟨%g2, %hg2, Hg2⟩
  sl_for (invR (F := F) m d L 512 g2) $$ [Hg2 Hh]
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g2 (ValueIdx.ix1 (⟨512 * n.val + j, by have := n.isLt; omega⟩ : Fin 3584))
        = accAt (XT m d) (WH1 m d) 13 (cV L).val n.val (1024 * (L 1).val + 512 + j) := fun n j hj => hgv_of (F := F) m d L 1 g2 hg2 n j hj
    exact step_gen_1 d (cV L) (jV L) (XT m d) (WH1 m d) 13 (cV L).val (L 1).val 512 k.val hkt (by omega) k1_pay1
      (fun v0 v1 v2 v3 v4 v5 v6 l b h0 h1 h2 h3 h4 h5 h6 => pay1_partAt_k1 (XT m d) (WH1 m d) 13 (cV L).val b v0 v1 v2 v3 v4 v5 v6 l h0 h1 h2 h3 h4 h5 h6)
      g2 h _ _ ((Gen.k1_off35_eq k).trans (vec1 _ _ (by omega)))
      _ _ ((Gen.k1_off33_eq k).trans (vec1 _ _ (by omega)))
      _ _ ((Gen.k1_off34_eq k ⟨0, by decide⟩).trans (vec1 _ _ (by show 512 * 0 + 16 * k.val + 512 = 512 * 1 + 16 * k.val; omega)))
      _ _ ((Gen.k1_off34_eq k ⟨1, by decide⟩).trans (vec1 _ _ (by show 512 * 1 + 16 * k.val + 512 = 512 * 2 + 16 * k.val; omega)))
      _ _ ((Gen.k1_off34_eq k ⟨2, by decide⟩).trans (vec1 _ _ (by show 512 * 2 + 16 * k.val + 512 = 512 * 3 + 16 * k.val; omega)))
      _ _ ((Gen.k1_off34_eq k ⟨3, by decide⟩).trans (vec1 _ _ (by show 512 * 3 + 16 * k.val + 512 = 512 * 4 + 16 * k.val; omega)))
      _ _ ((Gen.k1_off34_eq k ⟨4, by decide⟩).trans (vec1 _ _ (by show 512 * 4 + 16 * k.val + 512 = 512 * 5 + 16 * k.val; omega)))
      _ _ ((Gen.k1_off34_eq k ⟨5, by decide⟩).trans (vec1 _ _ (by show 512 * 5 + 16 * k.val + 512 = 512 * 6 + 16 * k.val; omega)))
      hgv' hh
  · unfold invR
    isplitl [Hg2]; · iexact Hg2
    iexists h1
    isplitl [Hh]; · iexact Hh
    ipureintro; intro k hk; exact hh1 k (by show k.val < 0 + 16 * 32; omega)
  iintro %_ HI2
  unfold invR
  icases HI2 with ⟨Hg2, ⟨%h2, Hh, %hh2⟩⟩
  -- the write-out: the output scratch into the tile's 1024 entries of the result
  ihave Hp0' := (Entails.of_eq (pts_poK (F := F) d L _).symm) $$ Hp0
  sl_exec
  have hfull : ∀ k : Fin 1024, (show F .f32 from h2 (ValueIdx.ix1 k)) = partAt (XT m d) (WH1 m d) 13 (L 0).val (1024 * (L 1).val + k.val) :=
    fun k => hh2 k (by have := k.isLt; show k.val < 512 + 16 * 32; omega)
  ihave Hp0 := (Entails.of_eq (show (_ : sProp 𝕄) = (p1Loc d ↦[seg (N := 32768) (16384 * (cL L).val + 1024 * (jL L).val) 1024]{fullShare} PT1 m d) from
    (pts_poK (F := F) d L _).trans (pointsTo_congr (by exact out_landed (F := F) m d (cV L) (jV L) (L 0).val (L 1).val (L 0).isLt (L 1).isLt _ _ (k1_off36_eq L) _ h2 hfull)))) $$ Hp0'
  -- the column blocks whole again, the scratches as the launch names them
  ihave Hq0 := (Entails.of_eq (acc_halves (F := F) d L 0 l0 (ACC1 m d (cV L))).symm) $$ [HB_src0 HC_src0]
  · isplitl [HB_src0]; · iexact HB_src0
    iexact HC_src0
  ihave Hq1 := (Entails.of_eq (acc_halves (F := F) d L 1 l1 (ACC1 m d (cV L))).symm) $$ [HB_src1 HC_src1]
  · isplitl [HB_src1]; · iexact HB_src1
    iexact HC_src1
  ihave Hq2 := (Entails.of_eq (acc_halves (F := F) d L 2 l2 (ACC1 m d (cV L))).symm) $$ [HB_src2 HC_src2]
  · isplitl [HB_src2]; · iexact HB_src2
    iexact HC_src2
  ihave Hq3 := (Entails.of_eq (acc_halves (F := F) d L 3 l3 (ACC1 m d (cV L))).symm) $$ [HB_src3 HC_src3]
  · isplitl [HB_src3]; · iexact HB_src3
    iexact HC_src3
  ihave Hq4 := (Entails.of_eq (acc_halves (F := F) d L 4 l4 (ACC1 m d (cV L))).symm) $$ [HB_src4 HC_src4]
  · isplitl [HB_src4]; · iexact HB_src4
    iexact HC_src4
  ihave Hq5 := (Entails.of_eq (acc_halves (F := F) d L 5 l5 (ACC1 m d (cV L))).symm) $$ [HB_src5 HC_src5]
  · isplitl [HB_src5]; · iexact HB_src5
    iexact HC_src5
  ihave Hq6 := (Entails.of_eq (acc_halves (F := F) d L 6 l6 (ACC1 m d (cV L))).symm) $$ [HB_src6 HC_src6]
  · isplitl [HB_src6]; · iexact HB_src6
    iexact HC_src6
  ihave Hb3 := (Entails.of_eq (show ((Memref.whole cc1_scratch3).view.loc (V d (cV L) (jV L)) ↦{fullShare} g2 : sProp 𝕄) = ((V d (cV L) (jV L)).loc cc1_scratch3 ↦{fullShare} g2) from rfl)) $$ Hg2
  ihave Hb4 := (Entails.of_eq (show ((Memref.whole cc1_scratch4).view.loc (V d (cV L) (jV L)) ↦{fullShare} h2 : sProp 𝕄) = ((V d (cV L) (jV L)).loc cc1_scratch4 ↦{fullShare} h2) from rfl)) $$ Hh
  -- the waits recorded: all at index none, or the barrier's
  ihave HOg := (gen_waits (F := F) _ _ _) $$ HO
  icases HOg with ⟨%W₂, %hW₂e, HO⟩
  have hW₂ : ∀ p ∈ W₂, p ∈ W ∨ p.2 = none ∨ p.2 = some (1 : Fin 2) := by
    subst hW₂e; intro p hp
    repeat (first | exact (hW₁ p hp).imp_right Or.inl | (rcases Finset.mem_insert.mp hp with e | hp; · first | exact .inr (.inl (by rw [e]; rfl)) | exact .inr (.inr (by rw [e]))))
  sl_step
  iapply (post_intro' (F := F) m d L hF O W W₂ hW₂) $$ [Hxt Hwh Hp0 Hq0 Hq1 Hq2 Hq3 Hq4 Hq5 Hq6 Hat Hrch1 Hb0 Hb1 Hb2 Hb3 Hb4 Hbufs HC Hs7 Hs8 Hs9 Hc0 Hc1 Hc2 Hc3 Hc4 Hc5 Hc6 Hc7 Hc8 Hc9 Hc10 Hc11 Hc12 Hc13 Hc14 Hc15 Hc16 Hsems HO]
  isplitl [Hxt]; · iexact Hxt
  isplitl [Hwh]; · iexact Hwh
  isplitl [Hp0]; · iexact Hp0
  isplitl [Hq0 Hq1 Hq2 Hq3 Hq4 Hq5 Hq6]
  · isplitl [Hq0]; · iexists _; iexact Hq0
    isplitl [Hq1]; · iexists _; iexact Hq1
    isplitl [Hq2]; · iexists _; iexact Hq2
    isplitl [Hq3]; · iexists _; iexact Hq3
    isplitl [Hq4]; · iexists _; iexact Hq4
    isplitl [Hq5]; · iexists _; iexact Hq5
    iexists _; iexact Hq6
  isplitl [Hat]; · iexact Hat
  isplitl [Hrch1]; · iexact Hrch1
  isplitl [Hb0 Hb1 Hb2 Hb3 Hb4]
  · isplitl [Hb0]; · iexists _; iexact Hb0
    isplitl [Hb1]; · iexists _; iexact Hb1
    isplitl [Hb2]; · iexists _; iexact Hb2
    isplitl [Hb3]; · iexists _; iexact Hb3
    iexists _; iexact Hb4
  isplitl [Hbufs]; · iexact Hbufs
  isplitl [HC Hs7 Hs8 Hs9 Hc0 Hc1 Hc2 Hc3 Hc4 Hc5 Hc6 Hc7 Hc8 Hc9 Hc10 Hc11 Hc12 Hc13 Hc14 Hc15 Hc16]
  · isplitl [HC]; · iexact HC
    isplitl [Hs7]; · iexact Hs7
    isplitl [Hs8]; · iexact Hs8
    isplitl [Hs9]; · iexact Hs9
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    iexact Hc16
  isplitl [Hsems]; · iexact Hsems
  iexact HO

set_option maxHeartbeats 4000000 in
theorem tile_body_B (h1 : ¬ k1_cond1 L = 1#1) (h2 : k1_cond2 L = 1#1) (hx : InRange m) (hF : (K (F := F)).Facts) (O : CellTallies nD τ sig (HIx 2)) (W : Waits sig (HIx 2)) (hO : ∀ g, O g none = 0)
    (hOlev : ∀ g ι, 0 < O g ι → 8 * (1 : Fin 2).val + 6 ≤ (K (F := F)).lev g ι) :
    iprop(levAts (K (F := F)).L (K (F := F)).lev ∗ bkit m 1 d (cV L) (jV L) ∗ go1 m d (cL L) (jL L)
        ∗ scopedBufs (V d (cV L) (jV L)) ∗ scopedSems0 (V d (cV L) (jV L)) ∗ owes (V d (cV L) (jV L)) (O + oxV 1 d (cV L)) W)
      ⊢ wp frame (wpE (defs₀ (F := F)) 𝒱₀ (V d (cV L) (jV L)) none) Set.univ (prog1 (F := F) L)
          fun _ => iprop(td1 m d (cL L) (jL L) ∗ scopedBufs (V d (cV L) (jV L)) ∗ scopedSems0 (V d (cV L) (jV L))
            ∗ ∃ W', ⌜∀ p ∈ W', p ∈ W ∨ p.2 = none ∨ p.2 = some (1 : Fin 2)⌝ ∗ owes (V d (cV L) (jV L)) O W') := by
  obtain ⟨hc1, hs6⟩ := conds_B L h1 h2
  unfold prog1
  simp only [cc1_sc_fields_1_eq_skeleton]; unfold cc1_sc_fields_1_skel
  rw [(K (F := F)).scopedBufs_V hF d (cV L) (jV L), SparseCore.Cfg.scopedSems0_V (Val := Elt F) d (cV L) (jV L), ownSems0_V, ownBufs_V]
  unfold bkit go1
  rw [if_neg (show ¬ (1 : Fin 2).val = 0 from by decide), if_pos (show (jL L).val < 7 from by show (L 1).val < 7; omega)]
  iintro ⟨#Hlv, ⟨⟨%κ, #Hinv⟩, Htoks, Hcred, -⟩, ⟨Hxt, Hwh, Hp0, ⟨%frow, Hrow⟩, Hat, #Hrch⟩,
    ⟨⟨⟨%f0, Hb0⟩, ⟨%f1, Hb1⟩, ⟨%f2, Hb2⟩, ⟨%f3, Hb3⟩, ⟨%f4, Hb4⟩⟩, Hbufs⟩,
    ⟨⟨Hs6, Hs7, Hs8, Hs9, Hc0, Hc1, Hc2, Hc3, Hc4, Hc5, Hc6, Hc7, Hc8, Hc9, Hc10, Hc11, Hc12, Hc13, Hc14, Hc15, Hc16⟩, Hsems⟩, HO⟩
  have hO' : ∀ g, (O + oxV 1 d (cV L)) g none = 0 := fun g => by rw [Pi.add_apply, Finsupp.add_apply, hO g, oxV_none]
  ihave Hmw1 := (show levAts (K (F := F)).L (K (F := F)).lev ⊢ Transfers.MayWaits (V d (cV L) (jV L)) (default : HIx 2) (O + oxV 1 d (cV L)) from
    (K (F := F)).mayWaits_none (thr := V d (cV L) (jV L)) hO') $$ Hlv
  ihave Hmw2 := (show levAts (K (F := F)).L (K (F := F)).lev ⊢ Transfers.MayWaits (V d (cV L) (jV L)) (default : HIx 2) O from
    (K (F := F)).mayWaits_none (thr := V d (cV L) (jV L)) hO) $$ Hlv
  -- the row as the eight pieces the task copies the zeros into
  ihave Hrow' := (Entails.of_eq (row_split (F := F) d (cT (cL L)) (jL L).val frow)) $$ Hrow
  icases Hrow' with ⟨Hr0, Hr1, Hr2, Hr3, Hr4, Hr5, Hr6, Hr7⟩
  ihave Hr0 := (Entails.of_eq (show (acc1Loc d (cT (cL L)) ↦[seg (N := 114688) (16384 * (jL L).val + 2048 * 0) 2048]{fullShare} frow : sProp 𝕄) = _ from (pts_zPiece (F := F) d L h2 0 frow).symm)) $$ Hr0
  ihave Hr1 := (Entails.of_eq (show (acc1Loc d (cT (cL L)) ↦[seg (N := 114688) (16384 * (jL L).val + 2048 * 1) 2048]{fullShare} frow : sProp 𝕄) = _ from (pts_zPiece (F := F) d L h2 1 frow).symm)) $$ Hr1
  ihave Hr2 := (Entails.of_eq (show (acc1Loc d (cT (cL L)) ↦[seg (N := 114688) (16384 * (jL L).val + 2048 * 2) 2048]{fullShare} frow : sProp 𝕄) = _ from (pts_zPiece (F := F) d L h2 2 frow).symm)) $$ Hr2
  ihave Hr3 := (Entails.of_eq (show (acc1Loc d (cT (cL L)) ↦[seg (N := 114688) (16384 * (jL L).val + 2048 * 3) 2048]{fullShare} frow : sProp 𝕄) = _ from (pts_zPiece (F := F) d L h2 3 frow).symm)) $$ Hr3
  ihave Hr4 := (Entails.of_eq (show (acc1Loc d (cT (cL L)) ↦[seg (N := 114688) (16384 * (jL L).val + 2048 * 4) 2048]{fullShare} frow : sProp 𝕄) = _ from (pts_zPiece (F := F) d L h2 4 frow).symm)) $$ Hr4
  ihave Hr5 := (Entails.of_eq (show (acc1Loc d (cT (cL L)) ↦[seg (N := 114688) (16384 * (jL L).val + 2048 * 5) 2048]{fullShare} frow : sProp 𝕄) = _ from (pts_zPiece (F := F) d L h2 5 frow).symm)) $$ Hr5
  ihave Hr6 := (Entails.of_eq (show (acc1Loc d (cT (cL L)) ↦[seg (N := 114688) (16384 * (jL L).val + 2048 * 6) 2048]{fullShare} frow : sProp 𝕄) = _ from (pts_zPiece (F := F) d L h2 6 frow).symm)) $$ Hr6
  ihave Hr7 := (Entails.of_eq (show (acc1Loc d (cT (cL L)) ↦[seg (N := 114688) (16384 * (jL L).val + 2048 * 7) 2048]{fullShare} frow : sProp 𝕄) = _ from (pts_zPiece (F := F) d L h2 7 frow).symm)) $$ Hr7
  ihave Hb2 := (Entails.of_eq (pts_val (F := F) d (cV L) (jV L) _).symm) $$ Hb2
  sl_exec
  -- the zero loop: the value scratch filled sixteen entries a trip
  sl_for (zInv (F := F) d (cV L) (jV L)) $$ [Hb2]
  case region =>
    intro k u
    unfold zInv
    iintro ⟨%f, H7, %hZ⟩
    ihave Hw := (wp_zTrip (F := F) d (cV L) (jV L) (k1_off27 k) (k1_off27_inb L k h2) f) $$ H7
    iapply (wp_mono frame _ _ (fun _ => ?post)) $$ Hw
    case post =>
      iintro H7
      iexists _; isplitl [H7]; · iexact H7
      ipureintro
      exact ZeroTo_step (F := F) d (cV L) (jV L) k.val (k1_off27 k) (k1_off27_eq k) (k1_off27_inb L k h2) f hZ
  · unfold zInv
    iexists _; isplitl [Hb2]; · iexact Hb2
    ipureintro; intro t ht; omega
  iintro %_ HI
  unfold zInv
  icases HI with ⟨%fz, Hb2, %hZ⟩
  sl_exec
  -- every entry of the value scratch is the zero word, so each landed piece is the row's own zeros
  have hP : ∀ x : S2048.Idx, tile_body_B.sl.dma0 d L fz x = Scalar.ofBits .f32 0x00000000#32 := fun x => by
    obtain ⟨t, rfl⟩ : ∃ t : Fin 2048, x = Idealize.ShloMosaic.ValueIdx.ix1 t := ⟨x 0, Idealize.ShloMosaic.ValueIdx.eq_ix1 x⟩
    exact hZ t (by have := t.isLt; rw [trips_t9]; omega)
  ihave Hr0 := (Entails.of_eq (show _ = (acc1Loc d (cT (cL L)) ↦[seg (N := 114688) (16384 * (jL L).val + 2048 * 0) 2048]{fullShare} ACC1 m d (cT (cL L)) : sProp 𝕄) from piece_zero (F := F) m d L h2 0 frow _ hP hc1 hs6)) $$ Hr0
  ihave Hr1 := (Entails.of_eq (show _ = (acc1Loc d (cT (cL L)) ↦[seg (N := 114688) (16384 * (jL L).val + 2048 * 1) 2048]{fullShare} ACC1 m d (cT (cL L)) : sProp 𝕄) from piece_zero (F := F) m d L h2 1 frow _ hP hc1 hs6)) $$ Hr1
  ihave Hr2 := (Entails.of_eq (show _ = (acc1Loc d (cT (cL L)) ↦[seg (N := 114688) (16384 * (jL L).val + 2048 * 2) 2048]{fullShare} ACC1 m d (cT (cL L)) : sProp 𝕄) from piece_zero (F := F) m d L h2 2 frow _ hP hc1 hs6)) $$ Hr2
  ihave Hr3 := (Entails.of_eq (show _ = (acc1Loc d (cT (cL L)) ↦[seg (N := 114688) (16384 * (jL L).val + 2048 * 3) 2048]{fullShare} ACC1 m d (cT (cL L)) : sProp 𝕄) from piece_zero (F := F) m d L h2 3 frow _ hP hc1 hs6)) $$ Hr3
  ihave Hr4 := (Entails.of_eq (show _ = (acc1Loc d (cT (cL L)) ↦[seg (N := 114688) (16384 * (jL L).val + 2048 * 4) 2048]{fullShare} ACC1 m d (cT (cL L)) : sProp 𝕄) from piece_zero (F := F) m d L h2 4 frow _ hP hc1 hs6)) $$ Hr4
  ihave Hr5 := (Entails.of_eq (show _ = (acc1Loc d (cT (cL L)) ↦[seg (N := 114688) (16384 * (jL L).val + 2048 * 5) 2048]{fullShare} ACC1 m d (cT (cL L)) : sProp 𝕄) from piece_zero (F := F) m d L h2 5 frow _ hP hc1 hs6)) $$ Hr5
  ihave Hr6 := (Entails.of_eq (show _ = (acc1Loc d (cT (cL L)) ↦[seg (N := 114688) (16384 * (jL L).val + 2048 * 6) 2048]{fullShare} ACC1 m d (cT (cL L)) : sProp 𝕄) from piece_zero (F := F) m d L h2 6 frow _ hP hc1 hs6)) $$ Hr6
  ihave Hr7 := (Entails.of_eq (show _ = (acc1Loc d (cT (cL L)) ↦[seg (N := 114688) (16384 * (jL L).val + 2048 * 7) 2048]{fullShare} ACC1 m d (cT (cL L)) : sProp 𝕄) from piece_zero (F := F) m d L h2 7 frow _ hP hc1 hs6)) $$ Hr7
  ihave Hrow := (Entails.of_eq (row_split (F := F) d (cT (cL L)) (jL L).val (ACC1 m d (cT (cL L)))).symm) $$ [Hr0 Hr1 Hr2 Hr3 Hr4 Hr5 Hr6 Hr7]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  ihave Hb2 := (Entails.of_eq (pts_val (F := F) d (cV L) (jV L) fz)) $$ Hb2
  have hs7 : (L 1).val < 7 := by omega
  ihave Hpay := (Entails.of_eq (show (acc1Loc d (cT (cL L)) ↦[seg (N := 114688) (16384 * (jL L).val) 16384]{fullShare} ACC1 m d (cT (cL L)) : sProp 𝕄) = _ from
      pays_row (F := F) m d (cV L) (jV L).val hs7)) $$ Hrow
  -- the waits recorded so far: all at index none
  ihave HOg := (gen_waits (F := F) _ _ _) $$ HO
  icases HOg with ⟨%W₁, %hW₁e, HO⟩
  have hW₁ : ∀ p ∈ W₁, p ∈ W ∨ p.2 = none := by
    subst hW₁e; intro p hp
    repeat (first | exact .inl hp | (rcases Finset.mem_insert.mp hp with e | hp; · exact .inr (by rw [e]; rfl)))
  clear hW₁e
  -- the barrier: the sixteen payloads handed over; its own round's seven column blocks received
  iapply (SparseCore.wp_subcoreBarrier 𝒱₀ none EB (bRd (F := F) m) d (sc := cV L) (i := jV L) sc_bar0 (grid1.bound 1) hsub1 (L 1) rfl κ (fun _ => 1) (jV L).val
      (fun j => bRd_mem m d _ _ _ (by decide)) (fun _ => rfl) (bRd_expect m d _ _ (by decide)) (some 1) O _) $$ [HO Htoks Hpay Hcred Hat]
  · isplitr; · iexact Hinv
    isplitl [HO]; · iexact HO
    isplitl [Htoks Hpay]
    · rw [bigSep_sep', bigSep_sep']
      isplitl [Htoks]; · iexact Htoks
      isplitl [Hpay]; · iexact Hpay
      iexact Hrch
    isplitl [Hcred]; · iexact Hcred
    isplitl [Hat]; · iexact Hat
    iapply ((K (F := F)).mayOwe_of_bound (thr := V d (cV L) (jV L)) 11 (fun p hp => by
        rw [Finset.mem_singleton] at hp; subst hp
        show (K (F := F)).lev (bcell d (cV L) (jV L)) (some 1) ≤ 11
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, Hrch1, Hgot⟩
  ihave Hcols := (pays_got m d (cV L) (jV L)) $$ Hgot
  icases Hcols with ⟨Hq0, Hq1, Hq2, Hq3, Hq4, Hq5, Hq6⟩
  -- each column block in two halves, the reduce scratch in seven windows, as the copies name them
  have l0 : 0 < 7 := by decide
  have l1 : 1 < 7 := by decide
  have l2 : 2 < 7 := by decide
  have l3 : 3 < 7 := by decide
  have l4 : 4 < 7 := by decide
  have l5 : 5 < 7 := by decide
  have l6 : 6 < 7 := by decide
  ihave Hh0 := (Entails.of_eq (acc_halves (F := F) d L 0 l0 _)) $$ Hq0
  icases Hh0 with ⟨Ha0, Hz0⟩
  ihave Hh1 := (Entails.of_eq (acc_halves (F := F) d L 1 l1 _)) $$ Hq1
  icases Hh1 with ⟨Ha1, Hz1⟩
  ihave Hh2 := (Entails.of_eq (acc_halves (F := F) d L 2 l2 _)) $$ Hq2
  icases Hh2 with ⟨Ha2, Hz2⟩
  ihave Hh3 := (Entails.of_eq (acc_halves (F := F) d L 3 l3 _)) $$ Hq3
  icases Hh3 with ⟨Ha3, Hz3⟩
  ihave Hh4 := (Entails.of_eq (acc_halves (F := F) d L 4 l4 _)) $$ Hq4
  icases Hh4 with ⟨Ha4, Hz4⟩
  ihave Hh5 := (Entails.of_eq (acc_halves (F := F) d L 5 l5 _)) $$ Hq5
  icases Hh5 with ⟨Ha5, Hz5⟩
  ihave Hh6 := (Entails.of_eq (acc_halves (F := F) d L 6 l6 _)) $$ Hq6
  icases Hh6 with ⟨Ha6, Hz6⟩
  ihave Hw := (Entails.of_eq (scr3_windows (F := F) d L f3)) $$ Hb3
  icases Hw with ⟨Hd0, Hd1, Hd2, Hd3, Hd4, Hd5, Hd6⟩
  haveI hst0 : ∀ t : Fin 7, BI.Storable (upEmb : UEmb _ 𝕄) (deliv (F := F) d L 0 (fun _ => ACC1 m d (cV L)) (fun _ => f3) t) :=
    fun t => deliv_storable (F := F) d L 0 _ _ t
  imod (Transfers.batch_alloc' (Lvl := ℕ) countersEmb (V d (cV L) (jV L)) (default : HIx 2) NW (deliv (F := F) d L 0 (fun _ => ACC1 m d (cV L)) (fun _ => f3))
    (sm := .dma cc1_scratch6.sem) (E := Set.univ)) $$ Hs6 with HB
  sl_exec
  -- the seven windows landed: the reduce scratch whole again, at one function
  ihave Hg := (windows_join (F := F) d L (fun n => landedJ (F := F) d L 0 n (ACC1 m d (cV L))) ) $$ [HB_dst0 HB_dst1 HB_dst2 HB_dst3 HB_dst4 HB_dst5 HB_dst6]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    iexact HB_dst6
  icases Hg with ⟨%g, %hg, Hg⟩
  ihave Hb4' := (Entails.of_eq (show ((V d (cV L) (jV L)).loc cc1_scratch4 ↦{fullShare} f4 : sProp 𝕄) = ((Memref.whole cc1_scratch4).view.loc (V d (cV L) (jV L)) ↦{fullShare} f4) from rfl)) $$ Hb4
  sl_for (invR (F := F) m d L 0 g) $$ [Hg Hb4']
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g (ValueIdx.ix1 (⟨512 * n.val + j, by have := n.isLt; omega⟩ : Fin 3584))
        = accAt (XT m d) (WH1 m d) 13 (cV L).val n.val (1024 * (L 1).val + 0 + j) := fun n j hj => hgv_of (F := F) m d L 0 g hg n j hj
    exact step_gen_1 d (cV L) (jV L) (XT m d) (WH1 m d) 13 (cV L).val (L 1).val 0 k.val hkt (by omega) k1_pay3
      (fun v0 v1 v2 v3 v4 v5 v6 l b h0 h1 h2 h3 h4 h5 h6 => pay3_partAt_k1 (XT m d) (WH1 m d) 13 (cV L).val b v0 v1 v2 v3 v4 v5 v6 l h0 h1 h2 h3 h4 h5 h6)
      g h _ _ ((Gen.k1_off32_eq k).trans (vec1 _ _ (by omega)))
      _ _ ((Gen.k1_off30_eq k).trans (vec1 _ _ (by omega)))
      _ _ ((Gen.k1_off31_eq k ⟨0, by decide⟩).trans (vec1 _ _ (by show 512 * 0 + 16 * k.val + 512 = 512 * 1 + 16 * k.val; omega)))
      _ _ ((Gen.k1_off31_eq k ⟨1, by decide⟩).trans (vec1 _ _ (by show 512 * 1 + 16 * k.val + 512 = 512 * 2 + 16 * k.val; omega)))
      _ _ ((Gen.k1_off31_eq k ⟨2, by decide⟩).trans (vec1 _ _ (by show 512 * 2 + 16 * k.val + 512 = 512 * 3 + 16 * k.val; omega)))
      _ _ ((Gen.k1_off31_eq k ⟨3, by decide⟩).trans (vec1 _ _ (by show 512 * 3 + 16 * k.val + 512 = 512 * 4 + 16 * k.val; omega)))
      _ _ ((Gen.k1_off31_eq k ⟨4, by decide⟩).trans (vec1 _ _ (by show 512 * 4 + 16 * k.val + 512 = 512 * 5 + 16 * k.val; omega)))
      _ _ ((Gen.k1_off31_eq k ⟨5, by decide⟩).trans (vec1 _ _ (by show 512 * 5 + 16 * k.val + 512 = 512 * 6 + 16 * k.val; omega)))
      hgv' hh
  · unfold invR
    isplitl [Hg]; · iexact Hg
    iexists f4
    isplitl [Hb4']; · iexact Hb4'
    ipureintro; intro k hk; exact absurd hk (by omega)
  iintro %_ HI
  unfold invR
  icases HI with ⟨Hg, ⟨%h1, Hh, %hh1⟩⟩
  -- the second batch: the other halves into the same seven windows
  ihave Hg' := (Entails.of_eq (show ((Memref.whole cc1_scratch3).view.loc (V d (cV L) (jV L)) ↦{fullShare} g : sProp 𝕄) = ((V d (cV L) (jV L)).loc cc1_scratch3 ↦{fullShare} g) from rfl)) $$ Hg
  ihave Hw2 := (Entails.of_eq (scr3_windows (F := F) d L g)) $$ Hg'
  icases Hw2 with ⟨He0, He1, He2, He3, He4, He5, He6⟩
  ihave HB' := (show (semVal ((V d (cV L) (jV L), SemLoc.dma cc1_scratch6.sem) : GSem nD τ sig) 0 : sProp 𝕄) ⊢ semVal ((V d (cV L) (jV L), SemLoc.dma cc1_scratch6.sem) : GSem nD τ sig) 0 from BI.Entails.refl _) $$ [HB]
  · iexact HB
  haveI hst1 : ∀ t : Fin 7, BI.Storable (upEmb : UEmb _ 𝕄) (deliv (F := F) d L 1 (fun _ => ACC1 m d (cV L)) (fun _ => g) t) :=
    fun t => deliv_storable (F := F) d L 1 _ _ t
  imod (Transfers.batch_alloc' (Lvl := ℕ) countersEmb (V d (cV L) (jV L)) (default : HIx 2) NW (deliv (F := F) d L 1 (fun _ => ACC1 m d (cV L)) (fun _ => g))
    (sm := .dma cc1_scratch6.sem) (E := Set.univ)) $$ HB' with HC
  sl_exec
  ihave Hg2J := (windows_join (F := F) d L (fun n => landedJ (F := F) d L 1 n (ACC1 m d (cV L)))) $$ [HC_dst0 HC_dst1 HC_dst2 HC_dst3 HC_dst4 HC_dst5 HC_dst6]
  · isplitl [HC_dst0]; · iexact HC_dst0
    isplitl [HC_dst1]; · iexact HC_dst1
    isplitl [HC_dst2]; · iexact HC_dst2
    isplitl [HC_dst3]; · iexact HC_dst3
    isplitl [HC_dst4]; · iexact HC_dst4
    isplitl [HC_dst5]; · iexact HC_dst5
    iexact HC_dst6
  icases Hg2J with ⟨%g2, %hg2, Hg2⟩
  sl_for (invR (F := F) m d L 512 g2) $$ [Hg2 Hh]
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g2 (ValueIdx.ix1 (⟨512 * n.val + j, by have := n.isLt; omega⟩ : Fin 3584))
        = accAt (XT m d) (WH1 m d) 13 (cV L).val n.val (1024 * (L 1).val + 512 + j) := fun n j hj => hgv_of (F := F) m d L 1 g2 hg2 n j hj
    exact step_gen_1 d (cV L) (jV L) (XT m d) (WH1 m d) 13 (cV L).val (L 1).val 512 k.val hkt (by omega) k1_pay1
      (fun v0 v1 v2 v3 v4 v5 v6 l b h0 h1 h2 h3 h4 h5 h6 => pay1_partAt_k1 (XT m d) (WH1 m d) 13 (cV L).val b v0 v1 v2 v3 v4 v5 v6 l h0 h1 h2 h3 h4 h5 h6)
      g2 h _ _ ((Gen.k1_off35_eq k).trans (vec1 _ _ (by omega)))
      _ _ ((Gen.k1_off33_eq k).trans (vec1 _ _ (by omega)))
      _ _ ((Gen.k1_off34_eq k ⟨0, by decide⟩).trans (vec1 _ _ (by show 512 * 0 + 16 * k.val + 512 = 512 * 1 + 16 * k.val; omega)))
      _ _ ((Gen.k1_off34_eq k ⟨1, by decide⟩).trans (vec1 _ _ (by show 512 * 1 + 16 * k.val + 512 = 512 * 2 + 16 * k.val; omega)))
      _ _ ((Gen.k1_off34_eq k ⟨2, by decide⟩).trans (vec1 _ _ (by show 512 * 2 + 16 * k.val + 512 = 512 * 3 + 16 * k.val; omega)))
      _ _ ((Gen.k1_off34_eq k ⟨3, by decide⟩).trans (vec1 _ _ (by show 512 * 3 + 16 * k.val + 512 = 512 * 4 + 16 * k.val; omega)))
      _ _ ((Gen.k1_off34_eq k ⟨4, by decide⟩).trans (vec1 _ _ (by show 512 * 4 + 16 * k.val + 512 = 512 * 5 + 16 * k.val; omega)))
      _ _ ((Gen.k1_off34_eq k ⟨5, by decide⟩).trans (vec1 _ _ (by show 512 * 5 + 16 * k.val + 512 = 512 * 6 + 16 * k.val; omega)))
      hgv' hh
  · unfold invR
    isplitl [Hg2]; · iexact Hg2
    iexists h1
    isplitl [Hh]; · iexact Hh
    ipureintro; intro k hk; exact hh1 k (by show k.val < 0 + 16 * 32; omega)
  iintro %_ HI2
  unfold invR
  icases HI2 with ⟨Hg2, ⟨%h2, Hh, %hh2⟩⟩
  -- the write-out: the output scratch into the tile's 1024 entries of the result
  ihave Hp0' := (Entails.of_eq (pts_poK (F := F) d L _).symm) $$ Hp0
  sl_exec
  have hfull : ∀ k : Fin 1024, (show F .f32 from h2 (ValueIdx.ix1 k)) = partAt (XT m d) (WH1 m d) 13 (L 0).val (1024 * (L 1).val + k.val) :=
    fun k => hh2 k (by have := k.isLt; show k.val < 512 + 16 * 32; omega)
  ihave Hp0 := (Entails.of_eq (show (_ : sProp 𝕄) = (p1Loc d ↦[seg (N := 32768) (16384 * (cL L).val + 1024 * (jL L).val) 1024]{fullShare} PT1 m d) from
    (pts_poK (F := F) d L _).trans (pointsTo_congr (by exact out_landed (F := F) m d (cV L) (jV L) (L 0).val (L 1).val (L 0).isLt (L 1).isLt _ _ (k1_off36_eq L) _ h2 hfull)))) $$ Hp0'
  -- the column blocks whole again, the scratches as the launch names them
  ihave Hq0 := (Entails.of_eq (acc_halves (F := F) d L 0 l0 (ACC1 m d (cV L))).symm) $$ [HB_src0 HC_src0]
  · isplitl [HB_src0]; · iexact HB_src0
    iexact HC_src0
  ihave Hq1 := (Entails.of_eq (acc_halves (F := F) d L 1 l1 (ACC1 m d (cV L))).symm) $$ [HB_src1 HC_src1]
  · isplitl [HB_src1]; · iexact HB_src1
    iexact HC_src1
  ihave Hq2 := (Entails.of_eq (acc_halves (F := F) d L 2 l2 (ACC1 m d (cV L))).symm) $$ [HB_src2 HC_src2]
  · isplitl [HB_src2]; · iexact HB_src2
    iexact HC_src2
  ihave Hq3 := (Entails.of_eq (acc_halves (F := F) d L 3 l3 (ACC1 m d (cV L))).symm) $$ [HB_src3 HC_src3]
  · isplitl [HB_src3]; · iexact HB_src3
    iexact HC_src3
  ihave Hq4 := (Entails.of_eq (acc_halves (F := F) d L 4 l4 (ACC1 m d (cV L))).symm) $$ [HB_src4 HC_src4]
  · isplitl [HB_src4]; · iexact HB_src4
    iexact HC_src4
  ihave Hq5 := (Entails.of_eq (acc_halves (F := F) d L 5 l5 (ACC1 m d (cV L))).symm) $$ [HB_src5 HC_src5]
  · isplitl [HB_src5]; · iexact HB_src5
    iexact HC_src5
  ihave Hq6 := (Entails.of_eq (acc_halves (F := F) d L 6 l6 (ACC1 m d (cV L))).symm) $$ [HB_src6 HC_src6]
  · isplitl [HB_src6]; · iexact HB_src6
    iexact HC_src6
  ihave Hb3 := (Entails.of_eq (show ((Memref.whole cc1_scratch3).view.loc (V d (cV L) (jV L)) ↦{fullShare} g2 : sProp 𝕄) = ((V d (cV L) (jV L)).loc cc1_scratch3 ↦{fullShare} g2) from rfl)) $$ Hg2
  ihave Hb4 := (Entails.of_eq (show ((Memref.whole cc1_scratch4).view.loc (V d (cV L) (jV L)) ↦{fullShare} h2 : sProp 𝕄) = ((V d (cV L) (jV L)).loc cc1_scratch4 ↦{fullShare} h2) from rfl)) $$ Hh
  -- the waits recorded: all at index none, or the barrier's
  ihave HOg := (gen_waits (F := F) _ _ _) $$ HO
  icases HOg with ⟨%W₂, %hW₂e, HO⟩
  have hW₂ : ∀ p ∈ W₂, p ∈ W ∨ p.2 = none ∨ p.2 = some (1 : Fin 2) := by
    subst hW₂e; intro p hp
    repeat (first | exact (hW₁ p hp).imp_right Or.inl | (rcases Finset.mem_insert.mp hp with e | hp; · first | exact .inr (.inl (by rw [e]; rfl)) | exact .inr (.inr (by rw [e]))))
  sl_step
  iapply (post_intro' (F := F) m d L hF O W W₂ hW₂) $$ [Hxt Hwh Hp0 Hq0 Hq1 Hq2 Hq3 Hq4 Hq5 Hq6 Hat Hrch1 Hb0 Hb1 Hb2 Hb3 Hb4 Hbufs HC Hs7 Hs8 Hs9 Hc0 Hc1 Hc2 Hc3 Hc4 Hc5 Hc6 Hc7 Hc8 Hc9 Hc10 Hc11 Hc12 Hc13 Hc14 Hc15 Hc16 Hsems HO]
  isplitl [Hxt]; · iexact Hxt
  isplitl [Hwh]; · iexact Hwh
  isplitl [Hp0]; · iexact Hp0
  isplitl [Hq0 Hq1 Hq2 Hq3 Hq4 Hq5 Hq6]
  · isplitl [Hq0]; · iexists _; iexact Hq0
    isplitl [Hq1]; · iexists _; iexact Hq1
    isplitl [Hq2]; · iexists _; iexact Hq2
    isplitl [Hq3]; · iexists _; iexact Hq3
    isplitl [Hq4]; · iexists _; iexact Hq4
    isplitl [Hq5]; · iexists _; iexact Hq5
    iexists _; iexact Hq6
  isplitl [Hat]; · iexact Hat
  isplitl [Hrch1]; · iexact Hrch1
  isplitl [Hb0 Hb1 Hb2 Hb3 Hb4]
  · isplitl [Hb0]; · iexists _; iexact Hb0
    isplitl [Hb1]; · iexists _; iexact Hb1
    isplitl [Hb2]; · iexists _; iexact Hb2
    isplitl [Hb3]; · iexists _; iexact Hb3
    iexists _; iexact Hb4
  isplitl [Hbufs]; · iexact Hbufs
  isplitl [HC Hs7 Hs8 Hs9 Hc0 Hc1 Hc2 Hc3 Hc4 Hc5 Hc6 Hc7 Hc8 Hc9 Hc10 Hc11 Hc12 Hc13 Hc14 Hc15 Hc16]
  · isplitl [HC]; · iexact HC
    isplitl [Hs7]; · iexact Hs7
    isplitl [Hs8]; · iexact Hs8
    isplitl [Hs9]; · iexact Hs9
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    iexact Hc16
  isplitl [Hsems]; · iexact Hsems
  iexact HO

set_option maxHeartbeats 4000000 in
theorem tile_body_A (h1 : k1_cond1 L = 1#1) (hx : InRange m) (hF : (K (F := F)).Facts) (O : CellTallies nD τ sig (HIx 2)) (W : Waits sig (HIx 2)) (hO : ∀ g, O g none = 0)
    (hOlev : ∀ g ι, 0 < O g ι → 8 * (1 : Fin 2).val + 6 ≤ (K (F := F)).lev g ι) :
    iprop(levAts (K (F := F)).L (K (F := F)).lev ∗ bkit m 1 d (cV L) (jV L) ∗ go1 m d (cL L) (jL L)
        ∗ scopedBufs (V d (cV L) (jV L)) ∗ scopedSems0 (V d (cV L) (jV L)) ∗ owes (V d (cV L) (jV L)) (O + oxV 1 d (cV L)) W)
      ⊢ wp frame (wpE (defs₀ (F := F)) 𝒱₀ (V d (cV L) (jV L)) none) Set.univ (prog1 (F := F) L)
          fun _ => iprop(td1 m d (cL L) (jL L) ∗ scopedBufs (V d (cV L) (jV L)) ∗ scopedSems0 (V d (cV L) (jV L))
            ∗ ∃ W', ⌜∀ p ∈ W', p ∈ W ∨ p.2 = none ∨ p.2 = some (1 : Fin 2)⌝ ∗ owes (V d (cV L) (jV L)) O W') := by
  obtain ⟨hs7, hcs, h2⟩ := conds_A L h1
  have hc2 : (L 0).val < 2 := (L 0).isLt
  unfold prog1
  simp only [cc1_sc_fields_1_eq_skeleton]; unfold cc1_sc_fields_1_skel
  rw [(K (F := F)).scopedBufs_V hF d (cV L) (jV L), SparseCore.Cfg.scopedSems0_V (Val := Elt F) d (cV L) (jV L), ownSems0_V, ownBufs_V]
  unfold bkit go1
  rw [if_neg (show ¬ (1 : Fin 2).val = 0 from by decide), if_pos (show (jL L).val < 7 from hs7)]
  iintro ⟨#Hlv, ⟨⟨%κ, #Hinv⟩, Htoks, Hcred, -⟩, ⟨Hxt, Hwh, Hp0, ⟨%frow, Hrow⟩, Hat, #Hrch⟩,
    ⟨⟨⟨%f0, Hb0⟩, ⟨%f1, Hb1⟩, ⟨%f2, Hb2⟩, ⟨%f3, Hb3⟩, ⟨%f4, Hb4⟩⟩, Hbufs⟩,
    ⟨⟨Hs6, Hs7, Hs8, Hs9, Hc0, Hc1, Hc2, Hc3, Hc4, Hc5, Hc6, Hc7, Hc8, Hc9, Hc10, Hc11, Hc12, Hc13, Hc14, Hc15, Hc16⟩, Hsems⟩, HO⟩
  have hO' : ∀ g, (O + oxV 1 d (cV L)) g none = 0 := fun g => by rw [Pi.add_apply, Finsupp.add_apply, hO g, oxV_none]
  ihave Hmw1 := (show levAts (K (F := F)).L (K (F := F)).lev ⊢ Transfers.MayWaits (V d (cV L) (jV L)) (default : HIx 2) (O + oxV 1 d (cV L)) from
    (K (F := F)).mayWaits_none (thr := V d (cV L) (jV L)) hO') $$ Hlv
  ihave Hmw2 := (show levAts (K (F := F)).L (K (F := F)).lev ⊢ Transfers.MayWaits (V d (cV L) (jV L)) (default : HIx 2) O from
    (K (F := F)).mayWaits_none (thr := V d (cV L) (jV L)) hO) $$ Hlv
  -- the row as the eight pieces the task copies into, the index scratch as its two slots
  ihave Hrow' := (Entails.of_eq (row_split (F := F) d (cT (cL L)) (jL L).val frow)) $$ Hrow
  icases Hrow' with ⟨Hr0, Hr1, Hr2, Hr3, Hr4, Hr5, Hr6, Hr7⟩
  ihave Hr0 := (Entails.of_eq (show (acc1Loc d (cT (cL L)) ↦[seg (N := 114688) (16384 * (jL L).val + 2048 * 0) 2048]{fullShare} frow : sProp 𝕄) = _ from (pts_rowPiece (F := F) d L h1 0 frow).symm)) $$ Hr0
  ihave Hr1 := (Entails.of_eq (show (acc1Loc d (cT (cL L)) ↦[seg (N := 114688) (16384 * (jL L).val + 2048 * 1) 2048]{fullShare} frow : sProp 𝕄) = _ from (pts_rowPiece (F := F) d L h1 1 frow).symm)) $$ Hr1
  ihave Hr2 := (Entails.of_eq (show (acc1Loc d (cT (cL L)) ↦[seg (N := 114688) (16384 * (jL L).val + 2048 * 2) 2048]{fullShare} frow : sProp 𝕄) = _ from (pts_rowPiece (F := F) d L h1 2 frow).symm)) $$ Hr2
  ihave Hr3 := (Entails.of_eq (show (acc1Loc d (cT (cL L)) ↦[seg (N := 114688) (16384 * (jL L).val + 2048 * 3) 2048]{fullShare} frow : sProp 𝕄) = _ from (pts_rowPiece (F := F) d L h1 3 frow).symm)) $$ Hr3
  ihave Hr4 := (Entails.of_eq (show (acc1Loc d (cT (cL L)) ↦[seg (N := 114688) (16384 * (jL L).val + 2048 * 4) 2048]{fullShare} frow : sProp 𝕄) = _ from (pts_rowPiece (F := F) d L h1 4 frow).symm)) $$ Hr4
  ihave Hr5 := (Entails.of_eq (show (acc1Loc d (cT (cL L)) ↦[seg (N := 114688) (16384 * (jL L).val + 2048 * 5) 2048]{fullShare} frow : sProp 𝕄) = _ from (pts_rowPiece (F := F) d L h1 5 frow).symm)) $$ Hr5
  ihave Hr6 := (Entails.of_eq (show (acc1Loc d (cT (cL L)) ↦[seg (N := 114688) (16384 * (jL L).val + 2048 * 6) 2048]{fullShare} frow : sProp 𝕄) = _ from (pts_rowPiece (F := F) d L h1 6 frow).symm)) $$ Hr6
  ihave Hr7 := (Entails.of_eq (show (acc1Loc d (cT (cL L)) ↦[seg (N := 114688) (16384 * (jL L).val + 2048 * 7) 2048]{fullShare} frow : sProp 𝕄) = _ from (pts_rowPiece (F := F) d L h1 7 frow).symm)) $$ Hr7
  ihave Hx := (x_split (F := F) d (cV L) (jV L) f1).1 $$ Hb1
  icases Hx with ⟨Hx0, Hx1⟩
  ihave Hxt := (Entails.of_eq (pts_xt (F := F) d (cV L) (jV L) _ _).symm) $$ Hxt
  ihave Hwh := (Entails.of_eq (pts_wh (F := F) d (cV L) (jV L) _ _).symm) $$ Hwh
  ihave Hp0 := (Entails.of_eq (pts_poK (F := F) d L _).symm) $$ Hp0
  ihave Hb0 := (Entails.of_eq (pts_sub (F := F) d (cV L) (jV L) _).symm) $$ Hb0
  ihave Hb2 := (Entails.of_eq (pts_val (F := F) d (cV L) (jV L) _).symm) $$ Hb2
  ihave Hb3 := (Entails.of_eq (pts_red (F := F) d (cV L) (jV L) _).symm) $$ Hb3
  ihave Hb4 := (Entails.of_eq (pts_out (F := F) d (cV L) (jV L) _).symm) $$ Hb4
  sl_exec
  -- the table scratch holds the field's 100000 entries
  have hfsub : SubHolds m d (cV L) (jV L) (7 * (L 0).val + (L 1).val) ((subM).view.writes (Elt F) f0 [⟨Rect.unit (s := S100096) ![0] S100000.size inb_S100096_S100000_0, tile_body_A.sl.dma0 m d L h1⟩]) := by
    unfold tile_body_A.sl.dma0
    exact subholds_landed (F := F) m d (cV L) (jV L) (7 * (L 0).val + (L 1).val) _ _ (by rw [k1_off1_eq]; congr 1; omega) _
  generalize ((subM).view.writes (Elt F) f0 [⟨Rect.unit (s := S100096) ![0] S100000.size inb_S100096_S100000_0, tile_body_A.sl.dma0 m d L h1⟩]) = fsub at hfsub ⊢
  -- chunk 0: slot 0 of the index scratch has it; the loop looks its 2048 indices up
  have hfx0 : XHolds m d (cV L) (jV L) 0 0 (7 * (L 0).val + (L 1).val + 13) ((xSlot0).view.writes (Elt F) (xSlot0).view.junk [⟨Rect.whole S2048, tile_body_A.sl.dma0_1 m d L h1⟩]) := by
    unfold tile_body_A.sl.dma0_1
    exact xholds_landed (F := F) m d (cV L) (jV L) 0 0 (7 * (L 0).val + (L 1).val + 13) _ _ rfl _ _ (k1_off2_eq L) _
  generalize ((xSlot0).view.writes (Elt F) (xSlot0).view.junk [⟨Rect.whole S2048, tile_body_A.sl.dma0_1 m d L h1⟩]) = fx0 at hfx0 ⊢
  sl_for (gInv (F := F) d (cV L) (jV L) (xSlot0).view.set fx0 fsub (Good m d (cV L) (jV L) (L 0).val (L 1).val 0)) $$ [Hx0 Hb0 Hb2]
  case region =>
    intro k u
    unfold gInv
    iintro ⟨H6, H5, %f, H7, %hG⟩
    have hk : k.val < 128 := lt_of_lt_of_le k.isLt k1_t1_abs.2.1
    have hoffX : k1_off4 k = ![2048 * 0 + 16 * k.val] := by rw [k1_off4_eq, show 2048 * 0 + 16 * k.val = 16 * k.val by omega]
    have hoffV : k1_off5 k = ![16 * k.val] := k1_off5_eq k
    have hS6 : (xM).view.setOn (Rect.unit (s := S4096) (k1_off4 k) S16.size (k1_off4_inb L k h1)).toLoadRect.set ⊆ (xSlot0).view.set := by
      rw [set_xSlot0]; exact box_sub_slot 0 k.val _ _ hoffX hk
    have hin := chk_of_holds (F := F) m d (cV L) (jV L) 0 0 (7 * (L 0).val + (L 1).val + 13) k.val (by decide) (by decide) (by omega) hk hx _ (k1_off4_inb L k h1) hoffX fx0 hfx0
    have hP : k1_chk1 L (gIdx (F := F) d (cV L) (jV L) (k1_off4 k) (k1_off4_inb L k h1) fx0) := fun _ => hin
    ihave Hw := (wp_gTrip (F := F) d (cV L) (jV L) (k1_off4 k) (k1_off5 k) (k1_off4_inb L k h1) (k1_off5_inb L k h1) (k1_chk1 L) (k1_chk1.dec L)
        (fun v hw => k1_idx1_inb L v hw h1) (xSlot0).view.set fx0 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 0 0 k.val hc2 (by omega) (by decide) (by decide) hk hx _ _ _ _ hoffX hoffV fx0 fsub f (by have e : 7 * (L 0).val + (L 1).val + 13 = 13 + 7 * (L 0).val + (L 1).val := (by omega); rw [← e]; exact hfx0) hfsub hG _
  · unfold gInv
    isplitl [Hx0]; · iexact Hx0
    isplitl [Hb0]; · iexact Hb0
    iexists _; isplitl [Hb2]; · iexact Hb2
    ipureintro; intro t ht; exact absurd ht (by omega)
  iintro %_ HI
  unfold gInv
  icases HI with ⟨Hx0, Hb0, %fv1, Hb2, %hG1⟩
  ihave Hx0 := (Entails.of_eq (show ((xM).view.loc (V d (cV L) (jV L)) ↦[(xSlot0).view.set]{fullShare} fx0 : sProp 𝕄)
      = ((xSlot0).view.loc (V d (cV L) (jV L)) ↦[(xSlot0).view.set]{fullShare} fx0) from rfl)) $$ Hx0
  sl_exec
  -- chunk 1: slot 1 of the index scratch has it; the loop looks its 2048 indices up
  have hfx1 : XHolds m d (cV L) (jV L) 1 1 (7 * (L 0).val + (L 1).val + 13) ((xSlot1).view.writes (Elt F) (xSlot1).view.junk [⟨Rect.whole S2048, tile_body_A.sl.dma0_2 m d L h1⟩]) := by
    unfold tile_body_A.sl.dma0_2
    exact xholds_landed (F := F) m d (cV L) (jV L) 1 1 (7 * (L 0).val + (L 1).val + 13) _ _ rfl _ _ (k1_off3_eq L) _
  generalize ((xSlot1).view.writes (Elt F) (xSlot1).view.junk [⟨Rect.whole S2048, tile_body_A.sl.dma0_2 m d L h1⟩]) = fx1 at hfx1 ⊢
  sl_for (gInv (F := F) d (cV L) (jV L) (xSlot1).view.set fx1 fsub (Good m d (cV L) (jV L) (L 0).val (L 1).val 1)) $$ [Hx1 Hb0 Hb2]
  case region =>
    intro k u
    unfold gInv
    iintro ⟨H6, H5, %f, H7, %hG⟩
    have hk : k.val < 128 := lt_of_lt_of_le k.isLt k1_t2_abs.2.1
    have hoffX : k1_off8 k = ![2048 * 1 + 16 * k.val] := by rw [k1_off8_eq, show 2048 * 1 + 16 * k.val = 16 * k.val + 2048 by omega]
    have hoffV : k1_off9 k = ![16 * k.val] := k1_off9_eq k
    have hS6 : (xM).view.setOn (Rect.unit (s := S4096) (k1_off8 k) S16.size (k1_off8_inb L k h1)).toLoadRect.set ⊆ (xSlot1).view.set := by
      rw [set_xSlot1]; exact box_sub_slot 1 k.val _ _ hoffX hk
    have hin := chk_of_holds (F := F) m d (cV L) (jV L) 1 1 (7 * (L 0).val + (L 1).val + 13) k.val (by decide) (by decide) (by omega) hk hx _ (k1_off8_inb L k h1) hoffX fx1 hfx1
    have hP : k1_chk2 L (gIdx (F := F) d (cV L) (jV L) (k1_off8 k) (k1_off8_inb L k h1) fx1) := fun _ => hin
    ihave Hw := (wp_gTrip (F := F) d (cV L) (jV L) (k1_off8 k) (k1_off9 k) (k1_off8_inb L k h1) (k1_off9_inb L k h1) (k1_chk2 L) (k1_chk2.dec L)
        (fun v hw => k1_idx2_inb L v hw h1) (xSlot1).view.set fx1 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 1 1 k.val hc2 (by omega) (by decide) (by decide) hk hx _ _ _ _ hoffX hoffV fx1 fsub f (by have e : 7 * (L 0).val + (L 1).val + 13 = 13 + 7 * (L 0).val + (L 1).val := (by omega); rw [← e]; exact hfx1) hfsub hG _
  · unfold gInv
    isplitl [Hx1]; · iexact Hx1
    isplitl [Hb0]; · iexact Hb0
    iexists _; isplitl [Hb2]; · iexact Hb2
    ipureintro; intro t ht; exact absurd ht (by omega)
  iintro %_ HI
  unfold gInv
  icases HI with ⟨Hx1, Hb0, %fv2, Hb2, %hG2⟩
  ihave Hx1 := (Entails.of_eq (show ((xM).view.loc (V d (cV L) (jV L)) ↦[(xSlot1).view.set]{fullShare} fx1 : sProp 𝕄)
      = ((xSlot1).view.loc (V d (cV L) (jV L)) ↦[(xSlot1).view.set]{fullShare} fx1) from rfl)) $$ Hx1
  sl_exec
  -- chunk 2: slot 0 of the index scratch has it; the loop looks its 2048 indices up
  have hfx2 : XHolds m d (cV L) (jV L) 0 2 (7 * (L 0).val + (L 1).val + 13) ((xSlot0).view.writes (Elt F) (xSlot0).view.junk [⟨Rect.whole S2048, tile_body_A.sl.dma0_4 m d L h1⟩]) := by
    unfold tile_body_A.sl.dma0_4
    exact xholds_landed (F := F) m d (cV L) (jV L) 0 2 (7 * (L 0).val + (L 1).val + 13) _ _ rfl _ _ (k1_off7_eq L) _
  generalize ((xSlot0).view.writes (Elt F) (xSlot0).view.junk [⟨Rect.whole S2048, tile_body_A.sl.dma0_4 m d L h1⟩]) = fx2 at hfx2 ⊢
  sl_for (gInv (F := F) d (cV L) (jV L) (xSlot0).view.set fx2 fsub (Good m d (cV L) (jV L) (L 0).val (L 1).val 2)) $$ [Hx0 Hb0 Hb2]
  case region =>
    intro k u
    unfold gInv
    iintro ⟨H6, H5, %f, H7, %hG⟩
    have hk : k.val < 128 := lt_of_lt_of_le k.isLt k1_t3_abs.2.1
    have hoffX : k1_off11 k = ![2048 * 0 + 16 * k.val] := by rw [k1_off11_eq, show 2048 * 0 + 16 * k.val = 16 * k.val by omega]
    have hoffV : k1_off12 k = ![16 * k.val] := k1_off12_eq k
    have hS6 : (xM).view.setOn (Rect.unit (s := S4096) (k1_off11 k) S16.size (k1_off11_inb L k h1)).toLoadRect.set ⊆ (xSlot0).view.set := by
      rw [set_xSlot0]; exact box_sub_slot 0 k.val _ _ hoffX hk
    have hin := chk_of_holds (F := F) m d (cV L) (jV L) 0 2 (7 * (L 0).val + (L 1).val + 13) k.val (by decide) (by decide) (by omega) hk hx _ (k1_off11_inb L k h1) hoffX fx2 hfx2
    have hP : k1_chk3 L (gIdx (F := F) d (cV L) (jV L) (k1_off11 k) (k1_off11_inb L k h1) fx2) := fun _ => hin
    ihave Hw := (wp_gTrip (F := F) d (cV L) (jV L) (k1_off11 k) (k1_off12 k) (k1_off11_inb L k h1) (k1_off12_inb L k h1) (k1_chk3 L) (k1_chk3.dec L)
        (fun v hw => k1_idx3_inb L v hw h1) (xSlot0).view.set fx2 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 2 0 k.val hc2 (by omega) (by decide) (by decide) hk hx _ _ _ _ hoffX hoffV fx2 fsub f (by have e : 7 * (L 0).val + (L 1).val + 13 = 13 + 7 * (L 0).val + (L 1).val := (by omega); rw [← e]; exact hfx2) hfsub hG _
  · unfold gInv
    isplitl [Hx0]; · iexact Hx0
    isplitl [Hb0]; · iexact Hb0
    iexists _; isplitl [Hb2]; · iexact Hb2
    ipureintro; intro t ht; exact absurd ht (by omega)
  iintro %_ HI
  unfold gInv
  icases HI with ⟨Hx0, Hb0, %fv3, Hb2, %hG3⟩
  ihave Hx0 := (Entails.of_eq (show ((xM).view.loc (V d (cV L) (jV L)) ↦[(xSlot0).view.set]{fullShare} fx2 : sProp 𝕄)
      = ((xSlot0).view.loc (V d (cV L) (jV L)) ↦[(xSlot0).view.set]{fullShare} fx2) from rfl)) $$ Hx0
  sl_exec
  -- chunk 3: slot 1 of the index scratch has it; the loop looks its 2048 indices up
  have hfx3 : XHolds m d (cV L) (jV L) 1 3 (7 * (L 0).val + (L 1).val + 13) ((xSlot1).view.writes (Elt F) (xSlot1).view.junk [⟨Rect.whole S2048, tile_body_A.sl.dma0_6 m d L h1⟩]) := by
    unfold tile_body_A.sl.dma0_6
    exact xholds_landed (F := F) m d (cV L) (jV L) 1 3 (7 * (L 0).val + (L 1).val + 13) _ _ rfl _ _ (k1_off10_eq L) _
  generalize ((xSlot1).view.writes (Elt F) (xSlot1).view.junk [⟨Rect.whole S2048, tile_body_A.sl.dma0_6 m d L h1⟩]) = fx3 at hfx3 ⊢
  sl_for (gInv (F := F) d (cV L) (jV L) (xSlot1).view.set fx3 fsub (Good m d (cV L) (jV L) (L 0).val (L 1).val 3)) $$ [Hx1 Hb0 Hb2]
  case region =>
    intro k u
    unfold gInv
    iintro ⟨H6, H5, %f, H7, %hG⟩
    have hk : k.val < 128 := lt_of_lt_of_le k.isLt k1_t4_abs.2.1
    have hoffX : k1_off14 k = ![2048 * 1 + 16 * k.val] := by rw [k1_off14_eq, show 2048 * 1 + 16 * k.val = 16 * k.val + 2048 by omega]
    have hoffV : k1_off15 k = ![16 * k.val] := k1_off15_eq k
    have hS6 : (xM).view.setOn (Rect.unit (s := S4096) (k1_off14 k) S16.size (k1_off14_inb L k h1)).toLoadRect.set ⊆ (xSlot1).view.set := by
      rw [set_xSlot1]; exact box_sub_slot 1 k.val _ _ hoffX hk
    have hin := chk_of_holds (F := F) m d (cV L) (jV L) 1 3 (7 * (L 0).val + (L 1).val + 13) k.val (by decide) (by decide) (by omega) hk hx _ (k1_off14_inb L k h1) hoffX fx3 hfx3
    have hP : k1_chk4 L (gIdx (F := F) d (cV L) (jV L) (k1_off14 k) (k1_off14_inb L k h1) fx3) := fun _ => hin
    ihave Hw := (wp_gTrip (F := F) d (cV L) (jV L) (k1_off14 k) (k1_off15 k) (k1_off14_inb L k h1) (k1_off15_inb L k h1) (k1_chk4 L) (k1_chk4.dec L)
        (fun v hw => k1_idx4_inb L v hw h1) (xSlot1).view.set fx3 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 3 1 k.val hc2 (by omega) (by decide) (by decide) hk hx _ _ _ _ hoffX hoffV fx3 fsub f (by have e : 7 * (L 0).val + (L 1).val + 13 = 13 + 7 * (L 0).val + (L 1).val := (by omega); rw [← e]; exact hfx3) hfsub hG _
  · unfold gInv
    isplitl [Hx1]; · iexact Hx1
    isplitl [Hb0]; · iexact Hb0
    iexists _; isplitl [Hb2]; · iexact Hb2
    ipureintro; intro t ht; exact absurd ht (by omega)
  iintro %_ HI
  unfold gInv
  icases HI with ⟨Hx1, Hb0, %fv4, Hb2, %hG4⟩
  ihave Hx1 := (Entails.of_eq (show ((xM).view.loc (V d (cV L) (jV L)) ↦[(xSlot1).view.set]{fullShare} fx3 : sProp 𝕄)
      = ((xSlot1).view.loc (V d (cV L) (jV L)) ↦[(xSlot1).view.set]{fullShare} fx3) from rfl)) $$ Hx1
  sl_exec
  -- chunk 4: slot 0 of the index scratch has it; the loop looks its 2048 indices up
  have hfx4 : XHolds m d (cV L) (jV L) 0 4 (7 * (L 0).val + (L 1).val + 13) ((xSlot0).view.writes (Elt F) (xSlot0).view.junk [⟨Rect.whole S2048, tile_body_A.sl.dma0_8 m d L h1⟩]) := by
    unfold tile_body_A.sl.dma0_8
    exact xholds_landed (F := F) m d (cV L) (jV L) 0 4 (7 * (L 0).val + (L 1).val + 13) _ _ rfl _ _ (k1_off13_eq L) _
  generalize ((xSlot0).view.writes (Elt F) (xSlot0).view.junk [⟨Rect.whole S2048, tile_body_A.sl.dma0_8 m d L h1⟩]) = fx4 at hfx4 ⊢
  sl_for (gInv (F := F) d (cV L) (jV L) (xSlot0).view.set fx4 fsub (Good m d (cV L) (jV L) (L 0).val (L 1).val 4)) $$ [Hx0 Hb0 Hb2]
  case region =>
    intro k u
    unfold gInv
    iintro ⟨H6, H5, %f, H7, %hG⟩
    have hk : k.val < 128 := lt_of_lt_of_le k.isLt k1_t5_abs.2.1
    have hoffX : k1_off17 k = ![2048 * 0 + 16 * k.val] := by rw [k1_off17_eq, show 2048 * 0 + 16 * k.val = 16 * k.val by omega]
    have hoffV : k1_off18 k = ![16 * k.val] := k1_off18_eq k
    have hS6 : (xM).view.setOn (Rect.unit (s := S4096) (k1_off17 k) S16.size (k1_off17_inb L k h1)).toLoadRect.set ⊆ (xSlot0).view.set := by
      rw [set_xSlot0]; exact box_sub_slot 0 k.val _ _ hoffX hk
    have hin := chk_of_holds (F := F) m d (cV L) (jV L) 0 4 (7 * (L 0).val + (L 1).val + 13) k.val (by decide) (by decide) (by omega) hk hx _ (k1_off17_inb L k h1) hoffX fx4 hfx4
    have hP : k1_chk5 L (gIdx (F := F) d (cV L) (jV L) (k1_off17 k) (k1_off17_inb L k h1) fx4) := fun _ => hin
    ihave Hw := (wp_gTrip (F := F) d (cV L) (jV L) (k1_off17 k) (k1_off18 k) (k1_off17_inb L k h1) (k1_off18_inb L k h1) (k1_chk5 L) (k1_chk5.dec L)
        (fun v hw => k1_idx5_inb L v hw h1) (xSlot0).view.set fx4 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 4 0 k.val hc2 (by omega) (by decide) (by decide) hk hx _ _ _ _ hoffX hoffV fx4 fsub f (by have e : 7 * (L 0).val + (L 1).val + 13 = 13 + 7 * (L 0).val + (L 1).val := (by omega); rw [← e]; exact hfx4) hfsub hG _
  · unfold gInv
    isplitl [Hx0]; · iexact Hx0
    isplitl [Hb0]; · iexact Hb0
    iexists _; isplitl [Hb2]; · iexact Hb2
    ipureintro; intro t ht; exact absurd ht (by omega)
  iintro %_ HI
  unfold gInv
  icases HI with ⟨Hx0, Hb0, %fv5, Hb2, %hG5⟩
  ihave Hx0 := (Entails.of_eq (show ((xM).view.loc (V d (cV L) (jV L)) ↦[(xSlot0).view.set]{fullShare} fx4 : sProp 𝕄)
      = ((xSlot0).view.loc (V d (cV L) (jV L)) ↦[(xSlot0).view.set]{fullShare} fx4) from rfl)) $$ Hx0
  sl_exec
  -- chunk 5: slot 1 of the index scratch has it; the loop looks its 2048 indices up
  have hfx5 : XHolds m d (cV L) (jV L) 1 5 (7 * (L 0).val + (L 1).val + 13) ((xSlot1).view.writes (Elt F) (xSlot1).view.junk [⟨Rect.whole S2048, tile_body_A.sl.dma0_10 m d L h1⟩]) := by
    unfold tile_body_A.sl.dma0_10
    exact xholds_landed (F := F) m d (cV L) (jV L) 1 5 (7 * (L 0).val + (L 1).val + 13) _ _ rfl _ _ (k1_off16_eq L) _
  generalize ((xSlot1).view.writes (Elt F) (xSlot1).view.junk [⟨Rect.whole S2048, tile_body_A.sl.dma0_10 m d L h1⟩]) = fx5 at hfx5 ⊢
  sl_for (gInv (F := F) d (cV L) (jV L) (xSlot1).view.set fx5 fsub (Good m d (cV L) (jV L) (L 0).val (L 1).val 5)) $$ [Hx1 Hb0 Hb2]
  case region =>
    intro k u
    unfold gInv
    iintro ⟨H6, H5, %f, H7, %hG⟩
    have hk : k.val < 128 := lt_of_lt_of_le k.isLt k1_t6_abs.2.1
    have hoffX : k1_off20 k = ![2048 * 1 + 16 * k.val] := by rw [k1_off20_eq, show 2048 * 1 + 16 * k.val = 16 * k.val + 2048 by omega]
    have hoffV : k1_off21 k = ![16 * k.val] := k1_off21_eq k
    have hS6 : (xM).view.setOn (Rect.unit (s := S4096) (k1_off20 k) S16.size (k1_off20_inb L k h1)).toLoadRect.set ⊆ (xSlot1).view.set := by
      rw [set_xSlot1]; exact box_sub_slot 1 k.val _ _ hoffX hk
    have hin := chk_of_holds (F := F) m d (cV L) (jV L) 1 5 (7 * (L 0).val + (L 1).val + 13) k.val (by decide) (by decide) (by omega) hk hx _ (k1_off20_inb L k h1) hoffX fx5 hfx5
    have hP : k1_chk6 L (gIdx (F := F) d (cV L) (jV L) (k1_off20 k) (k1_off20_inb L k h1) fx5) := fun _ => hin
    ihave Hw := (wp_gTrip (F := F) d (cV L) (jV L) (k1_off20 k) (k1_off21 k) (k1_off20_inb L k h1) (k1_off21_inb L k h1) (k1_chk6 L) (k1_chk6.dec L)
        (fun v hw => k1_idx6_inb L v hw h1) (xSlot1).view.set fx5 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 5 1 k.val hc2 (by omega) (by decide) (by decide) hk hx _ _ _ _ hoffX hoffV fx5 fsub f (by have e : 7 * (L 0).val + (L 1).val + 13 = 13 + 7 * (L 0).val + (L 1).val := (by omega); rw [← e]; exact hfx5) hfsub hG _
  · unfold gInv
    isplitl [Hx1]; · iexact Hx1
    isplitl [Hb0]; · iexact Hb0
    iexists _; isplitl [Hb2]; · iexact Hb2
    ipureintro; intro t ht; exact absurd ht (by omega)
  iintro %_ HI
  unfold gInv
  icases HI with ⟨Hx1, Hb0, %fv6, Hb2, %hG6⟩
  ihave Hx1 := (Entails.of_eq (show ((xM).view.loc (V d (cV L) (jV L)) ↦[(xSlot1).view.set]{fullShare} fx5 : sProp 𝕄)
      = ((xSlot1).view.loc (V d (cV L) (jV L)) ↦[(xSlot1).view.set]{fullShare} fx5) from rfl)) $$ Hx1
  sl_exec
  -- chunk 6: slot 0 of the index scratch has it; the loop looks its 2048 indices up
  have hfx6 : XHolds m d (cV L) (jV L) 0 6 (7 * (L 0).val + (L 1).val + 13) ((xSlot0).view.writes (Elt F) (xSlot0).view.junk [⟨Rect.whole S2048, tile_body_A.sl.dma0_12 m d L h1⟩]) := by
    unfold tile_body_A.sl.dma0_12
    exact xholds_landed (F := F) m d (cV L) (jV L) 0 6 (7 * (L 0).val + (L 1).val + 13) _ _ rfl _ _ (k1_off19_eq L) _
  generalize ((xSlot0).view.writes (Elt F) (xSlot0).view.junk [⟨Rect.whole S2048, tile_body_A.sl.dma0_12 m d L h1⟩]) = fx6 at hfx6 ⊢
  sl_for (gInv (F := F) d (cV L) (jV L) (xSlot0).view.set fx6 fsub (Good m d (cV L) (jV L) (L 0).val (L 1).val 6)) $$ [Hx0 Hb0 Hb2]
  case region =>
    intro k u
    unfold gInv
    iintro ⟨H6, H5, %f, H7, %hG⟩
    have hk : k.val < 128 := lt_of_lt_of_le k.isLt k1_t7_abs.2.1
    have hoffX : k1_off23 k = ![2048 * 0 + 16 * k.val] := by rw [k1_off23_eq, show 2048 * 0 + 16 * k.val = 16 * k.val by omega]
    have hoffV : k1_off24 k = ![16 * k.val] := k1_off24_eq k
    have hS6 : (xM).view.setOn (Rect.unit (s := S4096) (k1_off23 k) S16.size (k1_off23_inb L k h1)).toLoadRect.set ⊆ (xSlot0).view.set := by
      rw [set_xSlot0]; exact box_sub_slot 0 k.val _ _ hoffX hk
    have hin := chk_of_holds (F := F) m d (cV L) (jV L) 0 6 (7 * (L 0).val + (L 1).val + 13) k.val (by decide) (by decide) (by omega) hk hx _ (k1_off23_inb L k h1) hoffX fx6 hfx6
    have hP : k1_chk7 L (gIdx (F := F) d (cV L) (jV L) (k1_off23 k) (k1_off23_inb L k h1) fx6) := fun _ => hin
    ihave Hw := (wp_gTrip (F := F) d (cV L) (jV L) (k1_off23 k) (k1_off24 k) (k1_off23_inb L k h1) (k1_off24_inb L k h1) (k1_chk7 L) (k1_chk7.dec L)
        (fun v hw => k1_idx7_inb L v hw h1) (xSlot0).view.set fx6 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 6 0 k.val hc2 (by omega) (by decide) (by decide) hk hx _ _ _ _ hoffX hoffV fx6 fsub f (by have e : 7 * (L 0).val + (L 1).val + 13 = 13 + 7 * (L 0).val + (L 1).val := (by omega); rw [← e]; exact hfx6) hfsub hG _
  · unfold gInv
    isplitl [Hx0]; · iexact Hx0
    isplitl [Hb0]; · iexact Hb0
    iexists _; isplitl [Hb2]; · iexact Hb2
    ipureintro; intro t ht; exact absurd ht (by omega)
  iintro %_ HI
  unfold gInv
  icases HI with ⟨Hx0, Hb0, %fv7, Hb2, %hG7⟩
  ihave Hx0 := (Entails.of_eq (show ((xM).view.loc (V d (cV L) (jV L)) ↦[(xSlot0).view.set]{fullShare} fx6 : sProp 𝕄)
      = ((xSlot0).view.loc (V d (cV L) (jV L)) ↦[(xSlot0).view.set]{fullShare} fx6) from rfl)) $$ Hx0
  sl_exec
  -- chunk 7: slot 1 of the index scratch has it; the loop looks its 2048 indices up
  have hfx7 : XHolds m d (cV L) (jV L) 1 7 (7 * (L 0).val + (L 1).val + 13) ((xSlot1).view.writes (Elt F) (xSlot1).view.junk [⟨Rect.whole S2048, tile_body_A.sl.dma0_14 m d L h1⟩]) := by
    unfold tile_body_A.sl.dma0_14
    exact xholds_landed (F := F) m d (cV L) (jV L) 1 7 (7 * (L 0).val + (L 1).val + 13) _ _ rfl _ _ (k1_off22_eq L) _
  generalize ((xSlot1).view.writes (Elt F) (xSlot1).view.junk [⟨Rect.whole S2048, tile_body_A.sl.dma0_14 m d L h1⟩]) = fx7 at hfx7 ⊢
  sl_for (gInv (F := F) d (cV L) (jV L) (xSlot1).view.set fx7 fsub (Good m d (cV L) (jV L) (L 0).val (L 1).val 7)) $$ [Hx1 Hb0 Hb2]
  case region =>
    intro k u
    unfold gInv
    iintro ⟨H6, H5, %f, H7, %hG⟩
    have hk : k.val < 128 := lt_of_lt_of_le k.isLt k1_t8_abs.2.1
    have hoffX : k1_off25 k = ![2048 * 1 + 16 * k.val] := by rw [k1_off25_eq, show 2048 * 1 + 16 * k.val = 16 * k.val + 2048 by omega]
    have hoffV : k1_off26 k = ![16 * k.val] := k1_off26_eq k
    have hS6 : (xM).view.setOn (Rect.unit (s := S4096) (k1_off25 k) S16.size (k1_off25_inb L k h1)).toLoadRect.set ⊆ (xSlot1).view.set := by
      rw [set_xSlot1]; exact box_sub_slot 1 k.val _ _ hoffX hk
    have hin := chk_of_holds (F := F) m d (cV L) (jV L) 1 7 (7 * (L 0).val + (L 1).val + 13) k.val (by decide) (by decide) (by omega) hk hx _ (k1_off25_inb L k h1) hoffX fx7 hfx7
    have hP : k1_chk8 L (gIdx (F := F) d (cV L) (jV L) (k1_off25 k) (k1_off25_inb L k h1) fx7) := fun _ => hin
    ihave Hw := (wp_gTrip (F := F) d (cV L) (jV L) (k1_off25 k) (k1_off26 k) (k1_off25_inb L k h1) (k1_off26_inb L k h1) (k1_chk8 L) (k1_chk8.dec L)
        (fun v hw => k1_idx8_inb L v hw h1) (xSlot1).view.set fx7 fsub f hS6 hP) $$ [H6 H5 H7]
    · isplitl [H6]; · iexact H6
      isplitl [H5]; · iexact H5
      iexact H7
    iapply (wp_mono frame _ _ (fun _ => ?post)) $$ Hw
    case post =>
      iintro ⟨H6, H5, H7⟩
      isplitl [H6]; · iexact H6
      isplitl [H5]; · iexact H5
      iexists _; isplitl [H7]; · iexact H7
      ipureintro
      exact good_step (F := F) m d (cV L) (jV L) (L 0).val (L 1).val 7 1 k.val hc2 (by omega) (by decide) (by decide) hk hx _ _ _ _ hoffX hoffV fx7 fsub f (by have e : 7 * (L 0).val + (L 1).val + 13 = 13 + 7 * (L 0).val + (L 1).val := (by omega); rw [← e]; exact hfx7) hfsub hG _
  · unfold gInv
    isplitl [Hx1]; · iexact Hx1
    isplitl [Hb0]; · iexact Hb0
    iexists _; isplitl [Hb2]; · iexact Hb2
    ipureintro; intro t ht; exact absurd ht (by omega)
  iintro %_ HI
  unfold gInv
  icases HI with ⟨Hx1, Hb0, %fv8, Hb2, %hG8⟩
  ihave Hx1 := (Entails.of_eq (show ((xM).view.loc (V d (cV L) (jV L)) ↦[(xSlot1).view.set]{fullShare} fx7 : sProp 𝕄)
      = ((xSlot1).view.loc (V d (cV L) (jV L)) ↦[(xSlot1).view.set]{fullShare} fx7) from rfl)) $$ Hx1
  sl_exec
  have hG1' : Good m d (cV L) (jV L) (L 0).val (L 1).val 0 128 fv1 := by
    have e : Scf.trips k1_t1_loop.lb k1_t1_loop.ub k1_t1_loop.st = 128 := by decide
    rw [e] at hG1; exact hG1
  have hG2' : Good m d (cV L) (jV L) (L 0).val (L 1).val 1 128 fv2 := by
    have e : Scf.trips k1_t2_loop.lb k1_t2_loop.ub k1_t2_loop.st = 128 := by decide
    rw [e] at hG2; exact hG2
  have hG3' : Good m d (cV L) (jV L) (L 0).val (L 1).val 2 128 fv3 := by
    have e : Scf.trips k1_t3_loop.lb k1_t3_loop.ub k1_t3_loop.st = 128 := by decide
    rw [e] at hG3; exact hG3
  have hG4' : Good m d (cV L) (jV L) (L 0).val (L 1).val 3 128 fv4 := by
    have e : Scf.trips k1_t4_loop.lb k1_t4_loop.ub k1_t4_loop.st = 128 := by decide
    rw [e] at hG4; exact hG4
  have hG5' : Good m d (cV L) (jV L) (L 0).val (L 1).val 4 128 fv5 := by
    have e : Scf.trips k1_t5_loop.lb k1_t5_loop.ub k1_t5_loop.st = 128 := by decide
    rw [e] at hG5; exact hG5
  have hG6' : Good m d (cV L) (jV L) (L 0).val (L 1).val 5 128 fv6 := by
    have e : Scf.trips k1_t6_loop.lb k1_t6_loop.ub k1_t6_loop.st = 128 := by decide
    rw [e] at hG6; exact hG6
  have hG7' : Good m d (cV L) (jV L) (L 0).val (L 1).val 6 128 fv7 := by
    have e : Scf.trips k1_t7_loop.lb k1_t7_loop.ub k1_t7_loop.st = 128 := by decide
    rw [e] at hG7; exact hG7
  have hG8' : Good m d (cV L) (jV L) (L 0).val (L 1).val 7 128 fv8 := by
    have e : Scf.trips k1_t8_loop.lb k1_t8_loop.ub k1_t8_loop.st = 128 := by decide
    rw [e] at hG8; exact hG8
  ihave Hr0 := (Entails.of_eq (show (_ : sProp 𝕄) = (acc1Loc d (cT (cL L)) ↦[seg (N := 114688) (16384 * (jL L).val + 2048 * 0) 2048]{fullShare} ACC1 m d (cT (cL L))) from
      (pts_rowPiece (F := F) d L h1 0 _).trans (pointsTo_congr (by
        unfold tile_body_A.sl.dma0_3
        exact piece_landed (F := F) m d (cV L) (jV L) (cT (cL L)) (L 0).val (L 1).val 0 rfl (by omega) (by decide) _ _ (k1_off6_eq L 0) _ fv1 hG1')))) $$ Hr0
  ihave Hr1 := (Entails.of_eq (show (_ : sProp 𝕄) = (acc1Loc d (cT (cL L)) ↦[seg (N := 114688) (16384 * (jL L).val + 2048 * 1) 2048]{fullShare} ACC1 m d (cT (cL L))) from
      (pts_rowPiece (F := F) d L h1 1 _).trans (pointsTo_congr (by
        unfold tile_body_A.sl.dma0_5
        exact piece_landed (F := F) m d (cV L) (jV L) (cT (cL L)) (L 0).val (L 1).val 1 rfl (by omega) (by decide) _ _ (k1_off6_eq L 1) _ fv2 hG2')))) $$ Hr1
  ihave Hr2 := (Entails.of_eq (show (_ : sProp 𝕄) = (acc1Loc d (cT (cL L)) ↦[seg (N := 114688) (16384 * (jL L).val + 2048 * 2) 2048]{fullShare} ACC1 m d (cT (cL L))) from
      (pts_rowPiece (F := F) d L h1 2 _).trans (pointsTo_congr (by
        unfold tile_body_A.sl.dma0_7
        exact piece_landed (F := F) m d (cV L) (jV L) (cT (cL L)) (L 0).val (L 1).val 2 rfl (by omega) (by decide) _ _ (k1_off6_eq L 2) _ fv3 hG3')))) $$ Hr2
  ihave Hr3 := (Entails.of_eq (show (_ : sProp 𝕄) = (acc1Loc d (cT (cL L)) ↦[seg (N := 114688) (16384 * (jL L).val + 2048 * 3) 2048]{fullShare} ACC1 m d (cT (cL L))) from
      (pts_rowPiece (F := F) d L h1 3 _).trans (pointsTo_congr (by
        unfold tile_body_A.sl.dma0_9
        exact piece_landed (F := F) m d (cV L) (jV L) (cT (cL L)) (L 0).val (L 1).val 3 rfl (by omega) (by decide) _ _ (k1_off6_eq L 3) _ fv4 hG4')))) $$ Hr3
  ihave Hr4 := (Entails.of_eq (show (_ : sProp 𝕄) = (acc1Loc d (cT (cL L)) ↦[seg (N := 114688) (16384 * (jL L).val + 2048 * 4) 2048]{fullShare} ACC1 m d (cT (cL L))) from
      (pts_rowPiece (F := F) d L h1 4 _).trans (pointsTo_congr (by
        unfold tile_body_A.sl.dma0_11
        exact piece_landed (F := F) m d (cV L) (jV L) (cT (cL L)) (L 0).val (L 1).val 4 rfl (by omega) (by decide) _ _ (k1_off6_eq L 4) _ fv5 hG5')))) $$ Hr4
  ihave Hr5 := (Entails.of_eq (show (_ : sProp 𝕄) = (acc1Loc d (cT (cL L)) ↦[seg (N := 114688) (16384 * (jL L).val + 2048 * 5) 2048]{fullShare} ACC1 m d (cT (cL L))) from
      (pts_rowPiece (F := F) d L h1 5 _).trans (pointsTo_congr (by
        unfold tile_body_A.sl.dma0_13
        exact piece_landed (F := F) m d (cV L) (jV L) (cT (cL L)) (L 0).val (L 1).val 5 rfl (by omega) (by decide) _ _ (k1_off6_eq L 5) _ fv6 hG6')))) $$ Hr5
  ihave Hr6 := (Entails.of_eq (show (_ : sProp 𝕄) = (acc1Loc d (cT (cL L)) ↦[seg (N := 114688) (16384 * (jL L).val + 2048 * 6) 2048]{fullShare} ACC1 m d (cT (cL L))) from
      (pts_rowPiece (F := F) d L h1 6 _).trans (pointsTo_congr (by
        unfold tile_body_A.sl.dma0_15
        exact piece_landed (F := F) m d (cV L) (jV L) (cT (cL L)) (L 0).val (L 1).val 6 rfl (by omega) (by decide) _ _ (k1_off6_eq L 6) _ fv7 hG7')))) $$ Hr6
  ihave Hr7 := (Entails.of_eq (show (_ : sProp 𝕄) = (acc1Loc d (cT (cL L)) ↦[seg (N := 114688) (16384 * (jL L).val + 2048 * 7) 2048]{fullShare} ACC1 m d (cT (cL L))) from
      (pts_rowPiece (F := F) d L h1 7 _).trans (pointsTo_congr (by
        unfold tile_body_A.sl.dma0_16
        exact piece_landed (F := F) m d (cV L) (jV L) (cT (cL L)) (L 0).val (L 1).val 7 rfl (by omega) (by decide) _ _ (k1_off6_eq L 7) _ fv8 hG8')))) $$ Hr7
  -- the row at the looked-up values; the scratches and shares in the launch's spelling again
  ihave Hrow := (Entails.of_eq (row_split (F := F) d (cT (cL L)) (jL L).val (ACC1 m d (cT (cL L)))).symm) $$ [Hr0 Hr1 Hr2 Hr3 Hr4 Hr5 Hr6 Hr7]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  ihave Hb1 := (x_join (F := F) d (cV L) (jV L) _ _) $$ [Hx0 Hx1]
  · isplitl [Hx0]; · iexact Hx0
    iexact Hx1
  icases Hb1 with ⟨%f1', Hb1⟩
  ihave Hxt := (Entails.of_eq (pts_xt (F := F) d (cV L) (jV L) _ _)) $$ Hxt
  ihave Hwh := (Entails.of_eq (pts_wh (F := F) d (cV L) (jV L) _ _)) $$ Hwh
  ihave Hp0 := (Entails.of_eq (pts_poK (F := F) d L _)) $$ Hp0
  ihave Hb0 := (Entails.of_eq (pts_sub (F := F) d (cV L) (jV L) _)) $$ Hb0
  ihave Hb2 := (Entails.of_eq (pts_val (F := F) d (cV L) (jV L) _)) $$ Hb2
  ihave Hb3 := (Entails.of_eq (pts_red (F := F) d (cV L) (jV L) _)) $$ Hb3
  ihave Hb4 := (Entails.of_eq (pts_out (F := F) d (cV L) (jV L) _)) $$ Hb4
  ihave Hpay := (Entails.of_eq (show (acc1Loc d (cT (cL L)) ↦[seg (N := 114688) (16384 * (jL L).val) 16384]{fullShare} ACC1 m d (cT (cL L)) : sProp 𝕄) = _ from
      pays_row (F := F) m d (cV L) (jV L).val hs7)) $$ Hrow
  -- the waits recorded so far: all at index none
  ihave HOg := (gen_waits (F := F) _ _ _) $$ HO
  icases HOg with ⟨%W₁, %hW₁e, HO⟩
  have hW₁ : ∀ p ∈ W₁, p ∈ W ∨ p.2 = none := by
    subst hW₁e; intro p hp
    repeat (first | exact .inl hp | (rcases Finset.mem_insert.mp hp with e | hp; · exact .inr (by rw [e]; rfl)))
  clear hW₁e
  -- the barrier: the sixteen payloads handed over; its own round's seven column blocks received
  iapply (SparseCore.wp_subcoreBarrier 𝒱₀ none EB (bRd (F := F) m) d (sc := cV L) (i := jV L) sc_bar0 (grid1.bound 1) hsub1 (L 1) rfl κ (fun _ => 1) (jV L).val
      (fun j => bRd_mem m d _ _ _ (by decide)) (fun _ => rfl) (bRd_expect m d _ _ (by decide)) (some 1) O _) $$ [HO Htoks Hpay Hcred Hat]
  · isplitr; · iexact Hinv
    isplitl [HO]; · iexact HO
    isplitl [Htoks Hpay]
    · rw [bigSep_sep', bigSep_sep']
      isplitl [Htoks]; · iexact Htoks
      isplitl [Hpay]; · iexact Hpay
      iexact Hrch
    isplitl [Hcred]; · iexact Hcred
    isplitl [Hat]; · iexact Hat
    iapply ((K (F := F)).mayOwe_of_bound (thr := V d (cV L) (jV L)) 11 (fun p hp => by
        rw [Finset.mem_singleton] at hp; subst hp
        show (K (F := F)).lev (bcell d (cV L) (jV L)) (some 1) ≤ 11
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, Hrch1, Hgot⟩
  ihave Hcols := (pays_got m d (cV L) (jV L)) $$ Hgot
  icases Hcols with ⟨Hq0, Hq1, Hq2, Hq3, Hq4, Hq5, Hq6⟩
  -- each column block in two halves, the reduce scratch in seven windows, as the copies name them
  have l0 : 0 < 7 := by decide
  have l1 : 1 < 7 := by decide
  have l2 : 2 < 7 := by decide
  have l3 : 3 < 7 := by decide
  have l4 : 4 < 7 := by decide
  have l5 : 5 < 7 := by decide
  have l6 : 6 < 7 := by decide
  ihave Hh0 := (Entails.of_eq (acc_halves (F := F) d L 0 l0 _)) $$ Hq0
  icases Hh0 with ⟨Ha0, Hz0⟩
  ihave Hh1 := (Entails.of_eq (acc_halves (F := F) d L 1 l1 _)) $$ Hq1
  icases Hh1 with ⟨Ha1, Hz1⟩
  ihave Hh2 := (Entails.of_eq (acc_halves (F := F) d L 2 l2 _)) $$ Hq2
  icases Hh2 with ⟨Ha2, Hz2⟩
  ihave Hh3 := (Entails.of_eq (acc_halves (F := F) d L 3 l3 _)) $$ Hq3
  icases Hh3 with ⟨Ha3, Hz3⟩
  ihave Hh4 := (Entails.of_eq (acc_halves (F := F) d L 4 l4 _)) $$ Hq4
  icases Hh4 with ⟨Ha4, Hz4⟩
  ihave Hh5 := (Entails.of_eq (acc_halves (F := F) d L 5 l5 _)) $$ Hq5
  icases Hh5 with ⟨Ha5, Hz5⟩
  ihave Hh6 := (Entails.of_eq (acc_halves (F := F) d L 6 l6 _)) $$ Hq6
  icases Hh6 with ⟨Ha6, Hz6⟩
  ihave Hw := (Entails.of_eq (scr3_windows (F := F) d L f3)) $$ Hb3
  icases Hw with ⟨Hd0, Hd1, Hd2, Hd3, Hd4, Hd5, Hd6⟩
  haveI hst0 : ∀ t : Fin 7, BI.Storable (upEmb : UEmb _ 𝕄) (deliv (F := F) d L 0 (fun _ => ACC1 m d (cV L)) (fun _ => f3) t) :=
    fun t => deliv_storable (F := F) d L 0 _ _ t
  imod (Transfers.batch_alloc' (Lvl := ℕ) countersEmb (V d (cV L) (jV L)) (default : HIx 2) NW (deliv (F := F) d L 0 (fun _ => ACC1 m d (cV L)) (fun _ => f3))
    (sm := .dma cc1_scratch6.sem) (E := Set.univ)) $$ Hs6 with HB
  sl_exec
  -- the seven windows landed: the reduce scratch whole again, at one function
  ihave Hg := (windows_join (F := F) d L (fun n => landedJ (F := F) d L 0 n (ACC1 m d (cV L))) ) $$ [HB_dst0 HB_dst1 HB_dst2 HB_dst3 HB_dst4 HB_dst5 HB_dst6]
  · isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    iexact HB_dst6
  icases Hg with ⟨%g, %hg, Hg⟩
  ihave Hb4' := (Entails.of_eq (show ((V d (cV L) (jV L)).loc cc1_scratch4 ↦{fullShare} f4 : sProp 𝕄) = ((Memref.whole cc1_scratch4).view.loc (V d (cV L) (jV L)) ↦{fullShare} f4) from rfl)) $$ Hb4
  sl_for (invR (F := F) m d L 0 g) $$ [Hg Hb4']
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g (ValueIdx.ix1 (⟨512 * n.val + j, by have := n.isLt; omega⟩ : Fin 3584))
        = accAt (XT m d) (WH1 m d) 13 (cV L).val n.val (1024 * (L 1).val + 0 + j) := fun n j hj => hgv_of (F := F) m d L 0 g hg n j hj
    exact step_gen_1 d (cV L) (jV L) (XT m d) (WH1 m d) 13 (cV L).val (L 1).val 0 k.val hkt (by omega) k1_pay3
      (fun v0 v1 v2 v3 v4 v5 v6 l b h0 h1 h2 h3 h4 h5 h6 => pay3_partAt_k1 (XT m d) (WH1 m d) 13 (cV L).val b v0 v1 v2 v3 v4 v5 v6 l h0 h1 h2 h3 h4 h5 h6)
      g h _ _ ((Gen.k1_off32_eq k).trans (vec1 _ _ (by omega)))
      _ _ ((Gen.k1_off30_eq k).trans (vec1 _ _ (by omega)))
      _ _ ((Gen.k1_off31_eq k ⟨0, by decide⟩).trans (vec1 _ _ (by show 512 * 0 + 16 * k.val + 512 = 512 * 1 + 16 * k.val; omega)))
      _ _ ((Gen.k1_off31_eq k ⟨1, by decide⟩).trans (vec1 _ _ (by show 512 * 1 + 16 * k.val + 512 = 512 * 2 + 16 * k.val; omega)))
      _ _ ((Gen.k1_off31_eq k ⟨2, by decide⟩).trans (vec1 _ _ (by show 512 * 2 + 16 * k.val + 512 = 512 * 3 + 16 * k.val; omega)))
      _ _ ((Gen.k1_off31_eq k ⟨3, by decide⟩).trans (vec1 _ _ (by show 512 * 3 + 16 * k.val + 512 = 512 * 4 + 16 * k.val; omega)))
      _ _ ((Gen.k1_off31_eq k ⟨4, by decide⟩).trans (vec1 _ _ (by show 512 * 4 + 16 * k.val + 512 = 512 * 5 + 16 * k.val; omega)))
      _ _ ((Gen.k1_off31_eq k ⟨5, by decide⟩).trans (vec1 _ _ (by show 512 * 5 + 16 * k.val + 512 = 512 * 6 + 16 * k.val; omega)))
      hgv' hh
  · unfold invR
    isplitl [Hg]; · iexact Hg
    iexists f4
    isplitl [Hb4']; · iexact Hb4'
    ipureintro; intro k hk; exact absurd hk (by omega)
  iintro %_ HI
  unfold invR
  icases HI with ⟨Hg, ⟨%h1, Hh, %hh1⟩⟩
  -- the second batch: the other halves into the same seven windows
  ihave Hg' := (Entails.of_eq (show ((Memref.whole cc1_scratch3).view.loc (V d (cV L) (jV L)) ↦{fullShare} g : sProp 𝕄) = ((V d (cV L) (jV L)).loc cc1_scratch3 ↦{fullShare} g) from rfl)) $$ Hg
  ihave Hw2 := (Entails.of_eq (scr3_windows (F := F) d L g)) $$ Hg'
  icases Hw2 with ⟨He0, He1, He2, He3, He4, He5, He6⟩
  ihave HB' := (show (semVal ((V d (cV L) (jV L), SemLoc.dma cc1_scratch6.sem) : GSem nD τ sig) 0 : sProp 𝕄) ⊢ semVal ((V d (cV L) (jV L), SemLoc.dma cc1_scratch6.sem) : GSem nD τ sig) 0 from BI.Entails.refl _) $$ [HB]
  · iexact HB
  haveI hst1 : ∀ t : Fin 7, BI.Storable (upEmb : UEmb _ 𝕄) (deliv (F := F) d L 1 (fun _ => ACC1 m d (cV L)) (fun _ => g) t) :=
    fun t => deliv_storable (F := F) d L 1 _ _ t
  imod (Transfers.batch_alloc' (Lvl := ℕ) countersEmb (V d (cV L) (jV L)) (default : HIx 2) NW (deliv (F := F) d L 1 (fun _ => ACC1 m d (cV L)) (fun _ => g))
    (sm := .dma cc1_scratch6.sem) (E := Set.univ)) $$ HB' with HC
  sl_exec
  ihave Hg2J := (windows_join (F := F) d L (fun n => landedJ (F := F) d L 1 n (ACC1 m d (cV L)))) $$ [HC_dst0 HC_dst1 HC_dst2 HC_dst3 HC_dst4 HC_dst5 HC_dst6]
  · isplitl [HC_dst0]; · iexact HC_dst0
    isplitl [HC_dst1]; · iexact HC_dst1
    isplitl [HC_dst2]; · iexact HC_dst2
    isplitl [HC_dst3]; · iexact HC_dst3
    isplitl [HC_dst4]; · iexact HC_dst4
    isplitl [HC_dst5]; · iexact HC_dst5
    iexact HC_dst6
  icases Hg2J with ⟨%g2, %hg2, Hg2⟩
  sl_for (invR (F := F) m d L 512 g2) $$ [Hg2 Hh]
  case region =>
    intro k _
    unfold invR
    iintro ⟨Hg, ⟨%h, Hh, %hh⟩⟩
    sl_exec
    sl_step
    isplitl [Hg]; · iexact Hg
    iexists _
    isplitl [Hh]; · iexact Hh
    ipureintro
    have hkt : k.val < 32 := k.isLt
    have hgv' : ∀ (n : Fin 7) (j : Nat) (hj : j < 512), g2 (ValueIdx.ix1 (⟨512 * n.val + j, by have := n.isLt; omega⟩ : Fin 3584))
        = accAt (XT m d) (WH1 m d) 13 (cV L).val n.val (1024 * (L 1).val + 512 + j) := fun n j hj => hgv_of (F := F) m d L 1 g2 hg2 n j hj
    exact step_gen_1 d (cV L) (jV L) (XT m d) (WH1 m d) 13 (cV L).val (L 1).val 512 k.val hkt (by omega) k1_pay1
      (fun v0 v1 v2 v3 v4 v5 v6 l b h0 h1 h2 h3 h4 h5 h6 => pay1_partAt_k1 (XT m d) (WH1 m d) 13 (cV L).val b v0 v1 v2 v3 v4 v5 v6 l h0 h1 h2 h3 h4 h5 h6)
      g2 h _ _ ((Gen.k1_off35_eq k).trans (vec1 _ _ (by omega)))
      _ _ ((Gen.k1_off33_eq k).trans (vec1 _ _ (by omega)))
      _ _ ((Gen.k1_off34_eq k ⟨0, by decide⟩).trans (vec1 _ _ (by show 512 * 0 + 16 * k.val + 512 = 512 * 1 + 16 * k.val; omega)))
      _ _ ((Gen.k1_off34_eq k ⟨1, by decide⟩).trans (vec1 _ _ (by show 512 * 1 + 16 * k.val + 512 = 512 * 2 + 16 * k.val; omega)))
      _ _ ((Gen.k1_off34_eq k ⟨2, by decide⟩).trans (vec1 _ _ (by show 512 * 2 + 16 * k.val + 512 = 512 * 3 + 16 * k.val; omega)))
      _ _ ((Gen.k1_off34_eq k ⟨3, by decide⟩).trans (vec1 _ _ (by show 512 * 3 + 16 * k.val + 512 = 512 * 4 + 16 * k.val; omega)))
      _ _ ((Gen.k1_off34_eq k ⟨4, by decide⟩).trans (vec1 _ _ (by show 512 * 4 + 16 * k.val + 512 = 512 * 5 + 16 * k.val; omega)))
      _ _ ((Gen.k1_off34_eq k ⟨5, by decide⟩).trans (vec1 _ _ (by show 512 * 5 + 16 * k.val + 512 = 512 * 6 + 16 * k.val; omega)))
      hgv' hh
  · unfold invR
    isplitl [Hg2]; · iexact Hg2
    iexists h1
    isplitl [Hh]; · iexact Hh
    ipureintro; intro k hk; exact hh1 k (by show k.val < 0 + 16 * 32; omega)
  iintro %_ HI2
  unfold invR
  icases HI2 with ⟨Hg2, ⟨%h2, Hh, %hh2⟩⟩
  -- the write-out: the output scratch into the tile's 1024 entries of the result
  ihave Hp0' := (Entails.of_eq (pts_poK (F := F) d L _).symm) $$ Hp0
  sl_exec
  have hfull : ∀ k : Fin 1024, (show F .f32 from h2 (ValueIdx.ix1 k)) = partAt (XT m d) (WH1 m d) 13 (L 0).val (1024 * (L 1).val + k.val) :=
    fun k => hh2 k (by have := k.isLt; show k.val < 512 + 16 * 32; omega)
  ihave Hp0 := (Entails.of_eq (show (_ : sProp 𝕄) = (p1Loc d ↦[seg (N := 32768) (16384 * (cL L).val + 1024 * (jL L).val) 1024]{fullShare} PT1 m d) from
    (pts_poK (F := F) d L _).trans (pointsTo_congr (by exact out_landed (F := F) m d (cV L) (jV L) (L 0).val (L 1).val (L 0).isLt (L 1).isLt _ _ (k1_off36_eq L) _ h2 hfull)))) $$ Hp0'
  -- the column blocks whole again, the scratches as the launch names them
  ihave Hq0 := (Entails.of_eq (acc_halves (F := F) d L 0 l0 (ACC1 m d (cV L))).symm) $$ [HB_src0 HC_src0]
  · isplitl [HB_src0]; · iexact HB_src0
    iexact HC_src0
  ihave Hq1 := (Entails.of_eq (acc_halves (F := F) d L 1 l1 (ACC1 m d (cV L))).symm) $$ [HB_src1 HC_src1]
  · isplitl [HB_src1]; · iexact HB_src1
    iexact HC_src1
  ihave Hq2 := (Entails.of_eq (acc_halves (F := F) d L 2 l2 (ACC1 m d (cV L))).symm) $$ [HB_src2 HC_src2]
  · isplitl [HB_src2]; · iexact HB_src2
    iexact HC_src2
  ihave Hq3 := (Entails.of_eq (acc_halves (F := F) d L 3 l3 (ACC1 m d (cV L))).symm) $$ [HB_src3 HC_src3]
  · isplitl [HB_src3]; · iexact HB_src3
    iexact HC_src3
  ihave Hq4 := (Entails.of_eq (acc_halves (F := F) d L 4 l4 (ACC1 m d (cV L))).symm) $$ [HB_src4 HC_src4]
  · isplitl [HB_src4]; · iexact HB_src4
    iexact HC_src4
  ihave Hq5 := (Entails.of_eq (acc_halves (F := F) d L 5 l5 (ACC1 m d (cV L))).symm) $$ [HB_src5 HC_src5]
  · isplitl [HB_src5]; · iexact HB_src5
    iexact HC_src5
  ihave Hq6 := (Entails.of_eq (acc_halves (F := F) d L 6 l6 (ACC1 m d (cV L))).symm) $$ [HB_src6 HC_src6]
  · isplitl [HB_src6]; · iexact HB_src6
    iexact HC_src6
  ihave Hb3 := (Entails.of_eq (show ((Memref.whole cc1_scratch3).view.loc (V d (cV L) (jV L)) ↦{fullShare} g2 : sProp 𝕄) = ((V d (cV L) (jV L)).loc cc1_scratch3 ↦{fullShare} g2) from rfl)) $$ Hg2
  ihave Hb4 := (Entails.of_eq (show ((Memref.whole cc1_scratch4).view.loc (V d (cV L) (jV L)) ↦{fullShare} h2 : sProp 𝕄) = ((V d (cV L) (jV L)).loc cc1_scratch4 ↦{fullShare} h2) from rfl)) $$ Hh
  -- the waits recorded: all at index none, or the barrier's
  ihave HOg := (gen_waits (F := F) _ _ _) $$ HO
  icases HOg with ⟨%W₂, %hW₂e, HO⟩
  have hW₂ : ∀ p ∈ W₂, p ∈ W ∨ p.2 = none ∨ p.2 = some (1 : Fin 2) := by
    subst hW₂e; intro p hp
    repeat (first | exact (hW₁ p hp).imp_right Or.inl | (rcases Finset.mem_insert.mp hp with e | hp; · first | exact .inr (.inl (by rw [e]; rfl)) | exact .inr (.inr (by rw [e]))))
  sl_step
  iapply (post_intro' (F := F) m d L hF O W W₂ hW₂) $$ [Hxt Hwh Hp0 Hq0 Hq1 Hq2 Hq3 Hq4 Hq5 Hq6 Hat Hrch1 Hb0 Hb1 Hb2 Hb3 Hb4 Hbufs HC Hs7 Hs8 Hs9 Hc0 Hc1 Hc2 Hc3 Hc4 Hc5 Hc6 Hc7 Hc8 Hc9 Hc10 Hc11 Hc12 Hc13 Hc14 Hc15 Hc16 Hsems HO]
  isplitl [Hxt]; · iexact Hxt
  isplitl [Hwh]; · iexact Hwh
  isplitl [Hp0]; · iexact Hp0
  isplitl [Hq0 Hq1 Hq2 Hq3 Hq4 Hq5 Hq6]
  · isplitl [Hq0]; · iexists _; iexact Hq0
    isplitl [Hq1]; · iexists _; iexact Hq1
    isplitl [Hq2]; · iexists _; iexact Hq2
    isplitl [Hq3]; · iexists _; iexact Hq3
    isplitl [Hq4]; · iexists _; iexact Hq4
    isplitl [Hq5]; · iexists _; iexact Hq5
    iexists _; iexact Hq6
  isplitl [Hat]; · iexact Hat
  isplitl [Hrch1]; · iexact Hrch1
  isplitl [Hb0 Hb1 Hb2 Hb3 Hb4]
  · isplitl [Hb0]; · iexists _; iexact Hb0
    isplitl [Hb1]; · iexists _; iexact Hb1
    isplitl [Hb2]; · iexists _; iexact Hb2
    isplitl [Hb3]; · iexists _; iexact Hb3
    iexists _; iexact Hb4
  isplitl [Hbufs]; · iexact Hbufs
  isplitl [HC Hs7 Hs8 Hs9 Hc0 Hc1 Hc2 Hc3 Hc4 Hc5 Hc6 Hc7 Hc8 Hc9 Hc10 Hc11 Hc12 Hc13 Hc14 Hc15 Hc16]
  · isplitl [HC]; · iexact HC
    isplitl [Hs7]; · iexact Hs7
    isplitl [Hs8]; · iexact Hs8
    isplitl [Hs9]; · iexact Hs9
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    iexact Hc16
  isplitl [Hsems]; · iexact Hsems
  iexact HO

/-- The task on tile `(L 0, L 1)`: whichever of the three kinds of tile it is. -/
theorem tile_body (hx : InRange m) (hF : (K (F := F)).Facts) (O : CellTallies nD τ sig (HIx 2)) (W : Waits sig (HIx 2)) (hO : ∀ g, O g none = 0)
    (hOlev : ∀ g ι, 0 < O g ι → 8 * (1 : Fin 2).val + 6 ≤ (K (F := F)).lev g ι) :
    iprop(levAts (K (F := F)).L (K (F := F)).lev ∗ bkit m 1 d (cV L) (jV L) ∗ go1 m d (cL L) (jL L)
        ∗ scopedBufs (V d (cV L) (jV L)) ∗ scopedSems0 (V d (cV L) (jV L)) ∗ owes (V d (cV L) (jV L)) (O + oxV 1 d (cV L)) W)
      ⊢ wp frame (wpE (defs₀ (F := F)) 𝒱₀ (V d (cV L) (jV L)) none) Set.univ (prog1 (F := F) L)
          fun _ => iprop(td1 m d (cL L) (jL L) ∗ scopedBufs (V d (cV L) (jV L)) ∗ scopedSems0 (V d (cV L) (jV L))
            ∗ ∃ W', ⌜∀ p ∈ W', p ∈ W ∨ p.2 = none ∨ p.2 = some (1 : Fin 2)⌝ ∗ owes (V d (cV L) (jV L)) O W') := by
  by_cases h1 : k1_cond1 L = 1#1
  · exact tile_body_A m d L h1 hx hF O W hO hOlev
  · by_cases h2 : k1_cond2 L = 1#1
    · exact tile_body_B m d L h1 h2 hx hF O W hO hOlev
    · exact tile_body_C m d L h1 h2 hx hF O W hO hOlev

end Tile

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => prog1 (F := F) (coordsV c s)) ⟨⟩ c s := rfl

end T1

set_option maxRecDepth 16384 in
/-- Lookup 1's task obligation: every tile's task, from what the launch deals it to what it hands back. -/
theorem tileObl1 (hx : InRange m) (hF : (K (F := F)).Facts) : (K (F := F)).TileObl (D (F := F)) 𝒱 (P m) v₀ 1 := by
  intro d c i O W hO hOlev _
  have hci : ((K (F := F)).core 1 c).val < grid1.bound 0 ∧ ((K (F := F)).sub 1 i).val < grid1.bound 1 := ⟨c.isLt, i.isLt⟩
  change iprop(levAts _ _ ∗ bkit m 1 d ((K (F := F)).core 1 c) ((K (F := F)).sub 1 i) ∗ go1 m d (cN 1 c) (iN 1 i) ∗ _ ∗ _
      ∗ owes _ (O + oxV 1 d ((K (F := F)).core 1 c)) W) ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [T1.defs₀_vector]; simp only [SparseCore.onTile, hci, and_self, ↓reduceDIte]
  exact T1.tile_body m d (T1.coordsV ⟨_, hci.1⟩ ⟨_, hci.2⟩) hx hF O W hO hOlev

end Cert.Proof.KB

end
-- ==== Proof.KB.MainPieces.lean ====
import proofs.«207420_g80582176408339_cont_9to1c4b_743_56_alg».proof.Proof.KB.Common

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split held_congr wp_hlo_within after)

variable {F : FTy → Type}

local notation "𝕄" => MT nD τ sig (HIx 2) (Elt F) ℕ UU ℕ

/-! ## The TensorCore's arrays as device buffers -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)
abbrev v9' : DevRef τ sig := Proc.devRef .tc (main_v9 : Ref sig .tc)
abbrev v10' : DevRef τ sig := Proc.devRef .tc (main_v10 : Ref sig .tc)
abbrev v11' : DevRef τ sig := Proc.devRef .tc (main_v11 : Ref sig .tc)

/-- The TensorCore's fifteen arrays, all unscoped: the three arguments and the twelve values of @main. -/
abbrev S15 : Finset (DevRef τ sig) := {a0', a1', a2', v0', v1', v2', v3', v4', v5', v6', v7', v8', v9', v10', v11'}

theorem held_S15 (d : Dev nD) (W : Valuation τ sig (Elt F)) :
    (held (T d) S15 W : sProp 𝕄)
      = iprop(((SparseCore.T d).loc main_arg0 ↦{fullShare} W a0') ∗ ((SparseCore.T d).loc main_arg1 ↦{fullShare} W a1') ∗ ((SparseCore.T d).loc main_arg2 ↦{fullShare} W a2') ∗ ((SparseCore.T d).loc main_v0 ↦{fullShare} W v0') ∗ ((SparseCore.T d).loc main_v1 ↦{fullShare} W v1') ∗ ((SparseCore.T d).loc main_v2 ↦{fullShare} W v2') ∗ ((SparseCore.T d).loc main_v3 ↦{fullShare} W v3') ∗ ((SparseCore.T d).loc main_v4 ↦{fullShare} W v4') ∗ ((SparseCore.T d).loc main_v5 ↦{fullShare} W v5') ∗ ((SparseCore.T d).loc main_v6 ↦{fullShare} W v6') ∗ ((SparseCore.T d).loc main_v7 ↦{fullShare} W v7') ∗ ((SparseCore.T d).loc main_v8 ↦{fullShare} W v8') ∗ ((SparseCore.T d).loc main_v9 ↦{fullShare} W v9') ∗ ((SparseCore.T d).loc main_v10 ↦{fullShare} W v10') ∗ ((SparseCore.T d).loc main_v11 ↦{fullShare} W v11')) := by
  unfold held S15
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3 ↦{fullShare} W main_v3) ∗ ((SparseCore.T d).loc main_v4 ↦{fullShare} W main_v4) ∗ ((SparseCore.T d).loc main_v5 ↦{fullShare} W main_v5) ∗ ((SparseCore.T d).loc main_v6 ↦{fullShare} W main_v6) ∗ ((SparseCore.T d).loc main_v7 ↦{fullShare} W main_v7) ∗ ((SparseCore.T d).loc main_v8 ↦{fullShare} W main_v8) ∗ ((SparseCore.T d).loc main_v9 ↦{fullShare} W main_v9) ∗ ((SparseCore.T d).loc main_v10 ↦{fullShare} W main_v10) ∗ ((SparseCore.T d).loc main_v11 ↦{fullShare} W main_v11)) := by
  unfold unscopedBufs
  rw [show (Finset.univ.filter fun b : Ref sig .tc => ¬ b.isScoped) = {main_arg0, main_arg1, main_arg2, main_v0, main_v1, main_v2, main_v3, main_v4, main_v5, main_v6, main_v7, main_v8, main_v9, main_v10, main_v11} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The unscoped arrays at the contents a valuation gives them are the fifteen held whole under it. -/
theorem unscoped_held (d : Dev nD) (W : Valuation τ sig (Elt F)) :
    (unscopedBufs d (fun b => W (Proc.devRef .tc b)) : sProp 𝕄) = held (T d) S15 W := by
  rw [unscopedBufs_eq, held_S15]

/-! ## The host operations -/

variable [FloatOps F]

abbrev opT : HloOp τ sig (Elt F) :=
  StableHlo.unary main_arg0 main_v0 ((transpose S26x16384 [1, 0] · Gen.transposes_S16384x26_S26x16384_1_0) : (⟨S16384x26, .i32⟩ : BufTy).Contents (Elt F) → (⟨S26x16384, .i32⟩ : BufTy).Contents (Elt F))
abbrev opS0 : HloOp τ sig (Elt F) :=
  StableHlo.unary main_arg1 main_v1 ((extractStridedSlice S1300000x1 ![0, 0] · Gen.slices_S2600000x1_S1300000x1_0_0) : (⟨S2600000x1, .f32⟩ : BufTy).Contents (Elt F) → (⟨S1300000x1, .f32⟩ : BufTy).Contents (Elt F))
abbrev opR0 : HloOp τ sig (Elt F) := StableHlo.reshape main_v1 main_v2 rfl Gen.shapeCasts_S1300000x1_S1300000
abbrev opS1 : HloOp τ sig (Elt F) :=
  StableHlo.unary main_arg1 main_v3 ((extractStridedSlice S1300000x1 ![1300000, 0] · Gen.slices_S2600000x1_S1300000x1_1300000_0) : (⟨S2600000x1, .f32⟩ : BufTy).Contents (Elt F) → (⟨S1300000x1, .f32⟩ : BufTy).Contents (Elt F))
abbrev opR1 : HloOp τ sig (Elt F) := StableHlo.reshape main_v3 main_v4 rfl Gen.shapeCasts_S1300000x1_S1300000
abbrev opB : HloOp τ sig (Elt F) :=
  StableHlo.unary main_arg2 main_v5 (broadcastInDim S1x128 ![1] Gen.bcast_S1_S1x128_1 : (⟨S1, .f32⟩ : BufTy).Contents (Elt F) → (⟨S1x128, .f32⟩ : BufTy).Contents (Elt F))
abbrev opP0 : HloOp τ sig (Elt F) := StableHlo.reshape main_v6 main_v8 rfl Gen.shapeCasts_S32768_S2x128x128
abbrev opP1 : HloOp τ sig (Elt F) := StableHlo.reshape main_v7 main_v9 rfl Gen.shapeCasts_S32768_S2x128x128
abbrev opO : HloOp τ sig (Elt F) := StableHlo.reshape main_v10 main_v11 rfl Gen.shapeCasts_S128x128_S16384x1

theorem hT : (opT (F := F)).bufs ⊆ S15 := show ({a0', v0'} : Finset (DevRef τ sig)) ⊆ S15 by decide
theorem hS0 : (opS0 (F := F)).bufs ⊆ S15 := show ({a1', v1'} : Finset (DevRef τ sig)) ⊆ S15 by decide
theorem hR0 : (opR0 (F := F)).bufs ⊆ S15 := show ({v1', v2'} : Finset (DevRef τ sig)) ⊆ S15 by decide
theorem hS1 : (opS1 (F := F)).bufs ⊆ S15 := show ({a1', v3'} : Finset (DevRef τ sig)) ⊆ S15 by decide
theorem hR1 : (opR1 (F := F)).bufs ⊆ S15 := show ({v3', v4'} : Finset (DevRef τ sig)) ⊆ S15 by decide
theorem hB : (opB (F := F)).bufs ⊆ S15 := show ({a2', v5'} : Finset (DevRef τ sig)) ⊆ S15 by decide
theorem hP0 : (opP0 (F := F)).bufs ⊆ S15 := show ({v6', v8'} : Finset (DevRef τ sig)) ⊆ S15 by decide
theorem hP1 : (opP1 (F := F)).bufs ⊆ S15 := show ({v7', v9'} : Finset (DevRef τ sig)) ⊆ S15 by decide
theorem hO : (opO (F := F)).bufs ⊆ S15 := show ({v10', v11'} : Finset (DevRef τ sig)) ⊆ S15 by decide

variable (m : (ℓ : Loc nD τ sig) → Buf (Elt F) ℓ)

/-- The launch valuation, and the valuation after the six host operations before the first lookup. -/
def V0 (d : Dev nD) : Valuation τ sig (Elt F) := fun b => m (d, b)
def V6 (d : Dev nD) : Valuation τ sig (Elt F) := after [opT, opS0, opR0, opS1, opR1, opB] (V0 m d)

theorem V6_a0 (d : Dev nD) : V6 m d a0' = m (xLoc d) := by unfold V6; after_results_simp; rfl
theorem V6_a1 (d : Dev nD) : V6 m d a1' = m (wLoc d) := by unfold V6; after_results_simp; rfl
theorem V6_a2 (d : Dev nD) : V6 m d a2' = m (bLoc d) := by unfold V6; after_results_simp; rfl
theorem V6_v0 (d : Dev nD) : V6 m d v0' = XT m d := by unfold V6; after_results_simp; rfl
theorem V6_v2 (d : Dev nD) : V6 m d v2' = WH0 m d := by unfold V6; after_results_simp; rfl
theorem V6_v4 (d : Dev nD) : V6 m d v4' = WH1 m d := by unfold V6; after_results_simp; rfl
theorem V6_v5 (d : Dev nD) : V6 m d v5' = BR m d := by unfold V6; after_results_simp; rfl
theorem V6_v6 (d : Dev nD) : V6 m d v6' = m (p0Loc d) := by unfold V6; after_results_simp; rfl
theorem V6_v7 (d : Dev nD) : V6 m d v7' = m (p1Loc d) := by unfold V6; after_results_simp; rfl

end Cert.Proof.KB

end
-- ==== Proof.KB.MainCalls.lean ====
import proofs.«207420_g80582176408339_cont_9to1c4b_743_56_alg».proof.Proof.KB.MainPieces
import proofs.«207420_g80582176408339_cont_9to1c4b_743_56_alg».proof.Proof.KB.Segs

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.StableHlo (held held_split held_sdiff_result held_sub_split held_congr wp_hlo_within after)

variable {F : FTy → Type}

local notation "𝕄" => MT nD τ sig (HIx 2) (Elt F) ℕ UU ℕ

variable [FloatOps F] (m : (ℓ : Loc nD τ sig) → Buf (Elt F) ℓ)

/-! ## A lookup's result among the two SparseCores -/

theorem halves_disjoint : ∀ t ∈ (Finset.univ : Finset (Fin 2)), ∀ t' ∈ (Finset.univ : Finset (Fin 2)), t ≠ t' →
    Disjoint (seg (N := 32768) (16384 * t.val) 16384) (seg (N := 32768) (16384 * t'.val) 16384) := by
  have h := seg_parts_disjoint (N := 32768) (lo := 0) (len := 16384) (k := 2)
  simp only [Nat.zero_add] at h; exact h

theorem halves_cover : (Finset.univ : Finset (Fin 2)).biUnion (fun c => seg (N := 32768) (16384 * c.val) 16384) = Finset.univ := by
  have h := seg_parts (N := 32768) 0 16384 2
  simp only [Nat.zero_add] at h; rw [h]; exact seg_univ

/-- A lookup's result whole is SparseCore 0's 16384 entries and SparseCore 1's. -/
theorem p0_halves (d : Dev nD) (f : Buf (Elt F) (p0Loc d)) :
    (p0Loc d ↦{fullShare} f : sProp 𝕄) = bigSep Finset.univ fun c : Fin 2 => p0Loc d ↦[seg (N := 32768) (16384 * c.val) 16384]{fullShare} f := by
  rw [← pointsTo_biUnion Finset.univ (ℓ := p0Loc d) (fun c : Fin 2 => seg (N := 32768) (16384 * c.val) 16384) halves_disjoint, halves_cover]; try rfl
theorem p1_halves (d : Dev nD) (f : Buf (Elt F) (p1Loc d)) :
    (p1Loc d ↦{fullShare} f : sProp 𝕄) = bigSep Finset.univ fun c : Fin 2 => p1Loc d ↦[seg (N := 32768) (16384 * c.val) 16384]{fullShare} f := by
  rw [← pointsTo_biUnion Finset.univ (ℓ := p1Loc d) (fun c : Fin 2 => seg (N := 32768) (16384 * c.val) 16384) halves_disjoint, halves_cover]; try rfl

/-! ## What the TensorCore hands the two SparseCores at each lookup, and gets back -/

/-- Every tile's standing on its barrier cell after lookup 0, both SparseCores'. -/
def bposAll (d : Dev nD) : sProp 𝕄 := bigSep Finset.univ fun c : Fin 2 => bigSep Finset.univ fun i : Fin 16 => bpos (F := F) d (cT c) (jt i)

theorem st0_eq (d : Dev nD) :
    (bigSep Finset.univ fun c : Fin ((K (F := F)).nCore 0) => (P m).st 0 d c)
      = iprop((bigSep Finset.univ fun c : Fin 2 => xtLoc d ↦{shC c} XT m d) ∗ (bigSep Finset.univ fun c : Fin 2 => w0Loc d ↦{shC c} WH0 m d)
          ∗ bigSep Finset.univ fun c : Fin 2 => p0Loc d ↦[seg (N := 32768) (16384 * c.val) 16384]{fullShare} m (p0Loc d)) := by
  show (bigSep Finset.univ fun c : Fin 2 => st0 m d c) = _
  unfold st0
  rw [bigSep_sep', bigSep_sep']
theorem dn0_eq (d : Dev nD) :
    (bigSep Finset.univ fun c : Fin ((K (F := F)).nCore 0) => (P m).dn 0 d c)
      = iprop((bigSep Finset.univ fun c : Fin 2 => xtLoc d ↦{shC c} XT m d) ∗ (bigSep Finset.univ fun c : Fin 2 => w0Loc d ↦{shC c} WH0 m d)
          ∗ (bigSep Finset.univ fun c : Fin 2 => p0Loc d ↦[seg (N := 32768) (16384 * c.val) 16384]{fullShare} PT0 m d) ∗ bposAll (F := F) d) := by
  show (bigSep Finset.univ fun c : Fin 2 => dn0 m d c) = _
  unfold dn0 bposAll
  rw [bigSep_sep', bigSep_sep', bigSep_sep']
theorem st1_eq (d : Dev nD) :
    (bigSep Finset.univ fun c : Fin ((K (F := F)).nCore 1) => (P m).st 1 d c)
      = iprop((bigSep Finset.univ fun c : Fin 2 => xtLoc d ↦{shC c} XT m d) ∗ (bigSep Finset.univ fun c : Fin 2 => w1Loc d ↦{shC c} WH1 m d)
          ∗ (bigSep Finset.univ fun c : Fin 2 => p1Loc d ↦[seg (N := 32768) (16384 * c.val) 16384]{fullShare} m (p1Loc d)) ∗ bposAll (F := F) d) := by
  show (bigSep Finset.univ fun c : Fin 2 => st1 m d c) = _
  unfold st1 bposAll
  rw [bigSep_sep', bigSep_sep', bigSep_sep']
theorem dn1_eq (d : Dev nD) :
    (bigSep Finset.univ fun c : Fin ((K (F := F)).nCore 1) => (P m).dn 1 d c)
      = iprop((bigSep Finset.univ fun c : Fin 2 => xtLoc d ↦{shC c} XT m d) ∗ (bigSep Finset.univ fun c : Fin 2 => w1Loc d ↦{shC c} WH1 m d)
          ∗ bigSep Finset.univ fun c : Fin 2 => p1Loc d ↦[seg (N := 32768) (16384 * c.val) 16384]{fullShare} PT1 m d) := by
  show (bigSep Finset.univ fun c : Fin 2 => dn1 m d c) = _
  unfold dn1
  rw [bigSep_sep', bigSep_sep']

end Cert.Proof.KB

end
-- ==== Proof.KB.MainBody.lean ====
import proofs.«207420_g80582176408339_cont_9to1c4b_743_56_alg».proof.Proof.KB.MainPieces

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result held_sub_split held_congr wp_hlo_within after)
open Idealize.ShloMosaic.Pipeline (Dat Cfg Window BodyObligation BodyObligationLoose cellOf)

variable {F : FTy → Type} [FloatOps F]

local notation "𝕄" => MT nD τ sig (HIx 2) (Elt F) ℕ UU ℕ

/-! ## The TensorCore kernel's body -/

/-- The two halves of a partial-sum array as the body loads them. -/
abbrev rcLo : LoadRect S2x128x128 := (Rect.unit (s := S2x128x128) ![0, 0, 0] S1x128x128.size Gen.inb_S2x128x128_S1x128x128_0_0_0).toLoadRect
abbrev rcHi : LoadRect S2x128x128 := (Rect.unit (s := S2x128x128) ![1, 0, 0] S1x128x128.size Gen.inb_S2x128x128_S1x128x128_1_0_0).toLoadRect

/-- What the body stores, from the contents of its three operands' buffers: the four halves added in order, then the bias
    row broadcast over the rows. -/
def bodyOut (X0 X1 : S2x128x128.Idx → Elt F .f32) (X2 : S1x128.Idx → Elt F .f32) : S128x128.Idx → Elt F .f32 :=
  k2_pay1 ((stage2_0 0).view.readAt (Elt F) rcLo X0) ((stage2_0 0).view.readAt (Elt F) rcHi X0)
    ((stage2_1 0).view.readAt (Elt F) rcLo X1) ((stage2_1 0).view.readAt (Elt F) rcHi X1) X2

/-- The body on the four staging buffers: five loads of the operands (the bias row whole, each partial-sum array's two
    halves), the sum, a load of the result's buffer nothing reads, the store of the sum over the whole of it. -/
theorem tc_body (c : Dev nD) (E : Set ℕ) (X0 X1 : S2x128x128.Idx → Elt F .f32) (X2 : S1x128.Idx → Elt F .f32) (X3 : S128x128.Idx → Elt F .f32)
    (Kp : PUnit → sProp 𝕄) :
    iprop((owns (c : Thread nD τ) (stage2_0 0) fullShare X0 ∗ owns (c : Thread nD τ) (stage2_1 0) fullShare X1
            ∗ owns (c : Thread nD τ) (stage2_2 0) fullShare X2 ∗ owns (c : Thread nD τ) (stage2_3 0) fullShare X3)
          ∗ (iprop(owns (c : Thread nD τ) (stage2_0 0) fullShare X0 ∗ owns (c : Thread nD τ) (stage2_1 0) fullShare X1
                  ∗ owns (c : Thread nD τ) (stage2_2 0) fullShare X2 ∗ owns (c : Thread nD τ) (stage2_3 0) fullShare (bodyOut X0 X1 X2)) -∗ Kp ⟨⟩))
      ⊢ wp frame (wpE (defs₀ (F := F)) 𝒱₀ c none) E
          (cc2__tc_body (stage2_0 0) (hstage2_0 0) (stage2_1 0) (hstage2_1 0) (stage2_2 0) (hstage2_2 0) (stage2_3 0) (hstage2_3 0)) Kp := by
  have hz : (![0, 0] : Fin 2 → Nat) = fun _ => 0 := funext fun a => by fin_cases a <;> rfl
  have hr2 : (stage2_2 0 : Memref sig .tc _ _ _).view.readAt (Elt F) (Rect.unit (s := S1x128) ![0, 0] S1x128.size
      Gen.inb_S1x128_S1x128_0_0).toLoadRect = id := funext (Memref.readAt_unit_zero (Elt F) cc2_stg2_0 hz _)
  have hw3 : ∀ f w, (((stage2_3 0).access (Rect.unit (s := S128x128) ![0, 0] S128x128.size Gen.inb_S128x128_S128x128_0_0)) :
      View sig .tc _ _ _).write (Elt F) f w Finset.univ = w := Memref.write_access_unit_zero_univ (Elt F) cc2_stg3_0 hz _
  simp only [owns_whole_eq, cc2__tc_body_eq_skeleton]; unfold cc2__tc_body_skel
  simp only [Prog.lift, Prog.bind_op, Prog.bind_ret]
  iintro ⟨⟨⟨%f0, %hf0, H0⟩, ⟨%f1, %hf1, H1⟩, ⟨%f2, %hf2, H2⟩, ⟨%f3, %hf3, H3⟩⟩, Hk⟩
  sl_steps
  iapply Hk
  rw [hr2, hw3]
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  · iexists _; isplitr
    swap; · iexact H3
    ipureintro; rw [hf0, hf1, hf2]; rfl

end Cert.Proof.KB

end
-- ==== Proof.KB.MainRegion.lean ====
import proofs.«207420_g80582176408339_cont_9to1c4b_743_56_alg».proof.Proof.KB.MainBody

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result held_sub_split held_congr wp_hlo_within after)
open Idealize.ShloMosaic.Pipeline (Dat Cfg Window BodyObligation BodyObligationLoose cellOf)

variable {F : FTy → Type} [FloatOps F]

local notation "𝕄" => MT nD τ sig (HIx 2) (Elt F) ℕ UU ℕ

/-
  The TensorCore's own kernel inside the SparseCore program: one pipelined call of one grid point, every window whole.
  The pipeline fetches the two lookups' recast results and the bias row into their staging buffers, the body adds
  the four pages and the bias row into the result's staging buffer, the pipeline writes that back. So the region
  takes the TensorCore's arrays from a valuation `V` to `V` with the result array at the body's sum of the three
  operand arrays, and leaves everything else — the other eleven arrays, what the core owes — as it found it.
-/
/-! ## The pipeline's proof data -/

/-- The one pipeline's tables: it has none. -/
abbrev adm : (p : Fin 1) → (pcfgs (F := F) p).Adm := fun p => (cfgs p).toPCfg_adm

variable (W : Dev nD → Valuation τ sig (Elt F))

/-- The TensorCore's arrays as the region finds them. -/
abbrev VW (c : Dev nD) (b : Ref sig .tc) : Buf (Elt F) ((c : Thread nD τ).loc b) := W c (Proc.devRef .tc b)

/-- The proof data: the arrays at the valuation's contents; after the body each operand's staging buffer at its whole
    array and the result's at the sum; no invariant; nothing owed; the recorded pairs those the calls before left (at or
    below the second call's levels). -/
def dat (c : Dev nD) : Dat τ (Elt F) (HIx 2) ℕ UU ℕ cfg2 c where
  A w := VW W c (Pipeline.arrRef spec2 w)
  after w t := match w with
    | ⟨0, _⟩ => W c v8'
    | ⟨1, _⟩ => W c v9'
    | ⟨2, _⟩ => W c v5'
    | ⟨3, _⟩ => bodyOut (W c v8') (W c v9') (W c v5')
  Φ _ := iprop(emp)
  q _ := fullShare
  owed _ := 0
  recorded _ := {p | (K (F := F)).lev ((c : Thread nD τ), p.1) p.2 ≤ 16}

theorem before_0 (c : Dev nD) (t : Fin cfg2.N) (d) : (dat W c).before 0 t d = W c v8' := by
  unfold Dat.before; rw [if_pos (fetch2_0 t)]
  unfold Dat.fetched Dat.blockOf
  refine Eq.trans ?_ (Memref.read_access_unit_zero (Elt F) main_v8 (off := fun a => (cfg2.win 0).index t a * (cfg2.win 0).size a)
    (funext fun a => Nat.zero_mul _) (fun a => Pipeline.Clip.inb ((cfg2.win 0).hclip (cfg2.grid.coords t) a)) (W c v8'))
  rfl
theorem before_1 (c : Dev nD) (t : Fin cfg2.N) (d) : (dat W c).before 1 t d = W c v9' := by
  unfold Dat.before; rw [if_pos (fetch2_1 t)]
  unfold Dat.fetched Dat.blockOf
  refine Eq.trans ?_ (Memref.read_access_unit_zero (Elt F) main_v9 (off := fun a => (cfg2.win 1).index t a * (cfg2.win 1).size a)
    (funext fun a => Nat.zero_mul _) (fun a => Pipeline.Clip.inb ((cfg2.win 1).hclip (cfg2.grid.coords t) a)) (W c v9'))
  rfl
theorem before_2 (c : Dev nD) (t : Fin cfg2.N) (d) : (dat W c).before 2 t d = W c v5' := by
  unfold Dat.before; rw [if_pos (fetch2_2 t)]
  unfold Dat.fetched Dat.blockOf
  refine Eq.trans ?_ (Memref.read_access_unit_zero (Elt F) main_v5 (off := fun a => (cfg2.win 2).index t a * (cfg2.win 2).size a)
    (funext fun a => Nat.zero_mul _) (fun a => Pipeline.Clip.inb ((cfg2.win 2).hclip (cfg2.grid.coords t) a)) (W c v5'))
  rfl
theorem before_3 (c : Dev nD) (t : Fin cfg2.N) (d) : (dat W c).before 3 t d = d := by
  obtain rfl := fin_N2 t
  unfold Dat.before
  rw [if_neg (show ¬((cfg2.win 3).fetch t2_0 = true) by decide)]
  rfl

/-! ## The body obligation -/

theorem body_obligation (c : Dev nD) : BodyObligation (dat (F := F) W c) (defs₀ (F := F)) 𝒱₀ (none : HIx 2) Set.univ := fun t => by
  rw [bigSep_W2, bigSep_W2]
  show iprop((dat W c).Φ t.castSucc ∗ (dat W c).owesAt none t.castSucc
      ∗ (∃ d, owns (c : Thread nD τ) (stage2_0 0) fullShare ((dat W c).before 0 t d))
      ∗ (∃ d, owns (c : Thread nD τ) (stage2_1 0) fullShare ((dat W c).before 1 t d))
      ∗ (∃ d, owns (c : Thread nD τ) (stage2_2 0) fullShare ((dat W c).before 2 t d))
      ∗ (∃ d, owns (c : Thread nD τ) (stage2_3 0) fullShare ((dat W c).before 3 t d)))
    ⊢ wp frame (wpE (defs₀ (F := F)) 𝒱₀ c none) Set.univ (bodyAt2 t) fun _ =>
      iprop((dat W c).Φ t.succ ∗ (dat W c).owesAt none t.succ
        ∗ owns (c : Thread nD τ) (stage2_0 0) fullShare (W c v8')
        ∗ owns (c : Thread nD τ) (stage2_1 0) fullShare (W c v9')
        ∗ owns (c : Thread nD τ) (stage2_2 0) fullShare (W c v5')
        ∗ owns (c : Thread nD τ) (stage2_3 0) fullShare (bodyOut (W c v8') (W c v9') (W c v5')))
  simp only [before_0, before_1, before_2, before_3]
  rw [show (dat W c).Φ t.succ = (dat W c).Φ t.castSucc from rfl, show (dat W c).owesAt none t.succ = (dat W c).owesAt none t.castSucc from rfl]
  iintro ⟨HΦ, HO, ⟨%d0, H0⟩, ⟨%d1, H1⟩, ⟨%d2, H2⟩, ⟨%d3, H3⟩⟩
  iapply (tc_body c Set.univ (W c v8') (W c v9') (W c v5') d3)
  isplitl [H0 H1 H2 H3]
  · isplitl [H0]; · iexact H0
    isplitl [H1]; · iexact H1
    isplitl [H2] <;> iassumption
  iintro ⟨H0, H1, H2, H3⟩
  isplitl [HΦ]; · iexact HΦ
  isplitl [HO]; · iexact HO
  isplitl [H0]; · iexact H0
  isplitl [H1]; · iexact H1
  isplitl [H2] <;> iassumption

/-! ## The region -/

/-- After the region: the result array at the body's sum of the three operand arrays. -/
def WR (V : Valuation τ sig (Elt F)) : Valuation τ sig (Elt F) := Function.update V v10' (bodyOut (V v8') (V v9') (V v5'))

/-- The one pipeline's proof data on every device. -/
def pdats : (p : Fin 1) → (c : Dev nD) → Dat τ (Elt F) (HIx 2) ℕ UU ℕ (Pipeline.pin (pcfgs (F := F)) adm p) c := fun _ c => dat W c

theorem bigSep_F0 {M : Type} [URA M] (Φ : Fin 0 → sProp M) : bigSep Finset.univ Φ = (BI.emp : sProp M) :=
  bigSep_univ_eq_bigSepL [] (by decide) (by decide) Φ

theorem prefHeld_emp (c : Dev nD) (q) (pf) :
    (Pipeline.prefHeld (Ix := HIx 2) (Name := ℕ) (U := UU) (Lvl := ℕ) (Val := Elt F) (pcfgs (F := F) 0).pre c q pf : sProp 𝕄) = BI.emp :=
  bigSep_F0 _

theorem share_full (c : Dev nD) (w : Fin cfg2.W) : (dat W c).share w = fullShare := (dat W c).share_full (fun _ => rfl) w

/-- What the TensorCore owes and has recorded between its calls and its own kernel: nothing owed, every recorded pair at
    or below the second call's levels. -/
abbrev tcOwes (c : Dev nD) : sProp 𝕄 :=
  iprop(∃ Wt, ⌜(K (F := F)).WBelow (T c) Wt 16⌝ ∗ owes (T c) (0 : CellTallies nD τ sig (HIx 2)) Wt)

theorem owesAt_intro (c : Dev nD) (t : Fin (cfg2.N + 1)) : tcOwes (F := F) c ⊢ ((dat W c).owesAt none t : sProp 𝕄) := by
  unfold Pipeline.Dat.owesAt Pipeline.owesWithin Pipeline.Dat.bound
  iintro ⟨%Wt, %hW, HO⟩
  iexists Wt; isplitr
  · ipureintro; exact fun p hp => Or.inl (hW p (Finset.mem_coe.mp hp))
  iexact HO

theorem owesAt_elim (c : Dev nD) (t : Fin (cfg2.N + 1)) : ((dat W c).owesAt none t : sProp 𝕄) ⊢ tcOwes (F := F) c := by
  unfold Pipeline.Dat.owesAt Pipeline.owesWithin Pipeline.Dat.bound
  iintro ⟨%Wt, %hW, HO⟩
  iexists Wt; isplitr
  · ipureintro
    intro p hp
    rcases hW (Finset.mem_coe.mpr hp) with h | ⟨w, s, rfl⟩
    · exact h
    · exact Nat.zero_le _
  iexact HO

theorem WR_a0 (V : Valuation τ sig (Elt F)) : WR V a0' = V a0' := Function.update_of_ne (show a0' ≠ v10' by decide) _ _
theorem WR_a1 (V : Valuation τ sig (Elt F)) : WR V a1' = V a1' := Function.update_of_ne (show a1' ≠ v10' by decide) _ _
theorem WR_a2 (V : Valuation τ sig (Elt F)) : WR V a2' = V a2' := Function.update_of_ne (show a2' ≠ v10' by decide) _ _
theorem WR_v0 (V : Valuation τ sig (Elt F)) : WR V v0' = V v0' := Function.update_of_ne (show v0' ≠ v10' by decide) _ _
theorem WR_v1 (V : Valuation τ sig (Elt F)) : WR V v1' = V v1' := Function.update_of_ne (show v1' ≠ v10' by decide) _ _
theorem WR_v2 (V : Valuation τ sig (Elt F)) : WR V v2' = V v2' := Function.update_of_ne (show v2' ≠ v10' by decide) _ _
theorem WR_v3 (V : Valuation τ sig (Elt F)) : WR V v3' = V v3' := Function.update_of_ne (show v3' ≠ v10' by decide) _ _
theorem WR_v4 (V : Valuation τ sig (Elt F)) : WR V v4' = V v4' := Function.update_of_ne (show v4' ≠ v10' by decide) _ _
theorem WR_v5 (V : Valuation τ sig (Elt F)) : WR V v5' = V v5' := Function.update_of_ne (show v5' ≠ v10' by decide) _ _
theorem WR_v6 (V : Valuation τ sig (Elt F)) : WR V v6' = V v6' := Function.update_of_ne (show v6' ≠ v10' by decide) _ _
theorem WR_v7 (V : Valuation τ sig (Elt F)) : WR V v7' = V v7' := Function.update_of_ne (show v7' ≠ v10' by decide) _ _
theorem WR_v8 (V : Valuation τ sig (Elt F)) : WR V v8' = V v8' := Function.update_of_ne (show v8' ≠ v10' by decide) _ _
theorem WR_v9 (V : Valuation τ sig (Elt F)) : WR V v9' = V v9' := Function.update_of_ne (show v9' ≠ v10' by decide) _ _
theorem WR_v11 (V : Valuation τ sig (Elt F)) : WR V v11' = V v11' := Function.update_of_ne (show v11' ≠ v10' by decide) _ _
theorem WR_v10 (V : Valuation τ sig (Elt F)) : WR V v10' = bodyOut (V v8') (V v9') (V v5') := Function.update_self _ _ _

/-- The result array after the one write-back: the body's sum, whole. -/
theorem arrAt_out (c : Dev nD) : (dat W c).arrAt (3 : Fin 4) cfg2.N = bodyOut (W c v8') (W c v9') (W c v5') := by
  rw [show cfg2.N = t2_0.val + 1 from rfl, (dat W c).arrAt_succ 3 t2_0, if_pos (flush2_3 _)]
  refine Eq.trans ?_ (Memref.write_access_unit_zero_univ (Elt F) main_v10 (off := fun a => (cfg2.win 3).index t2_0 a * (cfg2.win 3).size a)
    (funext fun a => Nat.zero_mul _) (fun a => Pipeline.Clip.inb ((cfg2.win 3).hclip (cfg2.grid.coords t2_0) a)) ((dat W c).arrAt 3 t2_0.val)
    (bodyOut (W c v8') (W c v9') (W c v5')))
  rfl
/-- The operand arrays are never written. -/
theorem arrAt_in0 (c : Dev nD) : (dat W c).arrAt (0 : Fin 4) cfg2.N = W c v8' := (dat W c).arrAt_in 0 rfl _
theorem arrAt_in1 (c : Dev nD) : (dat W c).arrAt (1 : Fin 4) cfg2.N = W c v9' := (dat W c).arrAt_in 1 rfl _
theorem arrAt_in2 (c : Dev nD) : (dat W c).arrAt (2 : Fin 4) cfg2.N = W c v5' := (dat W c).arrAt_in 2 rfl _

/-! ## The region's four entailments -/

/-- ENTRY: the fifteen arrays are the four the pipeline moves and the eleven that bypass it. -/
theorem reg_hentry (c : Dev nD) :
    iprop(iprop(held (T c) S15 (W c) ∗ tcOwes (F := F) c) ∗ Pipeline.ownSems0 (fun k : PEmpty => k.elim) c ∗ levAts (K (F := F)).L (K (F := F)).lev)
      ⊢ |={Set.univ}=> iprop((dat W c).arrays ((dat W c).arrAt · 0) ∗ Pipeline.prefHeld (pcfgs (F := F) 0).pre c (fun _ => fullShare) (adm (F := F) 0).1
          ∗ (dat W c).owesAt none 0 ∗ iprop(emp) ∗ Pipeline.unscopedRest spec2 c (VW W c)) := by
  rw [Pipeline.ownSems0_none, ← unscoped_held, prefHeld_emp]
  iintro ⟨⟨Hu, HO⟩, -, -⟩
  ihave H := (Pipeline.arrays_of_unscopedBufs (pcfgs (F := F)) adm (pdats W) (p := 0) winFacts2 arr_whole2 c (share_full W c) (VW W c) (fun _ => rfl)) $$ Hu
  icases H with ⟨Harr, Hrest⟩
  imodintro
  isplitl [Harr]; · iexact Harr
  isplitr; · iempintro
  isplitl [HO]; · iapply (owesAt_intro W c 0); iexact HO
  isplitr; · iempintro
  iexact Hrest

theorem reg_hout (c : Dev nD) :
    ((dat W c).Φ (Fin.last cfg2.N) : sProp 𝕄) ⊢ iprop(iprop(emp) ∗ Pipeline.ownSems0 (fun k : PEmpty => k.elim) c ∗ Pipeline.scopedRest spec2 c) := by
  rw [Pipeline.ownSems0_none, scopedRest2_eq]
  iintro -
  isplitr; · iempintro
  isplitr <;> iempintro

set_option maxHeartbeats 1000000 in
/-- EXIT: the operand arrays as they were, the result array at the body's sum, the eleven others: the fifteen again. -/
theorem reg_hexit (c : Dev nD) :
    iprop((dat W c).arrays ((dat W c).arrAt · cfg2.N) ∗ (dat W c).owesAt none (Fin.last cfg2.N) ∗ iprop(emp) ∗ Pipeline.unscopedRest spec2 c (VW W c))
      ⊢ |={Set.univ}=> iprop(held (T c) S15 (WR (W c)) ∗ tcOwes (F := F) c) := by
  rw [Pipeline.arrays_eq cfgs (fun _ c => dat W c) 0 c arr_whole2 (share_full W c), bigSep_W2, unscopedRest2_eq, held_S15]
  rw [WR_a0, WR_a1, WR_a2, WR_v0, WR_v1, WR_v2, WR_v3, WR_v4, WR_v5, WR_v6, WR_v7, WR_v8, WR_v9, WR_v11, WR_v10,
    arrAt_in0 W c, arrAt_in1 W c, arrAt_in2 W c, arrAt_out W c]
  iintro ⟨⟨Hv8, Hv9, Hv5, Hv10⟩, HO, -, Ha0, Ha1, Ha2, Hv0, Hv1, Hv2, Hv3, Hv4, Hv6, Hv7, Hv11⟩
  imodintro
  isplitr [HO]
  · isplitl [Ha0]; · iexact Ha0
    isplitl [Ha1]; · iexact Ha1
    isplitl [Ha2]; · iexact Ha2
    isplitl [Hv0]; · iexact Hv0
    isplitl [Hv1]; · iexact Hv1
    isplitl [Hv2]; · iexact Hv2
    isplitl [Hv3]; · iexact Hv3
    isplitl [Hv4]; · iexact Hv4
    isplitl [Hv5]; · iexact Hv5
    isplitl [Hv6]; · iexact Hv6
    isplitl [Hv7]; · iexact Hv7
    isplitl [Hv8]; · iexact Hv8
    isplitl [Hv9]; · iexact Hv9
    isplitl [Hv10]; · iexact Hv10
    iexact Hv11
  iapply (owesAt_elim W c (Fin.last _)); iexact HO

/-- The TensorCore's kernel region: entered from the fifteen arrays held whole under `W` and the core owing nothing, it
    leaves them under `WR W`. The three operand arrays and the result array go through the pipeline; the other eleven
    bypass it. -/
def reg : Pipeline.RegionSeg (pcfgs (F := F)) adm (pdats W) (none : HIx 2) defs₀ 𝒱₀ (K (F := F)).L (K (F := F)).lev 0 where
  win := winFacts2.to₀
  block_pos := block_pos2
  stage_whole := stage_whole2
  K := PEmpty
  osem k := k.elim
  ho := Pipeline.OwnSemFacts.none _
  hbody c := (body_obligation W c).loose
  hwaits := Pipeline.hwaits_of_owed_zero _ _ _ _ _ _ 0 fun _ _ => rfl
  pre c := iprop(held (T c) S15 (W c) ∗ tcOwes (F := F) c)
  post c := iprop(held (T c) S15 (WR (W c)) ∗ tcOwes (F := F) c)
  X _ := iprop(emp)
  Y _ := iprop(emp)
  Z c := Pipeline.unscopedRest spec2 c (VW W c)
  hentry := reg_hentry W
  hin c := by iintro -; iempintro
  hout := reg_hout W
  hexit := reg_hexit W

theorem reg_pre (c : Dev nD) : (reg W).pre c = iprop(held (T c) S15 (W c) ∗ tcOwes (F := F) c) := rfl
theorem reg_post (c : Dev nD) : (reg W).post c = iprop(held (T c) S15 (WR (W c)) ∗ tcOwes (F := F) c) := rfl

/-! ## The region's call -/

/-- The region's call as the pipelines' program text, and @main's line as its lift. -/
abbrev regionCall : Prog (TpuEff nD τ sig (Elt F) (ΛP (F := F)) .tc) PUnit := Prog.op (.customCall (Pipeline.entry 0) ()) .ret
theorem lift_regionCall :
    (Prog.lift (.customCall (SparseCore.inner (Pipeline.entry 0)) ()) : Prog (TpuEff nD τ sig (Elt F) (SparseCore.Sig (ΛP (F := F)) 2) .tc) PUnit)
      = SparseCore.liftProg (regionCall (F := F)) := rfl

theorem tc_region (d : Dev nD) (V : Valuation τ sig (Elt F)) (Φ : PUnit → sProp 𝕄) :
    iprop(levAts (K (F := F)).L (K (F := F)).lev ∗ boundary (T d) ∗ held (T d) S15 V ∗ tcOwes (F := F) d ∗ mainG (F := F) d
        ∗ (iprop(boundary (T d) ∗ held (T d) S15 (WR V) ∗ tcOwes (F := F) d) -∗ Φ ⟨⟩))
      ⊢ wp frame (wpE ((K (F := F)).defs (D (F := F))) 𝒱 (T d) none) Set.univ
          (Prog.lift (.customCall (SparseCore.inner (Pipeline.entry 0)) ())) Φ := by
  rw [lift_regionCall]
  refine BIBase.Entails.trans ?_ ((K (F := F)).wp_liftProg (D (F := F)) 𝒱 (T d) Set.univ none (regionCall (F := F)) Φ)
  iintro ⟨#Hlev, Hb, Hheld, HO, ⟨Hg, Ht⟩, Hk⟩
  ihave Hg' := (Entails.of_eq (BI.bigSep_univ_of_subsingleton (Φ := fun p : Fin 1 => Pipeline.cellsGhost cfgs EP p d) (0 : Fin 1))) $$ Hg
  ihave Ht' := (Entails.of_eq (BI.bigSep_univ_of_subsingleton (Φ := fun p : Fin 1 => Pipeline.toksInit cfgs EP p d) (0 : Fin 1))) $$ Ht
  iapply (Pipeline.RegionSeg.wp (pcfgs (F := F)) adm (pdats (fun _ => V)) (none : HIx 2) cellOf_inj EP defs₀ 𝒱₀ (K (F := F)).L (K (F := F)).lev
      (reg (fun _ => V)) d none (fun _ h => nomatch h) (fun _ => .ret PUnit.unit) Φ)
  rw [reg_pre, reg_post]
  isplitl [Hk]
  · iintro ⟨Hb, Hheld, HO⟩
    rw [wp_ret]; imodintro
    iapply Hk
    isplitl [Hb]; · iexact Hb
    isplitl [Hheld] <;> iassumption
  isplitl [Hb]; · iexact Hb
  isplitl [Hheld HO]
  · isplitl [Hheld] <;> iassumption
  isplitr; · iexact Hlev
  isplitl [Hg'] <;> iassumption

end Cert.Proof.KB

end
-- ==== Proof.KB.TcOut.lean ====
/-
  What the TensorCore's addition leaves, as one function of its three operand arrays: entry (r, l) of the 128 × 128
  result is ((A[0, r, l] + A[1, r, l]) + B[0, r, l]) + B[1, r, l], plus the bias row's entry l.
-/
import proofs.«207420_g80582176408339_cont_9to1c4b_743_56_alg».proof.Proof.KB.Common

noncomputable section

namespace Cert.Proof.KB

open Cert.Kernel Cert.Kernel.Gen
open Idealize.ShloMosaic Idealize.ShloMosaic.ValueIdx

variable {F : FTy → Type} [FloatOps F]

def tcOut (A B : FVec F S2x128x128 .f32) (C : FVec F S1x128 .f32) : FVec F S128x128 .f32 := fun i =>
  FloatOps.addf (FloatOps.addf (FloatOps.addf (FloatOps.addf
    (A (ix3 (0 : Fin 2) (i 0 : Fin 128) (i 1 : Fin 128))) (A (ix3 (1 : Fin 2) (i 0 : Fin 128) (i 1 : Fin 128))))
    (B (ix3 (0 : Fin 2) (i 0 : Fin 128) (i 1 : Fin 128)))) (B (ix3 (1 : Fin 2) (i 0 : Fin 128) (i 1 : Fin 128))))
    (C (ix2 (0 : Fin 1) (i 1 : Fin 128)))

end Cert.Proof.KB

end
-- ==== Proof.KB.BodyOutEq.lean ====
/-
  What the TensorCore's body stores is the four halves added in order plus the bias row: the body's own term — loads of
  the two [1,128,128] halves of each partial-sum buffer recast as [128,128], added, the bias row broadcast over the
  rows — read at entry (r, l) is the specification's entry.
-/
import proofs.«207420_g80582176408339_cont_9to1c4b_743_56_alg».proof.Proof.KB.MainBody
import proofs.«207420_g80582176408339_cont_9to1c4b_743_56_alg».proof.Proof.KB.TcOut
import Idealize.ShloMosaic.Lib.ValueLayout
import Idealize.ShloMosaic.Lib.Pipeline.Value

noncomputable section

namespace Cert.Proof.KB

open Cert.Kernel Cert.Kernel.Gen
open Idealize.ShloMosaic Idealize.ShloMosaic.ValueIdx

variable {F : FTy → Type} [FloatOps F]

/-- A half of a whole [2,128,128] buffer, loaded as [1,128,128] and read at (0, r, l), is the buffer's entry (u, r, l), u the half. -/
theorem read0_lo (X : S2x128x128.Idx → Elt F .f32) (r l : Fin 128) :
    (stage2_0 0).view.readAt (Elt F) rcLo X (ix3 (0 : Fin 1) r l) = X (ix3 (0 : Fin 2) r l) := by
  rw [View.readAt_apply]
  show X _ = X _
  congr 1
  funext a
  apply Fin.ext
  simp only [View.emb_whole, Function.Embedding.refl_apply, LoadRect.idx_apply]
  match a with
  | ⟨0, _⟩ => rfl
  | ⟨1, _⟩ => show 0 + 1 * r.val = r.val; omega
  | ⟨2, _⟩ => show 0 + 1 * l.val = l.val; omega

theorem read0_hi (X : S2x128x128.Idx → Elt F .f32) (r l : Fin 128) :
    (stage2_0 0).view.readAt (Elt F) rcHi X (ix3 (0 : Fin 1) r l) = X (ix3 (1 : Fin 2) r l) := by
  rw [View.readAt_apply]
  show X _ = X _
  congr 1
  funext a
  apply Fin.ext
  simp only [View.emb_whole, Function.Embedding.refl_apply, LoadRect.idx_apply]
  match a with
  | ⟨0, _⟩ => rfl
  | ⟨1, _⟩ => show 0 + 1 * r.val = r.val; omega
  | ⟨2, _⟩ => show 0 + 1 * l.val = l.val; omega

theorem read1_lo (X : S2x128x128.Idx → Elt F .f32) (r l : Fin 128) :
    (stage2_1 0).view.readAt (Elt F) rcLo X (ix3 (0 : Fin 1) r l) = X (ix3 (0 : Fin 2) r l) := by
  rw [View.readAt_apply]
  show X _ = X _
  congr 1
  funext a
  apply Fin.ext
  simp only [View.emb_whole, Function.Embedding.refl_apply, LoadRect.idx_apply]
  match a with
  | ⟨0, _⟩ => rfl
  | ⟨1, _⟩ => show 0 + 1 * r.val = r.val; omega
  | ⟨2, _⟩ => show 0 + 1 * l.val = l.val; omega

theorem read1_hi (X : S2x128x128.Idx → Elt F .f32) (r l : Fin 128) :
    (stage2_1 0).view.readAt (Elt F) rcHi X (ix3 (0 : Fin 1) r l) = X (ix3 (1 : Fin 2) r l) := by
  rw [View.readAt_apply]
  show X _ = X _
  congr 1
  funext a
  apply Fin.ext
  simp only [View.emb_whole, Function.Embedding.refl_apply, LoadRect.idx_apply]
  match a with
  | ⟨0, _⟩ => rfl
  | ⟨1, _⟩ => show 0 + 1 * r.val = r.val; omega
  | ⟨2, _⟩ => show 0 + 1 * l.val = l.val; omega

/-- The body's stored term is the four halves added in order plus the bias row. -/
theorem bodyOut_eq (X0 X1 : S2x128x128.Idx → Elt F .f32) (X2 : S1x128.Idx → Elt F .f32) : bodyOut X0 X1 X2 = tcOut X0 X1 X2 := by
  funext i
  obtain ⟨r, l, rfl⟩ : ∃ (r : Fin 128) (l : Fin 128), i = ix2 r l := ⟨i 0, i 1, eq_ix2 i⟩
  unfold bodyOut tcOut Gen.k2_pay1
  simp only [addf]
  rw [shapeCast_1ab_ab_apply, shapeCast_1ab_ab_apply, shapeCast_1ab_ab_apply, shapeCast_1ab_ab_apply, broadcastTo_1b_ab_apply]
  rw [shapeCast_self, read0_lo, read0_hi, read1_lo, read1_hi]

end Cert.Proof.KB

end
-- ==== Proof.KB.TcValue.lean ====
/-
  The last host-side steps, read at one row.

  The two lookups' results are flat arrays of 32768 numbers, entry 16384 c + b being SparseCore c's partial sum for
  batch row b. Recast as [2, 128, 128] that entry sits at (c, b / 128, b % 128); the TensorCore's addition works on
  those 128 × 128 pages, and its result recast as [16384, 1] has entry (128 r + l, 0) from (r, l). So row b of the
  final array is ((first lookup, core 0) + (first lookup, core 1)) + (second lookup, core 0)) + (second lookup,
  core 1), plus the bias: the four partial sums in the order the program adds them. Only row-major positions are
  compared; no array is opened.
-/
import proofs.«207420_g80582176408339_cont_9to1c4b_743_56_alg».proof.Proof.KB.TcOut
import Idealize.ShloMosaic.Lib.Pipeline.Value
import Idealize.ShloMosaic.Lib.ValueIdx

noncomputable section

namespace Cert.Proof.KB

open Cert.Kernel Cert.Kernel.Gen
open Idealize.ShloMosaic Idealize.ShloMosaic.ValueIdx

variable {F : FTy → Type} [FloatOps F]

/-- A lookup's flat result recast as two pages of 128 × 128: page c at (b / 128, b % 128) is core c's partial sum for
    batch row b. -/
theorem partVal_page (xt : IVec S26x16384 32) (wh : FVec F S1300000 .f32) (fb : Nat) (c : Fin 2) (b : Fin 16384)
    (hr : b.val / 128 < 128) (hl : b.val % 128 < 128) :
    shapeCast S2x128x128 (partVal xt wh fb) Gen.shapeCasts_S32768_S2x128x128
        (ix3 c (⟨b.val / 128, hr⟩ : Fin 128) (⟨b.val % 128, hl⟩ : Fin 128))
      = partAt xt wh fb c.val b.val := by
  have hc := c.isLt
  have hb := b.isLt
  refine (shapeCast_apply _ _ _ (ix1 (⟨16384 * c.val + b.val, by omega⟩ : Fin 32768)) ?_).trans ?_
  · rw [Shape.rowMajor_val_one, Shape.rowMajor_val_three]
    show 16384 * c.val + b.val = (c.val * 128 + b.val / 128) * 128 + b.val % 128
    omega
  · show partAt xt wh fb ((16384 * c.val + b.val) / 16384) ((16384 * c.val + b.val) % 16384) = _
    have h1 : (16384 * c.val + b.val) / 16384 = c.val := by omega
    have h2 : (16384 * c.val + b.val) % 16384 = b.val := by omega
    rw [h1, h2]

/-- The bias row holds the bias in every lane. -/
theorem BR_apply (m : (ℓ : Loc nD τ sig) → Buf (Elt F) ℓ) (d : Dev nD) (l : Fin 128) :
    BR m d (ix2 (0 : Fin 1) l) = m (bLoc d) (ix1 (0 : Fin 1)) := by
  unfold BR broadcastInDim
  refine congrArg (m (bLoc d)) ?_
  funext a
  match a with
  | ⟨0, _⟩ => rfl

/-- The recast of the TensorCore's addition over the two lookups' recast results and the bias row is the final
    array: row b holds the four partial sums added in the program's order, plus the bias. -/
theorem res_of_tcOut (m : (ℓ : Loc nD τ sig) → Buf (Elt F) ℓ) (d : Dev nD) :
    shapeCast S16384x1 (tcOut (shapeCast S2x128x128 (PT0 m d) Gen.shapeCasts_S32768_S2x128x128) (shapeCast S2x128x128 (PT1 m d) Gen.shapeCasts_S32768_S2x128x128) (BR m d)) Gen.shapeCasts_S128x128_S16384x1 = RES m d := by
  funext i
  obtain ⟨b, z, rfl⟩ : ∃ (b : Fin 16384) (z : Fin 1), i = ix2 b z := ⟨i 0, i 1, eq_ix2 i⟩
  obtain rfl : z = 0 := Subsingleton.elim _ _
  have hb := b.isLt
  have hr : b.val / 128 < 128 := by omega
  have hl : b.val % 128 < 128 := by omega
  refine (shapeCast_apply _ _ _ (ix2 (⟨b.val / 128, hr⟩ : Fin 128) (⟨b.val % 128, hl⟩ : Fin 128)) ?_).trans ?_
  · rw [Shape.rowMajor_val_two, Shape.rowMajor_val_two]
    show b.val / 128 * 128 + b.val % 128 = b.val * 1 + 0
    omega
  · have e00 : (shapeCast S2x128x128 (PT0 m d) Gen.shapeCasts_S32768_S2x128x128) (ix3 (0 : Fin 2) (⟨b.val / 128, hr⟩ : Fin 128) (⟨b.val % 128, hl⟩ : Fin 128))
        = partAt (XT m d) (WH0 m d) 0 0 b.val := partVal_page _ _ 0 (0 : Fin 2) b hr hl
    have e01 : (shapeCast S2x128x128 (PT0 m d) Gen.shapeCasts_S32768_S2x128x128) (ix3 (1 : Fin 2) (⟨b.val / 128, hr⟩ : Fin 128) (⟨b.val % 128, hl⟩ : Fin 128))
        = partAt (XT m d) (WH0 m d) 0 1 b.val := partVal_page _ _ 0 (1 : Fin 2) b hr hl
    have e10 : (shapeCast S2x128x128 (PT1 m d) Gen.shapeCasts_S32768_S2x128x128) (ix3 (0 : Fin 2) (⟨b.val / 128, hr⟩ : Fin 128) (⟨b.val % 128, hl⟩ : Fin 128))
        = partAt (XT m d) (WH1 m d) 13 0 b.val := partVal_page _ _ 13 (0 : Fin 2) b hr hl
    have e11 : (shapeCast S2x128x128 (PT1 m d) Gen.shapeCasts_S32768_S2x128x128) (ix3 (1 : Fin 2) (⟨b.val / 128, hr⟩ : Fin 128) (⟨b.val % 128, hl⟩ : Fin 128))
        = partAt (XT m d) (WH1 m d) 13 1 b.val := partVal_page _ _ 13 (1 : Fin 2) b hr hl
    show FloatOps.addf (FloatOps.addf (FloatOps.addf (FloatOps.addf
        ((shapeCast S2x128x128 (PT0 m d) Gen.shapeCasts_S32768_S2x128x128) (ix3 (0 : Fin 2) (⟨b.val / 128, hr⟩ : Fin 128) (⟨b.val % 128, hl⟩ : Fin 128)))
        ((shapeCast S2x128x128 (PT0 m d) Gen.shapeCasts_S32768_S2x128x128) (ix3 (1 : Fin 2) (⟨b.val / 128, hr⟩ : Fin 128) (⟨b.val % 128, hl⟩ : Fin 128))))
        ((shapeCast S2x128x128 (PT1 m d) Gen.shapeCasts_S32768_S2x128x128) (ix3 (0 : Fin 2) (⟨b.val / 128, hr⟩ : Fin 128) (⟨b.val % 128, hl⟩ : Fin 128))))
        ((shapeCast S2x128x128 (PT1 m d) Gen.shapeCasts_S32768_S2x128x128) (ix3 (1 : Fin 2) (⟨b.val / 128, hr⟩ : Fin 128) (⟨b.val % 128, hl⟩ : Fin 128))))
        (BR m d (ix2 (0 : Fin 1) (⟨b.val % 128, hl⟩ : Fin 128)))
      = FloatOps.addf (FloatOps.addf (FloatOps.addf (FloatOps.addf (partAt (XT m d) (WH0 m d) 0 0 b.val)
        (partAt (XT m d) (WH0 m d) 0 1 b.val)) (partAt (XT m d) (WH1 m d) 13 0 b.val)) (partAt (XT m d) (WH1 m d) 13 1 b.val))
        (m (bLoc d) (ix1 (0 : Fin 1)))
    rw [e00, e01, e10, e11, BR_apply]

end Cert.Proof.KB

end
-- ==== Proof.KB.Main.lean ====
import proofs.«207420_g80582176408339_cont_9to1c4b_743_56_alg».proof.Proof.KB.MainCalls
import proofs.«207420_g80582176408339_cont_9to1c4b_743_56_alg».proof.Proof.KB.MainRegion
import proofs.«207420_g80582176408339_cont_9to1c4b_743_56_alg».proof.Proof.KB.BodyOutEq
import proofs.«207420_g80582176408339_cont_9to1c4b_743_56_alg».proof.Proof.KB.TcValue

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)
open Idealize.ShloMosaic.StableHlo (held held_split held_sdiff_result held_sub_split held_congr wp_hlo_within after)

variable {F : FTy → Type}

local notation "𝕄" => MT nD τ sig (HIx 2) (Elt F) ℕ UU ℕ

/-
  @main on the TensorCore. Six host operations make the lookups' operands (the index matrix transposed, the two half
  tables flattened, the bias as a row); each lookup is handed, per SparseCore, a read share of the index rows and of its
  half table and that SparseCore's 16384 entries of the result, and hands them back at the partial sums; the two results
  recast as pages go through the TensorCore's own kernel, whose sum recast as a column is the final array.
-/

variable [FloatOps F] (m : (ℓ : Loc nD τ sig) → Buf (Elt F) ℓ) (ρ : Dev nD → PrngReg)

/-! ## The arrays' contents along @main -/

/-- Before the first lookup: the three arguments as launched, the index matrix transposed, the two half tables, the bias row. -/
theorem held_V6 (d : Dev nD) :
    (held (T d) S15 ((opB (F := F)).result ((opR1 (F := F)).result ((opS1 (F := F)).result ((opR0 (F := F)).result ((opS0 (F := F)).result ((opT (F := F)).result (V0 m d))))))) : sProp 𝕄)
      = iprop((xLoc d ↦{fullShare} m (xLoc d)) ∗ (wLoc d ↦{fullShare} m (wLoc d)) ∗ (bLoc d ↦{fullShare} m (bLoc d)) ∗ (xtLoc d ↦{fullShare} XT m d) ∗ ((SparseCore.T d).loc main_v1 ↦{fullShare} V6 m d v1') ∗ (w0Loc d ↦{fullShare} WH0 m d) ∗ ((SparseCore.T d).loc main_v3 ↦{fullShare} V6 m d v3') ∗ (w1Loc d ↦{fullShare} WH1 m d) ∗ (brLoc d ↦{fullShare} BR m d) ∗ (p0Loc d ↦{fullShare} m (p0Loc d)) ∗ (p1Loc d ↦{fullShare} m (p1Loc d)) ∗ ((SparseCore.T d).loc main_v8 ↦{fullShare} V6 m d v8') ∗ ((SparseCore.T d).loc main_v9 ↦{fullShare} V6 m d v9') ∗ ((SparseCore.T d).loc main_v10 ↦{fullShare} V6 m d v10') ∗ (resLoc d ↦{fullShare} V6 m d v11')) := by
  show held (SparseCore.T d) S15 (V6 m d) = _
  rw [held_S15, V6_a0, V6_a1, V6_a2, V6_v0, V6_v2, V6_v4, V6_v5, V6_v6, V6_v7]

/-- After the two lookups: their results at the partial sums. -/
def V7 (d : Dev nD) : Valuation τ sig (Elt F) := Function.update (Function.update (V6 m d) v6' (PT0 m d)) v7' (PT1 m d)
theorem V7_a0 (d : Dev nD) : V7 m d a0' = m (xLoc d) := ((Function.update_of_ne (show a0' ≠ v7' by decide) _ _).trans (Function.update_of_ne (show a0' ≠ v6' by decide) _ _)).trans (V6_a0 m d)
theorem V7_a1 (d : Dev nD) : V7 m d a1' = m (wLoc d) := ((Function.update_of_ne (show a1' ≠ v7' by decide) _ _).trans (Function.update_of_ne (show a1' ≠ v6' by decide) _ _)).trans (V6_a1 m d)
theorem V7_a2 (d : Dev nD) : V7 m d a2' = m (bLoc d) := ((Function.update_of_ne (show a2' ≠ v7' by decide) _ _).trans (Function.update_of_ne (show a2' ≠ v6' by decide) _ _)).trans (V6_a2 m d)
theorem V7_v0 (d : Dev nD) : V7 m d v0' = XT m d := ((Function.update_of_ne (show v0' ≠ v7' by decide) _ _).trans (Function.update_of_ne (show v0' ≠ v6' by decide) _ _)).trans (V6_v0 m d)
theorem V7_v1 (d : Dev nD) : V7 m d v1' = V6 m d v1' := ((Function.update_of_ne (show v1' ≠ v7' by decide) _ _).trans (Function.update_of_ne (show v1' ≠ v6' by decide) _ _))
theorem V7_v2 (d : Dev nD) : V7 m d v2' = WH0 m d := ((Function.update_of_ne (show v2' ≠ v7' by decide) _ _).trans (Function.update_of_ne (show v2' ≠ v6' by decide) _ _)).trans (V6_v2 m d)
theorem V7_v3 (d : Dev nD) : V7 m d v3' = V6 m d v3' := ((Function.update_of_ne (show v3' ≠ v7' by decide) _ _).trans (Function.update_of_ne (show v3' ≠ v6' by decide) _ _))
theorem V7_v4 (d : Dev nD) : V7 m d v4' = WH1 m d := ((Function.update_of_ne (show v4' ≠ v7' by decide) _ _).trans (Function.update_of_ne (show v4' ≠ v6' by decide) _ _)).trans (V6_v4 m d)
theorem V7_v5 (d : Dev nD) : V7 m d v5' = BR m d := ((Function.update_of_ne (show v5' ≠ v7' by decide) _ _).trans (Function.update_of_ne (show v5' ≠ v6' by decide) _ _)).trans (V6_v5 m d)
theorem V7_v6 (d : Dev nD) : V7 m d v6' = PT0 m d := (Function.update_of_ne (show v6' ≠ v7' by decide) _ _).trans (Function.update_self _ _ _)
theorem V7_v7 (d : Dev nD) : V7 m d v7' = PT1 m d := Function.update_self _ _ _
theorem V7_v8 (d : Dev nD) : V7 m d v8' = V6 m d v8' := ((Function.update_of_ne (show v8' ≠ v7' by decide) _ _).trans (Function.update_of_ne (show v8' ≠ v6' by decide) _ _))
theorem V7_v9 (d : Dev nD) : V7 m d v9' = V6 m d v9' := ((Function.update_of_ne (show v9' ≠ v7' by decide) _ _).trans (Function.update_of_ne (show v9' ≠ v6' by decide) _ _))
theorem V7_v10 (d : Dev nD) : V7 m d v10' = V6 m d v10' := ((Function.update_of_ne (show v10' ≠ v7' by decide) _ _).trans (Function.update_of_ne (show v10' ≠ v6' by decide) _ _))
theorem V7_v11 (d : Dev nD) : V7 m d v11' = V6 m d v11' := ((Function.update_of_ne (show v11' ≠ v7' by decide) _ _).trans (Function.update_of_ne (show v11' ≠ v6' by decide) _ _))

theorem held_V7 (d : Dev nD) :
    (held (T d) S15 (V7 m d) : sProp 𝕄)
      = iprop((xLoc d ↦{fullShare} m (xLoc d)) ∗ (wLoc d ↦{fullShare} m (wLoc d)) ∗ (bLoc d ↦{fullShare} m (bLoc d)) ∗ (xtLoc d ↦{fullShare} XT m d) ∗ ((SparseCore.T d).loc main_v1 ↦{fullShare} V6 m d v1') ∗ (w0Loc d ↦{fullShare} WH0 m d) ∗ ((SparseCore.T d).loc main_v3 ↦{fullShare} V6 m d v3') ∗ (w1Loc d ↦{fullShare} WH1 m d) ∗ (brLoc d ↦{fullShare} BR m d) ∗ (p0Loc d ↦{fullShare} PT0 m d) ∗ (p1Loc d ↦{fullShare} PT1 m d) ∗ ((SparseCore.T d).loc main_v8 ↦{fullShare} V6 m d v8') ∗ ((SparseCore.T d).loc main_v9 ↦{fullShare} V6 m d v9') ∗ ((SparseCore.T d).loc main_v10 ↦{fullShare} V6 m d v10') ∗ (resLoc d ↦{fullShare} V6 m d v11')) := by
  rw [held_S15, V7_a0, V7_a1, V7_a2, V7_v0, V7_v1, V7_v2, V7_v3, V7_v4, V7_v5, V7_v6, V7_v7, V7_v8, V7_v9, V7_v10, V7_v11]

/-- After the two recasts, the TensorCore's addition and the last recast. -/
def V9 (d : Dev nD) : Valuation τ sig (Elt F) := after [opP0, opP1] (V7 m d)
def V11 (d : Dev nD) : Valuation τ sig (Elt F) := (opO (F := F)).result (WR (V9 m d))

theorem V9_v8 (d : Dev nD) : V9 m d v8' = shapeCast S2x128x128 (PT0 m d) Gen.shapeCasts_S32768_S2x128x128 := by
  unfold V9; after_results_simp; rw [V7_v6]; rfl
theorem V9_v9 (d : Dev nD) : V9 m d v9' = shapeCast S2x128x128 (PT1 m d) Gen.shapeCasts_S32768_S2x128x128 := by
  unfold V9; after_results_simp; rw [V7_v7]; rfl
theorem V9_v5 (d : Dev nD) : V9 m d v5' = BR m d := by
  unfold V9; after_results_simp; exact V7_v5 m d
theorem V9_a0 (d : Dev nD) : V9 m d a0' = m (xLoc d) := by
  unfold V9; after_results_simp; exact V7_a0 m d
theorem V9_a1 (d : Dev nD) : V9 m d a1' = m (wLoc d) := by
  unfold V9; after_results_simp; exact V7_a1 m d
theorem V9_a2 (d : Dev nD) : V9 m d a2' = m (bLoc d) := by
  unfold V9; after_results_simp; exact V7_a2 m d

theorem V11_a0 (d : Dev nD) : V11 m d a0' = m (xLoc d) := by
  unfold V11; rw [(opO (F := F)).result_of_not_mem _ (show a0' ∉ ({v11'} : Finset (DevRef τ sig)) by decide), WR_a0, V9_a0]
theorem V11_a1 (d : Dev nD) : V11 m d a1' = m (wLoc d) := by
  unfold V11; rw [(opO (F := F)).result_of_not_mem _ (show a1' ∉ ({v11'} : Finset (DevRef τ sig)) by decide), WR_a1, V9_a1]
theorem V11_a2 (d : Dev nD) : V11 m d a2' = m (bLoc d) := by
  unfold V11; rw [(opO (F := F)).result_of_not_mem _ (show a2' ∉ ({v11'} : Finset (DevRef τ sig)) by decide), WR_a2, V9_a2]
theorem V11_v11 (d : Dev nD) : V11 m d v11' = RES m d := by
  unfold V11
  refine (StableHlo.reshape_result' (x := main_v10) (y := main_v11) rfl Gen.shapeCasts_S128x128_S16384x1 _ _ (WR (V9 m d))).trans ?_
  rw [WR_v10, V9_v8, V9_v9, V9_v5, bodyOut_eq]
  exact res_of_tcOut m d

/-- What @main leaves the claim, out of the fifteen arrays at the end. -/
theorem held_V11 (d : Dev nD) : (held (T d) S15 ((opO (F := F)).result (WR (V9 m d))) : sProp 𝕄) ⊢ FIN m d := by
  show held (SparseCore.T d) S15 (V11 m d) ⊢ _
  rw [held_S15, V11_a0, V11_a1, V11_a2, V11_v11]
  iintro ⟨Ha0, Ha1, Ha2, -, -, -, -, -, -, -, -, -, -, -, Hv11⟩
  isplitl [Ha0]; · iexact Ha0
  isplitl [Ha1]; · iexact Ha1
  isplitl [Ha2]; · iexact Ha2
  iexact Hv11

/-! ## The TensorCore's handshake state around its own kernel -/

/-- The TensorCore's state after both calls but for what it owes. -/
def tcSt2Rest (d : Dev nD) : sProp 𝕄 :=
  iprop(atPos EH ((K (F := F)).doneCell d) 2 ∅ 0 ∗ reached EH ((K (F := F)).doneCell d) 2
    ∗ (bigSep Finset.univ fun c : Fin τ.nSC => reached EH ((K (F := F)).startCell d c) ((K (F := F)).sRank c 2))
    ∗ bigSep (SparseCore.Cfg.callsFrom 2) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt2_eq (d : Dev nD) : ((K (F := F)).tcSt EH d 2 : sProp 𝕄) = iprop(tcOwes (F := F) d ∗ tcSt2Rest (F := F) d) := by
  unfold SparseCore.Cfg.tcSt tcSt2Rest tcOwes
  rw [(K (F := F)).Otc_end d (le_refl 2)]

/-! ## @main on the TensorCore -/

theorem hmain (κ : GSem nD τ sig → ℕ) (d : Dev nD) :
    iprop((K (F := F)).ctx EH (P m) κ ∗ (K (F := F)).tcSt EH d 0 ∗ (K (F := F)).tcRes m ρ d ∗ mainG (F := F) d)
      ⊢ wp frame (wpE ((K (F := F)).defs (D (F := F))) 𝒱 (SparseCore.T d) none) Set.univ (main d)
          fun _ => iprop((K (F := F)).tcSt EH d 2 ∗ FIN m d) := by
  unfold SparseCore.Cfg.tcRes
  rw [show (unscopedBufs d (fun b => m ((SparseCore.T d).loc b)) : sProp 𝕄) = held (T d) S15 (V0 m d) from unscoped_held d (V0 m d)]
  simp only [main, wp_bind, wp_pure]
  iintro ⟨#Hctx, Hst, ⟨Hb, Hheld, -, -⟩, HG⟩
  -- the six host operations
  iapply (wp_hlo_within 𝒱 (SparseCore.T d) none Set.univ (op := opT) (S := S15) hT (V := V0 m d)) $$ [Hb Hheld]
  · isplitl [Hb] <;> iassumption
  iintro ⟨Hb, Hheld⟩
  rw [wp_ret]; imodintro
  iapply (wp_hlo_within 𝒱 (SparseCore.T d) none Set.univ (op := opS0) (S := S15) hS0 (V := (opT (F := F)).result (V0 m d))) $$ [Hb Hheld]
  · isplitl [Hb] <;> iassumption
  iintro ⟨Hb, Hheld⟩
  rw [wp_ret]; imodintro
  iapply (wp_hlo_within 𝒱 (SparseCore.T d) none Set.univ (op := opR0) (S := S15) hR0 (V := (opS0 (F := F)).result ((opT (F := F)).result (V0 m d)))) $$ [Hb Hheld]
  · isplitl [Hb] <;> iassumption
  iintro ⟨Hb, Hheld⟩
  rw [wp_ret]; imodintro
  iapply (wp_hlo_within 𝒱 (SparseCore.T d) none Set.univ (op := opS1) (S := S15) hS1 (V := (opR0 (F := F)).result ((opS0 (F := F)).result ((opT (F := F)).result (V0 m d))))) $$ [Hb Hheld]
  · isplitl [Hb] <;> iassumption
  iintro ⟨Hb, Hheld⟩
  rw [wp_ret]; imodintro
  iapply (wp_hlo_within 𝒱 (SparseCore.T d) none Set.univ (op := opR1) (S := S15) hR1 (V := (opS1 (F := F)).result ((opR0 (F := F)).result ((opS0 (F := F)).result ((opT (F := F)).result (V0 m d)))))) $$ [Hb Hheld]
  · isplitl [Hb] <;> iassumption
  iintro ⟨Hb, Hheld⟩
  rw [wp_ret]; imodintro
  iapply (wp_hlo_within 𝒱 (SparseCore.T d) none Set.univ (op := opB) (S := S15) hB (V := (opR1 (F := F)).result ((opS1 (F := F)).result ((opR0 (F := F)).result ((opS0 (F := F)).result ((opT (F := F)).result (V0 m d))))))) $$ [Hb Hheld]
  · isplitl [Hb] <;> iassumption
  iintro ⟨Hb, Hheld⟩
  rw [wp_ret]; imodintro
  ihave Hh := (Entails.of_eq (held_V6 (F := F) m d)) $$ Hheld
  icases Hh with ⟨Ha0, Ha1, Ha2, Hxt, Hv1, Hw0, Hv3, Hw1, Hbr, Hp0, Hp1, Hv8, Hv9, Hv10, Hv11⟩
  -- the read shares and the results' halves for the two SparseCores
  ihave Hxt' := (pointsTo_toks_split (ℓ := xtLoc d) fullShare 2) $$ Hxt
  icases Hxt' with ⟨Hxt0, Hxts⟩
  ihave Hw0' := (pointsTo_toks_split (ℓ := w0Loc d) fullShare 2) $$ Hw0
  icases Hw0' with ⟨Hw00, Hw0s⟩
  ihave Hw1' := (pointsTo_toks_split (ℓ := w1Loc d) fullShare 2) $$ Hw1
  icases Hw1' with ⟨Hw10, Hw1s⟩
  ihave Hp0s := (Entails.of_eq (p0_halves (F := F) d (m (p0Loc d)))) $$ Hp0
  ihave Hp1s := (Entails.of_eq (p1_halves (F := F) d (m (p1Loc d)))) $$ Hp1

  -- lookup 0
  iapply ((K (F := F)).wp_run (D (F := F)) 𝒱 (EH := EH) (P := P m) κ d 0) $$ [Hst HG Hb Ha0 Ha1 Ha2 Hv1 Hv3 Hbr Hv8 Hv9 Hv10 Hv11 Hxt0 Hxts Hw00 Hw0s Hw10 Hw1s Hp0s Hp1s]
  isplitr; · iexact Hctx
  isplitl [Hst]; · iexact Hst
  isplitl [Hxts Hw0s Hp0s]
  · rw [st0_eq]
    isplitl [Hxts]; · iexact Hxts
    isplitl [Hw0s] <;> iassumption
  iintro ⟨Hst, Hdn⟩
  ihave Hdn' := (Entails.of_eq (dn0_eq (F := F) m d)) $$ Hdn
  icases Hdn' with ⟨Hxts, Hw0s, Hp0s, Hbpos⟩
  -- lookup 1
  iapply ((K (F := F)).wp_run (D (F := F)) 𝒱 (EH := EH) (P := P m) κ d 1) $$ [Hst HG Hb Ha0 Ha1 Ha2 Hv1 Hv3 Hbr Hv8 Hv9 Hv10 Hv11 Hxt0 Hxts Hw00 Hw0s Hw10 Hw1s Hp0s Hp1s Hbpos]
  isplitr; · iexact Hctx
  isplitl [Hst]; · iexact Hst
  isplitl [Hxts Hw1s Hp1s Hbpos]
  · rw [st1_eq]
    isplitl [Hxts]; · iexact Hxts
    isplitl [Hw1s]; · iexact Hw1s
    isplitl [Hp1s] <;> iassumption
  iintro ⟨Hst, Hdn⟩
  ihave Hdn' := (Entails.of_eq (dn1_eq (F := F) m d)) $$ Hdn
  icases Hdn' with ⟨Hxts, Hw1s, Hp1s⟩
  -- the shares rejoined, the results whole again
  ihave Hxt := (pointsTo_toks_join (ℓ := xtLoc d) fullShare 2) $$ [Hxt0 Hxts]
  · isplitl [Hxt0] <;> iassumption
  ihave Hw0 := (pointsTo_toks_join (ℓ := w0Loc d) fullShare 2) $$ [Hw00 Hw0s]
  · isplitl [Hw00] <;> iassumption
  ihave Hw1 := (pointsTo_toks_join (ℓ := w1Loc d) fullShare 2) $$ [Hw10 Hw1s]
  · isplitl [Hw10] <;> iassumption
  ihave Hp0 := (Entails.of_eq (p0_halves (F := F) d (PT0 m d)).symm) $$ Hp0s
  ihave Hp1 := (Entails.of_eq (p1_halves (F := F) d (PT1 m d)).symm) $$ Hp1s
  -- the two recasts
  iapply (wp_hlo_within 𝒱 (SparseCore.T d) none Set.univ (op := opP0) (S := S15) hP0 (V := V7 m d)) $$ [Hb Ha0 Ha1 Ha2 Hxt Hv1 Hw0 Hv3 Hw1 Hbr Hp0 Hp1 Hv8 Hv9 Hv10 Hv11]
  · isplitl [Hb]; · iexact Hb
    rw [held_V7]
    isplitl [Ha0]; · iexact Ha0
    isplitl [Ha1]; · iexact Ha1
    isplitl [Ha2]; · iexact Ha2
    isplitl [Hxt]; · iexact Hxt
    isplitl [Hv1]; · iexact Hv1
    isplitl [Hw0]; · iexact Hw0
    isplitl [Hv3]; · iexact Hv3
    isplitl [Hw1]; · iexact Hw1
    isplitl [Hbr]; · iexact Hbr
    isplitl [Hp0]; · iexact Hp0
    isplitl [Hp1]; · iexact Hp1
    isplitl [Hv8]; · iexact Hv8
    isplitl [Hv9]; · iexact Hv9
    isplitl [Hv10]; · iexact Hv10
    iexact Hv11
  iintro ⟨Hb, Hheld⟩
  rw [wp_ret]; imodintro
  iapply (wp_hlo_within 𝒱 (SparseCore.T d) none Set.univ (op := opP1) (S := S15) hP1 (V := (opP0 (F := F)).result (V7 m d))) $$ [Hb Hheld]
  · isplitl [Hb] <;> iassumption
  iintro ⟨Hb, Hheld⟩
  rw [wp_ret]; imodintro

  -- the TensorCore's own kernel: it owes nothing any more
  ihave Hst' := (Entails.of_eq (show ((K (F := F)).tcSt EH d ((1 : Fin 2).val + 1) : sProp 𝕄) = iprop(tcOwes (F := F) d ∗ tcSt2Rest (F := F) d) from tcSt2_eq (F := F) d)) $$ Hst
  icases Hst' with ⟨HO, Hrest⟩
  ihave Hlev := (SparseCore.Cfg.ctx_levAts (K := K (F := F)) (EH := EH) (P := P m) κ) $$ Hctx
  iapply (tc_region d ((opP1 (F := F)).result ((opP0 (F := F)).result (V7 m d))) _) $$ [Hlev Hb Hheld HO HG Hrest]
  isplitl [Hlev]; · iexact Hlev
  isplitl [Hb]; · iexact Hb
  isplitl [Hheld]; · iexact Hheld
  isplitl [HO]; · iexact HO
  isplitl [HG]; · iexact HG
  iintro ⟨Hb, Hheld, HO⟩
  -- the last recast
  iapply (wp_hlo_within 𝒱 (SparseCore.T d) none Set.univ (op := opO) (S := S15) hO (V := WR ((opP1 (F := F)).result ((opP0 (F := F)).result (V7 m d))))) $$ [Hb Hheld]
  · isplitl [Hb] <;> iassumption
  iintro ⟨Hb, Hheld⟩
  rw [wp_ret]; imodintro
  imodintro
  isplitl [HO Hrest]
  · iapply (Entails.of_eq (tcSt2_eq (F := F) d).symm)
    isplitl [HO] <;> iassumption
  iapply (held_V11 m d); iexact Hheld

end Cert.Proof.KB

end
-- ==== Proof.KB.Whole.lean ====
/-
  The kernel's run from the launch memory, whole: the launch theorem applied to the two lookups' tile obligations, the
  splits of each SparseCore's operands among its tiles, the launch element and @main on the TensorCore. Under the stated
  domain of the index matrix every weakly fair execution of all the threads terminates, nothing faulting, with the result
  array at `RES` and the three arguments unchanged.
-/
import proofs.«207420_g80582176408339_cont_9to1c4b_743_56_alg».proof.Proof.KB.Run
import proofs.«207420_g80582176408339_cont_9to1c4b_743_56_alg».proof.Proof.KB.Value
import proofs.«207420_g80582176408339_cont_9to1c4b_743_56_alg».proof.Proof.KB.Tile0
import proofs.«207420_g80582176408339_cont_9to1c4b_743_56_alg».proof.Proof.KB.Tile1
import proofs.«207420_g80582176408339_cont_9to1c4b_743_56_alg».proof.Proof.KB.Main

noncomputable section

namespace Cert.Proof.KB

open Cert.Kernel Cert.Kernel.Gen
open Idealize.ShloMosaic Idealize.SL.Sem

variable {F : FTy → Type} [FloatOps F]

theorem run_main [∀ e, Nonempty (Elt F e)] (m : (ℓ : Loc nD τ sig) → Buf (Elt F) ℓ) (ρ : Dev nD → PrngReg) (hx : InRange m) :
    θ_run (Cert.Kernel.defs (F := F)) (Cert.Kernel.threads (F := F)) ⟨m, fun _ => 0, ρ⟩ (QC m) :=
  run_of_parts m ρ (tileObl0 m hx facts) (tileObl1 m hx facts) (hmain m ρ)

end Cert.Proof.KB

end
-- ==== Proof.lean ====
/-
  The certificate's claim.

  Both programs compute, for every batch row, the sum over the 26 fields of the table's entry at row
  field · 100000 + index, plus the bias (proof/Proof/Spec.lean). The reference does it with one gather and one
  reduction; its run is read back operation by operation and its result is that term wherever the indices are in their
  stated range. The kernel does it with two lookups on the SparseCores — each tile owning one field looks its 16384
  indices up in its own copy of the field's 100000 rows, the tiles meet at a barrier that hands every tile a column
  block of every row, and each tile adds its seven rows — and one addition on the TensorCore. Its run is the launch
  theorem for SparseCore programs applied to one tile's task per lookup, proved once at a symbolic tile, and to the
  TensorCore's @main; the same text serves the word-level program and its idealization, being generic in the float
  instance. At the ideal instance floats are extended reals and addition is commutative and associative, so the order
  in which the 26 entries are added does not matter: the two results are one function of the arguments. The frames
  are the runs with the values dropped; the idealization rewrote nothing, so there is nothing to preserve.
-/
import proofs.«207420_g80582176408339_cont_9to1c4b_743_56_alg».proof.Defs
import proofs.«207420_g80582176408339_cont_9to1c4b_743_56_alg».proof.Proof.Gen.Kernel
import proofs.«207420_g80582176408339_cont_9to1c4b_743_56_alg».proof.Proof.Gen.Kernel.Skeleton
import proofs.«207420_g80582176408339_cont_9to1c4b_743_56_alg».proof.Proof.Gen.Kernel.Launch
import proofs.«207420_g80582176408339_cont_9to1c4b_743_56_alg».proof.Proof.Gen.Kernel.Points
import proofs.«207420_g80582176408339_cont_9to1c4b_743_56_alg».proof.Proof.Gen.KernelIdeal
import proofs.«207420_g80582176408339_cont_9to1c4b_743_56_alg».proof.Proof.Gen.KernelIdeal.Skeleton
import proofs.«207420_g80582176408339_cont_9to1c4b_743_56_alg».proof.Proof.Gen.KernelIdeal.Launch
import proofs.«207420_g80582176408339_cont_9to1c4b_743_56_alg».proof.Proof.Gen.KernelIdeal.Points
import proofs.«207420_g80582176408339_cont_9to1c4b_743_56_alg».proof.Proof.Gen.ReferenceIdeal
import proofs.«207420_g80582176408339_cont_9to1c4b_743_56_alg».proof.Proof.Gen.Pre_input_domain
import proofs.«207420_g80582176408339_cont_9to1c4b_743_56_alg».proof.Proof.RefValue
import proofs.«207420_g80582176408339_cont_9to1c4b_743_56_alg».proof.Proof.KI.Whole
import proofs.«207420_g80582176408339_cont_9to1c4b_743_56_alg».proof.Proof.KB.Whole
import Idealize.ShloMosaic.Adequacy
import Idealize.ShloMosaic.Init

noncomputable section

namespace Cert.Proof

open Idealize.ShloMosaic Idealize.SL.Sem

theorem frame_k : Cert.frame_Kernel := fun m ρ hpre =>
  (θ_run Cert.Kernel.defs _ _).mono (fun _ h c => (h c).2) (KB.run_main (F := Bits) m ρ (KB.inRange_of_pre m hpre))

theorem frame_ki : Cert.frame_KernelIdeal := fun m ρ hpre =>
  (θ_run Cert.KernelIdeal.defs _ _).mono (fun _ h c => (h c).2) (KI.run_main (F := Ideal) m ρ (KI.inRange_of_pre m hpre))

theorem frame_ri : Cert.frame_ReferenceIdeal := fun m ρ hpre =>
  (θ_run Cert.ReferenceIdeal.defs _ _).mono (fun _ h c => (h c).2) (Cert.ReferenceIdeal.RefValue.run m ρ hpre)

/-- From memories agreeing on the arguments both runs end with the result at the specification's term of them. -/
theorem algebraic : Cert.algebraic_KernelIdeal_ReferenceIdeal := by
  intro m ρ m' ρ' hpre hagree
  have hx := KI.inRange_of_pre m hpre
  have hpre' : Cert.Pre_ReferenceIdeal m' := fun c => by
    show Cert.Pre_input_domain.fn _ _ _ = _
    rw [(hagree c).1, (hagree c).2.1, (hagree c).2.2]; exact hpre c
  refine ⟨fun c => KI.RES m c, KI.run_main (F := Ideal) m ρ hx, ?_⟩
  refine (θ_run Cert.ReferenceIdeal.defs _ _).mono (fun _ h c => ⟨(h c).1.trans ?_, (h c).2⟩) (Cert.ReferenceIdeal.RefValue.run m' ρ' hpre')
  rw [(hagree c).1, (hagree c).2.1, (hagree c).2.2]
  exact (KI.RES_eq_G m hx c).symm

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
